-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S2048x1024 : Shape := ⟨2, ![2048, 1024]⟩
abbrev S2048 : Shape := ⟨1, ![2048]⟩
abbrev S2048x2048 : Shape := ⟨2, ![2048, 2048]⟩
abbrev S1024x2048 : Shape := ⟨2, ![1024, 2048]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_arg11 : FVec F S1024 .f32) (main_arg12 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  main_v63

def fn_part2 {F : FTy → Type} [FloatOps F] (main_arg7 : FVec F S2048 .f32) (main_arg8 : FVec F S2048 .f32) (main_arg9 : FVec F S1024x2048 .f32) (main_arg10 : FVec F S1024 .f32) (main_arg11 : FVec F S1024 .f32) (main_arg12 : FVec F S1024 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S1024x2048 .f32 := Host.absf main_arg9
  let main_cst_16 : FVec F S_ .f32 := constant S_ .f32 0x7F800000#32
  let main_v45 : FVec F S1024x2048 .f32 := broadcastInDim S1024x2048 ![] bcast_S_S1024x2048 main_cst_16
  let main_v46 : IVec S1024x2048 1 := cmpf .olt main_v44 main_v45
  let main_c_17 : IVec S_ 1 := constantI S_ 1 1#1
  let main_v47 : IVec S_ 1 := (fun x v => Host.reduce IntOp.andi x v reducesTo_S1024x2048_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_v48 main_v49 main_v50

def fn_part1 {F : FTy → Type} [FloatOps F] (main_arg4 : FVec F S2048 .f32) (main_arg5 : FVec F S2048x2048 .f32) (main_arg6 : FVec F S2048 .f32) (main_arg7 : FVec F S2048 .f32) (main_arg8 : FVec F S2048 .f32) (main_arg9 : FVec F S1024x2048 .f32) (main_arg10 : FVec F S1024 .f32) (main_arg11 : FVec F S1024 .f32) (main_arg12 : FVec F S1024 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S16384x1024 .f32) (main_arg1 : FVec F S2048x1024 .f32) (main_arg2 : FVec F S2048 .f32) (main_arg3 : FVec F S2048 .f32) (main_arg4 : FVec F S2048 .f32) (main_arg5 : FVec F S2048x2048 .f32) (main_arg6 : FVec F S2048 .f32) (main_arg7 : FVec F S2048 .f32) (main_arg8 : FVec F S2048 .f32) (main_arg9 : FVec F S1024x2048 .f32) (main_arg10 : FVec F S1024 .f32) (main_arg11 : FVec F S1024 .f32) (main_arg12 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_arg8 main_arg9 main_arg10 main_arg11 main_arg12 main_v13 main_v16
-- ==== Kernel.lean ====
abbrev S16384x1024 : Shape := ⟨2, ![16384, 1024]⟩
abbrev S2048x1024 : Shape := ⟨2, ![2048, 1024]⟩
abbrev S2048 : Shape := ⟨1, ![2048]⟩
abbrev S2048x2048 : Shape := ⟨2, ![2048, 2048]⟩
abbrev S1024x2048 : Shape := ⟨2, ![1024, 2048]⟩
abbrev S1024 : Shape := ⟨1, ![1024]⟩
abbrev S1x2048 : Shape := ⟨2, ![1, 2048]⟩
abbrev S16384x2048 : Shape := ⟨2, ![16384, 2048]⟩
abbrev S512x1024 : Shape := ⟨2, ![512, 1024]⟩
abbrev S1024x1024 : Shape := ⟨2, ![1024, 1024]⟩
abbrev S1x1024 : Shape := ⟨2, ![1, 1024]⟩
abbrev S_ : Shape := ⟨0, ![]⟩
abbrev S512x2048 : Shape := ⟨2, ![512, 2048]⟩
abbrev S1x512 : Shape := ⟨2, ![1, 512]⟩
abbrev S512x512 : Shape := ⟨2, ![512, 512]⟩
abbrev S512 : Shape := ⟨1, ![512]⟩

abbrev nBuf : Space → Nat
  | .hbm => 56
  | .vmem => 55
  | .smem => 0
  | _ => 0

abbrev bufTy : (tb : Table) → Fin (tcTables nBuf tb) → BufTy
  | .hbm, ⟨0, _⟩ => ⟨S16384x1024, .f32⟩
  | .hbm, ⟨1, _⟩ => ⟨S2048x1024, .f32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048, .f32⟩
  | .hbm, ⟨8, _⟩ => ⟨S2048, .f32⟩
  | .hbm, ⟨9, _⟩ => ⟨S1024x2048, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1x2048, .f32⟩
  | .hbm, ⟨14, _⟩ => ⟨S16384x2048, .f32⟩
  | .hbm, ⟨15, _⟩ => ⟨S1x2048, .f32⟩
  | .hbm, ⟨16, _⟩ => ⟨S1x2048, .f32⟩
  | .hbm, ⟨17, _⟩ => ⟨S_, .f32⟩
  | .hbm, ⟨18, _⟩ => ⟨S1x2048, .f32⟩
  | .hbm, ⟨19, _⟩ => ⟨S1x2048, .f32⟩
  | .hbm, ⟨20, _⟩ => ⟨S_, .f32⟩
  | .hbm, ⟨21, _⟩ => ⟨S1x2048, .f32⟩
  | .hbm, ⟨22, _⟩ => ⟨S1x2048, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S1x2048, .f32⟩
  | .hbm, ⟨27, _⟩ => ⟨S1x2048, .f32⟩
  | .hbm, ⟨28, _⟩ => ⟨S16384x2048, .f32⟩
  | .hbm, ⟨29, _⟩ => ⟨S1x2048, .f32⟩
  | .hbm, ⟨30, _⟩ => ⟨S1x2048, .f32⟩
  | .hbm, ⟨31, _⟩ => ⟨S_, .f32⟩
  | .hbm, ⟨32, _⟩ => ⟨S1x2048, .f32⟩
  | .hbm, ⟨33, _⟩ => ⟨S1x2048, .f32⟩
  | .hbm, ⟨34, _⟩ => ⟨S_, .f32⟩
  | .hbm, ⟨35, _⟩ => ⟨S1x2048, .f32⟩
  | .hbm, ⟨36, _⟩ => ⟨S1x2048, .f32⟩
  | .hbm, ⟨37, _⟩ => ⟨S1x2048, .f32⟩
  | .hbm, ⟨38, _⟩ => ⟨S1x2048, .f32⟩
  | .hbm, ⟨39, _⟩ => ⟨S1x2048, .f32⟩
  | .hbm, ⟨40, _⟩ => ⟨S1x2048, .f32⟩
  | .hbm, ⟨41, _⟩ => ⟨S1x1024, .f32⟩
  | .hbm, ⟨42, _⟩ => ⟨S16384x1024, .f32⟩
  | .hbm, ⟨43, _⟩ => ⟨S1x1024, .f32⟩
  | .hbm, ⟨44, _⟩ => ⟨S1x1024, .f32⟩
  | .hbm, ⟨45, _⟩ => ⟨S_, .f32⟩
  | .hbm, ⟨46, _⟩ => ⟨S1x1024, .f32⟩
  | .hbm, ⟨47, _⟩ => ⟨S1x1024, .f32⟩
  | .hbm, ⟨48, _⟩ => ⟨S_, .f32⟩
  | .hbm, ⟨49, _⟩ => ⟨S1x1024, .f32⟩
  | .hbm, ⟨50, _⟩ => ⟨S1x1024, .f32⟩
  | .hbm, ⟨51, _⟩ => ⟨S1x1024, .f32⟩
  | .hbm, ⟨52, _⟩ => ⟨S1x1024, .f32⟩
  | .hbm, ⟨53, _⟩ => ⟨S1x1024, .f32⟩
  | .hbm, ⟨54, _⟩ => ⟨S1x1024, .f32⟩
  | .hbm, ⟨55, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S512x2048, .f32⟩
  | .local _ .vmem, ⟨14, _⟩ => ⟨S512x2048, .f32⟩
  | .local _ .vmem, ⟨15, _⟩ => ⟨S1x2048, .f32⟩
  | .local _ .vmem, ⟨16, _⟩ => ⟨S1x2048, .f32⟩
  | .local _ .vmem, ⟨17, _⟩ => ⟨S1x2048, .f32⟩
  | .local _ .vmem, ⟨18, _⟩ => ⟨S1x2048, .f32⟩
  | .local _ .vmem, ⟨19, _⟩ => ⟨S1024x2048, .f32⟩
  | .local _ .vmem, ⟨20, _⟩ => ⟨S1x1024, .f32⟩
  | .local _ .vmem, ⟨21, _⟩ => ⟨S1x1024, .f32⟩
  | .local _ .vmem, ⟨22, _⟩ => ⟨S512x1024, .f32⟩
  | .local _ .vmem, ⟨23, _⟩ => ⟨S512x1024, .f32⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | .local _ .vmem, ⟨28, _⟩ => ⟨S1x1024, .f32⟩
  | .local _ .vmem, ⟨29, _⟩ => ⟨S1x1024, .f32⟩
  | .local _ .vmem, ⟨30, _⟩ => ⟨S512x2048, .f32⟩
  | .local _ .vmem, ⟨31, _⟩ => ⟨S512x2048, .f32⟩
  | .local _ .vmem, ⟨32, _⟩ => ⟨S1x2048, .f32⟩
  | .local _ .vmem, ⟨33, _⟩ => ⟨S1x2048, .f32⟩
  | .local _ .vmem, ⟨34, _⟩ => ⟨S1x2048, .f32⟩
  | .local _ .vmem, ⟨35, _⟩ => ⟨S1x2048, .f32⟩
  | .local _ .vmem, ⟨36, _⟩ => ⟨S512x2048, .f32⟩
  | .local _ .vmem, ⟨37, _⟩ => ⟨S1x512, .f32⟩
  | .local _ .vmem, ⟨38, _⟩ => ⟨S1x512, .f32⟩
  | .local _ .vmem, ⟨39, _⟩ => ⟨S512x512, .f32⟩
  | .local _ .vmem, ⟨40, _⟩ => ⟨S512x512, .f32⟩
  | .local _ .vmem, ⟨41, _⟩ => ⟨S1x512, .f32⟩
  | .local _ .vmem, ⟨42, _⟩ => ⟨S1x512, .f32⟩
  | .local _ .vmem, ⟨43, _⟩ => ⟨S1x512, .f32⟩
  | .local _ .vmem, ⟨44, _⟩ => ⟨S1x512, .f32⟩
  | .local _ .vmem, ⟨45, _⟩ => ⟨S1x512, .f32⟩
  | .local _ .vmem, ⟨46, _⟩ => ⟨S1x512, .f32⟩
  | .local _ .vmem, ⟨47, _⟩ => ⟨S1024x1024, .f32⟩
  | .local _ .vmem, ⟨48, _⟩ => ⟨S1024x1024, .f32⟩
  | .local _ .vmem, ⟨49, _⟩ => ⟨S1x1024, .f32⟩
  | .local _ .vmem, ⟨50, _⟩ => ⟨S1x1024, .f32⟩
  | .local _ .vmem, ⟨51, _⟩ => ⟨S1x1024, .f32⟩
  | .local _ .vmem, ⟨52, _⟩ => ⟨S1x1024, .f32⟩
  | .local _ .vmem, ⟨53, _⟩ => ⟨S1024x1024, .f32⟩
  | .local _ .vmem, ⟨54, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1_0 : Ref sig .tc := ⟨.hbm, 14, rfl⟩
abbrev main_v1_1 : Ref sig .tc := ⟨.hbm, 15, rfl⟩
abbrev main_v1_2 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11_0 : Ref sig .tc := ⟨.hbm, 28, rfl⟩
abbrev main_v11_1 : Ref sig .tc := ⟨.hbm, 29, rfl⟩
abbrev main_v11_2 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_cst_2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21_0 : Ref sig .tc := ⟨.hbm, 42, rfl⟩
abbrev main_v21_1 : Ref sig .tc := ⟨.hbm, 43, rfl⟩
abbrev main_v21_2 : Ref sig .tc := ⟨.hbm, 44, rfl⟩
abbrev main_cst_3 : Ref sig .tc := ⟨.hbm, 45, rfl⟩
abbrev main_v22 : Ref sig .tc := ⟨.hbm, 46, rfl⟩
abbrev main_v23 : Ref sig .tc := ⟨.hbm, 47, rfl⟩
abbrev main_cst_4 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg8_1 : Ref sig .tc := ⟨.vmem, 25, rfl⟩
abbrev cc1_stg9_0 : Ref sig .tc := ⟨.vmem, 26, rfl⟩
abbrev cc1_stg9_1 : Ref sig .tc := ⟨.vmem, 27, rfl⟩
abbrev cc1_scratch0 : Ref sig .tc := ⟨.vmem, 28, rfl⟩
abbrev cc1_scratch1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg2_0 : Ref sig .tc := ⟨.vmem, 33, rfl⟩
abbrev cc2_stg3_0 : Ref sig .tc := ⟨.vmem, 34, rfl⟩
abbrev cc2_stg4_0 : Ref sig .tc := ⟨.vmem, 35, rfl⟩
abbrev cc2_stg5_0 : Ref sig .tc := ⟨.vmem, 36, rfl⟩
abbrev cc2_stg6_0 : Ref sig .tc := ⟨.vmem, 37, rfl⟩
abbrev cc2_stg6_1 : Ref sig .tc := ⟨.vmem, 38, rfl⟩
abbrev cc2_stg7_0 : Ref sig .tc := ⟨.vmem, 39, rfl⟩
abbrev cc2_stg7_1 : Ref sig .tc := ⟨.vmem, 40, rfl⟩
abbrev cc2_stg8_0 : Ref sig .tc := ⟨.vmem, 41, rfl⟩
abbrev cc2_stg8_1 : Ref sig .tc := ⟨.vmem, 42, rfl⟩
abbrev cc2_stg9_0 : Ref sig .tc := ⟨.vmem, 43, rfl⟩
abbrev cc2_stg9_1 : Ref sig .tc := ⟨.vmem, 44, rfl⟩
abbrev cc2_scratch0 : Ref sig .tc := ⟨.vmem, 45, rfl⟩
abbrev cc2_scratch1 : Ref sig .tc := ⟨.vmem, 46, rfl⟩
abbrev cc3_stg0_0 : Ref sig .tc := ⟨.vmem, 47, rfl⟩
abbrev cc3_stg0_1 : Ref sig .tc := ⟨.vmem, 48, rfl⟩
abbrev cc3_stg1_0 : Ref sig .tc := ⟨.vmem, 49, rfl⟩
abbrev cc3_stg2_0 : Ref sig .tc := ⟨.vmem, 50, rfl⟩
abbrev cc3_stg3_0 : Ref sig .tc := ⟨.vmem, 51, rfl⟩
abbrev cc3_stg4_0 : Ref sig .tc := ⟨.vmem, 52, rfl⟩
abbrev cc3_stg5_0 : Ref sig .tc := ⟨.vmem, 53, rfl⟩
abbrev cc3_stg5_1 : Ref sig .tc := ⟨.vmem, 54, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc1_sem7_0 : DmaSem sig := 20
abbrev cc1_sem7_1 : DmaSem sig := 21
abbrev cc1_sem8_0 : DmaSem sig := 22
abbrev cc1_sem8_1 : DmaSem sig := 23
abbrev cc1_sem9_0 : DmaSem sig := 24
abbrev cc1_sem9_1 : DmaSem sig := 25
abbrev cc2_sem0_0 : DmaSem sig := 26
abbrev cc2_sem0_1 : DmaSem sig := 27
abbrev cc2_sem1_0 : DmaSem sig := 28
abbrev cc2_sem2_0 : DmaSem sig := 29
abbrev cc2_sem3_0 : DmaSem sig := 30
abbrev cc2_sem4_0 : DmaSem sig := 31
abbrev cc2_sem5_0 : DmaSem sig := 32
abbrev cc2_sem6_0 : DmaSem sig := 33
abbrev cc2_sem6_1 : DmaSem sig := 34
abbrev cc2_sem7_0 : DmaSem sig := 35
abbrev cc2_sem7_1 : DmaSem sig := 36
abbrev cc2_sem8_0 : DmaSem sig := 37
abbrev cc2_sem8_1 : DmaSem sig := 38
abbrev cc2_sem9_0 : DmaSem sig := 39
abbrev cc2_sem9_1 : DmaSem sig := 40
abbrev cc3_sem0_0 : DmaSem sig := 41
abbrev cc3_sem0_1 : DmaSem sig := 42
abbrev cc3_sem1_0 : DmaSem sig := 43
abbrev cc3_sem2_0 : DmaSem sig := 44
abbrev cc3_sem3_0 : DmaSem sig := 45
abbrev cc3_sem4_0 : DmaSem sig := 46
abbrev cc3_sem5_0 : DmaSem sig := 47
abbrev cc3_sem5_1 : DmaSem sig := 48

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v28 : BitVec 1 := Scalar.cmpi .eq arg1 c31_i32
  let v29 : BitVec 32 := Scalar.extui v28
  let c0_i32_18 : BitVec 32 := 0#32
  let v30 : BitVec 1 := Scalar.cmpi .ne v29 c0_i32_18
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![2, 32], ![false, false]⟩

def k1_cond2 (i : grid1.Coords) : BitVec 1 :=
  let arg1 : BitVec 32 := BitVec.ofNat 32 (i 1).val
  let c31_i32 : BitVec 32 := 31#32
  let v48 : BitVec 1 := Scalar.cmpi .eq arg1 c31_i32
  let v49 : BitVec 32 := Scalar.extui v48
  let c0_i32_27 : BitVec 32 := 0#32
  let v50 : BitVec 1 := Scalar.cmpi .ne v49 c0_i32_27
  v50

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1024x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true, false]

abbrev stage1_6 : Fin 2 → Memref sig .tc .vmem S1x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S512x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev grid2 : Pipeline.Grid := ⟨2, ![2, 32], ![false, false]⟩

def k2_cond2 (i : grid2.Coords) : BitVec 1 :=
  let arg1 : BitVec 32 := BitVec.ofNat 32 (i 1).val
  let c31_i32 : BitVec 32 := 31#32
  let v48 : BitVec 1 := Scalar.cmpi .eq arg1 c31_i32
  let v49 : BitVec 32 := Scalar.extui v48
  let c0_i32_27 : BitVec 32 := 0#32
  let v50 : BitVec 1 := Scalar.cmpi .ne v49 c0_i32_27
  v50

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S512x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 1 → Memref sig .tc .vmem S1x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x2048 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x2048 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S512x2048 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true, false]

abbrev stage2_6 : Fin 2 → Memref sig .tc .vmem S1x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev stage2_7 : Fin 2 → Memref sig .tc .vmem S512x512 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev stage2_8 : Fin 2 → Memref sig .tc .vmem S1x512 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, false]

abbrev stage2_9 : Fin 2 → Memref sig .tc .vmem S1x512 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, false]

abbrev grid3 : Pipeline.Grid := ⟨2, ![16, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S1x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, true]

abbrev stage3_3 : Fin 1 → Memref sig .tc .vmem S1x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, true]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, true]

abbrev stage3_5 : Fin 2 → Memref sig .tc .vmem S1024x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

class Facts₀ : Prop where
  shapeCasts_S2048_S1x2048 : S2048.ShapeCasts S1x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  broadcasts_S1x1024_S512x1024 : S1x1024.Broadcasts S512x1024
  reduces_S512x1024_S1024 : S512x1024.Reduces [0] S1024
  shapeCasts_S1024_S1x1024 : S1024.ShapeCasts S1x1024
  bcast_S_S1x2048 : S_.BroadcastsInDim S1x2048 (![] : Fin 0 → Fin S1x2048.rank)
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  broadcasts_S1x2048_S512x2048 : S1x2048.Broadcasts S512x2048
  inb_S1024x2048_S1024x2048_0_0 : ∀ a, (![0, 0] : Fin 2 → Nat) a + S1024x2048.size a ≤ S1024x2048.size a
  h_S1024x2048 : 0 < S1024x2048.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  reduces_S512x512_S512 : S512x512.Reduces [0] S512
  shapeCasts_S512_S1x512 : S512.ShapeCasts S1x512
  bcast_S_S1x1024 : S_.BroadcastsInDim S1x1024 (![] : Fin 0 → Fin S1x1024.rank)
  shapeCasts_S1024x1024_S1024x1024 : S1024x1024.ShapeCasts S1024x1024
  broadcasts_S1x1024_S1024x1024 : S1x1024.Broadcasts S1024x1024
  dot_S512x1024_S1024x1024_S512x1024_1_1_0_0_n_n_wf : DotDims.WF S512x1024 S1024x1024 S512x1024 [1] [1] [0] [0] [] []
  dot_S512x2048_S1024x2048_S512x1024_1_1_0_0_n_n_wf : DotDims.WF S512x2048 S1024x2048 S512x1024 [1] [1] [0] [0] [] []
  dot_S512x2048_S512x2048_S512x512_1_1_0_0_n_n_wf : DotDims.WF S512x2048 S512x2048 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S2048x1024.size a
  hwx0_1 : ∀ i : grid0.Coords, EltTy.bits .f32 = 32 ∨ (Rect.block (s := S2048x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x2048.size a
  hwx0_2 : ∀ i : grid0.Coords, EltTy.bits .f32 = 32 ∨ (Rect.block (s := S1x2048) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S16384x2048.size a
  hwx0_3 : ∀ i : grid0.Coords, EltTy.bits .f32 = 32 ∨ (Rect.block (s := S16384x2048) S512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x2048.size a
  hwx0_4 : ∀ i : grid0.Coords, EltTy.bits .f32 = 32 ∨ (Rect.block (s := S1x2048) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x2048.size a
  hwx0_5 : ∀ i : grid0.Coords, EltTy.bits .f32 = 32 ∨ (Rect.block (s := S1x2048) S1x1024.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S16384x2048.size a
  hwx1_0 : ∀ i : grid1.Coords, EltTy.bits .f32 = 32 ∨ (Rect.block (s := S16384x2048) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x2048.size a
  hwx1_1 : ∀ i : grid1.Coords, EltTy.bits .f32 = 32 ∨ (Rect.block (s := S1x2048) S1x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x2048.size a ≤ S1x2048.size a
  hwx1_3 : ∀ i : grid1.Coords, EltTy.bits .f32 = 32 ∨ (Rect.block (s := S1x2048) S1x2048.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x2048.size a ≤ S1x2048.size a
  hwx1_4 : ∀ i : grid1.Coords, EltTy.bits .f32 = 32 ∨ (Rect.block (s := S1x2048) S1x2048.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x2048.size a ≤ S2048x2048.size a
  hwx1_5 : ∀ i : grid1.Coords, EltTy.bits .f32 = 32 ∨ (Rect.block (s := S2048x2048) S1024x2048.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1024.size a ≤ S1x2048.size a
  hwx1_6 : ∀ i : grid1.Coords, EltTy.bits .f32 = 32 ∨ (Rect.block (s := S1x2048) S1x1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x1024.size a ≤ S16384x2048.size a
  hwx1_7 : ∀ i : grid1.Coords, EltTy.bits .f32 = 32 ∨ (Rect.block (s := S16384x2048) S512x1024.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x1024.size a ≤ S1x2048.size a
  hwx1_8 : ∀ i : grid1.Coords, EltTy.bits .f32 = 32 ∨ (Rect.block (s := S1x2048) S1x1024.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x1024.size a ≤ S1x2048.size a
  hwx1_9 : ∀ i : grid1.Coords, EltTy.bits .f32 = 32 ∨ (Rect.block (s := S1x2048) S1x1024.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2048.size a ≤ S16384x2048.size a
  hwx2_0 : ∀ i : grid2.Coords, EltTy.bits .f32 = 32 ∨ (Rect.block (s := S16384x2048) S512x2048.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x2048.size a ≤ S1x2048.size a
  hwx2_1 : ∀ i : grid2.Coords, EltTy.bits .f32 = 32 ∨ (Rect.block (s := S1x2048) S1x2048.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x2048.size a ≤ S1x2048.size a
  hwx2_2 : ∀ i : grid2.Coords, EltTy.bits .f32 = 32 ∨ (Rect.block (s := S1x2048) S1x2048.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x2048.size a ≤ S1x2048.size a
  hwx2_3 : ∀ i : grid2.Coords, EltTy.bits .f32 = 32 ∨ (Rect.block (s := S1x2048) S1x2048.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x2048.size a ≤ S1x2048.size a
  hwx2_4 : ∀ i : grid2.Coords, EltTy.bits .f32 = 32 ∨ (Rect.block (s := S1x2048) S1x2048.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S512x2048.size a ≤ S1024x2048.size a
  hwx2_5 : ∀ i : grid2.Coords, EltTy.bits .f32 = 32 ∨ (Rect.block (s := S1024x2048) S512x2048.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x512.size a ≤ S1x1024.size a
  hwx2_6 : ∀ i : grid2.Coords, EltTy.bits .f32 = 32 ∨ (Rect.block (s := S1x1024) S1x512.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S512x512.size a ≤ S16384x1024.size a
  hwx2_7 : ∀ i : grid2.Coords, EltTy.bits .f32 = 32 ∨ (Rect.block (s := S16384x1024) S512x512.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1x512.size a ≤ S1x1024.size a
  hwx2_8 : ∀ i : grid2.Coords, EltTy.bits .f32 = 32 ∨ (Rect.block (s := S1x1024) S1x512.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S1x512.size a ≤ S1x1024.size a
  hwx2_9 : ∀ i : grid2.Coords, EltTy.bits .f32 = 32 ∨ (Rect.block (s := S1x1024) S1x512.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S16384x1024.size a
  hwx3_0 : ∀ i : grid3.Coords, EltTy.bits .f32 = 32 ∨ (Rect.block (s := S16384x1024) S1024x1024.size (cc3_transform_0 i) (hinb3_0 i)).WholeWords (EltTy.packing .f32)
  hstage3_1 : ∀ j, (stage3_1 j).IsWhole
  nbuf3_1 : grid3.bufCount reads3_1 false = 1
  hreads3_1 : ∀ i i' : grid3.Coords, (∀ a, reads3_1 a = true → i a = i' a) → cc3_transform_1 i = cc3_transform_1 i'
  hinb3_1 : ∀ (i : grid3.Coords) a, (cc3_transform_1 i a + 1) * S1x1024.size a ≤ S1x1024.size a
  hwx3_1 : ∀ i : grid3.Coords, EltTy.bits .f32 = 32 ∨ (Rect.block (s := S1x1024) S1x1024.size (cc3_transform_1 i) (hinb3_1 i)).WholeWords (EltTy.packing .f32)
  hstage3_2 : ∀ j, (stage3_2 j).IsWhole
  nbuf3_2 : grid3.bufCount reads3_2 false = 1
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x1024.size a
  hwx3_2 : ∀ i : grid3.Coords, EltTy.bits .f32 = 32 ∨ (Rect.block (s := S1x1024) S1x1024.size (cc3_transform_2 i) (hinb3_2 i)).WholeWords (EltTy.packing .f32)
  hstage3_3 : ∀ j, (stage3_3 j).IsWhole
  nbuf3_3 : grid3.bufCount reads3_3 false = 1
  hreads3_3 : ∀ i i' : grid3.Coords, (∀ a, reads3_3 a = true → i a = i' a) → cc3_transform_3 i = cc3_transform_3 i'
  hinb3_3 : ∀ (i : grid3.Coords) a, (cc3_transform_3 i a + 1) * S1x1024.size a ≤ S1x1024.size a
  hwx3_3 : ∀ i : grid3.Coords, EltTy.bits .f32 = 32 ∨ (Rect.block (s := S1x1024) S1x1024.size (cc3_transform_3 i) (hinb3_3 i)).WholeWords (EltTy.packing .f32)
  hstage3_4 : ∀ j, (stage3_4 j).IsWhole
  nbuf3_4 : grid3.bufCount reads3_4 false = 1
  hreads3_4 : ∀ i i' : grid3.Coords, (∀ a, reads3_4 a = true → i a = i' a) → cc3_transform_4 i = cc3_transform_4 i'
  hinb3_4 : ∀ (i : grid3.Coords) a, (cc3_transform_4 i a + 1) * S1x1024.size a ≤ S1x1024.size a
  hwx3_4 : ∀ i : grid3.Coords, EltTy.bits .f32 = 32 ∨ (Rect.block (s := S1x1024) S1x1024.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1024x1024.size a ≤ S16384x1024.size a
  hwx3_5 : ∀ i : grid3.Coords, EltTy.bits .f32 = 32 ∨ (Rect.block (s := S16384x1024) S1024x1024.size (cc3_transform_5 i) (hinb3_5 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x2048_S1024x2048_S512x1024_1_1_0_0_n_n : DotDims S512x2048 S1024x2048 S512x1024 where
  lhsContracting := [1]
  rhsContracting := [1]
  lhsNonContracting := [0]
  rhsNonContracting := [0]
  lhsBatch := []
  rhsBatch := []
  wf := dot_S512x2048_S1024x2048_S512x1024_1_1_0_0_n_n_wf
def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_2) S1x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v1_0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S1x2048.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S1024x2048.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v10) S1x1024.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v11_0) S512x1024.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v11_1) S1x1024.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v11_2) S1x1024.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev idle1 : Fin 10 → grid1.Coords → Bool := fun | 0 => fun _ => false | 1 => fun _ => false | 2 => fun _ => false | 3 => fun _ => false | 4 => fun _ => false | 5 => fun _ => false | 6 => fun _ => false | 7 => fun _ => false | 8 => fun i => !(k1_cond2 i == 1#1) | 9 => fun i => !(k1_cond2 i == 1#1) | ⟨_ + 10, h⟩ => absurd h (Nat.not_lt.2 (Nat.le_add_left _ _))

abbrev win2_0 : Pipeline.Window sig grid2 :=
  Pipeline.Window.ofSpec (Memref.whole main_v11_0) S512x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S1x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v17) S1x2048.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v18) S1x2048.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v19) S1x2048.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg9) S512x2048.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v20) S1x512.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v21_0) S512x512.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v21_1) S1x512.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v21_2) S1x512.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev idle2 : Fin 10 → grid2.Coords → Bool := fun | 0 => fun _ => false | 1 => fun _ => false | 2 => fun _ => false | 3 => fun _ => false | 4 => fun _ => false | 5 => fun _ => false | 6 => fun _ => false | 7 => fun _ => false | 8 => fun i => !(k2_cond2 i == 1#1) | 9 => fun i => !(k2_cond2 i == 1#1) | ⟨_ + 10, h⟩ => absurd h (Nat.not_lt.2 (Nat.le_add_left _ _))

abbrev win3_0 : Pipeline.Window sig grid3 :=
  Pipeline.Window.ofSpec (Memref.whole main_v21_0) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v23) S1x1024.size cc3_transform_1 reads3_1 false false 1 stage3_1 sem3_1
    hrank3 hreads3_1 hinb3_1 nbuf3_1 (Memref.isWhole_whole _) hwx3_1 hstage3_1

abbrev win3_2 : Pipeline.Window sig grid3 :=
  Pipeline.Window.ofSpec (Memref.whole main_v27) S1x1024.size cc3_transform_2 reads3_2 false false 1 stage3_2 sem3_2
    hrank3 hreads3_2 hinb3_2 nbuf3_2 (Memref.isWhole_whole _) hwx3_2 hstage3_2

abbrev win3_3 : Pipeline.Window sig grid3 :=
  Pipeline.Window.ofSpec (Memref.whole main_v28) S1x1024.size cc3_transform_3 reads3_3 false false 1 stage3_3 sem3_3
    hrank3 hreads3_3 hinb3_3 nbuf3_3 (Memref.isWhole_whole _) hwx3_3 hstage3_3

abbrev win3_4 : Pipeline.Window sig grid3 :=
  Pipeline.Window.ofSpec (Memref.whole main_v29) S1x1024.size cc3_transform_4 reads3_4 false false 1 stage3_4 sem3_4
    hrank3 hreads3_4 hinb3_4 nbuf3_4 (Memref.isWhole_whole _) hwx3_4 hstage3_4

abbrev win3_5 : Pipeline.Window sig grid3 :=
  Pipeline.Window.ofSpec (Memref.whole main_v30) S1024x1024.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S16384x1024 : Shape := ⟨2, ![16384, 1024]⟩
abbrev S2048x1024 : Shape := ⟨2, ![2048, 1024]⟩
abbrev S2048 : Shape := ⟨1, ![2048]⟩
abbrev S2048x2048 : Shape := ⟨2, ![2048, 2048]⟩
abbrev S1024x2048 : Shape := ⟨2, ![1024, 2048]⟩
abbrev S1024 : Shape := ⟨1, ![1024]⟩
abbrev S16384x2048 : Shape := ⟨2, ![16384, 2048]⟩
abbrev S1x2048 : Shape := ⟨2, ![1, 2048]⟩
abbrev S_ : Shape := ⟨0, ![]⟩
abbrev S1x1024 : Shape := ⟨2, ![1, 1024]⟩

abbrev nBuf : Space → Nat
  | .hbm => 160
  | .vmem => 0
  | .smem => 0
  | _ => 0

abbrev hbmTy0_0 (i : Nat) : BufTy := match i % 128 with
  | 0 => ⟨S16384x1024, .f32⟩
  | 1 => ⟨S2048x1024, .f32⟩
  | 2 => ⟨S2048, .f32⟩
  | 3 => ⟨S2048, .f32⟩
  | 4 => ⟨S2048, .f32⟩
  | 5 => ⟨S2048x2048, .f32⟩
  | 6 => ⟨S2048, .f32⟩
  | 7 => ⟨S2048, .f32⟩
  | 8 => ⟨S2048, .f32⟩
  | 9 => ⟨S1024x2048, .f32⟩
  | 10 => ⟨S1024, .f32⟩
  | 11 => ⟨S1024, .f32⟩
  | 12 => ⟨S1024, .f32⟩
  | 13 => ⟨S1024x2048, .f32⟩
  | 14 => ⟨S16384x2048, .f32⟩
  | 15 => ⟨S1x2048, .f32⟩
  | 16 => ⟨S16384x2048, .f32⟩
  | 17 => ⟨S16384x2048, .f32⟩
  | 18 => ⟨S_, .f32⟩
  | 19 => ⟨S2048, .f32⟩
  | 20 => ⟨S_, .f32⟩
  | 21 => ⟨S2048, .f32⟩
  | 22 => ⟨S2048, .f32⟩
  | 23 => ⟨S_, .i32⟩
  | 24 => ⟨S_, .f32⟩
  | 25 => ⟨S2048, .f32⟩
  | 26 => ⟨S1x2048, .f32⟩
  | 27 => ⟨S_, .f32⟩
  | 28 => ⟨S1x2048, .f32⟩
  | 29 => ⟨S1x2048, .f32⟩
  | 30 => ⟨S16384x2048, .f32⟩
  | 31 => ⟨S16384x2048, .f32⟩
  | 32 => ⟨S16384x2048, .f32⟩
  | 33 => ⟨S_, .f32⟩
  | 34 => ⟨S_, .f32⟩
  | 35 => ⟨S_, .f32⟩
  | 36 => ⟨S_, .f32⟩
  | 37 => ⟨S2048, .f32⟩
  | 38 => ⟨S2048, .f32⟩
  | 39 => ⟨S2048, .f32⟩
  | 40 => ⟨S_, .f32⟩
  | 41 => ⟨S_, .i1⟩
  | 42 => ⟨S_, .f32⟩
  | 43 => ⟨S_, .f32⟩
  | 44 => ⟨S2048, .f32⟩
  | 45 => ⟨S2048, .f32⟩
  | 46 => ⟨S1x2048, .f32⟩
  | 47 => ⟨S16384x2048, .f32⟩
  | 48 => ⟨S16384x2048, .f32⟩
  | 49 => ⟨S1x2048, .f32⟩
  | 50 => ⟨S16384x2048, .f32⟩
  | 51 => ⟨S16384x2048, .f32⟩
  | 52 => ⟨S_, .f32⟩
  | 53 => ⟨S2048, .f32⟩
  | 54 => ⟨S2048, .f32⟩
  | 55 => ⟨S2048, .f32⟩
  | 56 => ⟨S1x2048, .f32⟩
  | 57 => ⟨S16384x2048, .f32⟩
  | 58 => ⟨S16384x2048, .f32⟩
  | 59 => ⟨S1x2048, .f32⟩
  | 60 => ⟨S16384x2048, .f32⟩
  | 61 => ⟨S16384x2048, .f32⟩
  | 62 => ⟨S2048x2048, .f32⟩
  | 63 => ⟨S16384x2048, .f32⟩
  | 64 => ⟨S1x2048, .f32⟩
  | 65 => ⟨S16384x2048, .f32⟩
  | 66 => ⟨S16384x2048, .f32⟩
  | 67 => ⟨S_, .f32⟩
  | 68 => ⟨S2048, .f32⟩
  | 69 => ⟨S_, .f32⟩
  | 70 => ⟨S2048, .f32⟩
  | 71 => ⟨S2048, .f32⟩
  | 72 => ⟨S_, .i32⟩
  | 73 => ⟨S_, .f32⟩
  | 74 => ⟨S2048, .f32⟩
  | 75 => ⟨S1x2048, .f32⟩
  | 76 => ⟨S_, .f32⟩
  | 77 => ⟨S1x2048, .f32⟩
  | 78 => ⟨S1x2048, .f32⟩
  | 79 => ⟨S16384x2048, .f32⟩
  | 80 => ⟨S16384x2048, .f32⟩
  | 81 => ⟨S16384x2048, .f32⟩
  | 82 => ⟨S_, .f32⟩
  | 83 => ⟨S_, .f32⟩
  | 84 => ⟨S_, .f32⟩
  | 85 => ⟨S_, .f32⟩
  | 86 => ⟨S2048, .f32⟩
  | 87 => ⟨S2048, .f32⟩
  | 88 => ⟨S2048, .f32⟩
  | 89 => ⟨S_, .f32⟩
  | 90 => ⟨S_, .i1⟩
  | 91 => ⟨S_, .f32⟩
  | 92 => ⟨S_, .f32⟩
  | 93 => ⟨S2048, .f32⟩
  | 94 => ⟨S2048, .f32⟩
  | 95 => ⟨S1x2048, .f32⟩
  | 96 => ⟨S16384x2048, .f32⟩
  | 97 => ⟨S16384x2048, .f32⟩
  | 98 => ⟨S1x2048, .f32⟩
  | 99 => ⟨S16384x2048, .f32⟩
  | 100 => ⟨S16384x2048, .f32⟩
  | 101 => ⟨S_, .f32⟩
  | 102 => ⟨S2048, .f32⟩
  | 103 => ⟨S2048, .f32⟩
  | 104 => ⟨S2048, .f32⟩
  | 105 => ⟨S1x2048, .f32⟩
  | 106 => ⟨S16384x2048, .f32⟩
  | 107 => ⟨S16384x2048, .f32⟩
  | 108 => ⟨S1x2048, .f32⟩
  | 109 => ⟨S16384x2048, .f32⟩
  | 110 => ⟨S16384x2048, .f32⟩
  | 111 => ⟨S2048x1024, .f32⟩
  | 112 => ⟨S16384x1024, .f32⟩
  | 113 => ⟨S1x1024, .f32⟩
  | 114 => ⟨S16384x1024, .f32⟩
  | 115 => ⟨S16384x1024, .f32⟩
  | 116 => ⟨S_, .f32⟩
  | 117 => ⟨S1024, .f32⟩
  | 118 => ⟨S_, .f32⟩
  | 119 => ⟨S1024, .f32⟩
  | 120 => ⟨S1024, .f32⟩
  | 121 => ⟨S_, .i32⟩
  | 122 => ⟨S_, .f32⟩
  | 123 => ⟨S1024, .f32⟩
  | 124 => ⟨S1x1024, .f32⟩
  | 125 => ⟨S_, .f32⟩
  | 126 => ⟨S1x1024, .f32⟩
  | 127 => ⟨S1x1024, .f32⟩
  | _ => ⟨S16384x1024, .f32⟩

abbrev hbmTy0_1 (i : Nat) : BufTy := match i % 128 with
  | 0 => ⟨S16384x1024, .f32⟩
  | 1 => ⟨S16384x1024, .f32⟩
  | 2 => ⟨S16384x1024, .f32⟩
  | 3 => ⟨S_, .f32⟩
  | 4 => ⟨S_, .f32⟩
  | 5 => ⟨S_, .f32⟩
  | 6 => ⟨S_, .f32⟩
  | 7 => ⟨S1024, .f32⟩
  | 8 => ⟨S1024, .f32⟩
  | 9 => ⟨S1024, .f32⟩
  | 10 => ⟨S_, .f32⟩
  | 11 => ⟨S_, .i1⟩
  | 12 => ⟨S_, .f32⟩
  | 13 => ⟨S_, .f32⟩
  | 14 => ⟨S1024, .f32⟩
  | 15 => ⟨S1024, .f32⟩
  | 16 => ⟨S1x1024, .f32⟩
  | 17 => ⟨S16384x1024, .f32⟩
  | 18 => ⟨S16384x1024, .f32⟩
  | 19 => ⟨S1x1024, .f32⟩
  | 20 => ⟨S16384x1024, .f32⟩
  | 21 => ⟨S16384x1024, .f32⟩
  | 22 => ⟨S_, .f32⟩
  | 23 => ⟨S1024, .f32⟩
  | 24 => ⟨S1024, .f32⟩
  | 25 => ⟨S1024, .f32⟩
  | 26 => ⟨S1x1024, .f32⟩
  | 27 => ⟨S16384x1024, .f32⟩
  | 28 => ⟨S16384x1024, .f32⟩
  | 29 => ⟨S1x1024, .f32⟩
  | 30 => ⟨S16384x1024, .f32⟩
  | 31 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_c : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_cst_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_cst_1 : Ref sig .tc := ⟨.hbm, 34, rfl⟩
abbrev main_call0_v8 : Ref sig .tc := ⟨.hbm, 35, rfl⟩
abbrev main_call0_cst_2 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_cst_3 : Ref sig .tc := ⟨.hbm, 40, rfl⟩
abbrev main_call0_v12 : Ref sig .tc := ⟨.hbm, 41, rfl⟩
abbrev main_call0_cst_4 : Ref sig .tc := ⟨.hbm, 42, rfl⟩
abbrev main_call0_call0_v0 : Ref sig .tc := ⟨.hbm, 43, rfl⟩
abbrev main_call0_call0_v1 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_cst_1 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_cst_2 : Ref sig .tc := ⟨.hbm, 67, rfl⟩
abbrev main_v29 : Ref sig .tc := ⟨.hbm, 68, rfl⟩
abbrev main_cst_3 : Ref sig .tc := ⟨.hbm, 69, rfl⟩
abbrev main_v30 : Ref sig .tc := ⟨.hbm, 70, rfl⟩
abbrev main_v31 : Ref sig .tc := ⟨.hbm, 71, rfl⟩
abbrev main_c_4 : Ref sig .tc := ⟨.hbm, 72, rfl⟩
abbrev main_call1_cst : Ref sig .tc := ⟨.hbm, 73, rfl⟩
abbrev main_call1_v0 : Ref sig .tc := ⟨.hbm, 74, rfl⟩
abbrev main_call1_v1 : Ref sig .tc := ⟨.hbm, 75, rfl⟩
abbrev main_call1_cst_0 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_call1_v5 : Ref sig .tc := ⟨.hbm, 80, rfl⟩
abbrev main_call1_v6 : Ref sig .tc := ⟨.hbm, 81, rfl⟩
abbrev main_call1_v7 : Ref sig .tc := ⟨.hbm, 82, rfl⟩
abbrev main_call1_cst_1 : Ref sig .tc := ⟨.hbm, 83, rfl⟩
abbrev main_call1_v8 : Ref sig .tc := ⟨.hbm, 84, rfl⟩
abbrev main_call1_cst_2 : Ref sig .tc := ⟨.hbm, 85, rfl⟩
abbrev main_call1_v9 : Ref sig .tc := ⟨.hbm, 86, rfl⟩
abbrev main_call1_v10 : Ref sig .tc := ⟨.hbm, 87, rfl⟩
abbrev main_call1_v11 : Ref sig .tc := ⟨.hbm, 88, rfl⟩
abbrev main_call1_cst_3 : Ref sig .tc := ⟨.hbm, 89, rfl⟩
abbrev main_call1_v12 : Ref sig .tc := ⟨.hbm, 90, rfl⟩
abbrev main_call1_cst_4 : Ref sig .tc := ⟨.hbm, 91, rfl⟩
abbrev main_call1_call0_v0 : Ref sig .tc := ⟨.hbm, 92, rfl⟩
abbrev main_call1_call0_v1 : Ref sig .tc := ⟨.hbm, 93, rfl⟩
abbrev main_v32 : Ref sig .tc := ⟨.hbm, 94, rfl⟩
abbrev main_v33 : Ref sig .tc := ⟨.hbm, 95, rfl⟩
abbrev main_v34 : Ref sig .tc := ⟨.hbm, 96, rfl⟩
abbrev main_v35 : Ref sig .tc := ⟨.hbm, 97, rfl⟩
abbrev main_v36 : Ref sig .tc := ⟨.hbm, 98, rfl⟩
abbrev main_v37 : Ref sig .tc := ⟨.hbm, 99, rfl⟩
abbrev main_v38 : Ref sig .tc := ⟨.hbm, 100, rfl⟩
abbrev main_cst_5 : Ref sig .tc := ⟨.hbm, 101, rfl⟩
abbrev main_v39 : Ref sig .tc := ⟨.hbm, 102, rfl⟩
abbrev main_v40 : Ref sig .tc := ⟨.hbm, 103, rfl⟩
abbrev main_v41 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_cst_6 : Ref sig .tc := ⟨.hbm, 116, rfl⟩
abbrev main_v53 : Ref sig .tc := ⟨.hbm, 117, rfl⟩
abbrev main_cst_7 : Ref sig .tc := ⟨.hbm, 118, rfl⟩
abbrev main_v54 : Ref sig .tc := ⟨.hbm, 119, rfl⟩
abbrev main_v55 : Ref sig .tc := ⟨.hbm, 120, rfl⟩
abbrev main_c_8 : Ref sig .tc := ⟨.hbm, 121, rfl⟩
abbrev main_call2_cst : Ref sig .tc := ⟨.hbm, 122, rfl⟩
abbrev main_call2_v0 : Ref sig .tc := ⟨.hbm, 123, rfl⟩
abbrev main_call2_v1 : Ref sig .tc := ⟨.hbm, 124, rfl⟩
abbrev main_call2_cst_0 : Ref sig .tc := ⟨.hbm, 125, rfl⟩
abbrev main_call2_v2 : Ref sig .tc := ⟨.hbm, 126, rfl⟩
abbrev main_call2_v3 : Ref sig .tc := ⟨.hbm, 127, rfl⟩
abbrev main_call2_v4 : Ref sig .tc := ⟨.hbm, 128, rfl⟩
abbrev main_call2_v5 : Ref sig .tc := ⟨.hbm, 129, rfl⟩
abbrev main_call2_v6 : Ref sig .tc := ⟨.hbm, 130, rfl⟩
abbrev main_call2_v7 : Ref sig .tc := ⟨.hbm, 131, rfl⟩
abbrev main_call2_cst_1 : Ref sig .tc := ⟨.hbm, 132, rfl⟩
abbrev main_call2_v8 : Ref sig .tc := ⟨.hbm, 133, rfl⟩
abbrev main_call2_cst_2 : Ref sig .tc := ⟨.hbm, 134, rfl⟩
abbrev main_call2_v9 : Ref sig .tc := ⟨.hbm, 135, rfl⟩
abbrev main_call2_v10 : Ref sig .tc := ⟨.hbm, 136, rfl⟩
abbrev main_call2_v11 : Ref sig .tc := ⟨.hbm, 137, rfl⟩
abbrev main_call2_cst_3 : Ref sig .tc := ⟨.hbm, 138, rfl⟩
abbrev main_call2_v12 : Ref sig .tc := ⟨.hbm, 139, rfl⟩
abbrev main_call2_cst_4 : Ref sig .tc := ⟨.hbm, 140, rfl⟩
abbrev main_call2_call0_v0 : Ref sig .tc := ⟨.hbm, 141, rfl⟩
abbrev main_call2_call0_v1 : Ref sig .tc := ⟨.hbm, 142, rfl⟩
abbrev main_v56 : Ref sig .tc := ⟨.hbm, 143, rfl⟩
abbrev main_v57 : Ref sig .tc := ⟨.hbm, 144, rfl⟩
abbrev main_v58 : Ref sig .tc := ⟨.hbm, 145, rfl⟩
abbrev main_v59 : Ref sig .tc := ⟨.hbm, 146, rfl⟩
abbrev main_v60 : Ref sig .tc := ⟨.hbm, 147, rfl⟩
abbrev main_v61 : Ref sig .tc := ⟨.hbm, 148, rfl⟩
abbrev main_v62 : Ref sig .tc := ⟨.hbm, 149, rfl⟩
abbrev main_cst_9 : Ref sig .tc := ⟨.hbm, 150, rfl⟩
abbrev main_v63 : Ref sig .tc := ⟨.hbm, 151, rfl⟩
abbrev main_v64 : Ref sig .tc := ⟨.hbm, 152, rfl⟩
abbrev main_v65 : Ref sig .tc := ⟨.hbm, 153, rfl⟩
abbrev main_v66 : Ref sig .tc := ⟨.hbm, 154, rfl⟩
abbrev main_v67 : Ref sig .tc := ⟨.hbm, 155, rfl⟩
abbrev main_v68 : Ref sig .tc := ⟨.hbm, 156, rfl⟩
abbrev main_v69 : Ref sig .tc := ⟨.hbm, 157, rfl⟩
abbrev main_v70 : Ref sig .tc := ⟨.hbm, 158, rfl⟩
abbrev main_v71 : Ref sig .tc := ⟨.hbm, 159, rfl⟩

abbrev nD : Nat := 1
abbrev τ : Topo := Topo.v7x

variable {F : FTy → Type} [FloatOps F]

class Facts₀ : Prop where
  transposes_S2048x1024_S1024x2048_1_0 : S2048x1024.Transposes [1, 0] S1024x2048
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  reducesTo_S16384x2048_S2048_d0 : S16384x2048.ReducesTo [0] S2048
  h_S_ : 0 < S_.numel
  bcast_S_S2048 : S_.BroadcastsInDim S2048 (![] : Fin 0 → Fin S2048.rank)
  bcast_S_S1x2048 : S_.BroadcastsInDim S1x2048 (![] : Fin 0 → Fin S1x2048.rank)
  transposes_S2048x2048_S2048x2048_1_0 : S2048x2048.Transposes [1, 0] S2048x2048
  transposes_S1024x2048_S2048x1024_1_0 : S1024x2048.Transposes [1, 0] S2048x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  reducesTo_S16384x1024_S1024_d0 : S16384x1024.ReducesTo [0] S1024
  bcast_S_S1024 : S_.BroadcastsInDim S1024 (![] : Fin 0 → Fin S1024.rank)
  bcast_S_S1x1024 : S_.BroadcastsInDim S1x1024 (![] : Fin 0 → Fin S1x1024.rank)
  dot_S16384x1024_S1024x2048_S16384x2048_1_0_0_1_n_n_wf : DotDims.WF S16384x1024 S1024x2048 S16384x2048 [1] [0] [0] [1] [] []
  dot_S16384x2048_S2048x2048_S16384x2048_1_0_0_1_n_n_wf : DotDims.WF S16384x2048 S2048x2048 S16384x2048 [1] [0] [0] [1] [] []
  dot_S16384x2048_S2048x1024_S16384x1024_1_0_0_1_n_n_wf : DotDims.WF S16384x2048 S2048x1024 S16384x1024 [1] [0] [0] [1] [] []

variable [Facts₀]

def dot_S16384x1024_S1024x2048_S16384x2048_1_0_0_1_n_n : DotDims S16384x1024 S1024x2048 S16384x2048 where
  lhsContracting := [1]
  rhsContracting := [0]
  lhsNonContracting := [0]
  rhsNonContracting := [1]
  lhsBatch := []
  rhsBatch := []
  wf := dot_S16384x1024_S1024x2048_S16384x2048_1_0_0_1_n_n_wf
def dot_S16384x2048_S2048x2048_S16384x2048_1_0_0_1_n_n : DotDims S16384x2048 S2048x2048 S16384x2048 where
  lhsContracting := [1]
  rhsContracting := [0]
  lhsNonContracting := [0]
  rhsNonContracting := [1]
  lhsBatch := []
  rhsBatch := []
  wf := dot_S16384x2048_S2048x2048_S16384x2048_1_0_0_1_n_n_wf
def dot_S16384x2048_S2048x1024_S16384x1024_1_0_0_1_n_n : DotDims S16384x2048 S2048x1024 S16384x1024 where
  lhsContracting := [1]
  rhsContracting := [0]
  lhsNonContracting := [0]
  rhsNonContracting := [1]
  lhsBatch := []
  rhsBatch := []
  wf := dot_S16384x2048_S2048x1024_S16384x1024_1_0_0_1_n_n_wf

class Facts : Prop extends Facts₀ where

variable [Facts]
-- ==== Proof.BitsRegion3.lean ====
/-
  The normalising kernel (the fourth kernel region of the program): over a grid of sixteen row blocks, each point
  reads a 1024 x 1024 block of the last layer's raw output y, the four feature rows mean, var, gamma, beta (each
  1 x 1024, the same block at every point), and stores  gamma * (y - mean) * rsqrt (var + eps) + beta  over the
  whole output block. Nothing is kept between points and every access is a whole block, so what the output
  window's buffer holds after a point is one pointwise function of that point's five input blocks.
  Stated here for any contents `V` of the core's buffers at the region's entry: the blocks, the body's triple,
  the proof data of the pipeline and the body obligation at every point.
-/
import proofs.«166235_j274877907496_2_alg».proof.Proof.Gen.Kernel.Launch
import proofs.«166235_j274877907496_2_alg».proof.Proof.Gen.Kernel.Points
import proofs.«166235_j274877907496_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, fetched there or not: where it is not
    fetched the block index has not moved since the point before. One statement per input window. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses, and what it leaves in the output window's buffer -/

/-- The whole 1 x 1024 row, and the whole 1024 x 1024 block. -/
abbrev rRow3 : Rect S1x1024 := Rect.unit (s := S1x1024) ![0, 0] S1x1024.size inb_S1x1024_S1x1024_0_0
abbrev rBlk3 : Rect S1024x1024 := Rect.unit (s := S1024x1024) ![0, 0] S1024x1024.size inb_S1024x1024_S1024x1024_0_0

/-- The output buffer after the body: its one whole-block store, the normalised block as a function of the five
    input blocks (y, mean, var, gamma, beta in the windows' order). -/
def out3_5 (x0 : Vec F S1024x1024 .f32) (x1 x2 x3 x4 : Vec F S1x1024 .f32) : Vec F S1024x1024 .f32 :=
  View.canon [⟨rBlk3, k3_pay1 (View.ld x2 rRow3) (View.ld x3 rRow3) (View.ld x0 rBlk3) (View.ld x1 rRow3) (View.ld x4 rRow3)⟩]

/-- The one store covers the buffer. -/
theorem cover3_5 (p0 : Vec F S1024x1024 .f32) (y : S1024x1024.Idx) :
    ∃ pc ∈ ([⟨rBlk3, p0⟩] : List (View.Piece (Elt F) S1024x1024 .f32)), y ∈ pc.1.set :=
  View.cover_of_tiled [⟨rBlk3, p0⟩] S1024x1024.size (by rfl) y

/-! ## The body's triple -/

set_option maxHeartbeats 1000000 in
/-- The body on whole staging memrefs, the inputs' at contents `x0 … x4` and the output's at anything, runs to the
    continuation with the inputs' as they were and the output's at `out3_5` of them. -/
theorem sound_kernel3 (c : Dev nD) (E : Set ℕ) (i : grid3.Coords)
    (arg2 : Memref sig .tc .vmem S1024x1024 .f32) (harg2 : arg2.IsWhole) (arg3 : Memref sig .tc .vmem S1x1024 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x1024 .f32) (harg6 : arg6.IsWhole) (arg7 : Memref sig .tc .vmem S1024x1024 .f32) (harg7 : arg7.IsWhole)
    (x0 : Vec F S1024x1024 .f32) (x1 x2 x3 x4 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out3_5 x0 x1 x2 x3 x4)) -∗ K ⟨⟩))
      ⊢ wp frame (wpE (defs₀ (F := F)) Variants.none c none) E (cc3__norm_kernel i arg2 harg2 arg3 harg3 arg4 harg4 arg5 harg5 arg6 harg6 arg7 harg7) K := by
  simp only [cc3__norm_kernel_eq_skeleton]; unfold cc3__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The arrays as the region finds them; after the body at point `t` each input's buffer at its block and the
    output's at the normalised block; the invariant the scoped buffers no window stages and the generator register,
    untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t
    = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so the body's triple applies; the invariant and
    the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.BitsSeg3.lean ====
/-
  The normalising kernel's region as a segment of the program's run. The region is entered with every unscoped
  buffer of the core at the contents the fourth host stretch leaves, and left with the same contents except the result
  array, which holds what the sixteen points wrote back. The five input arrays are split out of the unscoped buffers
  for the pipeline and put back unchanged; the generator register passes through the pipeline's invariant; the core owes
  nothing before or after. Stated for any proof data of the three earlier regions (parameters `D0 D1 D2`).
-/
import proofs.«166235_j274877907496_2_alg».proof.Proof.BitsRegion3
import proofs.«166235_j274877907496_2_alg».proof.Proof.Gen.Kernel.Regions
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A core's buffer contents, read at the TensorCore's references. -/
abbrev Contents (F : FTy → Type) : Type := (c : Dev nD) → (b : Ref sig .tc) → Buf (Elt F) ((c : Thread nD τ).loc b)

variable (D0 : Contents F → (c : Dev nD) → Dat τ (Elt F) Unit ℕ (UR sig nD τ) ℕ cfg0 c)
variable (D1 : Contents F → (c : Dev nD) → Dat τ (Elt F) Unit ℕ (UR sig nD τ) ℕ cfg1 c)
variable (D2 : Contents F → (c : Dev nD) → Dat τ (Elt F) Unit ℕ (UR sig nD τ) ℕ cfg2 c)
variable (m : (ℓ : Loc nD τ sig) → Buf (Elt F) ℓ) (outs : Outs (F := F))

/-- The contents each region is entered with, read at the TensorCore's references. -/
abbrev E1 : Contents F := fun c b => V1 m c b
abbrev E3 : Contents F := fun c b => V3 m outs c b
abbrev E5 : Contents F := fun c b => V5 m outs c b
abbrev E7 : Contents F := fun c b => V7 m outs c b
abbrev E8 : Contents F := fun c b => V8 m outs c b

/-- Every region's proof data, each at its region's entry contents. -/
def pdats : (p : Fin 4) → (c : Dev nD) → Dat τ (Elt F) Unit ℕ (UR sig nD τ) ℕ (cfgs p) c
  | ⟨0, _⟩ => fun c => D0 (E1 m) c
  | ⟨1, _⟩ => fun c => D1 (E3 m outs) c
  | ⟨2, _⟩ => fun c => D2 (E5 m outs) c
  | ⟨3, _⟩ => fun c => dat3 (E7 m outs) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, at
    nothing. -/
abbrev R (c : Dev nD) : sProp 𝕄 := iprop((∃ r, prngReg c r) ∗ ∃ W, owes (c : Thread nD τ) (0 : CellTallies nD τ sig Unit) W)

/-- At the region's exit each of its arrays holds what the pipeline leaves: the five inputs what they held at entry,
    the result array the write-backs (the hypothesis `h8` names them as the chosen exit contents). -/
theorem hF3 (h8 : ∀ c, outs 8 main_v30 c = (dat3 (E7 m outs) c).arrAt 5 cfg3.N) (c : Dev nD) (w : Fin cfg3.W) :
    (pdats D0 D1 D2 m outs 3 c).arrAt w cfg3.N = E8 m outs c (Pipeline.arrRef spec3 w) := by
  have hw : w = 0 ∨ w = 1 ∨ w = 2 ∨ w = 3 ∨ w = 4 ∨ w = 5 := by revert w; decide
  have e : pdats D0 D1 D2 m outs 3 c = dat3 (E7 m outs) c := rfl
  rw [e]
  rcases hw with rfl | rfl | rfl | rfl | rfl | rfl
  · exact ((dat3 (E7 m outs) c).arrAt_in 0 rfl _).trans ((A_eq3 (E7 m outs) c 0).trans (V8_of m outs c main_v21_0 (by decide)).symm)
  · exact ((dat3 (E7 m outs) c).arrAt_in 1 rfl _).trans ((A_eq3 (E7 m outs) c 1).trans (V8_of m outs c main_v23 (by decide)).symm)
  · exact ((dat3 (E7 m outs) c).arrAt_in 2 rfl _).trans ((A_eq3 (E7 m outs) c 2).trans (V8_of m outs c main_v27 (by decide)).symm)
  · exact ((dat3 (E7 m outs) c).arrAt_in 3 rfl _).trans ((A_eq3 (E7 m outs) c 3).trans (V8_of m outs c main_v28 (by decide)).symm)
  · exact ((dat3 (E7 m outs) c).arrAt_in 4 rfl _).trans ((A_eq3 (E7 m outs) c 4).trans (V8_of m outs c main_v29 (by decide)).symm)
  · refine (h8 c).symm.trans ?_
    show _ = V8 m outs c main_v30
    unfold V8; rw [Function.update_self]

/-- Every buffer that is none of the region's arrays holds at the exit what it held at entry. -/
theorem hrest3 (c : Dev nD) : ∀ b, b ∉ Finset.univ.image (Pipeline.arrRef spec3) → E8 m outs c b = E7 m outs c b :=
  fun b hb => V8_of m outs c b (fun h => hb (by
    rw [List.mem_singleton] at h; subst h
    exact Finset.mem_image.mpr ⟨5, Finset.mem_univ _, rfl⟩))

set_option backward.isDefEq.respectTransparency.types false in
/-- The region over the thread state: entered from every unscoped buffer at the contents before it, left at those
    after it. -/
def reg3 (h8 : ∀ c, outs 8 main_v30 c = (dat3 (E7 m outs) c).arrAt 5 cfg3.N) :
    Pipeline.RegionSeg (pcfgs (F := F)) adm (pdats D0 D1 D2 m outs) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E7 m outs) c).loose
  hwaits := Pipeline.hwaits_of_owed_zero _ _ _ _ L lv 3 fun _ _ => rfl
  pre c := iprop(StableHlo.held (c : Thread nD τ) (Pipeline.ucRefs τ sig) (V7 m outs c) ∗ R c)
  post c := iprop(StableHlo.held (c : Thread nD τ) (Pipeline.ucRefs τ sig) (V8 m outs c) ∗ R c)
  X c := iprop(∃ r, prngReg c r)
  Y c := iprop(∃ r, prngReg c r)
  Z c := Pipeline.unscopedRest (Ix := Unit) (Name := ℕ) (U := UR sig nD τ) (Lvl := ℕ) spec3 c (E7 m outs c)
  hentry c := by
    rw [Pipeline.ownSems0_none]
    have hsplit := Pipeline.arrays_of_unscopedBufs (p := 3) (pcfgs (F := F)) adm (pdats D0 D1 D2 m outs) launch3.win launch3.arr_whole c
      ((pdats D0 D1 D2 m outs 3 c).share_full fun _ => rfl) (E7 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats D0 D1 D2 m outs 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats D0 D1 D2 m outs 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats D0 D1 D2 m outs) ((pdats D0 D1 D2 m outs 3 c).share_full fun _ => rfl)
      (E7 m outs c) (E8 m outs c) ((pdats D0 D1 D2 m outs 3 c).arrAt · cfg3.N) (hF3 D0 D1 D2 m outs h8 c) (hrest3 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.BitsFrame.lean ====
/-
  The whole program's run assembled from its regions. The thread state between two items of the program is: every
  unscoped buffer of the core at that boundary's contents, the generator register at some state, and the core owing
  nothing. The launch provides the first of these on every core; the normalising kernel's region (the last item) is the
  record of its own module; the three matmul-and-statistics regions enter as parameters (their proof data `D0 D1 D2` and
  records `R0 R1 R2`, each entered from and left at the boundary contents). The conclusion is the program's frame.
-/
import proofs.«166235_j274877907496_2_alg».proof.Proof.BitsSeg3
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (D0 : Contents F → (c : Dev nD) → Dat τ (Elt F) Unit ℕ (UR sig nD τ) ℕ cfg0 c)
variable (D1 : Contents F → (c : Dev nD) → Dat τ (Elt F) Unit ℕ (UR sig nD τ) ℕ cfg1 c)
variable (D2 : Contents F → (c : Dev nD) → Dat τ (Elt F) Unit ℕ (UR sig nD τ) ℕ cfg2 c)
variable (m : (ℓ : Loc nD τ sig) → Buf (Elt F) ℓ) (ρ : Dev nD → PrngReg) (outs : Outs (F := F))

/-- The launch's resources on a core make the first thread state's rest: the generator register and the core owing
    nothing (the launch's unscoped semaphores and credits are not needed again). -/
theorem launch_rest :
    iprop((bigSep Finset.univ fun c : Dev nD => iprop(unscopedSems0 c ∗ owes (c : Thread nD τ) (0 : CellTallies nD τ sig Unit) ∅
        ∗ Pipeline.launchCred (fun _ : Dev nD => (0 : CellTallies nD τ sig Unit)) c ∗ prngReg c (ρ c) ∗ (BI.emp : sProp 𝕄))) ∗ levAts L lv)
      ⊢ (|={Set.univ}=> bigSep Finset.univ (fun c : Dev nD => R (F := F) c) : sProp 𝕄) := by
  have hmono : (bigSep Finset.univ fun c : Dev nD => iprop(unscopedSems0 c ∗ owes (c : Thread nD τ) (0 : CellTallies nD τ sig Unit) ∅
        ∗ Pipeline.launchCred (fun _ : Dev nD => (0 : CellTallies nD τ sig Unit)) c ∗ prngReg c (ρ c) ∗ (BI.emp : sProp 𝕄)))
      ⊢ (bigSep Finset.univ (fun c : Dev nD => R (F := F) c) : sProp 𝕄) :=
    bigSep_mono fun c _ => show (iprop(unscopedSems0 c ∗ owes (c : Thread nD τ) (0 : CellTallies nD τ sig Unit) ∅
        ∗ Pipeline.launchCred (fun _ : Dev nD => (0 : CellTallies nD τ sig Unit)) c ∗ prngReg c (ρ c) ∗ (BI.emp : sProp 𝕄)) : sProp 𝕄) ⊢ R (F := F) c from by
      iintro ⟨-, HO, -, Hp, -⟩
      isplitl [Hp]; · iexists _; iexact Hp
      iexists ∅; iexact HO
  iintro ⟨H, -⟩
  ihave H' := hmono $$ H
  imodintro
  iexact H'

set_option backward.isDefEq.respectTransparency.types false in
/-- The program's run from the three earlier regions' records. -/
theorem run_of_regions
    (R0 : Pipeline.RegionSeg (pcfgs (F := F)) adm (pdats D0 D1 D2 m outs) () defs₀ 𝒱₀ L lv 0)
    (hpre0 : ∀ c : Dev nD, iprop(StableHlo.held (c : Thread nD τ) (Pipeline.ucRefs τ sig) (V1 m c) ∗ R c) ⊢ R0.pre c)
    (hpost0 : ∀ c : Dev nD, R0.post c ⊢ iprop(StableHlo.held (c : Thread nD τ) (Pipeline.ucRefs τ sig) (V2 m outs c) ∗ R c))
    (R1 : Pipeline.RegionSeg (pcfgs (F := F)) adm (pdats D0 D1 D2 m outs) () defs₀ 𝒱₀ L lv 1)
    (hpre1 : ∀ c : Dev nD, iprop(StableHlo.held (c : Thread nD τ) (Pipeline.ucRefs τ sig) (V3 m outs c) ∗ R c) ⊢ R1.pre c)
    (hpost1 : ∀ c : Dev nD, R1.post c ⊢ iprop(StableHlo.held (c : Thread nD τ) (Pipeline.ucRefs τ sig) (V4 m outs c) ∗ R c))
    (R2 : Pipeline.RegionSeg (pcfgs (F := F)) adm (pdats D0 D1 D2 m outs) () defs₀ 𝒱₀ L lv 2)
    (hpre2 : ∀ c : Dev nD, iprop(StableHlo.held (c : Thread nD τ) (Pipeline.ucRefs τ sig) (V5 m outs c) ∗ R c) ⊢ R2.pre c)
    (hpost2 : ∀ c : Dev nD, R2.post c ⊢ iprop(StableHlo.held (c : Thread nD τ) (Pipeline.ucRefs τ sig) (V6 m outs c) ∗ R c))
    (h8 : ∀ c, outs 8 main_v30 c = (dat3 (E7 m outs) c).arrAt 5 cfg3.N) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_cond m emb₁ () 𝒱₀ L lv (fun _ _ => rfl) ρ outs (pdats D0 D1 D2 m outs)
    (fun _ => (0 : CellTallies nD τ sig Unit)) (fun _ => (BI.emp : sProp 𝕄))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c) (launch_rest ρ)
    (fun c => by iintro ⟨-, HO⟩; iexact HO)
    R0 hpre0 hpost0 R1 hpre1 hpost1 R2 hpre2 hpost2
    (reg3 D0 D1 D2 m outs h8) (fun _ => .rfl) (fun _ => .rfl)

end Cert.Kernel.Hand

end
-- ==== Proof.BitsSeg0.lean ====
/-
  The first matmul-and-statistics kernel's region as a segment of the program's run, from a record of what its
  proof data provide: the arrays read at the region's entry contents, full shares, nothing owed, the body obligation
  at every point, and the invariant (the scoped buffers no window stages, among them the two scratch rows carrying the
  running column sums, and the generator register) entered from and handed back as the plain scoped rest. The region is
  entered with every unscoped buffer of the core at the contents before it and left at the contents after it: the input
  arrays unchanged, the three output arrays (the raw layer output and the two rows of column sums) at what the points
  wrote back.
-/
import proofs.«166235_j274877907496_2_alg».proof.Proof.BitsSeg3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What region 0's proof data provide, at every entry contents. -/
structure Provides0 (D : Contents F → (c : Dev nD) → Dat τ (Elt F) Unit ℕ (UR sig nD τ) ℕ cfg0 c) : Prop where
  hA : ∀ V c w, (D V c).A w = V c (Pipeline.arrRef spec0 w)
  hq : ∀ V c w, (D V c).q w = fullShare
  howed : ∀ V c t, (D V c).owed t = 0
  hrec : ∀ V c t, (D V c).recorded t = Set.univ
  hbody : ∀ V c, BodyObligation (D V c) (defs₀ (F := F)) Variants.none () Set.univ
  hin : ∀ V (c : Dev nD), (Pipeline.ΦA spec0 c : sProp 𝕄) ⊢ (D V c).Φ 0
  hout : ∀ V (c : Dev nD), (D V c).Φ (Fin.last cfg0.N) ⊢ (Pipeline.ΦA spec0 c : sProp 𝕄)

variable (D0 : Contents F → (c : Dev nD) → Dat τ (Elt F) Unit ℕ (UR sig nD τ) ℕ cfg0 c)
variable (D1 : Contents F → (c : Dev nD) → Dat τ (Elt F) Unit ℕ (UR sig nD τ) ℕ cfg1 c)
variable (D2 : Contents F → (c : Dev nD) → Dat τ (Elt F) Unit ℕ (UR sig nD τ) ℕ cfg2 c)
variable (m : (ℓ : Loc nD τ sig) → Buf (Elt F) ℓ) (outs : Outs (F := F))

/-- The contents after the first region, read at the TensorCore's references. -/
abbrev E2 : Contents F := fun c b => V2 m outs c b

set_option maxHeartbeats 4000000 in
/-- At the region's exit each of its arrays holds what the pipeline leaves: an input what it held at entry, an output
    its write-backs (named as the chosen exit contents by the hypotheses `ho`). -/
theorem hF0 (h : Provides0 D0) (ho0 : ∀ c, outs 2 main_v1_0 c = (D0 (E1 m) c).arrAt 3 cfg0.N) (ho1 : ∀ c, outs 2 main_v1_1 c = (D0 (E1 m) c).arrAt 4 cfg0.N) (ho2 : ∀ c, outs 2 main_v1_2 c = (D0 (E1 m) c).arrAt 5 cfg0.N) (c : Dev nD) (w : Fin cfg0.W) :
    (pdats D0 D1 D2 m outs 0 c).arrAt w cfg0.N = E2 m outs c (Pipeline.arrRef spec0 w) := by
  have hw : w = 0 ∨ w = 1 ∨ w = 2 ∨ w = 3 ∨ w = 4 ∨ w = 5 := by revert w; decide
  have e : pdats D0 D1 D2 m outs 0 c = D0 (E1 m) c := rfl
  rw [e]
  rcases hw with rfl | rfl | rfl | rfl | rfl | rfl
  · exact ((D0 (E1 m) c).arrAt_in 0 rfl _).trans ((h.hA (E1 m) c 0).trans (V2_of m outs c main_arg0 (by decide)).symm)
  · exact ((D0 (E1 m) c).arrAt_in 1 rfl _).trans ((h.hA (E1 m) c 1).trans (V2_of m outs c main_arg1 (by decide)).symm)
  · exact ((D0 (E1 m) c).arrAt_in 2 rfl _).trans ((h.hA (E1 m) c 2).trans (V2_of m outs c main_v0 (by decide)).symm)
  · refine (ho0 c).symm.trans ?_
    show _ = V2 m outs c main_v1_0
    simp only [V2, Function.update_of_ne (StableHlo.devRef_ne_of_ne (by decide : (main_v1_0 : Ref sig .tc) ≠ main_v1_1) : (Proc.devRef .tc main_v1_0 : DevRef τ sig) ≠ Proc.devRef .tc main_v1_1), Function.update_of_ne (StableHlo.devRef_ne_of_ne (by decide : (main_v1_0 : Ref sig .tc) ≠ main_v1_2) : (Proc.devRef .tc main_v1_0 : DevRef τ sig) ≠ Proc.devRef .tc main_v1_2), Function.update_self]
  · refine (ho1 c).symm.trans ?_
    show _ = V2 m outs c main_v1_1
    simp only [V2, Function.update_of_ne (StableHlo.devRef_ne_of_ne (by decide : (main_v1_1 : Ref sig .tc) ≠ main_v1_2) : (Proc.devRef .tc main_v1_1 : DevRef τ sig) ≠ Proc.devRef .tc main_v1_2), Function.update_self]
  · refine (ho2 c).symm.trans ?_
    show _ = V2 m outs c main_v1_2
    simp only [V2, Function.update_self]

/-- Every buffer that is none of the region's arrays holds at the exit what it held at entry. -/
theorem hrest0 (c : Dev nD) : ∀ b, b ∉ Finset.univ.image (Pipeline.arrRef spec0) → E2 m outs c b = E1 m c b :=
  fun b hb => V2_of m outs c b (fun h => by
    simp only [List.mem_cons, List.not_mem_nil, or_false] at h
    rcases h with h' | h' | h'
    · subst h'; exact hb (Finset.mem_image.mpr ⟨3, Finset.mem_univ _, rfl⟩)
    · subst h'; exact hb (Finset.mem_image.mpr ⟨4, Finset.mem_univ _, rfl⟩)
    · subst h'; exact hb (Finset.mem_image.mpr ⟨5, Finset.mem_univ _, rfl⟩))

set_option backward.isDefEq.respectTransparency.types false in
/-- The region over the thread state. -/
def reg0 (h : Provides0 D0) (ho0 : ∀ c, outs 2 main_v1_0 c = (D0 (E1 m) c).arrAt 3 cfg0.N) (ho1 : ∀ c, outs 2 main_v1_1 c = (D0 (E1 m) c).arrAt 4 cfg0.N) (ho2 : ∀ c, outs 2 main_v1_2 c = (D0 (E1 m) c).arrAt 5 cfg0.N) :
    Pipeline.RegionSeg (pcfgs (F := F)) adm (pdats D0 D1 D2 m outs) () defs₀ 𝒱₀ L lv 0 where
  win := launch0.win.to₀
  block_pos := launch0.block_pos
  stage_whole := launch0.stage_whole
  K := PEmpty
  osem k := k.elim
  ho := Pipeline.OwnSemFacts.none _
  hbody c := (h.hbody (E1 m) c).loose
  hwaits := Pipeline.hwaits_of_owed_zero _ _ _ _ L lv 0 fun c t => h.howed (E1 m) c t
  pre c := iprop(StableHlo.held (c : Thread nD τ) (Pipeline.ucRefs τ sig) (V1 m c) ∗ R c)
  post c := iprop(StableHlo.held (c : Thread nD τ) (Pipeline.ucRefs τ sig) (V2 m outs c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats D0 D1 D2 m outs) launch0.win launch0.arr_whole c
      ((pdats D0 D1 D2 m outs 0 c).share_full fun w => h.hq (E1 m) c w) (E1 m c) fun w => h.hA (E1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats D0 D1 D2 m outs 0 c).owed 0 = 0 from h.howed (E1 m) c 0]
      icases HO with ⟨%W, HO⟩; iexists W; isplitr
      · ipureintro; intro x _; unfold Pipeline.Dat.bound
        rw [show (pdats D0 D1 D2 m outs 0 c).recorded 0 = Set.univ from h.hrec (E1 m) c 0]; exact Or.inl trivial
      iexact HO
    isplitl [Hp]; · iexact Hp
    iexact Hrest
  hin c := by
    have hΦ := h.hin (E1 m) c
    rw [show (pdats D0 D1 D2 m outs 0 c).Φ 0 = (D0 (E1 m) c).Φ 0 from rfl]
    refine .trans ?_ hΦ
    unfold Pipeline.ΦA
    iintro ⟨Hp, -, Hr⟩
    isplitl [Hr]; · iexact Hr
    iexact Hp
  hout c := by
    have hΦ := h.hout (E1 m) c
    rw [Pipeline.ownSems0_none, show (pdats D0 D1 D2 m outs 0 c).Φ (Fin.last _) = (D0 (E1 m) c).Φ (Fin.last cfg0.N) from rfl]
    refine hΦ.trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats D0 D1 D2 m outs) ((pdats D0 D1 D2 m outs 0 c).share_full fun w => h.hq (E1 m) c w)
      (E1 m c) (E2 m outs c) ((pdats D0 D1 D2 m outs 0 c).arrAt · cfg0.N) (hF0 D0 D1 D2 m outs h ho0 ho1 ho2 c) (hrest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats D0 D1 D2 m outs 0 c).owed (Fin.last _) = 0 from h.howed (E1 m) c _]
    iexact HO

end Cert.Kernel.Hand

end
-- ==== Proof.BitsSeg1.lean ====
/-
  The second matmul-and-statistics kernel (the first layer's normalisation fused in)'s region as a segment of the program's run, from a record of what its
  proof data provide: the arrays read at the region's entry contents, full shares, nothing owed, the body obligation
  at every point, and the invariant (the scoped buffers no window stages, among them the two scratch rows carrying the
  running column sums, and the generator register) entered from and handed back as the plain scoped rest. The region is
  entered with every unscoped buffer of the core at the contents before it and left at the contents after it: the input
  arrays unchanged, the three output arrays (the raw layer output and the two rows of column sums) at what the points
  wrote back.
-/
import proofs.«166235_j274877907496_2_alg».proof.Proof.BitsSeg3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What region 1's proof data provide, at every entry contents. -/
structure Provides1 (D : Contents F → (c : Dev nD) → Dat τ (Elt F) Unit ℕ (UR sig nD τ) ℕ cfg1 c) : Prop where
  hA : ∀ V c w, (D V c).A w = V c (Pipeline.arrRef spec1 w)
  hq : ∀ V c w, (D V c).q w = fullShare
  howed : ∀ V c t, (D V c).owed t = 0
  hrec : ∀ V c t, (D V c).recorded t = Set.univ
  hbody : ∀ V c, BodyObligation (D V c) (defs₀ (F := F)) Variants.none () Set.univ
  hin : ∀ V (c : Dev nD), (Pipeline.ΦA spec1 c : sProp 𝕄) ⊢ (D V c).Φ 0
  hout : ∀ V (c : Dev nD), (D V c).Φ (Fin.last cfg1.N) ⊢ (Pipeline.ΦA spec1 c : sProp 𝕄)

variable (D0 : Contents F → (c : Dev nD) → Dat τ (Elt F) Unit ℕ (UR sig nD τ) ℕ cfg0 c)
variable (D1 : Contents F → (c : Dev nD) → Dat τ (Elt F) Unit ℕ (UR sig nD τ) ℕ cfg1 c)
variable (D2 : Contents F → (c : Dev nD) → Dat τ (Elt F) Unit ℕ (UR sig nD τ) ℕ cfg2 c)
variable (m : (ℓ : Loc nD τ sig) → Buf (Elt F) ℓ) (outs : Outs (F := F))

/-- The contents after the second region, read at the TensorCore's references. -/
abbrev E4 : Contents F := fun c b => V4 m outs c b

set_option maxHeartbeats 4000000 in
/-- At the region's exit each of its arrays holds what the pipeline leaves: an input what it held at entry, an output
    its write-backs (named as the chosen exit contents by the hypotheses `ho`). -/
theorem hF1 (h : Provides1 D1) (ho0 : ∀ c, outs 4 main_v11_0 c = (D1 (E3 m outs) c).arrAt 7 cfg1.N) (ho1 : ∀ c, outs 4 main_v11_1 c = (D1 (E3 m outs) c).arrAt 8 cfg1.N) (ho2 : ∀ c, outs 4 main_v11_2 c = (D1 (E3 m outs) c).arrAt 9 cfg1.N) (c : Dev nD) (w : Fin cfg1.W) :
    (pdats D0 D1 D2 m outs 1 c).arrAt w cfg1.N = E4 m outs c (Pipeline.arrRef spec1 w) := by
  have hw : w = 0 ∨ w = 1 ∨ w = 2 ∨ w = 3 ∨ w = 4 ∨ w = 5 ∨ w = 6 ∨ w = 7 ∨ w = 8 ∨ w = 9 := by revert w; decide
  have e : pdats D0 D1 D2 m outs 1 c = D1 (E3 m outs) c := rfl
  rw [e]
  rcases hw with rfl | rfl | rfl | rfl | rfl | rfl | rfl | rfl | rfl | rfl
  · exact ((D1 (E3 m outs) c).arrAt_in 0 rfl _).trans ((h.hA (E3 m outs) c 0).trans (V4_of m outs c main_v1_0 (by decide)).symm)
  · exact ((D1 (E3 m outs) c).arrAt_in 1 rfl _).trans ((h.hA (E3 m outs) c 1).trans (V4_of m outs c main_v3 (by decide)).symm)
  · exact ((D1 (E3 m outs) c).arrAt_in 2 rfl _).trans ((h.hA (E3 m outs) c 2).trans (V4_of m outs c main_v7 (by decide)).symm)
  · exact ((D1 (E3 m outs) c).arrAt_in 3 rfl _).trans ((h.hA (E3 m outs) c 3).trans (V4_of m outs c main_v8 (by decide)).symm)
  · exact ((D1 (E3 m outs) c).arrAt_in 4 rfl _).trans ((h.hA (E3 m outs) c 4).trans (V4_of m outs c main_v9 (by decide)).symm)
  · exact ((D1 (E3 m outs) c).arrAt_in 5 rfl _).trans ((h.hA (E3 m outs) c 5).trans (V4_of m outs c main_arg5 (by decide)).symm)
  · exact ((D1 (E3 m outs) c).arrAt_in 6 rfl _).trans ((h.hA (E3 m outs) c 6).trans (V4_of m outs c main_v10 (by decide)).symm)
  · refine (ho0 c).symm.trans ?_
    show _ = V4 m outs c main_v11_0
    simp only [V4, Function.update_of_ne (StableHlo.devRef_ne_of_ne (by decide : (main_v11_0 : Ref sig .tc) ≠ main_v11_1) : (Proc.devRef .tc main_v11_0 : DevRef τ sig) ≠ Proc.devRef .tc main_v11_1), Function.update_of_ne (StableHlo.devRef_ne_of_ne (by decide : (main_v11_0 : Ref sig .tc) ≠ main_v11_2) : (Proc.devRef .tc main_v11_0 : DevRef τ sig) ≠ Proc.devRef .tc main_v11_2), Function.update_self]
  · refine (ho1 c).symm.trans ?_
    show _ = V4 m outs c main_v11_1
    simp only [V4, Function.update_of_ne (StableHlo.devRef_ne_of_ne (by decide : (main_v11_1 : Ref sig .tc) ≠ main_v11_2) : (Proc.devRef .tc main_v11_1 : DevRef τ sig) ≠ Proc.devRef .tc main_v11_2), Function.update_self]
  · refine (ho2 c).symm.trans ?_
    show _ = V4 m outs c main_v11_2
    simp only [V4, Function.update_self]

/-- Every buffer that is none of the region's arrays holds at the exit what it held at entry. -/
theorem hrest1 (c : Dev nD) : ∀ b, b ∉ Finset.univ.image (Pipeline.arrRef spec1) → E4 m outs c b = E3 m outs c b :=
  fun b hb => V4_of m outs c b (fun h => by
    simp only [List.mem_cons, List.not_mem_nil, or_false] at h
    rcases h with h' | h' | h'
    · subst h'; exact hb (Finset.mem_image.mpr ⟨7, Finset.mem_univ _, rfl⟩)
    · subst h'; exact hb (Finset.mem_image.mpr ⟨8, Finset.mem_univ _, rfl⟩)
    · subst h'; exact hb (Finset.mem_image.mpr ⟨9, Finset.mem_univ _, rfl⟩))

set_option backward.isDefEq.respectTransparency.types false in
/-- The region over the thread state. -/
def reg1 (h : Provides1 D1) (ho0 : ∀ c, outs 4 main_v11_0 c = (D1 (E3 m outs) c).arrAt 7 cfg1.N) (ho1 : ∀ c, outs 4 main_v11_1 c = (D1 (E3 m outs) c).arrAt 8 cfg1.N) (ho2 : ∀ c, outs 4 main_v11_2 c = (D1 (E3 m outs) c).arrAt 9 cfg1.N) :
    Pipeline.RegionSeg (pcfgs (F := F)) adm (pdats D0 D1 D2 m outs) () defs₀ 𝒱₀ L lv 1 where
  win := launch1.win.to₀
  block_pos := launch1.block_pos
  stage_whole := launch1.stage_whole
  K := PEmpty
  osem k := k.elim
  ho := Pipeline.OwnSemFacts.none _
  hbody c := (h.hbody (E3 m outs) c).loose
  hwaits := Pipeline.hwaits_of_owed_zero _ _ _ _ L lv 1 fun c t => h.howed (E3 m outs) c t
  pre c := iprop(StableHlo.held (c : Thread nD τ) (Pipeline.ucRefs τ sig) (V3 m outs c) ∗ R c)
  post c := iprop(StableHlo.held (c : Thread nD τ) (Pipeline.ucRefs τ sig) (V4 m outs c) ∗ R c)
  X c := iprop(∃ r, prngReg c r)
  Y c := iprop(∃ r, prngReg c r)
  Z c := Pipeline.unscopedRest (Ix := Unit) (Name := ℕ) (U := UR sig nD τ) (Lvl := ℕ) spec1 c (E3 m outs c)
  hentry c := by
    rw [Pipeline.ownSems0_none]
    have hsplit := Pipeline.arrays_of_unscopedBufs (p := 1) (pcfgs (F := F)) adm (pdats D0 D1 D2 m outs) launch1.win launch1.arr_whole c
      ((pdats D0 D1 D2 m outs 1 c).share_full fun w => h.hq (E3 m outs) c w) (E3 m outs c) fun w => h.hA (E3 m outs) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats D0 D1 D2 m outs 1 c).owed 0 = 0 from h.howed (E3 m outs) c 0]
      icases HO with ⟨%W, HO⟩; iexists W; isplitr
      · ipureintro; intro x _; unfold Pipeline.Dat.bound
        rw [show (pdats D0 D1 D2 m outs 1 c).recorded 0 = Set.univ from h.hrec (E3 m outs) c 0]; exact Or.inl trivial
      iexact HO
    isplitl [Hp]; · iexact Hp
    iexact Hrest
  hin c := by
    have hΦ := h.hin (E3 m outs) c
    rw [show (pdats D0 D1 D2 m outs 1 c).Φ 0 = (D1 (E3 m outs) c).Φ 0 from rfl]
    refine .trans ?_ hΦ
    unfold Pipeline.ΦA
    iintro ⟨Hp, -, Hr⟩
    isplitl [Hr]; · iexact Hr
    iexact Hp
  hout c := by
    have hΦ := h.hout (E3 m outs) c
    rw [Pipeline.ownSems0_none, show (pdats D0 D1 D2 m outs 1 c).Φ (Fin.last _) = (D1 (E3 m outs) c).Φ (Fin.last cfg1.N) from rfl]
    refine hΦ.trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats D0 D1 D2 m outs) ((pdats D0 D1 D2 m outs 1 c).share_full fun w => h.hq (E3 m outs) c w)
      (E3 m outs c) (E4 m outs c) ((pdats D0 D1 D2 m outs 1 c).arrAt · cfg1.N) (hF1 D0 D1 D2 m outs h ho0 ho1 ho2 c) (hrest1 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats D0 D1 D2 m outs 1 c).owed (Fin.last _) = 0 from h.howed (E3 m outs) c _]
    iexact HO

end Cert.Kernel.Hand

end
-- ==== Proof.BitsSeg2.lean ====
/-
  The third matmul-and-statistics kernel (the second layer's normalisation fused in)'s region as a segment of the program's run, from a record of what its
  proof data provide: the arrays read at the region's entry contents, full shares, nothing owed, the body obligation
  at every point, and the invariant (the scoped buffers no window stages, among them the two scratch rows carrying the
  running column sums, and the generator register) entered from and handed back as the plain scoped rest. The region is
  entered with every unscoped buffer of the core at the contents before it and left at the contents after it: the input
  arrays unchanged, the three output arrays (the raw layer output and the two rows of column sums) at what the points
  wrote back.
-/
import proofs.«166235_j274877907496_2_alg».proof.Proof.BitsSeg3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What region 2's proof data provide, at every entry contents. -/
structure Provides2 (D : Contents F → (c : Dev nD) → Dat τ (Elt F) Unit ℕ (UR sig nD τ) ℕ cfg2 c) : Prop where
  hA : ∀ V c w, (D V c).A w = V c (Pipeline.arrRef spec2 w)
  hq : ∀ V c w, (D V c).q w = fullShare
  howed : ∀ V c t, (D V c).owed t = 0
  hrec : ∀ V c t, (D V c).recorded t = Set.univ
  hbody : ∀ V c, BodyObligation (D V c) (defs₀ (F := F)) Variants.none () Set.univ
  hin : ∀ V (c : Dev nD), (Pipeline.ΦA spec2 c : sProp 𝕄) ⊢ (D V c).Φ 0
  hout : ∀ V (c : Dev nD), (D V c).Φ (Fin.last cfg2.N) ⊢ (Pipeline.ΦA spec2 c : sProp 𝕄)

variable (D0 : Contents F → (c : Dev nD) → Dat τ (Elt F) Unit ℕ (UR sig nD τ) ℕ cfg0 c)
variable (D1 : Contents F → (c : Dev nD) → Dat τ (Elt F) Unit ℕ (UR sig nD τ) ℕ cfg1 c)
variable (D2 : Contents F → (c : Dev nD) → Dat τ (Elt F) Unit ℕ (UR sig nD τ) ℕ cfg2 c)
variable (m : (ℓ : Loc nD τ sig) → Buf (Elt F) ℓ) (outs : Outs (F := F))

/-- The contents after the third region, read at the TensorCore's references. -/
abbrev E6 : Contents F := fun c b => V6 m outs c b

set_option maxHeartbeats 4000000 in
/-- At the region's exit each of its arrays holds what the pipeline leaves: an input what it held at entry, an output
    its write-backs (named as the chosen exit contents by the hypotheses `ho`). -/
theorem hF2 (h : Provides2 D2) (ho0 : ∀ c, outs 6 main_v21_0 c = (D2 (E5 m outs) c).arrAt 7 cfg2.N) (ho1 : ∀ c, outs 6 main_v21_1 c = (D2 (E5 m outs) c).arrAt 8 cfg2.N) (ho2 : ∀ c, outs 6 main_v21_2 c = (D2 (E5 m outs) c).arrAt 9 cfg2.N) (c : Dev nD) (w : Fin cfg2.W) :
    (pdats D0 D1 D2 m outs 2 c).arrAt w cfg2.N = E6 m outs c (Pipeline.arrRef spec2 w) := by
  have hw : w = 0 ∨ w = 1 ∨ w = 2 ∨ w = 3 ∨ w = 4 ∨ w = 5 ∨ w = 6 ∨ w = 7 ∨ w = 8 ∨ w = 9 := by revert w; decide
  have e : pdats D0 D1 D2 m outs 2 c = D2 (E5 m outs) c := rfl
  rw [e]
  rcases hw with rfl | rfl | rfl | rfl | rfl | rfl | rfl | rfl | rfl | rfl
  · exact ((D2 (E5 m outs) c).arrAt_in 0 rfl _).trans ((h.hA (E5 m outs) c 0).trans (V6_of m outs c main_v11_0 (by decide)).symm)
  · exact ((D2 (E5 m outs) c).arrAt_in 1 rfl _).trans ((h.hA (E5 m outs) c 1).trans (V6_of m outs c main_v13 (by decide)).symm)
  · exact ((D2 (E5 m outs) c).arrAt_in 2 rfl _).trans ((h.hA (E5 m outs) c 2).trans (V6_of m outs c main_v17 (by decide)).symm)
  · exact ((D2 (E5 m outs) c).arrAt_in 3 rfl _).trans ((h.hA (E5 m outs) c 3).trans (V6_of m outs c main_v18 (by decide)).symm)
  · exact ((D2 (E5 m outs) c).arrAt_in 4 rfl _).trans ((h.hA (E5 m outs) c 4).trans (V6_of m outs c main_v19 (by decide)).symm)
  · exact ((D2 (E5 m outs) c).arrAt_in 5 rfl _).trans ((h.hA (E5 m outs) c 5).trans (V6_of m outs c main_arg9 (by decide)).symm)
  · exact ((D2 (E5 m outs) c).arrAt_in 6 rfl _).trans ((h.hA (E5 m outs) c 6).trans (V6_of m outs c main_v20 (by decide)).symm)
  · refine (ho0 c).symm.trans ?_
    show _ = V6 m outs c main_v21_0
    simp only [V6, Function.update_of_ne (StableHlo.devRef_ne_of_ne (by decide : (main_v21_0 : Ref sig .tc) ≠ main_v21_1) : (Proc.devRef .tc main_v21_0 : DevRef τ sig) ≠ Proc.devRef .tc main_v21_1), Function.update_of_ne (StableHlo.devRef_ne_of_ne (by decide : (main_v21_0 : Ref sig .tc) ≠ main_v21_2) : (Proc.devRef .tc main_v21_0 : DevRef τ sig) ≠ Proc.devRef .tc main_v21_2), Function.update_self]
  · refine (ho1 c).symm.trans ?_
    show _ = V6 m outs c main_v21_1
    simp only [V6, Function.update_of_ne (StableHlo.devRef_ne_of_ne (by decide : (main_v21_1 : Ref sig .tc) ≠ main_v21_2) : (Proc.devRef .tc main_v21_1 : DevRef τ sig) ≠ Proc.devRef .tc main_v21_2), Function.update_self]
  · refine (ho2 c).symm.trans ?_
    show _ = V6 m outs c main_v21_2
    simp only [V6, Function.update_self]

/-- Every buffer that is none of the region's arrays holds at the exit what it held at entry. -/
theorem hrest2 (c : Dev nD) : ∀ b, b ∉ Finset.univ.image (Pipeline.arrRef spec2) → E6 m outs c b = E5 m outs c b :=
  fun b hb => V6_of m outs c b (fun h => by
    simp only [List.mem_cons, List.not_mem_nil, or_false] at h
    rcases h with h' | h' | h'
    · subst h'; exact hb (Finset.mem_image.mpr ⟨7, Finset.mem_univ _, rfl⟩)
    · subst h'; exact hb (Finset.mem_image.mpr ⟨8, Finset.mem_univ _, rfl⟩)
    · subst h'; exact hb (Finset.mem_image.mpr ⟨9, Finset.mem_univ _, rfl⟩))

set_option backward.isDefEq.respectTransparency.types false in
/-- The region over the thread state. -/
def reg2 (h : Provides2 D2) (ho0 : ∀ c, outs 6 main_v21_0 c = (D2 (E5 m outs) c).arrAt 7 cfg2.N) (ho1 : ∀ c, outs 6 main_v21_1 c = (D2 (E5 m outs) c).arrAt 8 cfg2.N) (ho2 : ∀ c, outs 6 main_v21_2 c = (D2 (E5 m outs) c).arrAt 9 cfg2.N) :
    Pipeline.RegionSeg (pcfgs (F := F)) adm (pdats D0 D1 D2 m outs) () defs₀ 𝒱₀ L lv 2 where
  win := launch2.win.to₀
  block_pos := launch2.block_pos
  stage_whole := launch2.stage_whole
  K := PEmpty
  osem k := k.elim
  ho := Pipeline.OwnSemFacts.none _
  hbody c := (h.hbody (E5 m outs) c).loose
  hwaits := Pipeline.hwaits_of_owed_zero _ _ _ _ L lv 2 fun c t => h.howed (E5 m outs) c t
  pre c := iprop(StableHlo.held (c : Thread nD τ) (Pipeline.ucRefs τ sig) (V5 m outs c) ∗ R c)
  post c := iprop(StableHlo.held (c : Thread nD τ) (Pipeline.ucRefs τ sig) (V6 m outs c) ∗ R c)
  X c := iprop(∃ r, prngReg c r)
  Y c := iprop(∃ r, prngReg c r)
  Z c := Pipeline.unscopedRest (Ix := Unit) (Name := ℕ) (U := UR sig nD τ) (Lvl := ℕ) spec2 c (E5 m outs c)
  hentry c := by
    rw [Pipeline.ownSems0_none]
    have hsplit := Pipeline.arrays_of_unscopedBufs (p := 2) (pcfgs (F := F)) adm (pdats D0 D1 D2 m outs) launch2.win launch2.arr_whole c
      ((pdats D0 D1 D2 m outs 2 c).share_full fun w => h.hq (E5 m outs) c w) (E5 m outs c) fun w => h.hA (E5 m outs) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats D0 D1 D2 m outs 2 c).owed 0 = 0 from h.howed (E5 m outs) c 0]
      icases HO with ⟨%W, HO⟩; iexists W; isplitr
      · ipureintro; intro x _; unfold Pipeline.Dat.bound
        rw [show (pdats D0 D1 D2 m outs 2 c).recorded 0 = Set.univ from h.hrec (E5 m outs) c 0]; exact Or.inl trivial
      iexact HO
    isplitl [Hp]; · iexact Hp
    iexact Hrest
  hin c := by
    have hΦ := h.hin (E5 m outs) c
    rw [show (pdats D0 D1 D2 m outs 2 c).Φ 0 = (D2 (E5 m outs) c).Φ 0 from rfl]
    refine .trans ?_ hΦ
    unfold Pipeline.ΦA
    iintro ⟨Hp, -, Hr⟩
    isplitl [Hr]; · iexact Hr
    iexact Hp
  hout c := by
    have hΦ := h.hout (E5 m outs) c
    rw [Pipeline.ownSems0_none, show (pdats D0 D1 D2 m outs 2 c).Φ (Fin.last _) = (D2 (E5 m outs) c).Φ (Fin.last cfg2.N) from rfl]
    refine hΦ.trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats D0 D1 D2 m outs) ((pdats D0 D1 D2 m outs 2 c).share_full fun w => h.hq (E5 m outs) c w)
      (E5 m outs c) (E6 m outs c) ((pdats D0 D1 D2 m outs 2 c).arrAt · cfg2.N) (hF2 D0 D1 D2 m outs h ho0 ho1 ho2 c) (hrest2 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats D0 D1 D2 m outs 2 c).owed (Fin.last _) = 0 from h.howed (E5 m outs) c _]
    iexact HO

end Cert.Kernel.Hand

end
-- ==== Proof.BitsWhole.lean ====
/-
  The whole program's run from what the three matmul-and-statistics regions' proof data provide. The contents each
  region leaves in its output arrays are chosen stage by stage: after a region, the core's buffers are those before it
  with the region's arrays replaced by what its pipeline leaves (each input as entered, each output its write-backs
  folded); the next host stretch's operations apply to that, and so on. With these contents every region's record is
  entered from and left at the run's boundary contents, and the run's theorem applies.
-/
import proofs.«166235_j274877907496_2_alg».proof.Proof.BitsFrame
import proofs.«166235_j274877907496_2_alg».proof.Proof.BitsSeg0
import proofs.«166235_j274877907496_2_alg».proof.Proof.BitsSeg1
import proofs.«166235_j274877907496_2_alg».proof.Proof.BitsSeg2
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (D0 : Contents F → (c : Dev nD) → Dat τ (Elt F) Unit ℕ (UR sig nD τ) ℕ cfg0 c)
variable (D1 : Contents F → (c : Dev nD) → Dat τ (Elt F) Unit ℕ (UR sig nD τ) ℕ cfg1 c)
variable (D2 : Contents F → (c : Dev nD) → Dat τ (Elt F) Unit ℕ (UR sig nD τ) ℕ cfg2 c)
variable (m : (ℓ : Loc nD τ sig) → Buf (Elt F) ℓ) (ρ : Dev nD → PrngReg)

/-! ## The contents the regions leave, stage by stage -/

/-- After the first region: its arrays at what its pipeline leaves, every other buffer as entered. -/
def o2 (c : Dev nD) : Valuation τ sig (Elt F) :=
  Pipeline.withArrays spec0 c (V1 m c) fun w => (D0 (E1 m) c).arrAt w cfg0.N
def outsA : Outs (F := F) := fun _ r c => o2 D0 m c r
/-- After the second region. -/
def o4 (c : Dev nD) : Valuation τ sig (Elt F) :=
  Pipeline.withArrays spec1 c (V3 m (outsA D0 m) c) fun w => (D1 (E3 m (outsA D0 m)) c).arrAt w cfg1.N
def outsB : Outs (F := F) := fun J r c => if J = 2 then o2 D0 m c r else o4 D0 D1 m c r
/-- After the third region. -/
def o6 (c : Dev nD) : Valuation τ sig (Elt F) :=
  Pipeline.withArrays spec2 c (V5 m (outsB D0 D1 m) c) fun w => (D2 (E5 m (outsB D0 D1 m)) c).arrAt w cfg2.N
def outsC : Outs (F := F) := fun J r c => if J = 2 then o2 D0 m c r else if J = 4 then o4 D0 D1 m c r else o6 D0 D1 D2 m c r
/-- After the normalising region. -/
def o8 (c : Dev nD) : Valuation τ sig (Elt F) :=
  Pipeline.withArrays spec3 c (V7 m (outsC D0 D1 D2 m) c) fun w => (dat3 (E7 m (outsC D0 D1 D2 m)) c).arrAt w cfg3.N
/-- The contents the four regions leave, by the boundary's number. -/
def outsD : Outs (F := F) := fun J r c =>
  if J = 2 then o2 D0 m c r else if J = 4 then o4 D0 D1 m c r else if J = 6 then o6 D0 D1 D2 m c r else o8 D0 D1 D2 m c r

/-! ## Each boundary's contents depend on the chosen exit contents only at the boundaries before it -/

theorem V2_congr (o o' : Outs (F := F)) (h2 : ∀ r c, o 2 r c = o' 2 r c) (c : Dev nD) : V2 m o c = V2 m o' c := by
  simp only [V2, h2]
theorem V3_congr (o o' : Outs (F := F)) (h2 : ∀ r c, o 2 r c = o' 2 r c) (c : Dev nD) : V3 m o c = V3 m o' c :=
  congrArg (StableHlo.after hostOps1) (V2_congr m o o' h2 c)
theorem V4_congr (o o' : Outs (F := F)) (h2 : ∀ r c, o 2 r c = o' 2 r c) (h4 : ∀ r c, o 4 r c = o' 4 r c) (c : Dev nD) : V4 m o c = V4 m o' c := by
  simp only [V4, h4, V3_congr m o o' h2 c]
theorem V5_congr (o o' : Outs (F := F)) (h2 : ∀ r c, o 2 r c = o' 2 r c) (h4 : ∀ r c, o 4 r c = o' 4 r c) (c : Dev nD) : V5 m o c = V5 m o' c :=
  congrArg (StableHlo.after hostOps2) (V4_congr m o o' h2 h4 c)
theorem V6_congr (o o' : Outs (F := F)) (h2 : ∀ r c, o 2 r c = o' 2 r c) (h4 : ∀ r c, o 4 r c = o' 4 r c) (h6 : ∀ r c, o 6 r c = o' 6 r c) (c : Dev nD) : V6 m o c = V6 m o' c := by
  simp only [V6, h6, V5_congr m o o' h2 h4 c]
theorem V7_congr (o o' : Outs (F := F)) (h2 : ∀ r c, o 2 r c = o' 2 r c) (h4 : ∀ r c, o 4 r c = o' 4 r c) (h6 : ∀ r c, o 6 r c = o' 6 r c) (c : Dev nD) : V7 m o c = V7 m o' c :=
  congrArg (StableHlo.after hostOps3) (V6_congr m o o' h2 h4 h6 c)

/-- The chosen contents at each boundary number. -/
theorem outsD_2 (r : Ref sig .tc) (c : Dev nD) : outsD D0 D1 D2 m 2 r c = o2 D0 m c r := by unfold outsD; rw [if_pos rfl]
theorem outsD_4 (r : Ref sig .tc) (c : Dev nD) : outsD D0 D1 D2 m 4 r c = o4 D0 D1 m c r := by
  unfold outsD; rw [if_neg (by decide), if_pos rfl]
theorem outsD_6 (r : Ref sig .tc) (c : Dev nD) : outsD D0 D1 D2 m 6 r c = o6 D0 D1 D2 m c r := by
  unfold outsD; rw [if_neg (by decide), if_neg (by decide), if_pos rfl]
theorem outsD_8 (r : Ref sig .tc) (c : Dev nD) : outsD D0 D1 D2 m 8 r c = o8 D0 D1 D2 m c r := by
  unfold outsD; rw [if_neg (by decide), if_neg (by decide), if_neg (by decide)]
theorem outsB_2 (r : Ref sig .tc) (c : Dev nD) : outsB D0 D1 m 2 r c = o2 D0 m c r := by unfold outsB; rw [if_pos rfl]
theorem outsB_4 (r : Ref sig .tc) (c : Dev nD) : outsB D0 D1 m 4 r c = o4 D0 D1 m c r := by unfold outsB; rw [if_neg (by decide)]
theorem outsC_2 (r : Ref sig .tc) (c : Dev nD) : outsC D0 D1 D2 m 2 r c = o2 D0 m c r := by unfold outsC; rw [if_pos rfl]
theorem outsC_4 (r : Ref sig .tc) (c : Dev nD) : outsC D0 D1 D2 m 4 r c = o4 D0 D1 m c r := by
  unfold outsC; rw [if_neg (by decide), if_pos rfl]
theorem outsC_6 (r : Ref sig .tc) (c : Dev nD) : outsC D0 D1 D2 m 6 r c = o6 D0 D1 D2 m c r := by
  unfold outsC; rw [if_neg (by decide), if_neg (by decide)]

/-- Each region's entry contents under the final choice are those its own stage was defined from. -/
theorem E3_outsD : E3 m (outsD D0 D1 D2 m) = E3 m (outsA D0 m) :=
  funext fun c => funext fun b => congrFun (V3_congr m _ _ (fun r c => (outsD_2 D0 D1 D2 m r c).trans rfl) c) _
theorem E5_outsD : E5 m (outsD D0 D1 D2 m) = E5 m (outsB D0 D1 m) :=
  funext fun c => funext fun b => congrFun (V5_congr m _ _ (fun r c => (outsD_2 D0 D1 D2 m r c).trans (outsB_2 D0 D1 m r c).symm)
    (fun r c => (outsD_4 D0 D1 D2 m r c).trans (outsB_4 D0 D1 m r c).symm) c) _
theorem E7_outsD : E7 m (outsD D0 D1 D2 m) = E7 m (outsC D0 D1 D2 m) :=
  funext fun c => funext fun b => congrFun (V7_congr m _ _ (fun r c => (outsD_2 D0 D1 D2 m r c).trans (outsC_2 D0 D1 D2 m r c).symm)
    (fun r c => (outsD_4 D0 D1 D2 m r c).trans (outsC_4 D0 D1 D2 m r c).symm)
    (fun r c => (outsD_6 D0 D1 D2 m r c).trans (outsC_6 D0 D1 D2 m r c).symm) c) _

/-- Each output array's chosen exit contents are what its region's pipeline leaves. -/
theorem exit0 (w : Fin cfg0.W) (c : Dev nD) : outsD D0 D1 D2 m 2 (Pipeline.arrRef spec0 w) c = (D0 (E1 m) c).arrAt w cfg0.N := by
  rw [outsD_2]; unfold o2; exact Pipeline.withArrays_arr spec0 launch0.win.arr_inj c _ _ w
theorem exit1 (w : Fin cfg1.W) (c : Dev nD) : outsD D0 D1 D2 m 4 (Pipeline.arrRef spec1 w) c = (D1 (E3 m (outsD D0 D1 D2 m)) c).arrAt w cfg1.N := by
  rw [outsD_4, E3_outsD]; unfold o4; exact Pipeline.withArrays_arr spec1 launch1.win.arr_inj c _ _ w
theorem exit2 (w : Fin cfg2.W) (c : Dev nD) : outsD D0 D1 D2 m 6 (Pipeline.arrRef spec2 w) c = (D2 (E5 m (outsD D0 D1 D2 m)) c).arrAt w cfg2.N := by
  rw [outsD_6, E5_outsD]; unfold o6; exact Pipeline.withArrays_arr spec2 launch2.win.arr_inj c _ _ w
theorem exit3 (w : Fin cfg3.W) (c : Dev nD) : outsD D0 D1 D2 m 8 (Pipeline.arrRef spec3 w) c = (dat3 (E7 m (outsD D0 D1 D2 m)) c).arrAt w cfg3.N := by
  rw [outsD_8, E7_outsD]; unfold o8; exact Pipeline.withArrays_arr spec3 launch3.win.arr_inj c _ _ w

set_option backward.isDefEq.respectTransparency.types false in
/-- The program's run from what the three regions' proof data provide. -/
theorem whole_run (h0 : Provides0 D0) (h1 : Provides1 D1) (h2 : Provides2 D2) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  run_of_regions D0 D1 D2 m ρ (outsD D0 D1 D2 m)
    (reg0 D0 D1 D2 m (outsD D0 D1 D2 m) h0
      (fun c => exit0 D0 D1 D2 m 3 c)
      (fun c => exit0 D0 D1 D2 m 4 c)
      (fun c => exit0 D0 D1 D2 m 5 c))
    (fun _ => .rfl) (fun _ => .rfl)
    (reg1 D0 D1 D2 m (outsD D0 D1 D2 m) h1
      (fun c => exit1 D0 D1 D2 m 7 c)
      (fun c => exit1 D0 D1 D2 m 8 c)
      (fun c => exit1 D0 D1 D2 m 9 c))
    (fun _ => .rfl) (fun _ => .rfl)
    (reg2 D0 D1 D2 m (outsD D0 D1 D2 m) h2
      (fun c => exit2 D0 D1 D2 m 7 c)
      (fun c => exit2 D0 D1 D2 m 8 c)
      (fun c => exit2 D0 D1 D2 m 9 c))
    (fun _ => .rfl) (fun _ => .rfl)
    (fun c => exit3 D0 D1 D2 m 5 c)

end Cert.Kernel.Hand

end
-- ==== Proof.BitsRegion0Shared.lean ====
/-
  The first kernel region of the program: a matrix product with running column statistics. The grid is
  2 column blocks by 32 row blocks (the row block r of a point t is t mod 32, the inner coordinate). Each point
  reads a 512 x 1024 block of x, the 1024 x 1024 block of W of its column block and the matching 1 x 1024 bias
  row (both re-read only when the column block changes, at r = 0), and stores  y = x W^T + b  (operands rounded
  to bf16, accumulated in f32) over the whole 512 x 1024 output block. Two 1 x 1024 rows private to the kernel
  carry, from one point to the next, the running column sums of y and of y * y: zeroed at r = 0, increased by
  this block's column sums at every point, and copied out to the two statistics windows at r = 31, which are left
  untouched (and not written back) at every other point.
  This module: the windows' blocks, the two conditions of the body in closed form, where the statistics
  windows are idle, the carried rows as memrefs, and the entry invariant with those two rows named.
-/
import proofs.«166235_j274877907496_2_alg».proof.Proof.Gen.Kernel.Launch
import proofs.«166235_j274877907496_2_alg».proof.Proof.Gen.Kernel.Points
import proofs.«166235_j274877907496_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not: where it is not
    fetched (W and the bias row at r > 0) the block index has not moved since the point before. One statement
    per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions, in closed form -/

/-- The row block is the first of its column block (r = 0): the body zeroes the two running rows. -/
abbrev firstRow0 (i : grid0.Coords) : Prop := (Scalar.cmpi .ne (Scalar.extui (Scalar.cmpi .eq (BitVec.ofNat 32 (i 1).val) 0#32)) 0#32) = 1#1
theorem hfirstRow0 : ∀ t : Fin cfg0.N, firstRow0 (grid0.coords t) ↔ t.val % 32 = 0 :=
  (by decide +kernel : ∀ t : Fin grid0.N, firstRow0 (grid0.coords t) ↔ t.val % 32 = 0)

/-- The row block is the last of its column block (r = 31): the body copies the two running rows out. -/
abbrev lastRow0 (i : grid0.Coords) : Prop := k0_cond2 i = 1#1
theorem hlastRow0 : ∀ t : Fin cfg0.N, lastRow0 (grid0.coords t) ↔ t.val % 32 = 31 :=
  (by decide +kernel : ∀ t : Fin grid0.N, lastRow0 (grid0.coords t) ↔ t.val % 32 = 31)

/-! ## Where the windows are idle -/

/-- The inputs and y are stored (or read) at every point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last row block the two statistics windows are idle and not written back. -/
theorem idleAt0_4 : ∀ t : Fin cfg0.N, ¬lastRow0 (grid0.coords t) → cfg0.idle 4 (grid0.coords t) = true := by decide +kernel
theorem noFlush0_4 : ∀ t : Fin cfg0.N, ¬lastRow0 (grid0.coords t) → (cfg0.win 4).flush t = false := by decide +kernel
theorem idleAt0_5 : ∀ t : Fin cfg0.N, ¬lastRow0 (grid0.coords t) → cfg0.idle 5 (grid0.coords t) = true := by decide +kernel
theorem noFlush0_5 : ∀ t : Fin cfg0.N, ¬lastRow0 (grid0.coords t) → (cfg0.win 5).flush t = false := by decide +kernel
/-- At the last row block they are stored. -/
theorem liveAt0_4 : ∀ t : Fin cfg0.N, lastRow0 (grid0.coords t) → cfg0.idle 4 (grid0.coords t) = false := by decide +kernel
theorem liveAt0_5 : ∀ t : Fin cfg0.N, lastRow0 (grid0.coords t) → cfg0.idle 5 (grid0.coords t) = false := by decide +kernel

/-! ## The two carried rows -/

/-- The running column sums of y, and of y * y: whole buffers of the kernel's own, passed beside the windows. -/
abbrev sumRow0 : Memref sig .tc .vmem S1x1024 .f32 := Memref.whole cc0_scratch0
abbrev sqRow0 : Memref sig .tc .vmem S1x1024 .f32 := Memref.whole cc0_scratch1

/-- The entry invariant with the two carried rows named as memrefs owned at some contents, the other scoped
    buffers unopened, and the generator register. -/
theorem PhiA0_eq (c : Dev nD) :
    (Pipeline.ΦA spec0 c : sProp 𝕄)
      = iprop(iprop(iprop((∃ d, owns (c : Thread nD τ) sumRow0 fullShare d) ∗ (∃ d, owns (c : Thread nD τ) sqRow0 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [sumRow0, sqRow0, owns_whole]; try rfl

end Cert.Kernel.Hand

end
-- ==== Proof.BitsRegion0Runs.lean ====
/-
  The body of the matrix-product-with-statistics kernel, run on whole staging memrefs, in each of its three
  control cases (by the row block r of the point): r = 0, where the two running rows are zeroed first;
  0 < r < 31, where they continue from what the point before left; r = 31, where after the update they are
  copied out to the two statistics windows. What each case leaves in y's buffer, in the two running rows and
  in the statistics buffers is stated as a function of the three input blocks and of the running rows found.
-/
import proofs.«166235_j274877907496_2_alg».proof.Proof.BitsRegion0Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses, and what it leaves -/

/-- The whole 1 x 1024 row, the whole 512 x 1024 block of x and of y, the whole 1024 x 1024 block of W. -/
abbrev rRow0 : Rect S1x1024 := Rect.unit (s := S1x1024) ![0, 0] S1x1024.size inb_S1x1024_S1x1024_0_0
abbrev rX0 : Rect S512x1024 := Rect.unit (s := S512x1024) ![0, 0] S512x1024.size inb_S512x1024_S512x1024_0_0
abbrev rW0 : Rect S1024x1024 := Rect.unit (s := S1024x1024) ![0, 0] S1024x1024.size inb_S1024x1024_S1024x1024_0_0

/-- y's block: the product of the x block (512 x 1024) with the transposed W block, both rounded to bf16 and
    accumulated in f32, plus the bias row on every row. The body's one whole-block store into y's buffer. -/
def yBlk0 (x0 : Vec F S512x1024 .f32) (x1 : Vec F S1024x1024 .f32) (x2 : Vec F S1x1024 .f32) : Vec F S512x1024 .f32 :=
  View.canon [⟨rX0, k0_pay3 (View.ld x0 rX0) (View.ld x1 rW0) (View.ld x2 rRow0)⟩]

/-- The running column sums after a point: the row found, `s`, plus the column sums of this point's y block. -/
def sumNext0 (x0 : Vec F S512x1024 .f32) (x1 : Vec F S1024x1024 .f32) (x2 s : Vec F S1x1024 .f32) : Vec F S1x1024 .f32 :=
  View.canon [⟨rRow0, k0_pay4 (View.ld x0 rX0) (View.ld x1 rW0) (View.ld x2 rRow0) (View.ld s rRow0)⟩]

/-- The running column sums of squares after a point: the row found plus the column sums of y * y. -/
def sqNext0 (x0 : Vec F S512x1024 .f32) (x1 : Vec F S1024x1024 .f32) (x2 s : Vec F S1x1024 .f32) : Vec F S1x1024 .f32 :=
  View.canon [⟨rRow0, k0_pay5 (View.ld x0 rX0) (View.ld x1 rW0) (View.ld x2 rRow0) (View.ld s rRow0)⟩]

/-- The zero rows the first row block starts the two running rows from. -/
def zeroSum0 : Vec F S1x1024 .f32 := View.canon [⟨rRow0, k0_pay1⟩]
def zeroSq0 : Vec F S1x1024 .f32 := View.canon [⟨rRow0, k0_pay2⟩]

/-- A row stored whole into a statistics buffer: the buffer then reads the row. -/
def copyRow0 (s : Vec F S1x1024 .f32) : Vec F S1x1024 .f32 := View.canon [⟨rRow0, View.ld s rRow0⟩]

/-- One whole store covers its buffer. -/
theorem coverRow0 (p0 : Vec F S1x1024 .f32) (y : S1x1024.Idx) :
    ∃ pc ∈ ([⟨rRow0, p0⟩] : List (View.Piece (Elt F) S1x1024 .f32)), y ∈ pc.1.set :=
  View.cover_of_tiled [⟨rRow0, p0⟩] S1x1024.size (by rfl) y
theorem coverY0 (p0 : Vec F S512x1024 .f32) (y : S512x1024.Idx) :
    ∃ pc ∈ ([⟨rX0, p0⟩] : List (View.Piece (Elt F) S512x1024 .f32)), y ∈ pc.1.set :=
  View.cover_of_tiled [⟨rX0, p0⟩] S512x1024.size (by rfl) y
theorem memRow0 (y : S1x1024.Idx) : y ∈ rRow0.set := by
  obtain ⟨pc, hm, hy⟩ := View.cover_of_tiled (Val := fun _ => Unit) (e := .f32) [⟨rRow0, fun _ => ()⟩] S1x1024.size (by rfl) y
  rw [List.mem_singleton] at hm; subst hm; exact hy

/-! ## The body's triple, case by case -/

set_option maxHeartbeats 1000000 in
/-- A middle row block (0 < r < 31). The inputs' memrefs at `x0 x1 x2`, y's at anything, the two statistics
    buffers at `xi4 xi5` (handed back untouched), the running rows at `s0 s1`: the body leaves y's block and the
    running rows increased by this block's column sums. -/
theorem sound_kernel0_mid (c : Dev nD) (E : Set ℕ) (i : grid0.Coords) (hfirst : ¬firstRow0 i) (hlast : ¬lastRow0 i)
    (arg2 : Memref sig .tc .vmem S512x1024 .f32) (harg2 : arg2.IsWhole) (arg3 : Memref sig .tc .vmem S1024x1024 .f32) (harg3 : arg3.IsWhole)
    (arg4 : Memref sig .tc .vmem S1x1024 .f32) (harg4 : arg4.IsWhole) (arg5 : Memref sig .tc .vmem S512x1024 .f32) (harg5 : arg5.IsWhole)
    (arg6 : Memref sig .tc .vmem S1x1024 .f32) (harg6 : arg6.IsWhole) (arg7 : Memref sig .tc .vmem S1x1024 .f32) (harg7 : arg7.IsWhole)
    (arg8 : Memref sig .tc .vmem S1x1024 .f32) (harg8 : arg8.IsWhole) (arg9 : Memref sig .tc .vmem S1x1024 .f32) (harg9 : arg9.IsWhole)
    (x0 : Vec F S512x1024 .f32) (x1 : Vec F S1024x1024 .f32) (x2 xi4 xi5 s0 s1 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xi4 ∗ owns (c : Thread nD τ) arg7 fullShare xi5
        ∗ owns (c : Thread nD τ) arg8 fullShare s0 ∗ owns (c : Thread nD τ) arg9 fullShare s1
        ∗ (iprop(owns (c : Thread nD τ) arg2 fullShare x0 ∗ owns (c : Thread nD τ) arg3 fullShare x1 ∗ owns (c : Thread nD τ) arg4 fullShare x2
            ∗ owns (c : Thread nD τ) arg5 fullShare (yBlk0 x0 x1 x2) ∗ owns (c : Thread nD τ) arg6 fullShare xi4 ∗ owns (c : Thread nD τ) arg7 fullShare xi5
            ∗ owns (c : Thread nD τ) arg8 fullShare (sumNext0 x0 x1 x2 s0) ∗ owns (c : Thread nD τ) arg9 fullShare (sqNext0 x0 x1 x2 s1)) -∗ K ⟨⟩))
      ⊢ wp frame (wpE (defs₀ (F := F)) Variants.none c none) E (cc0__matmul_stats_kernel i arg2 harg2 arg3 harg3 arg4 harg4 arg5 harg5 arg6 harg6 arg7 harg7 arg8 harg8 arg9 harg9) K := by
  simp only [cc0__matmul_stats_kernel_eq_skeleton]; unfold cc0__matmul_stats_kernel_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f8, %hf8, H8⟩, ⟨%f9, %hf9, H9⟩, Hk⟩
  subst hf0; subst hf1; subst hf2; subst hf4; subst hf5; subst hf8; subst hf9
  sl_exec (disch := first | exact hfirst | exact hlast)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro; exact View.read_writes_eq_canon _ _ _ (coverY0 _)
  isplitl [H4]
  · iexists f4; isplitr; · ipureintro; rfl
    iexact H4
  isplitl [H5]
  · iexists f5; isplitr; · ipureintro; rfl
    iexact H5
  isplitl [H8]
  · iexists _; isplitr
    swap; · iexact H8
    ipureintro; exact View.read_writes_eq_canon _ _ _ (coverRow0 _)
  iexists _; isplitr
  swap; · iexact H9
  ipureintro; exact View.read_writes_eq_canon _ _ _ (coverRow0 _)

set_option maxHeartbeats 1000000 in
/-- The first row block of a column block (r = 0). The running rows at anything: the body zeroes them, then leaves
    y's block and the running rows at this block's column sums over zero. -/
theorem sound_kernel0_first (c : Dev nD) (E : Set ℕ) (i : grid0.Coords) (hfirst : firstRow0 i) (hlast : ¬lastRow0 i)
    (arg2 : Memref sig .tc .vmem S512x1024 .f32) (harg2 : arg2.IsWhole) (arg3 : Memref sig .tc .vmem S1024x1024 .f32) (harg3 : arg3.IsWhole)
    (arg4 : Memref sig .tc .vmem S1x1024 .f32) (harg4 : arg4.IsWhole) (arg5 : Memref sig .tc .vmem S512x1024 .f32) (harg5 : arg5.IsWhole)
    (arg6 : Memref sig .tc .vmem S1x1024 .f32) (harg6 : arg6.IsWhole) (arg7 : Memref sig .tc .vmem S1x1024 .f32) (harg7 : arg7.IsWhole)
    (arg8 : Memref sig .tc .vmem S1x1024 .f32) (harg8 : arg8.IsWhole) (arg9 : Memref sig .tc .vmem S1x1024 .f32) (harg9 : arg9.IsWhole)
    (x0 : Vec F S512x1024 .f32) (x1 : Vec F S1024x1024 .f32) (x2 xi4 xi5 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xi4 ∗ owns (c : Thread nD τ) arg7 fullShare xi5
        ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (yBlk0 x0 x1 x2) ∗ owns (c : Thread nD τ) arg6 fullShare xi4 ∗ owns (c : Thread nD τ) arg7 fullShare xi5
            ∗ owns (c : Thread nD τ) arg8 fullShare (sumNext0 x0 x1 x2 zeroSum0) ∗ owns (c : Thread nD τ) arg9 fullShare (sqNext0 x0 x1 x2 zeroSq0)) -∗ K ⟨⟩))
      ⊢ wp frame (wpE (defs₀ (F := F)) Variants.none c none) E (cc0__matmul_stats_kernel i arg2 harg2 arg3 harg3 arg4 harg4 arg5 harg5 arg6 harg6 arg7 harg7 arg8 harg8 arg9 harg9) K := by
  simp only [cc0__matmul_stats_kernel_eq_skeleton]; unfold cc0__matmul_stats_kernel_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%d8, %f8, -, H8⟩, ⟨%d9, %f9, -, H9⟩, Hk⟩
  subst hf0; subst hf1; subst hf2; subst hf4; subst hf5
  have e8 : arg8.view.readCov [⟨rRow0, k0_pay1 (F := F)⟩] rRow0.toLoadRect = View.ld (zeroSum0 (F := F)) rRow0 :=
    View.readCov_eq_canon_ld _ _ _ (coverRow0 _)
  have e9 : arg9.view.readCov [⟨rRow0, k0_pay2 (F := F)⟩] rRow0.toLoadRect = View.ld (zeroSq0 (F := F)) rRow0 :=
    View.readCov_eq_canon_ld _ _ _ (coverRow0 _)
  sl_exec (disch := first | exact hfirst | exact hlast)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro; exact View.read_writes_eq_canon _ _ _ (coverY0 _)
  isplitl [H4]
  · iexists f4; isplitr; · ipureintro; rfl
    iexact H4
  isplitl [H5]
  · iexists f5; isplitr; · ipureintro; rfl
    iexact H5
  isplitl [H8]
  · iexists _; isplitr
    swap; · iexact H8
    ipureintro
    exact (View.read_writes_of_cover_last arg8.view f8 arg8.view f8 _ _ [] memRow0).trans
      (View.read_writes_eq_canon arg8.view f8 _ (coverRow0 _))
  iexists _; isplitr
  swap; · iexact H9
  ipureintro
  exact (View.read_writes_of_cover_last arg9.view f9 arg9.view f9 _ _ [] memRow0).trans
    (View.read_writes_eq_canon arg9.view f9 _ (coverRow0 _))

set_option maxHeartbeats 1000000 in
/-- The last row block of a column block (r = 31). As a middle one, and then the two statistics buffers (at
    anything before) receive the updated running rows. -/
theorem sound_kernel0_last (c : Dev nD) (E : Set ℕ) (i : grid0.Coords) (hfirst : ¬firstRow0 i) (hlast : lastRow0 i)
    (arg2 : Memref sig .tc .vmem S512x1024 .f32) (harg2 : arg2.IsWhole) (arg3 : Memref sig .tc .vmem S1024x1024 .f32) (harg3 : arg3.IsWhole)
    (arg4 : Memref sig .tc .vmem S1x1024 .f32) (harg4 : arg4.IsWhole) (arg5 : Memref sig .tc .vmem S512x1024 .f32) (harg5 : arg5.IsWhole)
    (arg6 : Memref sig .tc .vmem S1x1024 .f32) (harg6 : arg6.IsWhole) (arg7 : Memref sig .tc .vmem S1x1024 .f32) (harg7 : arg7.IsWhole)
    (arg8 : Memref sig .tc .vmem S1x1024 .f32) (harg8 : arg8.IsWhole) (arg9 : Memref sig .tc .vmem S1x1024 .f32) (harg9 : arg9.IsWhole)
    (x0 : Vec F S512x1024 .f32) (x1 : Vec F S1024x1024 .f32) (x2 s0 s1 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ owns (c : Thread nD τ) arg8 fullShare s0 ∗ owns (c : Thread nD τ) arg9 fullShare s1
        ∗ (iprop(owns (c : Thread nD τ) arg2 fullShare x0 ∗ owns (c : Thread nD τ) arg3 fullShare x1 ∗ owns (c : Thread nD τ) arg4 fullShare x2
            ∗ owns (c : Thread nD τ) arg5 fullShare (yBlk0 x0 x1 x2) ∗ owns (c : Thread nD τ) arg6 fullShare (copyRow0 (sumNext0 x0 x1 x2 s0)) ∗ owns (c : Thread nD τ) arg7 fullShare (copyRow0 (sqNext0 x0 x1 x2 s1))
            ∗ owns (c : Thread nD τ) arg8 fullShare (sumNext0 x0 x1 x2 s0) ∗ owns (c : Thread nD τ) arg9 fullShare (sqNext0 x0 x1 x2 s1)) -∗ K ⟨⟩))
      ⊢ wp frame (wpE (defs₀ (F := F)) Variants.none c none) E (cc0__matmul_stats_kernel i arg2 harg2 arg3 harg3 arg4 harg4 arg5 harg5 arg6 harg6 arg7 harg7 arg8 harg8 arg9 harg9) K := by
  simp only [cc0__matmul_stats_kernel_eq_skeleton]; unfold cc0__matmul_stats_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%f8, %hf8, H8⟩, ⟨%f9, %hf9, H9⟩, Hk⟩
  subst hf0; subst hf1; subst hf2; subst hf8; subst hf9
  have e8 : arg8.view.readCov [⟨rRow0, k0_pay4 (View.ld (arg2.view.read (Elt F) f0) rX0) (View.ld (arg3.view.read (Elt F) f1) rW0) (View.ld (arg4.view.read (Elt F) f2) rRow0) (View.ld (arg8.view.read (Elt F) f8) rRow0)⟩] rRow0.toLoadRect
      = View.ld (sumNext0 (arg2.view.read (Elt F) f0) (arg3.view.read (Elt F) f1) (arg4.view.read (Elt F) f2) (arg8.view.read (Elt F) f8)) rRow0 :=
    View.readCov_eq_canon_ld _ _ _ (coverRow0 _)
  have e9 : arg9.view.readCov [⟨rRow0, k0_pay5 (View.ld (arg2.view.read (Elt F) f0) rX0) (View.ld (arg3.view.read (Elt F) f1) rW0) (View.ld (arg4.view.read (Elt F) f2) rRow0) (View.ld (arg9.view.read (Elt F) f9) rRow0)⟩] rRow0.toLoadRect
      = View.ld (sqNext0 (arg2.view.read (Elt F) f0) (arg3.view.read (Elt F) f1) (arg4.view.read (Elt F) f2) (arg9.view.read (Elt F) f9)) rRow0 :=
    View.readCov_eq_canon_ld _ _ _ (coverRow0 _)
  sl_exec (disch := first | exact hfirst | exact hlast)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro; exact View.read_writes_eq_canon _ _ _ (coverY0 _)
  isplitl [H4]
  · iexists _; isplitr
    swap; · iexact H4
    ipureintro
    exact View.read_writes_eq_canon arg6.view f4 _ (coverRow0 _)
  isplitl [H5]
  · iexists _; isplitr
    swap; · iexact H5
    ipureintro
    exact View.read_writes_eq_canon arg7.view f5 _ (coverRow0 _)
  isplitl [H8]
  · iexists _; isplitr
    swap; · iexact H8
    ipureintro; exact View.read_writes_eq_canon _ _ _ (coverRow0 _)
  iexists _; isplitr
  swap; · iexact H9
  ipureintro; exact View.read_writes_eq_canon _ _ _ (coverRow0 _)

end Cert.Kernel.Hand

end
-- ==== Proof.BitsRegion0.lean ====
/-
  The first kernel region as a pipeline step: what y's buffer, the two statistics buffers and the two running
  rows hold after each point of the 2 x 32 grid (by recursion on the point: the running rows restart from zero
  at the first row block of a column block and otherwise continue from the point before), the invariant that
  carries the two running rows from one point to the next, the pipeline's proof data, the body obligation at
  every point, and the two entailments between the invariant and the region's entry and exit.
  Stated for any contents `V` of the core's buffers at the region's entry.
-/
import proofs.«166235_j274877907496_2_alg».proof.Proof.BitsRegion0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the buffers hold after each point -/

/-- What one point leaves, from its three input blocks and the running rows `s0 s1` it starts from, in order:
    y's buffer, the two statistics buffers (the updated rows copied out; consulted at the last row block only:
    elsewhere those windows are idle), the running sum row, the running sum-of-squares row. -/
def outsOf0 (x0 : Vec F S512x1024 .f32) (x1 : Vec F S1024x1024 .f32) (x2 s0 s1 : Vec F S1x1024 .f32) :
    Vec F S512x1024 .f32 × Vec F S1x1024 .f32 × Vec F S1x1024 .f32 × Vec F S1x1024 .f32 × Vec F S1x1024 .f32 :=
  (yBlk0 x0 x1 x2, copyRow0 (sumNext0 x0 x1 x2 s0), copyRow0 (sqNext0 x0 x1 x2 s1), sumNext0 x0 x1 x2 s0, sqNext0 x0 x1 x2 s1)

/-- THE ACCUMULATION. What the buffers hold after the body at position `n`: at the first row block of a column
    block (n ≡ 0 mod 32) the point's outputs over zeroed running rows, elsewhere over the running rows the point
    before left. -/
def outsAt0 (c : Dev nD) : (n : ℕ) → n < cfg0.N →
    Vec F S512x1024 .f32 × Vec F S1x1024 .f32 × Vec F S1x1024 .f32 × Vec F S1x1024 .f32 × Vec F S1x1024 .f32
  | 0, hn => outsOf0 (iblk0 V c 0 ⟨0, hn⟩) (iblk0 V c 1 ⟨0, hn⟩) (iblk0 V c 2 ⟨0, hn⟩) zeroSum0 zeroSq0
  | n + 1, hn =>
    if (n + 1) % 32 = 0 then
      outsOf0 (iblk0 V c 0 ⟨n + 1, hn⟩) (iblk0 V c 1 ⟨n + 1, hn⟩) (iblk0 V c 2 ⟨n + 1, hn⟩) zeroSum0 zeroSq0
    else
      outsOf0 (iblk0 V c 0 ⟨n + 1, hn⟩) (iblk0 V c 1 ⟨n + 1, hn⟩) (iblk0 V c 2 ⟨n + 1, hn⟩)
        (outsAt0 c n (Nat.lt_of_succ_lt hn)).2.2.2.1 (outsAt0 c n (Nat.lt_of_succ_lt hn)).2.2.2.2

/-- At the first row block of a column block: over zeroed running rows. -/
theorem outsAt0_first (c : Dev nD) (t : Fin cfg0.N) (h0 : t.val % 32 = 0) :
    outsAt0 V c t.val t.isLt = outsOf0 (iblk0 V c 0 t) (iblk0 V c 1 t) (iblk0 V c 2 t) zeroSum0 zeroSq0 := by
  obtain ⟨n, hn⟩ := t
  cases n with
  | zero => exact rfl
  | succ n => exact if_pos h0

/-- At any later row block: over what the point before left in the running rows. -/
theorem outsAt0_later (c : Dev nD) (t : Fin cfg0.N) (h0 : ¬t.val % 32 = 0) :
    outsAt0 V c t.val t.isLt = outsOf0 (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2 := by
  obtain ⟨n, hn⟩ := t
  cases n with
  | zero => exact absurd (Nat.zero_mod _) h0
  | succ n => exact if_neg h0

/-- The same, named by case: a middle row block, and the last one (where the statistics buffers' components
    are the ones written back). -/
theorem outsAt0_mid (c : Dev nD) (t : Fin cfg0.N) (h0 : ¬t.val % 32 = 0) (h1 : ¬t.val % 32 = 31) :
    outsAt0 V c t.val t.isLt = outsOf0 (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2 :=
  outsAt0_later V c t h0
theorem outsAt0_last (c : Dev nD) (t : Fin cfg0.N) (h1 : t.val % 32 = 31) :
    outsAt0 V c t.val t.isLt = outsOf0 (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2 :=
  outsAt0_later V c t (by omega)

/-! ## The invariant -/

/-- The region invariant before position `n`: before the first point, what the launch hands the region (every
    scoped buffer no window stages at anything, the generator register); afterwards the two running rows at what
    the point before left in them, the other scoped buffers unopened, the generator register. -/
def PhiS0 (c : Dev nD) : (n : ℕ) → n ≤ cfg0.N → sProp 𝕄
  | 0, _ => Pipeline.ΦA spec0 c
  | n + 1, hn => iprop(iprop(iprop(owns (c : Thread nD τ) sumRow0 fullShare (outsAt0 V c n hn).2.2.2.1 ∗ owns (c : Thread nD τ) sqRow0 fullShare (outsAt0 V c n hn).2.2.2.2)
      ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) sumRow0 fullShare (outsAt0 V c n hn).2.2.2.1 ∗ owns (c : Thread nD τ) sqRow0 fullShare (outsAt0 V c n hn).2.2.2.2)
      ∗ Pipeline.scopedRestBut (Ix := Unit) (Name := ℕ) (U := UR sig nD τ) (Lvl := ℕ) (Val := Elt F) spec0 c [cc0_scratch0, cc0_scratch1]) ∗ (∃ r, prngReg c r)) := rfl

theorem PhiS0_pos (c : Dev nD) (n : ℕ) (h : n ≤ cfg0.N) (hz : n ≠ 0) :
    PhiS0 V c n h = iprop(iprop(iprop(owns (c : Thread nD τ) sumRow0 fullShare (outsAt0 V c (n - 1) (by omega)).2.2.2.1 ∗ owns (c : Thread nD τ) sqRow0 fullShare (outsAt0 V c (n - 1) (by omega)).2.2.2.2)
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-! ## The pipeline's proof data -/

/-- The arrays as the region finds them; after the body at point `t` each input's buffer at its block, y's and
    the statistics buffers at `outsAt0`'s components; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
    | ⟨5, _⟩ => (outsAt0 V c t.val t.isLt).2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]
theorem after0_5 (c : Dev nD) (t : Fin cfg0.N) : (dat0 V c).after 5 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns: each buffer at what the body leaves, a statistics buffer at what it found wherever
    its window is idle. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 2000000 in
/-- The body at the first row block of a column block. The invariant hands over the two running rows (at anything
    at the very first point, at what the column block before left otherwise: either way they are zeroed) and takes
    them back at this point's contents; the statistics buffers pass through untouched. -/
theorem sound_body0_first (c : Dev nD) (t : Fin cfg0.N) (h0 : t.val % 32 = 0) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [show (dat0 V c).leavesExact 3 t = owns (c : Thread nD τ) (st0_3 t) fullShare ((dat0 V c).after 3 t) from by
    unfold Dat.leavesExact; rw [liveAt0_3 t], after0_3]
  have hf : firstRow0 (grid0.coords t) := (hfirstRow0 t).mpr h0
  have hl : ¬lastRow0 (grid0.coords t) := fun h => by have := (hlastRow0 t).mp h; omega
  rw [Dat.leavesExact_idle (dat0 V c) 4 t (idleAt0_4 t hl) (noFlush0_4 t hl), Dat.leavesExact_idle (dat0 V c) 5 t (idleAt0_5 t hl) (noFlush0_5 t hl)]
  rw [outsAt0_first V c t h0]
  unfold outsOf0; dsimp only
  by_cases hz : t.val = 0
  · rw [PhiS0_castSucc V c t, PhiS0_zero V c _ _ hz, PhiA0_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply (sound_kernel0_first c Set.univ _ hf hl _ _ _ _ _ _ _ _ _ _ _ _ _ _ _ _ (iblk0 V c 0 t) (iblk0 V c 1 t) (iblk0 V c 2 t) ((dat0 V c).before 4 t d4) ((dat0 V c).before 5 t d5) _)
    isplitl [H0]; · iexact H0
    isplitl [H1]; · iexact H1
    isplitl [H2]; · iexact H2
    isplitl [H3]; · iexists _; iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · rw [PhiS0_castSucc V c t, PhiS0_pos V c _ _ hz]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply (sound_kernel0_first c Set.univ _ hf hl _ _ _ _ _ _ _ _ _ _ _ _ _ _ _ _ (iblk0 V c 0 t) (iblk0 V c 1 t) (iblk0 V c 2 t) ((dat0 V c).before 4 t d4) ((dat0 V c).before 5 t d5) _)
    isplitl [H0]; · iexact H0
    isplitl [H1]; · iexact H1
    isplitl [H2]; · iexact H2
    isplitl [H3]; · iexists _; iexact H3
    isplitl [H4]; · iexact H4
    isplitl [H5]; · iexact H5
    isplitl [HS0]; · iexists _; iexact HS0
    isplitl [HS1]; · iexists _; iexact HS1
    iintro ⟨H0, H1, H2, H3, H4, H5, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5

set_option maxHeartbeats 2000000 in
/-- The body at a middle row block: the running rows come in at what the point before left and go back increased. -/
theorem sound_body0_mid (c : Dev nD) (t : Fin cfg0.N) (h0 : ¬t.val % 32 = 0) (h1 : ¬t.val % 32 = 31) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [show (dat0 V c).leavesExact 3 t = owns (c : Thread nD τ) (st0_3 t) fullShare ((dat0 V c).after 3 t) from by
    unfold Dat.leavesExact; rw [liveAt0_3 t], after0_3]
  have hf : ¬firstRow0 (grid0.coords t) := fun h => h0 ((hfirstRow0 t).mp h)
  have hl : ¬lastRow0 (grid0.coords t) := fun h => h1 ((hlastRow0 t).mp h)
  rw [Dat.leavesExact_idle (dat0 V c) 4 t (idleAt0_4 t hl) (noFlush0_4 t hl), Dat.leavesExact_idle (dat0 V c) 5 t (idleAt0_5 t hl) (noFlush0_5 t hl)]
  rw [outsAt0_later V c t h0]
  unfold outsOf0; dsimp only
  have hz : t.val ≠ 0 := fun h => h0 (by rw [h])
  rw [PhiS0_castSucc V c t, PhiS0_pos V c _ _ hz]
  iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
  iapply (sound_kernel0_mid c Set.univ _ hf hl _ _ _ _ _ _ _ _ _ _ _ _ _ _ _ _ (iblk0 V c 0 t) (iblk0 V c 1 t) (iblk0 V c 2 t) ((dat0 V c).before 4 t d4) ((dat0 V c).before 5 t d5) (outsAt0 V c (t.val - 1) (Nat.lt_of_le_of_lt (Nat.sub_le _ _) t.isLt)).2.2.2.1 (outsAt0 V c (t.val - 1) (Nat.lt_of_le_of_lt (Nat.sub_le _ _) t.isLt)).2.2.2.2 _)
  isplitl [H0]; · iexact H0
  isplitl [H1]; · iexact H1
  isplitl [H2]; · iexact H2
  isplitl [H3]; · iexists _; iexact H3
  isplitl [H4]; · iexact H4
  isplitl [H5]; · iexact H5
  isplitl [HS0]; · iexact HS0
  isplitl [HS1]; · iexact HS1
  iintro ⟨H0, H1, H2, H3, H4, H5, HS0, HS1⟩
  isplitl [HS0 HS1 Hrest Hg]
  · isplitl [HS0 HS1 Hrest]
    · isplitl [HS0 HS1]
      · isplitl [HS0]; · iexact HS0
        iexact HS1
      iexact Hrest
    iexact Hg
  isplitl [Ho]; · iexact Ho
  isplitl [H0]; · iexact H0
  isplitl [H1]; · iexact H1
  isplitl [H2]; · iexact H2
  isplitl [H3]; · iexact H3
  isplitl [H4]; · iexists _; iexact H4
  iexists _; iexact H5

set_option maxHeartbeats 2000000 in
/-- The body at the last row block: as a middle one, and the two statistics buffers (now live) receive the rows. -/
theorem sound_body0_last (c : Dev nD) (t : Fin cfg0.N) (h1 : t.val % 32 = 31) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [show (dat0 V c).leavesExact 3 t = owns (c : Thread nD τ) (st0_3 t) fullShare ((dat0 V c).after 3 t) from by
    unfold Dat.leavesExact; rw [liveAt0_3 t], after0_3]
  have h0 : ¬t.val % 32 = 0 := by omega
  have hf : ¬firstRow0 (grid0.coords t) := fun h => h0 ((hfirstRow0 t).mp h)
  have hl : lastRow0 (grid0.coords t) := (hlastRow0 t).mpr h1
  rw [show (dat0 V c).leavesExact 4 t = owns (c : Thread nD τ) (st0_4 t) fullShare ((dat0 V c).after 4 t) from by
    unfold Dat.leavesExact; rw [liveAt0_4 t hl], after0_4]
  rw [show (dat0 V c).leavesExact 5 t = owns (c : Thread nD τ) (st0_5 t) fullShare ((dat0 V c).after 5 t) from by
    unfold Dat.leavesExact; rw [liveAt0_5 t hl], after0_5]
  rw [outsAt0_later V c t h0]
  unfold outsOf0; dsimp only
  have hz : t.val ≠ 0 := fun h => h0 (by rw [h])
  rw [PhiS0_castSucc V c t, PhiS0_pos V c _ _ hz]
  iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
  iapply (sound_kernel0_last c Set.univ _ hf hl _ _ _ _ _ _ _ _ _ _ _ _ _ _ _ _ (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2 _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [HS0]; · iexact HS0
  isplitl [HS1]; · iexact HS1
  iintro ⟨H0, H1, H2, H3, H4, H5, HS0, HS1⟩
  isplitl [HS0 HS1 Hrest Hg]
  · isplitl [HS0 HS1 Hrest]
    · isplitl [HS0 HS1]
      · isplitl [HS0]; · iexact HS0
        iexact HS1
      iexact Hrest
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body at any point: the closed forms of the two conditions say which case the point is in. -/
theorem sound_body0 (c : Dev nD) (t : Fin cfg0.N) :
    bodyPre0 V c t ⊢ wp frame (wpE (defs₀ (F := F)) Variants.none c none) Set.univ (bodyAt0 t) (fun _ => bodyPost0 V c t) := by
  by_cases h0 : t.val % 32 = 0
  · exact sound_body0_first V c t h0
  · by_cases h1 : t.val % 32 = 31
    · exact sound_body0_last V c t h1
    · exact sound_body0_mid V c t h0 h1

/-- The body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's entry and exit -/

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the entry invariant back: what the running rows hold is forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

/-- The same after the last point. -/
theorem hout0 (c : Dev nD) : (dat0 V c).Φ (Fin.last cfg0.N) ⊢ Pipeline.ΦA spec0 c :=
  Phi_out0 V c _ (by rw [Fin.val_last]; have : cfg0.N = 64 := N_0; omega)

end Cert.Kernel.Hand

end
-- ==== Proof.BitsRegion1Shared.lean ====
/-
  The second kernel region of the program: the previous layer's raw output is normalised with its batch
  statistics, multiplied into the next layer, and the new layer's running column statistics are kept. The grid is
  2 column blocks by 32 row blocks (the row block r of a point t is t mod 32, the inner coordinate). Each point
  reads a 512 x 2048 block of the previous raw output, the four feature rows mean, variance, gamma, beta
  (1 x 2048 each, the same block at every point, read in once), the 1024 x 2048 block of W of its column block and
  the matching 1 x 1024 bias row (both re-read only when the column block changes, at r = 0), and stores
    y = ((prev - mean) * rsqrt (variance + eps) * gamma + beta) W^T + b
  (the normalised block and W rounded to bf16, accumulated in f32) over the whole 512 x 1024 output block. Two
  1 x 1024 rows private to the kernel carry, from one point to the next, the running column sums of y and of
  y * y: zeroed at r = 0, increased by this block's column sums at every point, and copied out to the two
  statistics windows at r = 31, which are left untouched (and not written back) at every other point.
  This module: the windows' blocks, the two conditions of the body in closed form, where the statistics
  windows are idle, the carried rows as memrefs, and the entry invariant with those two rows named.
-/
import proofs.«166235_j274877907496_2_alg».proof.Proof.Gen.Kernel.Launch
import proofs.«166235_j274877907496_2_alg».proof.Proof.Gen.Kernel.Points
import proofs.«166235_j274877907496_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not: where it is not
    fetched (the four feature rows after the first point, W and the bias row at r > 0) the block index has not
    moved since the point before. One statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, in closed form -/

/-- The row block is the first of its column block (r = 0): the body zeroes the two running rows. -/
abbrev firstRow1 (i : grid1.Coords) : Prop := (Scalar.cmpi .ne (Scalar.extui (Scalar.cmpi .eq (BitVec.ofNat 32 (i 1).val) 0#32)) 0#32) = 1#1
theorem hfirstRow1 : ∀ t : Fin cfg1.N, firstRow1 (grid1.coords t) ↔ t.val % 32 = 0 :=
  (by decide +kernel : ∀ t : Fin grid1.N, firstRow1 (grid1.coords t) ↔ t.val % 32 = 0)

/-- The row block is the last of its column block (r = 31): the body copies the two running rows out. -/
abbrev lastRow1 (i : grid1.Coords) : Prop := k1_cond2 i = 1#1
theorem hlastRow1 : ∀ t : Fin cfg1.N, lastRow1 (grid1.coords t) ↔ t.val % 32 = 31 :=
  (by decide +kernel : ∀ t : Fin grid1.N, lastRow1 (grid1.coords t) ↔ t.val % 32 = 31)

/-! ## Where the windows are idle -/

/-- The inputs and y are read (or stored) at every point. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
/-- Away from the last row block the two statistics windows are idle and not written back. -/
theorem idleAt1_8 : ∀ t : Fin cfg1.N, ¬lastRow1 (grid1.coords t) → cfg1.idle 8 (grid1.coords t) = true := by decide +kernel
theorem noFlush1_8 : ∀ t : Fin cfg1.N, ¬lastRow1 (grid1.coords t) → (cfg1.win 8).flush t = false := by decide +kernel
theorem idleAt1_9 : ∀ t : Fin cfg1.N, ¬lastRow1 (grid1.coords t) → cfg1.idle 9 (grid1.coords t) = true := by decide +kernel
theorem noFlush1_9 : ∀ t : Fin cfg1.N, ¬lastRow1 (grid1.coords t) → (cfg1.win 9).flush t = false := by decide +kernel
/-- At the last row block they are stored. -/
theorem liveAt1_8 : ∀ t : Fin cfg1.N, lastRow1 (grid1.coords t) → cfg1.idle 8 (grid1.coords t) = false := by decide +kernel
theorem liveAt1_9 : ∀ t : Fin cfg1.N, lastRow1 (grid1.coords t) → cfg1.idle 9 (grid1.coords t) = false := by decide +kernel

/-! ## The two carried rows -/

/-- The running column sums of y, and of y * y: whole buffers of the kernel's own, passed beside the windows. -/
abbrev sumRow1 : Memref sig .tc .vmem S1x1024 .f32 := Memref.whole cc1_scratch0
abbrev sqRow1 : Memref sig .tc .vmem S1x1024 .f32 := Memref.whole cc1_scratch1

/-- The entry invariant with the two carried rows named as memrefs owned at some contents, the other scoped
    buffers unopened, and the generator register. -/
theorem PhiA1_eq (c : Dev nD) :
    (Pipeline.ΦA spec1 c : sProp 𝕄)
      = iprop(iprop(iprop((∃ d, owns (c : Thread nD τ) sumRow1 fullShare d) ∗ (∃ d, owns (c : Thread nD τ) sqRow1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [sumRow1, sqRow1, owns_whole]; try rfl

end Cert.Kernel.Hand

end
-- ==== Proof.BitsRegion1Runs.lean ====
/-
  The body of the normalise-multiply-and-statistics kernel, run on whole staging memrefs, in each of its three
  control cases (by the row block r of the point): r = 0, where the two running rows are zeroed first;
  0 < r < 31, where they continue from what the point before left; r = 31, where after the update they are
  copied out to the two statistics windows. What each case leaves in y's buffer, in the two running rows and
  in the statistics buffers is stated as a function of the seven input blocks and of the running rows found.
-/
import proofs.«166235_j274877907496_2_alg».proof.Proof.BitsRegion1Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses, and what it leaves -/

/-- The whole block of the previous raw output, a whole 1 x 2048 feature row, the whole block of W, a whole
    1 x 1024 row, the whole block of y. -/
abbrev rP1 : Rect S512x2048 := Rect.unit (s := S512x2048) ![0, 0] S512x2048.size inb_S512x2048_S512x2048_0_0
abbrev rR1 : Rect S1x2048 := Rect.unit (s := S1x2048) ![0, 0] S1x2048.size inb_S1x2048_S1x2048_0_0
abbrev rW1 : Rect S1024x2048 := Rect.unit (s := S1024x2048) ![0, 0] S1024x2048.size inb_S1024x2048_S1024x2048_0_0
abbrev rRow1 : Rect S1x1024 := Rect.unit (s := S1x1024) ![0, 0] S1x1024.size inb_S1x1024_S1x1024_0_0
abbrev rY1 : Rect S512x1024 := Rect.unit (s := S512x1024) ![0, 0] S512x1024.size inb_S512x1024_S512x1024_0_0

/-- y's block, from the inputs in the windows' order (previous raw block, mean, variance, gamma, beta, W, bias):
    the previous block normalised feature by feature,  (prev - mean) * rsqrt (variance + eps) * gamma + beta,
    times the transposed W block (both rounded to bf16, accumulated in f32), plus the bias row on every row.
    The body's one whole-block store into y's buffer. -/
def yBlk1 (x0 : Vec F S512x2048 .f32) (x1 x2 x3 x4 : Vec F S1x2048 .f32) (x5 : Vec F S1024x2048 .f32) (x6 : Vec F S1x1024 .f32) : Vec F S512x1024 .f32 :=
  View.canon [⟨rY1, k1_pay5 (View.ld x2 rR1) (View.ld x0 rP1) (View.ld x1 rR1) (View.ld x3 rR1) (View.ld x4 rR1) (View.ld x5 rW1) (View.ld x6 rRow1)⟩]

/-- The running column sums after a point: the row found, `s`, plus the column sums of this point's y block. -/
def sumNext1 (x0 : Vec F S512x2048 .f32) (x1 x2 x3 x4 : Vec F S1x2048 .f32) (x5 : Vec F S1024x2048 .f32) (x6 : Vec F S1x1024 .f32) (s : Vec F S1x1024 .f32) : Vec F S1x1024 .f32 :=
  View.canon [⟨rRow1, k1_pay1 (k1_pay5 (View.ld x2 rR1) (View.ld x0 rP1) (View.ld x1 rR1) (View.ld x3 rR1) (View.ld x4 rR1) (View.ld x5 rW1) (View.ld x6 rRow1)) (View.ld s rRow1)⟩]

/-- The running column sums of squares after a point: the row found plus the column sums of y * y. -/
def sqNext1 (x0 : Vec F S512x2048 .f32) (x1 x2 x3 x4 : Vec F S1x2048 .f32) (x5 : Vec F S1024x2048 .f32) (x6 : Vec F S1x1024 .f32) (s : Vec F S1x1024 .f32) : Vec F S1x1024 .f32 :=
  View.canon [⟨rRow1, k1_pay2 (k1_pay5 (View.ld x2 rR1) (View.ld x0 rP1) (View.ld x1 rR1) (View.ld x3 rR1) (View.ld x4 rR1) (View.ld x5 rW1) (View.ld x6 rRow1)) (View.ld s rRow1)⟩]

/-- The zero rows the first row block starts the two running rows from. -/
def zeroSum1 : Vec F S1x1024 .f32 := View.canon [⟨rRow1, k1_pay3⟩]
def zeroSq1 : Vec F S1x1024 .f32 := View.canon [⟨rRow1, k1_pay4⟩]

/-- A row stored whole into a statistics buffer: the buffer then reads the row. -/
def copyRow1 (s : Vec F S1x1024 .f32) : Vec F S1x1024 .f32 := View.canon [⟨rRow1, View.ld s rRow1⟩]

/-- One whole store covers its buffer. -/
theorem coverRow1 (p0 : Vec F S1x1024 .f32) (y : S1x1024.Idx) :
    ∃ pc ∈ ([⟨rRow1, p0⟩] : List (View.Piece (Elt F) S1x1024 .f32)), y ∈ pc.1.set :=
  View.cover_of_tiled [⟨rRow1, p0⟩] S1x1024.size (by rfl) y
theorem coverY1 (p0 : Vec F S512x1024 .f32) (y : S512x1024.Idx) :
    ∃ pc ∈ ([⟨rY1, p0⟩] : List (View.Piece (Elt F) S512x1024 .f32)), y ∈ pc.1.set :=
  View.cover_of_tiled [⟨rY1, p0⟩] S512x1024.size (by rfl) y
theorem memRow1 (y : S1x1024.Idx) : y ∈ rRow1.set := by
  obtain ⟨pc, hm, hy⟩ := View.cover_of_tiled (Val := fun _ => Unit) (e := .f32) [⟨rRow1, fun _ => ()⟩] S1x1024.size (by rfl) y
  rw [List.mem_singleton] at hm; subst hm; exact hy

/-- A row copied whole reads as the row. -/
theorem copyRow1_eq (s : Vec F S1x1024 .f32) : copyRow1 s = s := by
  funext y
  obtain ⟨x, rfl⟩ := rRow1.exists_idx_of_mem (memRow1 y)
  exact View.canon_cons_emb rRow1 (View.ld s rRow1) [] x

/-! ## The body's triple, case by case -/

set_option maxHeartbeats 1000000 in
/-- A middle row block (0 < r < 31). The inputs' memrefs at `x0 … x6`, y's at anything, the two statistics
    buffers at `xi8 xi9` (handed back untouched), the running rows at `s0 s1`: the body leaves y's block and the
    running rows increased by this block's column sums. -/
theorem sound_kernel1_mid (c : Dev nD) (E : Set ℕ) (i : grid1.Coords) (hfirst : ¬firstRow1 i) (hlast : ¬lastRow1 i)
    (arg2 : Memref sig .tc .vmem S512x2048 .f32) (harg2 : arg2.IsWhole) (arg3 : Memref sig .tc .vmem S1x2048 .f32) (harg3 : arg3.IsWhole)
    (arg4 : Memref sig .tc .vmem S1x2048 .f32) (harg4 : arg4.IsWhole) (arg5 : Memref sig .tc .vmem S1x2048 .f32) (harg5 : arg5.IsWhole)
    (arg6 : Memref sig .tc .vmem S1x2048 .f32) (harg6 : arg6.IsWhole) (arg7 : Memref sig .tc .vmem S1024x2048 .f32) (harg7 : arg7.IsWhole)
    (arg8 : Memref sig .tc .vmem S1x1024 .f32) (harg8 : arg8.IsWhole) (arg9 : Memref sig .tc .vmem S512x1024 .f32) (harg9 : arg9.IsWhole)
    (arg10 : Memref sig .tc .vmem S1x1024 .f32) (harg10 : arg10.IsWhole) (arg11 : Memref sig .tc .vmem S1x1024 .f32) (harg11 : arg11.IsWhole)
    (arg12 : Memref sig .tc .vmem S1x1024 .f32) (harg12 : arg12.IsWhole) (arg13 : Memref sig .tc .vmem S1x1024 .f32) (harg13 : arg13.IsWhole)
    (x0 : Vec F S512x2048 .f32) (x1 x2 x3 x4 : Vec F S1x2048 .f32) (x5 : Vec F S1024x2048 .f32) (x6 : Vec F S1x1024 .f32) (xi8 xi9 s0 s1 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ owns (c : Thread nD τ) arg10 fullShare xi8 ∗ owns (c : Thread nD τ) arg11 fullShare xi9
        ∗ owns (c : Thread nD τ) arg12 fullShare s0 ∗ owns (c : Thread nD τ) arg13 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (yBlk1 x0 x1 x2 x3 x4 x5 x6) ∗ owns (c : Thread nD τ) arg10 fullShare xi8 ∗ owns (c : Thread nD τ) arg11 fullShare xi9
            ∗ owns (c : Thread nD τ) arg12 fullShare (sumNext1 x0 x1 x2 x3 x4 x5 x6 s0) ∗ owns (c : Thread nD τ) arg13 fullShare (sqNext1 x0 x1 x2 x3 x4 x5 x6 s1)) -∗ K ⟨⟩))
      ⊢ wp frame (wpE (defs₀ (F := F)) Variants.none c none) E (cc1__fused_norm_matmul_stats_kernel i arg2 harg2 arg3 harg3 arg4 harg4 arg5 harg5 arg6 harg6 arg7 harg7 arg8 harg8 arg9 harg9 arg10 harg10 arg11 harg11 arg12 harg12 arg13 harg13) K := by
  simp only [cc1__fused_norm_matmul_stats_kernel_eq_skeleton]; unfold cc1__fused_norm_matmul_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%fs0, %hfs0, HS0⟩, ⟨%fs1, %hfs1, HS1⟩, Hk⟩
  subst hf0; subst hf1; subst hf2; subst hf3; subst hf4; subst hf5; subst hf6; subst hf8; subst hf9; subst hfs0; subst hfs1
  sl_exec (disch := first | exact hfirst | exact hlast)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro; exact View.read_writes_eq_canon _ _ _ (coverY1 _)
  isplitl [H8]
  · iexists f8; isplitr; · ipureintro; rfl
    iexact H8
  isplitl [H9]
  · iexists f9; isplitr; · ipureintro; rfl
    iexact H9
  isplitl [HS0]
  · iexists _; isplitr
    swap; · iexact HS0
    ipureintro; exact View.read_writes_eq_canon _ _ _ (coverRow1 _)
  iexists _; isplitr
  swap; · iexact HS1
  ipureintro; exact View.read_writes_eq_canon _ _ _ (coverRow1 _)

set_option maxHeartbeats 1000000 in
/-- The first row block of a column block (r = 0). The running rows at anything: the body zeroes them, then leaves
    y's block and the running rows at this block's column sums over zero. -/
theorem sound_kernel1_first (c : Dev nD) (E : Set ℕ) (i : grid1.Coords) (hfirst : firstRow1 i) (hlast : ¬lastRow1 i)
    (arg2 : Memref sig .tc .vmem S512x2048 .f32) (harg2 : arg2.IsWhole) (arg3 : Memref sig .tc .vmem S1x2048 .f32) (harg3 : arg3.IsWhole)
    (arg4 : Memref sig .tc .vmem S1x2048 .f32) (harg4 : arg4.IsWhole) (arg5 : Memref sig .tc .vmem S1x2048 .f32) (harg5 : arg5.IsWhole)
    (arg6 : Memref sig .tc .vmem S1x2048 .f32) (harg6 : arg6.IsWhole) (arg7 : Memref sig .tc .vmem S1024x2048 .f32) (harg7 : arg7.IsWhole)
    (arg8 : Memref sig .tc .vmem S1x1024 .f32) (harg8 : arg8.IsWhole) (arg9 : Memref sig .tc .vmem S512x1024 .f32) (harg9 : arg9.IsWhole)
    (arg10 : Memref sig .tc .vmem S1x1024 .f32) (harg10 : arg10.IsWhole) (arg11 : Memref sig .tc .vmem S1x1024 .f32) (harg11 : arg11.IsWhole)
    (arg12 : Memref sig .tc .vmem S1x1024 .f32) (harg12 : arg12.IsWhole) (arg13 : Memref sig .tc .vmem S1x1024 .f32) (harg13 : arg13.IsWhole)
    (x0 : Vec F S512x2048 .f32) (x1 x2 x3 x4 : Vec F S1x2048 .f32) (x5 : Vec F S1024x2048 .f32) (x6 : Vec F S1x1024 .f32) (xi8 xi9 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ owns (c : Thread nD τ) arg10 fullShare xi8 ∗ owns (c : Thread nD τ) arg11 fullShare xi9
        ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (yBlk1 x0 x1 x2 x3 x4 x5 x6) ∗ owns (c : Thread nD τ) arg10 fullShare xi8 ∗ owns (c : Thread nD τ) arg11 fullShare xi9
            ∗ owns (c : Thread nD τ) arg12 fullShare (sumNext1 x0 x1 x2 x3 x4 x5 x6 zeroSum1) ∗ owns (c : Thread nD τ) arg13 fullShare (sqNext1 x0 x1 x2 x3 x4 x5 x6 zeroSq1)) -∗ K ⟨⟩))
      ⊢ wp frame (wpE (defs₀ (F := F)) Variants.none c none) E (cc1__fused_norm_matmul_stats_kernel i arg2 harg2 arg3 harg3 arg4 harg4 arg5 harg5 arg6 harg6 arg7 harg7 arg8 harg8 arg9 harg9 arg10 harg10 arg11 harg11 arg12 harg12 arg13 harg13) K := by
  simp only [cc1__fused_norm_matmul_stats_kernel_eq_skeleton]; unfold cc1__fused_norm_matmul_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%ds0, %fs0, -, HS0⟩, ⟨%ds1, %fs1, -, HS1⟩, Hk⟩
  subst hf0; subst hf1; subst hf2; subst hf3; subst hf4; subst hf5; subst hf6; subst hf8; subst hf9
  have e12 : arg12.view.readCov [⟨rRow1, k1_pay3 (F := F)⟩] rRow1.toLoadRect = View.ld (zeroSum1 (F := F)) rRow1 :=
    View.readCov_eq_canon_ld _ _ _ (coverRow1 _)
  have e13 : arg13.view.readCov [⟨rRow1, k1_pay4 (F := F)⟩] rRow1.toLoadRect = View.ld (zeroSq1 (F := F)) rRow1 :=
    View.readCov_eq_canon_ld _ _ _ (coverRow1 _)
  sl_exec (disch := first | exact hfirst | exact hlast)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro; exact View.read_writes_eq_canon _ _ _ (coverY1 _)
  isplitl [H8]
  · iexists f8; isplitr; · ipureintro; rfl
    iexact H8
  isplitl [H9]
  · iexists f9; isplitr; · ipureintro; rfl
    iexact H9
  isplitl [HS0]
  · iexists _; isplitr
    swap; · iexact HS0
    ipureintro
    exact (View.read_writes_of_cover_last arg12.view fs0 arg12.view fs0 _ _ [] memRow1).trans
      (View.read_writes_eq_canon arg12.view fs0 _ (coverRow1 _))
  iexists _; isplitr
  swap; · iexact HS1
  ipureintro
  exact (View.read_writes_of_cover_last arg13.view fs1 arg13.view fs1 _ _ [] memRow1).trans
    (View.read_writes_eq_canon arg13.view fs1 _ (coverRow1 _))

set_option maxHeartbeats 1000000 in
/-- The last row block of a column block (r = 31). As a middle one, and then the two statistics buffers (at
    anything before) receive the updated running rows. -/
theorem sound_kernel1_last (c : Dev nD) (E : Set ℕ) (i : grid1.Coords) (hfirst : ¬firstRow1 i) (hlast : lastRow1 i)
    (arg2 : Memref sig .tc .vmem S512x2048 .f32) (harg2 : arg2.IsWhole) (arg3 : Memref sig .tc .vmem S1x2048 .f32) (harg3 : arg3.IsWhole)
    (arg4 : Memref sig .tc .vmem S1x2048 .f32) (harg4 : arg4.IsWhole) (arg5 : Memref sig .tc .vmem S1x2048 .f32) (harg5 : arg5.IsWhole)
    (arg6 : Memref sig .tc .vmem S1x2048 .f32) (harg6 : arg6.IsWhole) (arg7 : Memref sig .tc .vmem S1024x2048 .f32) (harg7 : arg7.IsWhole)
    (arg8 : Memref sig .tc .vmem S1x1024 .f32) (harg8 : arg8.IsWhole) (arg9 : Memref sig .tc .vmem S512x1024 .f32) (harg9 : arg9.IsWhole)
    (arg10 : Memref sig .tc .vmem S1x1024 .f32) (harg10 : arg10.IsWhole) (arg11 : Memref sig .tc .vmem S1x1024 .f32) (harg11 : arg11.IsWhole)
    (arg12 : Memref sig .tc .vmem S1x1024 .f32) (harg12 : arg12.IsWhole) (arg13 : Memref sig .tc .vmem S1x1024 .f32) (harg13 : arg13.IsWhole)
    (x0 : Vec F S512x2048 .f32) (x1 x2 x3 x4 : Vec F S1x2048 .f32) (x5 : Vec F S1024x2048 .f32) (x6 : Vec F S1x1024 .f32) (s0 s1 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ (∃ d, owns (c : Thread nD τ) arg10 fullShare d) ∗ (∃ d, owns (c : Thread nD τ) arg11 fullShare d)
        ∗ owns (c : Thread nD τ) arg12 fullShare s0 ∗ owns (c : Thread nD τ) arg13 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (yBlk1 x0 x1 x2 x3 x4 x5 x6) ∗ owns (c : Thread nD τ) arg10 fullShare (copyRow1 (sumNext1 x0 x1 x2 x3 x4 x5 x6 s0)) ∗ owns (c : Thread nD τ) arg11 fullShare (copyRow1 (sqNext1 x0 x1 x2 x3 x4 x5 x6 s1))
            ∗ owns (c : Thread nD τ) arg12 fullShare (sumNext1 x0 x1 x2 x3 x4 x5 x6 s0) ∗ owns (c : Thread nD τ) arg13 fullShare (sqNext1 x0 x1 x2 x3 x4 x5 x6 s1)) -∗ K ⟨⟩))
      ⊢ wp frame (wpE (defs₀ (F := F)) Variants.none c none) E (cc1__fused_norm_matmul_stats_kernel i arg2 harg2 arg3 harg3 arg4 harg4 arg5 harg5 arg6 harg6 arg7 harg7 arg8 harg8 arg9 harg9 arg10 harg10 arg11 harg11 arg12 harg12 arg13 harg13) K := by
  simp only [cc1__fused_norm_matmul_stats_kernel_eq_skeleton]; unfold cc1__fused_norm_matmul_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs0, %hfs0, HS0⟩, ⟨%fs1, %hfs1, HS1⟩, Hk⟩
  subst hf0; subst hf1; subst hf2; subst hf3; subst hf4; subst hf5; subst hf6; subst hfs0; subst hfs1
  have e12 : arg12.view.readCov [⟨rRow1, k1_pay1 (k1_pay5 (View.ld (arg4.view.read (Elt F) f2) rR1) (View.ld (arg2.view.read (Elt F) f0) rP1) (View.ld (arg3.view.read (Elt F) f1) rR1) (View.ld (arg5.view.read (Elt F) f3) rR1) (View.ld (arg6.view.read (Elt F) f4) rR1) (View.ld (arg7.view.read (Elt F) f5) rW1) (View.ld (arg8.view.read (Elt F) f6) rRow1)) (View.ld (arg12.view.read (Elt F) fs0) rRow1)⟩] rRow1.toLoadRect
      = View.ld (sumNext1 (arg2.view.read (Elt F) f0) (arg3.view.read (Elt F) f1) (arg4.view.read (Elt F) f2) (arg5.view.read (Elt F) f3) (arg6.view.read (Elt F) f4) (arg7.view.read (Elt F) f5) (arg8.view.read (Elt F) f6) (arg12.view.read (Elt F) fs0)) rRow1 :=
    View.readCov_eq_canon_ld _ _ _ (coverRow1 _)
  have e13 : arg13.view.readCov [⟨rRow1, k1_pay2 (k1_pay5 (View.ld (arg4.view.read (Elt F) f2) rR1) (View.ld (arg2.view.read (Elt F) f0) rP1) (View.ld (arg3.view.read (Elt F) f1) rR1) (View.ld (arg5.view.read (Elt F) f3) rR1) (View.ld (arg6.view.read (Elt F) f4) rR1) (View.ld (arg7.view.read (Elt F) f5) rW1) (View.ld (arg8.view.read (Elt F) f6) rRow1)) (View.ld (arg13.view.read (Elt F) fs1) rRow1)⟩] rRow1.toLoadRect
      = View.ld (sqNext1 (arg2.view.read (Elt F) f0) (arg3.view.read (Elt F) f1) (arg4.view.read (Elt F) f2) (arg5.view.read (Elt F) f3) (arg6.view.read (Elt F) f4) (arg7.view.read (Elt F) f5) (arg8.view.read (Elt F) f6) (arg13.view.read (Elt F) fs1)) rRow1 :=
    View.readCov_eq_canon_ld _ _ _ (coverRow1 _)
  sl_exec (disch := first | exact hfirst | exact hlast)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro; exact View.read_writes_eq_canon _ _ _ (coverY1 _)
  isplitl [H8]
  · iexists _; isplitr
    swap; · iexact H8
    ipureintro; exact View.read_writes_eq_canon _ _ _ (coverRow1 _)
  isplitl [H9]
  · iexists _; isplitr
    swap; · iexact H9
    ipureintro; exact View.read_writes_eq_canon _ _ _ (coverRow1 _)
  isplitl [HS0]
  · iexists _; isplitr
    swap; · iexact HS0
    ipureintro; exact View.read_writes_eq_canon _ _ _ (coverRow1 _)
  iexists _; isplitr
  swap; · iexact HS1
  ipureintro; exact View.read_writes_eq_canon _ _ _ (coverRow1 _)

end Cert.Kernel.Hand

end
-- ==== Proof.BitsRegion1.lean ====
/-
  The second kernel region as a pipeline step: what y's buffer, the two statistics buffers and the two running
  rows hold after each point of the 2 x 32 grid (by recursion on the point: the running rows restart from zero
  at the first row block of a column block and otherwise continue from the point before), the invariant that
  carries the two running rows from one point to the next, the pipeline's proof data, the body obligation at
  every point, and the two entailments between the invariant and the region's entry and exit.
  Stated for any contents `V` of the core's buffers at the region's entry.
-/
import proofs.«166235_j274877907496_2_alg».proof.Proof.BitsRegion1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the buffers hold after each point -/

/-- What one point leaves, from its seven input blocks and the running rows `s0 s1` it starts from, in order:
    y's buffer, the two statistics buffers (the updated rows copied out; consulted at the last row block only:
    elsewhere those windows are idle), the running sum row, the running sum-of-squares row. -/
def outsOf1 (x0 : Vec F S512x2048 .f32) (x1 x2 x3 x4 : Vec F S1x2048 .f32) (x5 : Vec F S1024x2048 .f32) (x6 : Vec F S1x1024 .f32) (s0 s1 : Vec F S1x1024 .f32) :
    Vec F S512x1024 .f32 × Vec F S1x1024 .f32 × Vec F S1x1024 .f32 × Vec F S1x1024 .f32 × Vec F S1x1024 .f32 :=
  (yBlk1 x0 x1 x2 x3 x4 x5 x6, copyRow1 (sumNext1 x0 x1 x2 x3 x4 x5 x6 s0), copyRow1 (sqNext1 x0 x1 x2 x3 x4 x5 x6 s1), sumNext1 x0 x1 x2 x3 x4 x5 x6 s0, sqNext1 x0 x1 x2 x3 x4 x5 x6 s1)

/-- THE ACCUMULATION. What the buffers hold after the body at position `n`: at the first row block of a column
    block (n ≡ 0 mod 32) the point's outputs over zeroed running rows, elsewhere over the running rows the point
    before left. -/
def outsAt1 (c : Dev nD) : (n : ℕ) → n < cfg1.N →
    Vec F S512x1024 .f32 × Vec F S1x1024 .f32 × Vec F S1x1024 .f32 × Vec F S1x1024 .f32 × Vec F S1x1024 .f32
  | 0, hn => outsOf1 (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) zeroSum1 zeroSq1
  | n + 1, hn =>
    if (n + 1) % 32 = 0 then
      outsOf1 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) zeroSum1 zeroSq1
    else
      outsOf1 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩)
        (outsAt1 c n (Nat.lt_of_succ_lt hn)).2.2.2.1 (outsAt1 c n (Nat.lt_of_succ_lt hn)).2.2.2.2

/-- At the first row block of a column block: over zeroed running rows. -/
theorem outsAt1_first (c : Dev nD) (t : Fin cfg1.N) (h0 : t.val % 32 = 0) :
    outsAt1 V c t.val t.isLt = outsOf1 (iblk1 V c 0 t) (iblk1 V c 1 t) (iblk1 V c 2 t) (iblk1 V c 3 t) (iblk1 V c 4 t) (iblk1 V c 5 t) (iblk1 V c 6 t) zeroSum1 zeroSq1 := by
  obtain ⟨n, hn⟩ := t
  cases n with
  | zero => exact rfl
  | succ n => exact if_pos h0

/-- At any later row block: over what the point before left in the running rows. -/
theorem outsAt1_later (c : Dev nD) (t : Fin cfg1.N) (h0 : ¬t.val % 32 = 0) :
    outsAt1 V c t.val t.isLt = outsOf1 (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.2.1 (outsAt1 V c (t.val - 1) (Nat.lt_of_le_of_lt (Nat.sub_le _ _) t.isLt)).2.2.2.2 := by
  obtain ⟨n, hn⟩ := t
  cases n with
  | zero => exact absurd (Nat.zero_mod _) h0
  | succ n => exact if_neg h0

/-- The same, named by case: a middle row block, and the last one (where the statistics buffers' components
    are the ones written back). -/
theorem outsAt1_mid (c : Dev nD) (t : Fin cfg1.N) (h0 : ¬t.val % 32 = 0) (h1 : ¬t.val % 32 = 31) :
    outsAt1 V c t.val t.isLt = outsOf1 (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.2.1 (outsAt1 V c (t.val - 1) (Nat.lt_of_le_of_lt (Nat.sub_le _ _) t.isLt)).2.2.2.2 :=
  outsAt1_later V c t h0
theorem outsAt1_last (c : Dev nD) (t : Fin cfg1.N) (h1 : t.val % 32 = 31) :
    outsAt1 V c t.val t.isLt = outsOf1 (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.2.1 (outsAt1 V c (t.val - 1) (Nat.lt_of_le_of_lt (Nat.sub_le _ _) t.isLt)).2.2.2.2 :=
  outsAt1_later V c t (by omega)

/-! ## The invariant -/

/-- The region invariant before position `n`: before the first point, what the launch hands the region (every
    scoped buffer no window stages at anything, the generator register); afterwards the two running rows at what
    the point before left in them, the other scoped buffers unopened, the generator register. -/
def PhiS1 (c : Dev nD) : (n : ℕ) → n ≤ cfg1.N → sProp 𝕄
  | 0, _ => Pipeline.ΦA spec1 c
  | n + 1, hn => iprop(iprop(iprop(owns (c : Thread nD τ) sumRow1 fullShare (outsAt1 V c n hn).2.2.2.1 ∗ owns (c : Thread nD τ) sqRow1 fullShare (outsAt1 V c n hn).2.2.2.2)
      ∗ Pipeline.scopedRestBut (Ix := Unit) (Name := ℕ) (U := UR sig nD τ) (Lvl := ℕ) (Val := Elt F) spec1 c [cc1_scratch0, cc1_scratch1]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) sumRow1 fullShare (outsAt1 V c n hn).2.2.2.1 ∗ owns (c : Thread nD τ) sqRow1 fullShare (outsAt1 V c n hn).2.2.2.2)
      ∗ Pipeline.scopedRestBut (Ix := Unit) (Name := ℕ) (U := UR sig nD τ) (Lvl := ℕ) (Val := Elt F) spec1 c [cc1_scratch0, cc1_scratch1]) ∗ (∃ r, prngReg c r)) := rfl

theorem PhiS1_pos (c : Dev nD) (n : ℕ) (h : n ≤ cfg1.N) (hz : n ≠ 0) :
    PhiS1 V c n h = iprop(iprop(iprop(owns (c : Thread nD τ) sumRow1 fullShare (outsAt1 V c (n - 1) (by omega)).2.2.2.1 ∗ owns (c : Thread nD τ) sqRow1 fullShare (outsAt1 V c (n - 1) (by omega)).2.2.2.2)
      ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

/-! ## The pipeline's proof data -/

/-- The arrays as the region finds them; after the body at point `t` each input's buffer at its block, y's and
    the statistics buffers at `outsAt1`'s components; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
    | ⟨8, _⟩ => (outsAt1 V c t.val t.isLt).2.1
    | ⟨9, _⟩ => (outsAt1 V c t.val t.isLt).2.2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]
theorem after1_8 (c : Dev nD) (t : Fin cfg1.N) : (dat1 V c).after 8 t = (outsAt1 V c t.val t.isLt).2.1 := by dsimp only [dat1]
theorem after1_9 (c : Dev nD) (t : Fin cfg1.N) : (dat1 V c).after 9 t = (outsAt1 V c t.val t.isLt).2.2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns: each buffer at what the body leaves, a statistics buffer at what it found wherever
    its window is idle. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t)

set_option maxHeartbeats 2000000 in
/-- The body at the first row block of a column block. The invariant hands over the two running rows (at anything
    at the very first point, at what the column block before left otherwise: either way they are zeroed) and takes
    them back at this point's contents; the statistics buffers pass through untouched. -/
theorem sound_body1_first (c : Dev nD) (t : Fin cfg1.N) (h0 : t.val % 32 = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  rw [show (dat1 V c).leavesExact 5 t = owns (c : Thread nD τ) (st1_5 t) fullShare ((dat1 V c).after 5 t) from by
    unfold Dat.leavesExact; rw [liveAt1_5 t], after1_5]
  rw [show (dat1 V c).leavesExact 6 t = owns (c : Thread nD τ) (st1_6 t) fullShare ((dat1 V c).after 6 t) from by
    unfold Dat.leavesExact; rw [liveAt1_6 t], after1_6]
  rw [show (dat1 V c).leavesExact 7 t = owns (c : Thread nD τ) (st1_7 t) fullShare ((dat1 V c).after 7 t) from by
    unfold Dat.leavesExact; rw [liveAt1_7 t], after1_7]
  have hf : firstRow1 (grid1.coords t) := (hfirstRow1 t).mpr h0
  have hl : ¬lastRow1 (grid1.coords t) := fun h => by have := (hlastRow1 t).mp h; omega
  rw [Dat.leavesExact_idle (dat1 V c) 8 t (idleAt1_8 t hl) (noFlush1_8 t hl), Dat.leavesExact_idle (dat1 V c) 9 t (idleAt1_9 t hl) (noFlush1_9 t hl)]
  rw [outsAt1_first V c t h0]
  unfold outsOf1; dsimp only
  by_cases hz : t.val = 0
  · rw [PhiS1_castSucc V c t, PhiS1_zero V c _ _ hz, PhiA1_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel1_first c Set.univ _ hf hl _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) ((dat1 V c).before 8 t d8) ((dat1 V c).before 9 t d9) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [HS0]; · iexact HS0
    isplitl [HS1]; · iexact HS1
    iintro ⟨H0, H1, H2, H3, H4, H5, H6, H7, H8, H9, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iexists _; iexact H9
  · rw [PhiS1_castSucc V c t, PhiS1_pos V c _ _ hz]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel1_first c Set.univ _ hf hl _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) ((dat1 V c).before 8 t d8) ((dat1 V c).before 9 t d9) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [HS0]; · iexists _; iexact HS0
    isplitl [HS1]; · iexists _; iexact HS1
    iintro ⟨H0, H1, H2, H3, H4, H5, H6, H7, H8, H9, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iexists _; iexact H9

set_option maxHeartbeats 2000000 in
/-- The body at a middle row block: the running rows come in at what the point before left and go back increased. -/
theorem sound_body1_mid (c : Dev nD) (t : Fin cfg1.N) (h0 : ¬t.val % 32 = 0) (h1 : ¬t.val % 32 = 31) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  rw [show (dat1 V c).leavesExact 5 t = owns (c : Thread nD τ) (st1_5 t) fullShare ((dat1 V c).after 5 t) from by
    unfold Dat.leavesExact; rw [liveAt1_5 t], after1_5]
  rw [show (dat1 V c).leavesExact 6 t = owns (c : Thread nD τ) (st1_6 t) fullShare ((dat1 V c).after 6 t) from by
    unfold Dat.leavesExact; rw [liveAt1_6 t], after1_6]
  rw [show (dat1 V c).leavesExact 7 t = owns (c : Thread nD τ) (st1_7 t) fullShare ((dat1 V c).after 7 t) from by
    unfold Dat.leavesExact; rw [liveAt1_7 t], after1_7]
  have hf : ¬firstRow1 (grid1.coords t) := fun h => h0 ((hfirstRow1 t).mp h)
  have hl : ¬lastRow1 (grid1.coords t) := fun h => h1 ((hlastRow1 t).mp h)
  rw [Dat.leavesExact_idle (dat1 V c) 8 t (idleAt1_8 t hl) (noFlush1_8 t hl), Dat.leavesExact_idle (dat1 V c) 9 t (idleAt1_9 t hl) (noFlush1_9 t hl)]
  rw [outsAt1_later V c t h0]
  unfold outsOf1; dsimp only
  have hz : t.val ≠ 0 := fun h => h0 (by rw [h])
  rw [PhiS1_castSucc V c t, PhiS1_pos V c _ _ hz]
  iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1_mid c Set.univ _ hf hl _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) ((dat1 V c).before 8 t d8) ((dat1 V c).before 9 t d9) (outsAt1 V c (t.val - 1) (Nat.lt_of_le_of_lt (Nat.sub_le _ _) t.isLt)).2.2.2.1 (outsAt1 V c (t.val - 1) (Nat.lt_of_le_of_lt (Nat.sub_le _ _) t.isLt)).2.2.2.2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexact H9
  isplitl [HS0]; · iexact HS0
  isplitl [HS1]; · iexact HS1
  iintro ⟨H0, H1, H2, H3, H4, H5, H6, H7, H8, H9, HS0, HS1⟩
  isplitl [HS0 HS1 Hrest Hg]
  · isplitl [HS0 HS1 Hrest]
    · isplitl [HS0 HS1]
      · isplitl [HS0]; · iexact HS0
        iexact HS1
      iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iexists _; iexact H9

set_option maxHeartbeats 2000000 in
/-- The body at the last row block: as a middle one, and the two statistics buffers (now live) receive the rows. -/
theorem sound_body1_last (c : Dev nD) (t : Fin cfg1.N) (h1 : t.val % 32 = 31) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  rw [show (dat1 V c).leavesExact 5 t = owns (c : Thread nD τ) (st1_5 t) fullShare ((dat1 V c).after 5 t) from by
    unfold Dat.leavesExact; rw [liveAt1_5 t], after1_5]
  rw [show (dat1 V c).leavesExact 6 t = owns (c : Thread nD τ) (st1_6 t) fullShare ((dat1 V c).after 6 t) from by
    unfold Dat.leavesExact; rw [liveAt1_6 t], after1_6]
  rw [show (dat1 V c).leavesExact 7 t = owns (c : Thread nD τ) (st1_7 t) fullShare ((dat1 V c).after 7 t) from by
    unfold Dat.leavesExact; rw [liveAt1_7 t], after1_7]
  have h0 : ¬t.val % 32 = 0 := by omega
  have hf : ¬firstRow1 (grid1.coords t) := fun h => h0 ((hfirstRow1 t).mp h)
  have hl : lastRow1 (grid1.coords t) := (hlastRow1 t).mpr h1
  rw [show (dat1 V c).leavesExact 8 t = owns (c : Thread nD τ) (st1_8 t) fullShare ((dat1 V c).after 8 t) from by
    unfold Dat.leavesExact; rw [liveAt1_8 t hl], after1_8]
  rw [show (dat1 V c).leavesExact 9 t = owns (c : Thread nD τ) (st1_9 t) fullShare ((dat1 V c).after 9 t) from by
    unfold Dat.leavesExact; rw [liveAt1_9 t hl], after1_9]
  rw [outsAt1_later V c t h0]
  unfold outsOf1; dsimp only
  have hz : t.val ≠ 0 := fun h => h0 (by rw [h])
  rw [PhiS1_castSucc V c t, PhiS1_pos V c _ _ hz]
  iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1_last c Set.univ _ hf hl _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.2.1 (outsAt1 V c (t.val - 1) (Nat.lt_of_le_of_lt (Nat.sub_le _ _) t.isLt)).2.2.2.2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [HS0]; · iexact HS0
  isplitl [HS1]; · iexact HS1
  iintro ⟨H0, H1, H2, H3, H4, H5, H6, H7, H8, H9, HS0, HS1⟩
  isplitl [HS0 HS1 Hrest Hg]
  · isplitl [HS0 HS1 Hrest]
    · isplitl [HS0 HS1]
      · isplitl [HS0]; · iexact HS0
        iexact HS1
      iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body at any point: the closed forms of the two conditions say which case the point is in. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 32 = 0
  · exact sound_body1_first V c t h0
  · by_cases h1 : t.val % 32 = 31
    · exact sound_body1_last V c t h1
    · exact sound_body1_mid V c t h0 h1

/-- The body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's entry and exit -/

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the entry invariant back: what the running rows hold is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Cert.Kernel.Hand

end
-- ==== Proof.BitsRegion2Shared.lean ====
/-
  The third kernel region of the program: the previous layer's raw output is normalised with its batch
  statistics, multiplied into the next layer, and the new layer's running column statistics are kept. The grid is
  2 column blocks by 32 row blocks (the row block r of a point t is t mod 32, the inner coordinate). Each point
  reads a 512 x 2048 block of the previous raw output, the four feature rows mean, variance, gamma, beta
  (1 x 2048 each, the same block at every point, read in once), the 512 x 2048 block of W of its column block and
  the matching 1 x 512 bias row (both re-read only when the column block changes, at r = 0), and stores
    y = ((prev - mean) * rsqrt (variance + eps) * gamma + beta) W^T + b
  (the normalised block and W rounded to bf16, accumulated in f32) over the whole 512 x 512 output block. Two
  1 x 512 rows private to the kernel carry, from one point to the next, the running column sums of y and of
  y * y: zeroed at r = 0, increased by this block's column sums at every point, and copied out to the two
  statistics windows at r = 31, which are left untouched (and not written back) at every other point.
  This module: the windows' blocks, the two conditions of the body in closed form, where the statistics
  windows are idle, the carried rows as memrefs, and the entry invariant with those two rows named.
-/
import proofs.«166235_j274877907496_2_alg».proof.Proof.Gen.Kernel.Launch
import proofs.«166235_j274877907496_2_alg».proof.Proof.Gen.Kernel.Points
import proofs.«166235_j274877907496_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not: where it is not
    fetched (the four feature rows after the first point, W and the bias row at r > 0) the block index has not
    moved since the point before. One statement per input window. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions, in closed form -/

/-- The row block is the first of its column block (r = 0): the body zeroes the two running rows. -/
abbrev firstRow2 (i : grid2.Coords) : Prop := (Scalar.cmpi .ne (Scalar.extui (Scalar.cmpi .eq (BitVec.ofNat 32 (i 1).val) 0#32)) 0#32) = 1#1
theorem hfirstRow2 : ∀ t : Fin cfg2.N, firstRow2 (grid2.coords t) ↔ t.val % 32 = 0 :=
  (by decide +kernel : ∀ t : Fin grid2.N, firstRow2 (grid2.coords t) ↔ t.val % 32 = 0)

/-- The row block is the last of its column block (r = 31): the body copies the two running rows out. -/
abbrev lastRow2 (i : grid2.Coords) : Prop := k2_cond2 i = 1#1
theorem hlastRow2 : ∀ t : Fin cfg2.N, lastRow2 (grid2.coords t) ↔ t.val % 32 = 31 :=
  (by decide +kernel : ∀ t : Fin grid2.N, lastRow2 (grid2.coords t) ↔ t.val % 32 = 31)

/-! ## Where the windows are idle -/

/-- The inputs and y are read (or stored) at every point. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem liveAt2_6 : ∀ t : Fin cfg2.N, cfg2.idle 6 (grid2.coords t) = false := by decide +kernel
theorem liveAt2_7 : ∀ t : Fin cfg2.N, cfg2.idle 7 (grid2.coords t) = false := by decide +kernel
/-- Away from the last row block the two statistics windows are idle and not written back. -/
theorem idleAt2_8 : ∀ t : Fin cfg2.N, ¬lastRow2 (grid2.coords t) → cfg2.idle 8 (grid2.coords t) = true := by decide +kernel
theorem noFlush2_8 : ∀ t : Fin cfg2.N, ¬lastRow2 (grid2.coords t) → (cfg2.win 8).flush t = false := by decide +kernel
theorem idleAt2_9 : ∀ t : Fin cfg2.N, ¬lastRow2 (grid2.coords t) → cfg2.idle 9 (grid2.coords t) = true := by decide +kernel
theorem noFlush2_9 : ∀ t : Fin cfg2.N, ¬lastRow2 (grid2.coords t) → (cfg2.win 9).flush t = false := by decide +kernel
/-- At the last row block they are stored. -/
theorem liveAt2_8 : ∀ t : Fin cfg2.N, lastRow2 (grid2.coords t) → cfg2.idle 8 (grid2.coords t) = false := by decide +kernel
theorem liveAt2_9 : ∀ t : Fin cfg2.N, lastRow2 (grid2.coords t) → cfg2.idle 9 (grid2.coords t) = false := by decide +kernel

/-! ## The two carried rows -/

/-- The running column sums of y, and of y * y: whole buffers of the kernel's own, passed beside the windows. -/
abbrev sumRow2 : Memref sig .tc .vmem S1x512 .f32 := Memref.whole cc2_scratch0
abbrev sqRow2 : Memref sig .tc .vmem S1x512 .f32 := Memref.whole cc2_scratch1

/-- The entry invariant with the two carried rows named as memrefs owned at some contents, the other scoped
    buffers unopened, and the generator register. -/
theorem PhiA2_eq (c : Dev nD) :
    (Pipeline.ΦA spec2 c : sProp 𝕄)
      = iprop(iprop(iprop((∃ d, owns (c : Thread nD τ) sumRow2 fullShare d) ∗ (∃ d, owns (c : Thread nD τ) sqRow2 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [sumRow2, sqRow2, owns_whole]; try rfl

end Cert.Kernel.Hand

end
-- ==== Proof.BitsRegion2Runs.lean ====
/-
  The body of the normalise-multiply-and-statistics kernel, run on whole staging memrefs, in each of its three
  control cases (by the row block r of the point): r = 0, where the two running rows are zeroed first;
  0 < r < 31, where they continue from what the point before left; r = 31, where after the update they are
  copied out to the two statistics windows. What each case leaves in y's buffer, in the two running rows and
  in the statistics buffers is stated as a function of the seven input blocks and of the running rows found.
-/
import proofs.«166235_j274877907496_2_alg».proof.Proof.BitsRegion2Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses, and what it leaves -/

/-- The whole block of the previous raw output, a whole 1 x 2048 feature row, the whole block of W, a whole
    1 x 512 row, the whole block of y. -/
abbrev rP2 : Rect S512x2048 := Rect.unit (s := S512x2048) ![0, 0] S512x2048.size inb_S512x2048_S512x2048_0_0
abbrev rR2 : Rect S1x2048 := Rect.unit (s := S1x2048) ![0, 0] S1x2048.size inb_S1x2048_S1x2048_0_0
abbrev rW2 : Rect S512x2048 := Rect.unit (s := S512x2048) ![0, 0] S512x2048.size inb_S512x2048_S512x2048_0_0
abbrev rRow2 : Rect S1x512 := Rect.unit (s := S1x512) ![0, 0] S1x512.size inb_S1x512_S1x512_0_0
abbrev rY2 : Rect S512x512 := Rect.unit (s := S512x512) ![0, 0] S512x512.size inb_S512x512_S512x512_0_0

/-- y's block, from the inputs in the windows' order (previous raw block, mean, variance, gamma, beta, W, bias):
    the previous block normalised feature by feature,  (prev - mean) * rsqrt (variance + eps) * gamma + beta,
    times the transposed W block (both rounded to bf16, accumulated in f32), plus the bias row on every row.
    The body's one whole-block store into y's buffer. -/
def yBlk2 (x0 : Vec F S512x2048 .f32) (x1 x2 x3 x4 : Vec F S1x2048 .f32) (x5 : Vec F S512x2048 .f32) (x6 : Vec F S1x512 .f32) : Vec F S512x512 .f32 :=
  View.canon [⟨rY2, k2_pay5 (View.ld x2 rR2) (View.ld x0 rP2) (View.ld x1 rR2) (View.ld x3 rR2) (View.ld x4 rR2) (View.ld x5 rW2) (View.ld x6 rRow2)⟩]

/-- The running column sums after a point: the row found, `s`, plus the column sums of this point's y block. -/
def sumNext2 (x0 : Vec F S512x2048 .f32) (x1 x2 x3 x4 : Vec F S1x2048 .f32) (x5 : Vec F S512x2048 .f32) (x6 : Vec F S1x512 .f32) (s : Vec F S1x512 .f32) : Vec F S1x512 .f32 :=
  View.canon [⟨rRow2, k2_pay1 (k2_pay5 (View.ld x2 rR2) (View.ld x0 rP2) (View.ld x1 rR2) (View.ld x3 rR2) (View.ld x4 rR2) (View.ld x5 rW2) (View.ld x6 rRow2)) (View.ld s rRow2)⟩]

/-- The running column sums of squares after a point: the row found plus the column sums of y * y. -/
def sqNext2 (x0 : Vec F S512x2048 .f32) (x1 x2 x3 x4 : Vec F S1x2048 .f32) (x5 : Vec F S512x2048 .f32) (x6 : Vec F S1x512 .f32) (s : Vec F S1x512 .f32) : Vec F S1x512 .f32 :=
  View.canon [⟨rRow2, k2_pay2 (k2_pay5 (View.ld x2 rR2) (View.ld x0 rP2) (View.ld x1 rR2) (View.ld x3 rR2) (View.ld x4 rR2) (View.ld x5 rW2) (View.ld x6 rRow2)) (View.ld s rRow2)⟩]

/-- The zero rows the first row block starts the two running rows from. -/
def zeroSum2 : Vec F S1x512 .f32 := View.canon [⟨rRow2, k2_pay3⟩]
def zeroSq2 : Vec F S1x512 .f32 := View.canon [⟨rRow2, k2_pay4⟩]

/-- A row stored whole into a statistics buffer: the buffer then reads the row. -/
def copyRow2 (s : Vec F S1x512 .f32) : Vec F S1x512 .f32 := View.canon [⟨rRow2, View.ld s rRow2⟩]

/-- One whole store covers its buffer. -/
theorem coverRow2 (p0 : Vec F S1x512 .f32) (y : S1x512.Idx) :
    ∃ pc ∈ ([⟨rRow2, p0⟩] : List (View.Piece (Elt F) S1x512 .f32)), y ∈ pc.1.set :=
  View.cover_of_tiled [⟨rRow2, p0⟩] S1x512.size (by rfl) y
theorem coverY2 (p0 : Vec F S512x512 .f32) (y : S512x512.Idx) :
    ∃ pc ∈ ([⟨rY2, p0⟩] : List (View.Piece (Elt F) S512x512 .f32)), y ∈ pc.1.set :=
  View.cover_of_tiled [⟨rY2, p0⟩] S512x512.size (by rfl) y
theorem memRow2 (y : S1x512.Idx) : y ∈ rRow2.set := by
  obtain ⟨pc, hm, hy⟩ := View.cover_of_tiled (Val := fun _ => Unit) (e := .f32) [⟨rRow2, fun _ => ()⟩] S1x512.size (by rfl) y
  rw [List.mem_singleton] at hm; subst hm; exact hy

/-- A row copied whole reads as the row. -/
theorem copyRow2_eq (s : Vec F S1x512 .f32) : copyRow2 s = s := by
  funext y
  obtain ⟨x, rfl⟩ := rRow2.exists_idx_of_mem (memRow2 y)
  exact View.canon_cons_emb rRow2 (View.ld s rRow2) [] x

/-! ## The body's triple, case by case -/

set_option maxHeartbeats 1000000 in
/-- A middle row block (0 < r < 31). The inputs' memrefs at `x0 … x6`, y's at anything, the two statistics
    buffers at `xi8 xi9` (handed back untouched), the running rows at `s0 s1`: the body leaves y's block and the
    running rows increased by this block's column sums. -/
theorem sound_kernel2_mid (c : Dev nD) (E : Set ℕ) (i : grid2.Coords) (hfirst : ¬firstRow2 i) (hlast : ¬lastRow2 i)
    (arg2 : Memref sig .tc .vmem S512x2048 .f32) (harg2 : arg2.IsWhole) (arg3 : Memref sig .tc .vmem S1x2048 .f32) (harg3 : arg3.IsWhole)
    (arg4 : Memref sig .tc .vmem S1x2048 .f32) (harg4 : arg4.IsWhole) (arg5 : Memref sig .tc .vmem S1x2048 .f32) (harg5 : arg5.IsWhole)
    (arg6 : Memref sig .tc .vmem S1x2048 .f32) (harg6 : arg6.IsWhole) (arg7 : Memref sig .tc .vmem S512x2048 .f32) (harg7 : arg7.IsWhole)
    (arg8 : Memref sig .tc .vmem S1x512 .f32) (harg8 : arg8.IsWhole) (arg9 : Memref sig .tc .vmem S512x512 .f32) (harg9 : arg9.IsWhole)
    (arg10 : Memref sig .tc .vmem S1x512 .f32) (harg10 : arg10.IsWhole) (arg11 : Memref sig .tc .vmem S1x512 .f32) (harg11 : arg11.IsWhole)
    (arg12 : Memref sig .tc .vmem S1x512 .f32) (harg12 : arg12.IsWhole) (arg13 : Memref sig .tc .vmem S1x512 .f32) (harg13 : arg13.IsWhole)
    (x0 : Vec F S512x2048 .f32) (x1 x2 x3 x4 : Vec F S1x2048 .f32) (x5 : Vec F S512x2048 .f32) (x6 : Vec F S1x512 .f32) (xi8 xi9 s0 s1 : Vec F S1x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ owns (c : Thread nD τ) arg10 fullShare xi8 ∗ owns (c : Thread nD τ) arg11 fullShare xi9
        ∗ owns (c : Thread nD τ) arg12 fullShare s0 ∗ owns (c : Thread nD τ) arg13 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (yBlk2 x0 x1 x2 x3 x4 x5 x6) ∗ owns (c : Thread nD τ) arg10 fullShare xi8 ∗ owns (c : Thread nD τ) arg11 fullShare xi9
            ∗ owns (c : Thread nD τ) arg12 fullShare (sumNext2 x0 x1 x2 x3 x4 x5 x6 s0) ∗ owns (c : Thread nD τ) arg13 fullShare (sqNext2 x0 x1 x2 x3 x4 x5 x6 s1)) -∗ K ⟨⟩))
      ⊢ wp frame (wpE (defs₀ (F := F)) Variants.none c none) E (cc2__fused_norm_matmul_stats_kernel i arg2 harg2 arg3 harg3 arg4 harg4 arg5 harg5 arg6 harg6 arg7 harg7 arg8 harg8 arg9 harg9 arg10 harg10 arg11 harg11 arg12 harg12 arg13 harg13) K := by
  simp only [cc2__fused_norm_matmul_stats_kernel_eq_skeleton]; unfold cc2__fused_norm_matmul_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%fs0, %hfs0, HS0⟩, ⟨%fs1, %hfs1, HS1⟩, Hk⟩
  subst hf0; subst hf1; subst hf2; subst hf3; subst hf4; subst hf5; subst hf6; subst hf8; subst hf9; subst hfs0; subst hfs1
  sl_exec (disch := first | exact hfirst | exact hlast)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro; exact View.read_writes_eq_canon _ _ _ (coverY2 _)
  isplitl [H8]
  · iexists f8; isplitr; · ipureintro; rfl
    iexact H8
  isplitl [H9]
  · iexists f9; isplitr; · ipureintro; rfl
    iexact H9
  isplitl [HS0]
  · iexists _; isplitr
    swap; · iexact HS0
    ipureintro; exact View.read_writes_eq_canon _ _ _ (coverRow2 _)
  iexists _; isplitr
  swap; · iexact HS1
  ipureintro; exact View.read_writes_eq_canon _ _ _ (coverRow2 _)

set_option maxHeartbeats 1000000 in
/-- The first row block of a column block (r = 0). The running rows at anything: the body zeroes them, then leaves
    y's block and the running rows at this block's column sums over zero. -/
theorem sound_kernel2_first (c : Dev nD) (E : Set ℕ) (i : grid2.Coords) (hfirst : firstRow2 i) (hlast : ¬lastRow2 i)
    (arg2 : Memref sig .tc .vmem S512x2048 .f32) (harg2 : arg2.IsWhole) (arg3 : Memref sig .tc .vmem S1x2048 .f32) (harg3 : arg3.IsWhole)
    (arg4 : Memref sig .tc .vmem S1x2048 .f32) (harg4 : arg4.IsWhole) (arg5 : Memref sig .tc .vmem S1x2048 .f32) (harg5 : arg5.IsWhole)
    (arg6 : Memref sig .tc .vmem S1x2048 .f32) (harg6 : arg6.IsWhole) (arg7 : Memref sig .tc .vmem S512x2048 .f32) (harg7 : arg7.IsWhole)
    (arg8 : Memref sig .tc .vmem S1x512 .f32) (harg8 : arg8.IsWhole) (arg9 : Memref sig .tc .vmem S512x512 .f32) (harg9 : arg9.IsWhole)
    (arg10 : Memref sig .tc .vmem S1x512 .f32) (harg10 : arg10.IsWhole) (arg11 : Memref sig .tc .vmem S1x512 .f32) (harg11 : arg11.IsWhole)
    (arg12 : Memref sig .tc .vmem S1x512 .f32) (harg12 : arg12.IsWhole) (arg13 : Memref sig .tc .vmem S1x512 .f32) (harg13 : arg13.IsWhole)
    (x0 : Vec F S512x2048 .f32) (x1 x2 x3 x4 : Vec F S1x2048 .f32) (x5 : Vec F S512x2048 .f32) (x6 : Vec F S1x512 .f32) (xi8 xi9 : Vec F S1x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ owns (c : Thread nD τ) arg10 fullShare xi8 ∗ owns (c : Thread nD τ) arg11 fullShare xi9
        ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (yBlk2 x0 x1 x2 x3 x4 x5 x6) ∗ owns (c : Thread nD τ) arg10 fullShare xi8 ∗ owns (c : Thread nD τ) arg11 fullShare xi9
            ∗ owns (c : Thread nD τ) arg12 fullShare (sumNext2 x0 x1 x2 x3 x4 x5 x6 zeroSum2) ∗ owns (c : Thread nD τ) arg13 fullShare (sqNext2 x0 x1 x2 x3 x4 x5 x6 zeroSq2)) -∗ K ⟨⟩))
      ⊢ wp frame (wpE (defs₀ (F := F)) Variants.none c none) E (cc2__fused_norm_matmul_stats_kernel i arg2 harg2 arg3 harg3 arg4 harg4 arg5 harg5 arg6 harg6 arg7 harg7 arg8 harg8 arg9 harg9 arg10 harg10 arg11 harg11 arg12 harg12 arg13 harg13) K := by
  simp only [cc2__fused_norm_matmul_stats_kernel_eq_skeleton]; unfold cc2__fused_norm_matmul_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%ds0, %fs0, -, HS0⟩, ⟨%ds1, %fs1, -, HS1⟩, Hk⟩
  subst hf0; subst hf1; subst hf2; subst hf3; subst hf4; subst hf5; subst hf6; subst hf8; subst hf9
  have e12 : arg12.view.readCov [⟨rRow2, k2_pay3 (F := F)⟩] rRow2.toLoadRect = View.ld (zeroSum2 (F := F)) rRow2 :=
    View.readCov_eq_canon_ld _ _ _ (coverRow2 _)
  have e13 : arg13.view.readCov [⟨rRow2, k2_pay4 (F := F)⟩] rRow2.toLoadRect = View.ld (zeroSq2 (F := F)) rRow2 :=
    View.readCov_eq_canon_ld _ _ _ (coverRow2 _)
  sl_exec (disch := first | exact hfirst | exact hlast)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro; exact View.read_writes_eq_canon _ _ _ (coverY2 _)
  isplitl [H8]
  · iexists f8; isplitr; · ipureintro; rfl
    iexact H8
  isplitl [H9]
  · iexists f9; isplitr; · ipureintro; rfl
    iexact H9
  isplitl [HS0]
  · iexists _; isplitr
    swap; · iexact HS0
    ipureintro
    exact (View.read_writes_of_cover_last arg12.view fs0 arg12.view fs0 _ _ [] memRow2).trans
      (View.read_writes_eq_canon arg12.view fs0 _ (coverRow2 _))
  iexists _; isplitr
  swap; · iexact HS1
  ipureintro
  exact (View.read_writes_of_cover_last arg13.view fs1 arg13.view fs1 _ _ [] memRow2).trans
    (View.read_writes_eq_canon arg13.view fs1 _ (coverRow2 _))

set_option maxHeartbeats 1000000 in
/-- The last row block of a column block (r = 31). As a middle one, and then the two statistics buffers (at
    anything before) receive the updated running rows. -/
theorem sound_kernel2_last (c : Dev nD) (E : Set ℕ) (i : grid2.Coords) (hfirst : ¬firstRow2 i) (hlast : lastRow2 i)
    (arg2 : Memref sig .tc .vmem S512x2048 .f32) (harg2 : arg2.IsWhole) (arg3 : Memref sig .tc .vmem S1x2048 .f32) (harg3 : arg3.IsWhole)
    (arg4 : Memref sig .tc .vmem S1x2048 .f32) (harg4 : arg4.IsWhole) (arg5 : Memref sig .tc .vmem S1x2048 .f32) (harg5 : arg5.IsWhole)
    (arg6 : Memref sig .tc .vmem S1x2048 .f32) (harg6 : arg6.IsWhole) (arg7 : Memref sig .tc .vmem S512x2048 .f32) (harg7 : arg7.IsWhole)
    (arg8 : Memref sig .tc .vmem S1x512 .f32) (harg8 : arg8.IsWhole) (arg9 : Memref sig .tc .vmem S512x512 .f32) (harg9 : arg9.IsWhole)
    (arg10 : Memref sig .tc .vmem S1x512 .f32) (harg10 : arg10.IsWhole) (arg11 : Memref sig .tc .vmem S1x512 .f32) (harg11 : arg11.IsWhole)
    (arg12 : Memref sig .tc .vmem S1x512 .f32) (harg12 : arg12.IsWhole) (arg13 : Memref sig .tc .vmem S1x512 .f32) (harg13 : arg13.IsWhole)
    (x0 : Vec F S512x2048 .f32) (x1 x2 x3 x4 : Vec F S1x2048 .f32) (x5 : Vec F S512x2048 .f32) (x6 : Vec F S1x512 .f32) (s0 s1 : Vec F S1x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ (∃ d, owns (c : Thread nD τ) arg10 fullShare d) ∗ (∃ d, owns (c : Thread nD τ) arg11 fullShare d)
        ∗ owns (c : Thread nD τ) arg12 fullShare s0 ∗ owns (c : Thread nD τ) arg13 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (yBlk2 x0 x1 x2 x3 x4 x5 x6) ∗ owns (c : Thread nD τ) arg10 fullShare (copyRow2 (sumNext2 x0 x1 x2 x3 x4 x5 x6 s0)) ∗ owns (c : Thread nD τ) arg11 fullShare (copyRow2 (sqNext2 x0 x1 x2 x3 x4 x5 x6 s1))
            ∗ owns (c : Thread nD τ) arg12 fullShare (sumNext2 x0 x1 x2 x3 x4 x5 x6 s0) ∗ owns (c : Thread nD τ) arg13 fullShare (sqNext2 x0 x1 x2 x3 x4 x5 x6 s1)) -∗ K ⟨⟩))
      ⊢ wp frame (wpE (defs₀ (F := F)) Variants.none c none) E (cc2__fused_norm_matmul_stats_kernel i arg2 harg2 arg3 harg3 arg4 harg4 arg5 harg5 arg6 harg6 arg7 harg7 arg8 harg8 arg9 harg9 arg10 harg10 arg11 harg11 arg12 harg12 arg13 harg13) K := by
  simp only [cc2__fused_norm_matmul_stats_kernel_eq_skeleton]; unfold cc2__fused_norm_matmul_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs0, %hfs0, HS0⟩, ⟨%fs1, %hfs1, HS1⟩, Hk⟩
  subst hf0; subst hf1; subst hf2; subst hf3; subst hf4; subst hf5; subst hf6; subst hfs0; subst hfs1
  have e12 : arg12.view.readCov [⟨rRow2, k2_pay1 (k2_pay5 (View.ld (arg4.view.read (Elt F) f2) rR2) (View.ld (arg2.view.read (Elt F) f0) rP2) (View.ld (arg3.view.read (Elt F) f1) rR2) (View.ld (arg5.view.read (Elt F) f3) rR2) (View.ld (arg6.view.read (Elt F) f4) rR2) (View.ld (arg7.view.read (Elt F) f5) rW2) (View.ld (arg8.view.read (Elt F) f6) rRow2)) (View.ld (arg12.view.read (Elt F) fs0) rRow2)⟩] rRow2.toLoadRect
      = View.ld (sumNext2 (arg2.view.read (Elt F) f0) (arg3.view.read (Elt F) f1) (arg4.view.read (Elt F) f2) (arg5.view.read (Elt F) f3) (arg6.view.read (Elt F) f4) (arg7.view.read (Elt F) f5) (arg8.view.read (Elt F) f6) (arg12.view.read (Elt F) fs0)) rRow2 :=
    View.readCov_eq_canon_ld _ _ _ (coverRow2 _)
  have e13 : arg13.view.readCov [⟨rRow2, k2_pay2 (k2_pay5 (View.ld (arg4.view.read (Elt F) f2) rR2) (View.ld (arg2.view.read (Elt F) f0) rP2) (View.ld (arg3.view.read (Elt F) f1) rR2) (View.ld (arg5.view.read (Elt F) f3) rR2) (View.ld (arg6.view.read (Elt F) f4) rR2) (View.ld (arg7.view.read (Elt F) f5) rW2) (View.ld (arg8.view.read (Elt F) f6) rRow2)) (View.ld (arg13.view.read (Elt F) fs1) rRow2)⟩] rRow2.toLoadRect
      = View.ld (sqNext2 (arg2.view.read (Elt F) f0) (arg3.view.read (Elt F) f1) (arg4.view.read (Elt F) f2) (arg5.view.read (Elt F) f3) (arg6.view.read (Elt F) f4) (arg7.view.read (Elt F) f5) (arg8.view.read (Elt F) f6) (arg13.view.read (Elt F) fs1)) rRow2 :=
    View.readCov_eq_canon_ld _ _ _ (coverRow2 _)
  sl_exec (disch := first | exact hfirst | exact hlast)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro; exact View.read_writes_eq_canon _ _ _ (coverY2 _)
  isplitl [H8]
  · iexists _; isplitr
    swap; · iexact H8
    ipureintro; exact View.read_writes_eq_canon _ _ _ (coverRow2 _)
  isplitl [H9]
  · iexists _; isplitr
    swap; · iexact H9
    ipureintro; exact View.read_writes_eq_canon _ _ _ (coverRow2 _)
  isplitl [HS0]
  · iexists _; isplitr
    swap; · iexact HS0
    ipureintro; exact View.read_writes_eq_canon _ _ _ (coverRow2 _)
  iexists _; isplitr
  swap; · iexact HS1
  ipureintro; exact View.read_writes_eq_canon _ _ _ (coverRow2 _)

end Cert.Kernel.Hand

end
-- ==== Proof.BitsRegion2.lean ====
/-
  The third kernel region as a pipeline step: what y's buffer, the two statistics buffers and the two running
  rows hold after each point of the 2 x 32 grid (by recursion on the point: the running rows restart from zero
  at the first row block of a column block and otherwise continue from the point before), the invariant that
  carries the two running rows from one point to the next, the pipeline's proof data, the body obligation at
  every point, and the two entailments between the invariant and the region's entry and exit.
  Stated for any contents `V` of the core's buffers at the region's entry.
-/
import proofs.«166235_j274877907496_2_alg».proof.Proof.BitsRegion2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the buffers hold after each point -/

/-- What one point leaves, from its seven input blocks and the running rows `s0 s1` it starts from, in order:
    y's buffer, the two statistics buffers (the updated rows copied out; consulted at the last row block only:
    elsewhere those windows are idle), the running sum row, the running sum-of-squares row. -/
def outsOf2 (x0 : Vec F S512x2048 .f32) (x1 x2 x3 x4 : Vec F S1x2048 .f32) (x5 : Vec F S512x2048 .f32) (x6 : Vec F S1x512 .f32) (s0 s1 : Vec F S1x512 .f32) :
    Vec F S512x512 .f32 × Vec F S1x512 .f32 × Vec F S1x512 .f32 × Vec F S1x512 .f32 × Vec F S1x512 .f32 :=
  (yBlk2 x0 x1 x2 x3 x4 x5 x6, copyRow2 (sumNext2 x0 x1 x2 x3 x4 x5 x6 s0), copyRow2 (sqNext2 x0 x1 x2 x3 x4 x5 x6 s1), sumNext2 x0 x1 x2 x3 x4 x5 x6 s0, sqNext2 x0 x1 x2 x3 x4 x5 x6 s1)

/-- THE ACCUMULATION. What the buffers hold after the body at position `n`: at the first row block of a column
    block (n ≡ 0 mod 32) the point's outputs over zeroed running rows, elsewhere over the running rows the point
    before left. -/
def outsAt2 (c : Dev nD) : (n : ℕ) → n < cfg2.N →
    Vec F S512x512 .f32 × Vec F S1x512 .f32 × Vec F S1x512 .f32 × Vec F S1x512 .f32 × Vec F S1x512 .f32
  | 0, hn => outsOf2 (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) zeroSum2 zeroSq2
  | n + 1, hn =>
    if (n + 1) % 32 = 0 then
      outsOf2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) zeroSum2 zeroSq2
    else
      outsOf2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩)
        (outsAt2 c n (Nat.lt_of_succ_lt hn)).2.2.2.1 (outsAt2 c n (Nat.lt_of_succ_lt hn)).2.2.2.2

/-- At the first row block of a column block: over zeroed running rows. -/
theorem outsAt2_first (c : Dev nD) (t : Fin cfg2.N) (h0 : t.val % 32 = 0) :
    outsAt2 V c t.val t.isLt = outsOf2 (iblk2 V c 0 t) (iblk2 V c 1 t) (iblk2 V c 2 t) (iblk2 V c 3 t) (iblk2 V c 4 t) (iblk2 V c 5 t) (iblk2 V c 6 t) zeroSum2 zeroSq2 := by
  obtain ⟨n, hn⟩ := t
  cases n with
  | zero => exact rfl
  | succ n => exact if_pos h0

/-- At any later row block: over what the point before left in the running rows. -/
theorem outsAt2_later (c : Dev nD) (t : Fin cfg2.N) (h0 : ¬t.val % 32 = 0) :
    outsAt2 V c t.val t.isLt = outsOf2 (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2.2.1 (outsAt2 V c (t.val - 1) (Nat.lt_of_le_of_lt (Nat.sub_le _ _) t.isLt)).2.2.2.2 := by
  obtain ⟨n, hn⟩ := t
  cases n with
  | zero => exact absurd (Nat.zero_mod _) h0
  | succ n => exact if_neg h0

/-- The same, named by case: a middle row block, and the last one (where the statistics buffers' components
    are the ones written back). -/
theorem outsAt2_mid (c : Dev nD) (t : Fin cfg2.N) (h0 : ¬t.val % 32 = 0) (h1 : ¬t.val % 32 = 31) :
    outsAt2 V c t.val t.isLt = outsOf2 (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2.2.1 (outsAt2 V c (t.val - 1) (Nat.lt_of_le_of_lt (Nat.sub_le _ _) t.isLt)).2.2.2.2 :=
  outsAt2_later V c t h0
theorem outsAt2_last (c : Dev nD) (t : Fin cfg2.N) (h1 : t.val % 32 = 31) :
    outsAt2 V c t.val t.isLt = outsOf2 (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2.2.1 (outsAt2 V c (t.val - 1) (Nat.lt_of_le_of_lt (Nat.sub_le _ _) t.isLt)).2.2.2.2 :=
  outsAt2_later V c t (by omega)

/-! ## The invariant -/

/-- The region invariant before position `n`: before the first point, what the launch hands the region (every
    scoped buffer no window stages at anything, the generator register); afterwards the two running rows at what
    the point before left in them, the other scoped buffers unopened, the generator register. -/
def PhiS2 (c : Dev nD) : (n : ℕ) → n ≤ cfg2.N → sProp 𝕄
  | 0, _ => Pipeline.ΦA spec2 c
  | n + 1, hn => iprop(iprop(iprop(owns (c : Thread nD τ) sumRow2 fullShare (outsAt2 V c n hn).2.2.2.1 ∗ owns (c : Thread nD τ) sqRow2 fullShare (outsAt2 V c n hn).2.2.2.2)
      ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) sumRow2 fullShare (outsAt2 V c n hn).2.2.2.1 ∗ owns (c : Thread nD τ) sqRow2 fullShare (outsAt2 V c n hn).2.2.2.2)
      ∗ Pipeline.scopedRestBut (Ix := Unit) (Name := ℕ) (U := UR sig nD τ) (Lvl := ℕ) (Val := Elt F) spec2 c [cc2_scratch0, cc2_scratch1]) ∗ (∃ r, prngReg c r)) := rfl

theorem PhiS2_pos (c : Dev nD) (n : ℕ) (h : n ≤ cfg2.N) (hz : n ≠ 0) :
    PhiS2 V c n h = iprop(iprop(iprop(owns (c : Thread nD τ) sumRow2 fullShare (outsAt2 V c (n - 1) (by omega)).2.2.2.1 ∗ owns (c : Thread nD τ) sqRow2 fullShare (outsAt2 V c (n - 1) (by omega)).2.2.2.2)
      ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-! ## The pipeline's proof data -/

/-- The arrays as the region finds them; after the body at point `t` each input's buffer at its block, y's and
    the statistics buffers at `outsAt2`'s components; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => (outsAt2 V c t.val t.isLt).1
    | ⟨8, _⟩ => (outsAt2 V c t.val t.isLt).2.1
    | ⟨9, _⟩ => (outsAt2 V c t.val t.isLt).2.2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = (outsAt2 V c t.val t.isLt).1 := by dsimp only [dat2]
theorem after2_8 (c : Dev nD) (t : Fin cfg2.N) : (dat2 V c).after 8 t = (outsAt2 V c t.val t.isLt).2.1 := by dsimp only [dat2]
theorem after2_9 (c : Dev nD) (t : Fin cfg2.N) : (dat2 V c).after 9 t = (outsAt2 V c t.val t.isLt).2.2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns: each buffer at what the body leaves, a statistics buffer at what it found wherever
    its window is idle. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t)

set_option maxHeartbeats 2000000 in
/-- The body at the first row block of a column block. The invariant hands over the two running rows (at anything
    at the very first point, at what the column block before left otherwise: either way they are zeroed) and takes
    them back at this point's contents; the statistics buffers pass through untouched. -/
theorem sound_body2_first (c : Dev nD) (t : Fin cfg2.N) (h0 : t.val % 32 = 0) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  rw [show (dat2 V c).leavesExact 3 t = owns (c : Thread nD τ) (st2_3 t) fullShare ((dat2 V c).after 3 t) from by
    unfold Dat.leavesExact; rw [liveAt2_3 t], after2_3]
  rw [show (dat2 V c).leavesExact 4 t = owns (c : Thread nD τ) (st2_4 t) fullShare ((dat2 V c).after 4 t) from by
    unfold Dat.leavesExact; rw [liveAt2_4 t], after2_4]
  rw [show (dat2 V c).leavesExact 5 t = owns (c : Thread nD τ) (st2_5 t) fullShare ((dat2 V c).after 5 t) from by
    unfold Dat.leavesExact; rw [liveAt2_5 t], after2_5]
  rw [show (dat2 V c).leavesExact 6 t = owns (c : Thread nD τ) (st2_6 t) fullShare ((dat2 V c).after 6 t) from by
    unfold Dat.leavesExact; rw [liveAt2_6 t], after2_6]
  rw [show (dat2 V c).leavesExact 7 t = owns (c : Thread nD τ) (st2_7 t) fullShare ((dat2 V c).after 7 t) from by
    unfold Dat.leavesExact; rw [liveAt2_7 t], after2_7]
  have hf : firstRow2 (grid2.coords t) := (hfirstRow2 t).mpr h0
  have hl : ¬lastRow2 (grid2.coords t) := fun h => by have := (hlastRow2 t).mp h; omega
  rw [Dat.leavesExact_idle (dat2 V c) 8 t (idleAt2_8 t hl) (noFlush2_8 t hl), Dat.leavesExact_idle (dat2 V c) 9 t (idleAt2_9 t hl) (noFlush2_9 t hl)]
  rw [outsAt2_first V c t h0]
  unfold outsOf2; dsimp only
  by_cases hz : t.val = 0
  · rw [PhiS2_castSucc V c t, PhiS2_zero V c _ _ hz, PhiA2_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel2_first c Set.univ _ hf hl _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) ((dat2 V c).before 8 t d8) ((dat2 V c).before 9 t d9) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [HS0]; · iexact HS0
    isplitl [HS1]; · iexact HS1
    iintro ⟨H0, H1, H2, H3, H4, H5, H6, H7, H8, H9, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iexists _; iexact H9
  · rw [PhiS2_castSucc V c t, PhiS2_pos V c _ _ hz]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel2_first c Set.univ _ hf hl _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) ((dat2 V c).before 8 t d8) ((dat2 V c).before 9 t d9) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [HS0]; · iexists _; iexact HS0
    isplitl [HS1]; · iexists _; iexact HS1
    iintro ⟨H0, H1, H2, H3, H4, H5, H6, H7, H8, H9, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iexists _; iexact H9

set_option maxHeartbeats 2000000 in
/-- The body at a middle row block: the running rows come in at what the point before left and go back increased. -/
theorem sound_body2_mid (c : Dev nD) (t : Fin cfg2.N) (h0 : ¬t.val % 32 = 0) (h1 : ¬t.val % 32 = 31) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  rw [show (dat2 V c).leavesExact 3 t = owns (c : Thread nD τ) (st2_3 t) fullShare ((dat2 V c).after 3 t) from by
    unfold Dat.leavesExact; rw [liveAt2_3 t], after2_3]
  rw [show (dat2 V c).leavesExact 4 t = owns (c : Thread nD τ) (st2_4 t) fullShare ((dat2 V c).after 4 t) from by
    unfold Dat.leavesExact; rw [liveAt2_4 t], after2_4]
  rw [show (dat2 V c).leavesExact 5 t = owns (c : Thread nD τ) (st2_5 t) fullShare ((dat2 V c).after 5 t) from by
    unfold Dat.leavesExact; rw [liveAt2_5 t], after2_5]
  rw [show (dat2 V c).leavesExact 6 t = owns (c : Thread nD τ) (st2_6 t) fullShare ((dat2 V c).after 6 t) from by
    unfold Dat.leavesExact; rw [liveAt2_6 t], after2_6]
  rw [show (dat2 V c).leavesExact 7 t = owns (c : Thread nD τ) (st2_7 t) fullShare ((dat2 V c).after 7 t) from by
    unfold Dat.leavesExact; rw [liveAt2_7 t], after2_7]
  have hf : ¬firstRow2 (grid2.coords t) := fun h => h0 ((hfirstRow2 t).mp h)
  have hl : ¬lastRow2 (grid2.coords t) := fun h => h1 ((hlastRow2 t).mp h)
  rw [Dat.leavesExact_idle (dat2 V c) 8 t (idleAt2_8 t hl) (noFlush2_8 t hl), Dat.leavesExact_idle (dat2 V c) 9 t (idleAt2_9 t hl) (noFlush2_9 t hl)]
  rw [outsAt2_later V c t h0]
  unfold outsOf2; dsimp only
  have hz : t.val ≠ 0 := fun h => h0 (by rw [h])
  rw [PhiS2_castSucc V c t, PhiS2_pos V c _ _ hz]
  iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2_mid c Set.univ _ hf hl _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) ((dat2 V c).before 8 t d8) ((dat2 V c).before 9 t d9) (outsAt2 V c (t.val - 1) (Nat.lt_of_le_of_lt (Nat.sub_le _ _) t.isLt)).2.2.2.1 (outsAt2 V c (t.val - 1) (Nat.lt_of_le_of_lt (Nat.sub_le _ _) t.isLt)).2.2.2.2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexact H9
  isplitl [HS0]; · iexact HS0
  isplitl [HS1]; · iexact HS1
  iintro ⟨H0, H1, H2, H3, H4, H5, H6, H7, H8, H9, HS0, HS1⟩
  isplitl [HS0 HS1 Hrest Hg]
  · isplitl [HS0 HS1 Hrest]
    · isplitl [HS0 HS1]
      · isplitl [HS0]; · iexact HS0
        iexact HS1
      iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iexists _; iexact H9

set_option maxHeartbeats 2000000 in
/-- The body at the last row block: as a middle one, and the two statistics buffers (now live) receive the rows. -/
theorem sound_body2_last (c : Dev nD) (t : Fin cfg2.N) (h1 : t.val % 32 = 31) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  rw [show (dat2 V c).leavesExact 3 t = owns (c : Thread nD τ) (st2_3 t) fullShare ((dat2 V c).after 3 t) from by
    unfold Dat.leavesExact; rw [liveAt2_3 t], after2_3]
  rw [show (dat2 V c).leavesExact 4 t = owns (c : Thread nD τ) (st2_4 t) fullShare ((dat2 V c).after 4 t) from by
    unfold Dat.leavesExact; rw [liveAt2_4 t], after2_4]
  rw [show (dat2 V c).leavesExact 5 t = owns (c : Thread nD τ) (st2_5 t) fullShare ((dat2 V c).after 5 t) from by
    unfold Dat.leavesExact; rw [liveAt2_5 t], after2_5]
  rw [show (dat2 V c).leavesExact 6 t = owns (c : Thread nD τ) (st2_6 t) fullShare ((dat2 V c).after 6 t) from by
    unfold Dat.leavesExact; rw [liveAt2_6 t], after2_6]
  rw [show (dat2 V c).leavesExact 7 t = owns (c : Thread nD τ) (st2_7 t) fullShare ((dat2 V c).after 7 t) from by
    unfold Dat.leavesExact; rw [liveAt2_7 t], after2_7]
  have h0 : ¬t.val % 32 = 0 := by omega
  have hf : ¬firstRow2 (grid2.coords t) := fun h => h0 ((hfirstRow2 t).mp h)
  have hl : lastRow2 (grid2.coords t) := (hlastRow2 t).mpr h1
  rw [show (dat2 V c).leavesExact 8 t = owns (c : Thread nD τ) (st2_8 t) fullShare ((dat2 V c).after 8 t) from by
    unfold Dat.leavesExact; rw [liveAt2_8 t hl], after2_8]
  rw [show (dat2 V c).leavesExact 9 t = owns (c : Thread nD τ) (st2_9 t) fullShare ((dat2 V c).after 9 t) from by
    unfold Dat.leavesExact; rw [liveAt2_9 t hl], after2_9]
  rw [outsAt2_later V c t h0]
  unfold outsOf2; dsimp only
  have hz : t.val ≠ 0 := fun h => h0 (by rw [h])
  rw [PhiS2_castSucc V c t, PhiS2_pos V c _ _ hz]
  iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2_last c Set.univ _ hf hl _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2.2.1 (outsAt2 V c (t.val - 1) (Nat.lt_of_le_of_lt (Nat.sub_le _ _) t.isLt)).2.2.2.2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [HS0]; · iexact HS0
  isplitl [HS1]; · iexact HS1
  iintro ⟨H0, H1, H2, H3, H4, H5, H6, H7, H8, H9, HS0, HS1⟩
  isplitl [HS0 HS1 Hrest Hg]
  · isplitl [HS0 HS1 Hrest]
    · isplitl [HS0 HS1]
      · isplitl [HS0]; · iexact HS0
        iexact HS1
      iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body at any point: the closed forms of the two conditions say which case the point is in. -/
theorem sound_body2 (c : Dev nD) (t : Fin cfg2.N) :
    bodyPre2 V c t ⊢ wp frame (wpE (defs₀ (F := F)) Variants.none c none) Set.univ (bodyAt2 t) (fun _ => bodyPost2 V c t) := by
  by_cases h0 : t.val % 32 = 0
  · exact sound_body2_first V c t h0
  · by_cases h1 : t.val % 32 = 31
    · exact sound_body2_last V c t h1
    · exact sound_body2_mid V c t h0 h1

/-- The body obligation, at every point. -/
theorem body_obligation2 (c : Dev nD) : BodyObligation (dat2 (F := F) V c) (defs₀ (F := F)) Variants.none () Set.univ := fun t => by
  rw [bigSep_W2, bigSep_W2]
  exact sound_body2 V c t

/-! ## The invariant at the region's entry and exit -/

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives the entry invariant back: what the running rows hold is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

/-- The same after the last point. -/
theorem hout2 (c : Dev nD) : (dat2 V c).Φ (Fin.last cfg2.N) ⊢ Pipeline.ΦA spec2 c :=
  Phi_out2 V c _ (by rw [Fin.val_last]; have : cfg2.N = 64 := N_2; omega)

end Cert.Kernel.Hand

end
-- ==== Proof.BitsKernelFrame.lean ====
/-
  The two programs' kernel frames, concretely: the three matmul-and-statistics regions' proof data provide what the
  segment records ask (their arrays read at the entry contents, full shares, nothing owed, the body obligation at every
  point, the invariant entered from and handed back as the plain scoped rest), so the whole program's run applies.
-/
import proofs.«166235_j274877907496_2_alg».proof.Proof.BitsWhole
import proofs.«166235_j274877907496_2_alg».proof.Proof.BitsRegion0
import proofs.«166235_j274877907496_2_alg».proof.Proof.BitsRegion1
import proofs.«166235_j274877907496_2_alg».proof.Proof.BitsRegion2

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]

/-- The three regions' proof data, as functions of the entry contents. -/
abbrev P0 : Contents F → (c : Dev nD) → Dat τ (Elt F) Unit ℕ (UR sig nD τ) ℕ cfg0 c := fun V c => dat0 V c
abbrev P1 : Contents F → (c : Dev nD) → Dat τ (Elt F) Unit ℕ (UR sig nD τ) ℕ cfg1 c := fun V c => dat1 V c
abbrev P2 : Contents F → (c : Dev nD) → Dat τ (Elt F) Unit ℕ (UR sig nD τ) ℕ cfg2 c := fun V c => dat2 V c

theorem provides0 : Provides0 (F := F) P0 where
  hA V c w := A_eq0 V c w
  hq V c w := by dsimp only [P0, dat0]
  howed V c t := by dsimp only [P0, dat0]
  hrec V c t := by dsimp only [P0, dat0]
  hbody V c := body_obligation0 V c
  hin V c := hin0 V c
  hout V c := hout0 V c
theorem provides1 : Provides1 (F := F) P1 where
  hA V c w := A_eq1 V c w
  hq V c w := by dsimp only [P1, dat1]
  howed V c t := by dsimp only [P1, dat1]
  hrec V c t := by dsimp only [P1, dat1]
  hbody V c := body_obligation1 V c
  hin V c := hin1 V c
  hout V c := hout1 V c
theorem provides2 : Provides2 (F := F) P2 where
  hA V c w := A_eq2 V c w
  hq V c w := by dsimp only [P2, dat2]
  howed V c t := by dsimp only [P2, dat2]
  hrec V c t := by dsimp only [P2, dat2]
  hbody V c := body_obligation2 V c
  hin V c := hin2 V c
  hout V c := hout2 V c

variable (m : (ℓ : Loc nD τ sig) → Buf (Elt F) ℓ) (ρ : Dev nD → PrngReg)

/-- The frame: every weakly fair execution terminates without fault, each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  whole_run P0 P1 P2 m ρ provides0 provides1 provides2

end Cert.Kernel.Hand

end
-- ==== Proof.IdealRegion3.lean ====
/-
  The normalising kernel (the fourth kernel region of the program): over a grid of sixteen row blocks, each point
  reads a 1024 x 1024 block of the last layer's raw output y, the four feature rows mean, var, gamma, beta (each
  1 x 1024, the same block at every point), and stores  gamma * (y - mean) * rsqrt (var + eps) + beta  over the
  whole output block. Nothing is kept between points and every access is a whole block, so what the output
  window's buffer holds after a point is one pointwise function of that point's five input blocks.
  Stated here for any contents `V` of the core's buffers at the region's entry: the blocks, the body's triple,
  the proof data of the pipeline and the body obligation at every point.
-/
import proofs.«166235_j274877907496_2_alg».proof.Proof.Gen.KernelIdeal.Launch
import proofs.«166235_j274877907496_2_alg».proof.Proof.Gen.KernelIdeal.Points
import proofs.«166235_j274877907496_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, fetched there or not: where it is not
    fetched the block index has not moved since the point before. One statement per input window. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses, and what it leaves in the output window's buffer -/

/-- The whole 1 x 1024 row, and the whole 1024 x 1024 block. -/
abbrev rRow3 : Rect S1x1024 := Rect.unit (s := S1x1024) ![0, 0] S1x1024.size inb_S1x1024_S1x1024_0_0
abbrev rBlk3 : Rect S1024x1024 := Rect.unit (s := S1024x1024) ![0, 0] S1024x1024.size inb_S1024x1024_S1024x1024_0_0

/-- The output buffer after the body: its one whole-block store, the normalised block as a function of the five
    input blocks (y, mean, var, gamma, beta in the windows' order). -/
def out3_5 (x0 : Vec F S1024x1024 .f32) (x1 x2 x3 x4 : Vec F S1x1024 .f32) : Vec F S1024x1024 .f32 :=
  View.canon [⟨rBlk3, k3_pay1 (View.ld x2 rRow3) (View.ld x3 rRow3) (View.ld x0 rBlk3) (View.ld x1 rRow3) (View.ld x4 rRow3)⟩]

/-- The one store covers the buffer. -/
theorem cover3_5 (p0 : Vec F S1024x1024 .f32) (y : S1024x1024.Idx) :
    ∃ pc ∈ ([⟨rBlk3, p0⟩] : List (View.Piece (Elt F) S1024x1024 .f32)), y ∈ pc.1.set :=
  View.cover_of_tiled [⟨rBlk3, p0⟩] S1024x1024.size (by rfl) y

/-! ## The body's triple -/

set_option maxHeartbeats 1000000 in
/-- The body on whole staging memrefs, the inputs' at contents `x0 … x4` and the output's at anything, runs to the
    continuation with the inputs' as they were and the output's at `out3_5` of them. -/
theorem sound_kernel3 (c : Dev nD) (E : Set ℕ) (i : grid3.Coords)
    (arg2 : Memref sig .tc .vmem S1024x1024 .f32) (harg2 : arg2.IsWhole) (arg3 : Memref sig .tc .vmem S1x1024 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x1024 .f32) (harg6 : arg6.IsWhole) (arg7 : Memref sig .tc .vmem S1024x1024 .f32) (harg7 : arg7.IsWhole)
    (x0 : Vec F S1024x1024 .f32) (x1 x2 x3 x4 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out3_5 x0 x1 x2 x3 x4)) -∗ K ⟨⟩))
      ⊢ wp frame (wpE (defs₀ (F := F)) Variants.none c none) E (cc3__norm_kernel i arg2 harg2 arg3 harg3 arg4 harg4 arg5 harg5 arg6 harg6 arg7 harg7) K := by
  simp only [cc3__norm_kernel_eq_skeleton]; unfold cc3__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The arrays as the region finds them; after the body at point `t` each input's buffer at its block and the
    output's at the normalised block; the invariant the scoped buffers no window stages and the generator register,
    untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t
    = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so the body's triple applies; the invariant and
    the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.IdealSeg3.lean ====
/-
  The normalising kernel's region as a segment of the program's run. The region is entered with every unscoped
  buffer of the core at the contents the fourth host stretch leaves, and left with the same contents except the result
  array, which holds what the sixteen points wrote back. The five input arrays are split out of the unscoped buffers
  for the pipeline and put back unchanged; the generator register passes through the pipeline's invariant; the core owes
  nothing before or after. Stated for any proof data of the three earlier regions (parameters `D0 D1 D2`).
-/
import proofs.«166235_j274877907496_2_alg».proof.Proof.IdealRegion3
import proofs.«166235_j274877907496_2_alg».proof.Proof.Gen.KernelIdeal.Regions
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A core's buffer contents, read at the TensorCore's references. -/
abbrev Contents (F : FTy → Type) : Type := (c : Dev nD) → (b : Ref sig .tc) → Buf (Elt F) ((c : Thread nD τ).loc b)

variable (D0 : Contents F → (c : Dev nD) → Dat τ (Elt F) Unit ℕ (UR sig nD τ) ℕ cfg0 c)
variable (D1 : Contents F → (c : Dev nD) → Dat τ (Elt F) Unit ℕ (UR sig nD τ) ℕ cfg1 c)
variable (D2 : Contents F → (c : Dev nD) → Dat τ (Elt F) Unit ℕ (UR sig nD τ) ℕ cfg2 c)
variable (m : (ℓ : Loc nD τ sig) → Buf (Elt F) ℓ) (outs : Outs (F := F))

/-- The contents each region is entered with, read at the TensorCore's references. -/
abbrev E1 : Contents F := fun c b => V1 m c b
abbrev E3 : Contents F := fun c b => V3 m outs c b
abbrev E5 : Contents F := fun c b => V5 m outs c b
abbrev E7 : Contents F := fun c b => V7 m outs c b
abbrev E8 : Contents F := fun c b => V8 m outs c b

/-- Every region's proof data, each at its region's entry contents. -/
def pdats : (p : Fin 4) → (c : Dev nD) → Dat τ (Elt F) Unit ℕ (UR sig nD τ) ℕ (cfgs p) c
  | ⟨0, _⟩ => fun c => D0 (E1 m) c
  | ⟨1, _⟩ => fun c => D1 (E3 m outs) c
  | ⟨2, _⟩ => fun c => D2 (E5 m outs) c
  | ⟨3, _⟩ => fun c => dat3 (E7 m outs) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, at
    nothing. -/
abbrev R (c : Dev nD) : sProp 𝕄 := iprop((∃ r, prngReg c r) ∗ ∃ W, owes (c : Thread nD τ) (0 : CellTallies nD τ sig Unit) W)

/-- At the region's exit each of its arrays holds what the pipeline leaves: the five inputs what they held at entry,
    the result array the write-backs (the hypothesis `h8` names them as the chosen exit contents). -/
theorem hF3 (h8 : ∀ c, outs 8 main_v30 c = (dat3 (E7 m outs) c).arrAt 5 cfg3.N) (c : Dev nD) (w : Fin cfg3.W) :
    (pdats D0 D1 D2 m outs 3 c).arrAt w cfg3.N = E8 m outs c (Pipeline.arrRef spec3 w) := by
  have hw : w = 0 ∨ w = 1 ∨ w = 2 ∨ w = 3 ∨ w = 4 ∨ w = 5 := by revert w; decide
  have e : pdats D0 D1 D2 m outs 3 c = dat3 (E7 m outs) c := rfl
  rw [e]
  rcases hw with rfl | rfl | rfl | rfl | rfl | rfl
  · exact ((dat3 (E7 m outs) c).arrAt_in 0 rfl _).trans ((A_eq3 (E7 m outs) c 0).trans (V8_of m outs c main_v21_0 (by decide)).symm)
  · exact ((dat3 (E7 m outs) c).arrAt_in 1 rfl _).trans ((A_eq3 (E7 m outs) c 1).trans (V8_of m outs c main_v23 (by decide)).symm)
  · exact ((dat3 (E7 m outs) c).arrAt_in 2 rfl _).trans ((A_eq3 (E7 m outs) c 2).trans (V8_of m outs c main_v27 (by decide)).symm)
  · exact ((dat3 (E7 m outs) c).arrAt_in 3 rfl _).trans ((A_eq3 (E7 m outs) c 3).trans (V8_of m outs c main_v28 (by decide)).symm)
  · exact ((dat3 (E7 m outs) c).arrAt_in 4 rfl _).trans ((A_eq3 (E7 m outs) c 4).trans (V8_of m outs c main_v29 (by decide)).symm)
  · refine (h8 c).symm.trans ?_
    show _ = V8 m outs c main_v30
    unfold V8; rw [Function.update_self]

/-- Every buffer that is none of the region's arrays holds at the exit what it held at entry. -/
theorem hrest3 (c : Dev nD) : ∀ b, b ∉ Finset.univ.image (Pipeline.arrRef spec3) → E8 m outs c b = E7 m outs c b :=
  fun b hb => V8_of m outs c b (fun h => hb (by
    rw [List.mem_singleton] at h; subst h
    exact Finset.mem_image.mpr ⟨5, Finset.mem_univ _, rfl⟩))

set_option backward.isDefEq.respectTransparency.types false in
/-- The region over the thread state: entered from every unscoped buffer at the contents before it, left at those
    after it. -/
def reg3 (h8 : ∀ c, outs 8 main_v30 c = (dat3 (E7 m outs) c).arrAt 5 cfg3.N) :
    Pipeline.RegionSeg (pcfgs (F := F)) adm (pdats D0 D1 D2 m outs) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E7 m outs) c).loose
  hwaits := Pipeline.hwaits_of_owed_zero _ _ _ _ L lv 3 fun _ _ => rfl
  pre c := iprop(StableHlo.held (c : Thread nD τ) (Pipeline.ucRefs τ sig) (V7 m outs c) ∗ R c)
  post c := iprop(StableHlo.held (c : Thread nD τ) (Pipeline.ucRefs τ sig) (V8 m outs c) ∗ R c)
  X c := iprop(∃ r, prngReg c r)
  Y c := iprop(∃ r, prngReg c r)
  Z c := Pipeline.unscopedRest (Ix := Unit) (Name := ℕ) (U := UR sig nD τ) (Lvl := ℕ) spec3 c (E7 m outs c)
  hentry c := by
    rw [Pipeline.ownSems0_none]
    have hsplit := Pipeline.arrays_of_unscopedBufs (p := 3) (pcfgs (F := F)) adm (pdats D0 D1 D2 m outs) launch3.win launch3.arr_whole c
      ((pdats D0 D1 D2 m outs 3 c).share_full fun _ => rfl) (E7 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats D0 D1 D2 m outs 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats D0 D1 D2 m outs 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats D0 D1 D2 m outs) ((pdats D0 D1 D2 m outs 3 c).share_full fun _ => rfl)
      (E7 m outs c) (E8 m outs c) ((pdats D0 D1 D2 m outs 3 c).arrAt · cfg3.N) (hF3 D0 D1 D2 m outs h8 c) (hrest3 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.IdealFrame.lean ====
/-
  The whole program's run assembled from its regions. The thread state between two items of the program is: every
  unscoped buffer of the core at that boundary's contents, the generator register at some state, and the core owing
  nothing. The launch provides the first of these on every core; the normalising kernel's region (the last item) is the
  record of its own module; the three matmul-and-statistics regions enter as parameters (their proof data `D0 D1 D2` and
  records `R0 R1 R2`, each entered from and left at the boundary contents). The conclusion is the program's frame,
  with the result array at the last region's exit contents.
-/
import proofs.«166235_j274877907496_2_alg».proof.Proof.IdealSeg3
import proofs.«166235_j274877907496_2_alg».proof.Proof.IdealRunCond
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (D0 : Contents F → (c : Dev nD) → Dat τ (Elt F) Unit ℕ (UR sig nD τ) ℕ cfg0 c)
variable (D1 : Contents F → (c : Dev nD) → Dat τ (Elt F) Unit ℕ (UR sig nD τ) ℕ cfg1 c)
variable (D2 : Contents F → (c : Dev nD) → Dat τ (Elt F) Unit ℕ (UR sig nD τ) ℕ cfg2 c)
variable (m : (ℓ : Loc nD τ sig) → Buf (Elt F) ℓ) (ρ : Dev nD → PrngReg) (outs : Outs (F := F))

/-- The launch's resources on a core make the first thread state's rest: the generator register and the core owing
    nothing (the launch's unscoped semaphores and credits are not needed again). -/
theorem launch_rest :
    iprop((bigSep Finset.univ fun c : Dev nD => iprop(unscopedSems0 c ∗ owes (c : Thread nD τ) (0 : CellTallies nD τ sig Unit) ∅
        ∗ Pipeline.launchCred (fun _ : Dev nD => (0 : CellTallies nD τ sig Unit)) c ∗ prngReg c (ρ c) ∗ (BI.emp : sProp 𝕄))) ∗ levAts L lv)
      ⊢ (|={Set.univ}=> bigSep Finset.univ (fun c : Dev nD => R (F := F) c) : sProp 𝕄) := by
  have hmono : (bigSep Finset.univ fun c : Dev nD => iprop(unscopedSems0 c ∗ owes (c : Thread nD τ) (0 : CellTallies nD τ sig Unit) ∅
        ∗ Pipeline.launchCred (fun _ : Dev nD => (0 : CellTallies nD τ sig Unit)) c ∗ prngReg c (ρ c) ∗ (BI.emp : sProp 𝕄)))
      ⊢ (bigSep Finset.univ (fun c : Dev nD => R (F := F) c) : sProp 𝕄) :=
    bigSep_mono fun c _ => show (iprop(unscopedSems0 c ∗ owes (c : Thread nD τ) (0 : CellTallies nD τ sig Unit) ∅
        ∗ Pipeline.launchCred (fun _ : Dev nD => (0 : CellTallies nD τ sig Unit)) c ∗ prngReg c (ρ c) ∗ (BI.emp : sProp 𝕄)) : sProp 𝕄) ⊢ R (F := F) c from by
      iintro ⟨-, HO, -, Hp, -⟩
      isplitl [Hp]; · iexists _; iexact Hp
      iexists ∅; iexact HO
  iintro ⟨H, -⟩
  ihave H' := hmono $$ H
  imodintro
  iexact H'

set_option backward.isDefEq.respectTransparency.types false in
/-- The program's run from the three earlier regions' records. -/
theorem run_of_regions
    (R0 : Pipeline.RegionSeg (pcfgs (F := F)) adm (pdats D0 D1 D2 m outs) () defs₀ 𝒱₀ L lv 0)
    (hpre0 : ∀ c : Dev nD, iprop(StableHlo.held (c : Thread nD τ) (Pipeline.ucRefs τ sig) (V1 m c) ∗ R c) ⊢ R0.pre c)
    (hpost0 : ∀ c : Dev nD, R0.post c ⊢ iprop(StableHlo.held (c : Thread nD τ) (Pipeline.ucRefs τ sig) (V2 m outs c) ∗ R c))
    (R1 : Pipeline.RegionSeg (pcfgs (F := F)) adm (pdats D0 D1 D2 m outs) () defs₀ 𝒱₀ L lv 1)
    (hpre1 : ∀ c : Dev nD, iprop(StableHlo.held (c : Thread nD τ) (Pipeline.ucRefs τ sig) (V3 m outs c) ∗ R c) ⊢ R1.pre c)
    (hpost1 : ∀ c : Dev nD, R1.post c ⊢ iprop(StableHlo.held (c : Thread nD τ) (Pipeline.ucRefs τ sig) (V4 m outs c) ∗ R c))
    (R2 : Pipeline.RegionSeg (pcfgs (F := F)) adm (pdats D0 D1 D2 m outs) () defs₀ 𝒱₀ L lv 2)
    (hpre2 : ∀ c : Dev nD, iprop(StableHlo.held (c : Thread nD τ) (Pipeline.ucRefs τ sig) (V5 m outs c) ∗ R c) ⊢ R2.pre c)
    (hpost2 : ∀ c : Dev nD, R2.post c ⊢ iprop(StableHlo.held (c : Thread nD τ) (Pipeline.ucRefs τ sig) (V6 m outs c) ∗ R c))
    (h8 : ∀ c, outs 8 main_v30 c = (dat3 (E7 m outs) c).arrAt 5 cfg3.N) :
    θ_run defs (onTc (τ := τ) (main (F := F))) ⟨m, fun _ => 0, ρ⟩ (fun r => ∀ c : Dev nD,
      r.2.mem ((c.tc : Thread nD τ).loc main_v30) = outs 8 main_v30 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  run_cond m emb₁ () 𝒱₀ L lv (fun _ _ => rfl) ρ outs (pdats D0 D1 D2 m outs)
    (fun _ => (0 : CellTallies nD τ sig Unit)) (fun _ => (BI.emp : sProp 𝕄))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c) (launch_rest ρ)
    (fun c => by iintro ⟨-, HO⟩; iexact HO)
    R0 hpre0 hpost0 R1 hpre1 hpost1 R2 hpre2 hpost2
    (reg3 D0 D1 D2 m outs h8) (fun _ => .rfl) (fun _ => .rfl)

end Cert.KernelIdeal.Hand

end
-- ==== Proof.IdealSeg0.lean ====
/-
  The first matmul-and-statistics kernel's region as a segment of the program's run, from a record of what its
  proof data provide: the arrays read at the region's entry contents, full shares, nothing owed, the body obligation
  at every point, and the invariant (the scoped buffers no window stages, among them the two scratch rows carrying the
  running column sums, and the generator register) entered from and handed back as the plain scoped rest. The region is
  entered with every unscoped buffer of the core at the contents before it and left at the contents after it: the input
  arrays unchanged, the three output arrays (the raw layer output and the two rows of column sums) at what the points
  wrote back.
-/
import proofs.«166235_j274877907496_2_alg».proof.Proof.IdealSeg3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What region 0's proof data provide, at every entry contents. -/
structure Provides0 (D : Contents F → (c : Dev nD) → Dat τ (Elt F) Unit ℕ (UR sig nD τ) ℕ cfg0 c) : Prop where
  hA : ∀ V c w, (D V c).A w = V c (Pipeline.arrRef spec0 w)
  hq : ∀ V c w, (D V c).q w = fullShare
  howed : ∀ V c t, (D V c).owed t = 0
  hrec : ∀ V c t, (D V c).recorded t = Set.univ
  hbody : ∀ V c, BodyObligation (D V c) (defs₀ (F := F)) Variants.none () Set.univ
  hin : ∀ V (c : Dev nD), (Pipeline.ΦA spec0 c : sProp 𝕄) ⊢ (D V c).Φ 0
  hout : ∀ V (c : Dev nD), (D V c).Φ (Fin.last cfg0.N) ⊢ (Pipeline.ΦA spec0 c : sProp 𝕄)

variable (D0 : Contents F → (c : Dev nD) → Dat τ (Elt F) Unit ℕ (UR sig nD τ) ℕ cfg0 c)
variable (D1 : Contents F → (c : Dev nD) → Dat τ (Elt F) Unit ℕ (UR sig nD τ) ℕ cfg1 c)
variable (D2 : Contents F → (c : Dev nD) → Dat τ (Elt F) Unit ℕ (UR sig nD τ) ℕ cfg2 c)
variable (m : (ℓ : Loc nD τ sig) → Buf (Elt F) ℓ) (outs : Outs (F := F))

/-- The contents after the first region, read at the TensorCore's references. -/
abbrev E2 : Contents F := fun c b => V2 m outs c b

set_option maxHeartbeats 4000000 in
/-- At the region's exit each of its arrays holds what the pipeline leaves: an input what it held at entry, an output
    its write-backs (named as the chosen exit contents by the hypotheses `ho`). -/
theorem hF0 (h : Provides0 D0) (ho0 : ∀ c, outs 2 main_v1_0 c = (D0 (E1 m) c).arrAt 3 cfg0.N) (ho1 : ∀ c, outs 2 main_v1_1 c = (D0 (E1 m) c).arrAt 4 cfg0.N) (ho2 : ∀ c, outs 2 main_v1_2 c = (D0 (E1 m) c).arrAt 5 cfg0.N) (c : Dev nD) (w : Fin cfg0.W) :
    (pdats D0 D1 D2 m outs 0 c).arrAt w cfg0.N = E2 m outs c (Pipeline.arrRef spec0 w) := by
  have hw : w = 0 ∨ w = 1 ∨ w = 2 ∨ w = 3 ∨ w = 4 ∨ w = 5 := by revert w; decide
  have e : pdats D0 D1 D2 m outs 0 c = D0 (E1 m) c := rfl
  rw [e]
  rcases hw with rfl | rfl | rfl | rfl | rfl | rfl
  · exact ((D0 (E1 m) c).arrAt_in 0 rfl _).trans ((h.hA (E1 m) c 0).trans (V2_of m outs c main_arg0 (by decide)).symm)
  · exact ((D0 (E1 m) c).arrAt_in 1 rfl _).trans ((h.hA (E1 m) c 1).trans (V2_of m outs c main_arg1 (by decide)).symm)
  · exact ((D0 (E1 m) c).arrAt_in 2 rfl _).trans ((h.hA (E1 m) c 2).trans (V2_of m outs c main_v0 (by decide)).symm)
  · refine (ho0 c).symm.trans ?_
    show _ = V2 m outs c main_v1_0
    simp only [V2, Function.update_of_ne (StableHlo.devRef_ne_of_ne (by decide : (main_v1_0 : Ref sig .tc) ≠ main_v1_1) : (Proc.devRef .tc main_v1_0 : DevRef τ sig) ≠ Proc.devRef .tc main_v1_1), Function.update_of_ne (StableHlo.devRef_ne_of_ne (by decide : (main_v1_0 : Ref sig .tc) ≠ main_v1_2) : (Proc.devRef .tc main_v1_0 : DevRef τ sig) ≠ Proc.devRef .tc main_v1_2), Function.update_self]
  · refine (ho1 c).symm.trans ?_
    show _ = V2 m outs c main_v1_1
    simp only [V2, Function.update_of_ne (StableHlo.devRef_ne_of_ne (by decide : (main_v1_1 : Ref sig .tc) ≠ main_v1_2) : (Proc.devRef .tc main_v1_1 : DevRef τ sig) ≠ Proc.devRef .tc main_v1_2), Function.update_self]
  · refine (ho2 c).symm.trans ?_
    show _ = V2 m outs c main_v1_2
    simp only [V2, Function.update_self]

/-- Every buffer that is none of the region's arrays holds at the exit what it held at entry. -/
theorem hrest0 (c : Dev nD) : ∀ b, b ∉ Finset.univ.image (Pipeline.arrRef spec0) → E2 m outs c b = E1 m c b :=
  fun b hb => V2_of m outs c b (fun h => by
    simp only [List.mem_cons, List.not_mem_nil, or_false] at h
    rcases h with h' | h' | h'
    · subst h'; exact hb (Finset.mem_image.mpr ⟨3, Finset.mem_univ _, rfl⟩)
    · subst h'; exact hb (Finset.mem_image.mpr ⟨4, Finset.mem_univ _, rfl⟩)
    · subst h'; exact hb (Finset.mem_image.mpr ⟨5, Finset.mem_univ _, rfl⟩))

set_option backward.isDefEq.respectTransparency.types false in
/-- The region over the thread state. -/
def reg0 (h : Provides0 D0) (ho0 : ∀ c, outs 2 main_v1_0 c = (D0 (E1 m) c).arrAt 3 cfg0.N) (ho1 : ∀ c, outs 2 main_v1_1 c = (D0 (E1 m) c).arrAt 4 cfg0.N) (ho2 : ∀ c, outs 2 main_v1_2 c = (D0 (E1 m) c).arrAt 5 cfg0.N) :
    Pipeline.RegionSeg (pcfgs (F := F)) adm (pdats D0 D1 D2 m outs) () defs₀ 𝒱₀ L lv 0 where
  win := launch0.win.to₀
  block_pos := launch0.block_pos
  stage_whole := launch0.stage_whole
  K := PEmpty
  osem k := k.elim
  ho := Pipeline.OwnSemFacts.none _
  hbody c := (h.hbody (E1 m) c).loose
  hwaits := Pipeline.hwaits_of_owed_zero _ _ _ _ L lv 0 fun c t => h.howed (E1 m) c t
  pre c := iprop(StableHlo.held (c : Thread nD τ) (Pipeline.ucRefs τ sig) (V1 m c) ∗ R c)
  post c := iprop(StableHlo.held (c : Thread nD τ) (Pipeline.ucRefs τ sig) (V2 m outs c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats D0 D1 D2 m outs) launch0.win launch0.arr_whole c
      ((pdats D0 D1 D2 m outs 0 c).share_full fun w => h.hq (E1 m) c w) (E1 m c) fun w => h.hA (E1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats D0 D1 D2 m outs 0 c).owed 0 = 0 from h.howed (E1 m) c 0]
      icases HO with ⟨%W, HO⟩; iexists W; isplitr
      · ipureintro; intro x _; unfold Pipeline.Dat.bound
        rw [show (pdats D0 D1 D2 m outs 0 c).recorded 0 = Set.univ from h.hrec (E1 m) c 0]; exact Or.inl trivial
      iexact HO
    isplitl [Hp]; · iexact Hp
    iexact Hrest
  hin c := by
    have hΦ := h.hin (E1 m) c
    rw [show (pdats D0 D1 D2 m outs 0 c).Φ 0 = (D0 (E1 m) c).Φ 0 from rfl]
    refine .trans ?_ hΦ
    unfold Pipeline.ΦA
    iintro ⟨Hp, -, Hr⟩
    isplitl [Hr]; · iexact Hr
    iexact Hp
  hout c := by
    have hΦ := h.hout (E1 m) c
    rw [Pipeline.ownSems0_none, show (pdats D0 D1 D2 m outs 0 c).Φ (Fin.last _) = (D0 (E1 m) c).Φ (Fin.last cfg0.N) from rfl]
    refine hΦ.trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats D0 D1 D2 m outs) ((pdats D0 D1 D2 m outs 0 c).share_full fun w => h.hq (E1 m) c w)
      (E1 m c) (E2 m outs c) ((pdats D0 D1 D2 m outs 0 c).arrAt · cfg0.N) (hF0 D0 D1 D2 m outs h ho0 ho1 ho2 c) (hrest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats D0 D1 D2 m outs 0 c).owed (Fin.last _) = 0 from h.howed (E1 m) c _]
    iexact HO

end Cert.KernelIdeal.Hand

end
-- ==== Proof.IdealSeg1.lean ====
/-
  The second matmul-and-statistics kernel (the first layer's normalisation fused in)'s region as a segment of the program's run, from a record of what its
  proof data provide: the arrays read at the region's entry contents, full shares, nothing owed, the body obligation
  at every point, and the invariant (the scoped buffers no window stages, among them the two scratch rows carrying the
  running column sums, and the generator register) entered from and handed back as the plain scoped rest. The region is
  entered with every unscoped buffer of the core at the contents before it and left at the contents after it: the input
  arrays unchanged, the three output arrays (the raw layer output and the two rows of column sums) at what the points
  wrote back.
-/
import proofs.«166235_j274877907496_2_alg».proof.Proof.IdealSeg3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What region 1's proof data provide, at every entry contents. -/
structure Provides1 (D : Contents F → (c : Dev nD) → Dat τ (Elt F) Unit ℕ (UR sig nD τ) ℕ cfg1 c) : Prop where
  hA : ∀ V c w, (D V c).A w = V c (Pipeline.arrRef spec1 w)
  hq : ∀ V c w, (D V c).q w = fullShare
  howed : ∀ V c t, (D V c).owed t = 0
  hrec : ∀ V c t, (D V c).recorded t = Set.univ
  hbody : ∀ V c, BodyObligation (D V c) (defs₀ (F := F)) Variants.none () Set.univ
  hin : ∀ V (c : Dev nD), (Pipeline.ΦA spec1 c : sProp 𝕄) ⊢ (D V c).Φ 0
  hout : ∀ V (c : Dev nD), (D V c).Φ (Fin.last cfg1.N) ⊢ (Pipeline.ΦA spec1 c : sProp 𝕄)

variable (D0 : Contents F → (c : Dev nD) → Dat τ (Elt F) Unit ℕ (UR sig nD τ) ℕ cfg0 c)
variable (D1 : Contents F → (c : Dev nD) → Dat τ (Elt F) Unit ℕ (UR sig nD τ) ℕ cfg1 c)
variable (D2 : Contents F → (c : Dev nD) → Dat τ (Elt F) Unit ℕ (UR sig nD τ) ℕ cfg2 c)
variable (m : (ℓ : Loc nD τ sig) → Buf (Elt F) ℓ) (outs : Outs (F := F))

/-- The contents after the second region, read at the TensorCore's references. -/
abbrev E4 : Contents F := fun c b => V4 m outs c b

set_option maxHeartbeats 4000000 in
/-- At the region's exit each of its arrays holds what the pipeline leaves: an input what it held at entry, an output
    its write-backs (named as the chosen exit contents by the hypotheses `ho`). -/
theorem hF1 (h : Provides1 D1) (ho0 : ∀ c, outs 4 main_v11_0 c = (D1 (E3 m outs) c).arrAt 7 cfg1.N) (ho1 : ∀ c, outs 4 main_v11_1 c = (D1 (E3 m outs) c).arrAt 8 cfg1.N) (ho2 : ∀ c, outs 4 main_v11_2 c = (D1 (E3 m outs) c).arrAt 9 cfg1.N) (c : Dev nD) (w : Fin cfg1.W) :
    (pdats D0 D1 D2 m outs 1 c).arrAt w cfg1.N = E4 m outs c (Pipeline.arrRef spec1 w) := by
  have hw : w = 0 ∨ w = 1 ∨ w = 2 ∨ w = 3 ∨ w = 4 ∨ w = 5 ∨ w = 6 ∨ w = 7 ∨ w = 8 ∨ w = 9 := by revert w; decide
  have e : pdats D0 D1 D2 m outs 1 c = D1 (E3 m outs) c := rfl
  rw [e]
  rcases hw with rfl | rfl | rfl | rfl | rfl | rfl | rfl | rfl | rfl | rfl
  · exact ((D1 (E3 m outs) c).arrAt_in 0 rfl _).trans ((h.hA (E3 m outs) c 0).trans (V4_of m outs c main_v1_0 (by decide)).symm)
  · exact ((D1 (E3 m outs) c).arrAt_in 1 rfl _).trans ((h.hA (E3 m outs) c 1).trans (V4_of m outs c main_v3 (by decide)).symm)
  · exact ((D1 (E3 m outs) c).arrAt_in 2 rfl _).trans ((h.hA (E3 m outs) c 2).trans (V4_of m outs c main_v7 (by decide)).symm)
  · exact ((D1 (E3 m outs) c).arrAt_in 3 rfl _).trans ((h.hA (E3 m outs) c 3).trans (V4_of m outs c main_v8 (by decide)).symm)
  · exact ((D1 (E3 m outs) c).arrAt_in 4 rfl _).trans ((h.hA (E3 m outs) c 4).trans (V4_of m outs c main_v9 (by decide)).symm)
  · exact ((D1 (E3 m outs) c).arrAt_in 5 rfl _).trans ((h.hA (E3 m outs) c 5).trans (V4_of m outs c main_arg5 (by decide)).symm)
  · exact ((D1 (E3 m outs) c).arrAt_in 6 rfl _).trans ((h.hA (E3 m outs) c 6).trans (V4_of m outs c main_v10 (by decide)).symm)
  · refine (ho0 c).symm.trans ?_
    show _ = V4 m outs c main_v11_0
    simp only [V4, Function.update_of_ne (StableHlo.devRef_ne_of_ne (by decide : (main_v11_0 : Ref sig .tc) ≠ main_v11_1) : (Proc.devRef .tc main_v11_0 : DevRef τ sig) ≠ Proc.devRef .tc main_v11_1), Function.update_of_ne (StableHlo.devRef_ne_of_ne (by decide : (main_v11_0 : Ref sig .tc) ≠ main_v11_2) : (Proc.devRef .tc main_v11_0 : DevRef τ sig) ≠ Proc.devRef .tc main_v11_2), Function.update_self]
  · refine (ho1 c).symm.trans ?_
    show _ = V4 m outs c main_v11_1
    simp only [V4, Function.update_of_ne (StableHlo.devRef_ne_of_ne (by decide : (main_v11_1 : Ref sig .tc) ≠ main_v11_2) : (Proc.devRef .tc main_v11_1 : DevRef τ sig) ≠ Proc.devRef .tc main_v11_2), Function.update_self]
  · refine (ho2 c).symm.trans ?_
    show _ = V4 m outs c main_v11_2
    simp only [V4, Function.update_self]

/-- Every buffer that is none of the region's arrays holds at the exit what it held at entry. -/
theorem hrest1 (c : Dev nD) : ∀ b, b ∉ Finset.univ.image (Pipeline.arrRef spec1) → E4 m outs c b = E3 m outs c b :=
  fun b hb => V4_of m outs c b (fun h => by
    simp only [List.mem_cons, List.not_mem_nil, or_false] at h
    rcases h with h' | h' | h'
    · subst h'; exact hb (Finset.mem_image.mpr ⟨7, Finset.mem_univ _, rfl⟩)
    · subst h'; exact hb (Finset.mem_image.mpr ⟨8, Finset.mem_univ _, rfl⟩)
    · subst h'; exact hb (Finset.mem_image.mpr ⟨9, Finset.mem_univ _, rfl⟩))

set_option backward.isDefEq.respectTransparency.types false in
/-- The region over the thread state. -/
def reg1 (h : Provides1 D1) (ho0 : ∀ c, outs 4 main_v11_0 c = (D1 (E3 m outs) c).arrAt 7 cfg1.N) (ho1 : ∀ c, outs 4 main_v11_1 c = (D1 (E3 m outs) c).arrAt 8 cfg1.N) (ho2 : ∀ c, outs 4 main_v11_2 c = (D1 (E3 m outs) c).arrAt 9 cfg1.N) :
    Pipeline.RegionSeg (pcfgs (F := F)) adm (pdats D0 D1 D2 m outs) () defs₀ 𝒱₀ L lv 1 where
  win := launch1.win.to₀
  block_pos := launch1.block_pos
  stage_whole := launch1.stage_whole
  K := PEmpty
  osem k := k.elim
  ho := Pipeline.OwnSemFacts.none _
  hbody c := (h.hbody (E3 m outs) c).loose
  hwaits := Pipeline.hwaits_of_owed_zero _ _ _ _ L lv 1 fun c t => h.howed (E3 m outs) c t
  pre c := iprop(StableHlo.held (c : Thread nD τ) (Pipeline.ucRefs τ sig) (V3 m outs c) ∗ R c)
  post c := iprop(StableHlo.held (c : Thread nD τ) (Pipeline.ucRefs τ sig) (V4 m outs c) ∗ R c)
  X c := iprop(∃ r, prngReg c r)
  Y c := iprop(∃ r, prngReg c r)
  Z c := Pipeline.unscopedRest (Ix := Unit) (Name := ℕ) (U := UR sig nD τ) (Lvl := ℕ) spec1 c (E3 m outs c)
  hentry c := by
    rw [Pipeline.ownSems0_none]
    have hsplit := Pipeline.arrays_of_unscopedBufs (p := 1) (pcfgs (F := F)) adm (pdats D0 D1 D2 m outs) launch1.win launch1.arr_whole c
      ((pdats D0 D1 D2 m outs 1 c).share_full fun w => h.hq (E3 m outs) c w) (E3 m outs c) fun w => h.hA (E3 m outs) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats D0 D1 D2 m outs 1 c).owed 0 = 0 from h.howed (E3 m outs) c 0]
      icases HO with ⟨%W, HO⟩; iexists W; isplitr
      · ipureintro; intro x _; unfold Pipeline.Dat.bound
        rw [show (pdats D0 D1 D2 m outs 1 c).recorded 0 = Set.univ from h.hrec (E3 m outs) c 0]; exact Or.inl trivial
      iexact HO
    isplitl [Hp]; · iexact Hp
    iexact Hrest
  hin c := by
    have hΦ := h.hin (E3 m outs) c
    rw [show (pdats D0 D1 D2 m outs 1 c).Φ 0 = (D1 (E3 m outs) c).Φ 0 from rfl]
    refine .trans ?_ hΦ
    unfold Pipeline.ΦA
    iintro ⟨Hp, -, Hr⟩
    isplitl [Hr]; · iexact Hr
    iexact Hp
  hout c := by
    have hΦ := h.hout (E3 m outs) c
    rw [Pipeline.ownSems0_none, show (pdats D0 D1 D2 m outs 1 c).Φ (Fin.last _) = (D1 (E3 m outs) c).Φ (Fin.last cfg1.N) from rfl]
    refine hΦ.trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats D0 D1 D2 m outs) ((pdats D0 D1 D2 m outs 1 c).share_full fun w => h.hq (E3 m outs) c w)
      (E3 m outs c) (E4 m outs c) ((pdats D0 D1 D2 m outs 1 c).arrAt · cfg1.N) (hF1 D0 D1 D2 m outs h ho0 ho1 ho2 c) (hrest1 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats D0 D1 D2 m outs 1 c).owed (Fin.last _) = 0 from h.howed (E3 m outs) c _]
    iexact HO

end Cert.KernelIdeal.Hand

end
-- ==== Proof.IdealSeg2.lean ====
/-
  The third matmul-and-statistics kernel (the second layer's normalisation fused in)'s region as a segment of the program's run, from a record of what its
  proof data provide: the arrays read at the region's entry contents, full shares, nothing owed, the body obligation
  at every point, and the invariant (the scoped buffers no window stages, among them the two scratch rows carrying the
  running column sums, and the generator register) entered from and handed back as the plain scoped rest. The region is
  entered with every unscoped buffer of the core at the contents before it and left at the contents after it: the input
  arrays unchanged, the three output arrays (the raw layer output and the two rows of column sums) at what the points
  wrote back.
-/
import proofs.«166235_j274877907496_2_alg».proof.Proof.IdealSeg3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What region 2's proof data provide, at every entry contents. -/
structure Provides2 (D : Contents F → (c : Dev nD) → Dat τ (Elt F) Unit ℕ (UR sig nD τ) ℕ cfg2 c) : Prop where
  hA : ∀ V c w, (D V c).A w = V c (Pipeline.arrRef spec2 w)
  hq : ∀ V c w, (D V c).q w = fullShare
  howed : ∀ V c t, (D V c).owed t = 0
  hrec : ∀ V c t, (D V c).recorded t = Set.univ
  hbody : ∀ V c, BodyObligation (D V c) (defs₀ (F := F)) Variants.none () Set.univ
  hin : ∀ V (c : Dev nD), (Pipeline.ΦA spec2 c : sProp 𝕄) ⊢ (D V c).Φ 0
  hout : ∀ V (c : Dev nD), (D V c).Φ (Fin.last cfg2.N) ⊢ (Pipeline.ΦA spec2 c : sProp 𝕄)

variable (D0 : Contents F → (c : Dev nD) → Dat τ (Elt F) Unit ℕ (UR sig nD τ) ℕ cfg0 c)
variable (D1 : Contents F → (c : Dev nD) → Dat τ (Elt F) Unit ℕ (UR sig nD τ) ℕ cfg1 c)
variable (D2 : Contents F → (c : Dev nD) → Dat τ (Elt F) Unit ℕ (UR sig nD τ) ℕ cfg2 c)
variable (m : (ℓ : Loc nD τ sig) → Buf (Elt F) ℓ) (outs : Outs (F := F))

/-- The contents after the third region, read at the TensorCore's references. -/
abbrev E6 : Contents F := fun c b => V6 m outs c b

set_option maxHeartbeats 4000000 in
/-- At the region's exit each of its arrays holds what the pipeline leaves: an input what it held at entry, an output
    its write-backs (named as the chosen exit contents by the hypotheses `ho`). -/
theorem hF2 (h : Provides2 D2) (ho0 : ∀ c, outs 6 main_v21_0 c = (D2 (E5 m outs) c).arrAt 7 cfg2.N) (ho1 : ∀ c, outs 6 main_v21_1 c = (D2 (E5 m outs) c).arrAt 8 cfg2.N) (ho2 : ∀ c, outs 6 main_v21_2 c = (D2 (E5 m outs) c).arrAt 9 cfg2.N) (c : Dev nD) (w : Fin cfg2.W) :
    (pdats D0 D1 D2 m outs 2 c).arrAt w cfg2.N = E6 m outs c (Pipeline.arrRef spec2 w) := by
  have hw : w = 0 ∨ w = 1 ∨ w = 2 ∨ w = 3 ∨ w = 4 ∨ w = 5 ∨ w = 6 ∨ w = 7 ∨ w = 8 ∨ w = 9 := by revert w; decide
  have e : pdats D0 D1 D2 m outs 2 c = D2 (E5 m outs) c := rfl
  rw [e]
  rcases hw with rfl | rfl | rfl | rfl | rfl | rfl | rfl | rfl | rfl | rfl
  · exact ((D2 (E5 m outs) c).arrAt_in 0 rfl _).trans ((h.hA (E5 m outs) c 0).trans (V6_of m outs c main_v11_0 (by decide)).symm)
  · exact ((D2 (E5 m outs) c).arrAt_in 1 rfl _).trans ((h.hA (E5 m outs) c 1).trans (V6_of m outs c main_v13 (by decide)).symm)
  · exact ((D2 (E5 m outs) c).arrAt_in 2 rfl _).trans ((h.hA (E5 m outs) c 2).trans (V6_of m outs c main_v17 (by decide)).symm)
  · exact ((D2 (E5 m outs) c).arrAt_in 3 rfl _).trans ((h.hA (E5 m outs) c 3).trans (V6_of m outs c main_v18 (by decide)).symm)
  · exact ((D2 (E5 m outs) c).arrAt_in 4 rfl _).trans ((h.hA (E5 m outs) c 4).trans (V6_of m outs c main_v19 (by decide)).symm)
  · exact ((D2 (E5 m outs) c).arrAt_in 5 rfl _).trans ((h.hA (E5 m outs) c 5).trans (V6_of m outs c main_arg9 (by decide)).symm)
  · exact ((D2 (E5 m outs) c).arrAt_in 6 rfl _).trans ((h.hA (E5 m outs) c 6).trans (V6_of m outs c main_v20 (by decide)).symm)
  · refine (ho0 c).symm.trans ?_
    show _ = V6 m outs c main_v21_0
    simp only [V6, Function.update_of_ne (StableHlo.devRef_ne_of_ne (by decide : (main_v21_0 : Ref sig .tc) ≠ main_v21_1) : (Proc.devRef .tc main_v21_0 : DevRef τ sig) ≠ Proc.devRef .tc main_v21_1), Function.update_of_ne (StableHlo.devRef_ne_of_ne (by decide : (main_v21_0 : Ref sig .tc) ≠ main_v21_2) : (Proc.devRef .tc main_v21_0 : DevRef τ sig) ≠ Proc.devRef .tc main_v21_2), Function.update_self]
  · refine (ho1 c).symm.trans ?_
    show _ = V6 m outs c main_v21_1
    simp only [V6, Function.update_of_ne (StableHlo.devRef_ne_of_ne (by decide : (main_v21_1 : Ref sig .tc) ≠ main_v21_2) : (Proc.devRef .tc main_v21_1 : DevRef τ sig) ≠ Proc.devRef .tc main_v21_2), Function.update_self]
  · refine (ho2 c).symm.trans ?_
    show _ = V6 m outs c main_v21_2
    simp only [V6, Function.update_self]

/-- Every buffer that is none of the region's arrays holds at the exit what it held at entry. -/
theorem hrest2 (c : Dev nD) : ∀ b, b ∉ Finset.univ.image (Pipeline.arrRef spec2) → E6 m outs c b = E5 m outs c b :=
  fun b hb => V6_of m outs c b (fun h => by
    simp only [List.mem_cons, List.not_mem_nil, or_false] at h
    rcases h with h' | h' | h'
    · subst h'; exact hb (Finset.mem_image.mpr ⟨7, Finset.mem_univ _, rfl⟩)
    · subst h'; exact hb (Finset.mem_image.mpr ⟨8, Finset.mem_univ _, rfl⟩)
    · subst h'; exact hb (Finset.mem_image.mpr ⟨9, Finset.mem_univ _, rfl⟩))

set_option backward.isDefEq.respectTransparency.types false in
/-- The region over the thread state. -/
def reg2 (h : Provides2 D2) (ho0 : ∀ c, outs 6 main_v21_0 c = (D2 (E5 m outs) c).arrAt 7 cfg2.N) (ho1 : ∀ c, outs 6 main_v21_1 c = (D2 (E5 m outs) c).arrAt 8 cfg2.N) (ho2 : ∀ c, outs 6 main_v21_2 c = (D2 (E5 m outs) c).arrAt 9 cfg2.N) :
    Pipeline.RegionSeg (pcfgs (F := F)) adm (pdats D0 D1 D2 m outs) () defs₀ 𝒱₀ L lv 2 where
  win := launch2.win.to₀
  block_pos := launch2.block_pos
  stage_whole := launch2.stage_whole
  K := PEmpty
  osem k := k.elim
  ho := Pipeline.OwnSemFacts.none _
  hbody c := (h.hbody (E5 m outs) c).loose
  hwaits := Pipeline.hwaits_of_owed_zero _ _ _ _ L lv 2 fun c t => h.howed (E5 m outs) c t
  pre c := iprop(StableHlo.held (c : Thread nD τ) (Pipeline.ucRefs τ sig) (V5 m outs c) ∗ R c)
  post c := iprop(StableHlo.held (c : Thread nD τ) (Pipeline.ucRefs τ sig) (V6 m outs c) ∗ R c)
  X c := iprop(∃ r, prngReg c r)
  Y c := iprop(∃ r, prngReg c r)
  Z c := Pipeline.unscopedRest (Ix := Unit) (Name := ℕ) (U := UR sig nD τ) (Lvl := ℕ) spec2 c (E5 m outs c)
  hentry c := by
    rw [Pipeline.ownSems0_none]
    have hsplit := Pipeline.arrays_of_unscopedBufs (p := 2) (pcfgs (F := F)) adm (pdats D0 D1 D2 m outs) launch2.win launch2.arr_whole c
      ((pdats D0 D1 D2 m outs 2 c).share_full fun w => h.hq (E5 m outs) c w) (E5 m outs c) fun w => h.hA (E5 m outs) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats D0 D1 D2 m outs 2 c).owed 0 = 0 from h.howed (E5 m outs) c 0]
      icases HO with ⟨%W, HO⟩; iexists W; isplitr
      · ipureintro; intro x _; unfold Pipeline.Dat.bound
        rw [show (pdats D0 D1 D2 m outs 2 c).recorded 0 = Set.univ from h.hrec (E5 m outs) c 0]; exact Or.inl trivial
      iexact HO
    isplitl [Hp]; · iexact Hp
    iexact Hrest
  hin c := by
    have hΦ := h.hin (E5 m outs) c
    rw [show (pdats D0 D1 D2 m outs 2 c).Φ 0 = (D2 (E5 m outs) c).Φ 0 from rfl]
    refine .trans ?_ hΦ
    unfold Pipeline.ΦA
    iintro ⟨Hp, -, Hr⟩
    isplitl [Hr]; · iexact Hr
    iexact Hp
  hout c := by
    have hΦ := h.hout (E5 m outs) c
    rw [Pipeline.ownSems0_none, show (pdats D0 D1 D2 m outs 2 c).Φ (Fin.last _) = (D2 (E5 m outs) c).Φ (Fin.last cfg2.N) from rfl]
    refine hΦ.trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats D0 D1 D2 m outs) ((pdats D0 D1 D2 m outs 2 c).share_full fun w => h.hq (E5 m outs) c w)
      (E5 m outs c) (E6 m outs c) ((pdats D0 D1 D2 m outs 2 c).arrAt · cfg2.N) (hF2 D0 D1 D2 m outs h ho0 ho1 ho2 c) (hrest2 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats D0 D1 D2 m outs 2 c).owed (Fin.last _) = 0 from h.howed (E5 m outs) c _]
    iexact HO

end Cert.KernelIdeal.Hand

end
-- ==== Proof.IdealWhole.lean ====
/-
  The whole program's run from what the three matmul-and-statistics regions' proof data provide. The contents each
  region leaves in its output arrays are chosen stage by stage: after a region, the core's buffers are those before it
  with the region's arrays replaced by what its pipeline leaves (each input as entered, each output its write-backs
  folded); the next host stretch's operations apply to that, and so on. With these contents every region's record is
  entered from and left at the run's boundary contents, and the run's theorem applies.
-/
import proofs.«166235_j274877907496_2_alg».proof.Proof.IdealFrame
import proofs.«166235_j274877907496_2_alg».proof.Proof.IdealSeg0
import proofs.«166235_j274877907496_2_alg».proof.Proof.IdealSeg1
import proofs.«166235_j274877907496_2_alg».proof.Proof.IdealSeg2
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (D0 : Contents F → (c : Dev nD) → Dat τ (Elt F) Unit ℕ (UR sig nD τ) ℕ cfg0 c)
variable (D1 : Contents F → (c : Dev nD) → Dat τ (Elt F) Unit ℕ (UR sig nD τ) ℕ cfg1 c)
variable (D2 : Contents F → (c : Dev nD) → Dat τ (Elt F) Unit ℕ (UR sig nD τ) ℕ cfg2 c)
variable (m : (ℓ : Loc nD τ sig) → Buf (Elt F) ℓ) (ρ : Dev nD → PrngReg)

/-! ## The contents the regions leave, stage by stage -/

/-- After the first region: its arrays at what its pipeline leaves, every other buffer as entered. -/
def o2 (c : Dev nD) : Valuation τ sig (Elt F) :=
  Pipeline.withArrays spec0 c (V1 m c) fun w => (D0 (E1 m) c).arrAt w cfg0.N
def outsA : Outs (F := F) := fun _ r c => o2 D0 m c r
/-- After the second region. -/
def o4 (c : Dev nD) : Valuation τ sig (Elt F) :=
  Pipeline.withArrays spec1 c (V3 m (outsA D0 m) c) fun w => (D1 (E3 m (outsA D0 m)) c).arrAt w cfg1.N
def outsB : Outs (F := F) := fun J r c => if J = 2 then o2 D0 m c r else o4 D0 D1 m c r
/-- After the third region. -/
def o6 (c : Dev nD) : Valuation τ sig (Elt F) :=
  Pipeline.withArrays spec2 c (V5 m (outsB D0 D1 m) c) fun w => (D2 (E5 m (outsB D0 D1 m)) c).arrAt w cfg2.N
def outsC : Outs (F := F) := fun J r c => if J = 2 then o2 D0 m c r else if J = 4 then o4 D0 D1 m c r else o6 D0 D1 D2 m c r
/-- After the normalising region. -/
def o8 (c : Dev nD) : Valuation τ sig (Elt F) :=
  Pipeline.withArrays spec3 c (V7 m (outsC D0 D1 D2 m) c) fun w => (dat3 (E7 m (outsC D0 D1 D2 m)) c).arrAt w cfg3.N
/-- The contents the four regions leave, by the boundary's number. -/
def outsD : Outs (F := F) := fun J r c =>
  if J = 2 then o2 D0 m c r else if J = 4 then o4 D0 D1 m c r else if J = 6 then o6 D0 D1 D2 m c r else o8 D0 D1 D2 m c r

/-! ## Each boundary's contents depend on the chosen exit contents only at the boundaries before it -/

theorem V2_congr (o o' : Outs (F := F)) (h2 : ∀ r c, o 2 r c = o' 2 r c) (c : Dev nD) : V2 m o c = V2 m o' c := by
  simp only [V2, h2]
theorem V3_congr (o o' : Outs (F := F)) (h2 : ∀ r c, o 2 r c = o' 2 r c) (c : Dev nD) : V3 m o c = V3 m o' c :=
  congrArg (StableHlo.after hostOps1) (V2_congr m o o' h2 c)
theorem V4_congr (o o' : Outs (F := F)) (h2 : ∀ r c, o 2 r c = o' 2 r c) (h4 : ∀ r c, o 4 r c = o' 4 r c) (c : Dev nD) : V4 m o c = V4 m o' c := by
  simp only [V4, h4, V3_congr m o o' h2 c]
theorem V5_congr (o o' : Outs (F := F)) (h2 : ∀ r c, o 2 r c = o' 2 r c) (h4 : ∀ r c, o 4 r c = o' 4 r c) (c : Dev nD) : V5 m o c = V5 m o' c :=
  congrArg (StableHlo.after hostOps2) (V4_congr m o o' h2 h4 c)
theorem V6_congr (o o' : Outs (F := F)) (h2 : ∀ r c, o 2 r c = o' 2 r c) (h4 : ∀ r c, o 4 r c = o' 4 r c) (h6 : ∀ r c, o 6 r c = o' 6 r c) (c : Dev nD) : V6 m o c = V6 m o' c := by
  simp only [V6, h6, V5_congr m o o' h2 h4 c]
theorem V7_congr (o o' : Outs (F := F)) (h2 : ∀ r c, o 2 r c = o' 2 r c) (h4 : ∀ r c, o 4 r c = o' 4 r c) (h6 : ∀ r c, o 6 r c = o' 6 r c) (c : Dev nD) : V7 m o c = V7 m o' c :=
  congrArg (StableHlo.after hostOps3) (V6_congr m o o' h2 h4 h6 c)

/-- The chosen contents at each boundary number. -/
theorem outsD_2 (r : Ref sig .tc) (c : Dev nD) : outsD D0 D1 D2 m 2 r c = o2 D0 m c r := by unfold outsD; rw [if_pos rfl]
theorem outsD_4 (r : Ref sig .tc) (c : Dev nD) : outsD D0 D1 D2 m 4 r c = o4 D0 D1 m c r := by
  unfold outsD; rw [if_neg (by decide), if_pos rfl]
theorem outsD_6 (r : Ref sig .tc) (c : Dev nD) : outsD D0 D1 D2 m 6 r c = o6 D0 D1 D2 m c r := by
  unfold outsD; rw [if_neg (by decide), if_neg (by decide), if_pos rfl]
theorem outsD_8 (r : Ref sig .tc) (c : Dev nD) : outsD D0 D1 D2 m 8 r c = o8 D0 D1 D2 m c r := by
  unfold outsD; rw [if_neg (by decide), if_neg (by decide), if_neg (by decide)]
theorem outsB_2 (r : Ref sig .tc) (c : Dev nD) : outsB D0 D1 m 2 r c = o2 D0 m c r := by unfold outsB; rw [if_pos rfl]
theorem outsB_4 (r : Ref sig .tc) (c : Dev nD) : outsB D0 D1 m 4 r c = o4 D0 D1 m c r := by unfold outsB; rw [if_neg (by decide)]
theorem outsC_2 (r : Ref sig .tc) (c : Dev nD) : outsC D0 D1 D2 m 2 r c = o2 D0 m c r := by unfold outsC; rw [if_pos rfl]
theorem outsC_4 (r : Ref sig .tc) (c : Dev nD) : outsC D0 D1 D2 m 4 r c = o4 D0 D1 m c r := by
  unfold outsC; rw [if_neg (by decide), if_pos rfl]
theorem outsC_6 (r : Ref sig .tc) (c : Dev nD) : outsC D0 D1 D2 m 6 r c = o6 D0 D1 D2 m c r := by
  unfold outsC; rw [if_neg (by decide), if_neg (by decide)]

/-- Each region's entry contents under the final choice are those its own stage was defined from. -/
theorem E3_outsD : E3 m (outsD D0 D1 D2 m) = E3 m (outsA D0 m) :=
  funext fun c => funext fun b => congrFun (V3_congr m _ _ (fun r c => (outsD_2 D0 D1 D2 m r c).trans rfl) c) _
theorem E5_outsD : E5 m (outsD D0 D1 D2 m) = E5 m (outsB D0 D1 m) :=
  funext fun c => funext fun b => congrFun (V5_congr m _ _ (fun r c => (outsD_2 D0 D1 D2 m r c).trans (outsB_2 D0 D1 m r c).symm)
    (fun r c => (outsD_4 D0 D1 D2 m r c).trans (outsB_4 D0 D1 m r c).symm) c) _
theorem E7_outsD : E7 m (outsD D0 D1 D2 m) = E7 m (outsC D0 D1 D2 m) :=
  funext fun c => funext fun b => congrFun (V7_congr m _ _ (fun r c => (outsD_2 D0 D1 D2 m r c).trans (outsC_2 D0 D1 D2 m r c).symm)
    (fun r c => (outsD_4 D0 D1 D2 m r c).trans (outsC_4 D0 D1 D2 m r c).symm)
    (fun r c => (outsD_6 D0 D1 D2 m r c).trans (outsC_6 D0 D1 D2 m r c).symm) c) _

/-- Each output array's chosen exit contents are what its region's pipeline leaves. -/
theorem exit0 (w : Fin cfg0.W) (c : Dev nD) : outsD D0 D1 D2 m 2 (Pipeline.arrRef spec0 w) c = (D0 (E1 m) c).arrAt w cfg0.N := by
  rw [outsD_2]; unfold o2; exact Pipeline.withArrays_arr spec0 launch0.win.arr_inj c _ _ w
theorem exit1 (w : Fin cfg1.W) (c : Dev nD) : outsD D0 D1 D2 m 4 (Pipeline.arrRef spec1 w) c = (D1 (E3 m (outsD D0 D1 D2 m)) c).arrAt w cfg1.N := by
  rw [outsD_4, E3_outsD]; unfold o4; exact Pipeline.withArrays_arr spec1 launch1.win.arr_inj c _ _ w
theorem exit2 (w : Fin cfg2.W) (c : Dev nD) : outsD D0 D1 D2 m 6 (Pipeline.arrRef spec2 w) c = (D2 (E5 m (outsD D0 D1 D2 m)) c).arrAt w cfg2.N := by
  rw [outsD_6, E5_outsD]; unfold o6; exact Pipeline.withArrays_arr spec2 launch2.win.arr_inj c _ _ w
theorem exit3 (w : Fin cfg3.W) (c : Dev nD) : outsD D0 D1 D2 m 8 (Pipeline.arrRef spec3 w) c = (dat3 (E7 m (outsD D0 D1 D2 m)) c).arrAt w cfg3.N := by
  rw [outsD_8, E7_outsD]; unfold o8; exact Pipeline.withArrays_arr spec3 launch3.win.arr_inj c _ _ w

set_option backward.isDefEq.respectTransparency.types false in
/-- The program's run from what the three regions' proof data provide. -/
theorem whole_run (h0 : Provides0 D0) (h1 : Provides1 D1) (h2 : Provides2 D2) :
    θ_run defs (onTc (τ := τ) (main (F := F))) ⟨m, fun _ => 0, ρ⟩ (fun r => ∀ c : Dev nD,
      r.2.mem ((c.tc : Thread nD τ).loc main_v30) = outsD D0 D1 D2 m 8 main_v30 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  run_of_regions D0 D1 D2 m ρ (outsD D0 D1 D2 m)
    (reg0 D0 D1 D2 m (outsD D0 D1 D2 m) h0
      (fun c => exit0 D0 D1 D2 m 3 c)
      (fun c => exit0 D0 D1 D2 m 4 c)
      (fun c => exit0 D0 D1 D2 m 5 c))
    (fun _ => .rfl) (fun _ => .rfl)
    (reg1 D0 D1 D2 m (outsD D0 D1 D2 m) h1
      (fun c => exit1 D0 D1 D2 m 7 c)
      (fun c => exit1 D0 D1 D2 m 8 c)
      (fun c => exit1 D0 D1 D2 m 9 c))
    (fun _ => .rfl) (fun _ => .rfl)
    (reg2 D0 D1 D2 m (outsD D0 D1 D2 m) h2
      (fun c => exit2 D0 D1 D2 m 7 c)
      (fun c => exit2 D0 D1 D2 m 8 c)
      (fun c => exit2 D0 D1 D2 m 9 c))
    (fun _ => .rfl) (fun _ => .rfl)
    (fun c => exit3 D0 D1 D2 m 5 c)

end Cert.KernelIdeal.Hand

end
-- ==== Proof.IdealRegion0Shared.lean ====
/-
  The first kernel region of the program: a matrix product with running column statistics. The grid is
  2 column blocks by 32 row blocks (the row block r of a point t is t mod 32, the inner coordinate). Each point
  reads a 512 x 1024 block of x, the 1024 x 1024 block of W of its column block and the matching 1 x 1024 bias
  row (both re-read only when the column block changes, at r = 0), and stores  y = x W^T + b  (operands rounded
  to bf16, accumulated in f32) over the whole 512 x 1024 output block. Two 1 x 1024 rows private to the kernel
  carry, from one point to the next, the running column sums of y and of y * y: zeroed at r = 0, increased by
  this block's column sums at every point, and copied out to the two statistics windows at r = 31, which are left
  untouched (and not written back) at every other point.
  This module: the windows' blocks, the two conditions of the body in closed form, where the statistics
  windows are idle, the carried rows as memrefs, and the entry invariant with those two rows named.
-/
import proofs.«166235_j274877907496_2_alg».proof.Proof.Gen.KernelIdeal.Launch
import proofs.«166235_j274877907496_2_alg».proof.Proof.Gen.KernelIdeal.Points
import proofs.«166235_j274877907496_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not: where it is not
    fetched (W and the bias row at r > 0) the block index has not moved since the point before. One statement
    per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions, in closed form -/

/-- The row block is the first of its column block (r = 0): the body zeroes the two running rows. -/
abbrev firstRow0 (i : grid0.Coords) : Prop := (Scalar.cmpi .ne (Scalar.extui (Scalar.cmpi .eq (BitVec.ofNat 32 (i 1).val) 0#32)) 0#32) = 1#1
theorem hfirstRow0 : ∀ t : Fin cfg0.N, firstRow0 (grid0.coords t) ↔ t.val % 32 = 0 :=
  (by decide +kernel : ∀ t : Fin grid0.N, firstRow0 (grid0.coords t) ↔ t.val % 32 = 0)

/-- The row block is the last of its column block (r = 31): the body copies the two running rows out. -/
abbrev lastRow0 (i : grid0.Coords) : Prop := k0_cond2 i = 1#1
theorem hlastRow0 : ∀ t : Fin cfg0.N, lastRow0 (grid0.coords t) ↔ t.val % 32 = 31 :=
  (by decide +kernel : ∀ t : Fin grid0.N, lastRow0 (grid0.coords t) ↔ t.val % 32 = 31)

/-! ## Where the windows are idle -/

/-- The inputs and y are stored (or read) at every point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last row block the two statistics windows are idle and not written back. -/
theorem idleAt0_4 : ∀ t : Fin cfg0.N, ¬lastRow0 (grid0.coords t) → cfg0.idle 4 (grid0.coords t) = true := by decide +kernel
theorem noFlush0_4 : ∀ t : Fin cfg0.N, ¬lastRow0 (grid0.coords t) → (cfg0.win 4).flush t = false := by decide +kernel
theorem idleAt0_5 : ∀ t : Fin cfg0.N, ¬lastRow0 (grid0.coords t) → cfg0.idle 5 (grid0.coords t) = true := by decide +kernel
theorem noFlush0_5 : ∀ t : Fin cfg0.N, ¬lastRow0 (grid0.coords t) → (cfg0.win 5).flush t = false := by decide +kernel
/-- At the last row block they are stored. -/
theorem liveAt0_4 : ∀ t : Fin cfg0.N, lastRow0 (grid0.coords t) → cfg0.idle 4 (grid0.coords t) = false := by decide +kernel
theorem liveAt0_5 : ∀ t : Fin cfg0.N, lastRow0 (grid0.coords t) → cfg0.idle 5 (grid0.coords t) = false := by decide +kernel

/-! ## The two carried rows -/

/-- The running column sums of y, and of y * y: whole buffers of the kernel's own, passed beside the windows. -/
abbrev sumRow0 : Memref sig .tc .vmem S1x1024 .f32 := Memref.whole cc0_scratch0
abbrev sqRow0 : Memref sig .tc .vmem S1x1024 .f32 := Memref.whole cc0_scratch1

/-- The entry invariant with the two carried rows named as memrefs owned at some contents, the other scoped
    buffers unopened, and the generator register. -/
theorem PhiA0_eq (c : Dev nD) :
    (Pipeline.ΦA spec0 c : sProp 𝕄)
      = iprop(iprop(iprop((∃ d, owns (c : Thread nD τ) sumRow0 fullShare d) ∗ (∃ d, owns (c : Thread nD τ) sqRow0 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [sumRow0, sqRow0, owns_whole]; try rfl

end Cert.KernelIdeal.Hand

end
-- ==== Proof.IdealRegion0Runs.lean ====
/-
  The body of the matrix-product-with-statistics kernel, run on whole staging memrefs, in each of its three
  control cases (by the row block r of the point): r = 0, where the two running rows are zeroed first;
  0 < r < 31, where they continue from what the point before left; r = 31, where after the update they are
  copied out to the two statistics windows. What each case leaves in y's buffer, in the two running rows and
  in the statistics buffers is stated as a function of the three input blocks and of the running rows found.
-/
import proofs.«166235_j274877907496_2_alg».proof.Proof.IdealRegion0Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses, and what it leaves -/

/-- The whole 1 x 1024 row, the whole 512 x 1024 block of x and of y, the whole 1024 x 1024 block of W. -/
abbrev rRow0 : Rect S1x1024 := Rect.unit (s := S1x1024) ![0, 0] S1x1024.size inb_S1x1024_S1x1024_0_0
abbrev rX0 : Rect S512x1024 := Rect.unit (s := S512x1024) ![0, 0] S512x1024.size inb_S512x1024_S512x1024_0_0
abbrev rW0 : Rect S1024x1024 := Rect.unit (s := S1024x1024) ![0, 0] S1024x1024.size inb_S1024x1024_S1024x1024_0_0

/-- y's block: the product of the x block (512 x 1024) with the transposed W block, both rounded to bf16 and
    accumulated in f32, plus the bias row on every row. The body's one whole-block store into y's buffer. -/
def yBlk0 (x0 : Vec F S512x1024 .f32) (x1 : Vec F S1024x1024 .f32) (x2 : Vec F S1x1024 .f32) : Vec F S512x1024 .f32 :=
  View.canon [⟨rX0, k0_pay3 (View.ld x0 rX0) (View.ld x1 rW0) (View.ld x2 rRow0)⟩]

/-- The running column sums after a point: the row found, `s`, plus the column sums of this point's y block. -/
def sumNext0 (x0 : Vec F S512x1024 .f32) (x1 : Vec F S1024x1024 .f32) (x2 s : Vec F S1x1024 .f32) : Vec F S1x1024 .f32 :=
  View.canon [⟨rRow0, k0_pay4 (View.ld x0 rX0) (View.ld x1 rW0) (View.ld x2 rRow0) (View.ld s rRow0)⟩]

/-- The running column sums of squares after a point: the row found plus the column sums of y * y. -/
def sqNext0 (x0 : Vec F S512x1024 .f32) (x1 : Vec F S1024x1024 .f32) (x2 s : Vec F S1x1024 .f32) : Vec F S1x1024 .f32 :=
  View.canon [⟨rRow0, k0_pay5 (View.ld x0 rX0) (View.ld x1 rW0) (View.ld x2 rRow0) (View.ld s rRow0)⟩]

/-- The zero rows the first row block starts the two running rows from. -/
def zeroSum0 : Vec F S1x1024 .f32 := View.canon [⟨rRow0, k0_pay1⟩]
def zeroSq0 : Vec F S1x1024 .f32 := View.canon [⟨rRow0, k0_pay2⟩]

/-- A row stored whole into a statistics buffer: the buffer then reads the row. -/
def copyRow0 (s : Vec F S1x1024 .f32) : Vec F S1x1024 .f32 := View.canon [⟨rRow0, View.ld s rRow0⟩]

/-- One whole store covers its buffer. -/
theorem coverRow0 (p0 : Vec F S1x1024 .f32) (y : S1x1024.Idx) :
    ∃ pc ∈ ([⟨rRow0, p0⟩] : List (View.Piece (Elt F) S1x1024 .f32)), y ∈ pc.1.set :=
  View.cover_of_tiled [⟨rRow0, p0⟩] S1x1024.size (by rfl) y
theorem coverY0 (p0 : Vec F S512x1024 .f32) (y : S512x1024.Idx) :
    ∃ pc ∈ ([⟨rX0, p0⟩] : List (View.Piece (Elt F) S512x1024 .f32)), y ∈ pc.1.set :=
  View.cover_of_tiled [⟨rX0, p0⟩] S512x1024.size (by rfl) y
theorem memRow0 (y : S1x1024.Idx) : y ∈ rRow0.set := by
  obtain ⟨pc, hm, hy⟩ := View.cover_of_tiled (Val := fun _ => Unit) (e := .f32) [⟨rRow0, fun _ => ()⟩] S1x1024.size (by rfl) y
  rw [List.mem_singleton] at hm; subst hm; exact hy

/-! ## The body's triple, case by case -/

set_option maxHeartbeats 1000000 in
/-- A middle row block (0 < r < 31). The inputs' memrefs at `x0 x1 x2`, y's at anything, the two statistics
    buffers at `xi4 xi5` (handed back untouched), the running rows at `s0 s1`: the body leaves y's block and the
    running rows increased by this block's column sums. -/
theorem sound_kernel0_mid (c : Dev nD) (E : Set ℕ) (i : grid0.Coords) (hfirst : ¬firstRow0 i) (hlast : ¬lastRow0 i)
    (arg2 : Memref sig .tc .vmem S512x1024 .f32) (harg2 : arg2.IsWhole) (arg3 : Memref sig .tc .vmem S1024x1024 .f32) (harg3 : arg3.IsWhole)
    (arg4 : Memref sig .tc .vmem S1x1024 .f32) (harg4 : arg4.IsWhole) (arg5 : Memref sig .tc .vmem S512x1024 .f32) (harg5 : arg5.IsWhole)
    (arg6 : Memref sig .tc .vmem S1x1024 .f32) (harg6 : arg6.IsWhole) (arg7 : Memref sig .tc .vmem S1x1024 .f32) (harg7 : arg7.IsWhole)
    (arg8 : Memref sig .tc .vmem S1x1024 .f32) (harg8 : arg8.IsWhole) (arg9 : Memref sig .tc .vmem S1x1024 .f32) (harg9 : arg9.IsWhole)
    (x0 : Vec F S512x1024 .f32) (x1 : Vec F S1024x1024 .f32) (x2 xi4 xi5 s0 s1 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xi4 ∗ owns (c : Thread nD τ) arg7 fullShare xi5
        ∗ owns (c : Thread nD τ) arg8 fullShare s0 ∗ owns (c : Thread nD τ) arg9 fullShare s1
        ∗ (iprop(owns (c : Thread nD τ) arg2 fullShare x0 ∗ owns (c : Thread nD τ) arg3 fullShare x1 ∗ owns (c : Thread nD τ) arg4 fullShare x2
            ∗ owns (c : Thread nD τ) arg5 fullShare (yBlk0 x0 x1 x2) ∗ owns (c : Thread nD τ) arg6 fullShare xi4 ∗ owns (c : Thread nD τ) arg7 fullShare xi5
            ∗ owns (c : Thread nD τ) arg8 fullShare (sumNext0 x0 x1 x2 s0) ∗ owns (c : Thread nD τ) arg9 fullShare (sqNext0 x0 x1 x2 s1)) -∗ K ⟨⟩))
      ⊢ wp frame (wpE (defs₀ (F := F)) Variants.none c none) E (cc0__matmul_stats_kernel i arg2 harg2 arg3 harg3 arg4 harg4 arg5 harg5 arg6 harg6 arg7 harg7 arg8 harg8 arg9 harg9) K := by
  simp only [cc0__matmul_stats_kernel_eq_skeleton]; unfold cc0__matmul_stats_kernel_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f8, %hf8, H8⟩, ⟨%f9, %hf9, H9⟩, Hk⟩
  subst hf0; subst hf1; subst hf2; subst hf4; subst hf5; subst hf8; subst hf9
  sl_exec (disch := first | exact hfirst | exact hlast)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro; exact View.read_writes_eq_canon _ _ _ (coverY0 _)
  isplitl [H4]
  · iexists f4; isplitr; · ipureintro; rfl
    iexact H4
  isplitl [H5]
  · iexists f5; isplitr; · ipureintro; rfl
    iexact H5
  isplitl [H8]
  · iexists _; isplitr
    swap; · iexact H8
    ipureintro; exact View.read_writes_eq_canon _ _ _ (coverRow0 _)
  iexists _; isplitr
  swap; · iexact H9
  ipureintro; exact View.read_writes_eq_canon _ _ _ (coverRow0 _)

set_option maxHeartbeats 1000000 in
/-- The first row block of a column block (r = 0). The running rows at anything: the body zeroes them, then leaves
    y's block and the running rows at this block's column sums over zero. -/
theorem sound_kernel0_first (c : Dev nD) (E : Set ℕ) (i : grid0.Coords) (hfirst : firstRow0 i) (hlast : ¬lastRow0 i)
    (arg2 : Memref sig .tc .vmem S512x1024 .f32) (harg2 : arg2.IsWhole) (arg3 : Memref sig .tc .vmem S1024x1024 .f32) (harg3 : arg3.IsWhole)
    (arg4 : Memref sig .tc .vmem S1x1024 .f32) (harg4 : arg4.IsWhole) (arg5 : Memref sig .tc .vmem S512x1024 .f32) (harg5 : arg5.IsWhole)
    (arg6 : Memref sig .tc .vmem S1x1024 .f32) (harg6 : arg6.IsWhole) (arg7 : Memref sig .tc .vmem S1x1024 .f32) (harg7 : arg7.IsWhole)
    (arg8 : Memref sig .tc .vmem S1x1024 .f32) (harg8 : arg8.IsWhole) (arg9 : Memref sig .tc .vmem S1x1024 .f32) (harg9 : arg9.IsWhole)
    (x0 : Vec F S512x1024 .f32) (x1 : Vec F S1024x1024 .f32) (x2 xi4 xi5 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xi4 ∗ owns (c : Thread nD τ) arg7 fullShare xi5
        ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (yBlk0 x0 x1 x2) ∗ owns (c : Thread nD τ) arg6 fullShare xi4 ∗ owns (c : Thread nD τ) arg7 fullShare xi5
            ∗ owns (c : Thread nD τ) arg8 fullShare (sumNext0 x0 x1 x2 zeroSum0) ∗ owns (c : Thread nD τ) arg9 fullShare (sqNext0 x0 x1 x2 zeroSq0)) -∗ K ⟨⟩))
      ⊢ wp frame (wpE (defs₀ (F := F)) Variants.none c none) E (cc0__matmul_stats_kernel i arg2 harg2 arg3 harg3 arg4 harg4 arg5 harg5 arg6 harg6 arg7 harg7 arg8 harg8 arg9 harg9) K := by
  simp only [cc0__matmul_stats_kernel_eq_skeleton]; unfold cc0__matmul_stats_kernel_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%d8, %f8, -, H8⟩, ⟨%d9, %f9, -, H9⟩, Hk⟩
  subst hf0; subst hf1; subst hf2; subst hf4; subst hf5
  have e8 : arg8.view.readCov [⟨rRow0, k0_pay1 (F := F)⟩] rRow0.toLoadRect = View.ld (zeroSum0 (F := F)) rRow0 :=
    View.readCov_eq_canon_ld _ _ _ (coverRow0 _)
  have e9 : arg9.view.readCov [⟨rRow0, k0_pay2 (F := F)⟩] rRow0.toLoadRect = View.ld (zeroSq0 (F := F)) rRow0 :=
    View.readCov_eq_canon_ld _ _ _ (coverRow0 _)
  sl_exec (disch := first | exact hfirst | exact hlast)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro; exact View.read_writes_eq_canon _ _ _ (coverY0 _)
  isplitl [H4]
  · iexists f4; isplitr; · ipureintro; rfl
    iexact H4
  isplitl [H5]
  · iexists f5; isplitr; · ipureintro; rfl
    iexact H5
  isplitl [H8]
  · iexists _; isplitr
    swap; · iexact H8
    ipureintro
    exact (View.read_writes_of_cover_last arg8.view f8 arg8.view f8 _ _ [] memRow0).trans
      (View.read_writes_eq_canon arg8.view f8 _ (coverRow0 _))
  iexists _; isplitr
  swap; · iexact H9
  ipureintro
  exact (View.read_writes_of_cover_last arg9.view f9 arg9.view f9 _ _ [] memRow0).trans
    (View.read_writes_eq_canon arg9.view f9 _ (coverRow0 _))

set_option maxHeartbeats 1000000 in
/-- The last row block of a column block (r = 31). As a middle one, and then the two statistics buffers (at
    anything before) receive the updated running rows. -/
theorem sound_kernel0_last (c : Dev nD) (E : Set ℕ) (i : grid0.Coords) (hfirst : ¬firstRow0 i) (hlast : lastRow0 i)
    (arg2 : Memref sig .tc .vmem S512x1024 .f32) (harg2 : arg2.IsWhole) (arg3 : Memref sig .tc .vmem S1024x1024 .f32) (harg3 : arg3.IsWhole)
    (arg4 : Memref sig .tc .vmem S1x1024 .f32) (harg4 : arg4.IsWhole) (arg5 : Memref sig .tc .vmem S512x1024 .f32) (harg5 : arg5.IsWhole)
    (arg6 : Memref sig .tc .vmem S1x1024 .f32) (harg6 : arg6.IsWhole) (arg7 : Memref sig .tc .vmem S1x1024 .f32) (harg7 : arg7.IsWhole)
    (arg8 : Memref sig .tc .vmem S1x1024 .f32) (harg8 : arg8.IsWhole) (arg9 : Memref sig .tc .vmem S1x1024 .f32) (harg9 : arg9.IsWhole)
    (x0 : Vec F S512x1024 .f32) (x1 : Vec F S1024x1024 .f32) (x2 s0 s1 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ owns (c : Thread nD τ) arg8 fullShare s0 ∗ owns (c : Thread nD τ) arg9 fullShare s1
        ∗ (iprop(owns (c : Thread nD τ) arg2 fullShare x0 ∗ owns (c : Thread nD τ) arg3 fullShare x1 ∗ owns (c : Thread nD τ) arg4 fullShare x2
            ∗ owns (c : Thread nD τ) arg5 fullShare (yBlk0 x0 x1 x2) ∗ owns (c : Thread nD τ) arg6 fullShare (copyRow0 (sumNext0 x0 x1 x2 s0)) ∗ owns (c : Thread nD τ) arg7 fullShare (copyRow0 (sqNext0 x0 x1 x2 s1))
            ∗ owns (c : Thread nD τ) arg8 fullShare (sumNext0 x0 x1 x2 s0) ∗ owns (c : Thread nD τ) arg9 fullShare (sqNext0 x0 x1 x2 s1)) -∗ K ⟨⟩))
      ⊢ wp frame (wpE (defs₀ (F := F)) Variants.none c none) E (cc0__matmul_stats_kernel i arg2 harg2 arg3 harg3 arg4 harg4 arg5 harg5 arg6 harg6 arg7 harg7 arg8 harg8 arg9 harg9) K := by
  simp only [cc0__matmul_stats_kernel_eq_skeleton]; unfold cc0__matmul_stats_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%f8, %hf8, H8⟩, ⟨%f9, %hf9, H9⟩, Hk⟩
  subst hf0; subst hf1; subst hf2; subst hf8; subst hf9
  have e8 : arg8.view.readCov [⟨rRow0, k0_pay4 (View.ld (arg2.view.read (Elt F) f0) rX0) (View.ld (arg3.view.read (Elt F) f1) rW0) (View.ld (arg4.view.read (Elt F) f2) rRow0) (View.ld (arg8.view.read (Elt F) f8) rRow0)⟩] rRow0.toLoadRect
      = View.ld (sumNext0 (arg2.view.read (Elt F) f0) (arg3.view.read (Elt F) f1) (arg4.view.read (Elt F) f2) (arg8.view.read (Elt F) f8)) rRow0 :=
    View.readCov_eq_canon_ld _ _ _ (coverRow0 _)
  have e9 : arg9.view.readCov [⟨rRow0, k0_pay5 (View.ld (arg2.view.read (Elt F) f0) rX0) (View.ld (arg3.view.read (Elt F) f1) rW0) (View.ld (arg4.view.read (Elt F) f2) rRow0) (View.ld (arg9.view.read (Elt F) f9) rRow0)⟩] rRow0.toLoadRect
      = View.ld (sqNext0 (arg2.view.read (Elt F) f0) (arg3.view.read (Elt F) f1) (arg4.view.read (Elt F) f2) (arg9.view.read (Elt F) f9)) rRow0 :=
    View.readCov_eq_canon_ld _ _ _ (coverRow0 _)
  sl_exec (disch := first | exact hfirst | exact hlast)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro; exact View.read_writes_eq_canon _ _ _ (coverY0 _)
  isplitl [H4]
  · iexists _; isplitr
    swap; · iexact H4
    ipureintro
    exact View.read_writes_eq_canon arg6.view f4 _ (coverRow0 _)
  isplitl [H5]
  · iexists _; isplitr
    swap; · iexact H5
    ipureintro
    exact View.read_writes_eq_canon arg7.view f5 _ (coverRow0 _)
  isplitl [H8]
  · iexists _; isplitr
    swap; · iexact H8
    ipureintro; exact View.read_writes_eq_canon _ _ _ (coverRow0 _)
  iexists _; isplitr
  swap; · iexact H9
  ipureintro; exact View.read_writes_eq_canon _ _ _ (coverRow0 _)

end Cert.KernelIdeal.Hand

end
-- ==== Proof.IdealRegion0.lean ====
/-
  The first kernel region as a pipeline step: what y's buffer, the two statistics buffers and the two running
  rows hold after each point of the 2 x 32 grid (by recursion on the point: the running rows restart from zero
  at the first row block of a column block and otherwise continue from the point before), the invariant that
  carries the two running rows from one point to the next, the pipeline's proof data, the body obligation at
  every point, and the two entailments between the invariant and the region's entry and exit.
  Stated for any contents `V` of the core's buffers at the region's entry.
-/
import proofs.«166235_j274877907496_2_alg».proof.Proof.IdealRegion0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the buffers hold after each point -/

/-- What one point leaves, from its three input blocks and the running rows `s0 s1` it starts from, in order:
    y's buffer, the two statistics buffers (the updated rows copied out; consulted at the last row block only:
    elsewhere those windows are idle), the running sum row, the running sum-of-squares row. -/
def outsOf0 (x0 : Vec F S512x1024 .f32) (x1 : Vec F S1024x1024 .f32) (x2 s0 s1 : Vec F S1x1024 .f32) :
    Vec F S512x1024 .f32 × Vec F S1x1024 .f32 × Vec F S1x1024 .f32 × Vec F S1x1024 .f32 × Vec F S1x1024 .f32 :=
  (yBlk0 x0 x1 x2, copyRow0 (sumNext0 x0 x1 x2 s0), copyRow0 (sqNext0 x0 x1 x2 s1), sumNext0 x0 x1 x2 s0, sqNext0 x0 x1 x2 s1)

/-- THE ACCUMULATION. What the buffers hold after the body at position `n`: at the first row block of a column
    block (n ≡ 0 mod 32) the point's outputs over zeroed running rows, elsewhere over the running rows the point
    before left. -/
def outsAt0 (c : Dev nD) : (n : ℕ) → n < cfg0.N →
    Vec F S512x1024 .f32 × Vec F S1x1024 .f32 × Vec F S1x1024 .f32 × Vec F S1x1024 .f32 × Vec F S1x1024 .f32
  | 0, hn => outsOf0 (iblk0 V c 0 ⟨0, hn⟩) (iblk0 V c 1 ⟨0, hn⟩) (iblk0 V c 2 ⟨0, hn⟩) zeroSum0 zeroSq0
  | n + 1, hn =>
    if (n + 1) % 32 = 0 then
      outsOf0 (iblk0 V c 0 ⟨n + 1, hn⟩) (iblk0 V c 1 ⟨n + 1, hn⟩) (iblk0 V c 2 ⟨n + 1, hn⟩) zeroSum0 zeroSq0
    else
      outsOf0 (iblk0 V c 0 ⟨n + 1, hn⟩) (iblk0 V c 1 ⟨n + 1, hn⟩) (iblk0 V c 2 ⟨n + 1, hn⟩)
        (outsAt0 c n (Nat.lt_of_succ_lt hn)).2.2.2.1 (outsAt0 c n (Nat.lt_of_succ_lt hn)).2.2.2.2

/-- At the first row block of a column block: over zeroed running rows. -/
theorem outsAt0_first (c : Dev nD) (t : Fin cfg0.N) (h0 : t.val % 32 = 0) :
    outsAt0 V c t.val t.isLt = outsOf0 (iblk0 V c 0 t) (iblk0 V c 1 t) (iblk0 V c 2 t) zeroSum0 zeroSq0 := by
  obtain ⟨n, hn⟩ := t
  cases n with
  | zero => exact rfl
  | succ n => exact if_pos h0

/-- At any later row block: over what the point before left in the running rows. -/
theorem outsAt0_later (c : Dev nD) (t : Fin cfg0.N) (h0 : ¬t.val % 32 = 0) :
    outsAt0 V c t.val t.isLt = outsOf0 (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2 := by
  obtain ⟨n, hn⟩ := t
  cases n with
  | zero => exact absurd (Nat.zero_mod _) h0
  | succ n => exact if_neg h0

/-- The same, named by case: a middle row block, and the last one (where the statistics buffers' components
    are the ones written back). -/
theorem outsAt0_mid (c : Dev nD) (t : Fin cfg0.N) (h0 : ¬t.val % 32 = 0) (h1 : ¬t.val % 32 = 31) :
    outsAt0 V c t.val t.isLt = outsOf0 (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2 :=
  outsAt0_later V c t h0
theorem outsAt0_last (c : Dev nD) (t : Fin cfg0.N) (h1 : t.val % 32 = 31) :
    outsAt0 V c t.val t.isLt = outsOf0 (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2 :=
  outsAt0_later V c t (by omega)

/-! ## The invariant -/

/-- The region invariant before position `n`: before the first point, what the launch hands the region (every
    scoped buffer no window stages at anything, the generator register); afterwards the two running rows at what
    the point before left in them, the other scoped buffers unopened, the generator register. -/
def PhiS0 (c : Dev nD) : (n : ℕ) → n ≤ cfg0.N → sProp 𝕄
  | 0, _ => Pipeline.ΦA spec0 c
  | n + 1, hn => iprop(iprop(iprop(owns (c : Thread nD τ) sumRow0 fullShare (outsAt0 V c n hn).2.2.2.1 ∗ owns (c : Thread nD τ) sqRow0 fullShare (outsAt0 V c n hn).2.2.2.2)
      ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) sumRow0 fullShare (outsAt0 V c n hn).2.2.2.1 ∗ owns (c : Thread nD τ) sqRow0 fullShare (outsAt0 V c n hn).2.2.2.2)
      ∗ Pipeline.scopedRestBut (Ix := Unit) (Name := ℕ) (U := UR sig nD τ) (Lvl := ℕ) (Val := Elt F) spec0 c [cc0_scratch0, cc0_scratch1]) ∗ (∃ r, prngReg c r)) := rfl

theorem PhiS0_pos (c : Dev nD) (n : ℕ) (h : n ≤ cfg0.N) (hz : n ≠ 0) :
    PhiS0 V c n h = iprop(iprop(iprop(owns (c : Thread nD τ) sumRow0 fullShare (outsAt0 V c (n - 1) (by omega)).2.2.2.1 ∗ owns (c : Thread nD τ) sqRow0 fullShare (outsAt0 V c (n - 1) (by omega)).2.2.2.2)
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-! ## The pipeline's proof data -/

/-- The arrays as the region finds them; after the body at point `t` each input's buffer at its block, y's and
    the statistics buffers at `outsAt0`'s components; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
    | ⟨5, _⟩ => (outsAt0 V c t.val t.isLt).2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]
theorem after0_5 (c : Dev nD) (t : Fin cfg0.N) : (dat0 V c).after 5 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns: each buffer at what the body leaves, a statistics buffer at what it found wherever
    its window is idle. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 2000000 in
/-- The body at the first row block of a column block. The invariant hands over the two running rows (at anything
    at the very first point, at what the column block before left otherwise: either way they are zeroed) and takes
    them back at this point's contents; the statistics buffers pass through untouched. -/
theorem sound_body0_first (c : Dev nD) (t : Fin cfg0.N) (h0 : t.val % 32 = 0) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [show (dat0 V c).leavesExact 3 t = owns (c : Thread nD τ) (st0_3 t) fullShare ((dat0 V c).after 3 t) from by
    unfold Dat.leavesExact; rw [liveAt0_3 t], after0_3]
  have hf : firstRow0 (grid0.coords t) := (hfirstRow0 t).mpr h0
  have hl : ¬lastRow0 (grid0.coords t) := fun h => by have := (hlastRow0 t).mp h; omega
  rw [Dat.leavesExact_idle (dat0 V c) 4 t (idleAt0_4 t hl) (noFlush0_4 t hl), Dat.leavesExact_idle (dat0 V c) 5 t (idleAt0_5 t hl) (noFlush0_5 t hl)]
  rw [outsAt0_first V c t h0]
  unfold outsOf0; dsimp only
  by_cases hz : t.val = 0
  · rw [PhiS0_castSucc V c t, PhiS0_zero V c _ _ hz, PhiA0_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply (sound_kernel0_first c Set.univ _ hf hl _ _ _ _ _ _ _ _ _ _ _ _ _ _ _ _ (iblk0 V c 0 t) (iblk0 V c 1 t) (iblk0 V c 2 t) ((dat0 V c).before 4 t d4) ((dat0 V c).before 5 t d5) _)
    isplitl [H0]; · iexact H0
    isplitl [H1]; · iexact H1
    isplitl [H2]; · iexact H2
    isplitl [H3]; · iexists _; iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · rw [PhiS0_castSucc V c t, PhiS0_pos V c _ _ hz]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply (sound_kernel0_first c Set.univ _ hf hl _ _ _ _ _ _ _ _ _ _ _ _ _ _ _ _ (iblk0 V c 0 t) (iblk0 V c 1 t) (iblk0 V c 2 t) ((dat0 V c).before 4 t d4) ((dat0 V c).before 5 t d5) _)
    isplitl [H0]; · iexact H0
    isplitl [H1]; · iexact H1
    isplitl [H2]; · iexact H2
    isplitl [H3]; · iexists _; iexact H3
    isplitl [H4]; · iexact H4
    isplitl [H5]; · iexact H5
    isplitl [HS0]; · iexists _; iexact HS0
    isplitl [HS1]; · iexists _; iexact HS1
    iintro ⟨H0, H1, H2, H3, H4, H5, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5

set_option maxHeartbeats 2000000 in
/-- The body at a middle row block: the running rows come in at what the point before left and go back increased. -/
theorem sound_body0_mid (c : Dev nD) (t : Fin cfg0.N) (h0 : ¬t.val % 32 = 0) (h1 : ¬t.val % 32 = 31) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [show (dat0 V c).leavesExact 3 t = owns (c : Thread nD τ) (st0_3 t) fullShare ((dat0 V c).after 3 t) from by
    unfold Dat.leavesExact; rw [liveAt0_3 t], after0_3]
  have hf : ¬firstRow0 (grid0.coords t) := fun h => h0 ((hfirstRow0 t).mp h)
  have hl : ¬lastRow0 (grid0.coords t) := fun h => h1 ((hlastRow0 t).mp h)
  rw [Dat.leavesExact_idle (dat0 V c) 4 t (idleAt0_4 t hl) (noFlush0_4 t hl), Dat.leavesExact_idle (dat0 V c) 5 t (idleAt0_5 t hl) (noFlush0_5 t hl)]
  rw [outsAt0_later V c t h0]
  unfold outsOf0; dsimp only
  have hz : t.val ≠ 0 := fun h => h0 (by rw [h])
  rw [PhiS0_castSucc V c t, PhiS0_pos V c _ _ hz]
  iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
  iapply (sound_kernel0_mid c Set.univ _ hf hl _ _ _ _ _ _ _ _ _ _ _ _ _ _ _ _ (iblk0 V c 0 t) (iblk0 V c 1 t) (iblk0 V c 2 t) ((dat0 V c).before 4 t d4) ((dat0 V c).before 5 t d5) (outsAt0 V c (t.val - 1) (Nat.lt_of_le_of_lt (Nat.sub_le _ _) t.isLt)).2.2.2.1 (outsAt0 V c (t.val - 1) (Nat.lt_of_le_of_lt (Nat.sub_le _ _) t.isLt)).2.2.2.2 _)
  isplitl [H0]; · iexact H0
  isplitl [H1]; · iexact H1
  isplitl [H2]; · iexact H2
  isplitl [H3]; · iexists _; iexact H3
  isplitl [H4]; · iexact H4
  isplitl [H5]; · iexact H5
  isplitl [HS0]; · iexact HS0
  isplitl [HS1]; · iexact HS1
  iintro ⟨H0, H1, H2, H3, H4, H5, HS0, HS1⟩
  isplitl [HS0 HS1 Hrest Hg]
  · isplitl [HS0 HS1 Hrest]
    · isplitl [HS0 HS1]
      · isplitl [HS0]; · iexact HS0
        iexact HS1
      iexact Hrest
    iexact Hg
  isplitl [Ho]; · iexact Ho
  isplitl [H0]; · iexact H0
  isplitl [H1]; · iexact H1
  isplitl [H2]; · iexact H2
  isplitl [H3]; · iexact H3
  isplitl [H4]; · iexists _; iexact H4
  iexists _; iexact H5

set_option maxHeartbeats 2000000 in
/-- The body at the last row block: as a middle one, and the two statistics buffers (now live) receive the rows. -/
theorem sound_body0_last (c : Dev nD) (t : Fin cfg0.N) (h1 : t.val % 32 = 31) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [show (dat0 V c).leavesExact 3 t = owns (c : Thread nD τ) (st0_3 t) fullShare ((dat0 V c).after 3 t) from by
    unfold Dat.leavesExact; rw [liveAt0_3 t], after0_3]
  have h0 : ¬t.val % 32 = 0 := by omega
  have hf : ¬firstRow0 (grid0.coords t) := fun h => h0 ((hfirstRow0 t).mp h)
  have hl : lastRow0 (grid0.coords t) := (hlastRow0 t).mpr h1
  rw [show (dat0 V c).leavesExact 4 t = owns (c : Thread nD τ) (st0_4 t) fullShare ((dat0 V c).after 4 t) from by
    unfold Dat.leavesExact; rw [liveAt0_4 t hl], after0_4]
  rw [show (dat0 V c).leavesExact 5 t = owns (c : Thread nD τ) (st0_5 t) fullShare ((dat0 V c).after 5 t) from by
    unfold Dat.leavesExact; rw [liveAt0_5 t hl], after0_5]
  rw [outsAt0_later V c t h0]
  unfold outsOf0; dsimp only
  have hz : t.val ≠ 0 := fun h => h0 (by rw [h])
  rw [PhiS0_castSucc V c t, PhiS0_pos V c _ _ hz]
  iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
  iapply (sound_kernel0_last c Set.univ _ hf hl _ _ _ _ _ _ _ _ _ _ _ _ _ _ _ _ (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2 _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [HS0]; · iexact HS0
  isplitl [HS1]; · iexact HS1
  iintro ⟨H0, H1, H2, H3, H4, H5, HS0, HS1⟩
  isplitl [HS0 HS1 Hrest Hg]
  · isplitl [HS0 HS1 Hrest]
    · isplitl [HS0 HS1]
      · isplitl [HS0]; · iexact HS0
        iexact HS1
      iexact Hrest
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body at any point: the closed forms of the two conditions say which case the point is in. -/
theorem sound_body0 (c : Dev nD) (t : Fin cfg0.N) :
    bodyPre0 V c t ⊢ wp frame (wpE (defs₀ (F := F)) Variants.none c none) Set.univ (bodyAt0 t) (fun _ => bodyPost0 V c t) := by
  by_cases h0 : t.val % 32 = 0
  · exact sound_body0_first V c t h0
  · by_cases h1 : t.val % 32 = 31
    · exact sound_body0_last V c t h1
    · exact sound_body0_mid V c t h0 h1

/-- The body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's entry and exit -/

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the entry invariant back: what the running rows hold is forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

/-- The same after the last point. -/
theorem hout0 (c : Dev nD) : (dat0 V c).Φ (Fin.last cfg0.N) ⊢ Pipeline.ΦA spec0 c :=
  Phi_out0 V c _ (by rw [Fin.val_last]; have : cfg0.N = 64 := N_0; omega)

end Cert.KernelIdeal.Hand

end
-- ==== Proof.IdealRegion1Shared.lean ====
/-
  The second kernel region of the program: the previous layer's raw output is normalised with its batch
  statistics, multiplied into the next layer, and the new layer's running column statistics are kept. The grid is
  2 column blocks by 32 row blocks (the row block r of a point t is t mod 32, the inner coordinate). Each point
  reads a 512 x 2048 block of the previous raw output, the four feature rows mean, variance, gamma, beta
  (1 x 2048 each, the same block at every point, read in once), the 1024 x 2048 block of W of its column block and
  the matching 1 x 1024 bias row (both re-read only when the column block changes, at r = 0), and stores
    y = ((prev - mean) * rsqrt (variance + eps) * gamma + beta) W^T + b
  (the normalised block and W rounded to bf16, accumulated in f32) over the whole 512 x 1024 output block. Two
  1 x 1024 rows private to the kernel carry, from one point to the next, the running column sums of y and of
  y * y: zeroed at r = 0, increased by this block's column sums at every point, and copied out to the two
  statistics windows at r = 31, which are left untouched (and not written back) at every other point.
  This module: the windows' blocks, the two conditions of the body in closed form, where the statistics
  windows are idle, the carried rows as memrefs, and the entry invariant with those two rows named.
-/
import proofs.«166235_j274877907496_2_alg».proof.Proof.Gen.KernelIdeal.Launch
import proofs.«166235_j274877907496_2_alg».proof.Proof.Gen.KernelIdeal.Points
import proofs.«166235_j274877907496_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not: where it is not
    fetched (the four feature rows after the first point, W and the bias row at r > 0) the block index has not
    moved since the point before. One statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, in closed form -/

/-- The row block is the first of its column block (r = 0): the body zeroes the two running rows. -/
abbrev firstRow1 (i : grid1.Coords) : Prop := (Scalar.cmpi .ne (Scalar.extui (Scalar.cmpi .eq (BitVec.ofNat 32 (i 1).val) 0#32)) 0#32) = 1#1
theorem hfirstRow1 : ∀ t : Fin cfg1.N, firstRow1 (grid1.coords t) ↔ t.val % 32 = 0 :=
  (by decide +kernel : ∀ t : Fin grid1.N, firstRow1 (grid1.coords t) ↔ t.val % 32 = 0)

/-- The row block is the last of its column block (r = 31): the body copies the two running rows out. -/
abbrev lastRow1 (i : grid1.Coords) : Prop := k1_cond2 i = 1#1
theorem hlastRow1 : ∀ t : Fin cfg1.N, lastRow1 (grid1.coords t) ↔ t.val % 32 = 31 :=
  (by decide +kernel : ∀ t : Fin grid1.N, lastRow1 (grid1.coords t) ↔ t.val % 32 = 31)

/-! ## Where the windows are idle -/

/-- The inputs and y are read (or stored) at every point. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
/-- Away from the last row block the two statistics windows are idle and not written back. -/
theorem idleAt1_8 : ∀ t : Fin cfg1.N, ¬lastRow1 (grid1.coords t) → cfg1.idle 8 (grid1.coords t) = true := by decide +kernel
theorem noFlush1_8 : ∀ t : Fin cfg1.N, ¬lastRow1 (grid1.coords t) → (cfg1.win 8).flush t = false := by decide +kernel
theorem idleAt1_9 : ∀ t : Fin cfg1.N, ¬lastRow1 (grid1.coords t) → cfg1.idle 9 (grid1.coords t) = true := by decide +kernel
theorem noFlush1_9 : ∀ t : Fin cfg1.N, ¬lastRow1 (grid1.coords t) → (cfg1.win 9).flush t = false := by decide +kernel
/-- At the last row block they are stored. -/
theorem liveAt1_8 : ∀ t : Fin cfg1.N, lastRow1 (grid1.coords t) → cfg1.idle 8 (grid1.coords t) = false := by decide +kernel
theorem liveAt1_9 : ∀ t : Fin cfg1.N, lastRow1 (grid1.coords t) → cfg1.idle 9 (grid1.coords t) = false := by decide +kernel

/-! ## The two carried rows -/

/-- The running column sums of y, and of y * y: whole buffers of the kernel's own, passed beside the windows. -/
abbrev sumRow1 : Memref sig .tc .vmem S1x1024 .f32 := Memref.whole cc1_scratch0
abbrev sqRow1 : Memref sig .tc .vmem S1x1024 .f32 := Memref.whole cc1_scratch1

/-- The entry invariant with the two carried rows named as memrefs owned at some contents, the other scoped
    buffers unopened, and the generator register. -/
theorem PhiA1_eq (c : Dev nD) :
    (Pipeline.ΦA spec1 c : sProp 𝕄)
      = iprop(iprop(iprop((∃ d, owns (c : Thread nD τ) sumRow1 fullShare d) ∗ (∃ d, owns (c : Thread nD τ) sqRow1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [sumRow1, sqRow1, owns_whole]; try rfl

end Cert.KernelIdeal.Hand

end
-- ==== Proof.IdealRegion1Runs.lean ====
/-
  The body of the normalise-multiply-and-statistics kernel, run on whole staging memrefs, in each of its three
  control cases (by the row block r of the point): r = 0, where the two running rows are zeroed first;
  0 < r < 31, where they continue from what the point before left; r = 31, where after the update they are
  copied out to the two statistics windows. What each case leaves in y's buffer, in the two running rows and
  in the statistics buffers is stated as a function of the seven input blocks and of the running rows found.
-/
import proofs.«166235_j274877907496_2_alg».proof.Proof.IdealRegion1Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses, and what it leaves -/

/-- The whole block of the previous raw output, a whole 1 x 2048 feature row, the whole block of W, a whole
    1 x 1024 row, the whole block of y. -/
abbrev rP1 : Rect S512x2048 := Rect.unit (s := S512x2048) ![0, 0] S512x2048.size inb_S512x2048_S512x2048_0_0
abbrev rR1 : Rect S1x2048 := Rect.unit (s := S1x2048) ![0, 0] S1x2048.size inb_S1x2048_S1x2048_0_0
abbrev rW1 : Rect S1024x2048 := Rect.unit (s := S1024x2048) ![0, 0] S1024x2048.size inb_S1024x2048_S1024x2048_0_0
abbrev rRow1 : Rect S1x1024 := Rect.unit (s := S1x1024) ![0, 0] S1x1024.size inb_S1x1024_S1x1024_0_0
abbrev rY1 : Rect S512x1024 := Rect.unit (s := S512x1024) ![0, 0] S512x1024.size inb_S512x1024_S512x1024_0_0

/-- y's block, from the inputs in the windows' order (previous raw block, mean, variance, gamma, beta, W, bias):
    the previous block normalised feature by feature,  (prev - mean) * rsqrt (variance + eps) * gamma + beta,
    times the transposed W block (both rounded to bf16, accumulated in f32), plus the bias row on every row.
    The body's one whole-block store into y's buffer. -/
def yBlk1 (x0 : Vec F S512x2048 .f32) (x1 x2 x3 x4 : Vec F S1x2048 .f32) (x5 : Vec F S1024x2048 .f32) (x6 : Vec F S1x1024 .f32) : Vec F S512x1024 .f32 :=
  View.canon [⟨rY1, k1_pay5 (View.ld x2 rR1) (View.ld x0 rP1) (View.ld x1 rR1) (View.ld x3 rR1) (View.ld x4 rR1) (View.ld x5 rW1) (View.ld x6 rRow1)⟩]

/-- The running column sums after a point: the row found, `s`, plus the column sums of this point's y block. -/
def sumNext1 (x0 : Vec F S512x2048 .f32) (x1 x2 x3 x4 : Vec F S1x2048 .f32) (x5 : Vec F S1024x2048 .f32) (x6 : Vec F S1x1024 .f32) (s : Vec F S1x1024 .f32) : Vec F S1x1024 .f32 :=
  View.canon [⟨rRow1, k1_pay1 (k1_pay5 (View.ld x2 rR1) (View.ld x0 rP1) (View.ld x1 rR1) (View.ld x3 rR1) (View.ld x4 rR1) (View.ld x5 rW1) (View.ld x6 rRow1)) (View.ld s rRow1)⟩]

/-- The running column sums of squares after a point: the row found plus the column sums of y * y. -/
def sqNext1 (x0 : Vec F S512x2048 .f32) (x1 x2 x3 x4 : Vec F S1x2048 .f32) (x5 : Vec F S1024x2048 .f32) (x6 : Vec F S1x1024 .f32) (s : Vec F S1x1024 .f32) : Vec F S1x1024 .f32 :=
  View.canon [⟨rRow1, k1_pay2 (k1_pay5 (View.ld x2 rR1) (View.ld x0 rP1) (View.ld x1 rR1) (View.ld x3 rR1) (View.ld x4 rR1) (View.ld x5 rW1) (View.ld x6 rRow1)) (View.ld s rRow1)⟩]

/-- The zero rows the first row block starts the two running rows from. -/
def zeroSum1 : Vec F S1x1024 .f32 := View.canon [⟨rRow1, k1_pay3⟩]
def zeroSq1 : Vec F S1x1024 .f32 := View.canon [⟨rRow1, k1_pay4⟩]

/-- A row stored whole into a statistics buffer: the buffer then reads the row. -/
def copyRow1 (s : Vec F S1x1024 .f32) : Vec F S1x1024 .f32 := View.canon [⟨rRow1, View.ld s rRow1⟩]

/-- One whole store covers its buffer. -/
theorem coverRow1 (p0 : Vec F S1x1024 .f32) (y : S1x1024.Idx) :
    ∃ pc ∈ ([⟨rRow1, p0⟩] : List (View.Piece (Elt F) S1x1024 .f32)), y ∈ pc.1.set :=
  View.cover_of_tiled [⟨rRow1, p0⟩] S1x1024.size (by rfl) y
theorem coverY1 (p0 : Vec F S512x1024 .f32) (y : S512x1024.Idx) :
    ∃ pc ∈ ([⟨rY1, p0⟩] : List (View.Piece (Elt F) S512x1024 .f32)), y ∈ pc.1.set :=
  View.cover_of_tiled [⟨rY1, p0⟩] S512x1024.size (by rfl) y
theorem memRow1 (y : S1x1024.Idx) : y ∈ rRow1.set := by
  obtain ⟨pc, hm, hy⟩ := View.cover_of_tiled (Val := fun _ => Unit) (e := .f32) [⟨rRow1, fun _ => ()⟩] S1x1024.size (by rfl) y
  rw [List.mem_singleton] at hm; subst hm; exact hy

/-- A row copied whole reads as the row. -/
theorem copyRow1_eq (s : Vec F S1x1024 .f32) : copyRow1 s = s := by
  funext y
  obtain ⟨x, rfl⟩ := rRow1.exists_idx_of_mem (memRow1 y)
  exact View.canon_cons_emb rRow1 (View.ld s rRow1) [] x

/-! ## The body's triple, case by case -/

set_option maxHeartbeats 1000000 in
/-- A middle row block (0 < r < 31). The inputs' memrefs at `x0 … x6`, y's at anything, the two statistics
    buffers at `xi8 xi9` (handed back untouched), the running rows at `s0 s1`: the body leaves y's block and the
    running rows increased by this block's column sums. -/
theorem sound_kernel1_mid (c : Dev nD) (E : Set ℕ) (i : grid1.Coords) (hfirst : ¬firstRow1 i) (hlast : ¬lastRow1 i)
    (arg2 : Memref sig .tc .vmem S512x2048 .f32) (harg2 : arg2.IsWhole) (arg3 : Memref sig .tc .vmem S1x2048 .f32) (harg3 : arg3.IsWhole)
    (arg4 : Memref sig .tc .vmem S1x2048 .f32) (harg4 : arg4.IsWhole) (arg5 : Memref sig .tc .vmem S1x2048 .f32) (harg5 : arg5.IsWhole)
    (arg6 : Memref sig .tc .vmem S1x2048 .f32) (harg6 : arg6.IsWhole) (arg7 : Memref sig .tc .vmem S1024x2048 .f32) (harg7 : arg7.IsWhole)
    (arg8 : Memref sig .tc .vmem S1x1024 .f32) (harg8 : arg8.IsWhole) (arg9 : Memref sig .tc .vmem S512x1024 .f32) (harg9 : arg9.IsWhole)
    (arg10 : Memref sig .tc .vmem S1x1024 .f32) (harg10 : arg10.IsWhole) (arg11 : Memref sig .tc .vmem S1x1024 .f32) (harg11 : arg11.IsWhole)
    (arg12 : Memref sig .tc .vmem S1x1024 .f32) (harg12 : arg12.IsWhole) (arg13 : Memref sig .tc .vmem S1x1024 .f32) (harg13 : arg13.IsWhole)
    (x0 : Vec F S512x2048 .f32) (x1 x2 x3 x4 : Vec F S1x2048 .f32) (x5 : Vec F S1024x2048 .f32) (x6 : Vec F S1x1024 .f32) (xi8 xi9 s0 s1 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ owns (c : Thread nD τ) arg10 fullShare xi8 ∗ owns (c : Thread nD τ) arg11 fullShare xi9
        ∗ owns (c : Thread nD τ) arg12 fullShare s0 ∗ owns (c : Thread nD τ) arg13 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (yBlk1 x0 x1 x2 x3 x4 x5 x6) ∗ owns (c : Thread nD τ) arg10 fullShare xi8 ∗ owns (c : Thread nD τ) arg11 fullShare xi9
            ∗ owns (c : Thread nD τ) arg12 fullShare (sumNext1 x0 x1 x2 x3 x4 x5 x6 s0) ∗ owns (c : Thread nD τ) arg13 fullShare (sqNext1 x0 x1 x2 x3 x4 x5 x6 s1)) -∗ K ⟨⟩))
      ⊢ wp frame (wpE (defs₀ (F := F)) Variants.none c none) E (cc1__fused_norm_matmul_stats_kernel i arg2 harg2 arg3 harg3 arg4 harg4 arg5 harg5 arg6 harg6 arg7 harg7 arg8 harg8 arg9 harg9 arg10 harg10 arg11 harg11 arg12 harg12 arg13 harg13) K := by
  simp only [cc1__fused_norm_matmul_stats_kernel_eq_skeleton]; unfold cc1__fused_norm_matmul_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%fs0, %hfs0, HS0⟩, ⟨%fs1, %hfs1, HS1⟩, Hk⟩
  subst hf0; subst hf1; subst hf2; subst hf3; subst hf4; subst hf5; subst hf6; subst hf8; subst hf9; subst hfs0; subst hfs1
  sl_exec (disch := first | exact hfirst | exact hlast)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro; exact View.read_writes_eq_canon _ _ _ (coverY1 _)
  isplitl [H8]
  · iexists f8; isplitr; · ipureintro; rfl
    iexact H8
  isplitl [H9]
  · iexists f9; isplitr; · ipureintro; rfl
    iexact H9
  isplitl [HS0]
  · iexists _; isplitr
    swap; · iexact HS0
    ipureintro; exact View.read_writes_eq_canon _ _ _ (coverRow1 _)
  iexists _; isplitr
  swap; · iexact HS1
  ipureintro; exact View.read_writes_eq_canon _ _ _ (coverRow1 _)

set_option maxHeartbeats 1000000 in
/-- The first row block of a column block (r = 0). The running rows at anything: the body zeroes them, then leaves
    y's block and the running rows at this block's column sums over zero. -/
theorem sound_kernel1_first (c : Dev nD) (E : Set ℕ) (i : grid1.Coords) (hfirst : firstRow1 i) (hlast : ¬lastRow1 i)
    (arg2 : Memref sig .tc .vmem S512x2048 .f32) (harg2 : arg2.IsWhole) (arg3 : Memref sig .tc .vmem S1x2048 .f32) (harg3 : arg3.IsWhole)
    (arg4 : Memref sig .tc .vmem S1x2048 .f32) (harg4 : arg4.IsWhole) (arg5 : Memref sig .tc .vmem S1x2048 .f32) (harg5 : arg5.IsWhole)
    (arg6 : Memref sig .tc .vmem S1x2048 .f32) (harg6 : arg6.IsWhole) (arg7 : Memref sig .tc .vmem S1024x2048 .f32) (harg7 : arg7.IsWhole)
    (arg8 : Memref sig .tc .vmem S1x1024 .f32) (harg8 : arg8.IsWhole) (arg9 : Memref sig .tc .vmem S512x1024 .f32) (harg9 : arg9.IsWhole)
    (arg10 : Memref sig .tc .vmem S1x1024 .f32) (harg10 : arg10.IsWhole) (arg11 : Memref sig .tc .vmem S1x1024 .f32) (harg11 : arg11.IsWhole)
    (arg12 : Memref sig .tc .vmem S1x1024 .f32) (harg12 : arg12.IsWhole) (arg13 : Memref sig .tc .vmem S1x1024 .f32) (harg13 : arg13.IsWhole)
    (x0 : Vec F S512x2048 .f32) (x1 x2 x3 x4 : Vec F S1x2048 .f32) (x5 : Vec F S1024x2048 .f32) (x6 : Vec F S1x1024 .f32) (xi8 xi9 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ owns (c : Thread nD τ) arg10 fullShare xi8 ∗ owns (c : Thread nD τ) arg11 fullShare xi9
        ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (yBlk1 x0 x1 x2 x3 x4 x5 x6) ∗ owns (c : Thread nD τ) arg10 fullShare xi8 ∗ owns (c : Thread nD τ) arg11 fullShare xi9
            ∗ owns (c : Thread nD τ) arg12 fullShare (sumNext1 x0 x1 x2 x3 x4 x5 x6 zeroSum1) ∗ owns (c : Thread nD τ) arg13 fullShare (sqNext1 x0 x1 x2 x3 x4 x5 x6 zeroSq1)) -∗ K ⟨⟩))
      ⊢ wp frame (wpE (defs₀ (F := F)) Variants.none c none) E (cc1__fused_norm_matmul_stats_kernel i arg2 harg2 arg3 harg3 arg4 harg4 arg5 harg5 arg6 harg6 arg7 harg7 arg8 harg8 arg9 harg9 arg10 harg10 arg11 harg11 arg12 harg12 arg13 harg13) K := by
  simp only [cc1__fused_norm_matmul_stats_kernel_eq_skeleton]; unfold cc1__fused_norm_matmul_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%ds0, %fs0, -, HS0⟩, ⟨%ds1, %fs1, -, HS1⟩, Hk⟩
  subst hf0; subst hf1; subst hf2; subst hf3; subst hf4; subst hf5; subst hf6; subst hf8; subst hf9
  have e12 : arg12.view.readCov [⟨rRow1, k1_pay3 (F := F)⟩] rRow1.toLoadRect = View.ld (zeroSum1 (F := F)) rRow1 :=
    View.readCov_eq_canon_ld _ _ _ (coverRow1 _)
  have e13 : arg13.view.readCov [⟨rRow1, k1_pay4 (F := F)⟩] rRow1.toLoadRect = View.ld (zeroSq1 (F := F)) rRow1 :=
    View.readCov_eq_canon_ld _ _ _ (coverRow1 _)
  sl_exec (disch := first | exact hfirst | exact hlast)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro; exact View.read_writes_eq_canon _ _ _ (coverY1 _)
  isplitl [H8]
  · iexists f8; isplitr; · ipureintro; rfl
    iexact H8
  isplitl [H9]
  · iexists f9; isplitr; · ipureintro; rfl
    iexact H9
  isplitl [HS0]
  · iexists _; isplitr
    swap; · iexact HS0
    ipureintro
    exact (View.read_writes_of_cover_last arg12.view fs0 arg12.view fs0 _ _ [] memRow1).trans
      (View.read_writes_eq_canon arg12.view fs0 _ (coverRow1 _))
  iexists _; isplitr
  swap; · iexact HS1
  ipureintro
  exact (View.read_writes_of_cover_last arg13.view fs1 arg13.view fs1 _ _ [] memRow1).trans
    (View.read_writes_eq_canon arg13.view fs1 _ (coverRow1 _))

set_option maxHeartbeats 1000000 in
/-- The last row block of a column block (r = 31). As a middle one, and then the two statistics buffers (at
    anything before) receive the updated running rows. -/
theorem sound_kernel1_last (c : Dev nD) (E : Set ℕ) (i : grid1.Coords) (hfirst : ¬firstRow1 i) (hlast : lastRow1 i)
    (arg2 : Memref sig .tc .vmem S512x2048 .f32) (harg2 : arg2.IsWhole) (arg3 : Memref sig .tc .vmem S1x2048 .f32) (harg3 : arg3.IsWhole)
    (arg4 : Memref sig .tc .vmem S1x2048 .f32) (harg4 : arg4.IsWhole) (arg5 : Memref sig .tc .vmem S1x2048 .f32) (harg5 : arg5.IsWhole)
    (arg6 : Memref sig .tc .vmem S1x2048 .f32) (harg6 : arg6.IsWhole) (arg7 : Memref sig .tc .vmem S1024x2048 .f32) (harg7 : arg7.IsWhole)
    (arg8 : Memref sig .tc .vmem S1x1024 .f32) (harg8 : arg8.IsWhole) (arg9 : Memref sig .tc .vmem S512x1024 .f32) (harg9 : arg9.IsWhole)
    (arg10 : Memref sig .tc .vmem S1x1024 .f32) (harg10 : arg10.IsWhole) (arg11 : Memref sig .tc .vmem S1x1024 .f32) (harg11 : arg11.IsWhole)
    (arg12 : Memref sig .tc .vmem S1x1024 .f32) (harg12 : arg12.IsWhole) (arg13 : Memref sig .tc .vmem S1x1024 .f32) (harg13 : arg13.IsWhole)
    (x0 : Vec F S512x2048 .f32) (x1 x2 x3 x4 : Vec F S1x2048 .f32) (x5 : Vec F S1024x2048 .f32) (x6 : Vec F S1x1024 .f32) (s0 s1 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ (∃ d, owns (c : Thread nD τ) arg10 fullShare d) ∗ (∃ d, owns (c : Thread nD τ) arg11 fullShare d)
        ∗ owns (c : Thread nD τ) arg12 fullShare s0 ∗ owns (c : Thread nD τ) arg13 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (yBlk1 x0 x1 x2 x3 x4 x5 x6) ∗ owns (c : Thread nD τ) arg10 fullShare (copyRow1 (sumNext1 x0 x1 x2 x3 x4 x5 x6 s0)) ∗ owns (c : Thread nD τ) arg11 fullShare (copyRow1 (sqNext1 x0 x1 x2 x3 x4 x5 x6 s1))
            ∗ owns (c : Thread nD τ) arg12 fullShare (sumNext1 x0 x1 x2 x3 x4 x5 x6 s0) ∗ owns (c : Thread nD τ) arg13 fullShare (sqNext1 x0 x1 x2 x3 x4 x5 x6 s1)) -∗ K ⟨⟩))
      ⊢ wp frame (wpE (defs₀ (F := F)) Variants.none c none) E (cc1__fused_norm_matmul_stats_kernel i arg2 harg2 arg3 harg3 arg4 harg4 arg5 harg5 arg6 harg6 arg7 harg7 arg8 harg8 arg9 harg9 arg10 harg10 arg11 harg11 arg12 harg12 arg13 harg13) K := by
  simp only [cc1__fused_norm_matmul_stats_kernel_eq_skeleton]; unfold cc1__fused_norm_matmul_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs0, %hfs0, HS0⟩, ⟨%fs1, %hfs1, HS1⟩, Hk⟩
  subst hf0; subst hf1; subst hf2; subst hf3; subst hf4; subst hf5; subst hf6; subst hfs0; subst hfs1
  have e12 : arg12.view.readCov [⟨rRow1, k1_pay1 (k1_pay5 (View.ld (arg4.view.read (Elt F) f2) rR1) (View.ld (arg2.view.read (Elt F) f0) rP1) (View.ld (arg3.view.read (Elt F) f1) rR1) (View.ld (arg5.view.read (Elt F) f3) rR1) (View.ld (arg6.view.read (Elt F) f4) rR1) (View.ld (arg7.view.read (Elt F) f5) rW1) (View.ld (arg8.view.read (Elt F) f6) rRow1)) (View.ld (arg12.view.read (Elt F) fs0) rRow1)⟩] rRow1.toLoadRect
      = View.ld (sumNext1 (arg2.view.read (Elt F) f0) (arg3.view.read (Elt F) f1) (arg4.view.read (Elt F) f2) (arg5.view.read (Elt F) f3) (arg6.view.read (Elt F) f4) (arg7.view.read (Elt F) f5) (arg8.view.read (Elt F) f6) (arg12.view.read (Elt F) fs0)) rRow1 :=
    View.readCov_eq_canon_ld _ _ _ (coverRow1 _)
  have e13 : arg13.view.readCov [⟨rRow1, k1_pay2 (k1_pay5 (View.ld (arg4.view.read (Elt F) f2) rR1) (View.ld (arg2.view.read (Elt F) f0) rP1) (View.ld (arg3.view.read (Elt F) f1) rR1) (View.ld (arg5.view.read (Elt F) f3) rR1) (View.ld (arg6.view.read (Elt F) f4) rR1) (View.ld (arg7.view.read (Elt F) f5) rW1) (View.ld (arg8.view.read (Elt F) f6) rRow1)) (View.ld (arg13.view.read (Elt F) fs1) rRow1)⟩] rRow1.toLoadRect
      = View.ld (sqNext1 (arg2.view.read (Elt F) f0) (arg3.view.read (Elt F) f1) (arg4.view.read (Elt F) f2) (arg5.view.read (Elt F) f3) (arg6.view.read (Elt F) f4) (arg7.view.read (Elt F) f5) (arg8.view.read (Elt F) f6) (arg13.view.read (Elt F) fs1)) rRow1 :=
    View.readCov_eq_canon_ld _ _ _ (coverRow1 _)
  sl_exec (disch := first | exact hfirst | exact hlast)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro; exact View.read_writes_eq_canon _ _ _ (coverY1 _)
  isplitl [H8]
  · iexists _; isplitr
    swap; · iexact H8
    ipureintro; exact View.read_writes_eq_canon _ _ _ (coverRow1 _)
  isplitl [H9]
  · iexists _; isplitr
    swap; · iexact H9
    ipureintro; exact View.read_writes_eq_canon _ _ _ (coverRow1 _)
  isplitl [HS0]
  · iexists _; isplitr
    swap; · iexact HS0
    ipureintro; exact View.read_writes_eq_canon _ _ _ (coverRow1 _)
  iexists _; isplitr
  swap; · iexact HS1
  ipureintro; exact View.read_writes_eq_canon _ _ _ (coverRow1 _)

end Cert.KernelIdeal.Hand

end
-- ==== Proof.IdealRegion1.lean ====
/-
  The second kernel region as a pipeline step: what y's buffer, the two statistics buffers and the two running
  rows hold after each point of the 2 x 32 grid (by recursion on the point: the running rows restart from zero
  at the first row block of a column block and otherwise continue from the point before), the invariant that
  carries the two running rows from one point to the next, the pipeline's proof data, the body obligation at
  every point, and the two entailments between the invariant and the region's entry and exit.
  Stated for any contents `V` of the core's buffers at the region's entry.
-/
import proofs.«166235_j274877907496_2_alg».proof.Proof.IdealRegion1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the buffers hold after each point -/

/-- What one point leaves, from its seven input blocks and the running rows `s0 s1` it starts from, in order:
    y's buffer, the two statistics buffers (the updated rows copied out; consulted at the last row block only:
    elsewhere those windows are idle), the running sum row, the running sum-of-squares row. -/
def outsOf1 (x0 : Vec F S512x2048 .f32) (x1 x2 x3 x4 : Vec F S1x2048 .f32) (x5 : Vec F S1024x2048 .f32) (x6 : Vec F S1x1024 .f32) (s0 s1 : Vec F S1x1024 .f32) :
    Vec F S512x1024 .f32 × Vec F S1x1024 .f32 × Vec F S1x1024 .f32 × Vec F S1x1024 .f32 × Vec F S1x1024 .f32 :=
  (yBlk1 x0 x1 x2 x3 x4 x5 x6, copyRow1 (sumNext1 x0 x1 x2 x3 x4 x5 x6 s0), copyRow1 (sqNext1 x0 x1 x2 x3 x4 x5 x6 s1), sumNext1 x0 x1 x2 x3 x4 x5 x6 s0, sqNext1 x0 x1 x2 x3 x4 x5 x6 s1)

/-- THE ACCUMULATION. What the buffers hold after the body at position `n`: at the first row block of a column
    block (n ≡ 0 mod 32) the point's outputs over zeroed running rows, elsewhere over the running rows the point
    before left. -/
def outsAt1 (c : Dev nD) : (n : ℕ) → n < cfg1.N →
    Vec F S512x1024 .f32 × Vec F S1x1024 .f32 × Vec F S1x1024 .f32 × Vec F S1x1024 .f32 × Vec F S1x1024 .f32
  | 0, hn => outsOf1 (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) zeroSum1 zeroSq1
  | n + 1, hn =>
    if (n + 1) % 32 = 0 then
      outsOf1 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) zeroSum1 zeroSq1
    else
      outsOf1 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩)
        (outsAt1 c n (Nat.lt_of_succ_lt hn)).2.2.2.1 (outsAt1 c n (Nat.lt_of_succ_lt hn)).2.2.2.2

/-- At the first row block of a column block: over zeroed running rows. -/
theorem outsAt1_first (c : Dev nD) (t : Fin cfg1.N) (h0 : t.val % 32 = 0) :
    outsAt1 V c t.val t.isLt = outsOf1 (iblk1 V c 0 t) (iblk1 V c 1 t) (iblk1 V c 2 t) (iblk1 V c 3 t) (iblk1 V c 4 t) (iblk1 V c 5 t) (iblk1 V c 6 t) zeroSum1 zeroSq1 := by
  obtain ⟨n, hn⟩ := t
  cases n with
  | zero => exact rfl
  | succ n => exact if_pos h0

/-- At any later row block: over what the point before left in the running rows. -/
theorem outsAt1_later (c : Dev nD) (t : Fin cfg1.N) (h0 : ¬t.val % 32 = 0) :
    outsAt1 V c t.val t.isLt = outsOf1 (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.2.1 (outsAt1 V c (t.val - 1) (Nat.lt_of_le_of_lt (Nat.sub_le _ _) t.isLt)).2.2.2.2 := by
  obtain ⟨n, hn⟩ := t
  cases n with
  | zero => exact absurd (Nat.zero_mod _) h0
  | succ n => exact if_neg h0

/-- The same, named by case: a middle row block, and the last one (where the statistics buffers' components
    are the ones written back). -/
theorem outsAt1_mid (c : Dev nD) (t : Fin cfg1.N) (h0 : ¬t.val % 32 = 0) (h1 : ¬t.val % 32 = 31) :
    outsAt1 V c t.val t.isLt = outsOf1 (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.2.1 (outsAt1 V c (t.val - 1) (Nat.lt_of_le_of_lt (Nat.sub_le _ _) t.isLt)).2.2.2.2 :=
  outsAt1_later V c t h0
theorem outsAt1_last (c : Dev nD) (t : Fin cfg1.N) (h1 : t.val % 32 = 31) :
    outsAt1 V c t.val t.isLt = outsOf1 (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.2.1 (outsAt1 V c (t.val - 1) (Nat.lt_of_le_of_lt (Nat.sub_le _ _) t.isLt)).2.2.2.2 :=
  outsAt1_later V c t (by omega)

/-! ## The invariant -/

/-- The region invariant before position `n`: before the first point, what the launch hands the region (every
    scoped buffer no window stages at anything, the generator register); afterwards the two running rows at what
    the point before left in them, the other scoped buffers unopened, the generator register. -/
def PhiS1 (c : Dev nD) : (n : ℕ) → n ≤ cfg1.N → sProp 𝕄
  | 0, _ => Pipeline.ΦA spec1 c
  | n + 1, hn => iprop(iprop(iprop(owns (c : Thread nD τ) sumRow1 fullShare (outsAt1 V c n hn).2.2.2.1 ∗ owns (c : Thread nD τ) sqRow1 fullShare (outsAt1 V c n hn).2.2.2.2)
      ∗ Pipeline.scopedRestBut (Ix := Unit) (Name := ℕ) (U := UR sig nD τ) (Lvl := ℕ) (Val := Elt F) spec1 c [cc1_scratch0, cc1_scratch1]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) sumRow1 fullShare (outsAt1 V c n hn).2.2.2.1 ∗ owns (c : Thread nD τ) sqRow1 fullShare (outsAt1 V c n hn).2.2.2.2)
      ∗ Pipeline.scopedRestBut (Ix := Unit) (Name := ℕ) (U := UR sig nD τ) (Lvl := ℕ) (Val := Elt F) spec1 c [cc1_scratch0, cc1_scratch1]) ∗ (∃ r, prngReg c r)) := rfl

theorem PhiS1_pos (c : Dev nD) (n : ℕ) (h : n ≤ cfg1.N) (hz : n ≠ 0) :
    PhiS1 V c n h = iprop(iprop(iprop(owns (c : Thread nD τ) sumRow1 fullShare (outsAt1 V c (n - 1) (by omega)).2.2.2.1 ∗ owns (c : Thread nD τ) sqRow1 fullShare (outsAt1 V c (n - 1) (by omega)).2.2.2.2)
      ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

/-! ## The pipeline's proof data -/

/-- The arrays as the region finds them; after the body at point `t` each input's buffer at its block, y's and
    the statistics buffers at `outsAt1`'s components; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
    | ⟨8, _⟩ => (outsAt1 V c t.val t.isLt).2.1
    | ⟨9, _⟩ => (outsAt1 V c t.val t.isLt).2.2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]
theorem after1_8 (c : Dev nD) (t : Fin cfg1.N) : (dat1 V c).after 8 t = (outsAt1 V c t.val t.isLt).2.1 := by dsimp only [dat1]
theorem after1_9 (c : Dev nD) (t : Fin cfg1.N) : (dat1 V c).after 9 t = (outsAt1 V c t.val t.isLt).2.2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns: each buffer at what the body leaves, a statistics buffer at what it found wherever
    its window is idle. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t)

set_option maxHeartbeats 2000000 in
/-- The body at the first row block of a column block. The invariant hands over the two running rows (at anything
    at the very first point, at what the column block before left otherwise: either way they are zeroed) and takes
    them back at this point's contents; the statistics buffers pass through untouched. -/
theorem sound_body1_first (c : Dev nD) (t : Fin cfg1.N) (h0 : t.val % 32 = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  rw [show (dat1 V c).leavesExact 5 t = owns (c : Thread nD τ) (st1_5 t) fullShare ((dat1 V c).after 5 t) from by
    unfold Dat.leavesExact; rw [liveAt1_5 t], after1_5]
  rw [show (dat1 V c).leavesExact 6 t = owns (c : Thread nD τ) (st1_6 t) fullShare ((dat1 V c).after 6 t) from by
    unfold Dat.leavesExact; rw [liveAt1_6 t], after1_6]
  rw [show (dat1 V c).leavesExact 7 t = owns (c : Thread nD τ) (st1_7 t) fullShare ((dat1 V c).after 7 t) from by
    unfold Dat.leavesExact; rw [liveAt1_7 t], after1_7]
  have hf : firstRow1 (grid1.coords t) := (hfirstRow1 t).mpr h0
  have hl : ¬lastRow1 (grid1.coords t) := fun h => by have := (hlastRow1 t).mp h; omega
  rw [Dat.leavesExact_idle (dat1 V c) 8 t (idleAt1_8 t hl) (noFlush1_8 t hl), Dat.leavesExact_idle (dat1 V c) 9 t (idleAt1_9 t hl) (noFlush1_9 t hl)]
  rw [outsAt1_first V c t h0]
  unfold outsOf1; dsimp only
  by_cases hz : t.val = 0
  · rw [PhiS1_castSucc V c t, PhiS1_zero V c _ _ hz, PhiA1_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel1_first c Set.univ _ hf hl _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) ((dat1 V c).before 8 t d8) ((dat1 V c).before 9 t d9) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [HS0]; · iexact HS0
    isplitl [HS1]; · iexact HS1
    iintro ⟨H0, H1, H2, H3, H4, H5, H6, H7, H8, H9, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iexists _; iexact H9
  · rw [PhiS1_castSucc V c t, PhiS1_pos V c _ _ hz]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel1_first c Set.univ _ hf hl _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) ((dat1 V c).before 8 t d8) ((dat1 V c).before 9 t d9) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [HS0]; · iexists _; iexact HS0
    isplitl [HS1]; · iexists _; iexact HS1
    iintro ⟨H0, H1, H2, H3, H4, H5, H6, H7, H8, H9, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iexists _; iexact H9

set_option maxHeartbeats 2000000 in
/-- The body at a middle row block: the running rows come in at what the point before left and go back increased. -/
theorem sound_body1_mid (c : Dev nD) (t : Fin cfg1.N) (h0 : ¬t.val % 32 = 0) (h1 : ¬t.val % 32 = 31) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  rw [show (dat1 V c).leavesExact 5 t = owns (c : Thread nD τ) (st1_5 t) fullShare ((dat1 V c).after 5 t) from by
    unfold Dat.leavesExact; rw [liveAt1_5 t], after1_5]
  rw [show (dat1 V c).leavesExact 6 t = owns (c : Thread nD τ) (st1_6 t) fullShare ((dat1 V c).after 6 t) from by
    unfold Dat.leavesExact; rw [liveAt1_6 t], after1_6]
  rw [show (dat1 V c).leavesExact 7 t = owns (c : Thread nD τ) (st1_7 t) fullShare ((dat1 V c).after 7 t) from by
    unfold Dat.leavesExact; rw [liveAt1_7 t], after1_7]
  have hf : ¬firstRow1 (grid1.coords t) := fun h => h0 ((hfirstRow1 t).mp h)
  have hl : ¬lastRow1 (grid1.coords t) := fun h => h1 ((hlastRow1 t).mp h)
  rw [Dat.leavesExact_idle (dat1 V c) 8 t (idleAt1_8 t hl) (noFlush1_8 t hl), Dat.leavesExact_idle (dat1 V c) 9 t (idleAt1_9 t hl) (noFlush1_9 t hl)]
  rw [outsAt1_later V c t h0]
  unfold outsOf1; dsimp only
  have hz : t.val ≠ 0 := fun h => h0 (by rw [h])
  rw [PhiS1_castSucc V c t, PhiS1_pos V c _ _ hz]
  iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1_mid c Set.univ _ hf hl _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) ((dat1 V c).before 8 t d8) ((dat1 V c).before 9 t d9) (outsAt1 V c (t.val - 1) (Nat.lt_of_le_of_lt (Nat.sub_le _ _) t.isLt)).2.2.2.1 (outsAt1 V c (t.val - 1) (Nat.lt_of_le_of_lt (Nat.sub_le _ _) t.isLt)).2.2.2.2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexact H9
  isplitl [HS0]; · iexact HS0
  isplitl [HS1]; · iexact HS1
  iintro ⟨H0, H1, H2, H3, H4, H5, H6, H7, H8, H9, HS0, HS1⟩
  isplitl [HS0 HS1 Hrest Hg]
  · isplitl [HS0 HS1 Hrest]
    · isplitl [HS0 HS1]
      · isplitl [HS0]; · iexact HS0
        iexact HS1
      iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iexists _; iexact H9

set_option maxHeartbeats 2000000 in
/-- The body at the last row block: as a middle one, and the two statistics buffers (now live) receive the rows. -/
theorem sound_body1_last (c : Dev nD) (t : Fin cfg1.N) (h1 : t.val % 32 = 31) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  rw [show (dat1 V c).leavesExact 5 t = owns (c : Thread nD τ) (st1_5 t) fullShare ((dat1 V c).after 5 t) from by
    unfold Dat.leavesExact; rw [liveAt1_5 t], after1_5]
  rw [show (dat1 V c).leavesExact 6 t = owns (c : Thread nD τ) (st1_6 t) fullShare ((dat1 V c).after 6 t) from by
    unfold Dat.leavesExact; rw [liveAt1_6 t], after1_6]
  rw [show (dat1 V c).leavesExact 7 t = owns (c : Thread nD τ) (st1_7 t) fullShare ((dat1 V c).after 7 t) from by
    unfold Dat.leavesExact; rw [liveAt1_7 t], after1_7]
  have h0 : ¬t.val % 32 = 0 := by omega
  have hf : ¬firstRow1 (grid1.coords t) := fun h => h0 ((hfirstRow1 t).mp h)
  have hl : lastRow1 (grid1.coords t) := (hlastRow1 t).mpr h1
  rw [show (dat1 V c).leavesExact 8 t = owns (c : Thread nD τ) (st1_8 t) fullShare ((dat1 V c).after 8 t) from by
    unfold Dat.leavesExact; rw [liveAt1_8 t hl], after1_8]
  rw [show (dat1 V c).leavesExact 9 t = owns (c : Thread nD τ) (st1_9 t) fullShare ((dat1 V c).after 9 t) from by
    unfold Dat.leavesExact; rw [liveAt1_9 t hl], after1_9]
  rw [outsAt1_later V c t h0]
  unfold outsOf1; dsimp only
  have hz : t.val ≠ 0 := fun h => h0 (by rw [h])
  rw [PhiS1_castSucc V c t, PhiS1_pos V c _ _ hz]
  iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1_last c Set.univ _ hf hl _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.2.1 (outsAt1 V c (t.val - 1) (Nat.lt_of_le_of_lt (Nat.sub_le _ _) t.isLt)).2.2.2.2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [HS0]; · iexact HS0
  isplitl [HS1]; · iexact HS1
  iintro ⟨H0, H1, H2, H3, H4, H5, H6, H7, H8, H9, HS0, HS1⟩
  isplitl [HS0 HS1 Hrest Hg]
  · isplitl [HS0 HS1 Hrest]
    · isplitl [HS0 HS1]
      · isplitl [HS0]; · iexact HS0
        iexact HS1
      iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body at any point: the closed forms of the two conditions say which case the point is in. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 32 = 0
  · exact sound_body1_first V c t h0
  · by_cases h1 : t.val % 32 = 31
    · exact sound_body1_last V c t h1
    · exact sound_body1_mid V c t h0 h1

/-- The body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's entry and exit -/

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the entry invariant back: what the running rows hold is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Hand

end
-- ==== Proof.IdealRegion2Shared.lean ====
/-
  The third kernel region of the program: the previous layer's raw output is normalised with its batch
  statistics, multiplied into the next layer, and the new layer's running column statistics are kept. The grid is
  2 column blocks by 32 row blocks (the row block r of a point t is t mod 32, the inner coordinate). Each point
  reads a 512 x 2048 block of the previous raw output, the four feature rows mean, variance, gamma, beta
  (1 x 2048 each, the same block at every point, read in once), the 512 x 2048 block of W of its column block and
  the matching 1 x 512 bias row (both re-read only when the column block changes, at r = 0), and stores
    y = ((prev - mean) * rsqrt (variance + eps) * gamma + beta) W^T + b
  (the normalised block and W rounded to bf16, accumulated in f32) over the whole 512 x 512 output block. Two
  1 x 512 rows private to the kernel carry, from one point to the next, the running column sums of y and of
  y * y: zeroed at r = 0, increased by this block's column sums at every point, and copied out to the two
  statistics windows at r = 31, which are left untouched (and not written back) at every other point.
  This module: the windows' blocks, the two conditions of the body in closed form, where the statistics
  windows are idle, the carried rows as memrefs, and the entry invariant with those two rows named.
-/
import proofs.«166235_j274877907496_2_alg».proof.Proof.Gen.KernelIdeal.Launch
import proofs.«166235_j274877907496_2_alg».proof.Proof.Gen.KernelIdeal.Points
import proofs.«166235_j274877907496_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not: where it is not
    fetched (the four feature rows after the first point, W and the bias row at r > 0) the block index has not
    moved since the point before. One statement per input window. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions, in closed form -/

/-- The row block is the first of its column block (r = 0): the body zeroes the two running rows. -/
abbrev firstRow2 (i : grid2.Coords) : Prop := (Scalar.cmpi .ne (Scalar.extui (Scalar.cmpi .eq (BitVec.ofNat 32 (i 1).val) 0#32)) 0#32) = 1#1
theorem hfirstRow2 : ∀ t : Fin cfg2.N, firstRow2 (grid2.coords t) ↔ t.val % 32 = 0 :=
  (by decide +kernel : ∀ t : Fin grid2.N, firstRow2 (grid2.coords t) ↔ t.val % 32 = 0)

/-- The row block is the last of its column block (r = 31): the body copies the two running rows out. -/
abbrev lastRow2 (i : grid2.Coords) : Prop := k2_cond2 i = 1#1
theorem hlastRow2 : ∀ t : Fin cfg2.N, lastRow2 (grid2.coords t) ↔ t.val % 32 = 31 :=
  (by decide +kernel : ∀ t : Fin grid2.N, lastRow2 (grid2.coords t) ↔ t.val % 32 = 31)

/-! ## Where the windows are idle -/

/-- The inputs and y are read (or stored) at every point. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem liveAt2_6 : ∀ t : Fin cfg2.N, cfg2.idle 6 (grid2.coords t) = false := by decide +kernel
theorem liveAt2_7 : ∀ t : Fin cfg2.N, cfg2.idle 7 (grid2.coords t) = false := by decide +kernel
/-- Away from the last row block the two statistics windows are idle and not written back. -/
theorem idleAt2_8 : ∀ t : Fin cfg2.N, ¬lastRow2 (grid2.coords t) → cfg2.idle 8 (grid2.coords t) = true := by decide +kernel
theorem noFlush2_8 : ∀ t : Fin cfg2.N, ¬lastRow2 (grid2.coords t) → (cfg2.win 8).flush t = false := by decide +kernel
theorem idleAt2_9 : ∀ t : Fin cfg2.N, ¬lastRow2 (grid2.coords t) → cfg2.idle 9 (grid2.coords t) = true := by decide +kernel
theorem noFlush2_9 : ∀ t : Fin cfg2.N, ¬lastRow2 (grid2.coords t) → (cfg2.win 9).flush t = false := by decide +kernel
/-- At the last row block they are stored. -/
theorem liveAt2_8 : ∀ t : Fin cfg2.N, lastRow2 (grid2.coords t) → cfg2.idle 8 (grid2.coords t) = false := by decide +kernel
theorem liveAt2_9 : ∀ t : Fin cfg2.N, lastRow2 (grid2.coords t) → cfg2.idle 9 (grid2.coords t) = false := by decide +kernel

/-! ## The two carried rows -/

/-- The running column sums of y, and of y * y: whole buffers of the kernel's own, passed beside the windows. -/
abbrev sumRow2 : Memref sig .tc .vmem S1x512 .f32 := Memref.whole cc2_scratch0
abbrev sqRow2 : Memref sig .tc .vmem S1x512 .f32 := Memref.whole cc2_scratch1

/-- The entry invariant with the two carried rows named as memrefs owned at some contents, the other scoped
    buffers unopened, and the generator register. -/
theorem PhiA2_eq (c : Dev nD) :
    (Pipeline.ΦA spec2 c : sProp 𝕄)
      = iprop(iprop(iprop((∃ d, owns (c : Thread nD τ) sumRow2 fullShare d) ∗ (∃ d, owns (c : Thread nD τ) sqRow2 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [sumRow2, sqRow2, owns_whole]; try rfl

end Cert.KernelIdeal.Hand

end
-- ==== Proof.IdealRegion2Runs.lean ====
/-
  The body of the normalise-multiply-and-statistics kernel, run on whole staging memrefs, in each of its three
  control cases (by the row block r of the point): r = 0, where the two running rows are zeroed first;
  0 < r < 31, where they continue from what the point before left; r = 31, where after the update they are
  copied out to the two statistics windows. What each case leaves in y's buffer, in the two running rows and
  in the statistics buffers is stated as a function of the seven input blocks and of the running rows found.
-/
import proofs.«166235_j274877907496_2_alg».proof.Proof.IdealRegion2Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses, and what it leaves -/

/-- The whole block of the previous raw output, a whole 1 x 2048 feature row, the whole block of W, a whole
    1 x 512 row, the whole block of y. -/
abbrev rP2 : Rect S512x2048 := Rect.unit (s := S512x2048) ![0, 0] S512x2048.size inb_S512x2048_S512x2048_0_0
abbrev rR2 : Rect S1x2048 := Rect.unit (s := S1x2048) ![0, 0] S1x2048.size inb_S1x2048_S1x2048_0_0
abbrev rW2 : Rect S512x2048 := Rect.unit (s := S512x2048) ![0, 0] S512x2048.size inb_S512x2048_S512x2048_0_0
abbrev rRow2 : Rect S1x512 := Rect.unit (s := S1x512) ![0, 0] S1x512.size inb_S1x512_S1x512_0_0
abbrev rY2 : Rect S512x512 := Rect.unit (s := S512x512) ![0, 0] S512x512.size inb_S512x512_S512x512_0_0

/-- y's block, from the inputs in the windows' order (previous raw block, mean, variance, gamma, beta, W, bias):
    the previous block normalised feature by feature,  (prev - mean) * rsqrt (variance + eps) * gamma + beta,
    times the transposed W block (both rounded to bf16, accumulated in f32), plus the bias row on every row.
    The body's one whole-block store into y's buffer. -/
def yBlk2 (x0 : Vec F S512x2048 .f32) (x1 x2 x3 x4 : Vec F S1x2048 .f32) (x5 : Vec F S512x2048 .f32) (x6 : Vec F S1x512 .f32) : Vec F S512x512 .f32 :=
  View.canon [⟨rY2, k2_pay5 (View.ld x2 rR2) (View.ld x0 rP2) (View.ld x1 rR2) (View.ld x3 rR2) (View.ld x4 rR2) (View.ld x5 rW2) (View.ld x6 rRow2)⟩]

/-- The running column sums after a point: the row found, `s`, plus the column sums of this point's y block. -/
def sumNext2 (x0 : Vec F S512x2048 .f32) (x1 x2 x3 x4 : Vec F S1x2048 .f32) (x5 : Vec F S512x2048 .f32) (x6 : Vec F S1x512 .f32) (s : Vec F S1x512 .f32) : Vec F S1x512 .f32 :=
  View.canon [⟨rRow2, k2_pay1 (k2_pay5 (View.ld x2 rR2) (View.ld x0 rP2) (View.ld x1 rR2) (View.ld x3 rR2) (View.ld x4 rR2) (View.ld x5 rW2) (View.ld x6 rRow2)) (View.ld s rRow2)⟩]

/-- The running column sums of squares after a point: the row found plus the column sums of y * y. -/
def sqNext2 (x0 : Vec F S512x2048 .f32) (x1 x2 x3 x4 : Vec F S1x2048 .f32) (x5 : Vec F S512x2048 .f32) (x6 : Vec F S1x512 .f32) (s : Vec F S1x512 .f32) : Vec F S1x512 .f32 :=
  View.canon [⟨rRow2, k2_pay2 (k2_pay5 (View.ld x2 rR2) (View.ld x0 rP2) (View.ld x1 rR2) (View.ld x3 rR2) (View.ld x4 rR2) (View.ld x5 rW2) (View.ld x6 rRow2)) (View.ld s rRow2)⟩]

/-- The zero rows the first row block starts the two running rows from. -/
def zeroSum2 : Vec F S1x512 .f32 := View.canon [⟨rRow2, k2_pay3⟩]
def zeroSq2 : Vec F S1x512 .f32 := View.canon [⟨rRow2, k2_pay4⟩]

/-- A row stored whole into a statistics buffer: the buffer then reads the row. -/
def copyRow2 (s : Vec F S1x512 .f32) : Vec F S1x512 .f32 := View.canon [⟨rRow2, View.ld s rRow2⟩]

/-- One whole store covers its buffer. -/
theorem coverRow2 (p0 : Vec F S1x512 .f32) (y : S1x512.Idx) :
    ∃ pc ∈ ([⟨rRow2, p0⟩] : List (View.Piece (Elt F) S1x512 .f32)), y ∈ pc.1.set :=
  View.cover_of_tiled [⟨rRow2, p0⟩] S1x512.size (by rfl) y
theorem coverY2 (p0 : Vec F S512x512 .f32) (y : S512x512.Idx) :
    ∃ pc ∈ ([⟨rY2, p0⟩] : List (View.Piece (Elt F) S512x512 .f32)), y ∈ pc.1.set :=
  View.cover_of_tiled [⟨rY2, p0⟩] S512x512.size (by rfl) y
theorem memRow2 (y : S1x512.Idx) : y ∈ rRow2.set := by
  obtain ⟨pc, hm, hy⟩ := View.cover_of_tiled (Val := fun _ => Unit) (e := .f32) [⟨rRow2, fun _ => ()⟩] S1x512.size (by rfl) y
  rw [List.mem_singleton] at hm; subst hm; exact hy

/-- A row copied whole reads as the row. -/
theorem copyRow2_eq (s : Vec F S1x512 .f32) : copyRow2 s = s := by
  funext y
  obtain ⟨x, rfl⟩ := rRow2.exists_idx_of_mem (memRow2 y)
  exact View.canon_cons_emb rRow2 (View.ld s rRow2) [] x

/-! ## The body's triple, case by case -/

set_option maxHeartbeats 1000000 in
/-- A middle row block (0 < r < 31). The inputs' memrefs at `x0 … x6`, y's at anything, the two statistics
    buffers at `xi8 xi9` (handed back untouched), the running rows at `s0 s1`: the body leaves y's block and the
    running rows increased by this block's column sums. -/
theorem sound_kernel2_mid (c : Dev nD) (E : Set ℕ) (i : grid2.Coords) (hfirst : ¬firstRow2 i) (hlast : ¬lastRow2 i)
    (arg2 : Memref sig .tc .vmem S512x2048 .f32) (harg2 : arg2.IsWhole) (arg3 : Memref sig .tc .vmem S1x2048 .f32) (harg3 : arg3.IsWhole)
    (arg4 : Memref sig .tc .vmem S1x2048 .f32) (harg4 : arg4.IsWhole) (arg5 : Memref sig .tc .vmem S1x2048 .f32) (harg5 : arg5.IsWhole)
    (arg6 : Memref sig .tc .vmem S1x2048 .f32) (harg6 : arg6.IsWhole) (arg7 : Memref sig .tc .vmem S512x2048 .f32) (harg7 : arg7.IsWhole)
    (arg8 : Memref sig .tc .vmem S1x512 .f32) (harg8 : arg8.IsWhole) (arg9 : Memref sig .tc .vmem S512x512 .f32) (harg9 : arg9.IsWhole)
    (arg10 : Memref sig .tc .vmem S1x512 .f32) (harg10 : arg10.IsWhole) (arg11 : Memref sig .tc .vmem S1x512 .f32) (harg11 : arg11.IsWhole)
    (arg12 : Memref sig .tc .vmem S1x512 .f32) (harg12 : arg12.IsWhole) (arg13 : Memref sig .tc .vmem S1x512 .f32) (harg13 : arg13.IsWhole)
    (x0 : Vec F S512x2048 .f32) (x1 x2 x3 x4 : Vec F S1x2048 .f32) (x5 : Vec F S512x2048 .f32) (x6 : Vec F S1x512 .f32) (xi8 xi9 s0 s1 : Vec F S1x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ owns (c : Thread nD τ) arg10 fullShare xi8 ∗ owns (c : Thread nD τ) arg11 fullShare xi9
        ∗ owns (c : Thread nD τ) arg12 fullShare s0 ∗ owns (c : Thread nD τ) arg13 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (yBlk2 x0 x1 x2 x3 x4 x5 x6) ∗ owns (c : Thread nD τ) arg10 fullShare xi8 ∗ owns (c : Thread nD τ) arg11 fullShare xi9
            ∗ owns (c : Thread nD τ) arg12 fullShare (sumNext2 x0 x1 x2 x3 x4 x5 x6 s0) ∗ owns (c : Thread nD τ) arg13 fullShare (sqNext2 x0 x1 x2 x3 x4 x5 x6 s1)) -∗ K ⟨⟩))
      ⊢ wp frame (wpE (defs₀ (F := F)) Variants.none c none) E (cc2__fused_norm_matmul_stats_kernel i arg2 harg2 arg3 harg3 arg4 harg4 arg5 harg5 arg6 harg6 arg7 harg7 arg8 harg8 arg9 harg9 arg10 harg10 arg11 harg11 arg12 harg12 arg13 harg13) K := by
  simp only [cc2__fused_norm_matmul_stats_kernel_eq_skeleton]; unfold cc2__fused_norm_matmul_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%fs0, %hfs0, HS0⟩, ⟨%fs1, %hfs1, HS1⟩, Hk⟩
  subst hf0; subst hf1; subst hf2; subst hf3; subst hf4; subst hf5; subst hf6; subst hf8; subst hf9; subst hfs0; subst hfs1
  sl_exec (disch := first | exact hfirst | exact hlast)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro; exact View.read_writes_eq_canon _ _ _ (coverY2 _)
  isplitl [H8]
  · iexists f8; isplitr; · ipureintro; rfl
    iexact H8
  isplitl [H9]
  · iexists f9; isplitr; · ipureintro; rfl
    iexact H9
  isplitl [HS0]
  · iexists _; isplitr
    swap; · iexact HS0
    ipureintro; exact View.read_writes_eq_canon _ _ _ (coverRow2 _)
  iexists _; isplitr
  swap; · iexact HS1
  ipureintro; exact View.read_writes_eq_canon _ _ _ (coverRow2 _)

set_option maxHeartbeats 1000000 in
/-- The first row block of a column block (r = 0). The running rows at anything: the body zeroes them, then leaves
    y's block and the running rows at this block's column sums over zero. -/
theorem sound_kernel2_first (c : Dev nD) (E : Set ℕ) (i : grid2.Coords) (hfirst : firstRow2 i) (hlast : ¬lastRow2 i)
    (arg2 : Memref sig .tc .vmem S512x2048 .f32) (harg2 : arg2.IsWhole) (arg3 : Memref sig .tc .vmem S1x2048 .f32) (harg3 : arg3.IsWhole)
    (arg4 : Memref sig .tc .vmem S1x2048 .f32) (harg4 : arg4.IsWhole) (arg5 : Memref sig .tc .vmem S1x2048 .f32) (harg5 : arg5.IsWhole)
    (arg6 : Memref sig .tc .vmem S1x2048 .f32) (harg6 : arg6.IsWhole) (arg7 : Memref sig .tc .vmem S512x2048 .f32) (harg7 : arg7.IsWhole)
    (arg8 : Memref sig .tc .vmem S1x512 .f32) (harg8 : arg8.IsWhole) (arg9 : Memref sig .tc .vmem S512x512 .f32) (harg9 : arg9.IsWhole)
    (arg10 : Memref sig .tc .vmem S1x512 .f32) (harg10 : arg10.IsWhole) (arg11 : Memref sig .tc .vmem S1x512 .f32) (harg11 : arg11.IsWhole)
    (arg12 : Memref sig .tc .vmem S1x512 .f32) (harg12 : arg12.IsWhole) (arg13 : Memref sig .tc .vmem S1x512 .f32) (harg13 : arg13.IsWhole)
    (x0 : Vec F S512x2048 .f32) (x1 x2 x3 x4 : Vec F S1x2048 .f32) (x5 : Vec F S512x2048 .f32) (x6 : Vec F S1x512 .f32) (xi8 xi9 : Vec F S1x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ owns (c : Thread nD τ) arg10 fullShare xi8 ∗ owns (c : Thread nD τ) arg11 fullShare xi9
        ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (yBlk2 x0 x1 x2 x3 x4 x5 x6) ∗ owns (c : Thread nD τ) arg10 fullShare xi8 ∗ owns (c : Thread nD τ) arg11 fullShare xi9
            ∗ owns (c : Thread nD τ) arg12 fullShare (sumNext2 x0 x1 x2 x3 x4 x5 x6 zeroSum2) ∗ owns (c : Thread nD τ) arg13 fullShare (sqNext2 x0 x1 x2 x3 x4 x5 x6 zeroSq2)) -∗ K ⟨⟩))
      ⊢ wp frame (wpE (defs₀ (F := F)) Variants.none c none) E (cc2__fused_norm_matmul_stats_kernel i arg2 harg2 arg3 harg3 arg4 harg4 arg5 harg5 arg6 harg6 arg7 harg7 arg8 harg8 arg9 harg9 arg10 harg10 arg11 harg11 arg12 harg12 arg13 harg13) K := by
  simp only [cc2__fused_norm_matmul_stats_kernel_eq_skeleton]; unfold cc2__fused_norm_matmul_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%ds0, %fs0, -, HS0⟩, ⟨%ds1, %fs1, -, HS1⟩, Hk⟩
  subst hf0; subst hf1; subst hf2; subst hf3; subst hf4; subst hf5; subst hf6; subst hf8; subst hf9
  have e12 : arg12.view.readCov [⟨rRow2, k2_pay3 (F := F)⟩] rRow2.toLoadRect = View.ld (zeroSum2 (F := F)) rRow2 :=
    View.readCov_eq_canon_ld _ _ _ (coverRow2 _)
  have e13 : arg13.view.readCov [⟨rRow2, k2_pay4 (F := F)⟩] rRow2.toLoadRect = View.ld (zeroSq2 (F := F)) rRow2 :=
    View.readCov_eq_canon_ld _ _ _ (coverRow2 _)
  sl_exec (disch := first | exact hfirst | exact hlast)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro; exact View.read_writes_eq_canon _ _ _ (coverY2 _)
  isplitl [H8]
  · iexists f8; isplitr; · ipureintro; rfl
    iexact H8
  isplitl [H9]
  · iexists f9; isplitr; · ipureintro; rfl
    iexact H9
  isplitl [HS0]
  · iexists _; isplitr
    swap; · iexact HS0
    ipureintro
    exact (View.read_writes_of_cover_last arg12.view fs0 arg12.view fs0 _ _ [] memRow2).trans
      (View.read_writes_eq_canon arg12.view fs0 _ (coverRow2 _))
  iexists _; isplitr
  swap; · iexact HS1
  ipureintro
  exact (View.read_writes_of_cover_last arg13.view fs1 arg13.view fs1 _ _ [] memRow2).trans
    (View.read_writes_eq_canon arg13.view fs1 _ (coverRow2 _))

set_option maxHeartbeats 1000000 in
/-- The last row block of a column block (r = 31). As a middle one, and then the two statistics buffers (at
    anything before) receive the updated running rows. -/
theorem sound_kernel2_last (c : Dev nD) (E : Set ℕ) (i : grid2.Coords) (hfirst : ¬firstRow2 i) (hlast : lastRow2 i)
    (arg2 : Memref sig .tc .vmem S512x2048 .f32) (harg2 : arg2.IsWhole) (arg3 : Memref sig .tc .vmem S1x2048 .f32) (harg3 : arg3.IsWhole)
    (arg4 : Memref sig .tc .vmem S1x2048 .f32) (harg4 : arg4.IsWhole) (arg5 : Memref sig .tc .vmem S1x2048 .f32) (harg5 : arg5.IsWhole)
    (arg6 : Memref sig .tc .vmem S1x2048 .f32) (harg6 : arg6.IsWhole) (arg7 : Memref sig .tc .vmem S512x2048 .f32) (harg7 : arg7.IsWhole)
    (arg8 : Memref sig .tc .vmem S1x512 .f32) (harg8 : arg8.IsWhole) (arg9 : Memref sig .tc .vmem S512x512 .f32) (harg9 : arg9.IsWhole)
    (arg10 : Memref sig .tc .vmem S1x512 .f32) (harg10 : arg10.IsWhole) (arg11 : Memref sig .tc .vmem S1x512 .f32) (harg11 : arg11.IsWhole)
    (arg12 : Memref sig .tc .vmem S1x512 .f32) (harg12 : arg12.IsWhole) (arg13 : Memref sig .tc .vmem S1x512 .f32) (harg13 : arg13.IsWhole)
    (x0 : Vec F S512x2048 .f32) (x1 x2 x3 x4 : Vec F S1x2048 .f32) (x5 : Vec F S512x2048 .f32) (x6 : Vec F S1x512 .f32) (s0 s1 : Vec F S1x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ (∃ d, owns (c : Thread nD τ) arg10 fullShare d) ∗ (∃ d, owns (c : Thread nD τ) arg11 fullShare d)
        ∗ owns (c : Thread nD τ) arg12 fullShare s0 ∗ owns (c : Thread nD τ) arg13 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (yBlk2 x0 x1 x2 x3 x4 x5 x6) ∗ owns (c : Thread nD τ) arg10 fullShare (copyRow2 (sumNext2 x0 x1 x2 x3 x4 x5 x6 s0)) ∗ owns (c : Thread nD τ) arg11 fullShare (copyRow2 (sqNext2 x0 x1 x2 x3 x4 x5 x6 s1))
            ∗ owns (c : Thread nD τ) arg12 fullShare (sumNext2 x0 x1 x2 x3 x4 x5 x6 s0) ∗ owns (c : Thread nD τ) arg13 fullShare (sqNext2 x0 x1 x2 x3 x4 x5 x6 s1)) -∗ K ⟨⟩))
      ⊢ wp frame (wpE (defs₀ (F := F)) Variants.none c none) E (cc2__fused_norm_matmul_stats_kernel i arg2 harg2 arg3 harg3 arg4 harg4 arg5 harg5 arg6 harg6 arg7 harg7 arg8 harg8 arg9 harg9 arg10 harg10 arg11 harg11 arg12 harg12 arg13 harg13) K := by
  simp only [cc2__fused_norm_matmul_stats_kernel_eq_skeleton]; unfold cc2__fused_norm_matmul_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs0, %hfs0, HS0⟩, ⟨%fs1, %hfs1, HS1⟩, Hk⟩
  subst hf0; subst hf1; subst hf2; subst hf3; subst hf4; subst hf5; subst hf6; subst hfs0; subst hfs1
  have e12 : arg12.view.readCov [⟨rRow2, k2_pay1 (k2_pay5 (View.ld (arg4.view.read (Elt F) f2) rR2) (View.ld (arg2.view.read (Elt F) f0) rP2) (View.ld (arg3.view.read (Elt F) f1) rR2) (View.ld (arg5.view.read (Elt F) f3) rR2) (View.ld (arg6.view.read (Elt F) f4) rR2) (View.ld (arg7.view.read (Elt F) f5) rW2) (View.ld (arg8.view.read (Elt F) f6) rRow2)) (View.ld (arg12.view.read (Elt F) fs0) rRow2)⟩] rRow2.toLoadRect
      = View.ld (sumNext2 (arg2.view.read (Elt F) f0) (arg3.view.read (Elt F) f1) (arg4.view.read (Elt F) f2) (arg5.view.read (Elt F) f3) (arg6.view.read (Elt F) f4) (arg7.view.read (Elt F) f5) (arg8.view.read (Elt F) f6) (arg12.view.read (Elt F) fs0)) rRow2 :=
    View.readCov_eq_canon_ld _ _ _ (coverRow2 _)
  have e13 : arg13.view.readCov [⟨rRow2, k2_pay2 (k2_pay5 (View.ld (arg4.view.read (Elt F) f2) rR2) (View.ld (arg2.view.read (Elt F) f0) rP2) (View.ld (arg3.view.read (Elt F) f1) rR2) (View.ld (arg5.view.read (Elt F) f3) rR2) (View.ld (arg6.view.read (Elt F) f4) rR2) (View.ld (arg7.view.read (Elt F) f5) rW2) (View.ld (arg8.view.read (Elt F) f6) rRow2)) (View.ld (arg13.view.read (Elt F) fs1) rRow2)⟩] rRow2.toLoadRect
      = View.ld (sqNext2 (arg2.view.read (Elt F) f0) (arg3.view.read (Elt F) f1) (arg4.view.read (Elt F) f2) (arg5.view.read (Elt F) f3) (arg6.view.read (Elt F) f4) (arg7.view.read (Elt F) f5) (arg8.view.read (Elt F) f6) (arg13.view.read (Elt F) fs1)) rRow2 :=
    View.readCov_eq_canon_ld _ _ _ (coverRow2 _)
  sl_exec (disch := first | exact hfirst | exact hlast)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro; exact View.read_writes_eq_canon _ _ _ (coverY2 _)
  isplitl [H8]
  · iexists _; isplitr
    swap; · iexact H8
    ipureintro; exact View.read_writes_eq_canon _ _ _ (coverRow2 _)
  isplitl [H9]
  · iexists _; isplitr
    swap; · iexact H9
    ipureintro; exact View.read_writes_eq_canon _ _ _ (coverRow2 _)
  isplitl [HS0]
  · iexists _; isplitr
    swap; · iexact HS0
    ipureintro; exact View.read_writes_eq_canon _ _ _ (coverRow2 _)
  iexists _; isplitr
  swap; · iexact HS1
  ipureintro; exact View.read_writes_eq_canon _ _ _ (coverRow2 _)

end Cert.KernelIdeal.Hand

end
-- ==== Proof.IdealRegion2.lean ====
/-
  The third kernel region as a pipeline step: what y's buffer, the two statistics buffers and the two running
  rows hold after each point of the 2 x 32 grid (by recursion on the point: the running rows restart from zero
  at the first row block of a column block and otherwise continue from the point before), the invariant that
  carries the two running rows from one point to the next, the pipeline's proof data, the body obligation at
  every point, and the two entailments between the invariant and the region's entry and exit.
  Stated for any contents `V` of the core's buffers at the region's entry.
-/
import proofs.«166235_j274877907496_2_alg».proof.Proof.IdealRegion2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the buffers hold after each point -/

/-- What one point leaves, from its seven input blocks and the running rows `s0 s1` it starts from, in order:
    y's buffer, the two statistics buffers (the updated rows copied out; consulted at the last row block only:
    elsewhere those windows are idle), the running sum row, the running sum-of-squares row. -/
def outsOf2 (x0 : Vec F S512x2048 .f32) (x1 x2 x3 x4 : Vec F S1x2048 .f32) (x5 : Vec F S512x2048 .f32) (x6 : Vec F S1x512 .f32) (s0 s1 : Vec F S1x512 .f32) :
    Vec F S512x512 .f32 × Vec F S1x512 .f32 × Vec F S1x512 .f32 × Vec F S1x512 .f32 × Vec F S1x512 .f32 :=
  (yBlk2 x0 x1 x2 x3 x4 x5 x6, copyRow2 (sumNext2 x0 x1 x2 x3 x4 x5 x6 s0), copyRow2 (sqNext2 x0 x1 x2 x3 x4 x5 x6 s1), sumNext2 x0 x1 x2 x3 x4 x5 x6 s0, sqNext2 x0 x1 x2 x3 x4 x5 x6 s1)

/-- THE ACCUMULATION. What the buffers hold after the body at position `n`: at the first row block of a column
    block (n ≡ 0 mod 32) the point's outputs over zeroed running rows, elsewhere over the running rows the point
    before left. -/
def outsAt2 (c : Dev nD) : (n : ℕ) → n < cfg2.N →
    Vec F S512x512 .f32 × Vec F S1x512 .f32 × Vec F S1x512 .f32 × Vec F S1x512 .f32 × Vec F S1x512 .f32
  | 0, hn => outsOf2 (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) zeroSum2 zeroSq2
  | n + 1, hn =>
    if (n + 1) % 32 = 0 then
      outsOf2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) zeroSum2 zeroSq2
    else
      outsOf2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩)
        (outsAt2 c n (Nat.lt_of_succ_lt hn)).2.2.2.1 (outsAt2 c n (Nat.lt_of_succ_lt hn)).2.2.2.2

/-- At the first row block of a column block: over zeroed running rows. -/
theorem outsAt2_first (c : Dev nD) (t : Fin cfg2.N) (h0 : t.val % 32 = 0) :
    outsAt2 V c t.val t.isLt = outsOf2 (iblk2 V c 0 t) (iblk2 V c 1 t) (iblk2 V c 2 t) (iblk2 V c 3 t) (iblk2 V c 4 t) (iblk2 V c 5 t) (iblk2 V c 6 t) zeroSum2 zeroSq2 := by
  obtain ⟨n, hn⟩ := t
  cases n with
  | zero => exact rfl
  | succ n => exact if_pos h0

/-- At any later row block: over what the point before left in the running rows. -/
theorem outsAt2_later (c : Dev nD) (t : Fin cfg2.N) (h0 : ¬t.val % 32 = 0) :
    outsAt2 V c t.val t.isLt = outsOf2 (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2.2.1 (outsAt2 V c (t.val - 1) (Nat.lt_of_le_of_lt (Nat.sub_le _ _) t.isLt)).2.2.2.2 := by
  obtain ⟨n, hn⟩ := t
  cases n with
  | zero => exact absurd (Nat.zero_mod _) h0
  | succ n => exact if_neg h0

/-- The same, named by case: a middle row block, and the last one (where the statistics buffers' components
    are the ones written back). -/
theorem outsAt2_mid (c : Dev nD) (t : Fin cfg2.N) (h0 : ¬t.val % 32 = 0) (h1 : ¬t.val % 32 = 31) :
    outsAt2 V c t.val t.isLt = outsOf2 (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2.2.1 (outsAt2 V c (t.val - 1) (Nat.lt_of_le_of_lt (Nat.sub_le _ _) t.isLt)).2.2.2.2 :=
  outsAt2_later V c t h0
theorem outsAt2_last (c : Dev nD) (t : Fin cfg2.N) (h1 : t.val % 32 = 31) :
    outsAt2 V c t.val t.isLt = outsOf2 (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2.2.1 (outsAt2 V c (t.val - 1) (Nat.lt_of_le_of_lt (Nat.sub_le _ _) t.isLt)).2.2.2.2 :=
  outsAt2_later V c t (by omega)

/-! ## The invariant -/

/-- The region invariant before position `n`: before the first point, what the launch hands the region (every
    scoped buffer no window stages at anything, the generator register); afterwards the two running rows at what
    the point before left in them, the other scoped buffers unopened, the generator register. -/
def PhiS2 (c : Dev nD) : (n : ℕ) → n ≤ cfg2.N → sProp 𝕄
  | 0, _ => Pipeline.ΦA spec2 c
  | n + 1, hn => iprop(iprop(iprop(owns (c : Thread nD τ) sumRow2 fullShare (outsAt2 V c n hn).2.2.2.1 ∗ owns (c : Thread nD τ) sqRow2 fullShare (outsAt2 V c n hn).2.2.2.2)
      ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) sumRow2 fullShare (outsAt2 V c n hn).2.2.2.1 ∗ owns (c : Thread nD τ) sqRow2 fullShare (outsAt2 V c n hn).2.2.2.2)
      ∗ Pipeline.scopedRestBut (Ix := Unit) (Name := ℕ) (U := UR sig nD τ) (Lvl := ℕ) (Val := Elt F) spec2 c [cc2_scratch0, cc2_scratch1]) ∗ (∃ r, prngReg c r)) := rfl

theorem PhiS2_pos (c : Dev nD) (n : ℕ) (h : n ≤ cfg2.N) (hz : n ≠ 0) :
    PhiS2 V c n h = iprop(iprop(iprop(owns (c : Thread nD τ) sumRow2 fullShare (outsAt2 V c (n - 1) (by omega)).2.2.2.1 ∗ owns (c : Thread nD τ) sqRow2 fullShare (outsAt2 V c (n - 1) (by omega)).2.2.2.2)
      ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-! ## The pipeline's proof data -/

/-- The arrays as the region finds them; after the body at point `t` each input's buffer at its block, y's and
    the statistics buffers at `outsAt2`'s components; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => (outsAt2 V c t.val t.isLt).1
    | ⟨8, _⟩ => (outsAt2 V c t.val t.isLt).2.1
    | ⟨9, _⟩ => (outsAt2 V c t.val t.isLt).2.2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = (outsAt2 V c t.val t.isLt).1 := by dsimp only [dat2]
theorem after2_8 (c : Dev nD) (t : Fin cfg2.N) : (dat2 V c).after 8 t = (outsAt2 V c t.val t.isLt).2.1 := by dsimp only [dat2]
theorem after2_9 (c : Dev nD) (t : Fin cfg2.N) : (dat2 V c).after 9 t = (outsAt2 V c t.val t.isLt).2.2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns: each buffer at what the body leaves, a statistics buffer at what it found wherever
    its window is idle. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t)

set_option maxHeartbeats 2000000 in
/-- The body at the first row block of a column block. The invariant hands over the two running rows (at anything
    at the very first point, at what the column block before left otherwise: either way they are zeroed) and takes
    them back at this point's contents; the statistics buffers pass through untouched. -/
theorem sound_body2_first (c : Dev nD) (t : Fin cfg2.N) (h0 : t.val % 32 = 0) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  rw [show (dat2 V c).leavesExact 3 t = owns (c : Thread nD τ) (st2_3 t) fullShare ((dat2 V c).after 3 t) from by
    unfold Dat.leavesExact; rw [liveAt2_3 t], after2_3]
  rw [show (dat2 V c).leavesExact 4 t = owns (c : Thread nD τ) (st2_4 t) fullShare ((dat2 V c).after 4 t) from by
    unfold Dat.leavesExact; rw [liveAt2_4 t], after2_4]
  rw [show (dat2 V c).leavesExact 5 t = owns (c : Thread nD τ) (st2_5 t) fullShare ((dat2 V c).after 5 t) from by
    unfold Dat.leavesExact; rw [liveAt2_5 t], after2_5]
  rw [show (dat2 V c).leavesExact 6 t = owns (c : Thread nD τ) (st2_6 t) fullShare ((dat2 V c).after 6 t) from by
    unfold Dat.leavesExact; rw [liveAt2_6 t], after2_6]
  rw [show (dat2 V c).leavesExact 7 t = owns (c : Thread nD τ) (st2_7 t) fullShare ((dat2 V c).after 7 t) from by
    unfold Dat.leavesExact; rw [liveAt2_7 t], after2_7]
  have hf : firstRow2 (grid2.coords t) := (hfirstRow2 t).mpr h0
  have hl : ¬lastRow2 (grid2.coords t) := fun h => by have := (hlastRow2 t).mp h; omega
  rw [Dat.leavesExact_idle (dat2 V c) 8 t (idleAt2_8 t hl) (noFlush2_8 t hl), Dat.leavesExact_idle (dat2 V c) 9 t (idleAt2_9 t hl) (noFlush2_9 t hl)]
  rw [outsAt2_first V c t h0]
  unfold outsOf2; dsimp only
  by_cases hz : t.val = 0
  · rw [PhiS2_castSucc V c t, PhiS2_zero V c _ _ hz, PhiA2_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel2_first c Set.univ _ hf hl _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) ((dat2 V c).before 8 t d8) ((dat2 V c).before 9 t d9) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [HS0]; · iexact HS0
    isplitl [HS1]; · iexact HS1
    iintro ⟨H0, H1, H2, H3, H4, H5, H6, H7, H8, H9, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iexists _; iexact H9
  · rw [PhiS2_castSucc V c t, PhiS2_pos V c _ _ hz]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel2_first c Set.univ _ hf hl _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) ((dat2 V c).before 8 t d8) ((dat2 V c).before 9 t d9) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [HS0]; · iexists _; iexact HS0
    isplitl [HS1]; · iexists _; iexact HS1
    iintro ⟨H0, H1, H2, H3, H4, H5, H6, H7, H8, H9, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iexists _; iexact H9

set_option maxHeartbeats 2000000 in
/-- The body at a middle row block: the running rows come in at what the point before left and go back increased. -/
theorem sound_body2_mid (c : Dev nD) (t : Fin cfg2.N) (h0 : ¬t.val % 32 = 0) (h1 : ¬t.val % 32 = 31) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  rw [show (dat2 V c).leavesExact 3 t = owns (c : Thread nD τ) (st2_3 t) fullShare ((dat2 V c).after 3 t) from by
    unfold Dat.leavesExact; rw [liveAt2_3 t], after2_3]
  rw [show (dat2 V c).leavesExact 4 t = owns (c : Thread nD τ) (st2_4 t) fullShare ((dat2 V c).after 4 t) from by
    unfold Dat.leavesExact; rw [liveAt2_4 t], after2_4]
  rw [show (dat2 V c).leavesExact 5 t = owns (c : Thread nD τ) (st2_5 t) fullShare ((dat2 V c).after 5 t) from by
    unfold Dat.leavesExact; rw [liveAt2_5 t], after2_5]
  rw [show (dat2 V c).leavesExact 6 t = owns (c : Thread nD τ) (st2_6 t) fullShare ((dat2 V c).after 6 t) from by
    unfold Dat.leavesExact; rw [liveAt2_6 t], after2_6]
  rw [show (dat2 V c).leavesExact 7 t = owns (c : Thread nD τ) (st2_7 t) fullShare ((dat2 V c).after 7 t) from by
    unfold Dat.leavesExact; rw [liveAt2_7 t], after2_7]
  have hf : ¬firstRow2 (grid2.coords t) := fun h => h0 ((hfirstRow2 t).mp h)
  have hl : ¬lastRow2 (grid2.coords t) := fun h => h1 ((hlastRow2 t).mp h)
  rw [Dat.leavesExact_idle (dat2 V c) 8 t (idleAt2_8 t hl) (noFlush2_8 t hl), Dat.leavesExact_idle (dat2 V c) 9 t (idleAt2_9 t hl) (noFlush2_9 t hl)]
  rw [outsAt2_later V c t h0]
  unfold outsOf2; dsimp only
  have hz : t.val ≠ 0 := fun h => h0 (by rw [h])
  rw [PhiS2_castSucc V c t, PhiS2_pos V c _ _ hz]
  iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2_mid c Set.univ _ hf hl _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) ((dat2 V c).before 8 t d8) ((dat2 V c).before 9 t d9) (outsAt2 V c (t.val - 1) (Nat.lt_of_le_of_lt (Nat.sub_le _ _) t.isLt)).2.2.2.1 (outsAt2 V c (t.val - 1) (Nat.lt_of_le_of_lt (Nat.sub_le _ _) t.isLt)).2.2.2.2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexact H9
  isplitl [HS0]; · iexact HS0
  isplitl [HS1]; · iexact HS1
  iintro ⟨H0, H1, H2, H3, H4, H5, H6, H7, H8, H9, HS0, HS1⟩
  isplitl [HS0 HS1 Hrest Hg]
  · isplitl [HS0 HS1 Hrest]
    · isplitl [HS0 HS1]
      · isplitl [HS0]; · iexact HS0
        iexact HS1
      iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iexists _; iexact H9

set_option maxHeartbeats 2000000 in
/-- The body at the last row block: as a middle one, and the two statistics buffers (now live) receive the rows. -/
theorem sound_body2_last (c : Dev nD) (t : Fin cfg2.N) (h1 : t.val % 32 = 31) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  rw [show (dat2 V c).leavesExact 3 t = owns (c : Thread nD τ) (st2_3 t) fullShare ((dat2 V c).after 3 t) from by
    unfold Dat.leavesExact; rw [liveAt2_3 t], after2_3]
  rw [show (dat2 V c).leavesExact 4 t = owns (c : Thread nD τ) (st2_4 t) fullShare ((dat2 V c).after 4 t) from by
    unfold Dat.leavesExact; rw [liveAt2_4 t], after2_4]
  rw [show (dat2 V c).leavesExact 5 t = owns (c : Thread nD τ) (st2_5 t) fullShare ((dat2 V c).after 5 t) from by
    unfold Dat.leavesExact; rw [liveAt2_5 t], after2_5]
  rw [show (dat2 V c).leavesExact 6 t = owns (c : Thread nD τ) (st2_6 t) fullShare ((dat2 V c).after 6 t) from by
    unfold Dat.leavesExact; rw [liveAt2_6 t], after2_6]
  rw [show (dat2 V c).leavesExact 7 t = owns (c : Thread nD τ) (st2_7 t) fullShare ((dat2 V c).after 7 t) from by
    unfold Dat.leavesExact; rw [liveAt2_7 t], after2_7]
  have h0 : ¬t.val % 32 = 0 := by omega
  have hf : ¬firstRow2 (grid2.coords t) := fun h => h0 ((hfirstRow2 t).mp h)
  have hl : lastRow2 (grid2.coords t) := (hlastRow2 t).mpr h1
  rw [show (dat2 V c).leavesExact 8 t = owns (c : Thread nD τ) (st2_8 t) fullShare ((dat2 V c).after 8 t) from by
    unfold Dat.leavesExact; rw [liveAt2_8 t hl], after2_8]
  rw [show (dat2 V c).leavesExact 9 t = owns (c : Thread nD τ) (st2_9 t) fullShare ((dat2 V c).after 9 t) from by
    unfold Dat.leavesExact; rw [liveAt2_9 t hl], after2_9]
  rw [outsAt2_later V c t h0]
  unfold outsOf2; dsimp only
  have hz : t.val ≠ 0 := fun h => h0 (by rw [h])
  rw [PhiS2_castSucc V c t, PhiS2_pos V c _ _ hz]
  iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2_last c Set.univ _ hf hl _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2.2.1 (outsAt2 V c (t.val - 1) (Nat.lt_of_le_of_lt (Nat.sub_le _ _) t.isLt)).2.2.2.2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [HS0]; · iexact HS0
  isplitl [HS1]; · iexact HS1
  iintro ⟨H0, H1, H2, H3, H4, H5, H6, H7, H8, H9, HS0, HS1⟩
  isplitl [HS0 HS1 Hrest Hg]
  · isplitl [HS0 HS1 Hrest]
    · isplitl [HS0 HS1]
      · isplitl [HS0]; · iexact HS0
        iexact HS1
      iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body at any point: the closed forms of the two conditions say which case the point is in. -/
theorem sound_body2 (c : Dev nD) (t : Fin cfg2.N) :
    bodyPre2 V c t ⊢ wp frame (wpE (defs₀ (F := F)) Variants.none c none) Set.univ (bodyAt2 t) (fun _ => bodyPost2 V c t) := by
  by_cases h0 : t.val % 32 = 0
  · exact sound_body2_first V c t h0
  · by_cases h1 : t.val % 32 = 31
    · exact sound_body2_last V c t h1
    · exact sound_body2_mid V c t h0 h1

/-- The body obligation, at every point. -/
theorem body_obligation2 (c : Dev nD) : BodyObligation (dat2 (F := F) V c) (defs₀ (F := F)) Variants.none () Set.univ := fun t => by
  rw [bigSep_W2, bigSep_W2]
  exact sound_body2 V c t

/-! ## The invariant at the region's entry and exit -/

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives the entry invariant back: what the running rows hold is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

/-- The same after the last point. -/
theorem hout2 (c : Dev nD) : (dat2 V c).Φ (Fin.last cfg2.N) ⊢ Pipeline.ΦA spec2 c :=
  Phi_out2 V c _ (by rw [Fin.val_last]; have : cfg2.N = 64 := N_2; omega)

end Cert.KernelIdeal.Hand

end
-- ==== Proof.IdealKernelFrame.lean ====
/-
  The two programs' kernel frames, concretely: the three matmul-and-statistics regions' proof data provide what the
  segment records ask (their arrays read at the entry contents, full shares, nothing owed, the body obligation at every
  point, the invariant entered from and handed back as the plain scoped rest), so the whole program's run applies.
-/
import proofs.«166235_j274877907496_2_alg».proof.Proof.IdealWhole
import proofs.«166235_j274877907496_2_alg».proof.Proof.IdealRegion0
import proofs.«166235_j274877907496_2_alg».proof.Proof.IdealRegion1
import proofs.«166235_j274877907496_2_alg».proof.Proof.IdealRegion2

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

/-- The three regions' proof data, as functions of the entry contents. -/
abbrev P0 : Contents F → (c : Dev nD) → Dat τ (Elt F) Unit ℕ (UR sig nD τ) ℕ cfg0 c := fun V c => dat0 V c
abbrev P1 : Contents F → (c : Dev nD) → Dat τ (Elt F) Unit ℕ (UR sig nD τ) ℕ cfg1 c := fun V c => dat1 V c
abbrev P2 : Contents F → (c : Dev nD) → Dat τ (Elt F) Unit ℕ (UR sig nD τ) ℕ cfg2 c := fun V c => dat2 V c

theorem provides0 : Provides0 (F := F) P0 where
  hA V c w := A_eq0 V c w
  hq V c w := by dsimp only [P0, dat0]
  howed V c t := by dsimp only [P0, dat0]
  hrec V c t := by dsimp only [P0, dat0]
  hbody V c := body_obligation0 V c
  hin V c := hin0 V c
  hout V c := hout0 V c
theorem provides1 : Provides1 (F := F) P1 where
  hA V c w := A_eq1 V c w
  hq V c w := by dsimp only [P1, dat1]
  howed V c t := by dsimp only [P1, dat1]
  hrec V c t := by dsimp only [P1, dat1]
  hbody V c := body_obligation1 V c
  hin V c := hin1 V c
  hout V c := hout1 V c
theorem provides2 : Provides2 (F := F) P2 where
  hA V c w := A_eq2 V c w
  hq V c w := by dsimp only [P2, dat2]
  howed V c t := by dsimp only [P2, dat2]
  hrec V c t := by dsimp only [P2, dat2]
  hbody V c := body_obligation2 V c
  hin V c := hin2 V c
  hout V c := hout2 V c

variable (m : (ℓ : Loc nD τ sig) → Buf (Elt F) ℓ) (ρ : Dev nD → PrngReg)

/-- The contents the last region leaves in the result array. -/
abbrev resultOf (c : Dev nD) : Buf (Elt F) ((c : Thread nD τ).loc main_v30) := outsD (F := F) P0 P1 P2 m 8 main_v30 c

/-- Every weakly fair execution terminates without fault, with the result array at `resultOf` and each argument array
    as launched. -/
theorem run_result : θ_run defs (onTc (τ := τ) (main (F := F))) ⟨m, fun _ => 0, ρ⟩ (fun r => ∀ c : Dev nD,
      r.2.mem ((c.tc : Thread nD τ).loc main_v30) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  whole_run P0 P1 P2 m ρ provides0 provides1 provides2

/-- The frame: every weakly fair execution terminates without fault, each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => (h c).2) (run_result m ρ)

end Cert.KernelIdeal.Hand

end
-- ==== Proof.RefRunOps.lean ====
import proofs.«166235_j274877907496_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## @main as a list of host operations

@main calls the outlined variance function three times, and that function calls the outlined select. Here every
call is written out: the callee's operations at the call's own buffers (the record `main_callK` and, for the nested call,
`main_callK_call0`), in the callee's order, with the plain builders at the literal references. -/

/-- The first layer's 49 operations: the product with the transposed weights, the bias, the column mean, the variance
    function's 22 operations at its call's buffers, and the normalisation. -/
abbrev opsL1 : List (HloOp τ sig (Elt F)) :=
  [ unary main_arg1 main_v0 ((transpose S1024x2048 [1, 0] · transposes_S2048x1024_S1024x2048_1_0) : (⟨S2048x1024, .f32⟩ : BufTy).Contents (Elt F) → (⟨S1024x2048, .f32⟩ : BufTy).Contents (Elt F)),
    binary main_arg0 main_v0 main_v1 ((fun l r => Host.dotGeneral dot_S16384x1024_S1024x2048_S16384x2048_1_0_0_1_n_n none l r) : (⟨S16384x1024, .f32⟩ : BufTy).Contents (Elt F) → (⟨S1024x2048, .f32⟩ : BufTy).Contents (Elt F) → (⟨S16384x2048, .f32⟩ : BufTy).Contents (Elt F)),
    unary main_arg2 main_v2 (broadcastInDim S1x2048 ![1] bcast_S2048_S1x2048_1 : (⟨S2048, .f32⟩ : BufTy).Contents (Elt F) → (⟨S1x2048, .f32⟩ : BufTy).Contents (Elt F)),
    unary main_v2 main_v3 (broadcastInDim S16384x2048 ![0, 1] bcast_S1x2048_S16384x2048_0_1 : (⟨S1x2048, .f32⟩ : BufTy).Contents (Elt F) → (⟨S16384x2048, .f32⟩ : BufTy).Contents (Elt F)),
    binary main_v1 main_v3 main_v4 (addf : (⟨S16384x2048, .f32⟩ : BufTy).Contents (Elt F) → (⟨S16384x2048, .f32⟩ : BufTy).Contents (Elt F) → (⟨S16384x2048, .f32⟩ : BufTy).Contents (Elt F)),
    nullary main_cst (constant S_ .f32 0x00000000#32),
    binary main_v4 main_cst main_v5 ((fun x v => Host.reduceAdd x v reducesTo_S16384x2048_S2048_d0 h_S_) : (⟨S16384x2048, .f32⟩ : BufTy).Contents (Elt F) → (⟨S_, .f32⟩ : BufTy).Contents (Elt F) → (⟨S2048, .f32⟩ : BufTy).Contents (Elt F)),
    nullary main_cst_0 (constant S_ .f32 0x46800000#32),
    unary main_cst_0 main_v6 (broadcastInDim S2048 ![] bcast_S_S2048 : (⟨S_, .f32⟩ : BufTy).Contents (Elt F) → (⟨S2048, .f32⟩ : BufTy).Contents (Elt F)),
    binary main_v5 main_v6 main_v7 (Host.divf : (⟨S2048, .f32⟩ : BufTy).Contents (Elt F) → (⟨S2048, .f32⟩ : BufTy).Contents (Elt F) → (⟨S2048, .f32⟩ : BufTy).Contents (Elt F)),
    nullary main_c (constantI S_ 32 0#32),
    nullary main_call0_cst (constant S_ .f32 0x00000000#32),
    binary main_v4 main_call0_cst main_call0_v0 ((fun x v => Host.reduceAdd x v reducesTo_S16384x2048_S2048_d0 h_S_) : (⟨S16384x2048, .f32⟩ : BufTy).Contents (Elt F) → (⟨S_, .f32⟩ : BufTy).Contents (Elt F) → (⟨S2048, .f32⟩ : BufTy).Contents (Elt F)),
    unary main_call0_v0 main_call0_v1 ((broadcastInDim S1x2048 ![1] bcast_S2048_S1x2048_1) : (⟨S2048, .f32⟩ : BufTy).Contents (Elt F) → (⟨S1x2048, .f32⟩ : BufTy).Contents (Elt F)),
    nullary main_call0_cst_0 (constant S_ .f32 0x46800000#32),
    unary main_call0_cst_0 main_call0_v2 ((broadcastInDim S1x2048 ![] bcast_S_S1x2048) : (⟨S_, .f32⟩ : BufTy).Contents (Elt F) → (⟨S1x2048, .f32⟩ : BufTy).Contents (Elt F)),
    binary main_call0_v1 main_call0_v2 main_call0_v3 ((Host.divf) : (⟨S1x2048, .f32⟩ : BufTy).Contents (Elt F) → (⟨S1x2048, .f32⟩ : BufTy).Contents (Elt F) → (⟨S1x2048, .f32⟩ : BufTy).Contents (Elt F)),
    unary main_call0_v3 main_call0_v4 ((broadcastInDim S16384x2048 ![0, 1] bcast_S1x2048_S16384x2048_0_1) : (⟨S1x2048, .f32⟩ : BufTy).Contents (Elt F) → (⟨S16384x2048, .f32⟩ : BufTy).Contents (Elt F)),
    binary main_v4 main_call0_v4 main_call0_v5 ((subf) : (⟨S16384x2048, .f32⟩ : BufTy).Contents (Elt F) → (⟨S16384x2048, .f32⟩ : BufTy).Contents (Elt F) → (⟨S16384x2048, .f32⟩ : BufTy).Contents (Elt F)),
    binary main_call0_v5 main_call0_v5 main_call0_v6 ((mulf) : (⟨S16384x2048, .f32⟩ : BufTy).Contents (Elt F) → (⟨S16384x2048, .f32⟩ : BufTy).Contents (Elt F) → (⟨S16384x2048, .f32⟩ : BufTy).Contents (Elt F)),
    unary main_c main_call0_v7 ((sitofp .f32) : (⟨S_, .i32⟩ : BufTy).Contents (Elt F) → (⟨S_, .f32⟩ : BufTy).Contents (Elt F)),
    nullary main_call0_cst_1 (constant S_ .f32 0x46800000#32),
    binary main_call0_cst_1 main_call0_v7 main_call0_v8 ((subf) : (⟨S_, .f32⟩ : BufTy).Contents (Elt F) → (⟨S_, .f32⟩ : BufTy).Contents (Elt F) → (⟨S_, .f32⟩ : BufTy).Contents (Elt F)),
    nullary main_call0_cst_2 (constant S_ .f32 0x00000000#32),
    binary main_call0_v6 main_call0_cst_2 main_call0_v9 ((fun x v => Host.reduceAdd x v reducesTo_S16384x2048_S2048_d0 h_S_) : (⟨S16384x2048, .f32⟩ : BufTy).Contents (Elt F) → (⟨S_, .f32⟩ : BufTy).Contents (Elt F) → (⟨S2048, .f32⟩ : BufTy).Contents (Elt F)),
    unary main_call0_v8 main_call0_v10 ((broadcastInDim S2048 ![] bcast_S_S2048) : (⟨S_, .f32⟩ : BufTy).Contents (Elt F) → (⟨S2048, .f32⟩ : BufTy).Contents (Elt F)),
    binary main_call0_v9 main_call0_v10 main_call0_v11 ((Host.divf) : (⟨S2048, .f32⟩ : BufTy).Contents (Elt F) → (⟨S2048, .f32⟩ : BufTy).Contents (Elt F) → (⟨S2048, .f32⟩ : BufTy).Contents (Elt F)),
    nullary main_call0_cst_3 (constant S_ .f32 0x00000000#32),
    binary main_call0_v8 main_call0_cst_3 main_call0_v12 ((cmpf .ogt) : (⟨S_, .f32⟩ : BufTy).Contents (Elt F) → (⟨S_, .f32⟩ : BufTy).Contents (Elt F) → (⟨S_, .i1⟩ : BufTy).Contents (Elt F)),
    nullary main_call0_cst_4 (constant S_ .f32 0x7FC00000#32),
    unary main_call0_cst_4 main_call0_call0_v0 ((id) : (⟨S_, .f32⟩ : BufTy).Contents (Elt F) → (⟨S_, .f32⟩ : BufTy).Contents (Elt F)),
    unary main_call0_call0_v0 main_call0_call0_v1 ((broadcastInDim S2048 ![] bcast_S_S2048) : (⟨S_, .f32⟩ : BufTy).Contents (Elt F) → (⟨S2048, .f32⟩ : BufTy).Contents (Elt F)),
    ternary main_call0_v12 main_call0_v11 main_call0_call0_v1 main_v8 ((fun p a b => select (broadcastInDim S2048 ![] bcast_S_S2048 p) a b) : (⟨S_, .i1⟩ : BufTy).Contents (Elt F) → (⟨S2048, .f32⟩ : BufTy).Contents (Elt F) → (⟨S2048, .f32⟩ : BufTy).Contents (Elt F) → (⟨S2048, .f32⟩ : BufTy).Contents (Elt F)),
    unary main_v7 main_v9 (broadcastInDim S1x2048 ![1] bcast_S2048_S1x2048_1 : (⟨S2048, .f32⟩ : BufTy).Contents (Elt F) → (⟨S1x2048, .f32⟩ : BufTy).Contents (Elt F)),
    unary main_v9 main_v10 (broadcastInDim S16384x2048 ![0, 1] bcast_S1x2048_S16384x2048_0_1 : (⟨S1x2048, .f32⟩ : BufTy).Contents (Elt F) → (⟨S16384x2048, .f32⟩ : BufTy).Contents (Elt F)),
    binary main_v4 main_v10 main_v11 (subf : (⟨S16384x2048, .f32⟩ : BufTy).Contents (Elt F) → (⟨S16384x2048, .f32⟩ : BufTy).Contents (Elt F) → (⟨S16384x2048, .f32⟩ : BufTy).Contents (Elt F)),
    unary main_arg3 main_v12 (broadcastInDim S1x2048 ![1] bcast_S2048_S1x2048_1 : (⟨S2048, .f32⟩ : BufTy).Contents (Elt F) → (⟨S1x2048, .f32⟩ : BufTy).Contents (Elt F)),
    unary main_v12 main_v13 (broadcastInDim S16384x2048 ![0, 1] bcast_S1x2048_S16384x2048_0_1 : (⟨S1x2048, .f32⟩ : BufTy).Contents (Elt F) → (⟨S16384x2048, .f32⟩ : BufTy).Contents (Elt F)),
    binary main_v13 main_v11 main_v14 (mulf : (⟨S16384x2048, .f32⟩ : BufTy).Contents (Elt F) → (⟨S16384x2048, .f32⟩ : BufTy).Contents (Elt F) → (⟨S16384x2048, .f32⟩ : BufTy).Contents (Elt F)),
    nullary main_cst_1 (constant S_ .f32 0x3727C5AC#32),
    unary main_cst_1 main_v15 (broadcastInDim S2048 ![] bcast_S_S2048 : (⟨S_, .f32⟩ : BufTy).Contents (Elt F) → (⟨S2048, .f32⟩ : BufTy).Contents (Elt F)),
    binary main_v8 main_v15 main_v16 (addf : (⟨S2048, .f32⟩ : BufTy).Contents (Elt F) → (⟨S2048, .f32⟩ : BufTy).Contents (Elt F) → (⟨S2048, .f32⟩ : BufTy).Contents (Elt F)),
    unary main_v16 main_v17 (Host.rsqrt : (⟨S2048, .f32⟩ : BufTy).Contents (Elt F) → (⟨S2048, .f32⟩ : BufTy).Contents (Elt F)),
    unary main_v17 main_v18 (broadcastInDim S1x2048 ![1] bcast_S2048_S1x2048_1 : (⟨S2048, .f32⟩ : BufTy).Contents (Elt F) → (⟨S1x2048, .f32⟩ : BufTy).Contents (Elt F)),
    unary main_v18 main_v19 (broadcastInDim S16384x2048 ![0, 1] bcast_S1x2048_S16384x2048_0_1 : (⟨S1x2048, .f32⟩ : BufTy).Contents (Elt F) → (⟨S16384x2048, .f32⟩ : BufTy).Contents (Elt F)),
    binary main_v14 main_v19 main_v20 (mulf : (⟨S16384x2048, .f32⟩ : BufTy).Contents (Elt F) → (⟨S16384x2048, .f32⟩ : BufTy).Contents (Elt F) → (⟨S16384x2048, .f32⟩ : BufTy).Contents (Elt F)),
    unary main_arg4 main_v21 (broadcastInDim S1x2048 ![1] bcast_S2048_S1x2048_1 : (⟨S2048, .f32⟩ : BufTy).Contents (Elt F) → (⟨S1x2048, .f32⟩ : BufTy).Contents (Elt F)),
    unary main_v21 main_v22 (broadcastInDim S16384x2048 ![0, 1] bcast_S1x2048_S16384x2048_0_1 : (⟨S1x2048, .f32⟩ : BufTy).Contents (Elt F) → (⟨S16384x2048, .f32⟩ : BufTy).Contents (Elt F)),
    binary main_v20 main_v22 main_v23 (addf : (⟨S16384x2048, .f32⟩ : BufTy).Contents (Elt F) → (⟨S16384x2048, .f32⟩ : BufTy).Contents (Elt F) → (⟨S16384x2048, .f32⟩ : BufTy).Contents (Elt F)) ]

/-- The second layer's 49 operations. -/
abbrev opsL2 : List (HloOp τ sig (Elt F)) :=
  [ unary main_arg5 main_v24 ((transpose S2048x2048 [1, 0] · transposes_S2048x2048_S2048x2048_1_0) : (⟨S2048x2048, .f32⟩ : BufTy).Contents (Elt F) → (⟨S2048x2048, .f32⟩ : BufTy).Contents (Elt F)),
    binary main_v23 main_v24 main_v25 ((fun l r => Host.dotGeneral dot_S16384x2048_S2048x2048_S16384x2048_1_0_0_1_n_n none l r) : (⟨S16384x2048, .f32⟩ : BufTy).Contents (Elt F) → (⟨S2048x2048, .f32⟩ : BufTy).Contents (Elt F) → (⟨S16384x2048, .f32⟩ : BufTy).Contents (Elt F)),
    unary main_arg6 main_v26 (broadcastInDim S1x2048 ![1] bcast_S2048_S1x2048_1 : (⟨S2048, .f32⟩ : BufTy).Contents (Elt F) → (⟨S1x2048, .f32⟩ : BufTy).Contents (Elt F)),
    unary main_v26 main_v27 (broadcastInDim S16384x2048 ![0, 1] bcast_S1x2048_S16384x2048_0_1 : (⟨S1x2048, .f32⟩ : BufTy).Contents (Elt F) → (⟨S16384x2048, .f32⟩ : BufTy).Contents (Elt F)),
    binary main_v25 main_v27 main_v28 (addf : (⟨S16384x2048, .f32⟩ : BufTy).Contents (Elt F) → (⟨S16384x2048, .f32⟩ : BufTy).Contents (Elt F) → (⟨S16384x2048, .f32⟩ : BufTy).Contents (Elt F)),
    nullary main_cst_2 (constant S_ .f32 0x00000000#32),
    binary main_v28 main_cst_2 main_v29 ((fun x v => Host.reduceAdd x v reducesTo_S16384x2048_S2048_d0 h_S_) : (⟨S16384x2048, .f32⟩ : BufTy).Contents (Elt F) → (⟨S_, .f32⟩ : BufTy).Contents (Elt F) → (⟨S2048, .f32⟩ : BufTy).Contents (Elt F)),
    nullary main_cst_3 (constant S_ .f32 0x46800000#32),
    unary main_cst_3 main_v30 (broadcastInDim S2048 ![] bcast_S_S2048 : (⟨S_, .f32⟩ : BufTy).Contents (Elt F) → (⟨S2048, .f32⟩ : BufTy).Contents (Elt F)),
    binary main_v29 main_v30 main_v31 (Host.divf : (⟨S2048, .f32⟩ : BufTy).Contents (Elt F) → (⟨S2048, .f32⟩ : BufTy).Contents (Elt F) → (⟨S2048, .f32⟩ : BufTy).Contents (Elt F)),
    nullary main_c_4 (constantI S_ 32 0#32),
    nullary main_call1_cst (constant S_ .f32 0x00000000#32),
    binary main_v28 main_call1_cst main_call1_v0 ((fun x v => Host.reduceAdd x v reducesTo_S16384x2048_S2048_d0 h_S_) : (⟨S16384x2048, .f32⟩ : BufTy).Contents (Elt F) → (⟨S_, .f32⟩ : BufTy).Contents (Elt F) → (⟨S2048, .f32⟩ : BufTy).Contents (Elt F)),
    unary main_call1_v0 main_call1_v1 ((broadcastInDim S1x2048 ![1] bcast_S2048_S1x2048_1) : (⟨S2048, .f32⟩ : BufTy).Contents (Elt F) → (⟨S1x2048, .f32⟩ : BufTy).Contents (Elt F)),
    nullary main_call1_cst_0 (constant S_ .f32 0x46800000#32),
    unary main_call1_cst_0 main_call1_v2 ((broadcastInDim S1x2048 ![] bcast_S_S1x2048) : (⟨S_, .f32⟩ : BufTy).Contents (Elt F) → (⟨S1x2048, .f32⟩ : BufTy).Contents (Elt F)),
    binary main_call1_v1 main_call1_v2 main_call1_v3 ((Host.divf) : (⟨S1x2048, .f32⟩ : BufTy).Contents (Elt F) → (⟨S1x2048, .f32⟩ : BufTy).Contents (Elt F) → (⟨S1x2048, .f32⟩ : BufTy).Contents (Elt F)),
    unary main_call1_v3 main_call1_v4 ((broadcastInDim S16384x2048 ![0, 1] bcast_S1x2048_S16384x2048_0_1) : (⟨S1x2048, .f32⟩ : BufTy).Contents (Elt F) → (⟨S16384x2048, .f32⟩ : BufTy).Contents (Elt F)),
    binary main_v28 main_call1_v4 main_call1_v5 ((subf) : (⟨S16384x2048, .f32⟩ : BufTy).Contents (Elt F) → (⟨S16384x2048, .f32⟩ : BufTy).Contents (Elt F) → (⟨S16384x2048, .f32⟩ : BufTy).Contents (Elt F)),
    binary main_call1_v5 main_call1_v5 main_call1_v6 ((mulf) : (⟨S16384x2048, .f32⟩ : BufTy).Contents (Elt F) → (⟨S16384x2048, .f32⟩ : BufTy).Contents (Elt F) → (⟨S16384x2048, .f32⟩ : BufTy).Contents (Elt F)),
    unary main_c_4 main_call1_v7 ((sitofp .f32) : (⟨S_, .i32⟩ : BufTy).Contents (Elt F) → (⟨S_, .f32⟩ : BufTy).Contents (Elt F)),
    nullary main_call1_cst_1 (constant S_ .f32 0x46800000#32),
    binary main_call1_cst_1 main_call1_v7 main_call1_v8 ((subf) : (⟨S_, .f32⟩ : BufTy).Contents (Elt F) → (⟨S_, .f32⟩ : BufTy).Contents (Elt F) → (⟨S_, .f32⟩ : BufTy).Contents (Elt F)),
    nullary main_call1_cst_2 (constant S_ .f32 0x00000000#32),
    binary main_call1_v6 main_call1_cst_2 main_call1_v9 ((fun x v => Host.reduceAdd x v reducesTo_S16384x2048_S2048_d0 h_S_) : (⟨S16384x2048, .f32⟩ : BufTy).Contents (Elt F) → (⟨S_, .f32⟩ : BufTy).Contents (Elt F) → (⟨S2048, .f32⟩ : BufTy).Contents (Elt F)),
    unary main_call1_v8 main_call1_v10 ((broadcastInDim S2048 ![] bcast_S_S2048) : (⟨S_, .f32⟩ : BufTy).Contents (Elt F) → (⟨S2048, .f32⟩ : BufTy).Contents (Elt F)),
    binary main_call1_v9 main_call1_v10 main_call1_v11 ((Host.divf) : (⟨S2048, .f32⟩ : BufTy).Contents (Elt F) → (⟨S2048, .f32⟩ : BufTy).Contents (Elt F) → (⟨S2048, .f32⟩ : BufTy).Contents (Elt F)),
    nullary main_call1_cst_3 (constant S_ .f32 0x00000000#32),
    binary main_call1_v8 main_call1_cst_3 main_call1_v12 ((cmpf .ogt) : (⟨S_, .f32⟩ : BufTy).Contents (Elt F) → (⟨S_, .f32⟩ : BufTy).Contents (Elt F) → (⟨S_, .i1⟩ : BufTy).Contents (Elt F)),
    nullary main_call1_cst_4 (constant S_ .f32 0x7FC00000#32),
    unary main_call1_cst_4 main_call1_call0_v0 ((id) : (⟨S_, .f32⟩ : BufTy).Contents (Elt F) → (⟨S_, .f32⟩ : BufTy).Contents (Elt F)),
    unary main_call1_call0_v0 main_call1_call0_v1 ((broadcastInDim S2048 ![] bcast_S_S2048) : (⟨S_, .f32⟩ : BufTy).Contents (Elt F) → (⟨S2048, .f32⟩ : BufTy).Contents (Elt F)),
    ternary main_call1_v12 main_call1_v11 main_call1_call0_v1 main_v32 ((fun p a b => select (broadcastInDim S2048 ![] bcast_S_S2048 p) a b) : (⟨S_, .i1⟩ : BufTy).Contents (Elt F) → (⟨S2048, .f32⟩ : BufTy).Contents (Elt F) → (⟨S2048, .f32⟩ : BufTy).Contents (Elt F) → (⟨S2048, .f32⟩ : BufTy).Contents (Elt F)),
    unary main_v31 main_v33 (broadcastInDim S1x2048 ![1] bcast_S2048_S1x2048_1 : (⟨S2048, .f32⟩ : BufTy).Contents (Elt F) → (⟨S1x2048, .f32⟩ : BufTy).Contents (Elt F)),
    unary main_v33 main_v34 (broadcastInDim S16384x2048 ![0, 1] bcast_S1x2048_S16384x2048_0_1 : (⟨S1x2048, .f32⟩ : BufTy).Contents (Elt F) → (⟨S16384x2048, .f32⟩ : BufTy).Contents (Elt F)),
    binary main_v28 main_v34 main_v35 (subf : (⟨S16384x2048, .f32⟩ : BufTy).Contents (Elt F) → (⟨S16384x2048, .f32⟩ : BufTy).Contents (Elt F) → (⟨S16384x2048, .f32⟩ : BufTy).Contents (Elt F)),
    unary main_arg7 main_v36 (broadcastInDim S1x2048 ![1] bcast_S2048_S1x2048_1 : (⟨S2048, .f32⟩ : BufTy).Contents (Elt F) → (⟨S1x2048, .f32⟩ : BufTy).Contents (Elt F)),
    unary main_v36 main_v37 (broadcastInDim S16384x2048 ![0, 1] bcast_S1x2048_S16384x2048_0_1 : (⟨S1x2048, .f32⟩ : BufTy).Contents (Elt F) → (⟨S16384x2048, .f32⟩ : BufTy).Contents (Elt F)),
    binary main_v37 main_v35 main_v38 (mulf : (⟨S16384x2048, .f32⟩ : BufTy).Contents (Elt F) → (⟨S16384x2048, .f32⟩ : BufTy).Contents (Elt F) → (⟨S16384x2048, .f32⟩ : BufTy).Contents (Elt F)),
    nullary main_cst_5 (constant S_ .f32 0x3727C5AC#32),
    unary main_cst_5 main_v39 (broadcastInDim S2048 ![] bcast_S_S2048 : (⟨S_, .f32⟩ : BufTy).Contents (Elt F) → (⟨S2048, .f32⟩ : BufTy).Contents (Elt F)),
    binary main_v32 main_v39 main_v40 (addf : (⟨S2048, .f32⟩ : BufTy).Contents (Elt F) → (⟨S2048, .f32⟩ : BufTy).Contents (Elt F) → (⟨S2048, .f32⟩ : BufTy).Contents (Elt F)),
    unary main_v40 main_v41 (Host.rsqrt : (⟨S2048, .f32⟩ : BufTy).Contents (Elt F) → (⟨S2048, .f32⟩ : BufTy).Contents (Elt F)),
    unary main_v41 main_v42 (broadcastInDim S1x2048 ![1] bcast_S2048_S1x2048_1 : (⟨S2048, .f32⟩ : BufTy).Contents (Elt F) → (⟨S1x2048, .f32⟩ : BufTy).Contents (Elt F)),
    unary main_v42 main_v43 (broadcastInDim S16384x2048 ![0, 1] bcast_S1x2048_S16384x2048_0_1 : (⟨S1x2048, .f32⟩ : BufTy).Contents (Elt F) → (⟨S16384x2048, .f32⟩ : BufTy).Contents (Elt F)),
    binary main_v38 main_v43 main_v44 (mulf : (⟨S16384x2048, .f32⟩ : BufTy).Contents (Elt F) → (⟨S16384x2048, .f32⟩ : BufTy).Contents (Elt F) → (⟨S16384x2048, .f32⟩ : BufTy).Contents (Elt F)),
    unary main_arg8 main_v45 (broadcastInDim S1x2048 ![1] bcast_S2048_S1x2048_1 : (⟨S2048, .f32⟩ : BufTy).Contents (Elt F) → (⟨S1x2048, .f32⟩ : BufTy).Contents (Elt F)),
    unary main_v45 main_v46 (broadcastInDim S16384x2048 ![0, 1] bcast_S1x2048_S16384x2048_0_1 : (⟨S1x2048, .f32⟩ : BufTy).Contents (Elt F) → (⟨S16384x2048, .f32⟩ : BufTy).Contents (Elt F)),
    binary main_v44 main_v46 main_v47 (addf : (⟨S16384x2048, .f32⟩ : BufTy).Contents (Elt F) → (⟨S16384x2048, .f32⟩ : BufTy).Contents (Elt F) → (⟨S16384x2048, .f32⟩ : BufTy).Contents (Elt F)) ]

/-- The third layer's 49 operations. -/
abbrev opsL3 : List (HloOp τ sig (Elt F)) :=
  [ unary main_arg9 main_v48 ((transpose S2048x1024 [1, 0] · transposes_S1024x2048_S2048x1024_1_0) : (⟨S1024x2048, .f32⟩ : BufTy).Contents (Elt F) → (⟨S2048x1024, .f32⟩ : BufTy).Contents (Elt F)),
    binary main_v47 main_v48 main_v49 ((fun l r => Host.dotGeneral dot_S16384x2048_S2048x1024_S16384x1024_1_0_0_1_n_n none l r) : (⟨S16384x2048, .f32⟩ : BufTy).Contents (Elt F) → (⟨S2048x1024, .f32⟩ : BufTy).Contents (Elt F) → (⟨S16384x1024, .f32⟩ : BufTy).Contents (Elt F)),
    unary main_arg10 main_v50 (broadcastInDim S1x1024 ![1] bcast_S1024_S1x1024_1 : (⟨S1024, .f32⟩ : BufTy).Contents (Elt F) → (⟨S1x1024, .f32⟩ : BufTy).Contents (Elt F)),
    unary main_v50 main_v51 (broadcastInDim S16384x1024 ![0, 1] bcast_S1x1024_S16384x1024_0_1 : (⟨S1x1024, .f32⟩ : BufTy).Contents (Elt F) → (⟨S16384x1024, .f32⟩ : BufTy).Contents (Elt F)),
    binary main_v49 main_v51 main_v52 (addf : (⟨S16384x1024, .f32⟩ : BufTy).Contents (Elt F) → (⟨S16384x1024, .f32⟩ : BufTy).Contents (Elt F) → (⟨S16384x1024, .f32⟩ : BufTy).Contents (Elt F)),
    nullary main_cst_6 (constant S_ .f32 0x00000000#32),
    binary main_v52 main_cst_6 main_v53 ((fun x v => Host.reduceAdd x v reducesTo_S16384x1024_S1024_d0 h_S_) : (⟨S16384x1024, .f32⟩ : BufTy).Contents (Elt F) → (⟨S_, .f32⟩ : BufTy).Contents (Elt F) → (⟨S1024, .f32⟩ : BufTy).Contents (Elt F)),
    nullary main_cst_7 (constant S_ .f32 0x46800000#32),
    unary main_cst_7 main_v54 (broadcastInDim S1024 ![] bcast_S_S1024 : (⟨S_, .f32⟩ : BufTy).Contents (Elt F) → (⟨S1024, .f32⟩ : BufTy).Contents (Elt F)),
    binary main_v53 main_v54 main_v55 (Host.divf : (⟨S1024, .f32⟩ : BufTy).Contents (Elt F) → (⟨S1024, .f32⟩ : BufTy).Contents (Elt F) → (⟨S1024, .f32⟩ : BufTy).Contents (Elt F)),
    nullary main_c_8 (constantI S_ 32 0#32),
    nullary main_call2_cst (constant S_ .f32 0x00000000#32),
    binary main_v52 main_call2_cst main_call2_v0 ((fun x v => Host.reduceAdd x v reducesTo_S16384x1024_S1024_d0 h_S_) : (⟨S16384x1024, .f32⟩ : BufTy).Contents (Elt F) → (⟨S_, .f32⟩ : BufTy).Contents (Elt F) → (⟨S1024, .f32⟩ : BufTy).Contents (Elt F)),
    unary main_call2_v0 main_call2_v1 ((broadcastInDim S1x1024 ![1] bcast_S1024_S1x1024_1) : (⟨S1024, .f32⟩ : BufTy).Contents (Elt F) → (⟨S1x1024, .f32⟩ : BufTy).Contents (Elt F)),
    nullary main_call2_cst_0 (constant S_ .f32 0x46800000#32),
    unary main_call2_cst_0 main_call2_v2 ((broadcastInDim S1x1024 ![] bcast_S_S1x1024) : (⟨S_, .f32⟩ : BufTy).Contents (Elt F) → (⟨S1x1024, .f32⟩ : BufTy).Contents (Elt F)),
    binary main_call2_v1 main_call2_v2 main_call2_v3 ((Host.divf) : (⟨S1x1024, .f32⟩ : BufTy).Contents (Elt F) → (⟨S1x1024, .f32⟩ : BufTy).Contents (Elt F) → (⟨S1x1024, .f32⟩ : BufTy).Contents (Elt F)),
    unary main_call2_v3 main_call2_v4 ((broadcastInDim S16384x1024 ![0, 1] bcast_S1x1024_S16384x1024_0_1) : (⟨S1x1024, .f32⟩ : BufTy).Contents (Elt F) → (⟨S16384x1024, .f32⟩ : BufTy).Contents (Elt F)),
    binary main_v52 main_call2_v4 main_call2_v5 ((subf) : (⟨S16384x1024, .f32⟩ : BufTy).Contents (Elt F) → (⟨S16384x1024, .f32⟩ : BufTy).Contents (Elt F) → (⟨S16384x1024, .f32⟩ : BufTy).Contents (Elt F)),
    binary main_call2_v5 main_call2_v5 main_call2_v6 ((mulf) : (⟨S16384x1024, .f32⟩ : BufTy).Contents (Elt F) → (⟨S16384x1024, .f32⟩ : BufTy).Contents (Elt F) → (⟨S16384x1024, .f32⟩ : BufTy).Contents (Elt F)),
    unary main_c_8 main_call2_v7 ((sitofp .f32) : (⟨S_, .i32⟩ : BufTy).Contents (Elt F) → (⟨S_, .f32⟩ : BufTy).Contents (Elt F)),
    nullary main_call2_cst_1 (constant S_ .f32 0x46800000#32),
    binary main_call2_cst_1 main_call2_v7 main_call2_v8 ((subf) : (⟨S_, .f32⟩ : BufTy).Contents (Elt F) → (⟨S_, .f32⟩ : BufTy).Contents (Elt F) → (⟨S_, .f32⟩ : BufTy).Contents (Elt F)),
    nullary main_call2_cst_2 (constant S_ .f32 0x00000000#32),
    binary main_call2_v6 main_call2_cst_2 main_call2_v9 ((fun x v => Host.reduceAdd x v reducesTo_S16384x1024_S1024_d0 h_S_) : (⟨S16384x1024, .f32⟩ : BufTy).Contents (Elt F) → (⟨S_, .f32⟩ : BufTy).Contents (Elt F) → (⟨S1024, .f32⟩ : BufTy).Contents (Elt F)),
    unary main_call2_v8 main_call2_v10 ((broadcastInDim S1024 ![] bcast_S_S1024) : (⟨S_, .f32⟩ : BufTy).Contents (Elt F) → (⟨S1024, .f32⟩ : BufTy).Contents (Elt F)),
    binary main_call2_v9 main_call2_v10 main_call2_v11 ((Host.divf) : (⟨S1024, .f32⟩ : BufTy).Contents (Elt F) → (⟨S1024, .f32⟩ : BufTy).Contents (Elt F) → (⟨S1024, .f32⟩ : BufTy).Contents (Elt F)),
    nullary main_call2_cst_3 (constant S_ .f32 0x00000000#32),
    binary main_call2_v8 main_call2_cst_3 main_call2_v12 ((cmpf .ogt) : (⟨S_, .f32⟩ : BufTy).Contents (Elt F) → (⟨S_, .f32⟩ : BufTy).Contents (Elt F) → (⟨S_, .i1⟩ : BufTy).Contents (Elt F)),
    nullary main_call2_cst_4 (constant S_ .f32 0x7FC00000#32),
    unary main_call2_cst_4 main_call2_call0_v0 ((id) : (⟨S_, .f32⟩ : BufTy).Contents (Elt F) → (⟨S_, .f32⟩ : BufTy).Contents (Elt F)),
    unary main_call2_call0_v0 main_call2_call0_v1 ((broadcastInDim S1024 ![] bcast_S_S1024) : (⟨S_, .f32⟩ : BufTy).Contents (Elt F) → (⟨S1024, .f32⟩ : BufTy).Contents (Elt F)),
    ternary main_call2_v12 main_call2_v11 main_call2_call0_v1 main_v56 ((fun p a b => select (broadcastInDim S1024 ![] bcast_S_S1024 p) a b) : (⟨S_, .i1⟩ : BufTy).Contents (Elt F) → (⟨S1024, .f32⟩ : BufTy).Contents (Elt F) → (⟨S1024, .f32⟩ : BufTy).Contents (Elt F) → (⟨S1024, .f32⟩ : BufTy).Contents (Elt F)),
    unary main_v55 main_v57 (broadcastInDim S1x1024 ![1] bcast_S1024_S1x1024_1 : (⟨S1024, .f32⟩ : BufTy).Contents (Elt F) → (⟨S1x1024, .f32⟩ : BufTy).Contents (Elt F)),
    unary main_v57 main_v58 (broadcastInDim S16384x1024 ![0, 1] bcast_S1x1024_S16384x1024_0_1 : (⟨S1x1024, .f32⟩ : BufTy).Contents (Elt F) → (⟨S16384x1024, .f32⟩ : BufTy).Contents (Elt F)),
    binary main_v52 main_v58 main_v59 (subf : (⟨S16384x1024, .f32⟩ : BufTy).Contents (Elt F) → (⟨S16384x1024, .f32⟩ : BufTy).Contents (Elt F) → (⟨S16384x1024, .f32⟩ : BufTy).Contents (Elt F)),
    unary main_arg11 main_v60 (broadcastInDim S1x1024 ![1] bcast_S1024_S1x1024_1 : (⟨S1024, .f32⟩ : BufTy).Contents (Elt F) → (⟨S1x1024, .f32⟩ : BufTy).Contents (Elt F)),
    unary main_v60 main_v61 (broadcastInDim S16384x1024 ![0, 1] bcast_S1x1024_S16384x1024_0_1 : (⟨S1x1024, .f32⟩ : BufTy).Contents (Elt F) → (⟨S16384x1024, .f32⟩ : BufTy).Contents (Elt F)),
    binary main_v61 main_v59 main_v62 (mulf : (⟨S16384x1024, .f32⟩ : BufTy).Contents (Elt F) → (⟨S16384x1024, .f32⟩ : BufTy).Contents (Elt F) → (⟨S16384x1024, .f32⟩ : BufTy).Contents (Elt F)),
    nullary main_cst_9 (constant S_ .f32 0x3727C5AC#32),
    unary main_cst_9 main_v63 (broadcastInDim S1024 ![] bcast_S_S1024 : (⟨S_, .f32⟩ : BufTy).Contents (Elt F) → (⟨S1024, .f32⟩ : BufTy).Contents (Elt F)),
    binary main_v56 main_v63 main_v64 (addf : (⟨S1024, .f32⟩ : BufTy).Contents (Elt F) → (⟨S1024, .f32⟩ : BufTy).Contents (Elt F) → (⟨S1024, .f32⟩ : BufTy).Contents (Elt F)),
    unary main_v64 main_v65 (Host.rsqrt : (⟨S1024, .f32⟩ : BufTy).Contents (Elt F) → (⟨S1024, .f32⟩ : BufTy).Contents (Elt F)),
    unary main_v65 main_v66 (broadcastInDim S1x1024 ![1] bcast_S1024_S1x1024_1 : (⟨S1024, .f32⟩ : BufTy).Contents (Elt F) → (⟨S1x1024, .f32⟩ : BufTy).Contents (Elt F)),
    unary main_v66 main_v67 (broadcastInDim S16384x1024 ![0, 1] bcast_S1x1024_S16384x1024_0_1 : (⟨S1x1024, .f32⟩ : BufTy).Contents (Elt F) → (⟨S16384x1024, .f32⟩ : BufTy).Contents (Elt F)),
    binary main_v62 main_v67 main_v68 (mulf : (⟨S16384x1024, .f32⟩ : BufTy).Contents (Elt F) → (⟨S16384x1024, .f32⟩ : BufTy).Contents (Elt F) → (⟨S16384x1024, .f32⟩ : BufTy).Contents (Elt F)),
    unary main_arg12 main_v69 (broadcastInDim S1x1024 ![1] bcast_S1024_S1x1024_1 : (⟨S1024, .f32⟩ : BufTy).Contents (Elt F) → (⟨S1x1024, .f32⟩ : BufTy).Contents (Elt F)),
    unary main_v69 main_v70 (broadcastInDim S16384x1024 ![0, 1] bcast_S1x1024_S16384x1024_0_1 : (⟨S1x1024, .f32⟩ : BufTy).Contents (Elt F) → (⟨S16384x1024, .f32⟩ : BufTy).Contents (Elt F)),
    binary main_v68 main_v70 main_v71 (addf : (⟨S16384x1024, .f32⟩ : BufTy).Contents (Elt F) → (⟨S16384x1024, .f32⟩ : BufTy).Contents (Elt F) → (⟨S16384x1024, .f32⟩ : BufTy).Contents (Elt F)) ]

/-- The third layer's first 4 operations (the product and the bias's two broadcasts): those @main's first part
    (`main_part0`) ends with. -/
abbrev opsL3a : List (HloOp τ sig (Elt F)) :=
  [ unary main_arg9 main_v48 ((transpose S2048x1024 [1, 0] · transposes_S1024x2048_S2048x1024_1_0) : (⟨S1024x2048, .f32⟩ : BufTy).Contents (Elt F) → (⟨S2048x1024, .f32⟩ : BufTy).Contents (Elt F)),
    binary main_v47 main_v48 main_v49 ((fun l r => Host.dotGeneral dot_S16384x2048_S2048x1024_S16384x1024_1_0_0_1_n_n none l r) : (⟨S16384x2048, .f32⟩ : BufTy).Contents (Elt F) → (⟨S2048x1024, .f32⟩ : BufTy).Contents (Elt F) → (⟨S16384x1024, .f32⟩ : BufTy).Contents (Elt F)),
    unary main_arg10 main_v50 (broadcastInDim S1x1024 ![1] bcast_S1024_S1x1024_1 : (⟨S1024, .f32⟩ : BufTy).Contents (Elt F) → (⟨S1x1024, .f32⟩ : BufTy).Contents (Elt F)),
    unary main_v50 main_v51 (broadcastInDim S16384x1024 ![0, 1] bcast_S1x1024_S16384x1024_0_1 : (⟨S1x1024, .f32⟩ : BufTy).Contents (Elt F) → (⟨S16384x1024, .f32⟩ : BufTy).Contents (Elt F)) ]

/-- The third layer's remaining 45 operations: @main's second part (`main_part1`). -/
abbrev opsL3b : List (HloOp τ sig (Elt F)) :=
  [ binary main_v49 main_v51 main_v52 (addf : (⟨S16384x1024, .f32⟩ : BufTy).Contents (Elt F) → (⟨S16384x1024, .f32⟩ : BufTy).Contents (Elt F) → (⟨S16384x1024, .f32⟩ : BufTy).Contents (Elt F)),
    nullary main_cst_6 (constant S_ .f32 0x00000000#32),
    binary main_v52 main_cst_6 main_v53 ((fun x v => Host.reduceAdd x v reducesTo_S16384x1024_S1024_d0 h_S_) : (⟨S16384x1024, .f32⟩ : BufTy).Contents (Elt F) → (⟨S_, .f32⟩ : BufTy).Contents (Elt F) → (⟨S1024, .f32⟩ : BufTy).Contents (Elt F)),
    nullary main_cst_7 (constant S_ .f32 0x46800000#32),
    unary main_cst_7 main_v54 (broadcastInDim S1024 ![] bcast_S_S1024 : (⟨S_, .f32⟩ : BufTy).Contents (Elt F) → (⟨S1024, .f32⟩ : BufTy).Contents (Elt F)),
    binary main_v53 main_v54 main_v55 (Host.divf : (⟨S1024, .f32⟩ : BufTy).Contents (Elt F) → (⟨S1024, .f32⟩ : BufTy).Contents (Elt F) → (⟨S1024, .f32⟩ : BufTy).Contents (Elt F)),
    nullary main_c_8 (constantI S_ 32 0#32),
    nullary main_call2_cst (constant S_ .f32 0x00000000#32),
    binary main_v52 main_call2_cst main_call2_v0 ((fun x v => Host.reduceAdd x v reducesTo_S16384x1024_S1024_d0 h_S_) : (⟨S16384x1024, .f32⟩ : BufTy).Contents (Elt F) → (⟨S_, .f32⟩ : BufTy).Contents (Elt F) → (⟨S1024, .f32⟩ : BufTy).Contents (Elt F)),
    unary main_call2_v0 main_call2_v1 ((broadcastInDim S1x1024 ![1] bcast_S1024_S1x1024_1) : (⟨S1024, .f32⟩ : BufTy).Contents (Elt F) → (⟨S1x1024, .f32⟩ : BufTy).Contents (Elt F)),
    nullary main_call2_cst_0 (constant S_ .f32 0x46800000#32),
    unary main_call2_cst_0 main_call2_v2 ((broadcastInDim S1x1024 ![] bcast_S_S1x1024) : (⟨S_, .f32⟩ : BufTy).Contents (Elt F) → (⟨S1x1024, .f32⟩ : BufTy).Contents (Elt F)),
    binary main_call2_v1 main_call2_v2 main_call2_v3 ((Host.divf) : (⟨S1x1024, .f32⟩ : BufTy).Contents (Elt F) → (⟨S1x1024, .f32⟩ : BufTy).Contents (Elt F) → (⟨S1x1024, .f32⟩ : BufTy).Contents (Elt F)),
    unary main_call2_v3 main_call2_v4 ((broadcastInDim S16384x1024 ![0, 1] bcast_S1x1024_S16384x1024_0_1) : (⟨S1x1024, .f32⟩ : BufTy).Contents (Elt F) → (⟨S16384x1024, .f32⟩ : BufTy).Contents (Elt F)),
    binary main_v52 main_call2_v4 main_call2_v5 ((subf) : (⟨S16384x1024, .f32⟩ : BufTy).Contents (Elt F) → (⟨S16384x1024, .f32⟩ : BufTy).Contents (Elt F) → (⟨S16384x1024, .f32⟩ : BufTy).Contents (Elt F)),
    binary main_call2_v5 main_call2_v5 main_call2_v6 ((mulf) : (⟨S16384x1024, .f32⟩ : BufTy).Contents (Elt F) → (⟨S16384x1024, .f32⟩ : BufTy).Contents (Elt F) → (⟨S16384x1024, .f32⟩ : BufTy).Contents (Elt F)),
    unary main_c_8 main_call2_v7 ((sitofp .f32) : (⟨S_, .i32⟩ : BufTy).Contents (Elt F) → (⟨S_, .f32⟩ : BufTy).Contents (Elt F)),
    nullary main_call2_cst_1 (constant S_ .f32 0x46800000#32),
    binary main_call2_cst_1 main_call2_v7 main_call2_v8 ((subf) : (⟨S_, .f32⟩ : BufTy).Contents (Elt F) → (⟨S_, .f32⟩ : BufTy).Contents (Elt F) → (⟨S_, .f32⟩ : BufTy).Contents (Elt F)),
    nullary main_call2_cst_2 (constant S_ .f32 0x00000000#32),
    binary main_call2_v6 main_call2_cst_2 main_call2_v9 ((fun x v => Host.reduceAdd x v reducesTo_S16384x1024_S1024_d0 h_S_) : (⟨S16384x1024, .f32⟩ : BufTy).Contents (Elt F) → (⟨S_, .f32⟩ : BufTy).Contents (Elt F) → (⟨S1024, .f32⟩ : BufTy).Contents (Elt F)),
    unary main_call2_v8 main_call2_v10 ((broadcastInDim S1024 ![] bcast_S_S1024) : (⟨S_, .f32⟩ : BufTy).Contents (Elt F) → (⟨S1024, .f32⟩ : BufTy).Contents (Elt F)),
    binary main_call2_v9 main_call2_v10 main_call2_v11 ((Host.divf) : (⟨S1024, .f32⟩ : BufTy).Contents (Elt F) → (⟨S1024, .f32⟩ : BufTy).Contents (Elt F) → (⟨S1024, .f32⟩ : BufTy).Contents (Elt F)),
    nullary main_call2_cst_3 (constant S_ .f32 0x00000000#32),
    binary main_call2_v8 main_call2_cst_3 main_call2_v12 ((cmpf .ogt) : (⟨S_, .f32⟩ : BufTy).Contents (Elt F) → (⟨S_, .f32⟩ : BufTy).Contents (Elt F) → (⟨S_, .i1⟩ : BufTy).Contents (Elt F)),
    nullary main_call2_cst_4 (constant S_ .f32 0x7FC00000#32),
    unary main_call2_cst_4 main_call2_call0_v0 ((id) : (⟨S_, .f32⟩ : BufTy).Contents (Elt F) → (⟨S_, .f32⟩ : BufTy).Contents (Elt F)),
    unary main_call2_call0_v0 main_call2_call0_v1 ((broadcastInDim S1024 ![] bcast_S_S1024) : (⟨S_, .f32⟩ : BufTy).Contents (Elt F) → (⟨S1024, .f32⟩ : BufTy).Contents (Elt F)),
    ternary main_call2_v12 main_call2_v11 main_call2_call0_v1 main_v56 ((fun p a b => select (broadcastInDim S1024 ![] bcast_S_S1024 p) a b) : (⟨S_, .i1⟩ : BufTy).Contents (Elt F) → (⟨S1024, .f32⟩ : BufTy).Contents (Elt F) → (⟨S1024, .f32⟩ : BufTy).Contents (Elt F) → (⟨S1024, .f32⟩ : BufTy).Contents (Elt F)),
    unary main_v55 main_v57 (broadcastInDim S1x1024 ![1] bcast_S1024_S1x1024_1 : (⟨S1024, .f32⟩ : BufTy).Contents (Elt F) → (⟨S1x1024, .f32⟩ : BufTy).Contents (Elt F)),
    unary main_v57 main_v58 (broadcastInDim S16384x1024 ![0, 1] bcast_S1x1024_S16384x1024_0_1 : (⟨S1x1024, .f32⟩ : BufTy).Contents (Elt F) → (⟨S16384x1024, .f32⟩ : BufTy).Contents (Elt F)),
    binary main_v52 main_v58 main_v59 (subf : (⟨S16384x1024, .f32⟩ : BufTy).Contents (Elt F) → (⟨S16384x1024, .f32⟩ : BufTy).Contents (Elt F) → (⟨S16384x1024, .f32⟩ : BufTy).Contents (Elt F)),
    unary main_arg11 main_v60 (broadcastInDim S1x1024 ![1] bcast_S1024_S1x1024_1 : (⟨S1024, .f32⟩ : BufTy).Contents (Elt F) → (⟨S1x1024, .f32⟩ : BufTy).Contents (Elt F)),
    unary main_v60 main_v61 (broadcastInDim S16384x1024 ![0, 1] bcast_S1x1024_S16384x1024_0_1 : (⟨S1x1024, .f32⟩ : BufTy).Contents (Elt F) → (⟨S16384x1024, .f32⟩ : BufTy).Contents (Elt F)),
    binary main_v61 main_v59 main_v62 (mulf : (⟨S16384x1024, .f32⟩ : BufTy).Contents (Elt F) → (⟨S16384x1024, .f32⟩ : BufTy).Contents (Elt F) → (⟨S16384x1024, .f32⟩ : BufTy).Contents (Elt F)),
    nullary main_cst_9 (constant S_ .f32 0x3727C5AC#32),
    unary main_cst_9 main_v63 (broadcastInDim S1024 ![] bcast_S_S1024 : (⟨S_, .f32⟩ : BufTy).Contents (Elt F) → (⟨S1024, .f32⟩ : BufTy).Contents (Elt F)),
    binary main_v56 main_v63 main_v64 (addf : (⟨S1024, .f32⟩ : BufTy).Contents (Elt F) → (⟨S1024, .f32⟩ : BufTy).Contents (Elt F) → (⟨S1024, .f32⟩ : BufTy).Contents (Elt F)),
    unary main_v64 main_v65 (Host.rsqrt : (⟨S1024, .f32⟩ : BufTy).Contents (Elt F) → (⟨S1024, .f32⟩ : BufTy).Contents (Elt F)),
    unary main_v65 main_v66 (broadcastInDim S1x1024 ![1] bcast_S1024_S1x1024_1 : (⟨S1024, .f32⟩ : BufTy).Contents (Elt F) → (⟨S1x1024, .f32⟩ : BufTy).Contents (Elt F)),
    unary main_v66 main_v67 (broadcastInDim S16384x1024 ![0, 1] bcast_S1x1024_S16384x1024_0_1 : (⟨S1x1024, .f32⟩ : BufTy).Contents (Elt F) → (⟨S16384x1024, .f32⟩ : BufTy).Contents (Elt F)),
    binary main_v62 main_v67 main_v68 (mulf : (⟨S16384x1024, .f32⟩ : BufTy).Contents (Elt F) → (⟨S16384x1024, .f32⟩ : BufTy).Contents (Elt F) → (⟨S16384x1024, .f32⟩ : BufTy).Contents (Elt F)),
    unary main_arg12 main_v69 (broadcastInDim S1x1024 ![1] bcast_S1024_S1x1024_1 : (⟨S1024, .f32⟩ : BufTy).Contents (Elt F) → (⟨S1x1024, .f32⟩ : BufTy).Contents (Elt F)),
    unary main_v69 main_v70 (broadcastInDim S16384x1024 ![0, 1] bcast_S1x1024_S16384x1024_0_1 : (⟨S1x1024, .f32⟩ : BufTy).Contents (Elt F) → (⟨S16384x1024, .f32⟩ : BufTy).Contents (Elt F)),
    binary main_v68 main_v70 main_v71 (addf : (⟨S16384x1024, .f32⟩ : BufTy).Contents (Elt F) → (⟨S16384x1024, .f32⟩ : BufTy).Contents (Elt F) → (⟨S16384x1024, .f32⟩ : BufTy).Contents (Elt F)) ]

/-- @main's 147 operations, in order, each call of the variance function written out at its own buffers. -/
abbrev ops : List (HloOp τ sig (Elt F)) :=
  [ unary main_arg1 main_v0 ((transpose S1024x2048 [1, 0] · transposes_S2048x1024_S1024x2048_1_0) : (⟨S2048x1024, .f32⟩ : BufTy).Contents (Elt F) → (⟨S1024x2048, .f32⟩ : BufTy).Contents (Elt F)),
    binary main_arg0 main_v0 main_v1 ((fun l r => Host.dotGeneral dot_S16384x1024_S1024x2048_S16384x2048_1_0_0_1_n_n none l r) : (⟨S16384x1024, .f32⟩ : BufTy).Contents (Elt F) → (⟨S1024x2048, .f32⟩ : BufTy).Contents (Elt F) → (⟨S16384x2048, .f32⟩ : BufTy).Contents (Elt F)),
    unary main_arg2 main_v2 (broadcastInDim S1x2048 ![1] bcast_S2048_S1x2048_1 : (⟨S2048, .f32⟩ : BufTy).Contents (Elt F) → (⟨S1x2048, .f32⟩ : BufTy).Contents (Elt F)),
    unary main_v2 main_v3 (broadcastInDim S16384x2048 ![0, 1] bcast_S1x2048_S16384x2048_0_1 : (⟨S1x2048, .f32⟩ : BufTy).Contents (Elt F) → (⟨S16384x2048, .f32⟩ : BufTy).Contents (Elt F)),
    binary main_v1 main_v3 main_v4 (addf : (⟨S16384x2048, .f32⟩ : BufTy).Contents (Elt F) → (⟨S16384x2048, .f32⟩ : BufTy).Contents (Elt F) → (⟨S16384x2048, .f32⟩ : BufTy).Contents (Elt F)),
    nullary main_cst (constant S_ .f32 0x00000000#32),
    binary main_v4 main_cst main_v5 ((fun x v => Host.reduceAdd x v reducesTo_S16384x2048_S2048_d0 h_S_) : (⟨S16384x2048, .f32⟩ : BufTy).Contents (Elt F) → (⟨S_, .f32⟩ : BufTy).Contents (Elt F) → (⟨S2048, .f32⟩ : BufTy).Contents (Elt F)),
    nullary main_cst_0 (constant S_ .f32 0x46800000#32),
    unary main_cst_0 main_v6 (broadcastInDim S2048 ![] bcast_S_S2048 : (⟨S_, .f32⟩ : BufTy).Contents (Elt F) → (⟨S2048, .f32⟩ : BufTy).Contents (Elt F)),
    binary main_v5 main_v6 main_v7 (Host.divf : (⟨S2048, .f32⟩ : BufTy).Contents (Elt F) → (⟨S2048, .f32⟩ : BufTy).Contents (Elt F) → (⟨S2048, .f32⟩ : BufTy).Contents (Elt F)),
    nullary main_c (constantI S_ 32 0#32),
    nullary main_call0_cst (constant S_ .f32 0x00000000#32),
    binary main_v4 main_call0_cst main_call0_v0 ((fun x v => Host.reduceAdd x v reducesTo_S16384x2048_S2048_d0 h_S_) : (⟨S16384x2048, .f32⟩ : BufTy).Contents (Elt F) → (⟨S_, .f32⟩ : BufTy).Contents (Elt F) → (⟨S2048, .f32⟩ : BufTy).Contents (Elt F)),
    unary main_call0_v0 main_call0_v1 ((broadcastInDim S1x2048 ![1] bcast_S2048_S1x2048_1) : (⟨S2048, .f32⟩ : BufTy).Contents (Elt F) → (⟨S1x2048, .f32⟩ : BufTy).Contents (Elt F)),
    nullary main_call0_cst_0 (constant S_ .f32 0x46800000#32),
    unary main_call0_cst_0 main_call0_v2 ((broadcastInDim S1x2048 ![] bcast_S_S1x2048) : (⟨S_, .f32⟩ : BufTy).Contents (Elt F) → (⟨S1x2048, .f32⟩ : BufTy).Contents (Elt F)),
    binary main_call0_v1 main_call0_v2 main_call0_v3 ((Host.divf) : (⟨S1x2048, .f32⟩ : BufTy).Contents (Elt F) → (⟨S1x2048, .f32⟩ : BufTy).Contents (Elt F) → (⟨S1x2048, .f32⟩ : BufTy).Contents (Elt F)),
    unary main_call0_v3 main_call0_v4 ((broadcastInDim S16384x2048 ![0, 1] bcast_S1x2048_S16384x2048_0_1) : (⟨S1x2048, .f32⟩ : BufTy).Contents (Elt F) → (⟨S16384x2048, .f32⟩ : BufTy).Contents (Elt F)),
    binary main_v4 main_call0_v4 main_call0_v5 ((subf) : (⟨S16384x2048, .f32⟩ : BufTy).Contents (Elt F) → (⟨S16384x2048, .f32⟩ : BufTy).Contents (Elt F) → (⟨S16384x2048, .f32⟩ : BufTy).Contents (Elt F)),
    binary main_call0_v5 main_call0_v5 main_call0_v6 ((mulf) : (⟨S16384x2048, .f32⟩ : BufTy).Contents (Elt F) → (⟨S16384x2048, .f32⟩ : BufTy).Contents (Elt F) → (⟨S16384x2048, .f32⟩ : BufTy).Contents (Elt F)),
    unary main_c main_call0_v7 ((sitofp .f32) : (⟨S_, .i32⟩ : BufTy).Contents (Elt F) → (⟨S_, .f32⟩ : BufTy).Contents (Elt F)),
    nullary main_call0_cst_1 (constant S_ .f32 0x46800000#32),
    binary main_call0_cst_1 main_call0_v7 main_call0_v8 ((subf) : (⟨S_, .f32⟩ : BufTy).Contents (Elt F) → (⟨S_, .f32⟩ : BufTy).Contents (Elt F) → (⟨S_, .f32⟩ : BufTy).Contents (Elt F)),
    nullary main_call0_cst_2 (constant S_ .f32 0x00000000#32),
    binary main_call0_v6 main_call0_cst_2 main_call0_v9 ((fun x v => Host.reduceAdd x v reducesTo_S16384x2048_S2048_d0 h_S_) : (⟨S16384x2048, .f32⟩ : BufTy).Contents (Elt F) → (⟨S_, .f32⟩ : BufTy).Contents (Elt F) → (⟨S2048, .f32⟩ : BufTy).Contents (Elt F)),
    unary main_call0_v8 main_call0_v10 ((broadcastInDim S2048 ![] bcast_S_S2048) : (⟨S_, .f32⟩ : BufTy).Contents (Elt F) → (⟨S2048, .f32⟩ : BufTy).Contents (Elt F)),
    binary main_call0_v9 main_call0_v10 main_call0_v11 ((Host.divf) : (⟨S2048, .f32⟩ : BufTy).Contents (Elt F) → (⟨S2048, .f32⟩ : BufTy).Contents (Elt F) → (⟨S2048, .f32⟩ : BufTy).Contents (Elt F)),
    nullary main_call0_cst_3 (constant S_ .f32 0x00000000#32),
    binary main_call0_v8 main_call0_cst_3 main_call0_v12 ((cmpf .ogt) : (⟨S_, .f32⟩ : BufTy).Contents (Elt F) → (⟨S_, .f32⟩ : BufTy).Contents (Elt F) → (⟨S_, .i1⟩ : BufTy).Contents (Elt F)),
    nullary main_call0_cst_4 (constant S_ .f32 0x7FC00000#32),
    unary main_call0_cst_4 main_call0_call0_v0 ((id) : (⟨S_, .f32⟩ : BufTy).Contents (Elt F) → (⟨S_, .f32⟩ : BufTy).Contents (Elt F)),
    unary main_call0_call0_v0 main_call0_call0_v1 ((broadcastInDim S2048 ![] bcast_S_S2048) : (⟨S_, .f32⟩ : BufTy).Contents (Elt F) → (⟨S2048, .f32⟩ : BufTy).Contents (Elt F)),
    ternary main_call0_v12 main_call0_v11 main_call0_call0_v1 main_v8 ((fun p a b => select (broadcastInDim S2048 ![] bcast_S_S2048 p) a b) : (⟨S_, .i1⟩ : BufTy).Contents (Elt F) → (⟨S2048, .f32⟩ : BufTy).Contents (Elt F) → (⟨S2048, .f32⟩ : BufTy).Contents (Elt F) → (⟨S2048, .f32⟩ : BufTy).Contents (Elt F)),
    unary main_v7 main_v9 (broadcastInDim S1x2048 ![1] bcast_S2048_S1x2048_1 : (⟨S2048, .f32⟩ : BufTy).Contents (Elt F) → (⟨S1x2048, .f32⟩ : BufTy).Contents (Elt F)),
    unary main_v9 main_v10 (broadcastInDim S16384x2048 ![0, 1] bcast_S1x2048_S16384x2048_0_1 : (⟨S1x2048, .f32⟩ : BufTy).Contents (Elt F) → (⟨S16384x2048, .f32⟩ : BufTy).Contents (Elt F)),
    binary main_v4 main_v10 main_v11 (subf : (⟨S16384x2048, .f32⟩ : BufTy).Contents (Elt F) → (⟨S16384x2048, .f32⟩ : BufTy).Contents (Elt F) → (⟨S16384x2048, .f32⟩ : BufTy).Contents (Elt F)),
    unary main_arg3 main_v12 (broadcastInDim S1x2048 ![1] bcast_S2048_S1x2048_1 : (⟨S2048, .f32⟩ : BufTy).Contents (Elt F) → (⟨S1x2048, .f32⟩ : BufTy).Contents (Elt F)),
    unary main_v12 main_v13 (broadcastInDim S16384x2048 ![0, 1] bcast_S1x2048_S16384x2048_0_1 : (⟨S1x2048, .f32⟩ : BufTy).Contents (Elt F) → (⟨S16384x2048, .f32⟩ : BufTy).Contents (Elt F)),
    binary main_v13 main_v11 main_v14 (mulf : (⟨S16384x2048, .f32⟩ : BufTy).Contents (Elt F) → (⟨S16384x2048, .f32⟩ : BufTy).Contents (Elt F) → (⟨S16384x2048, .f32⟩ : BufTy).Contents (Elt F)),
    nullary main_cst_1 (constant S_ .f32 0x3727C5AC#32),
    unary main_cst_1 main_v15 (broadcastInDim S2048 ![] bcast_S_S2048 : (⟨S_, .f32⟩ : BufTy).Contents (Elt F) → (⟨S2048, .f32⟩ : BufTy).Contents (Elt F)),
    binary main_v8 main_v15 main_v16 (addf : (⟨S2048, .f32⟩ : BufTy).Contents (Elt F) → (⟨S2048, .f32⟩ : BufTy).Contents (Elt F) → (⟨S2048, .f32⟩ : BufTy).Contents (Elt F)),
    unary main_v16 main_v17 (Host.rsqrt : (⟨S2048, .f32⟩ : BufTy).Contents (Elt F) → (⟨S2048, .f32⟩ : BufTy).Contents (Elt F)),
    unary main_v17 main_v18 (broadcastInDim S1x2048 ![1] bcast_S2048_S1x2048_1 : (⟨S2048, .f32⟩ : BufTy).Contents (Elt F) → (⟨S1x2048, .f32⟩ : BufTy).Contents (Elt F)),
    unary main_v18 main_v19 (broadcastInDim S16384x2048 ![0, 1] bcast_S1x2048_S16384x2048_0_1 : (⟨S1x2048, .f32⟩ : BufTy).Contents (Elt F) → (⟨S16384x2048, .f32⟩ : BufTy).Contents (Elt F)),
    binary main_v14 main_v19 main_v20 (mulf : (⟨S16384x2048, .f32⟩ : BufTy).Contents (Elt F) → (⟨S16384x2048, .f32⟩ : BufTy).Contents (Elt F) → (⟨S16384x2048, .f32⟩ : BufTy).Contents (Elt F)),
    unary main_arg4 main_v21 (broadcastInDim S1x2048 ![1] bcast_S2048_S1x2048_1 : (⟨S2048, .f32⟩ : BufTy).Contents (Elt F) → (⟨S1x2048, .f32⟩ : BufTy).Contents (Elt F)),
    unary main_v21 main_v22 (broadcastInDim S16384x2048 ![0, 1] bcast_S1x2048_S16384x2048_0_1 : (⟨S1x2048, .f32⟩ : BufTy).Contents (Elt F) → (⟨S16384x2048, .f32⟩ : BufTy).Contents (Elt F)),
    binary main_v20 main_v22 main_v23 (addf : (⟨S16384x2048, .f32⟩ : BufTy).Contents (Elt F) → (⟨S16384x2048, .f32⟩ : BufTy).Contents (Elt F) → (⟨S16384x2048, .f32⟩ : BufTy).Contents (Elt F)),
    unary main_arg5 main_v24 ((transpose S2048x2048 [1, 0] · transposes_S2048x2048_S2048x2048_1_0) : (⟨S2048x2048, .f32⟩ : BufTy).Contents (Elt F) → (⟨S2048x2048, .f32⟩ : BufTy).Contents (Elt F)),
    binary main_v23 main_v24 main_v25 ((fun l r => Host.dotGeneral dot_S16384x2048_S2048x2048_S16384x2048_1_0_0_1_n_n none l r) : (⟨S16384x2048, .f32⟩ : BufTy).Contents (Elt F) → (⟨S2048x2048, .f32⟩ : BufTy).Contents (Elt F) → (⟨S16384x2048, .f32⟩ : BufTy).Contents (Elt F)),
    unary main_arg6 main_v26 (broadcastInDim S1x2048 ![1] bcast_S2048_S1x2048_1 : (⟨S2048, .f32⟩ : BufTy).Contents (Elt F) → (⟨S1x2048, .f32⟩ : BufTy).Contents (Elt F)),
    unary main_v26 main_v27 (broadcastInDim S16384x2048 ![0, 1] bcast_S1x2048_S16384x2048_0_1 : (⟨S1x2048, .f32⟩ : BufTy).Contents (Elt F) → (⟨S16384x2048, .f32⟩ : BufTy).Contents (Elt F)),
    binary main_v25 main_v27 main_v28 (addf : (⟨S16384x2048, .f32⟩ : BufTy).Contents (Elt F) → (⟨S16384x2048, .f32⟩ : BufTy).Contents (Elt F) → (⟨S16384x2048, .f32⟩ : BufTy).Contents (Elt F)),
    nullary main_cst_2 (constant S_ .f32 0x00000000#32),
    binary main_v28 main_cst_2 main_v29 ((fun x v => Host.reduceAdd x v reducesTo_S16384x2048_S2048_d0 h_S_) : (⟨S16384x2048, .f32⟩ : BufTy).Contents (Elt F) → (⟨S_, .f32⟩ : BufTy).Contents (Elt F) → (⟨S2048, .f32⟩ : BufTy).Contents (Elt F)),
    nullary main_cst_3 (constant S_ .f32 0x46800000#32),
    unary main_cst_3 main_v30 (broadcastInDim S2048 ![] bcast_S_S2048 : (⟨S_, .f32⟩ : BufTy).Contents (Elt F) → (⟨S2048, .f32⟩ : BufTy).Contents (Elt F)),
    binary main_v29 main_v30 main_v31 (Host.divf : (⟨S2048, .f32⟩ : BufTy).Contents (Elt F) → (⟨S2048, .f32⟩ : BufTy).Contents (Elt F) → (⟨S2048, .f32⟩ : BufTy).Contents (Elt F)),
    nullary main_c_4 (constantI S_ 32 0#32),
    nullary main_call1_cst (constant S_ .f32 0x00000000#32),
    binary main_v28 main_call1_cst main_call1_v0 ((fun x v => Host.reduceAdd x v reducesTo_S16384x2048_S2048_d0 h_S_) : (⟨S16384x2048, .f32⟩ : BufTy).Contents (Elt F) → (⟨S_, .f32⟩ : BufTy).Contents (Elt F) → (⟨S2048, .f32⟩ : BufTy).Contents (Elt F)),
    unary main_call1_v0 main_call1_v1 ((broadcastInDim S1x2048 ![1] bcast_S2048_S1x2048_1) : (⟨S2048, .f32⟩ : BufTy).Contents (Elt F) → (⟨S1x2048, .f32⟩ : BufTy).Contents (Elt F)),
    nullary main_call1_cst_0 (constant S_ .f32 0x46800000#32),
    unary main_call1_cst_0 main_call1_v2 ((broadcastInDim S1x2048 ![] bcast_S_S1x2048) : (⟨S_, .f32⟩ : BufTy).Contents (Elt F) → (⟨S1x2048, .f32⟩ : BufTy).Contents (Elt F)),
    binary main_call1_v1 main_call1_v2 main_call1_v3 ((Host.divf) : (⟨S1x2048, .f32⟩ : BufTy).Contents (Elt F) → (⟨S1x2048, .f32⟩ : BufTy).Contents (Elt F) → (⟨S1x2048, .f32⟩ : BufTy).Contents (Elt F)),
    unary main_call1_v3 main_call1_v4 ((broadcastInDim S16384x2048 ![0, 1] bcast_S1x2048_S16384x2048_0_1) : (⟨S1x2048, .f32⟩ : BufTy).Contents (Elt F) → (⟨S16384x2048, .f32⟩ : BufTy).Contents (Elt F)),
    binary main_v28 main_call1_v4 main_call1_v5 ((subf) : (⟨S16384x2048, .f32⟩ : BufTy).Contents (Elt F) → (⟨S16384x2048, .f32⟩ : BufTy).Contents (Elt F) → (⟨S16384x2048, .f32⟩ : BufTy).Contents (Elt F)),
    binary main_call1_v5 main_call1_v5 main_call1_v6 ((mulf) : (⟨S16384x2048, .f32⟩ : BufTy).Contents (Elt F) → (⟨S16384x2048, .f32⟩ : BufTy).Contents (Elt F) → (⟨S16384x2048, .f32⟩ : BufTy).Contents (Elt F)),
    unary main_c_4 main_call1_v7 ((sitofp .f32) : (⟨S_, .i32⟩ : BufTy).Contents (Elt F) → (⟨S_, .f32⟩ : BufTy).Contents (Elt F)),
    nullary main_call1_cst_1 (constant S_ .f32 0x46800000#32),
    binary main_call1_cst_1 main_call1_v7 main_call1_v8 ((subf) : (⟨S_, .f32⟩ : BufTy).Contents (Elt F) → (⟨S_, .f32⟩ : BufTy).Contents (Elt F) → (⟨S_, .f32⟩ : BufTy).Contents (Elt F)),
    nullary main_call1_cst_2 (constant S_ .f32 0x00000000#32),
    binary main_call1_v6 main_call1_cst_2 main_call1_v9 ((fun x v => Host.reduceAdd x v reducesTo_S16384x2048_S2048_d0 h_S_) : (⟨S16384x2048, .f32⟩ : BufTy).Contents (Elt F) → (⟨S_, .f32⟩ : BufTy).Contents (Elt F) → (⟨S2048, .f32⟩ : BufTy).Contents (Elt F)),
    unary main_call1_v8 main_call1_v10 ((broadcastInDim S2048 ![] bcast_S_S2048) : (⟨S_, .f32⟩ : BufTy).Contents (Elt F) → (⟨S2048, .f32⟩ : BufTy).Contents (Elt F)),
    binary main_call1_v9 main_call1_v10 main_call1_v11 ((Host.divf) : (⟨S2048, .f32⟩ : BufTy).Contents (Elt F) → (⟨S2048, .f32⟩ : BufTy).Contents (Elt F) → (⟨S2048, .f32⟩ : BufTy).Contents (Elt F)),
    nullary main_call1_cst_3 (constant S_ .f32 0x00000000#32),
    binary main_call1_v8 main_call1_cst_3 main_call1_v12 ((cmpf .ogt) : (⟨S_, .f32⟩ : BufTy).Contents (Elt F) → (⟨S_, .f32⟩ : BufTy).Contents (Elt F) → (⟨S_, .i1⟩ : BufTy).Contents (Elt F)),
    nullary main_call1_cst_4 (constant S_ .f32 0x7FC00000#32),
    unary main_call1_cst_4 main_call1_call0_v0 ((id) : (⟨S_, .f32⟩ : BufTy).Contents (Elt F) → (⟨S_, .f32⟩ : BufTy).Contents (Elt F)),
    unary main_call1_call0_v0 main_call1_call0_v1 ((broadcastInDim S2048 ![] bcast_S_S2048) : (⟨S_, .f32⟩ : BufTy).Contents (Elt F) → (⟨S2048, .f32⟩ : BufTy).Contents (Elt F)),
    ternary main_call1_v12 main_call1_v11 main_call1_call0_v1 main_v32 ((fun p a b => select (broadcastInDim S2048 ![] bcast_S_S2048 p) a b) : (⟨S_, .i1⟩ : BufTy).Contents (Elt F) → (⟨S2048, .f32⟩ : BufTy).Contents (Elt F) → (⟨S2048, .f32⟩ : BufTy).Contents (Elt F) → (⟨S2048, .f32⟩ : BufTy).Contents (Elt F)),
    unary main_v31 main_v33 (broadcastInDim S1x2048 ![1] bcast_S2048_S1x2048_1 : (⟨S2048, .f32⟩ : BufTy).Contents (Elt F) → (⟨S1x2048, .f32⟩ : BufTy).Contents (Elt F)),
    unary main_v33 main_v34 (broadcastInDim S16384x2048 ![0, 1] bcast_S1x2048_S16384x2048_0_1 : (⟨S1x2048, .f32⟩ : BufTy).Contents (Elt F) → (⟨S16384x2048, .f32⟩ : BufTy).Contents (Elt F)),
    binary main_v28 main_v34 main_v35 (subf : (⟨S16384x2048, .f32⟩ : BufTy).Contents (Elt F) → (⟨S16384x2048, .f32⟩ : BufTy).Contents (Elt F) → (⟨S16384x2048, .f32⟩ : BufTy).Contents (Elt F)),
    unary main_arg7 main_v36 (broadcastInDim S1x2048 ![1] bcast_S2048_S1x2048_1 : (⟨S2048, .f32⟩ : BufTy).Contents (Elt F) → (⟨S1x2048, .f32⟩ : BufTy).Contents (Elt F)),
    unary main_v36 main_v37 (broadcastInDim S16384x2048 ![0, 1] bcast_S1x2048_S16384x2048_0_1 : (⟨S1x2048, .f32⟩ : BufTy).Contents (Elt F) → (⟨S16384x2048, .f32⟩ : BufTy).Contents (Elt F)),
    binary main_v37 main_v35 main_v38 (mulf : (⟨S16384x2048, .f32⟩ : BufTy).Contents (Elt F) → (⟨S16384x2048, .f32⟩ : BufTy).Contents (Elt F) → (⟨S16384x2048, .f32⟩ : BufTy).Contents (Elt F)),
    nullary main_cst_5 (constant S_ .f32 0x3727C5AC#32),
    unary main_cst_5 main_v39 (broadcastInDim S2048 ![] bcast_S_S2048 : (⟨S_, .f32⟩ : BufTy).Contents (Elt F) → (⟨S2048, .f32⟩ : BufTy).Contents (Elt F)),
    binary main_v32 main_v39 main_v40 (addf : (⟨S2048, .f32⟩ : BufTy).Contents (Elt F) → (⟨S2048, .f32⟩ : BufTy).Contents (Elt F) → (⟨S2048, .f32⟩ : BufTy).Contents (Elt F)),
    unary main_v40 main_v41 (Host.rsqrt : (⟨S2048, .f32⟩ : BufTy).Contents (Elt F) → (⟨S2048, .f32⟩ : BufTy).Contents (Elt F)),
    unary main_v41 main_v42 (broadcastInDim S1x2048 ![1] bcast_S2048_S1x2048_1 : (⟨S2048, .f32⟩ : BufTy).Contents (Elt F) → (⟨S1x2048, .f32⟩ : BufTy).Contents (Elt F)),
    unary main_v42 main_v43 (broadcastInDim S16384x2048 ![0, 1] bcast_S1x2048_S16384x2048_0_1 : (⟨S1x2048, .f32⟩ : BufTy).Contents (Elt F) → (⟨S16384x2048, .f32⟩ : BufTy).Contents (Elt F)),
    binary main_v38 main_v43 main_v44 (mulf : (⟨S16384x2048, .f32⟩ : BufTy).Contents (Elt F) → (⟨S16384x2048, .f32⟩ : BufTy).Contents (Elt F) → (⟨S16384x2048, .f32⟩ : BufTy).Contents (Elt F)),
    unary main_arg8 main_v45 (broadcastInDim S1x2048 ![1] bcast_S2048_S1x2048_1 : (⟨S2048, .f32⟩ : BufTy).Contents (Elt F) → (⟨S1x2048, .f32⟩ : BufTy).Contents (Elt F)),
    unary main_v45 main_v46 (broadcastInDim S16384x2048 ![0, 1] bcast_S1x2048_S16384x2048_0_1 : (⟨S1x2048, .f32⟩ : BufTy).Contents (Elt F) → (⟨S16384x2048, .f32⟩ : BufTy).Contents (Elt F)),
    binary main_v44 main_v46 main_v47 (addf : (⟨S16384x2048, .f32⟩ : BufTy).Contents (Elt F) → (⟨S16384x2048, .f32⟩ : BufTy).Contents (Elt F) → (⟨S16384x2048, .f32⟩ : BufTy).Contents (Elt F)),
    unary main_arg9 main_v48 ((transpose S2048x1024 [1, 0] · transposes_S1024x2048_S2048x1024_1_0) : (⟨S1024x2048, .f32⟩ : BufTy).Contents (Elt F) → (⟨S2048x1024, .f32⟩ : BufTy).Contents (Elt F)),
    binary main_v47 main_v48 main_v49 ((fun l r => Host.dotGeneral dot_S16384x2048_S2048x1024_S16384x1024_1_0_0_1_n_n none l r) : (⟨S16384x2048, .f32⟩ : BufTy).Contents (Elt F) → (⟨S2048x1024, .f32⟩ : BufTy).Contents (Elt F) → (⟨S16384x1024, .f32⟩ : BufTy).Contents (Elt F)),
    unary main_arg10 main_v50 (broadcastInDim S1x1024 ![1] bcast_S1024_S1x1024_1 : (⟨S1024, .f32⟩ : BufTy).Contents (Elt F) → (⟨S1x1024, .f32⟩ : BufTy).Contents (Elt F)),
    unary main_v50 main_v51 (broadcastInDim S16384x1024 ![0, 1] bcast_S1x1024_S16384x1024_0_1 : (⟨S1x1024, .f32⟩ : BufTy).Contents (Elt F) → (⟨S16384x1024, .f32⟩ : BufTy).Contents (Elt F)),
    binary main_v49 main_v51 main_v52 (addf : (⟨S16384x1024, .f32⟩ : BufTy).Contents (Elt F) → (⟨S16384x1024, .f32⟩ : BufTy).Contents (Elt F) → (⟨S16384x1024, .f32⟩ : BufTy).Contents (Elt F)),
    nullary main_cst_6 (constant S_ .f32 0x00000000#32),
    binary main_v52 main_cst_6 main_v53 ((fun x v => Host.reduceAdd x v reducesTo_S16384x1024_S1024_d0 h_S_) : (⟨S16384x1024, .f32⟩ : BufTy).Contents (Elt F) → (⟨S_, .f32⟩ : BufTy).Contents (Elt F) → (⟨S1024, .f32⟩ : BufTy).Contents (Elt F)),
    nullary main_cst_7 (constant S_ .f32 0x46800000#32),
    unary main_cst_7 main_v54 (broadcastInDim S1024 ![] bcast_S_S1024 : (⟨S_, .f32⟩ : BufTy).Contents (Elt F) → (⟨S1024, .f32⟩ : BufTy).Contents (Elt F)),
    binary main_v53 main_v54 main_v55 (Host.divf : (⟨S1024, .f32⟩ : BufTy).Contents (Elt F) → (⟨S1024, .f32⟩ : BufTy).Contents (Elt F) → (⟨S1024, .f32⟩ : BufTy).Contents (Elt F)),
    nullary main_c_8 (constantI S_ 32 0#32),
    nullary main_call2_cst (constant S_ .f32 0x00000000#32),
    binary main_v52 main_call2_cst main_call2_v0 ((fun x v => Host.reduceAdd x v reducesTo_S16384x1024_S1024_d0 h_S_) : (⟨S16384x1024, .f32⟩ : BufTy).Contents (Elt F) → (⟨S_, .f32⟩ : BufTy).Contents (Elt F) → (⟨S1024, .f32⟩ : BufTy).Contents (Elt F)),
    unary main_call2_v0 main_call2_v1 ((broadcastInDim S1x1024 ![1] bcast_S1024_S1x1024_1) : (⟨S1024, .f32⟩ : BufTy).Contents (Elt F) → (⟨S1x1024, .f32⟩ : BufTy).Contents (Elt F)),
    nullary main_call2_cst_0 (constant S_ .f32 0x46800000#32),
    unary main_call2_cst_0 main_call2_v2 ((broadcastInDim S1x1024 ![] bcast_S_S1x1024) : (⟨S_, .f32⟩ : BufTy).Contents (Elt F) → (⟨S1x1024, .f32⟩ : BufTy).Contents (Elt F)),
    binary main_call2_v1 main_call2_v2 main_call2_v3 ((Host.divf) : (⟨S1x1024, .f32⟩ : BufTy).Contents (Elt F) → (⟨S1x1024, .f32⟩ : BufTy).Contents (Elt F) → (⟨S1x1024, .f32⟩ : BufTy).Contents (Elt F)),
    unary main_call2_v3 main_call2_v4 ((broadcastInDim S16384x1024 ![0, 1] bcast_S1x1024_S16384x1024_0_1) : (⟨S1x1024, .f32⟩ : BufTy).Contents (Elt F) → (⟨S16384x1024, .f32⟩ : BufTy).Contents (Elt F)),
    binary main_v52 main_call2_v4 main_call2_v5 ((subf) : (⟨S16384x1024, .f32⟩ : BufTy).Contents (Elt F) → (⟨S16384x1024, .f32⟩ : BufTy).Contents (Elt F) → (⟨S16384x1024, .f32⟩ : BufTy).Contents (Elt F)),
    binary main_call2_v5 main_call2_v5 main_call2_v6 ((mulf) : (⟨S16384x1024, .f32⟩ : BufTy).Contents (Elt F) → (⟨S16384x1024, .f32⟩ : BufTy).Contents (Elt F) → (⟨S16384x1024, .f32⟩ : BufTy).Contents (Elt F)),
    unary main_c_8 main_call2_v7 ((sitofp .f32) : (⟨S_, .i32⟩ : BufTy).Contents (Elt F) → (⟨S_, .f32⟩ : BufTy).Contents (Elt F)),
    nullary main_call2_cst_1 (constant S_ .f32 0x46800000#32),
    binary main_call2_cst_1 main_call2_v7 main_call2_v8 ((subf) : (⟨S_, .f32⟩ : BufTy).Contents (Elt F) → (⟨S_, .f32⟩ : BufTy).Contents (Elt F) → (⟨S_, .f32⟩ : BufTy).Contents (Elt F)),
    nullary main_call2_cst_2 (constant S_ .f32 0x00000000#32),
    binary main_call2_v6 main_call2_cst_2 main_call2_v9 ((fun x v => Host.reduceAdd x v reducesTo_S16384x1024_S1024_d0 h_S_) : (⟨S16384x1024, .f32⟩ : BufTy).Contents (Elt F) → (⟨S_, .f32⟩ : BufTy).Contents (Elt F) → (⟨S1024, .f32⟩ : BufTy).Contents (Elt F)),
    unary main_call2_v8 main_call2_v10 ((broadcastInDim S1024 ![] bcast_S_S1024) : (⟨S_, .f32⟩ : BufTy).Contents (Elt F) → (⟨S1024, .f32⟩ : BufTy).Contents (Elt F)),
    binary main_call2_v9 main_call2_v10 main_call2_v11 ((Host.divf) : (⟨S1024, .f32⟩ : BufTy).Contents (Elt F) → (⟨S1024, .f32⟩ : BufTy).Contents (Elt F) → (⟨S1024, .f32⟩ : BufTy).Contents (Elt F)),
    nullary main_call2_cst_3 (constant S_ .f32 0x00000000#32),
    binary main_call2_v8 main_call2_cst_3 main_call2_v12 ((cmpf .ogt) : (⟨S_, .f32⟩ : BufTy).Contents (Elt F) → (⟨S_, .f32⟩ : BufTy).Contents (Elt F) → (⟨S_, .i1⟩ : BufTy).Contents (Elt F)),
    nullary main_call2_cst_4 (constant S_ .f32 0x7FC00000#32),
    unary main_call2_cst_4 main_call2_call0_v0 ((id) : (⟨S_, .f32⟩ : BufTy).Contents (Elt F) → (⟨S_, .f32⟩ : BufTy).Contents (Elt F)),
    unary main_call2_call0_v0 main_call2_call0_v1 ((broadcastInDim S1024 ![] bcast_S_S1024) : (⟨S_, .f32⟩ : BufTy).Contents (Elt F) → (⟨S1024, .f32⟩ : BufTy).Contents (Elt F)),
    ternary main_call2_v12 main_call2_v11 main_call2_call0_v1 main_v56 ((fun p a b => select (broadcastInDim S1024 ![] bcast_S_S1024 p) a b) : (⟨S_, .i1⟩ : BufTy).Contents (Elt F) → (⟨S1024, .f32⟩ : BufTy).Contents (Elt F) → (⟨S1024, .f32⟩ : BufTy).Contents (Elt F) → (⟨S1024, .f32⟩ : BufTy).Contents (Elt F)),
    unary main_v55 main_v57 (broadcastInDim S1x1024 ![1] bcast_S1024_S1x1024_1 : (⟨S1024, .f32⟩ : BufTy).Contents (Elt F) → (⟨S1x1024, .f32⟩ : BufTy).Contents (Elt F)),
    unary main_v57 main_v58 (broadcastInDim S16384x1024 ![0, 1] bcast_S1x1024_S16384x1024_0_1 : (⟨S1x1024, .f32⟩ : BufTy).Contents (Elt F) → (⟨S16384x1024, .f32⟩ : BufTy).Contents (Elt F)),
    binary main_v52 main_v58 main_v59 (subf : (⟨S16384x1024, .f32⟩ : BufTy).Contents (Elt F) → (⟨S16384x1024, .f32⟩ : BufTy).Contents (Elt F) → (⟨S16384x1024, .f32⟩ : BufTy).Contents (Elt F)),
    unary main_arg11 main_v60 (broadcastInDim S1x1024 ![1] bcast_S1024_S1x1024_1 : (⟨S1024, .f32⟩ : BufTy).Contents (Elt F) → (⟨S1x1024, .f32⟩ : BufTy).Contents (Elt F)),
    unary main_v60 main_v61 (broadcastInDim S16384x1024 ![0, 1] bcast_S1x1024_S16384x1024_0_1 : (⟨S1x1024, .f32⟩ : BufTy).Contents (Elt F) → (⟨S16384x1024, .f32⟩ : BufTy).Contents (Elt F)),
    binary main_v61 main_v59 main_v62 (mulf : (⟨S16384x1024, .f32⟩ : BufTy).Contents (Elt F) → (⟨S16384x1024, .f32⟩ : BufTy).Contents (Elt F) → (⟨S16384x1024, .f32⟩ : BufTy).Contents (Elt F)),
    nullary main_cst_9 (constant S_ .f32 0x3727C5AC#32),
    unary main_cst_9 main_v63 (broadcastInDim S1024 ![] bcast_S_S1024 : (⟨S_, .f32⟩ : BufTy).Contents (Elt F) → (⟨S1024, .f32⟩ : BufTy).Contents (Elt F)),
    binary main_v56 main_v63 main_v64 (addf : (⟨S1024, .f32⟩ : BufTy).Contents (Elt F) → (⟨S1024, .f32⟩ : BufTy).Contents (Elt F) → (⟨S1024, .f32⟩ : BufTy).Contents (Elt F)),
    unary main_v64 main_v65 (Host.rsqrt : (⟨S1024, .f32⟩ : BufTy).Contents (Elt F) → (⟨S1024, .f32⟩ : BufTy).Contents (Elt F)),
    unary main_v65 main_v66 (broadcastInDim S1x1024 ![1] bcast_S1024_S1x1024_1 : (⟨S1024, .f32⟩ : BufTy).Contents (Elt F) → (⟨S1x1024, .f32⟩ : BufTy).Contents (Elt F)),
    unary main_v66 main_v67 (broadcastInDim S16384x1024 ![0, 1] bcast_S1x1024_S16384x1024_0_1 : (⟨S1x1024, .f32⟩ : BufTy).Contents (Elt F) → (⟨S16384x1024, .f32⟩ : BufTy).Contents (Elt F)),
    binary main_v62 main_v67 main_v68 (mulf : (⟨S16384x1024, .f32⟩ : BufTy).Contents (Elt F) → (⟨S16384x1024, .f32⟩ : BufTy).Contents (Elt F) → (⟨S16384x1024, .f32⟩ : BufTy).Contents (Elt F)),
    unary main_arg12 main_v69 (broadcastInDim S1x1024 ![1] bcast_S1024_S1x1024_1 : (⟨S1024, .f32⟩ : BufTy).Contents (Elt F) → (⟨S1x1024, .f32⟩ : BufTy).Contents (Elt F)),
    unary main_v69 main_v70 (broadcastInDim S16384x1024 ![0, 1] bcast_S1x1024_S16384x1024_0_1 : (⟨S1x1024, .f32⟩ : BufTy).Contents (Elt F) → (⟨S16384x1024, .f32⟩ : BufTy).Contents (Elt F)),
    binary main_v68 main_v70 main_v71 (addf : (⟨S16384x1024, .f32⟩ : BufTy).Contents (Elt F) → (⟨S16384x1024, .f32⟩ : BufTy).Contents (Elt F) → (⟨S16384x1024, .f32⟩ : BufTy).Contents (Elt F)) ]

/-- The list, layer by layer. -/
theorem ops_eq : (ops : List (HloOp τ sig (Elt F))) = opsL1 ++ (opsL2 ++ opsL3) := rfl

/-- The list, by @main's two parts. -/
theorem ops_eq_windows : (ops : List (HloOp τ sig (Elt F))) = (opsL1 ++ (opsL2 ++ opsL3a)) ++ opsL3b := rfl

end Cert.ReferenceIdeal.RefRun

end
-- ==== Proof.RefRunDefs.lean ====
import proofs.«166235_j274877907496_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The reference's value, layer by layer

Each of the three layers is `y = x · Wᵀ + b`, then the normalisation of `y`'s columns by their mean and variance over
the 16384 rows, scaled by `γ` and shifted by `β`. The pieces below are the operations' own terms, named. -/

/-- The count the variance divides by: `16384 − ddof`, with `ddof` the integer constant `0` converted. -/
def count : FVec F S_ .f32 :=
  subf (constant S_ .f32 0x46800000#32) (sitofp .f32 (constantI S_ 32 0#32))

/-! ### Width 2048: the statistics and the normalisation of a 16384 × 2048 matrix -/

/-- A per-column vector as the matrix whose every row it is (through the 1 × 2048 row). -/
def rows2048 (v : FVec F S2048 .f32) : FVec F S16384x2048 .f32 :=
  broadcastInDim S16384x2048 ![0, 1] bcast_S1x2048_S16384x2048_0_1 (broadcastInDim S1x2048 ![1] bcast_S2048_S1x2048_1 v)

/-- A scalar as the constant per-column vector. -/
def splat2048 (a : FVec F S_ .f32) : FVec F S2048 .f32 :=
  broadcastInDim S2048 ![] bcast_S_S2048 a

/-- The column sums: the host's sum over the 16384 rows, from zero. -/
def colSum2048 (y : FVec F S16384x2048 .f32) : FVec F S2048 .f32 :=
  Host.reduceAdd y (constant S_ .f32 0x00000000#32) reducesTo_S16384x2048_S2048_d0 h_S_

/-- The column means: the column sums over 16384. -/
def mean2048 (y : FVec F S16384x2048 .f32) : FVec F S2048 .f32 :=
  Host.divf (colSum2048 y) (splat2048 (constant S_ .f32 0x46800000#32))

/-- The matrix minus its column means, the means taken as the variance function takes them: the column sums as a
    1 × 2048 row, over the row of 16384s, repeated down the rows. -/
def centred2048 (y : FVec F S16384x2048 .f32) : FVec F S16384x2048 .f32 :=
  subf y (broadcastInDim S16384x2048 ![0, 1] bcast_S1x2048_S16384x2048_0_1
    (Host.divf (broadcastInDim S1x2048 ![1] bcast_S2048_S1x2048_1 (colSum2048 y))
      (broadcastInDim S1x2048 ![] bcast_S_S1x2048 (constant S_ .f32 0x46800000#32))))

/-- The column variances, as the variance function computes them: the column sums of the squared centred matrix over
    the count `16384 − ddof`, where that count is positive, and the NaN constant elsewhere. -/
def var2048 (y : FVec F S16384x2048 .f32) : FVec F S2048 .f32 :=
  select (broadcastInDim S2048 ![] bcast_S_S2048 (cmpf .ogt (count (F := F)) (constant S_ .f32 0x00000000#32)))
    (Host.divf (colSum2048 (mulf (centred2048 y) (centred2048 y))) (splat2048 count))
    (splat2048 (id (constant S_ .f32 0x7FC00000#32)))

/-- The normalisation: `γ * (y − mean) * rsqrt (var + ε) + β`, column by column. -/
def norm2048 (y : FVec F S16384x2048 .f32) (g bt : FVec F S2048 .f32) : FVec F S16384x2048 .f32 :=
  addf (mulf (mulf (rows2048 g) (subf y (rows2048 (mean2048 y))))
      (rows2048 (Host.rsqrt (addf (var2048 y) (splat2048 (constant S_ .f32 0x3727C5AC#32))))))
    (rows2048 bt)

/-! ### Width 1024: the statistics and the normalisation of a 16384 × 1024 matrix -/

/-- A per-column vector as the matrix whose every row it is (through the 1 × 1024 row). -/
def rows1024 (v : FVec F S1024 .f32) : FVec F S16384x1024 .f32 :=
  broadcastInDim S16384x1024 ![0, 1] bcast_S1x1024_S16384x1024_0_1 (broadcastInDim S1x1024 ![1] bcast_S1024_S1x1024_1 v)

/-- A scalar as the constant per-column vector. -/
def splat1024 (a : FVec F S_ .f32) : FVec F S1024 .f32 :=
  broadcastInDim S1024 ![] bcast_S_S1024 a

/-- The column sums: the host's sum over the 16384 rows, from zero. -/
def colSum1024 (y : FVec F S16384x1024 .f32) : FVec F S1024 .f32 :=
  Host.reduceAdd y (constant S_ .f32 0x00000000#32) reducesTo_S16384x1024_S1024_d0 h_S_

/-- The column means: the column sums over 16384. -/
def mean1024 (y : FVec F S16384x1024 .f32) : FVec F S1024 .f32 :=
  Host.divf (colSum1024 y) (splat1024 (constant S_ .f32 0x46800000#32))

/-- The matrix minus its column means, the means taken as the variance function takes them: the column sums as a
    1 × 1024 row, over the row of 16384s, repeated down the rows. -/
def centred1024 (y : FVec F S16384x1024 .f32) : FVec F S16384x1024 .f32 :=
  subf y (broadcastInDim S16384x1024 ![0, 1] bcast_S1x1024_S16384x1024_0_1
    (Host.divf (broadcastInDim S1x1024 ![1] bcast_S1024_S1x1024_1 (colSum1024 y))
      (broadcastInDim S1x1024 ![] bcast_S_S1x1024 (constant S_ .f32 0x46800000#32))))

/-- The column variances, as the variance function computes them: the column sums of the squared centred matrix over
    the count `16384 − ddof`, where that count is positive, and the NaN constant elsewhere. -/
def var1024 (y : FVec F S16384x1024 .f32) : FVec F S1024 .f32 :=
  select (broadcastInDim S1024 ![] bcast_S_S1024 (cmpf .ogt (count (F := F)) (constant S_ .f32 0x00000000#32)))
    (Host.divf (colSum1024 (mulf (centred1024 y) (centred1024 y))) (splat1024 count))
    (splat1024 (id (constant S_ .f32 0x7FC00000#32)))

/-- The normalisation: `γ * (y − mean) * rsqrt (var + ε) + β`, column by column. -/
def norm1024 (y : FVec F S16384x1024 .f32) (g bt : FVec F S1024 .f32) : FVec F S16384x1024 .f32 :=
  addf (mulf (mulf (rows1024 g) (subf y (rows1024 (mean1024 y))))
      (rows1024 (Host.rsqrt (addf (var1024 y) (splat1024 (constant S_ .f32 0x3727C5AC#32))))))
    (rows1024 bt)

/-! ### The three layers -/

/-- `x · W₀ᵀ + b₀`: 16384 × 1024 by the transpose of 2048 × 1024. -/
def lin1 (x : FVec F S16384x1024 .f32) (W : FVec F S2048x1024 .f32) (b : FVec F S2048 .f32) : FVec F S16384x2048 .f32 :=
  addf (Host.dotGeneral dot_S16384x1024_S1024x2048_S16384x2048_1_0_0_1_n_n none x
      (transpose S1024x2048 [1, 0] W transposes_S2048x1024_S1024x2048_1_0))
    (rows2048 b)

/-- `x · W₁ᵀ + b₁`: 16384 × 2048 by the transpose of 2048 × 2048. -/
def lin2 (x : FVec F S16384x2048 .f32) (W : FVec F S2048x2048 .f32) (b : FVec F S2048 .f32) : FVec F S16384x2048 .f32 :=
  addf (Host.dotGeneral dot_S16384x2048_S2048x2048_S16384x2048_1_0_0_1_n_n none x
      (transpose S2048x2048 [1, 0] W transposes_S2048x2048_S2048x2048_1_0))
    (rows2048 b)

/-- `x · W₂ᵀ + b₂`: 16384 × 2048 by the transpose of 1024 × 2048. -/
def lin3 (x : FVec F S16384x2048 .f32) (W : FVec F S1024x2048 .f32) (b : FVec F S1024 .f32) : FVec F S16384x1024 .f32 :=
  addf (Host.dotGeneral dot_S16384x2048_S2048x1024_S16384x1024_1_0_0_1_n_n none x
      (transpose S2048x1024 [1, 0] W transposes_S1024x2048_S2048x1024_1_0))
    (rows1024 b)

/-- The first layer. -/
def layer1 (x : FVec F S16384x1024 .f32) (W : FVec F S2048x1024 .f32) (b g bt : FVec F S2048 .f32) : FVec F S16384x2048 .f32 :=
  norm2048 (lin1 x W b) g bt

/-- The second layer. -/
def layer2 (x : FVec F S16384x2048 .f32) (W : FVec F S2048x2048 .f32) (b g bt : FVec F S2048 .f32) : FVec F S16384x2048 .f32 :=
  norm2048 (lin2 x W b) g bt

/-- The third layer. -/
def layer3 (x : FVec F S16384x2048 .f32) (W : FVec F S1024x2048 .f32) (b g bt : FVec F S1024 .f32) : FVec F S16384x1024 .f32 :=
  norm1024 (lin3 x W b) g bt

/-- What @main returns, of its thirteen arguments' contents: the three layers composed. -/
def result (x : FVec F S16384x1024 .f32)
    (W0 : FVec F S2048x1024 .f32) (b0 g0 bt0 : FVec F S2048 .f32)
    (W1 : FVec F S2048x2048 .f32) (b1 g1 bt1 : FVec F S2048 .f32)
    (W2 : FVec F S1024x2048 .f32) (b2 g2 bt2 : FVec F S1024 .f32) : FVec F S16384x1024 .f32 :=
  layer3 (layer2 (layer1 x W0 b0 g0 bt0) W1 b1 g1 bt1) W2 b2 g2 bt2

end Cert.ReferenceIdeal.RefRun

end
-- ==== Proof.RefRunLayers.lean ====
import proofs.«166235_j274877907496_2_alg».proof.Proof.RefRunOps
import proofs.«166235_j274877907496_2_alg».proof.Proof.RefRunDefs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## Each layer's operations read back

What a layer's result buffer holds after its 49 operations, from any contents `V`: every operation's result at its own
buffer is its function of its operands' contents, and any other buffer is as it was. The composed term is the layer's
definition, by unfolding. -/

attribute [local irreducible] Host.reduceAdd Host.divf Host.rsqrt Idealize.ShloMosaic.addf Idealize.ShloMosaic.subf Idealize.ShloMosaic.mulf Idealize.ShloMosaic.transpose Idealize.ShloMosaic.broadcastInDim Idealize.ShloMosaic.select Idealize.ShloMosaic.cmpf Idealize.ShloMosaic.sitofp Idealize.ShloMosaic.constant Idealize.ShloMosaic.constantI in
set_option maxRecDepth 8192 in
set_option maxHeartbeats 4000000 in
/-- Layer 1's operations, from any contents: its result buffer ends at `layer1` of its input's and its four parameters' contents. -/
theorem after_L1 (V : Valuation τ sig (Elt F)) :
    after opsL1 V (Proc.devRef .tc main_v23 : DevRef τ sig)
      = layer1 (V (Proc.devRef .tc main_arg0 : DevRef τ sig)) (V (Proc.devRef .tc main_arg1 : DevRef τ sig)) (V (Proc.devRef .tc main_arg2 : DevRef τ sig)) (V (Proc.devRef .tc main_arg3 : DevRef τ sig)) (V (Proc.devRef .tc main_arg4 : DevRef τ sig)) := by
  after_results_simp
  rfl

attribute [local irreducible] Host.reduceAdd Host.divf Host.rsqrt Idealize.ShloMosaic.addf Idealize.ShloMosaic.subf Idealize.ShloMosaic.mulf Idealize.ShloMosaic.transpose Idealize.ShloMosaic.broadcastInDim Idealize.ShloMosaic.select Idealize.ShloMosaic.cmpf Idealize.ShloMosaic.sitofp Idealize.ShloMosaic.constant Idealize.ShloMosaic.constantI in
set_option maxRecDepth 8192 in
set_option maxHeartbeats 4000000 in
/-- Layer 2's operations, from any contents: its result buffer ends at `layer2` of its input's and its four parameters' contents. -/
theorem after_L2 (V : Valuation τ sig (Elt F)) :
    after opsL2 V (Proc.devRef .tc main_v47 : DevRef τ sig)
      = layer2 (V (Proc.devRef .tc main_v23 : DevRef τ sig)) (V (Proc.devRef .tc main_arg5 : DevRef τ sig)) (V (Proc.devRef .tc main_arg6 : DevRef τ sig)) (V (Proc.devRef .tc main_arg7 : DevRef τ sig)) (V (Proc.devRef .tc main_arg8 : DevRef τ sig)) := by
  after_results_simp
  rfl

attribute [local irreducible] Host.reduceAdd Host.divf Host.rsqrt Idealize.ShloMosaic.addf Idealize.ShloMosaic.subf Idealize.ShloMosaic.mulf Idealize.ShloMosaic.transpose Idealize.ShloMosaic.broadcastInDim Idealize.ShloMosaic.select Idealize.ShloMosaic.cmpf Idealize.ShloMosaic.sitofp Idealize.ShloMosaic.constant Idealize.ShloMosaic.constantI in
set_option maxRecDepth 8192 in
set_option maxHeartbeats 4000000 in
/-- Layer 3's operations, from any contents: its result buffer ends at `layer3` of its input's and its four parameters' contents. -/
theorem after_L3 (V : Valuation τ sig (Elt F)) :
    after opsL3 V (Proc.devRef .tc main_v71 : DevRef τ sig)
      = layer3 (V (Proc.devRef .tc main_v47 : DevRef τ sig)) (V (Proc.devRef .tc main_arg9 : DevRef τ sig)) (V (Proc.devRef .tc main_arg10 : DevRef τ sig)) (V (Proc.devRef .tc main_arg11 : DevRef τ sig)) (V (Proc.devRef .tc main_arg12 : DevRef τ sig)) := by
  after_results_simp
  rfl

end Cert.ReferenceIdeal.RefRun

end
-- ==== Proof.RefRunKeep.lean ====
import proofs.«166235_j274877907496_2_alg».proof.Proof.RefRunOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The arguments' buffers are written by no operation

No operation of a layer writes an argument's buffer: after the layer it holds what it held. One lemma per layer and argument,
each by the operations' results at a buffer not their own. -/

set_option maxRecDepth 8192 in
set_option maxHeartbeats 4000000 in
theorem keep_L1_arg0 (V : Valuation τ sig (Elt F)) :
    after opsL1 V (Proc.devRef .tc main_arg0 : DevRef τ sig) = V (Proc.devRef .tc main_arg0 : DevRef τ sig) := by
  after_results_simp

set_option maxRecDepth 8192 in
set_option maxHeartbeats 4000000 in
theorem keep_L1_arg1 (V : Valuation τ sig (Elt F)) :
    after opsL1 V (Proc.devRef .tc main_arg1 : DevRef τ sig) = V (Proc.devRef .tc main_arg1 : DevRef τ sig) := by
  after_results_simp

set_option maxRecDepth 8192 in
set_option maxHeartbeats 4000000 in
theorem keep_L1_arg2 (V : Valuation τ sig (Elt F)) :
    after opsL1 V (Proc.devRef .tc main_arg2 : DevRef τ sig) = V (Proc.devRef .tc main_arg2 : DevRef τ sig) := by
  after_results_simp

set_option maxRecDepth 8192 in
set_option maxHeartbeats 4000000 in
theorem keep_L1_arg3 (V : Valuation τ sig (Elt F)) :
    after opsL1 V (Proc.devRef .tc main_arg3 : DevRef τ sig) = V (Proc.devRef .tc main_arg3 : DevRef τ sig) := by
  after_results_simp

set_option maxRecDepth 8192 in
set_option maxHeartbeats 4000000 in
theorem keep_L1_arg4 (V : Valuation τ sig (Elt F)) :
    after opsL1 V (Proc.devRef .tc main_arg4 : DevRef τ sig) = V (Proc.devRef .tc main_arg4 : DevRef τ sig) := by
  after_results_simp

set_option maxRecDepth 8192 in
set_option maxHeartbeats 4000000 in
theorem keep_L1_arg5 (V : Valuation τ sig (Elt F)) :
    after opsL1 V (Proc.devRef .tc main_arg5 : DevRef τ sig) = V (Proc.devRef .tc main_arg5 : DevRef τ sig) := by
  after_results_simp

set_option maxRecDepth 8192 in
set_option maxHeartbeats 4000000 in
theorem keep_L1_arg6 (V : Valuation τ sig (Elt F)) :
    after opsL1 V (Proc.devRef .tc main_arg6 : DevRef τ sig) = V (Proc.devRef .tc main_arg6 : DevRef τ sig) := by
  after_results_simp

set_option maxRecDepth 8192 in
set_option maxHeartbeats 4000000 in
theorem keep_L1_arg7 (V : Valuation τ sig (Elt F)) :
    after opsL1 V (Proc.devRef .tc main_arg7 : DevRef τ sig) = V (Proc.devRef .tc main_arg7 : DevRef τ sig) := by
  after_results_simp

set_option maxRecDepth 8192 in
set_option maxHeartbeats 4000000 in
theorem keep_L1_arg8 (V : Valuation τ sig (Elt F)) :
    after opsL1 V (Proc.devRef .tc main_arg8 : DevRef τ sig) = V (Proc.devRef .tc main_arg8 : DevRef τ sig) := by
  after_results_simp

set_option maxRecDepth 8192 in
set_option maxHeartbeats 4000000 in
theorem keep_L1_arg9 (V : Valuation τ sig (Elt F)) :
    after opsL1 V (Proc.devRef .tc main_arg9 : DevRef τ sig) = V (Proc.devRef .tc main_arg9 : DevRef τ sig) := by
  after_results_simp

set_option maxRecDepth 8192 in
set_option maxHeartbeats 4000000 in
theorem keep_L1_arg10 (V : Valuation τ sig (Elt F)) :
    after opsL1 V (Proc.devRef .tc main_arg10 : DevRef τ sig) = V (Proc.devRef .tc main_arg10 : DevRef τ sig) := by
  after_results_simp

set_option maxRecDepth 8192 in
set_option maxHeartbeats 4000000 in
theorem keep_L1_arg11 (V : Valuation τ sig (Elt F)) :
    after opsL1 V (Proc.devRef .tc main_arg11 : DevRef τ sig) = V (Proc.devRef .tc main_arg11 : DevRef τ sig) := by
  after_results_simp

set_option maxRecDepth 8192 in
set_option maxHeartbeats 4000000 in
theorem keep_L1_arg12 (V : Valuation τ sig (Elt F)) :
    after opsL1 V (Proc.devRef .tc main_arg12 : DevRef τ sig) = V (Proc.devRef .tc main_arg12 : DevRef τ sig) := by
  after_results_simp

set_option maxRecDepth 8192 in
set_option maxHeartbeats 4000000 in
theorem keep_L2_arg0 (V : Valuation τ sig (Elt F)) :
    after opsL2 V (Proc.devRef .tc main_arg0 : DevRef τ sig) = V (Proc.devRef .tc main_arg0 : DevRef τ sig) := by
  after_results_simp

set_option maxRecDepth 8192 in
set_option maxHeartbeats 4000000 in
theorem keep_L2_arg1 (V : Valuation τ sig (Elt F)) :
    after opsL2 V (Proc.devRef .tc main_arg1 : DevRef τ sig) = V (Proc.devRef .tc main_arg1 : DevRef τ sig) := by
  after_results_simp

set_option maxRecDepth 8192 in
set_option maxHeartbeats 4000000 in
theorem keep_L2_arg2 (V : Valuation τ sig (Elt F)) :
    after opsL2 V (Proc.devRef .tc main_arg2 : DevRef τ sig) = V (Proc.devRef .tc main_arg2 : DevRef τ sig) := by
  after_results_simp

set_option maxRecDepth 8192 in
set_option maxHeartbeats 4000000 in
theorem keep_L2_arg3 (V : Valuation τ sig (Elt F)) :
    after opsL2 V (Proc.devRef .tc main_arg3 : DevRef τ sig) = V (Proc.devRef .tc main_arg3 : DevRef τ sig) := by
  after_results_simp

set_option maxRecDepth 8192 in
set_option maxHeartbeats 4000000 in
theorem keep_L2_arg4 (V : Valuation τ sig (Elt F)) :
    after opsL2 V (Proc.devRef .tc main_arg4 : DevRef τ sig) = V (Proc.devRef .tc main_arg4 : DevRef τ sig) := by
  after_results_simp

set_option maxRecDepth 8192 in
set_option maxHeartbeats 4000000 in
theorem keep_L2_arg5 (V : Valuation τ sig (Elt F)) :
    after opsL2 V (Proc.devRef .tc main_arg5 : DevRef τ sig) = V (Proc.devRef .tc main_arg5 : DevRef τ sig) := by
  after_results_simp

set_option maxRecDepth 8192 in
set_option maxHeartbeats 4000000 in
theorem keep_L2_arg6 (V : Valuation τ sig (Elt F)) :
    after opsL2 V (Proc.devRef .tc main_arg6 : DevRef τ sig) = V (Proc.devRef .tc main_arg6 : DevRef τ sig) := by
  after_results_simp

set_option maxRecDepth 8192 in
set_option maxHeartbeats 4000000 in
theorem keep_L2_arg7 (V : Valuation τ sig (Elt F)) :
    after opsL2 V (Proc.devRef .tc main_arg7 : DevRef τ sig) = V (Proc.devRef .tc main_arg7 : DevRef τ sig) := by
  after_results_simp

set_option maxRecDepth 8192 in
set_option maxHeartbeats 4000000 in
theorem keep_L2_arg8 (V : Valuation τ sig (Elt F)) :
    after opsL2 V (Proc.devRef .tc main_arg8 : DevRef τ sig) = V (Proc.devRef .tc main_arg8 : DevRef τ sig) := by
  after_results_simp

set_option maxRecDepth 8192 in
set_option maxHeartbeats 4000000 in
theorem keep_L2_arg9 (V : Valuation τ sig (Elt F)) :
    after opsL2 V (Proc.devRef .tc main_arg9 : DevRef τ sig) = V (Proc.devRef .tc main_arg9 : DevRef τ sig) := by
  after_results_simp

set_option maxRecDepth 8192 in
set_option maxHeartbeats 4000000 in
theorem keep_L2_arg10 (V : Valuation τ sig (Elt F)) :
    after opsL2 V (Proc.devRef .tc main_arg10 : DevRef τ sig) = V (Proc.devRef .tc main_arg10 : DevRef τ sig) := by
  after_results_simp

set_option maxRecDepth 8192 in
set_option maxHeartbeats 4000000 in
theorem keep_L2_arg11 (V : Valuation τ sig (Elt F)) :
    after opsL2 V (Proc.devRef .tc main_arg11 : DevRef τ sig) = V (Proc.devRef .tc main_arg11 : DevRef τ sig) := by
  after_results_simp

set_option maxRecDepth 8192 in
set_option maxHeartbeats 4000000 in
theorem keep_L2_arg12 (V : Valuation τ sig (Elt F)) :
    after opsL2 V (Proc.devRef .tc main_arg12 : DevRef τ sig) = V (Proc.devRef .tc main_arg12 : DevRef τ sig) := by
  after_results_simp

set_option maxRecDepth 8192 in
set_option maxHeartbeats 4000000 in
theorem keep_L3_arg0 (V : Valuation τ sig (Elt F)) :
    after opsL3 V (Proc.devRef .tc main_arg0 : DevRef τ sig) = V (Proc.devRef .tc main_arg0 : DevRef τ sig) := by
  after_results_simp

set_option maxRecDepth 8192 in
set_option maxHeartbeats 4000000 in
theorem keep_L3_arg1 (V : Valuation τ sig (Elt F)) :
    after opsL3 V (Proc.devRef .tc main_arg1 : DevRef τ sig) = V (Proc.devRef .tc main_arg1 : DevRef τ sig) := by
  after_results_simp

set_option maxRecDepth 8192 in
set_option maxHeartbeats 4000000 in
theorem keep_L3_arg2 (V : Valuation τ sig (Elt F)) :
    after opsL3 V (Proc.devRef .tc main_arg2 : DevRef τ sig) = V (Proc.devRef .tc main_arg2 : DevRef τ sig) := by
  after_results_simp

set_option maxRecDepth 8192 in
set_option maxHeartbeats 4000000 in
theorem keep_L3_arg3 (V : Valuation τ sig (Elt F)) :
    after opsL3 V (Proc.devRef .tc main_arg3 : DevRef τ sig) = V (Proc.devRef .tc main_arg3 : DevRef τ sig) := by
  after_results_simp

set_option maxRecDepth 8192 in
set_option maxHeartbeats 4000000 in
theorem keep_L3_arg4 (V : Valuation τ sig (Elt F)) :
    after opsL3 V (Proc.devRef .tc main_arg4 : DevRef τ sig) = V (Proc.devRef .tc main_arg4 : DevRef τ sig) := by
  after_results_simp

set_option maxRecDepth 8192 in
set_option maxHeartbeats 4000000 in
theorem keep_L3_arg5 (V : Valuation τ sig (Elt F)) :
    after opsL3 V (Proc.devRef .tc main_arg5 : DevRef τ sig) = V (Proc.devRef .tc main_arg5 : DevRef τ sig) := by
  after_results_simp

set_option maxRecDepth 8192 in
set_option maxHeartbeats 4000000 in
theorem keep_L3_arg6 (V : Valuation τ sig (Elt F)) :
    after opsL3 V (Proc.devRef .tc main_arg6 : DevRef τ sig) = V (Proc.devRef .tc main_arg6 : DevRef τ sig) := by
  after_results_simp

set_option maxRecDepth 8192 in
set_option maxHeartbeats 4000000 in
theorem keep_L3_arg7 (V : Valuation τ sig (Elt F)) :
    after opsL3 V (Proc.devRef .tc main_arg7 : DevRef τ sig) = V (Proc.devRef .tc main_arg7 : DevRef τ sig) := by
  after_results_simp

set_option maxRecDepth 8192 in
set_option maxHeartbeats 4000000 in
theorem keep_L3_arg8 (V : Valuation τ sig (Elt F)) :
    after opsL3 V (Proc.devRef .tc main_arg8 : DevRef τ sig) = V (Proc.devRef .tc main_arg8 : DevRef τ sig) := by
  after_results_simp

set_option maxRecDepth 8192 in
set_option maxHeartbeats 4000000 in
theorem keep_L3_arg9 (V : Valuation τ sig (Elt F)) :
    after opsL3 V (Proc.devRef .tc main_arg9 : DevRef τ sig) = V (Proc.devRef .tc main_arg9 : DevRef τ sig) := by
  after_results_simp

set_option maxRecDepth 8192 in
set_option maxHeartbeats 4000000 in
theorem keep_L3_arg10 (V : Valuation τ sig (Elt F)) :
    after opsL3 V (Proc.devRef .tc main_arg10 : DevRef τ sig) = V (Proc.devRef .tc main_arg10 : DevRef τ sig) := by
  after_results_simp

set_option maxRecDepth 8192 in
set_option maxHeartbeats 4000000 in
theorem keep_L3_arg11 (V : Valuation τ sig (Elt F)) :
    after opsL3 V (Proc.devRef .tc main_arg11 : DevRef τ sig) = V (Proc.devRef .tc main_arg11 : DevRef τ sig) := by
  after_results_simp

set_option maxRecDepth 8192 in
set_option maxHeartbeats 4000000 in
theorem keep_L3_arg12 (V : Valuation τ sig (Elt F)) :
    after opsL3 V (Proc.devRef .tc main_arg12 : DevRef τ sig) = V (Proc.devRef .tc main_arg12 : DevRef τ sig) := by
  after_results_simp

end Cert.ReferenceIdeal.RefRun

end
-- ==== Proof.RefRun.lean ====
import proofs.«166235_j274877907496_2_alg».proof.Proof.RefRunOps
import proofs.«166235_j274877907496_2_alg».proof.Proof.RefRunDefs
import proofs.«166235_j274877907496_2_alg».proof.Proof.RefRunLayers
import proofs.«166235_j274877907496_2_alg».proof.Proof.RefRunKeep

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The reference's run

@main is the straight line `ops` (`main_eq`: each of its two parts is its slice of the list by unfolding — the calls' bodies
unfold to their operations at the calls' buffers, the typed references' transports being the identity at literal
references — and the two parts in sequence are the concatenation run as one). Its run from any memory then ends with
every buffer at the fold of the operations' results (`run_seq`), which, read layer by layer, is `result` of the thirteen
arguments at the last buffer and the arguments' own contents at theirs. -/

/-- The fold over a concatenation is the fold over the second list after the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

set_option maxRecDepth 8192 in
set_option maxHeartbeats 4000000 in
/-- @main's first part is the first two layers' operations and the third's first four. -/
theorem part0_eq (c : Dev nD) : main_part0 (F := F) c = seq (opsL1 ++ (opsL2 ++ opsL3a)) := rfl

set_option maxRecDepth 8192 in
set_option maxHeartbeats 4000000 in
/-- @main's second part is the third layer's remaining operations. -/
theorem part1_eq (c : Dev nD) : main_part1 (F := F) c = seq opsL3b := rfl

set_option maxRecDepth 8192 in
/-- @main is the straight line of its 147 operations. -/
theorem main_eq (c : Dev nD) : main (F := F) c = seq ops := by
  rw [ops_eq_windows, seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches TensorCore references only. -/
theorem ops_sub : (ops : List (HloOp τ sig (Elt F))).Forall fun op => op.bufs ⊆ tcRefs τ sig :=
  ⟨unary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub ..⟩

/-- The fold over the whole list, layer by layer. -/
theorem after_ops (V : Valuation τ sig (Elt F)) : after ops V = after opsL3 (after opsL2 (after opsL1 V)) := by
  rw [ops_eq, after_app, after_app]

/-- After all the operations the last buffer holds `result` of the thirteen arguments' contents. -/
theorem after_ops_result (V : Valuation τ sig (Elt F)) :
    after ops V (Proc.devRef .tc main_v71 : DevRef τ sig)
      = result (V (Proc.devRef .tc main_arg0 : DevRef τ sig)) (V (Proc.devRef .tc main_arg1 : DevRef τ sig)) (V (Proc.devRef .tc main_arg2 : DevRef τ sig)) (V (Proc.devRef .tc main_arg3 : DevRef τ sig)) (V (Proc.devRef .tc main_arg4 : DevRef τ sig)) (V (Proc.devRef .tc main_arg5 : DevRef τ sig)) (V (Proc.devRef .tc main_arg6 : DevRef τ sig)) (V (Proc.devRef .tc main_arg7 : DevRef τ sig)) (V (Proc.devRef .tc main_arg8 : DevRef τ sig)) (V (Proc.devRef .tc main_arg9 : DevRef τ sig)) (V (Proc.devRef .tc main_arg10 : DevRef τ sig)) (V (Proc.devRef .tc main_arg11 : DevRef τ sig)) (V (Proc.devRef .tc main_arg12 : DevRef τ sig)) := by
  rw [after_ops, after_L3, after_L2, after_L1,
    keep_L2_arg9, keep_L2_arg10, keep_L2_arg11, keep_L2_arg12,
    keep_L1_arg5, keep_L1_arg6, keep_L1_arg7, keep_L1_arg8, keep_L1_arg9, keep_L1_arg10, keep_L1_arg11, keep_L1_arg12]
  rfl

/-- After all the operations `main_arg0` holds what it held. -/
theorem after_ops_arg0 (V : Valuation τ sig (Elt F)) :
    after ops V (Proc.devRef .tc main_arg0 : DevRef τ sig) = V (Proc.devRef .tc main_arg0 : DevRef τ sig) := by
  rw [after_ops, keep_L3_arg0, keep_L2_arg0, keep_L1_arg0]

/-- After all the operations `main_arg1` holds what it held. -/
theorem after_ops_arg1 (V : Valuation τ sig (Elt F)) :
    after ops V (Proc.devRef .tc main_arg1 : DevRef τ sig) = V (Proc.devRef .tc main_arg1 : DevRef τ sig) := by
  rw [after_ops, keep_L3_arg1, keep_L2_arg1, keep_L1_arg1]

/-- After all the operations `main_arg2` holds what it held. -/
theorem after_ops_arg2 (V : Valuation τ sig (Elt F)) :
    after ops V (Proc.devRef .tc main_arg2 : DevRef τ sig) = V (Proc.devRef .tc main_arg2 : DevRef τ sig) := by
  rw [after_ops, keep_L3_arg2, keep_L2_arg2, keep_L1_arg2]

/-- After all the operations `main_arg3` holds what it held. -/
theorem after_ops_arg3 (V : Valuation τ sig (Elt F)) :
    after ops V (Proc.devRef .tc main_arg3 : DevRef τ sig) = V (Proc.devRef .tc main_arg3 : DevRef τ sig) := by
  rw [after_ops, keep_L3_arg3, keep_L2_arg3, keep_L1_arg3]

/-- After all the operations `main_arg4` holds what it held. -/
theorem after_ops_arg4 (V : Valuation τ sig (Elt F)) :
    after ops V (Proc.devRef .tc main_arg4 : DevRef τ sig) = V (Proc.devRef .tc main_arg4 : DevRef τ sig) := by
  rw [after_ops, keep_L3_arg4, keep_L2_arg4, keep_L1_arg4]

/-- After all the operations `main_arg5` holds what it held. -/
theorem after_ops_arg5 (V : Valuation τ sig (Elt F)) :
    after ops V (Proc.devRef .tc main_arg5 : DevRef τ sig) = V (Proc.devRef .tc main_arg5 : DevRef τ sig) := by
  rw [after_ops, keep_L3_arg5, keep_L2_arg5, keep_L1_arg5]

/-- After all the operations `main_arg6` holds what it held. -/
theorem after_ops_arg6 (V : Valuation τ sig (Elt F)) :
    after ops V (Proc.devRef .tc main_arg6 : DevRef τ sig) = V (Proc.devRef .tc main_arg6 : DevRef τ sig) := by
  rw [after_ops, keep_L3_arg6, keep_L2_arg6, keep_L1_arg6]

/-- After all the operations `main_arg7` holds what it held. -/
theorem after_ops_arg7 (V : Valuation τ sig (Elt F)) :
    after ops V (Proc.devRef .tc main_arg7 : DevRef τ sig) = V (Proc.devRef .tc main_arg7 : DevRef τ sig) := by
  rw [after_ops, keep_L3_arg7, keep_L2_arg7, keep_L1_arg7]

/-- After all the operations `main_arg8` holds what it held. -/
theorem after_ops_arg8 (V : Valuation τ sig (Elt F)) :
    after ops V (Proc.devRef .tc main_arg8 : DevRef τ sig) = V (Proc.devRef .tc main_arg8 : DevRef τ sig) := by
  rw [after_ops, keep_L3_arg8, keep_L2_arg8, keep_L1_arg8]

/-- After all the operations `main_arg9` holds what it held. -/
theorem after_ops_arg9 (V : Valuation τ sig (Elt F)) :
    after ops V (Proc.devRef .tc main_arg9 : DevRef τ sig) = V (Proc.devRef .tc main_arg9 : DevRef τ sig) := by
  rw [after_ops, keep_L3_arg9, keep_L2_arg9, keep_L1_arg9]

/-- After all the operations `main_arg10` holds what it held. -/
theorem after_ops_arg10 (V : Valuation τ sig (Elt F)) :
    after ops V (Proc.devRef .tc main_arg10 : DevRef τ sig) = V (Proc.devRef .tc main_arg10 : DevRef τ sig) := by
  rw [after_ops, keep_L3_arg10, keep_L2_arg10, keep_L1_arg10]

/-- After all the operations `main_arg11` holds what it held. -/
theorem after_ops_arg11 (V : Valuation τ sig (Elt F)) :
    after ops V (Proc.devRef .tc main_arg11 : DevRef τ sig) = V (Proc.devRef .tc main_arg11 : DevRef τ sig) := by
  rw [after_ops, keep_L3_arg11, keep_L2_arg11, keep_L1_arg11]

/-- After all the operations `main_arg12` holds what it held. -/
theorem after_ops_arg12 (V : Valuation τ sig (Elt F)) :
    after ops V (Proc.devRef .tc main_arg12 : DevRef τ sig) = V (Proc.devRef .tc main_arg12 : DevRef τ sig) := by
  rw [after_ops, keep_L3_arg12, keep_L2_arg12, keep_L1_arg12]

set_option maxRecDepth 8192 in
set_option maxHeartbeats 4000000 in
/-- On every device, for any float values, from any memory with zero counters: every weakly fair execution of @main
    terminates with the result buffer at `result` of the thirteen arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v71)
        = result (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
            (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v71).trans (after_ops_result (launchContents m c)),
      (h c main_arg0).trans (after_ops_arg0 (launchContents m c)),
      (h c main_arg1).trans (after_ops_arg1 (launchContents m c)),
      (h c main_arg2).trans (after_ops_arg2 (launchContents m c)),
      (h c main_arg3).trans (after_ops_arg3 (launchContents m c)),
      (h c main_arg4).trans (after_ops_arg4 (launchContents m c)),
      (h c main_arg5).trans (after_ops_arg5 (launchContents m c)),
      (h c main_arg6).trans (after_ops_arg6 (launchContents m c)),
      (h c main_arg7).trans (after_ops_arg7 (launchContents m c)),
      (h c main_arg8).trans (after_ops_arg8 (launchContents m c)),
      (h c main_arg9).trans (after_ops_arg9 (launchContents m c)),
      (h c main_arg10).trans (after_ops_arg10 (launchContents m c)),
      (h c main_arg11).trans (after_ops_arg11 (launchContents m c)),
      (h c main_arg12).trans (after_ops_arg12 (launchContents m c))⟩)
    (run_seq scopedRefs_eq scopedSems_eq defs main (fun _ => ops) main_eq (fun _ => ops_sub) m ρ)

end Cert.ReferenceIdeal.RefRun

end
-- ==== Proof.Frames.lean ====
/-
  The frame claims and the (empty) idealization claim of the certificate.
  The word-level program and its idealization each run to the end without fault and leave their thirteen argument
  arrays as launched: the four kernel regions' records chained through the host stretches. The reference is host
  operations only: its run, read back, has every argument array unchanged. The idealization rewrote no operation, so the
  claim that it preserves the program is the empty conjunction.
-/
import proofs.«166235_j274877907496_2_alg».proof.Defs
import proofs.«166235_j274877907496_2_alg».proof.Proof.Gen.Kernel
import proofs.«166235_j274877907496_2_alg».proof.Proof.Gen.KernelIdeal
import proofs.«166235_j274877907496_2_alg».proof.Proof.Gen.ReferenceIdeal
import proofs.«166235_j274877907496_2_alg».proof.Proof.Gen.Pre_finite_inputs
import proofs.«166235_j274877907496_2_alg».proof.Proof.BitsKernelFrame
import proofs.«166235_j274877907496_2_alg».proof.Proof.IdealKernelFrame
import proofs.«166235_j274877907496_2_alg».proof.Proof.RefRun

noncomputable section

namespace Cert.Proof.Frames

open Idealize.ShloMosaic Idealize.SL.Sem

theorem frame_kernel : Cert.frame_Kernel := fun m ρ _ => Cert.Kernel.Hand.frame (F := Bits) m ρ

theorem frame_kernelIdeal : Cert.frame_KernelIdeal := fun m ρ _ => Cert.KernelIdeal.Hand.frame (F := Ideal) m ρ

theorem frame_referenceIdeal : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

end Cert.Proof.Frames

end
-- ==== Proof.RefRunIdx.lean ====
import proofs.«166235_j274877907496_2_alg».proof.Proof.RefRunDefs
import Idealize.ShloMosaic.PureOps.Ideal.Laws
import Idealize.ShloMosaic.Lib.ValueIdx
import Idealize.ShloMosaic.Lib.Pipeline.Value

noncomputable section

open scoped BigOperators

namespace Cert.ReferenceIdeal.RefRun

open Cert.ReferenceIdeal Cert.ReferenceIdeal.Gen Idealize.ShloMosaic Idealize.ShloMosaic.ValueIdx

/-! ## A layer read at an index, at the ideal values

At the extended reals every operation of a layer is its textbook one, so a layer's result at row `i` and column `j` is
`γ_j * (y i j − mean_j) * rsqrt (var_j + ε) + β_j` with `y i j = ∑ k, x i k * W j k + b j`, `mean_j` the sum of column
`j` over 16384 and `var_j` the sum of the squared deviations over 16384: a broadcast reads its operand at the kept
coordinates, the host's sum over the rows is the `Fin 16384`-indexed sum (its initial zero added away), the product is
the sum over the contracted axis, and the variance function's select takes its first branch because its predicate,
`16384 − 0 > 0`, holds. -/

/-! ### Literals and the host's operations at an index -/

/-- The float `16384.0` is the real `16384`. -/
theorem ofBits_16384 : Ideal.ofBits .f32 0x46800000#32 = ((16384 : ℝ) : EReal) := by
  simp [Ideal.ofBits, Ideal.ieee, -EReal.coe_mul]; norm_num

/-- The real the float `9.99999974E-6` denotes: `(2²³ + 2606508) · 2⁻⁴⁰`. -/
def epsR : ℝ := 10995116 / 2 ^ 40

theorem epsR_pos : 0 < epsR := by unfold epsR; positivity

/-- The float `ε = 9.99999974E-6` is that positive real. -/
theorem ofBits_eps : Ideal.ofBits .f32 0x3727C5AC#32 = ((epsR : ℝ) : EReal) := by
  unfold epsR
  simp [Ideal.ofBits, Ideal.ieee, -EReal.coe_mul]; norm_num

/-- The host's quotient at an index is the quotient of the elements. -/
theorem hostDivf_apply {s : Shape} {φ : FTy} (a b : FVec Ideal s φ) (i : s.Idx) : Host.divf a b i = Ideal.div (a i) (b i) := rfl

/-- The host's reciprocal square root at an index is that of the element. -/
theorem hostRsqrt_apply {s : Shape} {φ : FTy} (a : FVec Ideal s φ) (i : s.Idx) : Host.rsqrt a i = Ideal.rsqrt (a i) := rfl

/-- The count the variance divides by, `16384 − 0`, is the real `16384`. -/
theorem count_apply (q : S_.Idx) : count (F := Ideal) q = ((16384 : ℝ) : EReal) := by
  unfold count
  rw [subf_apply, constant_apply, ofBits_16384, sitofp_apply]
  show ((16384 : ℝ) : EReal) - ((((constantI S_ 32 0#32 q : BitVec 32)).toInt : ℝ) : EReal) = _
  simp [constantI]

/-- The variance's predicate, `16384 − 0 > 0`, holds. -/
theorem count_pos (q : S_.Idx) : cmpf (F := Ideal) .ogt count (constant S_ .f32 0x00000000#32) q = 1#1 := by
  rw [cmpf_apply, count_apply, constant_apply, Ideal.ofBits_zero_f32, Ideal.cmpf_def]
  simp [Ideal.cmp]

/-- The normalised entry of a column `y` of 16384 extended reals at row `i`, scale `γ` and shift `β`, mean and variance
    written out: `γ * (y i − μ) * rsqrt (σ² + ε) + β`. -/
def bnAt (y : Fin 16384 → EReal) (γ β : EReal) (i : Fin 16384) : EReal :=
  γ * (y i - Ideal.div (∑ k : Fin 16384, y k) ((16384 : ℝ) : EReal))
      * Ideal.rsqrt (Ideal.div (∑ k : Fin 16384,
            (y k - Ideal.div (∑ k : Fin 16384, y k) ((16384 : ℝ) : EReal))
              * (y k - Ideal.div (∑ k : Fin 16384, y k) ((16384 : ℝ) : EReal)))
          ((16384 : ℝ) : EReal)
        + Ideal.ofBits .f32 0x3727C5AC#32)
    + β

/-! ### Width 2048 -/

section
variable {F : FTy → Type} [FloatOps F]

/-- The matrix of repeated rows, at `(i, j)`: the vector at `j`. -/
theorem rows2048_apply (v : FVec F S2048 .f32) (i : Fin 16384) (j : Fin 2048) : rows2048 v (ix2 i j) = v (ix1 j) := by
  unfold rows2048
  rw [broadcastInDim_apply _ _ _ _ (ix2 (0 : Fin 1) j) (by intro a; fin_cases a <;> rfl),
    broadcastInDim_apply _ _ _ _ (ix1 j) (by intro a; fin_cases a <;> rfl)]

/-- The constant vector, at any index: the scalar. -/
theorem splat2048_apply (a : FVec F S_ .f32) (j : S2048.Idx) : splat2048 a j = a ix0 := by
  unfold splat2048
  rw [broadcastInDim_apply _ _ _ _ ix0 (fun a => a.elim0)]
end

/-- The column sums at column `j`: the sum down the column (the sum's initial zero added away). -/
theorem colSum2048_apply (y : FVec Ideal S16384x2048 .f32) (j : Fin 2048) :
    colSum2048 y (ix1 j) = ∑ k : Fin 16384, y (ix2 k j) := by
  unfold colSum2048 Host.reduceAdd
  show Ideal.hostReduceAdd _ y (Ideal.ofBits .f32 0x00000000#32) (ix1 j) = _
  rw [Ideal.hostReduceAdd_single _ (by decide : S16384x2048.Reduces [0] S2048), Ideal.ofBits_zero_f32, zero_add]
  refine Finset.sum_congr rfl fun k _ => congrArg y (funext fun a => ?_)
  fin_cases a <;> rfl

/-- The column means at column `j`. -/
theorem mean2048_apply (y : FVec Ideal S16384x2048 .f32) (j : Fin 2048) :
    mean2048 y (ix1 j) = Ideal.div (∑ k : Fin 16384, y (ix2 k j)) ((16384 : ℝ) : EReal) := by
  unfold mean2048
  rw [hostDivf_apply, colSum2048_apply, splat2048_apply, constant_apply, ofBits_16384]

/-- The centred matrix at `(i, j)`: the entry less its column's mean. -/
theorem centred2048_apply (y : FVec Ideal S16384x2048 .f32) (i : Fin 16384) (j : Fin 2048) :
    centred2048 y (ix2 i j) = y (ix2 i j) - Ideal.div (∑ k : Fin 16384, y (ix2 k j)) ((16384 : ℝ) : EReal) := by
  unfold centred2048
  rw [subf_apply, broadcastInDim_apply _ _ _ _ (ix2 (0 : Fin 1) j) (by intro a; fin_cases a <;> rfl), hostDivf_apply,
    broadcastInDim_apply _ _ _ _ (ix1 j) (by intro a; fin_cases a <;> rfl),
    broadcastInDim_apply _ _ _ _ ix0 (fun a => a.elim0), colSum2048_apply, constant_apply, ofBits_16384]

/-- The column variances at column `j`: the predicate `16384 − 0 > 0` holds, so the select takes the quotient — the sum of
    the squared deviations from the column's mean, over 16384. -/
theorem var2048_apply (y : FVec Ideal S16384x2048 .f32) (j : Fin 2048) :
    var2048 y (ix1 j)
      = Ideal.div (∑ k : Fin 16384,
            (y (ix2 k j) - Ideal.div (∑ k : Fin 16384, y (ix2 k j)) ((16384 : ℝ) : EReal))
              * (y (ix2 k j) - Ideal.div (∑ k : Fin 16384, y (ix2 k j)) ((16384 : ℝ) : EReal)))
          ((16384 : ℝ) : EReal) := by
  unfold var2048
  rw [select_apply, broadcastInDim_apply _ _ _ _ ix0 (fun a => a.elim0), count_pos, select_one, hostDivf_apply,
    colSum2048_apply, splat2048_apply, count_apply]
  simp only [mulf_apply, centred2048_apply]

/-- The normalisation at `(i, j)`: `γ_j * (y i j − mean_j) * rsqrt (var_j + ε) + β_j`, the mean and the variance of column `j`
    written out as sums over the 16384 rows. -/
theorem norm2048_apply (y : FVec Ideal S16384x2048 .f32) (g bt : FVec Ideal S2048 .f32) (i : Fin 16384) (j : Fin 2048) :
    norm2048 y g bt (ix2 i j)
      = g (ix1 j) * (y (ix2 i j) - Ideal.div (∑ k : Fin 16384, y (ix2 k j)) ((16384 : ℝ) : EReal))
          * Ideal.rsqrt (Ideal.div (∑ k : Fin 16384,
                (y (ix2 k j) - Ideal.div (∑ k : Fin 16384, y (ix2 k j)) ((16384 : ℝ) : EReal))
                  * (y (ix2 k j) - Ideal.div (∑ k : Fin 16384, y (ix2 k j)) ((16384 : ℝ) : EReal)))
              ((16384 : ℝ) : EReal)
            + Ideal.ofBits .f32 0x3727C5AC#32)
        + bt (ix1 j) := by
  unfold norm2048
  rw [addf_apply, mulf_apply, mulf_apply, subf_apply, rows2048_apply, rows2048_apply, rows2048_apply, rows2048_apply,
    hostRsqrt_apply, addf_apply, mean2048_apply, var2048_apply, splat2048_apply, constant_apply]

/-! ### Width 1024 -/

section
variable {F : FTy → Type} [FloatOps F]

/-- The matrix of repeated rows, at `(i, j)`: the vector at `j`. -/
theorem rows1024_apply (v : FVec F S1024 .f32) (i : Fin 16384) (j : Fin 1024) : rows1024 v (ix2 i j) = v (ix1 j) := by
  unfold rows1024
  rw [broadcastInDim_apply _ _ _ _ (ix2 (0 : Fin 1) j) (by intro a; fin_cases a <;> rfl),
    broadcastInDim_apply _ _ _ _ (ix1 j) (by intro a; fin_cases a <;> rfl)]

/-- The constant vector, at any index: the scalar. -/
theorem splat1024_apply (a : FVec F S_ .f32) (j : S1024.Idx) : splat1024 a j = a ix0 := by
  unfold splat1024
  rw [broadcastInDim_apply _ _ _ _ ix0 (fun a => a.elim0)]
end

/-- The column sums at column `j`: the sum down the column (the sum's initial zero added away). -/
theorem colSum1024_apply (y : FVec Ideal S16384x1024 .f32) (j : Fin 1024) :
    colSum1024 y (ix1 j) = ∑ k : Fin 16384, y (ix2 k j) := by
  unfold colSum1024 Host.reduceAdd
  show Ideal.hostReduceAdd _ y (Ideal.ofBits .f32 0x00000000#32) (ix1 j) = _
  rw [Ideal.hostReduceAdd_single _ (by decide : S16384x1024.Reduces [0] S1024), Ideal.ofBits_zero_f32, zero_add]
  refine Finset.sum_congr rfl fun k _ => congrArg y (funext fun a => ?_)
  fin_cases a <;> rfl

/-- The column means at column `j`. -/
theorem mean1024_apply (y : FVec Ideal S16384x1024 .f32) (j : Fin 1024) :
    mean1024 y (ix1 j) = Ideal.div (∑ k : Fin 16384, y (ix2 k j)) ((16384 : ℝ) : EReal) := by
  unfold mean1024
  rw [hostDivf_apply, colSum1024_apply, splat1024_apply, constant_apply, ofBits_16384]

/-- The centred matrix at `(i, j)`: the entry less its column's mean. -/
theorem centred1024_apply (y : FVec Ideal S16384x1024 .f32) (i : Fin 16384) (j : Fin 1024) :
    centred1024 y (ix2 i j) = y (ix2 i j) - Ideal.div (∑ k : Fin 16384, y (ix2 k j)) ((16384 : ℝ) : EReal) := by
  unfold centred1024
  rw [subf_apply, broadcastInDim_apply _ _ _ _ (ix2 (0 : Fin 1) j) (by intro a; fin_cases a <;> rfl), hostDivf_apply,
    broadcastInDim_apply _ _ _ _ (ix1 j) (by intro a; fin_cases a <;> rfl),
    broadcastInDim_apply _ _ _ _ ix0 (fun a => a.elim0), colSum1024_apply, constant_apply, ofBits_16384]

/-- The column variances at column `j`: the predicate `16384 − 0 > 0` holds, so the select takes the quotient — the sum of
    the squared deviations from the column's mean, over 16384. -/
theorem var1024_apply (y : FVec Ideal S16384x1024 .f32) (j : Fin 1024) :
    var1024 y (ix1 j)
      = Ideal.div (∑ k : Fin 16384,
            (y (ix2 k j) - Ideal.div (∑ k : Fin 16384, y (ix2 k j)) ((16384 : ℝ) : EReal))
              * (y (ix2 k j) - Ideal.div (∑ k : Fin 16384, y (ix2 k j)) ((16384 : ℝ) : EReal)))
          ((16384 : ℝ) : EReal) := by
  unfold var1024
  rw [select_apply, broadcastInDim_apply _ _ _ _ ix0 (fun a => a.elim0), count_pos, select_one, hostDivf_apply,
    colSum1024_apply, splat1024_apply, count_apply]
  simp only [mulf_apply, centred1024_apply]

/-- The normalisation at `(i, j)`: `γ_j * (y i j − mean_j) * rsqrt (var_j + ε) + β_j`, the mean and the variance of column `j`
    written out as sums over the 16384 rows. -/
theorem norm1024_apply (y : FVec Ideal S16384x1024 .f32) (g bt : FVec Ideal S1024 .f32) (i : Fin 16384) (j : Fin 1024) :
    norm1024 y g bt (ix2 i j)
      = g (ix1 j) * (y (ix2 i j) - Ideal.div (∑ k : Fin 16384, y (ix2 k j)) ((16384 : ℝ) : EReal))
          * Ideal.rsqrt (Ideal.div (∑ k : Fin 16384,
                (y (ix2 k j) - Ideal.div (∑ k : Fin 16384, y (ix2 k j)) ((16384 : ℝ) : EReal))
                  * (y (ix2 k j) - Ideal.div (∑ k : Fin 16384, y (ix2 k j)) ((16384 : ℝ) : EReal)))
              ((16384 : ℝ) : EReal)
            + Ideal.ofBits .f32 0x3727C5AC#32)
        + bt (ix1 j) := by
  unfold norm1024
  rw [addf_apply, mulf_apply, mulf_apply, subf_apply, rows1024_apply, rows1024_apply, rows1024_apply, rows1024_apply,
    hostRsqrt_apply, addf_apply, mean1024_apply, var1024_apply, splat1024_apply, constant_apply]

/-! ### The three products with their biases -/

/-- `lin1` at `(i, j)`: the sum over the contracted axis of `x i k * W j k`, plus `b j`. -/
theorem lin1_apply (x : FVec Ideal S16384x1024 .f32) (W : FVec Ideal S2048x1024 .f32) (b : FVec Ideal S2048 .f32)
    (i : Fin 16384) (j : Fin 2048) :
    lin1 x W b (ix2 i j) = (∑ k : Fin 1024, x (ix2 i k) * W (ix2 j k)) + b (ix1 j) := by
  unfold lin1
  rw [addf_apply, rows2048_apply]
  simp only [Host.dotGeneral]
  rw [Ideal.dotGeneral_apply]
  rw [Fintype.sum_equiv (contrEquiv1 dot_S16384x1024_S1024x2048_S16384x2048_1_0_0_1_n_n 1024 rfl rfl) _ (fun k : Fin 1024 => x (ix2 i k) * W (ix2 j k)) fun q => ?_]
  have hl : dot_S16384x1024_S1024x2048_S16384x2048_1_0_0_1_n_n.lhsIdx (ix2 i j) q = ix2 i (contrEquiv1 dot_S16384x1024_S1024x2048_S16384x2048_1_0_0_1_n_n 1024 rfl rfl q) := by
    funext a; fin_cases a <;> exact Fin.ext rfl
  rw [hl, transpose_apply _ _ _ _ (ix2 j (contrEquiv1 dot_S16384x1024_S1024x2048_S16384x2048_1_0_0_1_n_n 1024 rfl rfl q)) (by intro c; fin_cases c <;> rfl)]

/-- `lin2` at `(i, j)`: the sum over the contracted axis of `x i k * W j k`, plus `b j`. -/
theorem lin2_apply (x : FVec Ideal S16384x2048 .f32) (W : FVec Ideal S2048x2048 .f32) (b : FVec Ideal S2048 .f32)
    (i : Fin 16384) (j : Fin 2048) :
    lin2 x W b (ix2 i j) = (∑ k : Fin 2048, x (ix2 i k) * W (ix2 j k)) + b (ix1 j) := by
  unfold lin2
  rw [addf_apply, rows2048_apply]
  simp only [Host.dotGeneral]
  rw [Ideal.dotGeneral_apply]
  rw [Fintype.sum_equiv (contrEquiv1 dot_S16384x2048_S2048x2048_S16384x2048_1_0_0_1_n_n 2048 rfl rfl) _ (fun k : Fin 2048 => x (ix2 i k) * W (ix2 j k)) fun q => ?_]
  have hl : dot_S16384x2048_S2048x2048_S16384x2048_1_0_0_1_n_n.lhsIdx (ix2 i j) q = ix2 i (contrEquiv1 dot_S16384x2048_S2048x2048_S16384x2048_1_0_0_1_n_n 2048 rfl rfl q) := by
    funext a; fin_cases a <;> exact Fin.ext rfl
  rw [hl, transpose_apply _ _ _ _ (ix2 j (contrEquiv1 dot_S16384x2048_S2048x2048_S16384x2048_1_0_0_1_n_n 2048 rfl rfl q)) (by intro c; fin_cases c <;> rfl)]

/-- `lin3` at `(i, j)`: the sum over the contracted axis of `x i k * W j k`, plus `b j`. -/
theorem lin3_apply (x : FVec Ideal S16384x2048 .f32) (W : FVec Ideal S1024x2048 .f32) (b : FVec Ideal S1024 .f32)
    (i : Fin 16384) (j : Fin 1024) :
    lin3 x W b (ix2 i j) = (∑ k : Fin 2048, x (ix2 i k) * W (ix2 j k)) + b (ix1 j) := by
  unfold lin3
  rw [addf_apply, rows1024_apply]
  simp only [Host.dotGeneral]
  rw [Ideal.dotGeneral_apply]
  rw [Fintype.sum_equiv (contrEquiv1 dot_S16384x2048_S2048x1024_S16384x1024_1_0_0_1_n_n 2048 rfl rfl) _ (fun k : Fin 2048 => x (ix2 i k) * W (ix2 j k)) fun q => ?_]
  have hl : dot_S16384x2048_S2048x1024_S16384x1024_1_0_0_1_n_n.lhsIdx (ix2 i j) q = ix2 i (contrEquiv1 dot_S16384x2048_S2048x1024_S16384x1024_1_0_0_1_n_n 2048 rfl rfl q) := by
    funext a; fin_cases a <;> exact Fin.ext rfl
  rw [hl, transpose_apply _ _ _ _ (ix2 j (contrEquiv1 dot_S16384x2048_S2048x1024_S16384x1024_1_0_0_1_n_n 2048 rfl rfl q)) (by intro c; fin_cases c <;> rfl)]

/-! ### The three layers -/

/-- Layer 1 at `(i, j)`: the normalisation of column `j` of `y = lin1 x W b`, the entries of `y` left folded
    (`lin1_apply` opens each). -/
theorem layer1_apply (x : FVec Ideal S16384x1024 .f32) (W : FVec Ideal S2048x1024 .f32) (b g bt : FVec Ideal S2048 .f32)
    (i : Fin 16384) (j : Fin 2048) :
    layer1 x W b g bt (ix2 i j)
      = bnAt (fun k => lin1 x W b (ix2 k j)) (g (ix1 j)) (bt (ix1 j)) i := by
  unfold layer1 bnAt
  rw [norm2048_apply]

/-- Layer 1 at `(i, j)`, every entry of `y` written as its sum: `y k j = ∑ l, x k l * W j l + b j`. -/
theorem layer1_apply_sum (x : FVec Ideal S16384x1024 .f32) (W : FVec Ideal S2048x1024 .f32) (b g bt : FVec Ideal S2048 .f32)
    (i : Fin 16384) (j : Fin 2048) :
    layer1 x W b g bt (ix2 i j)
      = bnAt (fun k => (∑ l : Fin 1024, x (ix2 k l) * W (ix2 j l)) + b (ix1 j)) (g (ix1 j)) (bt (ix1 j)) i := by
  rw [layer1_apply]
  simp only [lin1_apply]

/-- Layer 2 at `(i, j)`: the normalisation of column `j` of `y = lin2 x W b`, the entries of `y` left folded
    (`lin2_apply` opens each). -/
theorem layer2_apply (x : FVec Ideal S16384x2048 .f32) (W : FVec Ideal S2048x2048 .f32) (b g bt : FVec Ideal S2048 .f32)
    (i : Fin 16384) (j : Fin 2048) :
    layer2 x W b g bt (ix2 i j)
      = bnAt (fun k => lin2 x W b (ix2 k j)) (g (ix1 j)) (bt (ix1 j)) i := by
  unfold layer2 bnAt
  rw [norm2048_apply]

/-- Layer 2 at `(i, j)`, every entry of `y` written as its sum: `y k j = ∑ l, x k l * W j l + b j`. -/
theorem layer2_apply_sum (x : FVec Ideal S16384x2048 .f32) (W : FVec Ideal S2048x2048 .f32) (b g bt : FVec Ideal S2048 .f32)
    (i : Fin 16384) (j : Fin 2048) :
    layer2 x W b g bt (ix2 i j)
      = bnAt (fun k => (∑ l : Fin 2048, x (ix2 k l) * W (ix2 j l)) + b (ix1 j)) (g (ix1 j)) (bt (ix1 j)) i := by
  rw [layer2_apply]
  simp only [lin2_apply]

/-- Layer 3 at `(i, j)`: the normalisation of column `j` of `y = lin3 x W b`, the entries of `y` left folded
    (`lin3_apply` opens each). -/
theorem layer3_apply (x : FVec Ideal S16384x2048 .f32) (W : FVec Ideal S1024x2048 .f32) (b g bt : FVec Ideal S1024 .f32)
    (i : Fin 16384) (j : Fin 1024) :
    layer3 x W b g bt (ix2 i j)
      = bnAt (fun k => lin3 x W b (ix2 k j)) (g (ix1 j)) (bt (ix1 j)) i := by
  unfold layer3 bnAt
  rw [norm1024_apply]

/-- Layer 3 at `(i, j)`, every entry of `y` written as its sum: `y k j = ∑ l, x k l * W j l + b j`. -/
theorem layer3_apply_sum (x : FVec Ideal S16384x2048 .f32) (W : FVec Ideal S1024x2048 .f32) (b g bt : FVec Ideal S1024 .f32)
    (i : Fin 16384) (j : Fin 1024) :
    layer3 x W b g bt (ix2 i j)
      = bnAt (fun k => (∑ l : Fin 2048, x (ix2 k l) * W (ix2 j l)) + b (ix1 j)) (g (ix1 j)) (bt (ix1 j)) i := by
  rw [layer3_apply]
  simp only [lin3_apply]

end Cert.ReferenceIdeal.RefRun

end
-- ==== Proof.LibBatchNormPool.lean ====
/-
  Batch normalisation followed by a mean pool, on the extended reals, in two arrangements.

  For a finite batch `B` and a finite set of positions `P`, and real entries `x b p`:
  the ONE-PASS arrangement forms per-row sums `S1 b = ∑ p, x b p` and `S2 b = ∑ p, x b p * x b p`,
  the mean `μ = (∑ b, S1 b) / N`, the second moment `(∑ b, S2 b) / N`, the variance
  `max (second moment - μ * μ) 0`, and the output `g * ((S1 b / n - μ) * rsqrt (variance + ε)) + β`;
  the TWO-PASS arrangement forms the mean of all entries, the mean of the squared deviations, and the pooled
  mean over `p` of `(x b p - μ) * rsqrt (variance + ε) * g + β`.
  With `N = |B| * |P|`, `n = |P|`, `ε > 0` they agree: the mean of squared deviations is the second moment less
  the squared mean and is not negative, and the pooled mean of an affine function is the affine function of the pooled mean.
  All of it holds because every quantity is a real number; the statements are about extended reals that are
  coercions of reals.
-/
import Idealize.ShloMosaic.PureOps.Ideal

noncomputable section

namespace BatchNormPool

open Idealize.ShloMosaic
open scoped BigOperators

/-- A finite sum of real numbers read as extended reals is the real sum. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The quotient of two reals, the divisor not zero, in the extended reals' division. -/
theorem div_coe_coe (a : ℝ) {y : ℝ} (h : y ≠ 0) : Ideal.div (a : EReal) (y : EReal) = ((a / y : ℝ) : EReal) := by
  rw [Ideal.div_coe h, ← EReal.coe_mul]; congr 1; ring

/-- The reciprocal square root of a positive real. -/
theorem rsqrt_coe_pos {y : ℝ} (h : 0 < y) : Ideal.rsqrt (y : EReal) = (((Real.sqrt y)⁻¹ : ℝ) : EReal) := by
  rw [Ideal.rsqrt_coe, if_neg (not_lt.mpr h.le), if_neg h.ne']

variable {B P : Type} [Fintype B] [Fintype P]

section Real

variable (x : B → P → ℝ) (N n : ℝ)

/-- The mean of all entries. -/
def mean : ℝ := (∑ b, ∑ p, x b p) / N

/-- The mean of the squared deviations is the second moment less the squared mean. -/
theorem var_eq (hN : N = (Fintype.card B : ℝ) * (Fintype.card P : ℝ)) (hN0 : N ≠ 0) :
    (∑ b, ∑ p, (x b p - mean x N) * (x b p - mean x N)) / N
      = (∑ b, ∑ p, x b p * x b p) / N - mean x N * mean x N := by
  have hS : (∑ b, ∑ p, x b p) = mean x N * N := by unfold mean; field_simp
  have h1 : ∀ b p, (x b p - mean x N) * (x b p - mean x N)
      = x b p * x b p - 2 * mean x N * x b p + mean x N * mean x N := fun b p => by ring
  simp only [h1, Finset.sum_add_distrib, Finset.sum_sub_distrib, ← Finset.mul_sum, Finset.sum_const,
    Finset.card_univ, nsmul_eq_mul]
  rw [hS]
  field_simp
  rw [hN]; ring

/-- The mean of the squared deviations is not negative. -/
theorem var_nonneg (hN0 : 0 < N) : 0 ≤ (∑ b, ∑ p, (x b p - mean x N) * (x b p - mean x N)) / N :=
  div_nonneg (Finset.sum_nonneg fun b _ => Finset.sum_nonneg fun p _ => mul_self_nonneg _) hN0.le

/-- The pooled mean of an affine function of the entries is the affine function of the pooled mean. -/
theorem pool_affine (b : B) (μ r g β : ℝ) (hn : n = (Fintype.card P : ℝ)) (hn0 : n ≠ 0) :
    (∑ p, ((x b p - μ) * r * g + β)) / n = g * (((∑ p, x b p) / n - μ) * r) + β := by
  have h1 : ∀ p, (x b p - μ) * r * g + β = (r * g) * x b p + (β - μ * r * g) := fun p => by ring
  simp only [h1, Finset.sum_add_distrib, ← Finset.mul_sum, Finset.sum_const, Finset.card_univ, nsmul_eq_mul]
  rw [← hn]; field_simp; ring

end Real

section Ext

variable (X : B → P → EReal) (Nn nn eps g β : EReal)

/-- The one-pass arrangement on the extended reals (every sum started from `0`, as a program starts it). -/
def onePass (b : B) : EReal :=
  g * ((Ideal.div (∑ p, X b p) nn - Ideal.div (0 + ∑ b, ∑ p, X b p) Nn)
      * Ideal.rsqrt (max (Ideal.div (0 + ∑ b, ∑ p, X b p * X b p) Nn
          - Ideal.div (0 + ∑ b, ∑ p, X b p) Nn * Ideal.div (0 + ∑ b, ∑ p, X b p) Nn) 0 + eps)) + β

/-- The two-pass arrangement on the extended reals. -/
def twoPass (b : B) : EReal :=
  Ideal.div (0 + ∑ p, ((X b p - Ideal.div (0 + ∑ b, ∑ p, X b p) Nn)
      * Ideal.rsqrt (Ideal.div (0 + ∑ b, ∑ p, (X b p - Ideal.div (0 + ∑ b, ∑ p, X b p) Nn)
          * (X b p - Ideal.div (0 + ∑ b, ∑ p, X b p) Nn)) Nn + eps) * g + β)) nn

/-- On real entries, with `N = |B| * |P|`, `n = |P|` and a positive `ε`, the two arrangements agree. -/
theorem onePass_eq_twoPass (x : B → P → ℝ) (N n e gr βr : ℝ)
    (hN : N = (Fintype.card B : ℝ) * (Fintype.card P : ℝ)) (hN0 : 0 < N)
    (hn : n = (Fintype.card P : ℝ)) (hn0 : 0 < n) (he : 0 < e) (b : B) :
    onePass (fun b p => ((x b p : ℝ) : EReal)) (N : EReal) (n : EReal) (e : EReal) (gr : EReal) (βr : EReal) b
      = twoPass (fun b p => ((x b p : ℝ) : EReal)) (N : EReal) (n : EReal) (e : EReal) (gr : EReal) (βr : EReal) b := by
  unfold onePass twoPass
  dsimp only
  have hmax : ∀ a : ℝ, max (a : EReal) 0 = ((max a 0 : ℝ) : EReal) := fun a =>
    (EReal.coe_strictMono.monotone.map_max (a := a) (b := 0)).symm
  have hmu : Ideal.div (0 + ∑ b, ∑ p, ((x b p : ℝ) : EReal)) (N : EReal) = ((mean x N : ℝ) : EReal) := by
    simp only [coe_sum, zero_add]; rw [div_coe_coe _ hN0.ne']; rfl
  rw [hmu]
  have hvar : Ideal.div (0 + ∑ b, ∑ p, (((x b p : ℝ) : EReal) - ((mean x N : ℝ) : EReal))
      * (((x b p : ℝ) : EReal) - ((mean x N : ℝ) : EReal))) (N : EReal)
      = (((∑ b, ∑ p, (x b p - mean x N) * (x b p - mean x N)) / N : ℝ) : EReal) := by
    simp only [← EReal.coe_sub, ← EReal.coe_mul, coe_sum, zero_add]; rw [div_coe_coe _ hN0.ne']
  have hex2 : Ideal.div (0 + ∑ b, ∑ p, ((x b p : ℝ) : EReal) * ((x b p : ℝ) : EReal)) (N : EReal)
      = (((∑ b, ∑ p, x b p * x b p) / N : ℝ) : EReal) := by
    simp only [← EReal.coe_mul, coe_sum, zero_add]; rw [div_coe_coe _ hN0.ne']
  rw [hvar, hex2, ← EReal.coe_mul, ← EReal.coe_sub, hmax, ← var_eq x N hN hN0.ne',
    max_eq_left (var_nonneg x N hN0), ← EReal.coe_add,
    rsqrt_coe_pos (add_pos_of_nonneg_of_pos (var_nonneg x N hN0) he)]
  simp only [← EReal.coe_sub, ← EReal.coe_mul, ← EReal.coe_add, coe_sum, zero_add]
  rw [div_coe_coe _ hn0.ne', div_coe_coe _ hn0.ne', ← EReal.coe_sub, ← EReal.coe_mul, ← EReal.coe_mul, ← EReal.coe_add,
    pool_affine x n b _ _ _ _ hn hn0.ne']

end Ext

end BatchNormPool

end
-- ==== Proof.LibBatchNormStats.lean ====
/-
  Training-mode batch normalisation of one feature, on the extended reals, in its arrangements.

  For a finite batch ι of N entries, all of them REAL numbers y i read as extended reals:
  the mean is  μ = (∑ i, y i) / N;
  the ONE-PASS variance is the second moment less the squared mean,  (∑ i, y i * y i) / N - μ * μ;
  the TWO-PASS variance is the mean of the squared deviations,       (∑ i, (y i - μ) * (y i - μ)) / N.
  Expanding the square,  ∑ (y i - μ)² = ∑ (y i)² - 2 μ ∑ y i + N μ² = ∑ (y i)² - N μ²  because ∑ y i = N μ,
  so the two variances are one real number, and it is not negative, being a mean of squares.
  Hence for ε > 0 the argument of the reciprocal square root, variance + ε, is a positive real, and its
  reciprocal square root is the positive real (√(variance + ε))⁻¹: no corner of the extended reals is met.
  The normalised entry  γ (y i - μ) (√(variance + ε))⁻¹ + β  is then a real number too, whichever way its three
  factors are associated: multiplication of extended reals is commutative and associative.

  Every statement below has on its left the expression over extended reals, written out in full, and on
  its right the coercion of a real number, so that it rewrites from left to right.
-/
import Idealize.ShloMosaic.PureOps.Ideal
import proofs.«166235_j274877907496_2_alg».proof.Proof.LibBatchNormPool

noncomputable section

namespace BatchNormStats

open Idealize.ShloMosaic
open scoped BigOperators

variable {ι : Type} [Fintype ι]

/-! ### Sums and quotients of reals read as extended reals -/

/-- A sum over a finite type of reals read as extended reals is the real sum read as an extended real. -/
theorem sum_coe (f : ι → ℝ) : (∑ i, ((f i : ℝ) : EReal)) = ((∑ i, f i : ℝ) : EReal) :=
  BatchNormPool.coe_sum Finset.univ f

/-- The same read from right to left: the coercion of a real sum is the sum of the coercions. -/
theorem coe_sum (f : ι → ℝ) : ((∑ i, f i : ℝ) : EReal) = ∑ i, ((f i : ℝ) : EReal) :=
  (sum_coe f).symm

/-- A sum of products of reals read as extended reals is the real sum of products. -/
theorem sum_coe_mul (f g : ι → ℝ) :
    (∑ i, ((f i : ℝ) : EReal) * ((g i : ℝ) : EReal)) = ((∑ i, f i * g i : ℝ) : EReal) := by
  simp only [← EReal.coe_mul]
  exact sum_coe fun i => f i * g i

/-- The same read from right to left. -/
theorem coe_sum_mul (f g : ι → ℝ) :
    ((∑ i, f i * g i : ℝ) : EReal) = ∑ i, ((f i : ℝ) : EReal) * ((g i : ℝ) : EReal) :=
  (sum_coe_mul f g).symm

/-- One entry of a matrix product plus a bias: a finite sum of products of reals, plus a real, is a real. -/
theorem sum_coe_mul_add (a b : ι → ℝ) (c : ℝ) :
    (∑ k, ((a k : ℝ) : EReal) * ((b k : ℝ) : EReal)) + ((c : ℝ) : EReal)
      = (((∑ k, a k * b k) + c : ℝ) : EReal) := by
  rw [sum_coe_mul, ← EReal.coe_add]

/-- The same with the added real in front (a sum accumulated onto a starting value). -/
theorem add_sum_coe_mul (a b : ι → ℝ) (c : ℝ) :
    ((c : ℝ) : EReal) + (∑ k, ((a k : ℝ) : EReal) * ((b k : ℝ) : EReal))
      = ((c + (∑ k, a k * b k) : ℝ) : EReal) := by
  rw [sum_coe_mul, ← EReal.coe_add]

/-- The quotient of two reals, the divisor not zero, is the real quotient. -/
theorem div_coe_coe (a : ℝ) {d : ℝ} (h : d ≠ 0) :
    Ideal.div ((a : ℝ) : EReal) ((d : ℝ) : EReal) = ((a / d : ℝ) : EReal) :=
  BatchNormPool.div_coe_coe a h

/-! ### The statistics as real numbers -/

/-- The batch mean of real entries. -/
def mean (y : ι → ℝ) (N : ℝ) : ℝ := (∑ i, y i) / N

/-- The batch variance of real entries: the mean of the squared deviations from the mean. -/
def variance (y : ι → ℝ) (N : ℝ) : ℝ := (∑ i, (y i - mean y N) * (y i - mean y N)) / N

/-- The reciprocal standard deviation, the variance shifted by ε. -/
def invStd (y : ι → ℝ) (N ε : ℝ) : ℝ := (Real.sqrt (variance y N + ε))⁻¹

/-- The normalised entry: scale γ, shift β. -/
def out (y : ι → ℝ) (N ε γ β : ℝ) (i : ι) : ℝ := γ * (y i - mean y N) * invStd y N ε + β

/-- A batch size that is the number of entries and is not zero is positive. -/
theorem batch_pos {N : ℝ} (hN : (Fintype.card ι : ℝ) = N) (hN0 : N ≠ 0) : 0 < N := by
  subst hN
  exact lt_of_le_of_ne (Nat.cast_nonneg _) (Ne.symm hN0)

/-- The sum of the entries is the batch size times the mean. -/
theorem sum_eq_mul_mean (y : ι → ℝ) {N : ℝ} (hN0 : N ≠ 0) : (∑ i, y i) = N * mean y N := by
  unfold mean
  rw [mul_div_cancel₀ _ hN0]

/-- The sum of the squared deviations is the sum of the squares less the batch size times the squared mean:
    expand each square and use that the entries sum to the batch size times the mean. -/
theorem sum_sq_dev (y : ι → ℝ) {N : ℝ} (hN : (Fintype.card ι : ℝ) = N) (hN0 : N ≠ 0) :
    (∑ i, (y i - mean y N) * (y i - mean y N)) = (∑ i, y i * y i) - N * (mean y N * mean y N) := by
  have hsq : ∀ i, (y i - mean y N) * (y i - mean y N)
      = y i * y i - (2 * mean y N) * y i + mean y N * mean y N := fun i => by ring
  have hconst : (∑ _i : ι, mean y N * mean y N) = N * (mean y N * mean y N) := by
    rw [Finset.sum_const, Finset.card_univ, nsmul_eq_mul, hN]
  rw [Finset.sum_congr rfl fun i _ => hsq i, Finset.sum_add_distrib, Finset.sum_sub_distrib,
    ← Finset.mul_sum, hconst, sum_eq_mul_mean y hN0]
  ring

/-- The one-pass variance is the two-pass variance: the second moment less the squared mean is the mean of
    the squared deviations. -/
theorem sq_mean_sub (y : ι → ℝ) {N : ℝ} (hN : (Fintype.card ι : ℝ) = N) (hN0 : N ≠ 0) :
    (∑ i, y i * y i) / N - mean y N * mean y N = variance y N := by
  unfold variance
  rw [sum_sq_dev y hN hN0, sub_div, mul_div_cancel_left₀ _ hN0]

/-- The variance is not negative: a mean of squares over a positive batch size. -/
theorem variance_nonneg (y : ι → ℝ) {N : ℝ} (hN : (Fintype.card ι : ℝ) = N) (hN0 : N ≠ 0) :
    0 ≤ variance y N :=
  div_nonneg (Finset.sum_nonneg fun _ _ => mul_self_nonneg _) (batch_pos hN hN0).le

/-- The reciprocal standard deviation is positive when ε is. -/
theorem invStd_pos (y : ι → ℝ) {N ε : ℝ} (hN : (Fintype.card ι : ℝ) = N) (hN0 : N ≠ 0) (hε : 0 < ε) :
    0 < invStd y N ε :=
  inv_pos.mpr (Real.sqrt_pos.mpr (add_pos_of_nonneg_of_pos (variance_nonneg y hN hN0) hε))

/-! ### The statistics over extended reals are those reals -/

/-- The mean over extended reals is the coercion of the real mean. -/
theorem mean_eq (y : ι → ℝ) {N : ℝ} (hN0 : N ≠ 0) :
    Ideal.div (∑ i, ((y i : ℝ) : EReal)) ((N : ℝ) : EReal) = ((mean y N : ℝ) : EReal) := by
  rw [sum_coe, div_coe_coe _ hN0, mean]

/-- The one-pass variance, the mean already read as a real: the coercion of the real variance. -/
theorem varK_eq (y : ι → ℝ) {N : ℝ} (hN : (Fintype.card ι : ℝ) = N) (hN0 : N ≠ 0) :
    Ideal.div (∑ i, ((y i : ℝ) : EReal) * ((y i : ℝ) : EReal)) ((N : ℝ) : EReal)
        - ((mean y N : ℝ) : EReal) * ((mean y N : ℝ) : EReal)
      = ((variance y N : ℝ) : EReal) := by
  rw [sum_coe_mul, div_coe_coe _ hN0, ← EReal.coe_mul, ← EReal.coe_sub, sq_mean_sub y hN hN0]

/-- The two-pass variance, the mean already read as a real: the coercion of the real variance. -/
theorem varR_eq (y : ι → ℝ) {N : ℝ} (hN0 : N ≠ 0) :
    Ideal.div (∑ i, (((y i : ℝ) : EReal) - ((mean y N : ℝ) : EReal)) * (((y i : ℝ) : EReal) - ((mean y N : ℝ) : EReal)))
        ((N : ℝ) : EReal)
      = ((variance y N : ℝ) : EReal) := by
  simp only [← EReal.coe_sub, ← EReal.coe_mul]
  rw [sum_coe, div_coe_coe _ hN0, variance]

/-- The one-pass variance written out in full (the mean as a quotient of the sum) is the real variance. -/
theorem varK_full (y : ι → ℝ) {N : ℝ} (hN : (Fintype.card ι : ℝ) = N) (hN0 : N ≠ 0) :
    Ideal.div (∑ i, ((y i : ℝ) : EReal) * ((y i : ℝ) : EReal)) ((N : ℝ) : EReal)
        - Ideal.div (∑ i, ((y i : ℝ) : EReal)) ((N : ℝ) : EReal) * Ideal.div (∑ i, ((y i : ℝ) : EReal)) ((N : ℝ) : EReal)
      = ((variance y N : ℝ) : EReal) := by
  rw [mean_eq y hN0]
  exact varK_eq y hN hN0

/-- The two-pass variance written out in full (the mean as a quotient of the sum) is the real variance. -/
theorem varR_full (y : ι → ℝ) {N : ℝ} (hN0 : N ≠ 0) :
    Ideal.div (∑ i, (((y i : ℝ) : EReal) - Ideal.div (∑ i, ((y i : ℝ) : EReal)) ((N : ℝ) : EReal))
          * (((y i : ℝ) : EReal) - Ideal.div (∑ i, ((y i : ℝ) : EReal)) ((N : ℝ) : EReal)))
        ((N : ℝ) : EReal)
      = ((variance y N : ℝ) : EReal) := by
  rw [mean_eq y hN0]
  exact varR_eq y hN0

/-- The one-pass and the two-pass variance, both written out in full, are equal. -/
theorem varK_eq_varR (y : ι → ℝ) {N : ℝ} (hN : (Fintype.card ι : ℝ) = N) (hN0 : N ≠ 0) :
    Ideal.div (∑ i, ((y i : ℝ) : EReal) * ((y i : ℝ) : EReal)) ((N : ℝ) : EReal)
        - Ideal.div (∑ i, ((y i : ℝ) : EReal)) ((N : ℝ) : EReal) * Ideal.div (∑ i, ((y i : ℝ) : EReal)) ((N : ℝ) : EReal)
      = Ideal.div (∑ i, (((y i : ℝ) : EReal) - Ideal.div (∑ i, ((y i : ℝ) : EReal)) ((N : ℝ) : EReal))
          * (((y i : ℝ) : EReal) - Ideal.div (∑ i, ((y i : ℝ) : EReal)) ((N : ℝ) : EReal)))
        ((N : ℝ) : EReal) := by
  rw [varK_full y hN hN0, varR_full y hN0]

/-! ### The reciprocal square root of a shifted non-negative real -/

/-- For a real v ≥ 0 and a real ε > 0 the reciprocal square root of v + ε over extended reals is the
    real (√(v + ε))⁻¹: the argument is a positive real, away from every corner. -/
theorem rsqrt_add_eps {v ε : ℝ} (hv : 0 ≤ v) (hε : 0 < ε) :
    Ideal.rsqrt (((v : ℝ) : EReal) + ((ε : ℝ) : EReal)) = (((Real.sqrt (v + ε))⁻¹ : ℝ) : EReal) := by
  rw [← EReal.coe_add, BatchNormPool.rsqrt_coe_pos (add_pos_of_nonneg_of_pos hv hε)]

/-- … and that real is positive. -/
theorem inv_sqrt_add_eps_pos {v ε : ℝ} (hv : 0 ≤ v) (hε : 0 < ε) : 0 < (Real.sqrt (v + ε))⁻¹ :=
  inv_pos.mpr (Real.sqrt_pos.mpr (add_pos_of_nonneg_of_pos hv hε))

/-- The two facts together: the reciprocal square root of v + ε is the coercion of a positive real. -/
theorem rsqrt_add_eps_pos {v ε : ℝ} (hv : 0 ≤ v) (hε : 0 < ε) :
    ∃ r : ℝ, 0 < r ∧ Ideal.rsqrt (((v : ℝ) : EReal) + ((ε : ℝ) : EReal)) = ((r : ℝ) : EReal) :=
  ⟨_, inv_sqrt_add_eps_pos hv hε, rsqrt_add_eps hv hε⟩

/-- The reciprocal standard deviation over extended reals, the variance already read as a real. -/
theorem rsqrt_variance_eq (y : ι → ℝ) {N ε : ℝ} (hN : (Fintype.card ι : ℝ) = N) (hN0 : N ≠ 0) (hε : 0 < ε) :
    Ideal.rsqrt (((variance y N : ℝ) : EReal) + ((ε : ℝ) : EReal)) = ((invStd y N ε : ℝ) : EReal) := by
  rw [rsqrt_add_eps (variance_nonneg y hN hN0) hε, invStd]

/-! ### The normalised entry in its two arrangements -/

/-- The two arrangements of the three factors agree on ALL extended reals: multiplication there is
    commutative and associative. -/
theorem arrange_eq (a r g b : EReal) : (a * r) * g + b = g * a * r + b := by
  rw [mul_comm (a * r) g, ← mul_assoc]

/-- The arrangement ((y - μ) · rsqrt) · γ + β, mean and variance already read as reals: the real entry. -/
theorem outK_eq (y : ι → ℝ) {N ε : ℝ} (γ β : ℝ) (hN : (Fintype.card ι : ℝ) = N) (hN0 : N ≠ 0) (hε : 0 < ε) (i : ι) :
    ((((y i : ℝ) : EReal) - ((mean y N : ℝ) : EReal)) * Ideal.rsqrt (((variance y N : ℝ) : EReal) + ((ε : ℝ) : EReal)))
        * ((γ : ℝ) : EReal) + ((β : ℝ) : EReal)
      = ((out y N ε γ β i : ℝ) : EReal) := by
  rw [rsqrt_variance_eq y hN hN0 hε, ← EReal.coe_sub, ← EReal.coe_mul, ← EReal.coe_mul, ← EReal.coe_add, out]
  congr 1
  ring

/-- The arrangement γ · (y - μ) · rsqrt + β, mean and variance already read as reals: the real entry. -/
theorem outR_eq (y : ι → ℝ) {N ε : ℝ} (γ β : ℝ) (hN : (Fintype.card ι : ℝ) = N) (hN0 : N ≠ 0) (hε : 0 < ε) (i : ι) :
    ((γ : ℝ) : EReal) * (((y i : ℝ) : EReal) - ((mean y N : ℝ) : EReal))
        * Ideal.rsqrt (((variance y N : ℝ) : EReal) + ((ε : ℝ) : EReal)) + ((β : ℝ) : EReal)
      = ((out y N ε γ β i : ℝ) : EReal) := by
  rw [rsqrt_variance_eq y hN hN0 hε, ← EReal.coe_sub, ← EReal.coe_mul, ← EReal.coe_mul, ← EReal.coe_add, out]

/-- One-pass statistics, arrangement ((y - μ) · rsqrt) · γ + β, everything written out in full: the real entry. -/
theorem outK_full (y : ι → ℝ) {N ε : ℝ} (γ β : ℝ) (hN : (Fintype.card ι : ℝ) = N) (hN0 : N ≠ 0) (hε : 0 < ε) (i : ι) :
    ((((y i : ℝ) : EReal) - Ideal.div (∑ i, ((y i : ℝ) : EReal)) ((N : ℝ) : EReal))
          * Ideal.rsqrt ((Ideal.div (∑ i, ((y i : ℝ) : EReal) * ((y i : ℝ) : EReal)) ((N : ℝ) : EReal)
              - Ideal.div (∑ i, ((y i : ℝ) : EReal)) ((N : ℝ) : EReal) * Ideal.div (∑ i, ((y i : ℝ) : EReal)) ((N : ℝ) : EReal))
            + ((ε : ℝ) : EReal)))
        * ((γ : ℝ) : EReal) + ((β : ℝ) : EReal)
      = ((out y N ε γ β i : ℝ) : EReal) := by
  rw [varK_full y hN hN0, mean_eq y hN0]
  exact outK_eq y γ β hN hN0 hε i

/-- One-pass statistics, arrangement γ · (y - μ) · rsqrt + β, everything written out in full: the real entry. -/
theorem outKR_full (y : ι → ℝ) {N ε : ℝ} (γ β : ℝ) (hN : (Fintype.card ι : ℝ) = N) (hN0 : N ≠ 0) (hε : 0 < ε) (i : ι) :
    ((γ : ℝ) : EReal) * (((y i : ℝ) : EReal) - Ideal.div (∑ i, ((y i : ℝ) : EReal)) ((N : ℝ) : EReal))
        * Ideal.rsqrt ((Ideal.div (∑ i, ((y i : ℝ) : EReal) * ((y i : ℝ) : EReal)) ((N : ℝ) : EReal)
              - Ideal.div (∑ i, ((y i : ℝ) : EReal)) ((N : ℝ) : EReal) * Ideal.div (∑ i, ((y i : ℝ) : EReal)) ((N : ℝ) : EReal))
            + ((ε : ℝ) : EReal))
        + ((β : ℝ) : EReal)
      = ((out y N ε γ β i : ℝ) : EReal) := by
  rw [varK_full y hN hN0, mean_eq y hN0]
  exact outR_eq y γ β hN hN0 hε i

/-- Two-pass statistics, arrangement γ · (y - μ) · rsqrt + β, everything written out in full: the real entry. -/
theorem outR_full (y : ι → ℝ) {N ε : ℝ} (γ β : ℝ) (hN : (Fintype.card ι : ℝ) = N) (hN0 : N ≠ 0) (hε : 0 < ε) (i : ι) :
    ((γ : ℝ) : EReal) * (((y i : ℝ) : EReal) - Ideal.div (∑ i, ((y i : ℝ) : EReal)) ((N : ℝ) : EReal))
        * Ideal.rsqrt (Ideal.div (∑ i, (((y i : ℝ) : EReal) - Ideal.div (∑ i, ((y i : ℝ) : EReal)) ((N : ℝ) : EReal))
              * (((y i : ℝ) : EReal) - Ideal.div (∑ i, ((y i : ℝ) : EReal)) ((N : ℝ) : EReal))) ((N : ℝ) : EReal)
            + ((ε : ℝ) : EReal))
        + ((β : ℝ) : EReal)
      = ((out y N ε γ β i : ℝ) : EReal) := by
  rw [varR_full y hN0, mean_eq y hN0]
  exact outR_eq y γ β hN hN0 hε i

/-- The bundle: the one-pass entry in its arrangement equals the two-pass entry in its arrangement, both
    written out in full, and both are the coercion of the real entry. -/
theorem outK_eq_outR (y : ι → ℝ) {N ε : ℝ} (γ β : ℝ) (hN : (Fintype.card ι : ℝ) = N) (hN0 : N ≠ 0) (hε : 0 < ε) (i : ι) :
    ((((y i : ℝ) : EReal) - Ideal.div (∑ i, ((y i : ℝ) : EReal)) ((N : ℝ) : EReal))
          * Ideal.rsqrt ((Ideal.div (∑ i, ((y i : ℝ) : EReal) * ((y i : ℝ) : EReal)) ((N : ℝ) : EReal)
              - Ideal.div (∑ i, ((y i : ℝ) : EReal)) ((N : ℝ) : EReal) * Ideal.div (∑ i, ((y i : ℝ) : EReal)) ((N : ℝ) : EReal))
            + ((ε : ℝ) : EReal)))
        * ((γ : ℝ) : EReal) + ((β : ℝ) : EReal)
      = ((γ : ℝ) : EReal) * (((y i : ℝ) : EReal) - Ideal.div (∑ i, ((y i : ℝ) : EReal)) ((N : ℝ) : EReal))
        * Ideal.rsqrt (Ideal.div (∑ i, (((y i : ℝ) : EReal) - Ideal.div (∑ i, ((y i : ℝ) : EReal)) ((N : ℝ) : EReal))
              * (((y i : ℝ) : EReal) - Ideal.div (∑ i, ((y i : ℝ) : EReal)) ((N : ℝ) : EReal))) ((N : ℝ) : EReal)
            + ((ε : ℝ) : EReal))
        + ((β : ℝ) : EReal) := by
  rw [outK_full y γ β hN hN0 hε i, outR_full y γ β hN hN0 hε i]

end BatchNormStats

end
-- ==== Proof.RefRunBridge.lean ====
import proofs.«166235_j274877907496_2_alg».proof.Proof.RefRunIdx
import proofs.«166235_j274877907496_2_alg».proof.Proof.LibBatchNormStats

noncomputable section

open scoped BigOperators

namespace Cert.ReferenceIdeal.RefRun

open Cert.ReferenceIdeal Cert.ReferenceIdeal.Gen Idealize.ShloMosaic Idealize.ShloMosaic.ValueIdx

/-! ## The normalised entry over real numbers

When a column's entries, the scale and the shift are real numbers read as extended reals, the normalised entry `bnAt` is
the real normalised entry (the batch-normalisation statistics' two-pass arrangement `γ * (y − μ) * rsqrt (σ² + ε) + β`,
with the batch size `16384` and `ε` the positive real the float `9.99999974E-6` denotes). -/

/-- `bnAt` at real entries is the coercion of the real normalised entry. -/
theorem bnAt_coe (y : Fin 16384 → ℝ) (γ β : ℝ) (i : Fin 16384) :
    bnAt (fun k => ((y k : ℝ) : EReal)) ((γ : ℝ) : EReal) ((β : ℝ) : EReal) i
      = ((BatchNormStats.out y 16384 epsR γ β i : ℝ) : EReal) := by
  unfold bnAt
  rw [ofBits_eps]
  exact BatchNormStats.outR_full y γ β (by simp) (by norm_num) epsR_pos i

end Cert.ReferenceIdeal.RefRun

end
-- ==== Proof.LibBatchNormMlp.lean ====
import proofs.«166235_j274877907496_2_alg».proof.Proof.LibBatchNormStats

noncomputable section

namespace BatchNormMlp

open scoped BigOperators

/-!
  A three-layer perceptron with training-mode batch normalisation, over the real numbers.

  A layer takes a batch `x` of `n` rows of `k` features, weights `W` (`d` rows of `k`), a bias `b`, a scale `g` and a
  shift `bt` (each of `d` features):  `y i j = ∑ l, x i l · W j l + b j`,  and the output is column `j` of `y` normalised by
  its mean and variance over the batch,  `g j · (y i j − μ_j) · (√(σ²_j + ε))⁻¹ + bt j`  with  `μ_j = (∑ i, y i j) / N`  and
  `σ²_j = (∑ i, (y i j − μ_j)²) / N`.  The divisor `N` and `ε` are real parameters (for the batch statistics proper
  `N` is the number of rows).
-/

variable {n k d : ℕ}

/-- The linear part: `y i j = ∑ l, x i l * W j l + b j`. -/
def linR (x : Fin n → Fin k → ℝ) (W : Fin d → Fin k → ℝ) (b : Fin d → ℝ) : Fin n → Fin d → ℝ :=
  fun i j => (∑ l, x i l * W j l) + b j

/-- The normalisation of every column of `y` over the batch: scale `g`, shift `bt`. -/
def bnR (N ε : ℝ) (y : Fin n → Fin d → ℝ) (g bt : Fin d → ℝ) : Fin n → Fin d → ℝ :=
  fun i j => BatchNormStats.out (fun r => y r j) N ε (g j) (bt j) i

/-- One layer: the linear part, normalised. -/
def layerR (N ε : ℝ) (x : Fin n → Fin k → ℝ) (W : Fin d → Fin k → ℝ) (b g bt : Fin d → ℝ) : Fin n → Fin d → ℝ :=
  bnR N ε (linR x W b) g bt

/-- Three layers, each fed the one before. -/
def mlp3R {k0 k1 k2 k3 : ℕ} (N ε : ℝ) (x : Fin n → Fin k0 → ℝ)
    (W0 : Fin k1 → Fin k0 → ℝ) (b0 g0 bt0 : Fin k1 → ℝ)
    (W1 : Fin k2 → Fin k1 → ℝ) (b1 g1 bt1 : Fin k2 → ℝ)
    (W2 : Fin k3 → Fin k2 → ℝ) (b2 g2 bt2 : Fin k3 → ℝ) : Fin n → Fin k3 → ℝ :=
  layerR N ε (layerR N ε (layerR N ε x W0 b0 g0 bt0) W1 b1 g1 bt1) W2 b2 g2 bt2

/-- The real the float `9.99999974E-6` denotes: `(2²³ + 2606508) · 2⁻⁴⁰`. -/
def epsR : ℝ := 10995116 / 2 ^ 40

theorem epsR_pos : 0 < epsR := by unfold epsR; positivity

/-- The float `ε = 9.99999974E-6`, at the ideal values, is that positive real. -/
theorem ofBits_eps : Idealize.ShloMosaic.Ideal.ofBits .f32 0x3727C5AC#32 = ((epsR : ℝ) : EReal) := by
  unfold epsR
  simp [Idealize.ShloMosaic.Ideal.ofBits, Idealize.ShloMosaic.Ideal.ieee, -EReal.coe_mul]; norm_num

/-- The float `16384.0`, at the ideal values, is the real `16384`. -/
theorem ofBits_16384 : Idealize.ShloMosaic.Ideal.ofBits .f32 0x46800000#32 = ((16384 : ℝ) : EReal) := by
  simp [Idealize.ShloMosaic.Ideal.ofBits, Idealize.ShloMosaic.Ideal.ieee, -EReal.coe_mul]; norm_num

/-- A layer's entry, written out. -/
theorem layerR_apply (N ε : ℝ) (x : Fin n → Fin k → ℝ) (W : Fin d → Fin k → ℝ) (b g bt : Fin d → ℝ) (i : Fin n) (j : Fin d) :
    layerR N ε x W b g bt i j
      = BatchNormStats.out (fun r => (∑ l, x r l * W j l) + b j) N ε (g j) (bt j) i := rfl

end BatchNormMlp

end
-- ==== Proof.RefRunReal.lean ====
import proofs.«166235_j274877907496_2_alg».proof.Proof.RefRunBridge
import proofs.«166235_j274877907496_2_alg».proof.Proof.LibBatchNormMlp

noncomputable section

open scoped BigOperators

namespace Cert.ReferenceIdeal.RefRun

open Cert.ReferenceIdeal Cert.ReferenceIdeal.Gen Idealize.ShloMosaic Idealize.ShloMosaic.ValueIdx

/-! ## The reference's result over real inputs

When every argument array holds real numbers read as extended reals, each layer's result at `(i, j)` is the real layer's
entry read as an extended real — the linear part a finite sum of products of reals plus a real, the normalisation the real
normalised entry — and so it feeds the next layer real numbers again: the reference's result is the three-layer real function. -/

/-- The two spellings of `ε` are one real. -/
theorem epsR_eq : epsR = BatchNormMlp.epsR := rfl

/-- Layer 1 over real inputs: at `(i, j)` it is the real layer's entry. -/
theorem layer1_coe (x : FVec Ideal S16384x1024 .f32) (W : FVec Ideal S2048x1024 .f32) (b g bt : FVec Ideal S2048 .f32)
    (xr : Fin 16384 → Fin 1024 → ℝ) (Wr : Fin 2048 → Fin 1024 → ℝ) (br gr btr : Fin 2048 → ℝ)
    (hx : ∀ i l, x (ix2 i l) = ((xr i l : ℝ) : EReal)) (hW : ∀ j l, W (ix2 j l) = ((Wr j l : ℝ) : EReal))
    (hb : ∀ j, b (ix1 j) = ((br j : ℝ) : EReal)) (hg : ∀ j, g (ix1 j) = ((gr j : ℝ) : EReal))
    (hbt : ∀ j, bt (ix1 j) = ((btr j : ℝ) : EReal)) (i : Fin 16384) (j : Fin 2048) :
    layer1 x W b g bt (ix2 i j) = ((BatchNormMlp.layerR 16384 BatchNormMlp.epsR xr Wr br gr btr i j : ℝ) : EReal) := by
  rw [layer1_apply_sum]
  simp only [hx, hW, hb, hg, hbt, BatchNormStats.sum_coe_mul_add]
  rw [bnAt_coe, epsR_eq, BatchNormMlp.layerR_apply]

/-- Layer 2 over real inputs: at `(i, j)` it is the real layer's entry. -/
theorem layer2_coe (x : FVec Ideal S16384x2048 .f32) (W : FVec Ideal S2048x2048 .f32) (b g bt : FVec Ideal S2048 .f32)
    (xr : Fin 16384 → Fin 2048 → ℝ) (Wr : Fin 2048 → Fin 2048 → ℝ) (br gr btr : Fin 2048 → ℝ)
    (hx : ∀ i l, x (ix2 i l) = ((xr i l : ℝ) : EReal)) (hW : ∀ j l, W (ix2 j l) = ((Wr j l : ℝ) : EReal))
    (hb : ∀ j, b (ix1 j) = ((br j : ℝ) : EReal)) (hg : ∀ j, g (ix1 j) = ((gr j : ℝ) : EReal))
    (hbt : ∀ j, bt (ix1 j) = ((btr j : ℝ) : EReal)) (i : Fin 16384) (j : Fin 2048) :
    layer2 x W b g bt (ix2 i j) = ((BatchNormMlp.layerR 16384 BatchNormMlp.epsR xr Wr br gr btr i j : ℝ) : EReal) := by
  rw [layer2_apply_sum]
  simp only [hx, hW, hb, hg, hbt, BatchNormStats.sum_coe_mul_add]
  rw [bnAt_coe, epsR_eq, BatchNormMlp.layerR_apply]

/-- Layer 3 over real inputs: at `(i, j)` it is the real layer's entry. -/
theorem layer3_coe (x : FVec Ideal S16384x2048 .f32) (W : FVec Ideal S1024x2048 .f32) (b g bt : FVec Ideal S1024 .f32)
    (xr : Fin 16384 → Fin 2048 → ℝ) (Wr : Fin 1024 → Fin 2048 → ℝ) (br gr btr : Fin 1024 → ℝ)
    (hx : ∀ i l, x (ix2 i l) = ((xr i l : ℝ) : EReal)) (hW : ∀ j l, W (ix2 j l) = ((Wr j l : ℝ) : EReal))
    (hb : ∀ j, b (ix1 j) = ((br j : ℝ) : EReal)) (hg : ∀ j, g (ix1 j) = ((gr j : ℝ) : EReal))
    (hbt : ∀ j, bt (ix1 j) = ((btr j : ℝ) : EReal)) (i : Fin 16384) (j : Fin 1024) :
    layer3 x W b g bt (ix2 i j) = ((BatchNormMlp.layerR 16384 BatchNormMlp.epsR xr Wr br gr btr i j : ℝ) : EReal) := by
  rw [layer3_apply_sum]
  simp only [hx, hW, hb, hg, hbt, BatchNormStats.sum_coe_mul_add]
  rw [bnAt_coe, epsR_eq, BatchNormMlp.layerR_apply]

/-- The reference's result over real inputs: at `(i, j)` it is the three-layer real function's entry, with the divisor
    `16384` and `ε` the real the float `9.99999974E-6` denotes. -/
theorem result_coe (x : FVec Ideal S16384x1024 .f32)
    (W0 : FVec Ideal S2048x1024 .f32) (b0 g0 bt0 : FVec Ideal S2048 .f32)
    (W1 : FVec Ideal S2048x2048 .f32) (b1 g1 bt1 : FVec Ideal S2048 .f32)
    (W2 : FVec Ideal S1024x2048 .f32) (b2 g2 bt2 : FVec Ideal S1024 .f32)
    (xr : Fin 16384 → Fin 1024 → ℝ)
    (W0r : Fin 2048 → Fin 1024 → ℝ) (b0r g0r bt0r : Fin 2048 → ℝ)
    (W1r : Fin 2048 → Fin 2048 → ℝ) (b1r g1r bt1r : Fin 2048 → ℝ)
    (W2r : Fin 1024 → Fin 2048 → ℝ) (b2r g2r bt2r : Fin 1024 → ℝ)
    (hx : ∀ i l, x (ix2 i l) = ((xr i l : ℝ) : EReal))
    (hW0 : ∀ j l, W0 (ix2 j l) = ((W0r j l : ℝ) : EReal)) (hb0 : ∀ j, b0 (ix1 j) = ((b0r j : ℝ) : EReal))
    (hg0 : ∀ j, g0 (ix1 j) = ((g0r j : ℝ) : EReal)) (hbt0 : ∀ j, bt0 (ix1 j) = ((bt0r j : ℝ) : EReal))
    (hW1 : ∀ j l, W1 (ix2 j l) = ((W1r j l : ℝ) : EReal)) (hb1 : ∀ j, b1 (ix1 j) = ((b1r j : ℝ) : EReal))
    (hg1 : ∀ j, g1 (ix1 j) = ((g1r j : ℝ) : EReal)) (hbt1 : ∀ j, bt1 (ix1 j) = ((bt1r j : ℝ) : EReal))
    (hW2 : ∀ j l, W2 (ix2 j l) = ((W2r j l : ℝ) : EReal)) (hb2 : ∀ j, b2 (ix1 j) = ((b2r j : ℝ) : EReal))
    (hg2 : ∀ j, g2 (ix1 j) = ((g2r j : ℝ) : EReal)) (hbt2 : ∀ j, bt2 (ix1 j) = ((bt2r j : ℝ) : EReal))
    (i : Fin 16384) (j : Fin 1024) :
    result x W0 b0 g0 bt0 W1 b1 g1 bt1 W2 b2 g2 bt2 (ix2 i j)
      = ((BatchNormMlp.mlp3R 16384 BatchNormMlp.epsR xr W0r b0r g0r bt0r W1r b1r g1r bt1r W2r b2r g2r bt2r i j : ℝ) : EReal) :=
  layer3_coe _ W2 b2 g2 bt2 _ W2r b2r g2r bt2r
    (fun i l => layer2_coe _ W1 b1 g1 bt1 _ W1r b1r g1r bt1r
      (fun i l => layer1_coe x W0 b0 g0 bt0 xr W0r b0r g0r bt0r hx hW0 hb0 hg0 hbt0 i l)
      hW1 hb1 hg1 hbt1 i l)
    hW2 hb2 hg2 hbt2 i j

end Cert.ReferenceIdeal.RefRun

end
-- ==== Proof.IdealFinite.lean ====
import proofs.«166235_j274877907496_2_alg».proof.Defs
import proofs.«166235_j274877907496_2_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx Idealize.SL.Sem Cert.Pre_finite_inputs Cert.Pre_finite_inputs.Gen

/-! ## Finite inputs are real numbers

The precondition says, of each argument array, that every entry's absolute value is below `+∞`; and it says so through one
conjunction over the thirteen arrays, each conjunct an "all" over the array's entries. An extended real whose absolute value
`max x (−x)` is below `⊤` is neither `⊤` nor `⊥`: it is a real number. -/

/-- The scalar shape has one index. -/
instance : Subsingleton S_.Idx := ⟨fun a b => funext fun d => d.elim0⟩

/-- The float `+∞` is `⊤`. -/
theorem ofBits_inf : Ideal.ofBits .f32 0x7F800000#32 = ⊤ := by simp [Ideal.ofBits, Ideal.ieee]

/-- An extended real whose absolute value `max x (−x)` is below `⊤` is a real number. -/
theorem real_of_abs_lt_top (x : EReal) (h : max x (-x) < ⊤) : ∃ r : ℝ, x = ((r : ℝ) : EReal) := by
  induction x using EReal.rec with
  | bot => exact absurd h (by simp)
  | coe r => exact ⟨r, rfl⟩
  | top => exact absurd h (by simp)

/-- One array's conjunct: if the "all" of `|a| < +∞` over the array is 1, every entry of the array is a real number. -/
theorem real_of_all {s : Shape} {axes : List (Fin s.rank)} (a : FVec Ideal s .f32)
    (hb : S_.BroadcastsInDim s (![] : Fin 0 → Fin s.rank)) (h : s.ReducesTo axes S_) (hu : 0 < S_.numel)
    (e : Host.reduce IntOp.andi (cmpf .olt (Host.absf a) (broadcastInDim s ![] hb (constant S_ .f32 0x7F800000#32)))
          (constantI S_ 1 1#1) h hu ix0 = 1#1) (i : s.Idx) : ∃ r : ℝ, a i = ((r : ℝ) : EReal) := by
  have hi := Host.reduce_andi_all _ _ h hu ix0 e i
  have hlt : max (a i) (-(a i)) < Ideal.ofBits .f32 0x7F800000#32 := by
    by_contra hn
    have : cmpf .olt (Host.absf a) (broadcastInDim s ![] hb (constant (F := Ideal) S_ .f32 0x7F800000#32)) i = 0#1 := by
      show Ideal.cmp .olt (max (a i) (-(a i))) (Ideal.ofBits .f32 0x7F800000#32) = 0#1
      simp [Ideal.cmp, hn]
    rw [this] at hi
    exact absurd hi (by decide)
  rw [ofBits_inf] at hlt
  exact real_of_abs_lt_top _ hlt

attribute [local irreducible] Host.reduce in
/-- The precondition's function at the thirteen argument arrays is all ones: every entry of every array is a real number. -/
theorem real_of_pre (a0 : FVec Ideal S16384x1024 .f32) (a1 : FVec Ideal S2048x1024 .f32) (a2 : FVec Ideal S2048 .f32) (a3 : FVec Ideal S2048 .f32) (a4 : FVec Ideal S2048 .f32) (a5 : FVec Ideal S2048x2048 .f32) (a6 : FVec Ideal S2048 .f32) (a7 : FVec Ideal S2048 .f32) (a8 : FVec Ideal S2048 .f32) (a9 : FVec Ideal S1024x2048 .f32) (a10 : FVec Ideal S1024 .f32) (a11 : FVec Ideal S1024 .f32) (a12 : FVec Ideal S1024 .f32)
    (h : Cert.Pre_finite_inputs.fn (F := Ideal) a0 a1 a2 a3 a4 a5 a6 a7 a8 a9 a10 a11 a12 = fun _ => 1#1) :
    (∀ i, ∃ r : ℝ, a0 i = ((r : ℝ) : EReal))
    ∧ (∀ i, ∃ r : ℝ, a1 i = ((r : ℝ) : EReal))
    ∧ (∀ i, ∃ r : ℝ, a2 i = ((r : ℝ) : EReal))
    ∧ (∀ i, ∃ r : ℝ, a3 i = ((r : ℝ) : EReal))
    ∧ (∀ i, ∃ r : ℝ, a4 i = ((r : ℝ) : EReal))
    ∧ (∀ i, ∃ r : ℝ, a5 i = ((r : ℝ) : EReal))
    ∧ (∀ i, ∃ r : ℝ, a6 i = ((r : ℝ) : EReal))
    ∧ (∀ i, ∃ r : ℝ, a7 i = ((r : ℝ) : EReal))
    ∧ (∀ i, ∃ r : ℝ, a8 i = ((r : ℝ) : EReal))
    ∧ (∀ i, ∃ r : ℝ, a9 i = ((r : ℝ) : EReal))
    ∧ (∀ i, ∃ r : ℝ, a10 i = ((r : ℝ) : EReal))
    ∧ (∀ i, ∃ r : ℝ, a11 i = ((r : ℝ) : EReal))
    ∧ (∀ i, ∃ r : ℝ, a12 i = ((r : ℝ) : EReal)) := by
  have h0 := congrFun h ix0
  dsimp only [fn, fn_part1, fn_part2, fn_part3] at h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨h0, e1⟩ := IntOp.andi_eq_one.1 h0
  exact ⟨real_of_all a0 bcast_S_S16384x1024 reducesTo_S16384x1024_S_d0_1 h_S_ h0,
    real_of_all a1 bcast_S_S2048x1024 reducesTo_S2048x1024_S_d0_1 h_S_ e1,
    real_of_all a2 bcast_S_S2048 reducesTo_S2048_S_d0 h_S_ e2,
    real_of_all a3 bcast_S_S2048 reducesTo_S2048_S_d0 h_S_ e3,
    real_of_all a4 bcast_S_S2048 reducesTo_S2048_S_d0 h_S_ e4,
    real_of_all a5 bcast_S_S2048x2048 reducesTo_S2048x2048_S_d0_1 h_S_ e5,
    real_of_all a6 bcast_S_S2048 reducesTo_S2048_S_d0 h_S_ e6,
    real_of_all a7 bcast_S_S2048 reducesTo_S2048_S_d0 h_S_ e7,
    real_of_all a8 bcast_S_S2048 reducesTo_S2048_S_d0 h_S_ e8,
    real_of_all a9 bcast_S_S1024x2048 reducesTo_S1024x2048_S_d0_1 h_S_ e9,
    real_of_all a10 bcast_S_S1024 reducesTo_S1024_S_d0 h_S_ e10,
    real_of_all a11 bcast_S_S1024 reducesTo_S1024_S_d0 h_S_ e11,
    real_of_all a12 bcast_S_S1024 reducesTo_S1024_S_d0 h_S_ e12⟩

/-- Under the kernel's precondition every entry of every argument array of the idealized kernel's memory is a real number,
    on every core. -/
theorem real_of_Pre_KernelIdeal
    (m : (ℓ : Loc Cert.KernelIdeal.nD Cert.KernelIdeal.τ Cert.KernelIdeal.sig) → Buf (Elt Ideal) ℓ)
    (hm : Cert.Pre_KernelIdeal m) (c : Dev Cert.KernelIdeal.nD) :
    (∀ i, ∃ r : ℝ, (m ((c.tc : Thread Cert.KernelIdeal.nD Cert.KernelIdeal.τ).loc Cert.KernelIdeal.main_arg0)) i = ((r : ℝ) : EReal))
    ∧ (∀ i, ∃ r : ℝ, (m ((c.tc : Thread Cert.KernelIdeal.nD Cert.KernelIdeal.τ).loc Cert.KernelIdeal.main_arg1)) i = ((r : ℝ) : EReal))
    ∧ (∀ i, ∃ r : ℝ, (m ((c.tc : Thread Cert.KernelIdeal.nD Cert.KernelIdeal.τ).loc Cert.KernelIdeal.main_arg2)) i = ((r : ℝ) : EReal))
    ∧ (∀ i, ∃ r : ℝ, (m ((c.tc : Thread Cert.KernelIdeal.nD Cert.KernelIdeal.τ).loc Cert.KernelIdeal.main_arg3)) i = ((r : ℝ) : EReal))
    ∧ (∀ i, ∃ r : ℝ, (m ((c.tc : Thread Cert.KernelIdeal.nD Cert.KernelIdeal.τ).loc Cert.KernelIdeal.main_arg4)) i = ((r : ℝ) : EReal))
    ∧ (∀ i, ∃ r : ℝ, (m ((c.tc : Thread Cert.KernelIdeal.nD Cert.KernelIdeal.τ).loc Cert.KernelIdeal.main_arg5)) i = ((r : ℝ) : EReal))
    ∧ (∀ i, ∃ r : ℝ, (m ((c.tc : Thread Cert.KernelIdeal.nD Cert.KernelIdeal.τ).loc Cert.KernelIdeal.main_arg6)) i = ((r : ℝ) : EReal))
    ∧ (∀ i, ∃ r : ℝ, (m ((c.tc : Thread Cert.KernelIdeal.nD Cert.KernelIdeal.τ).loc Cert.KernelIdeal.main_arg7)) i = ((r : ℝ) : EReal))
    ∧ (∀ i, ∃ r : ℝ, (m ((c.tc : Thread Cert.KernelIdeal.nD Cert.KernelIdeal.τ).loc Cert.KernelIdeal.main_arg8)) i = ((r : ℝ) : EReal))
    ∧ (∀ i, ∃ r : ℝ, (m ((c.tc : Thread Cert.KernelIdeal.nD Cert.KernelIdeal.τ).loc Cert.KernelIdeal.main_arg9)) i = ((r : ℝ) : EReal))
    ∧ (∀ i, ∃ r : ℝ, (m ((c.tc : Thread Cert.KernelIdeal.nD Cert.KernelIdeal.τ).loc Cert.KernelIdeal.main_arg10)) i = ((r : ℝ) : EReal))
    ∧ (∀ i, ∃ r : ℝ, (m ((c.tc : Thread Cert.KernelIdeal.nD Cert.KernelIdeal.τ).loc Cert.KernelIdeal.main_arg11)) i = ((r : ℝ) : EReal))
    ∧ (∀ i, ∃ r : ℝ, (m ((c.tc : Thread Cert.KernelIdeal.nD Cert.KernelIdeal.τ).loc Cert.KernelIdeal.main_arg12)) i = ((r : ℝ) : EReal)) :=
  real_of_pre _ _ _ _ _ _ _ _ _ _ _ _ _ (hm c)

/-- The same of the idealized reference's memory under its precondition. -/
theorem real_of_Pre_ReferenceIdeal
    (m : (ℓ : Loc Cert.ReferenceIdeal.nD Cert.ReferenceIdeal.τ Cert.ReferenceIdeal.sig) → Buf (Elt Ideal) ℓ)
    (hm : Cert.Pre_ReferenceIdeal m) (c : Dev Cert.ReferenceIdeal.nD) :
    (∀ i, ∃ r : ℝ, (m ((c.tc : Thread Cert.ReferenceIdeal.nD Cert.ReferenceIdeal.τ).loc Cert.ReferenceIdeal.main_arg0)) i = ((r : ℝ) : EReal))
    ∧ (∀ i, ∃ r : ℝ, (m ((c.tc : Thread Cert.ReferenceIdeal.nD Cert.ReferenceIdeal.τ).loc Cert.ReferenceIdeal.main_arg1)) i = ((r : ℝ) : EReal))
    ∧ (∀ i, ∃ r : ℝ, (m ((c.tc : Thread Cert.ReferenceIdeal.nD Cert.ReferenceIdeal.τ).loc Cert.ReferenceIdeal.main_arg2)) i = ((r : ℝ) : EReal))
    ∧ (∀ i, ∃ r : ℝ, (m ((c.tc : Thread Cert.ReferenceIdeal.nD Cert.ReferenceIdeal.τ).loc Cert.ReferenceIdeal.main_arg3)) i = ((r : ℝ) : EReal))
    ∧ (∀ i, ∃ r : ℝ, (m ((c.tc : Thread Cert.ReferenceIdeal.nD Cert.ReferenceIdeal.τ).loc Cert.ReferenceIdeal.main_arg4)) i = ((r : ℝ) : EReal))
    ∧ (∀ i, ∃ r : ℝ, (m ((c.tc : Thread Cert.ReferenceIdeal.nD Cert.ReferenceIdeal.τ).loc Cert.ReferenceIdeal.main_arg5)) i = ((r : ℝ) : EReal))
    ∧ (∀ i, ∃ r : ℝ, (m ((c.tc : Thread Cert.ReferenceIdeal.nD Cert.ReferenceIdeal.τ).loc Cert.ReferenceIdeal.main_arg6)) i = ((r : ℝ) : EReal))
    ∧ (∀ i, ∃ r : ℝ, (m ((c.tc : Thread Cert.ReferenceIdeal.nD Cert.ReferenceIdeal.τ).loc Cert.ReferenceIdeal.main_arg7)) i = ((r : ℝ) : EReal))
    ∧ (∀ i, ∃ r : ℝ, (m ((c.tc : Thread Cert.ReferenceIdeal.nD Cert.ReferenceIdeal.τ).loc Cert.ReferenceIdeal.main_arg8)) i = ((r : ℝ) : EReal))
    ∧ (∀ i, ∃ r : ℝ, (m ((c.tc : Thread Cert.ReferenceIdeal.nD Cert.ReferenceIdeal.τ).loc Cert.ReferenceIdeal.main_arg9)) i = ((r : ℝ) : EReal))
    ∧ (∀ i, ∃ r : ℝ, (m ((c.tc : Thread Cert.ReferenceIdeal.nD Cert.ReferenceIdeal.τ).loc Cert.ReferenceIdeal.main_arg10)) i = ((r : ℝ) : EReal))
    ∧ (∀ i, ∃ r : ℝ, (m ((c.tc : Thread Cert.ReferenceIdeal.nD Cert.ReferenceIdeal.τ).loc Cert.ReferenceIdeal.main_arg11)) i = ((r : ℝ) : EReal))
    ∧ (∀ i, ∃ r : ℝ, (m ((c.tc : Thread Cert.ReferenceIdeal.nD Cert.ReferenceIdeal.τ).loc Cert.ReferenceIdeal.main_arg12)) i = ((r : ℝ) : EReal)) :=
  real_of_pre _ _ _ _ _ _ _ _ _ _ _ _ _ (hm c)

end Cert.Finite

end
-- ==== Proof.LibBatchNormMlpFused.lean ====
import proofs.«166235_j274877907496_2_alg».proof.Proof.LibBatchNormMlp
import Idealize.ShloMosaic.PureOps.Ideal

noncomputable section

namespace BatchNormMlp.Fused

open Idealize.ShloMosaic
open scoped BigOperators

/-!
  The three-layer perceptron with batch normalisation, on the extended reals, in the arrangement that computes each
  column's variance in ONE PASS — the mean of the squares less the square of the mean — and normalises the first two
  layers as `((y − μ) · rsqrt (σ² + ε)) · γ + β` and the last as `γ · (y − μ) · rsqrt (σ² + ε) + β`.

  On arrays of real numbers read as extended reals every step is the coercion of its real counterpart: a finite sum of
  products of reals plus a real is a real; a quotient of reals by a non-zero real is the real quotient; the one-pass
  variance is the two-pass one, a non-negative real, so that `σ² + ε` with `ε > 0` is a positive real and its reciprocal
  square root the positive real `(√(σ² + ε))⁻¹`; and the two arrangements of the three factors agree because multiplication
  of extended reals is commutative and associative. Hence each layer hands the next real numbers again, and the whole
  chain is the real three-layer function `BatchNormMlp.mlp3R`.

  Every statement has the expression over extended reals on its left and the coercion of a real on its right.
-/

variable {n k d : ℕ}

/-! ### The steps -/

/-- The linear part: `y i j = ∑ l, x i l * W j l + b j`. -/
def lin (x : Fin n → Fin k → EReal) (W : Fin d → Fin k → EReal) (b : Fin d → EReal) : Fin n → Fin d → EReal :=
  fun i j => (∑ l, x i l * W j l) + b j

/-- The column means: the column sums over `N`. -/
def meanK (N : EReal) (y : Fin n → Fin d → EReal) : Fin d → EReal :=
  fun j => Ideal.div (∑ i, y i j) N

/-- The column variances in one pass: the mean of the squares less the square of the mean. -/
def varK (N : EReal) (y : Fin n → Fin d → EReal) : Fin d → EReal :=
  fun j => Ideal.div (∑ i, y i j * y i j) N - meanK N y j * meanK N y j

/-- The normalisation in the order `((y − μ) · rsqrt (σ² + ε)) · γ + β`. -/
def normFused (ε : EReal) (y : Fin n → Fin d → EReal) (mean var g bt : Fin d → EReal) : Fin n → Fin d → EReal :=
  fun i j => ((y i j - mean j) * Ideal.rsqrt (var j + ε)) * g j + bt j

/-- The normalisation in the order `γ · (y − μ) · rsqrt (σ² + ε) + β`. -/
def normLast (ε : EReal) (y : Fin n → Fin d → EReal) (mean var g bt : Fin d → EReal) : Fin n → Fin d → EReal :=
  fun i j => g j * (y i j - mean j) * Ideal.rsqrt (var j + ε) + bt j

/-- A layer normalised in the first order, its statistics taken from its own linear part. -/
def layerFused (N ε : EReal) (x : Fin n → Fin k → EReal) (W : Fin d → Fin k → EReal) (b g bt : Fin d → EReal) :
    Fin n → Fin d → EReal :=
  normFused ε (lin x W b) (meanK N (lin x W b)) (varK N (lin x W b)) g bt

/-- A layer normalised in the second order, its statistics taken from its own linear part. -/
def layerLast (N ε : EReal) (x : Fin n → Fin k → EReal) (W : Fin d → Fin k → EReal) (b g bt : Fin d → EReal) :
    Fin n → Fin d → EReal :=
  normLast ε (lin x W b) (meanK N (lin x W b)) (varK N (lin x W b)) g bt

/-! ### The chain and its intermediate arrays -/

section Chain
variable {k0 k1 k2 k3 : ℕ}

/-- The first layer's linear part. -/
def y0 (x : Fin n → Fin k0 → EReal) (W0 : Fin k1 → Fin k0 → EReal) (b0 : Fin k1 → EReal) : Fin n → Fin k1 → EReal :=
  lin x W0 b0

/-- The first layer's output. -/
def h0 (N ε : EReal) (x : Fin n → Fin k0 → EReal) (W0 : Fin k1 → Fin k0 → EReal) (b0 g0 bt0 : Fin k1 → EReal) :
    Fin n → Fin k1 → EReal :=
  layerFused N ε x W0 b0 g0 bt0

/-- The second layer's linear part. -/
def y1 (N ε : EReal) (x : Fin n → Fin k0 → EReal) (W0 : Fin k1 → Fin k0 → EReal) (b0 g0 bt0 : Fin k1 → EReal)
    (W1 : Fin k2 → Fin k1 → EReal) (b1 : Fin k2 → EReal) : Fin n → Fin k2 → EReal :=
  lin (h0 N ε x W0 b0 g0 bt0) W1 b1

/-- The second layer's output. -/
def h1 (N ε : EReal) (x : Fin n → Fin k0 → EReal) (W0 : Fin k1 → Fin k0 → EReal) (b0 g0 bt0 : Fin k1 → EReal)
    (W1 : Fin k2 → Fin k1 → EReal) (b1 g1 bt1 : Fin k2 → EReal) : Fin n → Fin k2 → EReal :=
  layerFused N ε (h0 N ε x W0 b0 g0 bt0) W1 b1 g1 bt1

/-- The third layer's linear part. -/
def y2 (N ε : EReal) (x : Fin n → Fin k0 → EReal) (W0 : Fin k1 → Fin k0 → EReal) (b0 g0 bt0 : Fin k1 → EReal)
    (W1 : Fin k2 → Fin k1 → EReal) (b1 g1 bt1 : Fin k2 → EReal) (W2 : Fin k3 → Fin k2 → EReal) (b2 : Fin k3 → EReal) :
    Fin n → Fin k3 → EReal :=
  lin (h1 N ε x W0 b0 g0 bt0 W1 b1 g1 bt1) W2 b2

/-- The three layers: the first two normalised in the first order, the last in the second. -/
def chain (N ε : EReal) (x : Fin n → Fin k0 → EReal) (W0 : Fin k1 → Fin k0 → EReal) (b0 g0 bt0 : Fin k1 → EReal)
    (W1 : Fin k2 → Fin k1 → EReal) (b1 g1 bt1 : Fin k2 → EReal) (W2 : Fin k3 → Fin k2 → EReal) (b2 g2 bt2 : Fin k3 → EReal) :
    Fin n → Fin k3 → EReal :=
  layerLast N ε (h1 N ε x W0 b0 g0 bt0 W1 b1 g1 bt1) W2 b2 g2 bt2

/-- The chain is the last normalisation of the third linear part with that part's own statistics. -/
theorem chain_eq (N ε : EReal) (x : Fin n → Fin k0 → EReal) (W0 : Fin k1 → Fin k0 → EReal) (b0 g0 bt0 : Fin k1 → EReal)
    (W1 : Fin k2 → Fin k1 → EReal) (b1 g1 bt1 : Fin k2 → EReal) (W2 : Fin k3 → Fin k2 → EReal) (b2 g2 bt2 : Fin k3 → EReal) :
    chain N ε x W0 b0 g0 bt0 W1 b1 g1 bt1 W2 b2 g2 bt2
      = normLast ε (y2 N ε x W0 b0 g0 bt0 W1 b1 g1 bt1 W2 b2) (meanK N (y2 N ε x W0 b0 g0 bt0 W1 b1 g1 bt1 W2 b2))
          (varK N (y2 N ε x W0 b0 g0 bt0 W1 b1 g1 bt1 W2 b2)) g2 bt2 := rfl

/-- The first output is the first normalisation of the first linear part with that part's own statistics. -/
theorem h0_eq (N ε : EReal) (x : Fin n → Fin k0 → EReal) (W0 : Fin k1 → Fin k0 → EReal) (b0 g0 bt0 : Fin k1 → EReal) :
    h0 N ε x W0 b0 g0 bt0 = normFused ε (y0 x W0 b0) (meanK N (y0 x W0 b0)) (varK N (y0 x W0 b0)) g0 bt0 := rfl

/-- The second output is the first normalisation of the second linear part with that part's own statistics. -/
theorem h1_eq (N ε : EReal) (x : Fin n → Fin k0 → EReal) (W0 : Fin k1 → Fin k0 → EReal) (b0 g0 bt0 : Fin k1 → EReal)
    (W1 : Fin k2 → Fin k1 → EReal) (b1 g1 bt1 : Fin k2 → EReal) :
    h1 N ε x W0 b0 g0 bt0 W1 b1 g1 bt1
      = normFused ε (y1 N ε x W0 b0 g0 bt0 W1 b1) (meanK N (y1 N ε x W0 b0 g0 bt0 W1 b1))
          (varK N (y1 N ε x W0 b0 g0 bt0 W1 b1)) g1 bt1 := rfl

end Chain

/-! ### Each step on real numbers -/

/-- The number of rows as a real, read as the cardinality the statistics' lemmas ask for. -/
theorem card_fin_eq {Nr : ℝ} (hn : (n : ℝ) = Nr) : (Fintype.card (Fin n) : ℝ) = Nr := by
  rw [Fintype.card_fin]; exact hn

/-- The linear part of real arrays is the real linear part. -/
theorem lin_coe (x : Fin n → Fin k → EReal) (W : Fin d → Fin k → EReal) (b : Fin d → EReal)
    (xr : Fin n → Fin k → ℝ) (Wr : Fin d → Fin k → ℝ) (br : Fin d → ℝ)
    (hx : ∀ i l, x i l = ((xr i l : ℝ) : EReal)) (hW : ∀ j l, W j l = ((Wr j l : ℝ) : EReal))
    (hb : ∀ j, b j = ((br j : ℝ) : EReal)) (i : Fin n) (j : Fin d) :
    lin x W b i j = ((linR xr Wr br i j : ℝ) : EReal) := by
  unfold lin linR
  simp only [hx, hW, hb]
  exact BatchNormStats.sum_coe_mul_add _ _ _

/-- The column means of a real array are the real means. -/
theorem meanK_coe (Nr : ℝ) (y : Fin n → Fin d → EReal) (yr : Fin n → Fin d → ℝ)
    (hy : ∀ i j, y i j = ((yr i j : ℝ) : EReal)) (hN0 : Nr ≠ 0) (j : Fin d) :
    meanK ((Nr : ℝ) : EReal) y j = ((BatchNormStats.mean (fun i => yr i j) Nr : ℝ) : EReal) := by
  unfold meanK
  simp only [hy]
  exact BatchNormStats.mean_eq (fun i => yr i j) hN0

/-- The one-pass column variances of a real array are the real variances. -/
theorem varK_coe (Nr : ℝ) (y : Fin n → Fin d → EReal) (yr : Fin n → Fin d → ℝ)
    (hy : ∀ i j, y i j = ((yr i j : ℝ) : EReal)) (hn : (n : ℝ) = Nr) (hN0 : Nr ≠ 0) (j : Fin d) :
    varK ((Nr : ℝ) : EReal) y j = ((BatchNormStats.variance (fun i => yr i j) Nr : ℝ) : EReal) := by
  unfold varK meanK
  simp only [hy]
  exact BatchNormStats.varK_full (fun i => yr i j) (card_fin_eq hn) hN0

/-- The first-order normalisation, the means and variances GIVEN as the real ones: the real normalised entry. -/
theorem normFused_coe_of (Nr εr : ℝ) (y : Fin n → Fin d → EReal) (mean var g bt : Fin d → EReal)
    (yr : Fin n → Fin d → ℝ) (gr btr : Fin d → ℝ)
    (hy : ∀ i j, y i j = ((yr i j : ℝ) : EReal))
    (hm : ∀ j, mean j = ((BatchNormStats.mean (fun i => yr i j) Nr : ℝ) : EReal))
    (hv : ∀ j, var j = ((BatchNormStats.variance (fun i => yr i j) Nr : ℝ) : EReal))
    (hg : ∀ j, g j = ((gr j : ℝ) : EReal)) (hbt : ∀ j, bt j = ((btr j : ℝ) : EReal))
    (hn : (n : ℝ) = Nr) (hN0 : Nr ≠ 0) (hε : 0 < εr) (i : Fin n) (j : Fin d) :
    normFused ((εr : ℝ) : EReal) y mean var g bt i j = ((bnR Nr εr yr gr btr i j : ℝ) : EReal) := by
  unfold normFused bnR
  simp only [hy, hm, hv, hg, hbt]
  exact BatchNormStats.outK_eq (fun r => yr r j) (gr j) (btr j) (card_fin_eq hn) hN0 hε i

/-- The second-order normalisation, the means and variances GIVEN as the real ones: the real normalised entry. -/
theorem normLast_coe_of (Nr εr : ℝ) (y : Fin n → Fin d → EReal) (mean var g bt : Fin d → EReal)
    (yr : Fin n → Fin d → ℝ) (gr btr : Fin d → ℝ)
    (hy : ∀ i j, y i j = ((yr i j : ℝ) : EReal))
    (hm : ∀ j, mean j = ((BatchNormStats.mean (fun i => yr i j) Nr : ℝ) : EReal))
    (hv : ∀ j, var j = ((BatchNormStats.variance (fun i => yr i j) Nr : ℝ) : EReal))
    (hg : ∀ j, g j = ((gr j : ℝ) : EReal)) (hbt : ∀ j, bt j = ((btr j : ℝ) : EReal))
    (hn : (n : ℝ) = Nr) (hN0 : Nr ≠ 0) (hε : 0 < εr) (i : Fin n) (j : Fin d) :
    normLast ((εr : ℝ) : EReal) y mean var g bt i j = ((bnR Nr εr yr gr btr i j : ℝ) : EReal) := by
  unfold normLast bnR
  simp only [hy, hm, hv, hg, hbt]
  exact BatchNormStats.outR_eq (fun r => yr r j) (gr j) (btr j) (card_fin_eq hn) hN0 hε i

/-- The first-order normalisation with the array's own one-pass statistics: the real normalised entry. -/
theorem normFused_coe (Nr εr : ℝ) (y : Fin n → Fin d → EReal) (g bt : Fin d → EReal)
    (yr : Fin n → Fin d → ℝ) (gr btr : Fin d → ℝ)
    (hy : ∀ i j, y i j = ((yr i j : ℝ) : EReal))
    (hg : ∀ j, g j = ((gr j : ℝ) : EReal)) (hbt : ∀ j, bt j = ((btr j : ℝ) : EReal))
    (hn : (n : ℝ) = Nr) (hN0 : Nr ≠ 0) (hε : 0 < εr) (i : Fin n) (j : Fin d) :
    normFused ((εr : ℝ) : EReal) y (meanK ((Nr : ℝ) : EReal) y) (varK ((Nr : ℝ) : EReal) y) g bt i j
      = ((bnR Nr εr yr gr btr i j : ℝ) : EReal) :=
  normFused_coe_of Nr εr y _ _ g bt yr gr btr hy (meanK_coe Nr y yr hy hN0) (varK_coe Nr y yr hy hn hN0) hg hbt hn hN0 hε i j

/-- The second-order normalisation with the array's own one-pass statistics: the real normalised entry. -/
theorem normLast_coe (Nr εr : ℝ) (y : Fin n → Fin d → EReal) (g bt : Fin d → EReal)
    (yr : Fin n → Fin d → ℝ) (gr btr : Fin d → ℝ)
    (hy : ∀ i j, y i j = ((yr i j : ℝ) : EReal))
    (hg : ∀ j, g j = ((gr j : ℝ) : EReal)) (hbt : ∀ j, bt j = ((btr j : ℝ) : EReal))
    (hn : (n : ℝ) = Nr) (hN0 : Nr ≠ 0) (hε : 0 < εr) (i : Fin n) (j : Fin d) :
    normLast ((εr : ℝ) : EReal) y (meanK ((Nr : ℝ) : EReal) y) (varK ((Nr : ℝ) : EReal) y) g bt i j
      = ((bnR Nr εr yr gr btr i j : ℝ) : EReal) :=
  normLast_coe_of Nr εr y _ _ g bt yr gr btr hy (meanK_coe Nr y yr hy hN0) (varK_coe Nr y yr hy hn hN0) hg hbt hn hN0 hε i j

/-! ### A layer, and the chain, on real numbers -/

/-- A layer in the first order over real arrays is the real layer. -/
theorem layerFused_coe (Nr εr : ℝ) (x : Fin n → Fin k → EReal) (W : Fin d → Fin k → EReal) (b g bt : Fin d → EReal)
    (xr : Fin n → Fin k → ℝ) (Wr : Fin d → Fin k → ℝ) (br gr btr : Fin d → ℝ)
    (hx : ∀ i l, x i l = ((xr i l : ℝ) : EReal)) (hW : ∀ j l, W j l = ((Wr j l : ℝ) : EReal))
    (hb : ∀ j, b j = ((br j : ℝ) : EReal)) (hg : ∀ j, g j = ((gr j : ℝ) : EReal)) (hbt : ∀ j, bt j = ((btr j : ℝ) : EReal))
    (hn : (n : ℝ) = Nr) (hN0 : Nr ≠ 0) (hε : 0 < εr) (i : Fin n) (j : Fin d) :
    layerFused ((Nr : ℝ) : EReal) ((εr : ℝ) : EReal) x W b g bt i j = ((layerR Nr εr xr Wr br gr btr i j : ℝ) : EReal) :=
  normFused_coe Nr εr (lin x W b) g bt (linR xr Wr br) gr btr (lin_coe x W b xr Wr br hx hW hb) hg hbt hn hN0 hε i j

/-- A layer in the second order over real arrays is the real layer. -/
theorem layerLast_coe (Nr εr : ℝ) (x : Fin n → Fin k → EReal) (W : Fin d → Fin k → EReal) (b g bt : Fin d → EReal)
    (xr : Fin n → Fin k → ℝ) (Wr : Fin d → Fin k → ℝ) (br gr btr : Fin d → ℝ)
    (hx : ∀ i l, x i l = ((xr i l : ℝ) : EReal)) (hW : ∀ j l, W j l = ((Wr j l : ℝ) : EReal))
    (hb : ∀ j, b j = ((br j : ℝ) : EReal)) (hg : ∀ j, g j = ((gr j : ℝ) : EReal)) (hbt : ∀ j, bt j = ((btr j : ℝ) : EReal))
    (hn : (n : ℝ) = Nr) (hN0 : Nr ≠ 0) (hε : 0 < εr) (i : Fin n) (j : Fin d) :
    layerLast ((Nr : ℝ) : EReal) ((εr : ℝ) : EReal) x W b g bt i j = ((layerR Nr εr xr Wr br gr btr i j : ℝ) : EReal) :=
  normLast_coe Nr εr (lin x W b) g bt (linR xr Wr br) gr btr (lin_coe x W b xr Wr br hx hW hb) hg hbt hn hN0 hε i j

section ChainCoe
variable {k0 k1 k2 k3 : ℕ}

/-- The chain over real arrays is the real three-layer function. -/
theorem chain_coe (Nr εr : ℝ)
    (x : Fin n → Fin k0 → EReal) (W0 : Fin k1 → Fin k0 → EReal) (b0 g0 bt0 : Fin k1 → EReal)
    (W1 : Fin k2 → Fin k1 → EReal) (b1 g1 bt1 : Fin k2 → EReal) (W2 : Fin k3 → Fin k2 → EReal) (b2 g2 bt2 : Fin k3 → EReal)
    (xr : Fin n → Fin k0 → ℝ) (W0r : Fin k1 → Fin k0 → ℝ) (b0r g0r bt0r : Fin k1 → ℝ)
    (W1r : Fin k2 → Fin k1 → ℝ) (b1r g1r bt1r : Fin k2 → ℝ) (W2r : Fin k3 → Fin k2 → ℝ) (b2r g2r bt2r : Fin k3 → ℝ)
    (hx : ∀ i l, x i l = ((xr i l : ℝ) : EReal))
    (hW0 : ∀ j l, W0 j l = ((W0r j l : ℝ) : EReal)) (hb0 : ∀ j, b0 j = ((b0r j : ℝ) : EReal))
    (hg0 : ∀ j, g0 j = ((g0r j : ℝ) : EReal)) (hbt0 : ∀ j, bt0 j = ((bt0r j : ℝ) : EReal))
    (hW1 : ∀ j l, W1 j l = ((W1r j l : ℝ) : EReal)) (hb1 : ∀ j, b1 j = ((b1r j : ℝ) : EReal))
    (hg1 : ∀ j, g1 j = ((g1r j : ℝ) : EReal)) (hbt1 : ∀ j, bt1 j = ((bt1r j : ℝ) : EReal))
    (hW2 : ∀ j l, W2 j l = ((W2r j l : ℝ) : EReal)) (hb2 : ∀ j, b2 j = ((b2r j : ℝ) : EReal))
    (hg2 : ∀ j, g2 j = ((g2r j : ℝ) : EReal)) (hbt2 : ∀ j, bt2 j = ((bt2r j : ℝ) : EReal))
    (hn : (n : ℝ) = Nr) (hN0 : Nr ≠ 0) (hε : 0 < εr) (i : Fin n) (j : Fin k3) :
    chain ((Nr : ℝ) : EReal) ((εr : ℝ) : EReal) x W0 b0 g0 bt0 W1 b1 g1 bt1 W2 b2 g2 bt2 i j
      = ((mlp3R Nr εr xr W0r b0r g0r bt0r W1r b1r g1r bt1r W2r b2r g2r bt2r i j : ℝ) : EReal) :=
  layerLast_coe Nr εr _ W2 b2 g2 bt2 _ W2r b2r g2r bt2r
    (fun i l => layerFused_coe Nr εr _ W1 b1 g1 bt1 _ W1r b1r g1r bt1r
      (fun i l => layerFused_coe Nr εr x W0 b0 g0 bt0 xr W0r b0r g0r bt0r hx hW0 hb0 hg0 hbt0 hn hN0 hε i l)
      hW1 hb1 hg1 hbt1 hn hN0 hε i l)
    hW2 hb2 hg2 hbt2 hn hN0 hε i j

/-- The same with the divisor and `ε` the float literals `16384.0` and `9.99999974E-6`, over 16384 rows. -/
theorem chain_coe_f32
    (x : Fin 16384 → Fin k0 → EReal) (W0 : Fin k1 → Fin k0 → EReal) (b0 g0 bt0 : Fin k1 → EReal)
    (W1 : Fin k2 → Fin k1 → EReal) (b1 g1 bt1 : Fin k2 → EReal) (W2 : Fin k3 → Fin k2 → EReal) (b2 g2 bt2 : Fin k3 → EReal)
    (xr : Fin 16384 → Fin k0 → ℝ) (W0r : Fin k1 → Fin k0 → ℝ) (b0r g0r bt0r : Fin k1 → ℝ)
    (W1r : Fin k2 → Fin k1 → ℝ) (b1r g1r bt1r : Fin k2 → ℝ) (W2r : Fin k3 → Fin k2 → ℝ) (b2r g2r bt2r : Fin k3 → ℝ)
    (hx : ∀ i l, x i l = ((xr i l : ℝ) : EReal))
    (hW0 : ∀ j l, W0 j l = ((W0r j l : ℝ) : EReal)) (hb0 : ∀ j, b0 j = ((b0r j : ℝ) : EReal))
    (hg0 : ∀ j, g0 j = ((g0r j : ℝ) : EReal)) (hbt0 : ∀ j, bt0 j = ((bt0r j : ℝ) : EReal))
    (hW1 : ∀ j l, W1 j l = ((W1r j l : ℝ) : EReal)) (hb1 : ∀ j, b1 j = ((b1r j : ℝ) : EReal))
    (hg1 : ∀ j, g1 j = ((g1r j : ℝ) : EReal)) (hbt1 : ∀ j, bt1 j = ((bt1r j : ℝ) : EReal))
    (hW2 : ∀ j l, W2 j l = ((W2r j l : ℝ) : EReal)) (hb2 : ∀ j, b2 j = ((b2r j : ℝ) : EReal))
    (hg2 : ∀ j, g2 j = ((g2r j : ℝ) : EReal)) (hbt2 : ∀ j, bt2 j = ((bt2r j : ℝ) : EReal))
    (i : Fin 16384) (j : Fin k3) :
    chain (Ideal.ofBits .f32 0x46800000#32) (Ideal.ofBits .f32 0x3727C5AC#32) x W0 b0 g0 bt0 W1 b1 g1 bt1 W2 b2 g2 bt2 i j
      = ((mlp3R 16384 epsR xr W0r b0r g0r bt0r W1r b1r g1r bt1r W2r b2r g2r bt2r i j : ℝ) : EReal) := by
  rw [ofBits_16384, ofBits_eps]
  exact chain_coe 16384 epsR x W0 b0 g0 bt0 W1 b1 g1 bt1 W2 b2 g2 bt2 xr W0r b0r g0r bt0r W1r b1r g1r bt1r W2r b2r g2r bt2r
    hx hW0 hb0 hg0 hbt0 hW1 hb1 hg1 hbt1 hW2 hb2 hg2 hbt2 (by norm_num) (by norm_num) epsR_pos i j

end ChainCoe

end BatchNormMlp.Fused

end
-- ==== Proof.Algebraic.lean ====
/-
  The value claim. Run from memories agreeing on the thirteen arguments, the idealized kernel and the idealized reference
  both end, with equal results. The kernel's result array is its three fused layers applied to the launch contents; the
  reference's is its three plain layers. Under the precondition every argument entry is a real number, and then both
  are, entry by entry, the coercion of ONE real-valued function: three layers of a linear map followed by batch
  normalisation with batch statistics over the 16384 rows — the kernel's one-pass variance (mean of squares minus
  squared mean) and the reference's two-pass variance being the same real number.
-/
import proofs.«166235_j274877907496_2_alg».proof.Defs
import proofs.«166235_j274877907496_2_alg».proof.Proof.IdealKernelFrame
import proofs.«166235_j274877907496_2_alg».proof.Proof.RefRun
import proofs.«166235_j274877907496_2_alg».proof.Proof.RefRunReal
import proofs.«166235_j274877907496_2_alg».proof.Proof.IdealFinite
import proofs.«166235_j274877907496_2_alg».proof.Proof.LibBatchNormMlpFused
import Idealize.ShloMosaic.Lib.ValueIdx

set_option maxRecDepth 16384

noncomputable section

namespace Cert.Proof.Algebraic

open Idealize.ShloMosaic Idealize.ShloMosaic.ValueIdx Idealize.SL.Sem

variable (m : (ℓ : Loc Cert.KernelIdeal.nD Cert.KernelIdeal.τ Cert.KernelIdeal.sig) → Buf (Elt Ideal) ℓ)

/-- The kernel's arrangement of the three layers at the launch contents of core `c`. -/
def kernelChain (c : Dev Cert.KernelIdeal.nD) : Fin 16384 → Fin 1024 → EReal :=
  BatchNormMlp.Fused.chain (Ideal.ofBits .f32 0x46800000#32) (Ideal.ofBits .f32 0x3727C5AC#32)
    (fun a b => (m ((c.tc : Thread Cert.KernelIdeal.nD Cert.KernelIdeal.τ).loc Cert.KernelIdeal.main_arg0)) (ix2 a b)) (fun a b => (m ((c.tc : Thread Cert.KernelIdeal.nD Cert.KernelIdeal.τ).loc Cert.KernelIdeal.main_arg1)) (ix2 a b)) (fun a => (m ((c.tc : Thread Cert.KernelIdeal.nD Cert.KernelIdeal.τ).loc Cert.KernelIdeal.main_arg2)) (ix1 a)) (fun a => (m ((c.tc : Thread Cert.KernelIdeal.nD Cert.KernelIdeal.τ).loc Cert.KernelIdeal.main_arg3)) (ix1 a)) (fun a => (m ((c.tc : Thread Cert.KernelIdeal.nD Cert.KernelIdeal.τ).loc Cert.KernelIdeal.main_arg4)) (ix1 a)) (fun a b => (m ((c.tc : Thread Cert.KernelIdeal.nD Cert.KernelIdeal.τ).loc Cert.KernelIdeal.main_arg5)) (ix2 a b)) (fun a => (m ((c.tc : Thread Cert.KernelIdeal.nD Cert.KernelIdeal.τ).loc Cert.KernelIdeal.main_arg6)) (ix1 a)) (fun a => (m ((c.tc : Thread Cert.KernelIdeal.nD Cert.KernelIdeal.τ).loc Cert.KernelIdeal.main_arg7)) (ix1 a)) (fun a => (m ((c.tc : Thread Cert.KernelIdeal.nD Cert.KernelIdeal.τ).loc Cert.KernelIdeal.main_arg8)) (ix1 a)) (fun a b => (m ((c.tc : Thread Cert.KernelIdeal.nD Cert.KernelIdeal.τ).loc Cert.KernelIdeal.main_arg9)) (ix2 a b)) (fun a => (m ((c.tc : Thread Cert.KernelIdeal.nD Cert.KernelIdeal.τ).loc Cert.KernelIdeal.main_arg10)) (ix1 a)) (fun a => (m ((c.tc : Thread Cert.KernelIdeal.nD Cert.KernelIdeal.τ).loc Cert.KernelIdeal.main_arg11)) (ix1 a)) (fun a => (m ((c.tc : Thread Cert.KernelIdeal.nD Cert.KernelIdeal.τ).loc Cert.KernelIdeal.main_arg12)) (ix1 a))

set_option maxHeartbeats 1000000 in
/-- If an array is, entry by entry, the kernel's arrangement at the launch contents, it is the reference's result at
    those contents: under the precondition both are the coercion of one real-valued function. -/
theorem sides_meet (hpre : Cert.Pre_KernelIdeal m) (c : Dev Cert.KernelIdeal.nD)
    (K : Cert.KernelIdeal.S16384x1024.Idx → EReal) (hK : ∀ (i : Fin 16384) (j : Fin 1024), K (ix2 i j) = kernelChain m c i j) :
    Cert.ReferenceIdeal.RefRun.result (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) = K := by
  funext I
  obtain ⟨i, j, rfl⟩ : ∃ (i : Fin 16384) (j : Fin 1024), I = ix2 i j := ⟨I 0, I 1, eq_ix2 I⟩
  obtain ⟨h0, h1, h2, h3, h4, h5, h6, h7, h8, h9, h10, h11, h12⟩ := Cert.Finite.real_of_Pre_KernelIdeal m hpre c
  choose r0 hr0 using h0
  choose r1 hr1 using h1
  choose r2 hr2 using h2
  choose r3 hr3 using h3
  choose r4 hr4 using h4
  choose r5 hr5 using h5
  choose r6 hr6 using h6
  choose r7 hr7 using h7
  choose r8 hr8 using h8
  choose r9 hr9 using h9
  choose r10 hr10 using h10
  choose r11 hr11 using h11
  choose r12 hr12 using h12
  rw [hK i j]
  refine (Cert.ReferenceIdeal.RefRun.result_coe _ _ _ _ _ _ _ _ _ _ _ _ _
    (fun a b => r0 (ix2 a b)) (fun a b => r1 (ix2 a b)) (fun a => r2 (ix1 a)) (fun a => r3 (ix1 a)) (fun a => r4 (ix1 a)) (fun a b => r5 (ix2 a b)) (fun a => r6 (ix1 a)) (fun a => r7 (ix1 a)) (fun a => r8 (ix1 a)) (fun a b => r9 (ix2 a b)) (fun a => r10 (ix1 a)) (fun a => r11 (ix1 a)) (fun a => r12 (ix1 a))
    (fun a b => hr0 (ix2 a b)) (fun a b => hr1 (ix2 a b)) (fun a => hr2 (ix1 a)) (fun a => hr3 (ix1 a)) (fun a => hr4 (ix1 a)) (fun a b => hr5 (ix2 a b)) (fun a => hr6 (ix1 a)) (fun a => hr7 (ix1 a)) (fun a => hr8 (ix1 a)) (fun a b => hr9 (ix2 a b)) (fun a => hr10 (ix1 a)) (fun a => hr11 (ix1 a)) (fun a => hr12 (ix1 a)) i j).trans ?_
  unfold kernelChain
  exact (BatchNormMlp.Fused.chain_coe_f32 _ _ _ _ _ _ _ _ _ _ _ _ _
    (fun a b => r0 (ix2 a b)) (fun a b => r1 (ix2 a b)) (fun a => r2 (ix1 a)) (fun a => r3 (ix1 a)) (fun a => r4 (ix1 a)) (fun a b => r5 (ix2 a b)) (fun a => r6 (ix1 a)) (fun a => r7 (ix1 a)) (fun a => r8 (ix1 a)) (fun a b => r9 (ix2 a b)) (fun a => r10 (ix1 a)) (fun a => r11 (ix1 a)) (fun a => r12 (ix1 a))
    (fun a b => hr0 (ix2 a b)) (fun a b => hr1 (ix2 a b)) (fun a => hr2 (ix1 a)) (fun a => hr3 (ix1 a)) (fun a => hr4 (ix1 a)) (fun a b => hr5 (ix2 a b)) (fun a => hr6 (ix1 a)) (fun a => hr7 (ix1 a)) (fun a => hr8 (ix1 a)) (fun a b => hr9 (ix2 a b)) (fun a => hr10 (ix1 a)) (fun a => hr11 (ix1 a)) (fun a => hr12 (ix1 a)) i j).symm

/-- The value claim, from the one fact still to be supplied: that the result array the last region leaves is, entry by
    entry, the kernel's arrangement of the three layers at the launch contents. -/
theorem algebraic_of
    (hbridge : ∀ (m : (ℓ : Loc Cert.KernelIdeal.nD Cert.KernelIdeal.τ Cert.KernelIdeal.sig) → Buf (Elt Ideal) ℓ) (c : Dev Cert.KernelIdeal.nD)
      (i : Fin 16384) (j : Fin 1024), Cert.KernelIdeal.Hand.resultOf (F := Ideal) m c (ix2 i j) = kernelChain m c i j) :
    Cert.algebraic_KernelIdeal_ReferenceIdeal := by
  intro m ρ m' ρ' hpre hagree
  refine ⟨fun c => Cert.KernelIdeal.Hand.resultOf (F := Ideal) m c, Cert.KernelIdeal.Hand.run_result (F := Ideal) m ρ, ?_⟩
  refine (θ_run Cert.ReferenceIdeal.defs _ _).mono (fun _ h c => ⟨(h c).1.trans ?_, (h c).2⟩)
    (Cert.ReferenceIdeal.RefRun.run (F := Ideal) m' ρ')
  obtain ⟨a0, a1, a2, a3, a4, a5, a6, a7, a8, a9, a10, a11, a12⟩ := hagree c
  rw [a0, a1, a2, a3, a4, a5, a6, a7, a8, a9, a10, a11, a12]
  exact sides_meet m hpre c _ (hbridge m c)

end Cert.Proof.Algebraic

end
-- ==== Proof.LibLinearStatsAt.lean ====
/-
  Two operations read at one entry, at the ideal values, over arbitrary extents.

  (1) The product of an m×k matrix A with the TRANSPOSE of an n×k matrix B — the contraction runs over the second axis
      of both operands — accumulated onto zero: entry (a, b) is  ∑ c, A a c · B b c.
  (2) The sum of an a×b matrix along its first axis: entry q of the result is  ∑ k, X k q.
  In both the operation's own index bookkeeping (a contraction index with one coordinate; the reduced index with the
  summed coordinate put back) is replaced by plain coordinates.
-/
import Idealize.ShloMosaic.Lib.ValueIdx
import Idealize.ShloMosaic.Lib.Pipeline.Value
import Idealize.ShloMosaic.Lib.ValueLayout
import Idealize.ShloMosaic.PureOps.Ideal.Laws

noncomputable section

namespace LinearStatsAt

open Idealize.ShloMosaic Idealize.ShloMosaic.ValueIdx
open scoped BigOperators

/-- A matrix product contracting the SECOND axis of both operands (A · Bᵀ), accumulated onto the zero block, read at
    entry (a, b): the sum over the contracted coordinate c of A (a, c) · B (b, c). -/
theorem matmul_nt_zero_apply {m k n : Nat} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims ⟨2, ![m, k]⟩ ⟨2, ![n, k]⟩ ⟨2, ![m, n]⟩) prec A B
        (constant ⟨2, ![m, n]⟩ .f32 0x00000000#32) (ix2 a b)
      = ∑ c : Fin k, A (ix2 a c) * B (ix2 b c) := by
  show FloatOps.matmul _ prec A B (constant ⟨2, ![m, n]⟩ .f32 0x00000000#32) (ix2 a b) = _
  rw [Ideal.matmul_constant_zero_apply,
    ← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- The sum of an a×b block along its first axis, read at entry q: the sum over the rows k of the block's entry (k, q). -/
theorem sum_axis0_apply {a b : Nat} {φ : FTy} (X : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ X acc h hφ hacc (ix1 q) = ∑ k : Fin a, X (ix2 k q) := by
  refine (Ideal.multiReduction_add_single X acc h hφ hacc (ix1 q)).trans ?_
  show ∑ k : Fin a, X (h.lift (ix1 q) k) = _
  refine Finset.sum_congr rfl fun k _ => congrArg X ?_
  funext ax; apply Fin.ext
  match ax with
  | ⟨0, _⟩ => rfl
  | ⟨1, _⟩ => rfl

end LinearStatsAt

end
-- ==== Proof.IdealPayload0.lean ====
/-
  The first layer's stored values read at one entry, at the ideal values.

  Per grid step the program holds a [512,1024] block x of the input, a [1024,1024] block W of the weights and a
  [1,1024] row b of the bias, and two [1,1024] running rows s and t.
  • The output block is y = x · Wᵀ + b: entry (p, q) is  (∑ k, x p k · W q k) + b q  (the narrowing of the operands'
    format before the product is the identity on extended reals, and the row b is repeated down the rows).
  • The running sum row becomes  s q + ∑ p, y p q ; the running sum of squares  t q + ∑ p, y p q · y p q.
  • At the first step both running rows are set to the zero row: every entry is what the zero word denotes.
-/
import proofs.«166235_j274877907496_2_alg».proof.Proof.Gen.KernelIdeal.Skeleton
import proofs.«166235_j274877907496_2_alg».proof.Proof.LibLinearStatsAt

noncomputable section

namespace Cert.KernelIdeal.PayloadAt

open Idealize.ShloMosaic Idealize.ShloMosaic.ValueIdx Cert.KernelIdeal
open scoped BigOperators

/-- The zero row stored into the running sum at the first step: every entry is the extended real the zero word
    denotes, which is 0. -/
theorem k0_pay1_at (q : Fin 1024) : Gen.k0_pay1 (F := Ideal) (ix2 (0 : Fin 1) q) = 0 := by
  unfold Gen.k0_pay1
  simp only [shapeCast_self]
  exact Ideal.ofBits_zero_f32

/-- The zero row stored into the running sum of squares at the first step. -/
theorem k0_pay2_at (q : Fin 1024) : Gen.k0_pay2 (F := Ideal) (ix2 (0 : Fin 1) q) = 0 := by
  unfold Gen.k0_pay2
  simp only [shapeCast_self]
  exact Ideal.ofBits_zero_f32

/-- The output block at entry (p, q): the row p of x against the row q of W, plus the bias entry q. -/
theorem k0_pay3_at (v3 : Vec Ideal S512x1024 .f32) (v5 : Vec Ideal S1024x1024 .f32) (v8 : Vec Ideal S1x1024 .f32)
    (p : Fin 512) (q : Fin 1024) :
    Gen.k0_pay3 (F := Ideal) v3 v5 v8 (ix2 p q)
      = (∑ k : Fin 1024, v3 (ix2 p k) * v5 (ix2 q k)) + v8 (ix2 (0 : Fin 1) q) := by
  unfold Gen.k0_pay3
  simp only [shapeCast_self]
  rw [addf_apply, broadcastTo_1b_ab_apply]
  refine congrArg (· + v8 (ix2 (0 : Fin 1) q)) ?_
  exact LinearStatsAt.matmul_nt_zero_apply _ none (truncf .bf16 v3 Gen.bitsLt_bf16_f32) (truncf .bf16 v5 Gen.bitsLt_bf16_f32) p q

/-- The running sum row after the step, at entry q: its old entry plus the sum over the 512 rows of the output block. -/
theorem k0_pay4_at (v3 : Vec Ideal S512x1024 .f32) (v5 : Vec Ideal S1024x1024 .f32) (v8 v13 : Vec Ideal S1x1024 .f32)
    (q : Fin 1024) :
    Gen.k0_pay4 (F := Ideal) v3 v5 v8 v13 (ix2 (0 : Fin 1) q)
      = v13 (ix2 (0 : Fin 1) q) + ∑ p : Fin 512, Gen.k0_pay3 (F := Ideal) v3 v5 v8 (ix2 p q) := by
  unfold Gen.k0_pay4
  simp only [shapeCast_self]
  rw [addf_apply, shapeCast_a_1a_apply]
  refine congrArg (v13 (ix2 (0 : Fin 1) q) + ·) ?_
  exact LinearStatsAt.sum_axis0_apply (Gen.k0_pay3 (F := Ideal) v3 v5 v8) 0x00000000#32 _ _ _ q

/-- The running sum of squares after the step, at entry q: its old entry plus the sum over the rows of the squared
    output entries. -/
theorem k0_pay5_at (v3 : Vec Ideal S512x1024 .f32) (v5 : Vec Ideal S1024x1024 .f32) (v8 v20 : Vec Ideal S1x1024 .f32)
    (q : Fin 1024) :
    Gen.k0_pay5 (F := Ideal) v3 v5 v8 v20 (ix2 (0 : Fin 1) q)
      = v20 (ix2 (0 : Fin 1) q)
          + ∑ p : Fin 512, Gen.k0_pay3 (F := Ideal) v3 v5 v8 (ix2 p q) * Gen.k0_pay3 (F := Ideal) v3 v5 v8 (ix2 p q) := by
  unfold Gen.k0_pay5
  simp only [shapeCast_self]
  rw [addf_apply, shapeCast_a_1a_apply]
  refine congrArg (v20 (ix2 (0 : Fin 1) q) + ·) ?_
  exact LinearStatsAt.sum_axis0_apply
    (mulf (Gen.k0_pay3 (F := Ideal) v3 v5 v8) (Gen.k0_pay3 (F := Ideal) v3 v5 v8)) 0x00000000#32 _ _ _ q

end Cert.KernelIdeal.PayloadAt

end
-- ==== Proof.IdealValue0.lean ====
/-
  What the first matmul-and-statistics region computes, point by point, read as extended reals.
  Each of the terms the body leaves (one whole store over a payload of whole loads) is that payload of the point's
  blocks. The grid point t = 32 * cb + r (cb the column block, r the row block) reads x's rows 512 r … 512 r + 511,
  W's rows 1024 cb … 1024 cb + 1023 and the bias entries of those columns; so y's block at the point is, entry by
  entry, the whole array  Y i j = (sum over k of x i k * W j k) + b j  at rows 512 r + p and columns 1024 cb + q.
-/
import proofs.«166235_j274877907496_2_alg».proof.Proof.IdealRegion0
import proofs.«166235_j274877907496_2_alg».proof.Proof.IdealPayload0
import Idealize.ShloMosaic.Lib.ValueIdx
import Idealize.ShloMosaic.Lib.Pipeline.Value

set_option maxRecDepth 16384

noncomputable section

namespace Cert.KernelIdeal.Value0

open Cert.KernelIdeal Cert.KernelIdeal.Gen Cert.KernelIdeal.Hand Cert.KernelIdeal.PayloadAt
open Idealize.ShloMosaic Idealize.ShloMosaic.TcCoe Idealize.ShloMosaic.ValueIdx
open Idealize.SL.Sem
open scoped BigOperators

/-! ## Each term the body leaves is its payload -/

section AnyFloats
variable {F : FTy → Type} [FloatOps F]

theorem origin2 : (![0, 0] : Fin 2 → Nat) = fun _ => 0 := funext fun a => by fin_cases a <;> rfl

theorem yBlk0_eq (x0 : Vec F S512x1024 .f32) (x1 : Vec F S1024x1024 .f32) (x2 : Vec F S1x1024 .f32) :
    yBlk0 x0 x1 x2 = k0_pay3 x0 x1 x2 := by
  unfold yBlk0
  rw [View.canon_unit_zero origin2]
  simp only [View.ld_unit_zero (S := S512x1024) origin2, View.ld_unit_zero (S := S1024x1024) origin2, View.ld_unit_zero (S := S1x1024) origin2]

theorem sumNext0_eq (x0 : Vec F S512x1024 .f32) (x1 : Vec F S1024x1024 .f32) (x2 s : Vec F S1x1024 .f32) :
    sumNext0 x0 x1 x2 s = k0_pay4 x0 x1 x2 s := by
  unfold sumNext0
  rw [View.canon_unit_zero origin2]
  simp only [View.ld_unit_zero (S := S512x1024) origin2, View.ld_unit_zero (S := S1024x1024) origin2, View.ld_unit_zero (S := S1x1024) origin2]

theorem sqNext0_eq (x0 : Vec F S512x1024 .f32) (x1 : Vec F S1024x1024 .f32) (x2 s : Vec F S1x1024 .f32) :
    sqNext0 x0 x1 x2 s = k0_pay5 x0 x1 x2 s := by
  unfold sqNext0
  rw [View.canon_unit_zero origin2]
  simp only [View.ld_unit_zero (S := S512x1024) origin2, View.ld_unit_zero (S := S1024x1024) origin2, View.ld_unit_zero (S := S1x1024) origin2]

theorem zeroSum0_eq : (zeroSum0 : Vec F S1x1024 .f32) = k0_pay1 := by
  unfold zeroSum0; rw [View.canon_unit_zero origin2]
theorem zeroSq0_eq : (zeroSq0 : Vec F S1x1024 .f32) = k0_pay2 := by
  unfold zeroSq0; rw [View.canon_unit_zero origin2]

theorem copyRow0_eq (s : Vec F S1x1024 .f32) : copyRow0 s = s := by
  unfold copyRow0
  rw [View.canon_unit_zero origin2, View.ld_unit_zero (S := S1x1024) origin2]

end AnyFloats

/-! ## Where a grid point's blocks sit -/

/-- The windows' block indices at point `t`, decided once over the 64 points: x's block moves with the row block,
    W's and the bias's with the column block, y's with both. -/
theorem index_facts : ∀ t : Fin cfg0.N,
    win0_0.index t (0 : Fin 2) = t.val % 32 ∧ win0_0.index t (1 : Fin 2) = 0
    ∧ win0_1.index t (0 : Fin 2) = t.val / 32 ∧ win0_1.index t (1 : Fin 2) = 0
    ∧ win0_2.index t (0 : Fin 2) = 0 ∧ win0_2.index t (1 : Fin 2) = t.val / 32
    ∧ win0_3.index t (0 : Fin 2) = t.val % 32 ∧ win0_3.index t (1 : Fin 2) = t.val / 32
    ∧ win0_4.index t (0 : Fin 2) = 0 ∧ win0_4.index t (1 : Fin 2) = t.val / 32
    ∧ win0_5.index t (0 : Fin 2) = 0 ∧ win0_5.index t (1 : Fin 2) = t.val / 32 :=
  (by decide +kernel : ∀ t : Fin grid0.N, _)

/-! ## The blocks of a point, entry by entry -/

/-- The row of the arrays that row `p` of the point's x / y block is, and the column that column `q` of its W / bias /
    y block is. -/
def rowOf (t : Fin cfg0.N) (p : Fin 512) : Fin 16384 :=
  ⟨512 * (t.val % 32) + p.val, by have := p.isLt; have := Nat.mod_lt t.val (show 0 < 32 by norm_num); omega⟩
def colOf (t : Fin cfg0.N) (q : Fin 1024) : Fin 2048 :=
  ⟨1024 * (t.val / 32) + q.val, by
    have := q.isLt; have hN : t.val < 64 := lt_of_lt_of_eq t.isLt (show cfg0.N = 64 from N_0); omega⟩

variable (V : (c : Dev nD) → (b : Ref sig .tc) → Buf (Elt Ideal) ((c : Thread nD τ).loc b))

theorem xblk_at (c : Dev nD) (t : Fin cfg0.N) (p : Fin 512) (k : Fin 1024) :
    iblk0 V c 0 t (ix2 p k) = V c main_arg0 (ix2 (rowOf t p) k) := by
  obtain ⟨e0, e1, -⟩ := index_facts t
  show V c main_arg0 (((cfg0.win 0).blk t).view.emb (ix2 p k)) = _
  have h : (((cfg0.win 0).blk t).view.emb (ix2 p k) : S16384x1024.Idx) = ix2 (rowOf t p) k := by
    funext a; apply Fin.ext
    match a with
    | ⟨0, _⟩ => show win0_0.index t (0 : Fin 2) * 512 + 1 * p.val = 512 * (t.val % 32) + p.val; rw [e0]; omega
    | ⟨1, _⟩ => show win0_0.index t (1 : Fin 2) * 1024 + 1 * k.val = k.val; rw [e1]; omega
  rw [h]

theorem wblk_at (c : Dev nD) (t : Fin cfg0.N) (q : Fin 1024) (k : Fin 1024) :
    iblk0 V c 1 t (ix2 q k) = V c main_arg1 (ix2 (colOf t q) k) := by
  obtain ⟨-, -, e0, e1, -⟩ := index_facts t
  show V c main_arg1 (((cfg0.win 1).blk t).view.emb (ix2 q k)) = _
  have h : (((cfg0.win 1).blk t).view.emb (ix2 q k) : S2048x1024.Idx) = ix2 (colOf t q) k := by
    funext a; apply Fin.ext
    match a with
    | ⟨0, _⟩ => show win0_1.index t (0 : Fin 2) * 1024 + 1 * q.val = 1024 * (t.val / 32) + q.val; rw [e0]; omega
    | ⟨1, _⟩ => show win0_1.index t (1 : Fin 2) * 1024 + 1 * k.val = k.val; rw [e1]; omega
  rw [h]

theorem bblk_at (c : Dev nD) (t : Fin cfg0.N) (q : Fin 1024) :
    iblk0 V c 2 t (ix2 (0 : Fin 1) q) = V c main_v0 (ix2 (0 : Fin 1) (colOf t q)) := by
  obtain ⟨-, -, -, -, e0, e1, -⟩ := index_facts t
  show V c main_v0 (((cfg0.win 2).blk t).view.emb (ix2 (0 : Fin 1) q)) = _
  have h : (((cfg0.win 2).blk t).view.emb (ix2 (0 : Fin 1) q) : S1x2048.Idx) = ix2 (0 : Fin 1) (colOf t q) := by
    funext a; apply Fin.ext
    match a with
    | ⟨0, _⟩ => show win0_2.index t (0 : Fin 2) * 1 + 1 * (0 : Fin 1).val = (0 : Fin 1).val; rw [e0]; simp
    | ⟨1, _⟩ => show win0_2.index t (1 : Fin 2) * 1024 + 1 * q.val = 1024 * (t.val / 32) + q.val; rw [e1]; omega
  rw [h]

/-- The first layer's raw output, as one function of the whole arrays: entry (i, j) is the product of x's row i with
    W's row j, plus the bias at j. -/
def Y (x : S16384x1024.Idx → EReal) (W : S2048x1024.Idx → EReal) (b : S1x2048.Idx → EReal) (i : Fin 16384) (j : Fin 2048) : EReal :=
  (∑ k : Fin 1024, x (ix2 i k) * W (ix2 j k)) + b (ix2 (0 : Fin 1) j)

/-- y's block at a point is that function at the point's rows and columns. -/
theorem yBlk_at (c : Dev nD) (t : Fin cfg0.N) (p : Fin 512) (q : Fin 1024) :
    yBlk0 (iblk0 V c 0 t) (iblk0 V c 1 t) (iblk0 V c 2 t) (ix2 p q)
      = Y (V c main_arg0) (V c main_arg1) (V c main_v0) (rowOf t p) (colOf t q) := by
  rw [yBlk0_eq, k0_pay3_at]
  unfold Y
  simp only [xblk_at, wblk_at, bblk_at]

/-! ## The running rows: the column sums over the row blocks seen so far -/

/-- Total index functions (a point's rows and columns are below the extents, so the remainders change nothing). -/
def rowIx (n : ℕ) : Fin 16384 := ⟨n % 16384, Nat.mod_lt _ (by norm_num)⟩
def colIx (n : ℕ) : Fin 2048 := ⟨n % 2048, Nat.mod_lt _ (by norm_num)⟩

theorem rowOf_eq (t : Fin cfg0.N) (p : Fin 512) : rowOf t p = rowIx (512 * (t.val % 32) + p.val) := by
  apply Fin.ext
  show 512 * (t.val % 32) + p.val = (512 * (t.val % 32) + p.val) % 16384
  have := p.isLt; have := Nat.mod_lt t.val (show 0 < 32 by norm_num)
  exact (Nat.mod_eq_of_lt (by omega)).symm
theorem colOf_eq (t : Fin cfg0.N) (q : Fin 1024) : colOf t q = colIx (1024 * (t.val / 32) + q.val) := by
  apply Fin.ext
  show 1024 * (t.val / 32) + q.val = (1024 * (t.val / 32) + q.val) % 2048
  have := q.isLt; have hN : t.val < 64 := lt_of_lt_of_eq t.isLt (show cfg0.N = 64 from N_0)
  exact (Nat.mod_eq_of_lt (by omega)).symm

/-- The column sums of one row block r of the array, at column block cb, column q: of y, and of y squared. -/
def blockSum (g : Fin 16384 → Fin 2048 → EReal) (r cb : ℕ) (q : Fin 1024) : EReal :=
  ∑ p : Fin 512, g (rowIx (512 * r + p.val)) (colIx (1024 * cb + q.val))

variable (c : Dev nD)

/-- The whole-array function at this core's entry contents. -/
abbrev Yc : Fin 16384 → Fin 2048 → EReal := Y (V c main_arg0) (V c main_arg1) (V c main_v0)

/-- The column sums of a point's y block are the block sums of the whole array. -/
theorem point_sum (t : Fin cfg0.N) (q : Fin 1024) :
    (∑ p : Fin 512, k0_pay3 (F := Ideal) (iblk0 V c 0 t) (iblk0 V c 1 t) (iblk0 V c 2 t) (ix2 p q))
      = blockSum (Yc V c) (t.val % 32) (t.val / 32) q := by
  unfold blockSum
  refine Finset.sum_congr rfl fun p _ => ?_
  rw [← yBlk0_eq, yBlk_at, rowOf_eq, colOf_eq]
theorem point_sum_sq (t : Fin cfg0.N) (q : Fin 1024) :
    (∑ p : Fin 512, k0_pay3 (F := Ideal) (iblk0 V c 0 t) (iblk0 V c 1 t) (iblk0 V c 2 t) (ix2 p q)
        * k0_pay3 (F := Ideal) (iblk0 V c 0 t) (iblk0 V c 1 t) (iblk0 V c 2 t) (ix2 p q))
      = blockSum (fun i j => Yc V c i j * Yc V c i j) (t.val % 32) (t.val / 32) q := by
  unfold blockSum
  refine Finset.sum_congr rfl fun p _ => ?_
  rw [← yBlk0_eq, yBlk_at, rowOf_eq, colOf_eq]

/-- The running rows are the fourth and fifth components of what a point leaves. -/
theorem outsOf0_sum {F : FTy → Type} [FloatOps F] (x0 : Vec F S512x1024 .f32) (x1 : Vec F S1024x1024 .f32) (x2 s0 s1 : Vec F S1x1024 .f32) :
    (outsOf0 x0 x1 x2 s0 s1).2.2.2.1 = sumNext0 x0 x1 x2 s0 := by dsimp only [outsOf0]
theorem outsOf0_sq {F : FTy → Type} [FloatOps F] (x0 : Vec F S512x1024 .f32) (x1 : Vec F S1024x1024 .f32) (x2 s0 s1 : Vec F S1x1024 .f32) :
    (outsOf0 x0 x1 x2 s0 s1).2.2.2.2 = sqNext0 x0 x1 x2 s1 := by dsimp only [outsOf0]

/-- One step of a running row, read at a column: the row found plus the block sums of the point. -/
theorem sum_step (t : Fin cfg0.N) (s : Vec Ideal S1x1024 .f32) (q : Fin 1024) :
    sumNext0 (iblk0 V c 0 t) (iblk0 V c 1 t) (iblk0 V c 2 t) s (ix2 (0 : Fin 1) q)
      = s (ix2 (0 : Fin 1) q) + blockSum (Yc V c) (t.val % 32) (t.val / 32) q := by
  rw [sumNext0_eq, k0_pay4_at, point_sum]
theorem sq_step (t : Fin cfg0.N) (s : Vec Ideal S1x1024 .f32) (q : Fin 1024) :
    sqNext0 (iblk0 V c 0 t) (iblk0 V c 1 t) (iblk0 V c 2 t) s (ix2 (0 : Fin 1) q)
      = s (ix2 (0 : Fin 1) q) + blockSum (fun i j => Yc V c i j * Yc V c i j) (t.val % 32) (t.val / 32) q := by
  rw [sqNext0_eq, k0_pay5_at, point_sum_sq]
theorem zeroSum_at (q : Fin 1024) : (zeroSum0 : Vec Ideal S1x1024 .f32) (ix2 (0 : Fin 1) q) = 0 := by
  rw [zeroSum0_eq, k0_pay1_at]
theorem zeroSq_at (q : Fin 1024) : (zeroSq0 : Vec Ideal S1x1024 .f32) (ix2 (0 : Fin 1) q) = 0 := by
  rw [zeroSq0_eq, k0_pay2_at]

set_option maxHeartbeats 2000000 in
/-- After point n the running rows hold the sums over the row blocks 0 … n % 32 of the point's column block. -/
theorem running (n : ℕ) (hn : n < cfg0.N) (q : Fin 1024) :
    (outsAt0 V c n hn).2.2.2.1 (ix2 (0 : Fin 1) q) = ∑ r ∈ Finset.range (n % 32 + 1), blockSum (Yc V c) r (n / 32) q
    ∧ (outsAt0 V c n hn).2.2.2.2 (ix2 (0 : Fin 1) q)
        = ∑ r ∈ Finset.range (n % 32 + 1), blockSum (fun i j => Yc V c i j * Yc V c i j) r (n / 32) q := by
  induction n with
  | zero =>
    have e : outsAt0 V c 0 hn = outsOf0 (iblk0 V c 0 ⟨0, hn⟩) (iblk0 V c 1 ⟨0, hn⟩) (iblk0 V c 2 ⟨0, hn⟩) zeroSum0 zeroSq0 :=
      outsAt0_first V c ⟨0, hn⟩ (Nat.zero_mod _)
    rw [e, outsOf0_sum, outsOf0_sq, sum_step, sq_step, zeroSum_at, zeroSq_at, zero_add, zero_add]
    simp
  | succ n ih =>
    have hn' : n < cfg0.N := Nat.lt_of_succ_lt hn
    obtain ⟨ih1, ih2⟩ := ih hn'
    by_cases h0 : (n + 1) % 32 = 0
    · have e : outsAt0 V c (n + 1) hn = outsOf0 (iblk0 V c 0 ⟨n + 1, hn⟩) (iblk0 V c 1 ⟨n + 1, hn⟩) (iblk0 V c 2 ⟨n + 1, hn⟩) zeroSum0 zeroSq0 :=
        outsAt0_first V c ⟨n + 1, hn⟩ h0
      rw [e, outsOf0_sum, outsOf0_sq, sum_step, sq_step, zeroSum_at, zeroSq_at, zero_add, zero_add]
      show blockSum (Yc V c) ((n + 1) % 32) ((n + 1) / 32) q = _ ∧ blockSum (fun i j => Yc V c i j * Yc V c i j) ((n + 1) % 32) ((n + 1) / 32) q = _
      rw [h0]; simp
    · have e : outsAt0 V c (n + 1) hn = outsOf0 (iblk0 V c 0 ⟨n + 1, hn⟩) (iblk0 V c 1 ⟨n + 1, hn⟩) (iblk0 V c 2 ⟨n + 1, hn⟩)
          (outsAt0 V c n hn').2.2.2.1 (outsAt0 V c n hn').2.2.2.2 :=
        outsAt0_later V c ⟨n + 1, hn⟩ h0
      have hdiv : (n + 1) / 32 = n / 32 := by omega
      have hmod : (n + 1) % 32 = n % 32 + 1 := by omega
      rw [e, outsOf0_sum, outsOf0_sq, sum_step, sq_step, ih1, ih2]
      show _ + blockSum (Yc V c) ((n + 1) % 32) ((n + 1) / 32) q = _ ∧ _ + blockSum (fun i j => Yc V c i j * Yc V c i j) ((n + 1) % 32) ((n + 1) / 32) q = _
      rw [hdiv, hmod, Finset.sum_range_succ (fun r => blockSum (Yc V c) r (n / 32) q) (n % 32 + 1),
        Finset.sum_range_succ (fun r => blockSum (fun i j => Yc V c i j * Yc V c i j) r (n / 32) q) (n % 32 + 1)]
      exact ⟨rfl, rfl⟩

/-! ## The row blocks of a column make the whole column -/

theorem sum_rows (g : Fin 16384 → EReal) :
    (∑ r ∈ Finset.range 32, ∑ p : Fin 512, g (rowIx (512 * r + p.val))) = ∑ i : Fin 16384, g i := by
  rw [Finset.sum_range (fun r => ∑ p : Fin 512, g (rowIx (512 * r + p.val)))]
  rw [← Fintype.sum_prod_type' (f := fun (r : Fin 32) (p : Fin 512) => g (rowIx (512 * r.val + p.val)))]
  let e : Fin 32 × Fin 512 ≃ Fin 16384 := finProdFinEquiv.trans (finCongr (by norm_num))
  rw [← Equiv.sum_comp e g]
  refine Finset.sum_congr rfl fun x _ => ?_
  congr 1
  apply Fin.ext
  show (512 * x.1.val + x.2.val) % 16384 = x.2.val + 512 * x.1.val
  have := x.1.isLt; have := x.2.isLt
  rw [Nat.mod_eq_of_lt (by omega)]; omega

/-! ## What the points leave in the three output windows -/

theorem outsOf0_y {F : FTy → Type} [FloatOps F] (x0 : Vec F S512x1024 .f32) (x1 : Vec F S1024x1024 .f32) (x2 s0 s1 : Vec F S1x1024 .f32) :
    (outsOf0 x0 x1 x2 s0 s1).1 = yBlk0 x0 x1 x2 := by dsimp only [outsOf0]
theorem outsOf0_sumOut {F : FTy → Type} [FloatOps F] (x0 : Vec F S512x1024 .f32) (x1 : Vec F S1024x1024 .f32) (x2 s0 s1 : Vec F S1x1024 .f32) :
    (outsOf0 x0 x1 x2 s0 s1).2.1 = copyRow0 (sumNext0 x0 x1 x2 s0) := by dsimp only [outsOf0]
theorem outsOf0_sqOut {F : FTy → Type} [FloatOps F] (x0 : Vec F S512x1024 .f32) (x1 : Vec F S1024x1024 .f32) (x2 s0 s1 : Vec F S1x1024 .f32) :
    (outsOf0 x0 x1 x2 s0 s1).2.2.1 = copyRow0 (sqNext0 x0 x1 x2 s1) := by dsimp only [outsOf0]

/-- y's buffer after any point is the point's y block; the statistics buffers hold the running rows. -/
theorem outsAt0_y (t : Fin cfg0.N) :
    (outsAt0 V c t.val t.isLt).1 = yBlk0 (iblk0 V c 0 t) (iblk0 V c 1 t) (iblk0 V c 2 t) := by
  by_cases h0 : t.val % 32 = 0
  · rw [outsAt0_first V c t h0, outsOf0_y]
  · rw [outsAt0_later V c t h0, outsOf0_y]
theorem outsAt0_sumOut (t : Fin cfg0.N) : (outsAt0 V c t.val t.isLt).2.1 = (outsAt0 V c t.val t.isLt).2.2.2.1 := by
  by_cases h0 : t.val % 32 = 0
  · rw [outsAt0_first V c t h0, outsOf0_sumOut, outsOf0_sum, copyRow0_eq]
  · rw [outsAt0_later V c t h0, outsOf0_sumOut, outsOf0_sum, copyRow0_eq]
theorem outsAt0_sqOut (t : Fin cfg0.N) : (outsAt0 V c t.val t.isLt).2.2.1 = (outsAt0 V c t.val t.isLt).2.2.2.2 := by
  by_cases h0 : t.val % 32 = 0
  · rw [outsAt0_first V c t h0, outsOf0_sqOut, outsOf0_sq, copyRow0_eq]
  · rw [outsAt0_later V c t h0, outsOf0_sqOut, outsOf0_sq, copyRow0_eq]

/-! ## The three output arrays after the region -/

/-- The raw output array, and the two rows of column sums, as functions of the whole arrays. -/
def Yarr (g : Fin 16384 → Fin 2048 → EReal) : S16384x2048.Idx → EReal := fun I => g (I 0 : Fin 16384) (I 1 : Fin 2048)
def ColSum (g : Fin 16384 → Fin 2048 → EReal) : S1x2048.Idx → EReal := fun I => ∑ i : Fin 16384, g i (I 1 : Fin 2048)

/-- What a point writes back into y's array is its block of the whole-array function. -/
theorem flushed_y (t : Fin cfg0.N) :
    (dat0 V c).flushed 3 t = ((cfg0.win 3).blk t).view.read (Elt Ideal) (Yarr (Yc V c)) := by
  show (cfg0.win 3).cut (grid0.coords t) ((dat0 V c).after 3 t) = _
  rw [after0_3, outsAt0_y]
  funext j
  obtain ⟨p, q, rfl⟩ : ∃ (p : Fin 512) (q : Fin 1024), j = ix2 p q := ⟨j 0, j 1, eq_ix2 j⟩
  refine (yBlk_at V c t p q).trans ?_
  obtain ⟨-, -, -, -, -, -, e0, e1, -⟩ := index_facts t
  show Yc V c (rowOf t p) (colOf t q) = Yc V c ((((cfg0.win 3).blk t).view.emb (ix2 p q)) 0 : Fin 16384) ((((cfg0.win 3).blk t).view.emb (ix2 p q)) 1 : Fin 2048)
  congr 1
  · apply Fin.ext
    show 512 * (t.val % 32) + p.val = win0_3.index t (0 : Fin 2) * 512 + 1 * p.val
    rw [e0]; omega
  · apply Fin.ext
    show 1024 * (t.val / 32) + q.val = win0_3.index t (1 : Fin 2) * 1024 + 1 * q.val
    rw [e1]; omega

/-- At the last row block of a column block the running rows are the whole columns' sums. -/
theorem last_sum (t : Fin cfg0.N) (h31 : t.val % 32 = 31) (q : Fin 1024) :
    (outsAt0 V c t.val t.isLt).2.2.2.1 (ix2 (0 : Fin 1) q) = ∑ i : Fin 16384, Yc V c i (colOf t q)
    ∧ (outsAt0 V c t.val t.isLt).2.2.2.2 (ix2 (0 : Fin 1) q) = ∑ i : Fin 16384, Yc V c i (colOf t q) * Yc V c i (colOf t q) := by
  obtain ⟨h1, h2⟩ := running V c t.val t.isLt q
  rw [h1, h2, h31]
  unfold blockSum
  rw [sum_rows (fun i => Yc V c i (colIx (1024 * (t.val / 32) + q.val))),
    sum_rows (fun i => Yc V c i (colIx (1024 * (t.val / 32) + q.val)) * Yc V c i (colIx (1024 * (t.val / 32) + q.val))), colOf_eq]
  exact ⟨rfl, rfl⟩

theorem flushed_sum (t : Fin cfg0.N) (hf : (cfg0.win 4).flush t = true) :
    (dat0 V c).flushed 4 t = ((cfg0.win 4).blk t).view.read (Elt Ideal) (ColSum (Yc V c)) := by
  have h31 : t.val % 32 = 31 := (flush0_4 t).mp hf
  show (cfg0.win 4).cut (grid0.coords t) ((dat0 V c).after 4 t) = _
  rw [after0_4, outsAt0_sumOut]
  funext j
  obtain ⟨z, q, rfl⟩ : ∃ (z : Fin 1) (q : Fin 1024), j = ix2 z q := ⟨j 0, j 1, eq_ix2 j⟩
  obtain rfl : z = 0 := Subsingleton.elim _ _
  refine (last_sum V c t h31 q).1.trans ?_
  obtain ⟨-, -, -, -, -, -, -, -, e0, e1, -⟩ := index_facts t
  have hcol : colOf t q = ((((cfg0.win 4).blk t).view.emb (ix2 (0 : Fin 1) q)) 1 : Fin 2048) := by
    apply Fin.ext
    show 1024 * (t.val / 32) + q.val = win0_4.index t (1 : Fin 2) * 1024 + 1 * q.val
    rw [e1]; omega
  have hread : ∀ G : S1x2048.Idx → EReal, (((cfg0.win 4).blk t).view.read (Elt Ideal) G) (ix2 (0 : Fin 1) q)
      = G (((cfg0.win 4).blk t).view.emb (ix2 (0 : Fin 1) q)) := fun G => rfl
  rw [hread]
  unfold ColSum
  refine Finset.sum_congr rfl fun i _ => ?_
  exact congrArg (Yc V c i) hcol

theorem flushed_sq (t : Fin cfg0.N) (hf : (cfg0.win 5).flush t = true) :
    (dat0 V c).flushed 5 t = ((cfg0.win 5).blk t).view.read (Elt Ideal) (ColSum (fun i j => Yc V c i j * Yc V c i j)) := by
  have h31 : t.val % 32 = 31 := (flush0_5 t).mp hf
  show (cfg0.win 5).cut (grid0.coords t) ((dat0 V c).after 5 t) = _
  rw [after0_5, outsAt0_sqOut]
  funext j
  obtain ⟨z, q, rfl⟩ : ∃ (z : Fin 1) (q : Fin 1024), j = ix2 z q := ⟨j 0, j 1, eq_ix2 j⟩
  obtain rfl : z = 0 := Subsingleton.elim _ _
  refine (last_sum V c t h31 q).2.trans ?_
  obtain ⟨-, -, -, -, -, -, -, -, -, -, e0, e1⟩ := index_facts t
  have hcol : colOf t q = ((((cfg0.win 5).blk t).view.emb (ix2 (0 : Fin 1) q)) 1 : Fin 2048) := by
    apply Fin.ext
    show 1024 * (t.val / 32) + q.val = win0_5.index t (1 : Fin 2) * 1024 + 1 * q.val
    rw [e1]; omega
  have hread : ∀ G : S1x2048.Idx → EReal, (((cfg0.win 5).blk t).view.read (Elt Ideal) G) (ix2 (0 : Fin 1) q)
      = G (((cfg0.win 5).blk t).view.emb (ix2 (0 : Fin 1) q)) := fun G => rfl
  rw [hread]
  unfold ColSum
  refine Finset.sum_congr rfl fun i _ => ?_
  exact congrArg (fun col : Fin 2048 => Yc V c i col * Yc V c i col) hcol

/-! ## Which point writes which entry, and the arrays after the region -/

theorem mem_blk_y (t : Fin cfg0.N) (I : S16384x2048.Idx) :
    I ∈ ((cfg0.win 3).blk t).view.set
      ↔ ∀ a : Fin 2, win0_3.index t a * S512x1024.size a ≤ (I a).val ∧ (I a).val < win0_3.index t a * S512x1024.size a + S512x1024.size a := by
  show I ∈ ((View.whole main_v1_0).slice (win0_3.rect t)).set ↔ _
  rw [View.set_slice_whole, Rect.mem_set_unit]
  exact Iff.rfl
theorem mem_blk_sum (t : Fin cfg0.N) (I : S1x2048.Idx) :
    I ∈ ((cfg0.win 4).blk t).view.set
      ↔ ∀ a : Fin 2, win0_4.index t a * S1x1024.size a ≤ (I a).val ∧ (I a).val < win0_4.index t a * S1x1024.size a + S1x1024.size a := by
  show I ∈ ((View.whole main_v1_1).slice (win0_4.rect t)).set ↔ _
  rw [View.set_slice_whole, Rect.mem_set_unit]
  exact Iff.rfl
theorem mem_blk_sq (t : Fin cfg0.N) (I : S1x2048.Idx) :
    I ∈ ((cfg0.win 5).blk t).view.set
      ↔ ∀ a : Fin 2, win0_5.index t a * S1x1024.size a ≤ (I a).val ∧ (I a).val < win0_5.index t a * S1x1024.size a + S1x1024.size a := by
  show I ∈ ((View.whole main_v1_2).slice (win0_5.rect t)).set ↔ _
  rw [View.set_slice_whole, Rect.mem_set_unit]
  exact Iff.rfl

/-- Entry (i, j) of y is written by the point of row block i / 512 and column block j / 1024. -/
theorem covered_y (I : S16384x2048.Idx) :
    ∃ t : Fin cfg0.N, (cfg0.win 3).flush t = true ∧ I ∈ ((cfg0.win 3).blk t).view.set := by
  have hi0 : (I 0).val < 16384 := (I 0).isLt
  have hi1 : (I 1).val < 2048 := (I 1).isLt
  let t : Fin cfg0.N := ⟨32 * ((I 1).val / 1024) + (I 0).val / 512, lt_of_lt_of_eq (by omega : 32 * ((I 1).val / 1024) + (I 0).val / 512 < 64) N_0.symm⟩
  have ht : t.val = 32 * ((I 1).val / 1024) + (I 0).val / 512 := rfl
  obtain ⟨-, -, -, -, -, -, e0, e1, -⟩ := index_facts t
  refine ⟨t, flush0_3 t, ?_⟩
  rw [mem_blk_y]
  intro a
  match a with
  | ⟨0, _⟩ =>
    show win0_3.index t (0 : Fin 2) * 512 ≤ (I 0).val ∧ (I 0).val < win0_3.index t (0 : Fin 2) * 512 + 512
    rw [e0, ht]; omega
  | ⟨1, _⟩ =>
    show win0_3.index t (1 : Fin 2) * 1024 ≤ (I 1).val ∧ (I 1).val < win0_3.index t (1 : Fin 2) * 1024 + 1024
    rw [e1, ht]; omega

/-- Column j of a sums row is written by the last row block's point of column block j / 1024. -/
theorem covered_sum (I : S1x2048.Idx) :
    ∃ t : Fin cfg0.N, (cfg0.win 4).flush t = true ∧ I ∈ ((cfg0.win 4).blk t).view.set := by
  have hi0 : (I 0).val < 1 := (I 0).isLt
  have hi1 : (I 1).val < 2048 := (I 1).isLt
  let t : Fin cfg0.N := ⟨32 * ((I 1).val / 1024) + 31, lt_of_lt_of_eq (by omega : 32 * ((I 1).val / 1024) + 31 < 64) N_0.symm⟩
  have ht : t.val = 32 * ((I 1).val / 1024) + 31 := rfl
  obtain ⟨-, -, -, -, -, -, -, -, e0, e1, -⟩ := index_facts t
  refine ⟨t, (flush0_4 t).mpr (by rw [ht]; omega), ?_⟩
  rw [mem_blk_sum]
  intro a
  match a with
  | ⟨0, _⟩ =>
    show win0_4.index t (0 : Fin 2) * 1 ≤ (I 0).val ∧ (I 0).val < win0_4.index t (0 : Fin 2) * 1 + 1
    rw [e0]; omega
  | ⟨1, _⟩ =>
    show win0_4.index t (1 : Fin 2) * 1024 ≤ (I 1).val ∧ (I 1).val < win0_4.index t (1 : Fin 2) * 1024 + 1024
    rw [e1, ht]; omega
theorem covered_sq (I : S1x2048.Idx) :
    ∃ t : Fin cfg0.N, (cfg0.win 5).flush t = true ∧ I ∈ ((cfg0.win 5).blk t).view.set := by
  have hi0 : (I 0).val < 1 := (I 0).isLt
  have hi1 : (I 1).val < 2048 := (I 1).isLt
  let t : Fin cfg0.N := ⟨32 * ((I 1).val / 1024) + 31, lt_of_lt_of_eq (by omega : 32 * ((I 1).val / 1024) + 31 < 64) N_0.symm⟩
  have ht : t.val = 32 * ((I 1).val / 1024) + 31 := rfl
  obtain ⟨-, -, -, -, -, -, -, -, -, -, e0, e1⟩ := index_facts t
  refine ⟨t, (flush0_5 t).mpr (by rw [ht]; omega), ?_⟩
  rw [mem_blk_sq]
  intro a
  match a with
  | ⟨0, _⟩ =>
    show win0_5.index t (0 : Fin 2) * 1 ≤ (I 0).val ∧ (I 0).val < win0_5.index t (0 : Fin 2) * 1 + 1
    rw [e0]; omega
  | ⟨1, _⟩ =>
    show win0_5.index t (1 : Fin 2) * 1024 ≤ (I 1).val ∧ (I 1).val < win0_5.index t (1 : Fin 2) * 1024 + 1024
    rw [e1, ht]; omega

/-- After the region: y's array is the whole-array function of the entry contents, and the two statistics rows are
    its column sums and the column sums of its squares. -/
theorem final_y : (dat0 V c).arrAt 3 cfg0.N = Yarr (Yc V c) :=
  (dat0 V c).arrAt_eq_of_cover 3 (Yarr (Yc V c)) (fun t _ => flushed_y V c t) covered_y
theorem final_sum : (dat0 V c).arrAt 4 cfg0.N = ColSum (Yc V c) :=
  (dat0 V c).arrAt_eq_of_cover 4 (ColSum (Yc V c)) (fun t hf => flushed_sum V c t hf) covered_sum
theorem final_sq : (dat0 V c).arrAt 5 cfg0.N = ColSum (fun i j => Yc V c i j * Yc V c i j) :=
  (dat0 V c).arrAt_eq_of_cover 5 (ColSum (fun i j => Yc V c i j * Yc V c i j)) (fun t hf => flushed_sq V c t hf) covered_sq

end Cert.KernelIdeal.Value0

end
-- ==== Proof.IdealHostAt.lean ====
/-
  What the host operations between the regions leave in the rows the next region reads, at the ideal values, read
  at one entry, from ANY contents W of the buffers before them.

  Each stretch turns the two column sums a region accumulated (the sum s and the sum of squares t of its output over
  the 16384 batch rows, one entry per feature) into the batch statistics
      mean q = s q / 16384 ,      variance q = t q / 16384 − mean q · mean q ,
  the divisor being the extended real the constant's word denotes (left as it is), and views the flat scale, shift and
  bias arguments of the next layer as [1, n] rows: entry (0, q) of the row is entry q of the argument.
-/
import proofs.«166235_j274877907496_2_alg».proof.Proof.Gen.KernelIdeal.Launch
import Idealize.ShloMosaic.Lib.StableHlo.Run
import Idealize.ShloMosaic.Lib.ValueLayout

set_option maxRecDepth 16384

noncomputable section

namespace Cert.KernelIdeal.HostAt

open Cert.KernelIdeal Cert.KernelIdeal.Gen
open Idealize.ShloMosaic Idealize.ShloMosaic.TcCoe Idealize.ShloMosaic.ValueIdx Idealize.ShloMosaic.StableHlo Idealize.SL.Sem

variable (W : Valuation τ sig (Elt Ideal))

/-! ## Before the first region -/

/-- The first layer's bias row: the flat argument `main_arg2` viewed as one row, at entry q. -/
theorem host0_v0_at (q : Fin 2048) :
    (StableHlo.after (hostOps0 (F := Ideal)) W (Proc.devRef .tc main_v0) : S1x2048.Idx → EReal) (ix2 (0 : Fin 1) q)
      = (W (Proc.devRef .tc main_arg2) : S2048.Idx → EReal) (ix1 q) := by
  have e : (StableHlo.after (hostOps0 (F := Ideal)) W (Proc.devRef .tc main_v0) : S1x2048.Idx → EReal)
      = shapeCast S1x2048 (W (Proc.devRef .tc main_arg2) : S2048.Idx → EReal) shapeCasts_S2048_S1x2048 := by
    after_results; rfl
  rw [e, shapeCast_a_1a_apply]

/-! ## Between the first and the second region -/

/-- The mean row of layer one at entry q: the column sum the region left in `main_v1_1`, divided by the batch size. -/
theorem host1_v3_at (q : Fin 2048) :
    (StableHlo.after (hostOps1 (F := Ideal)) W (Proc.devRef .tc main_v3) : S1x2048.Idx → EReal) (ix2 (0 : Fin 1) q)
      = Ideal.div ((W (Proc.devRef .tc main_v1_1) : S1x2048.Idx → EReal) (ix2 (0 : Fin 1) q)) (Ideal.ofBits .f32 0x46800000#32) := by
  after_results
  rfl

/-- The variance row of layer one at entry q: the column sum of squares in `main_v1_2` divided by the batch size, less the
    square of the mean (the column sum in `main_v1_1` divided by the batch size). -/
theorem host1_v7_at (q : Fin 2048) :
    (StableHlo.after (hostOps1 (F := Ideal)) W (Proc.devRef .tc main_v7) : S1x2048.Idx → EReal) (ix2 (0 : Fin 1) q)
      = Ideal.div ((W (Proc.devRef .tc main_v1_2) : S1x2048.Idx → EReal) (ix2 (0 : Fin 1) q)) (Ideal.ofBits .f32 0x46800000#32)
        - Ideal.div ((W (Proc.devRef .tc main_v1_1) : S1x2048.Idx → EReal) (ix2 (0 : Fin 1) q)) (Ideal.ofBits .f32 0x46800000#32)
          * Ideal.div ((W (Proc.devRef .tc main_v1_1) : S1x2048.Idx → EReal) (ix2 (0 : Fin 1) q)) (Ideal.ofBits .f32 0x46800000#32) := by
  after_results
  rfl

/-- The first layer's scale row: the flat argument `main_arg3` viewed as one row, at entry q. -/
theorem host1_v8_at (q : Fin 2048) :
    (StableHlo.after (hostOps1 (F := Ideal)) W (Proc.devRef .tc main_v8) : S1x2048.Idx → EReal) (ix2 (0 : Fin 1) q)
      = (W (Proc.devRef .tc main_arg3) : S2048.Idx → EReal) (ix1 q) := by
  have e : (StableHlo.after (hostOps1 (F := Ideal)) W (Proc.devRef .tc main_v8) : S1x2048.Idx → EReal)
      = shapeCast S1x2048 (W (Proc.devRef .tc main_arg3) : S2048.Idx → EReal) shapeCasts_S2048_S1x2048 := by
    after_results; rfl
  rw [e, shapeCast_a_1a_apply]

/-- The first layer's shift row: the flat argument `main_arg4` viewed as one row, at entry q. -/
theorem host1_v9_at (q : Fin 2048) :
    (StableHlo.after (hostOps1 (F := Ideal)) W (Proc.devRef .tc main_v9) : S1x2048.Idx → EReal) (ix2 (0 : Fin 1) q)
      = (W (Proc.devRef .tc main_arg4) : S2048.Idx → EReal) (ix1 q) := by
  have e : (StableHlo.after (hostOps1 (F := Ideal)) W (Proc.devRef .tc main_v9) : S1x2048.Idx → EReal)
      = shapeCast S1x2048 (W (Proc.devRef .tc main_arg4) : S2048.Idx → EReal) shapeCasts_S2048_S1x2048 := by
    after_results; rfl
  rw [e, shapeCast_a_1a_apply]

/-- The second layer's bias row: the flat argument `main_arg6` viewed as one row, at entry q. -/
theorem host1_v10_at (q : Fin 2048) :
    (StableHlo.after (hostOps1 (F := Ideal)) W (Proc.devRef .tc main_v10) : S1x2048.Idx → EReal) (ix2 (0 : Fin 1) q)
      = (W (Proc.devRef .tc main_arg6) : S2048.Idx → EReal) (ix1 q) := by
  have e : (StableHlo.after (hostOps1 (F := Ideal)) W (Proc.devRef .tc main_v10) : S1x2048.Idx → EReal)
      = shapeCast S1x2048 (W (Proc.devRef .tc main_arg6) : S2048.Idx → EReal) shapeCasts_S2048_S1x2048 := by
    after_results; rfl
  rw [e, shapeCast_a_1a_apply]

/-! ## Between the second and the third region -/

/-- The mean row of layer two at entry q: the column sum the region left in `main_v11_1`, divided by the batch size. -/
theorem host2_v13_at (q : Fin 2048) :
    (StableHlo.after (hostOps2 (F := Ideal)) W (Proc.devRef .tc main_v13) : S1x2048.Idx → EReal) (ix2 (0 : Fin 1) q)
      = Ideal.div ((W (Proc.devRef .tc main_v11_1) : S1x2048.Idx → EReal) (ix2 (0 : Fin 1) q)) (Ideal.ofBits .f32 0x46800000#32) := by
  after_results
  rfl

/-- The variance row of layer two at entry q: the column sum of squares in `main_v11_2` divided by the batch size, less the
    square of the mean (the column sum in `main_v11_1` divided by the batch size). -/
theorem host2_v17_at (q : Fin 2048) :
    (StableHlo.after (hostOps2 (F := Ideal)) W (Proc.devRef .tc main_v17) : S1x2048.Idx → EReal) (ix2 (0 : Fin 1) q)
      = Ideal.div ((W (Proc.devRef .tc main_v11_2) : S1x2048.Idx → EReal) (ix2 (0 : Fin 1) q)) (Ideal.ofBits .f32 0x46800000#32)
        - Ideal.div ((W (Proc.devRef .tc main_v11_1) : S1x2048.Idx → EReal) (ix2 (0 : Fin 1) q)) (Ideal.ofBits .f32 0x46800000#32)
          * Ideal.div ((W (Proc.devRef .tc main_v11_1) : S1x2048.Idx → EReal) (ix2 (0 : Fin 1) q)) (Ideal.ofBits .f32 0x46800000#32) := by
  after_results
  rfl

/-- The second layer's scale row: the flat argument `main_arg7` viewed as one row, at entry q. -/
theorem host2_v18_at (q : Fin 2048) :
    (StableHlo.after (hostOps2 (F := Ideal)) W (Proc.devRef .tc main_v18) : S1x2048.Idx → EReal) (ix2 (0 : Fin 1) q)
      = (W (Proc.devRef .tc main_arg7) : S2048.Idx → EReal) (ix1 q) := by
  have e : (StableHlo.after (hostOps2 (F := Ideal)) W (Proc.devRef .tc main_v18) : S1x2048.Idx → EReal)
      = shapeCast S1x2048 (W (Proc.devRef .tc main_arg7) : S2048.Idx → EReal) shapeCasts_S2048_S1x2048 := by
    after_results; rfl
  rw [e, shapeCast_a_1a_apply]

/-- The second layer's shift row: the flat argument `main_arg8` viewed as one row, at entry q. -/
theorem host2_v19_at (q : Fin 2048) :
    (StableHlo.after (hostOps2 (F := Ideal)) W (Proc.devRef .tc main_v19) : S1x2048.Idx → EReal) (ix2 (0 : Fin 1) q)
      = (W (Proc.devRef .tc main_arg8) : S2048.Idx → EReal) (ix1 q) := by
  have e : (StableHlo.after (hostOps2 (F := Ideal)) W (Proc.devRef .tc main_v19) : S1x2048.Idx → EReal)
      = shapeCast S1x2048 (W (Proc.devRef .tc main_arg8) : S2048.Idx → EReal) shapeCasts_S2048_S1x2048 := by
    after_results; rfl
  rw [e, shapeCast_a_1a_apply]

/-- The third layer's bias row: the flat argument `main_arg10` viewed as one row, at entry q. -/
theorem host2_v20_at (q : Fin 1024) :
    (StableHlo.after (hostOps2 (F := Ideal)) W (Proc.devRef .tc main_v20) : S1x1024.Idx → EReal) (ix2 (0 : Fin 1) q)
      = (W (Proc.devRef .tc main_arg10) : S1024.Idx → EReal) (ix1 q) := by
  have e : (StableHlo.after (hostOps2 (F := Ideal)) W (Proc.devRef .tc main_v20) : S1x1024.Idx → EReal)
      = shapeCast S1x1024 (W (Proc.devRef .tc main_arg10) : S1024.Idx → EReal) shapeCasts_S1024_S1x1024 := by
    after_results; rfl
  rw [e, shapeCast_a_1a_apply]

/-! ## Between the third region and the normalising region -/

/-- The mean row of layer three at entry q: the column sum the region left in `main_v21_1`, divided by the batch size. -/
theorem host3_v23_at (q : Fin 1024) :
    (StableHlo.after (hostOps3 (F := Ideal)) W (Proc.devRef .tc main_v23) : S1x1024.Idx → EReal) (ix2 (0 : Fin 1) q)
      = Ideal.div ((W (Proc.devRef .tc main_v21_1) : S1x1024.Idx → EReal) (ix2 (0 : Fin 1) q)) (Ideal.ofBits .f32 0x46800000#32) := by
  after_results
  rfl

/-- The variance row of layer three at entry q: the column sum of squares in `main_v21_2` divided by the batch size, less the
    square of the mean (the column sum in `main_v21_1` divided by the batch size). -/
theorem host3_v27_at (q : Fin 1024) :
    (StableHlo.after (hostOps3 (F := Ideal)) W (Proc.devRef .tc main_v27) : S1x1024.Idx → EReal) (ix2 (0 : Fin 1) q)
      = Ideal.div ((W (Proc.devRef .tc main_v21_2) : S1x1024.Idx → EReal) (ix2 (0 : Fin 1) q)) (Ideal.ofBits .f32 0x46800000#32)
        - Ideal.div ((W (Proc.devRef .tc main_v21_1) : S1x1024.Idx → EReal) (ix2 (0 : Fin 1) q)) (Ideal.ofBits .f32 0x46800000#32)
          * Ideal.div ((W (Proc.devRef .tc main_v21_1) : S1x1024.Idx → EReal) (ix2 (0 : Fin 1) q)) (Ideal.ofBits .f32 0x46800000#32) := by
  after_results
  rfl

/-- The third layer's scale row: the flat argument `main_arg11` viewed as one row, at entry q. -/
theorem host3_v28_at (q : Fin 1024) :
    (StableHlo.after (hostOps3 (F := Ideal)) W (Proc.devRef .tc main_v28) : S1x1024.Idx → EReal) (ix2 (0 : Fin 1) q)
      = (W (Proc.devRef .tc main_arg11) : S1024.Idx → EReal) (ix1 q) := by
  have e : (StableHlo.after (hostOps3 (F := Ideal)) W (Proc.devRef .tc main_v28) : S1x1024.Idx → EReal)
      = shapeCast S1x1024 (W (Proc.devRef .tc main_arg11) : S1024.Idx → EReal) shapeCasts_S1024_S1x1024 := by
    after_results; rfl
  rw [e, shapeCast_a_1a_apply]

/-- The third layer's shift row: the flat argument `main_arg12` viewed as one row, at entry q. -/
theorem host3_v29_at (q : Fin 1024) :
    (StableHlo.after (hostOps3 (F := Ideal)) W (Proc.devRef .tc main_v29) : S1x1024.Idx → EReal) (ix2 (0 : Fin 1) q)
      = (W (Proc.devRef .tc main_arg12) : S1024.Idx → EReal) (ix1 q) := by
  have e : (StableHlo.after (hostOps3 (F := Ideal)) W (Proc.devRef .tc main_v29) : S1x1024.Idx → EReal)
      = shapeCast S1x1024 (W (Proc.devRef .tc main_arg12) : S1024.Idx → EReal) shapeCasts_S1024_S1x1024 := by
    after_results; rfl
  rw [e, shapeCast_a_1a_apply]

end Cert.KernelIdeal.HostAt

end
-- ==== Proof.IdealBridgeA.lean ====
import proofs.«166235_j274877907496_2_alg».proof.Proof.IdealWhole
import proofs.«166235_j274877907496_2_alg».proof.Proof.IdealRegion1
import proofs.«166235_j274877907496_2_alg».proof.Proof.IdealRegion2
import proofs.«166235_j274877907496_2_alg».proof.Proof.IdealRegion3
import proofs.«166235_j274877907496_2_alg».proof.Proof.IdealValue0
import proofs.«166235_j274877907496_2_alg».proof.Proof.IdealHostAt
import proofs.«166235_j274877907496_2_alg».proof.Proof.LibBatchNormMlpFused

set_option maxRecDepth 16384

noncomputable section

namespace Cert.KernelIdeal.Bridge

open Cert.KernelIdeal Cert.KernelIdeal.Gen Cert.KernelIdeal.Hand
open Idealize.ShloMosaic Idealize.ShloMosaic.TcCoe Idealize.ShloMosaic.ValueIdx Idealize.SL.Sem
open BatchNormMlp
open scoped BigOperators

variable (m : (ℓ : Loc nD τ sig) → Buf (Elt Ideal) ℓ) (c : Dev nD)

local notation "D0" => (fun V c => dat0 (F := Ideal) V c)
local notation "D1" => (fun V c => dat1 (F := Ideal) V c)
local notation "D2" => (fun V c => dat2 (F := Ideal) V c)

/-! ## The program's values, boundary by boundary (part one)

The contents of the buffers each item of @main reads, at the ideal values, read at an index, as the three-layer
perceptron's arrays: the first region leaves the first linear part and its column sums and sums of squares; the host
stretch after it turns the sums into the column mean and the one-pass variance and views the flat scale, shift and next
bias as rows. -/

/-- The contents the four regions leave, by the boundary's number. -/
abbrev O : Outs (F := Ideal) := outsD D0 D1 D2 m

/-- The divisor and `ε`, as the program's constants denote them. -/
abbrev Nf : EReal := Ideal.ofBits .f32 0x46800000#32
abbrev εf : EReal := Ideal.ofBits .f32 0x3727C5AC#32

/-! ### The thirteen arguments at launch, by coordinates -/

def ax : Fin 16384 → Fin 1024 → EReal := fun i l => (m ((c.tc : Thread nD τ).loc main_arg0) : S16384x1024.Idx → EReal) (ix2 i l)
def aW0 : Fin 2048 → Fin 1024 → EReal := fun j l => (m ((c.tc : Thread nD τ).loc main_arg1) : S2048x1024.Idx → EReal) (ix2 j l)
def ab0 : Fin 2048 → EReal := fun j => (m ((c.tc : Thread nD τ).loc main_arg2) : S2048.Idx → EReal) (ix1 j)
def ag0 : Fin 2048 → EReal := fun j => (m ((c.tc : Thread nD τ).loc main_arg3) : S2048.Idx → EReal) (ix1 j)
def abt0 : Fin 2048 → EReal := fun j => (m ((c.tc : Thread nD τ).loc main_arg4) : S2048.Idx → EReal) (ix1 j)
def aW1 : Fin 2048 → Fin 2048 → EReal := fun j l => (m ((c.tc : Thread nD τ).loc main_arg5) : S2048x2048.Idx → EReal) (ix2 j l)
def ab1 : Fin 2048 → EReal := fun j => (m ((c.tc : Thread nD τ).loc main_arg6) : S2048.Idx → EReal) (ix1 j)
def ag1 : Fin 2048 → EReal := fun j => (m ((c.tc : Thread nD τ).loc main_arg7) : S2048.Idx → EReal) (ix1 j)
def abt1 : Fin 2048 → EReal := fun j => (m ((c.tc : Thread nD τ).loc main_arg8) : S2048.Idx → EReal) (ix1 j)
def aW2 : Fin 1024 → Fin 2048 → EReal := fun j l => (m ((c.tc : Thread nD τ).loc main_arg9) : S1024x2048.Idx → EReal) (ix2 j l)
def ab2 : Fin 1024 → EReal := fun j => (m ((c.tc : Thread nD τ).loc main_arg10) : S1024.Idx → EReal) (ix1 j)
def ag2 : Fin 1024 → EReal := fun j => (m ((c.tc : Thread nD τ).loc main_arg11) : S1024.Idx → EReal) (ix1 j)
def abt2 : Fin 1024 → EReal := fun j => (m ((c.tc : Thread nD τ).loc main_arg12) : S1024.Idx → EReal) (ix1 j)

/-! ### Boundary 1: after the first host stretch -/

/-- The bias row the first region reads is the first bias. -/
theorem V1_v0 (q : Fin 2048) : (V1 m c main_v0 : S1x2048.Idx → EReal) (ix2 (0 : Fin 1) q) = ab0 m c q :=
  HostAt.host0_v0_at (V0 m c) q

/-- The first linear part, as the first region's whole-array function of its entry contents. -/
theorem Yc_eq : Value0.Yc (E1 m) c = Fused.y0 (ax m c) (aW0 m c) (ab0 m c) := by
  funext i j
  show Value0.Y (V1 m c main_arg0) (V1 m c main_arg1) (V1 m c main_v0) i j = _
  rw [V1_of m c main_arg0 (by decide), V1_of m c main_arg1 (by decide)]
  unfold Value0.Y
  rw [V1_v0]
  rfl

/-! ### Boundary 2: after the first region -/

theorem V2_v1_0 : V2 m (O m) c main_v1_0 = (dat0 (E1 m) c).arrAt 3 cfg0.N := by
  simp only [V2, Function.update_of_ne (StableHlo.devRef_ne_of_ne (by decide : main_v1_0 ≠ main_v1_2) : (Proc.devRef .tc main_v1_0 : DevRef τ sig) ≠ Proc.devRef .tc main_v1_2),
    Function.update_of_ne (StableHlo.devRef_ne_of_ne (by decide : main_v1_0 ≠ main_v1_1) : (Proc.devRef .tc main_v1_0 : DevRef τ sig) ≠ Proc.devRef .tc main_v1_1),
    Function.update_self]
  exact exit0 D0 D1 D2 m 3 c

theorem V2_v1_1 : V2 m (O m) c main_v1_1 = (dat0 (E1 m) c).arrAt 4 cfg0.N := by
  simp only [V2, Function.update_of_ne (StableHlo.devRef_ne_of_ne (by decide : main_v1_1 ≠ main_v1_2) : (Proc.devRef .tc main_v1_1 : DevRef τ sig) ≠ Proc.devRef .tc main_v1_2),
    Function.update_self]
  exact exit0 D0 D1 D2 m 4 c

theorem V2_v1_2 : V2 m (O m) c main_v1_2 = (dat0 (E1 m) c).arrAt 5 cfg0.N := by
  simp only [V2, Function.update_self]
  exact exit0 D0 D1 D2 m 5 c

/-- The first region leaves the first linear part in its output array … -/
theorem V2_y (i : Fin 16384) (j : Fin 2048) :
    (V2 m (O m) c main_v1_0 : S16384x2048.Idx → EReal) (ix2 i j) = Fused.y0 (ax m c) (aW0 m c) (ab0 m c) i j := by
  rw [V2_v1_0, Value0.final_y (E1 m) c]
  show Value0.Yc (E1 m) c i j = _
  rw [Yc_eq]

/-- … its column sums in the second … -/
theorem V2_sum (j : Fin 2048) :
    (V2 m (O m) c main_v1_1 : S1x2048.Idx → EReal) (ix2 (0 : Fin 1) j) = ∑ i : Fin 16384, Fused.y0 (ax m c) (aW0 m c) (ab0 m c) i j := by
  rw [V2_v1_1, Value0.final_sum (E1 m) c]
  show (∑ i : Fin 16384, Value0.Yc (E1 m) c i j) = _
  rw [Yc_eq]

/-- … and the column sums of its squares in the third. -/
theorem V2_sq (j : Fin 2048) :
    (V2 m (O m) c main_v1_2 : S1x2048.Idx → EReal) (ix2 (0 : Fin 1) j)
      = ∑ i : Fin 16384, Fused.y0 (ax m c) (aW0 m c) (ab0 m c) i j * Fused.y0 (ax m c) (aW0 m c) (ab0 m c) i j := by
  rw [V2_v1_2, Value0.final_sq (E1 m) c]
  show (∑ i : Fin 16384, Value0.Yc (E1 m) c i j * Value0.Yc (E1 m) c i j) = _
  rw [Yc_eq]

/-! ### Boundary 3: after host stretch 1 -/

/-- The mean row the next region reads. -/
theorem V3_mean (q : Fin 2048) :
    (V3 m (O m) c main_v3 : S1x2048.Idx → EReal) (ix2 (0 : Fin 1) q) = Fused.meanK Nf (Fused.y0 (ax m c) (aW0 m c) (ab0 m c)) q := by
  refine (HostAt.host1_v3_at (V2 m (O m) c) q).trans ?_
  rw [V2_sum]
  rfl

/-- The variance row the next region reads: one pass, the mean of the squares less the square of the mean. -/
theorem V3_var (q : Fin 2048) :
    (V3 m (O m) c main_v7 : S1x2048.Idx → EReal) (ix2 (0 : Fin 1) q) = Fused.varK Nf (Fused.y0 (ax m c) (aW0 m c) (ab0 m c)) q := by
  refine (HostAt.host1_v7_at (V2 m (O m) c) q).trans ?_
  rw [V2_sq, V2_sum]
  rfl

/-- The row `main_v8` is the flat argument `main_arg3`. -/
theorem V3_v8 (q : Fin 2048) :
    (V3 m (O m) c main_v8 : S1x2048.Idx → EReal) (ix2 (0 : Fin 1) q) = ag0 m c q := by
  refine (HostAt.host1_v8_at (V2 m (O m) c) q).trans ?_
  rw [V2_of m (O m) c main_arg3 (by decide), V1_of m c main_arg3 (by decide)]
  rfl

/-- The row `main_v9` is the flat argument `main_arg4`. -/
theorem V3_v9 (q : Fin 2048) :
    (V3 m (O m) c main_v9 : S1x2048.Idx → EReal) (ix2 (0 : Fin 1) q) = abt0 m c q := by
  refine (HostAt.host1_v9_at (V2 m (O m) c) q).trans ?_
  rw [V2_of m (O m) c main_arg4 (by decide), V1_of m c main_arg4 (by decide)]
  rfl

/-- The row `main_v10` is the flat argument `main_arg6`. -/
theorem V3_v10 (q : Fin 2048) :
    (V3 m (O m) c main_v10 : S1x2048.Idx → EReal) (ix2 (0 : Fin 1) q) = ab1 m c q := by
  refine (HostAt.host1_v10_at (V2 m (O m) c) q).trans ?_
  rw [V2_of m (O m) c main_arg6 (by decide), V1_of m c main_arg6 (by decide)]
  rfl

/-- The region's output array is not written by the host stretch. -/
theorem V3_v1_0 : V3 m (O m) c main_v1_0 = V2 m (O m) c main_v1_0 :=
  V3_of m (O m) c main_v1_0 (by decide)

/-- The next weights are as launched. -/
theorem V3_arg5 : V3 m (O m) c main_arg5 = V0 m c main_arg5 := by
  rw [V3_of m (O m) c main_arg5 (by decide), V2_of m (O m) c main_arg5 (by decide), V1_of m c main_arg5 (by decide)]

end Cert.KernelIdeal.Bridge

end
-- ==== Proof.IdealPayload1.lean ====
/-
  A fused layer's stored values read at one entry, at the ideal values (output block width 1024).

  Per grid step the program holds a [512,2048] block z of the previous layer's raw output, the previous layer's
  [1,2048] rows of variance v, mean μ, scale γ and shift β, a [1024,2048] block W of the weights, a [1,1024] row b of
  the bias, and two [1,1024] running rows.
  • The normalised input is formed entry by entry, each row repeated down the 512 rows:
        xn p k = ((z p k − μ k) · rsqrt (v k + ε)) · γ k + β k ,
    with the products associated in that order; ε is the extended real the constant's word denotes, left as it is.
  • The output block is y = xn · Wᵀ + b: entry (p, q) is  (∑ k, xn p k · W q k) + b q  (the narrowing of the operands'
    format before the product is the identity on extended reals).
  • The running rows become  s q + ∑ p, y p q  and  t q + ∑ p, y p q · y p q ; at the first step they are set to 0.
-/
import proofs.«166235_j274877907496_2_alg».proof.Proof.Gen.KernelIdeal.Skeleton
import proofs.«166235_j274877907496_2_alg».proof.Proof.LibLinearStatsAt

noncomputable section

namespace Cert.KernelIdeal.PayloadAt

open Idealize.ShloMosaic Idealize.ShloMosaic.ValueIdx Cert.KernelIdeal
open scoped BigOperators

/-- The running sum row after the step, at entry q: its old entry plus the sum over the 512 rows of the output block. -/
theorem k1_pay1_at (v31 : FVec Ideal S512x1024 .f32) (v33 : Vec Ideal S1x1024 .f32) (q : Fin 1024) :
    Gen.k1_pay1 (F := Ideal) v31 v33 (ix2 (0 : Fin 1) q)
      = v33 (ix2 (0 : Fin 1) q) + ∑ p : Fin 512, v31 (ix2 p q) := by
  unfold Gen.k1_pay1
  simp only [shapeCast_self]
  rw [addf_apply, shapeCast_a_1a_apply]
  refine congrArg (v33 (ix2 (0 : Fin 1) q) + ·) ?_
  exact LinearStatsAt.sum_axis0_apply v31 0x00000000#32 _ _ _ q

/-- The running sum of squares after the step, at entry q: its old entry plus the sum over the rows of the squared
    output entries. -/
theorem k1_pay2_at (v31 : FVec Ideal S512x1024 .f32) (v40 : Vec Ideal S1x1024 .f32) (q : Fin 1024) :
    Gen.k1_pay2 (F := Ideal) v31 v40 (ix2 (0 : Fin 1) q)
      = v40 (ix2 (0 : Fin 1) q) + ∑ p : Fin 512, v31 (ix2 p q) * v31 (ix2 p q) := by
  unfold Gen.k1_pay2
  simp only [shapeCast_self]
  rw [addf_apply, shapeCast_a_1a_apply]
  refine congrArg (v40 (ix2 (0 : Fin 1) q) + ·) ?_
  exact LinearStatsAt.sum_axis0_apply (mulf v31 v31) 0x00000000#32 _ _ _ q

/-- The zero row stored into the running sum at the first step: every entry is 0. -/
theorem k1_pay3_at (q : Fin 1024) : Gen.k1_pay3 (F := Ideal) (ix2 (0 : Fin 1) q) = 0 := by
  unfold Gen.k1_pay3
  simp only [shapeCast_self]
  exact Ideal.ofBits_zero_f32

/-- The zero row stored into the running sum of squares at the first step: every entry is 0. -/
theorem k1_pay4_at (q : Fin 1024) : Gen.k1_pay4 (F := Ideal) (ix2 (0 : Fin 1) q) = 0 := by
  unfold Gen.k1_pay4
  simp only [shapeCast_self]
  exact Ideal.ofBits_zero_f32

/-- The output block at entry (p, q): the row p of the normalised input against the row q of W, plus the bias entry q. -/
theorem k1_pay5_at (v3 : Vec Ideal S1x2048 .f32) (v8 : Vec Ideal S512x2048 .f32) (v10 v16 v20 : Vec Ideal S1x2048 .f32)
    (v25 : Vec Ideal S1024x2048 .f32) (v28 : Vec Ideal S1x1024 .f32) (p : Fin 512) (q : Fin 1024) :
    Gen.k1_pay5 (F := Ideal) v3 v8 v10 v16 v20 v25 v28 (ix2 p q)
      = (∑ k : Fin 2048,
            ((v8 (ix2 p k) - v10 (ix2 (0 : Fin 1) k))
                * Ideal.rsqrt (v3 (ix2 (0 : Fin 1) k) + Ideal.ofBits .f32 0x3727C5AC#32) * v16 (ix2 (0 : Fin 1) k)
              + v20 (ix2 (0 : Fin 1) k))
            * v25 (ix2 q k))
        + v28 (ix2 (0 : Fin 1) q) := by
  unfold Gen.k1_pay5
  simp only [shapeCast_self]
  rw [addf_apply, broadcastTo_1b_ab_apply]
  refine congrArg (· + v28 (ix2 (0 : Fin 1) q)) ?_
  refine (LinearStatsAt.matmul_nt_zero_apply _ none _ _ p q).trans ?_
  refine Finset.sum_congr rfl fun k _ => ?_
  have hb : ∀ v : FVec Ideal S1x2048 .f32,
      broadcastTo S512x2048 v Gen.broadcasts_S1x2048_S512x2048 (ix2 p k) = v (ix2 (0 : Fin 1) k) :=
    fun v => broadcastTo_1b_ab_apply v _ p k
  rw [truncf_apply, truncf_apply, addf_apply, mulf_apply, mulf_apply, subf_apply, hb, hb, hb, hb]
  rfl

end Cert.KernelIdeal.PayloadAt

end
-- ==== Proof.IdealValue1.lean ====
/-
  What a fused matmul-and-statistics region computes, point by point and then as whole arrays, read as extended reals.

  The grid point t = 32 · cb + r (cb the column block, r the row block) reads rows 512 r … 512 r + 511 of the previous
  layer's raw output z, the whole of the previous layer's four feature rows (mean μ, variance v, scale γ, shift β), rows
  1024 cb … 1024 cb + 1023 of the weights W and the bias entries b of those columns. Its output block is, entry by entry, the
  whole array
      Y i j = (∑ k, (((z i k − μ k) · rsqrt (v k + ε)) · γ k + β k) · W j k) + b j
  at rows 512 r + p and columns 1024 cb + q. Two running rows carry the column sums of the output and of its square
  over the row blocks seen so far of the current column block: zero before r = 0, increased by the block's column sums
  at every point. After r = 31 they are the sums over all 16384 rows, since the 32 row blocks of 512 rows make up the
  rows exactly once, and they are written back then. The output blocks tile the output array and the written-back rows
  tile the statistics rows, so after the region the three arrays are Y, its column sums, and its squares' column sums.
-/
import proofs.«166235_j274877907496_2_alg».proof.Proof.IdealRegion1
import proofs.«166235_j274877907496_2_alg».proof.Proof.IdealPayload1
import Idealize.ShloMosaic.Lib.ValueIdx
import Idealize.ShloMosaic.Lib.Pipeline.Value

set_option maxRecDepth 16384

noncomputable section

namespace Cert.KernelIdeal.Value1

open Cert.KernelIdeal Cert.KernelIdeal.Gen Cert.KernelIdeal.Hand Cert.KernelIdeal.PayloadAt
open Idealize.ShloMosaic Idealize.ShloMosaic.TcCoe Idealize.ShloMosaic.ValueIdx
open Idealize.SL.Sem
open scoped BigOperators

/-! ## Each term the body leaves is its payload -/

section AnyFloats
variable {F : FTy → Type} [FloatOps F]

/-- The zero offsets of a whole-block access, spelt as a function. -/
theorem origin2 : (![0, 0] : Fin 2 → Nat) = fun _ => 0 := funext fun a => by fin_cases a <;> rfl

/-- The stored output block is the product payload of the seven loaded blocks (variance, previous block, mean, scale,
    shift, weights, bias in the payload's order). -/
theorem yBlk1_eq (x0 : Vec F S512x2048 .f32) (x1 x2 x3 x4 : Vec F S1x2048 .f32) (x5 : Vec F S1024x2048 .f32) (x6 : Vec F S1x1024 .f32) :
    yBlk1 x0 x1 x2 x3 x4 x5 x6 = k1_pay5 x2 x0 x1 x3 x4 x5 x6 := by
  unfold yBlk1
  rw [View.canon_unit_zero origin2]
  simp only [View.ld_unit_zero (S := S512x2048) origin2, View.ld_unit_zero (S := S1x2048) origin2,
    View.ld_unit_zero (S := S1024x2048) origin2, View.ld_unit_zero (S := S1x1024) origin2]

/-- The running sum row after a point is the sum payload of the output block and the row found. -/
theorem sumNext1_eq (x0 : Vec F S512x2048 .f32) (x1 x2 x3 x4 : Vec F S1x2048 .f32) (x5 : Vec F S1024x2048 .f32) (x6 s : Vec F S1x1024 .f32) :
    sumNext1 x0 x1 x2 x3 x4 x5 x6 s = k1_pay1 (k1_pay5 x2 x0 x1 x3 x4 x5 x6) s := by
  unfold sumNext1
  rw [View.canon_unit_zero origin2]
  simp only [View.ld_unit_zero (S := S512x2048) origin2, View.ld_unit_zero (S := S1x2048) origin2,
    View.ld_unit_zero (S := S1024x2048) origin2, View.ld_unit_zero (S := S1x1024) origin2]

/-- The running sum-of-squares row after a point is the squares payload of the output block and the row found. -/
theorem sqNext1_eq (x0 : Vec F S512x2048 .f32) (x1 x2 x3 x4 : Vec F S1x2048 .f32) (x5 : Vec F S1024x2048 .f32) (x6 s : Vec F S1x1024 .f32) :
    sqNext1 x0 x1 x2 x3 x4 x5 x6 s = k1_pay2 (k1_pay5 x2 x0 x1 x3 x4 x5 x6) s := by
  unfold sqNext1
  rw [View.canon_unit_zero origin2]
  simp only [View.ld_unit_zero (S := S512x2048) origin2, View.ld_unit_zero (S := S1x2048) origin2,
    View.ld_unit_zero (S := S1024x2048) origin2, View.ld_unit_zero (S := S1x1024) origin2]

/-- The two zero rows are the zero payloads. -/
theorem zeroSum1_eq : (zeroSum1 : Vec F S1x1024 .f32) = k1_pay3 := by
  unfold zeroSum1; rw [View.canon_unit_zero origin2]
theorem zeroSq1_eq : (zeroSq1 : Vec F S1x1024 .f32) = k1_pay4 := by
  unfold zeroSq1; rw [View.canon_unit_zero origin2]

end AnyFloats

/-! ## Where a grid point's blocks sit -/

/-- The windows' block indices at point t = 32 · cb + r, decided once over the 64 points: the previous block moves with
    the row block r, the weights and the bias with the column block cb, the output block with both, the four feature rows
    not at all, the two statistics rows with the column block. -/
theorem index_facts : ∀ t : Fin cfg1.N,
    win1_0.index t (0 : Fin 2) = t.val % 32 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val / 32 ∧ win1_5.index t (1 : Fin 2) = 0
    ∧ win1_6.index t (0 : Fin 2) = 0 ∧ win1_6.index t (1 : Fin 2) = t.val / 32
    ∧ win1_7.index t (0 : Fin 2) = t.val % 32 ∧ win1_7.index t (1 : Fin 2) = t.val / 32
    ∧ win1_8.index t (0 : Fin 2) = 0 ∧ win1_8.index t (1 : Fin 2) = t.val / 32
    ∧ win1_9.index t (0 : Fin 2) = 0 ∧ win1_9.index t (1 : Fin 2) = t.val / 32 :=
  (by decide +kernel : ∀ t : Fin grid1.N, _)

/-! ## The blocks of a point, entry by entry -/

/-- The row of the arrays that row p of the point's previous / output block is, and the column that column q of its
    weights / bias / output block is. -/
def rowOf (t : Fin cfg1.N) (p : Fin 512) : Fin 16384 :=
  ⟨512 * (t.val % 32) + p.val, by have := p.isLt; have := Nat.mod_lt t.val (show 0 < 32 by norm_num); omega⟩
def colOf (t : Fin cfg1.N) (q : Fin 1024) : Fin 2048 :=
  ⟨1024 * (t.val / 32) + q.val, by
    have := q.isLt; have hN : t.val < 64 := lt_of_lt_of_eq t.isLt (show cfg1.N = 64 from N_1); omega⟩

variable (V : (c : Dev nD) → (b : Ref sig .tc) → Buf (Elt Ideal) ((c : Thread nD τ).loc b))

/-- The previous layer's raw block at a point: rows 512 r + p of the array, all 2048 columns. -/
theorem zblk_at (c : Dev nD) (t : Fin cfg1.N) (p : Fin 512) (k : Fin 2048) :
    iblk1 V c 0 t (ix2 p k) = V c main_v1_0 (ix2 (rowOf t p) k) := by
  obtain ⟨e0, e1, -⟩ := index_facts t
  show V c main_v1_0 (((cfg1.win 0).blk t).view.emb (ix2 p k)) = _
  have h : (((cfg1.win 0).blk t).view.emb (ix2 p k) : S16384x2048.Idx) = ix2 (rowOf t p) k := by
    funext a; apply Fin.ext
    match a with
    | ⟨0, _⟩ => show win1_0.index t (0 : Fin 2) * 512 + 1 * p.val = 512 * (t.val % 32) + p.val; rw [e0]; omega
    | ⟨1, _⟩ => show win1_0.index t (1 : Fin 2) * 2048 + 1 * k.val = k.val; rw [e1]; omega
  rw [h]

/-- The four feature rows at a point are the whole rows. -/
theorem mean_at (c : Dev nD) (t : Fin cfg1.N) (k : Fin 2048) :
    iblk1 V c 1 t (ix2 (0 : Fin 1) k) = V c main_v3 (ix2 (0 : Fin 1) k) := by
  obtain ⟨-, -, e0, e1, -⟩ := index_facts t
  show V c main_v3 (((cfg1.win 1).blk t).view.emb (ix2 (0 : Fin 1) k)) = _
  have h : (((cfg1.win 1).blk t).view.emb (ix2 (0 : Fin 1) k) : S1x2048.Idx) = ix2 (0 : Fin 1) k := by
    funext a; apply Fin.ext
    match a with
    | ⟨0, _⟩ => show win1_1.index t (0 : Fin 2) * 1 + 1 * (0 : Fin 1).val = (0 : Fin 1).val; rw [e0]; simp
    | ⟨1, _⟩ => show win1_1.index t (1 : Fin 2) * 2048 + 1 * k.val = k.val; rw [e1]; omega
  rw [h]
theorem var_at (c : Dev nD) (t : Fin cfg1.N) (k : Fin 2048) :
    iblk1 V c 2 t (ix2 (0 : Fin 1) k) = V c main_v7 (ix2 (0 : Fin 1) k) := by
  obtain ⟨-, -, -, -, e0, e1, -⟩ := index_facts t
  show V c main_v7 (((cfg1.win 2).blk t).view.emb (ix2 (0 : Fin 1) k)) = _
  have h : (((cfg1.win 2).blk t).view.emb (ix2 (0 : Fin 1) k) : S1x2048.Idx) = ix2 (0 : Fin 1) k := by
    funext a; apply Fin.ext
    match a with
    | ⟨0, _⟩ => show win1_2.index t (0 : Fin 2) * 1 + 1 * (0 : Fin 1).val = (0 : Fin 1).val; rw [e0]; simp
    | ⟨1, _⟩ => show win1_2.index t (1 : Fin 2) * 2048 + 1 * k.val = k.val; rw [e1]; omega
  rw [h]
theorem gamma_at (c : Dev nD) (t : Fin cfg1.N) (k : Fin 2048) :
    iblk1 V c 3 t (ix2 (0 : Fin 1) k) = V c main_v8 (ix2 (0 : Fin 1) k) := by
  obtain ⟨-, -, -, -, -, -, e0, e1, -⟩ := index_facts t
  show V c main_v8 (((cfg1.win 3).blk t).view.emb (ix2 (0 : Fin 1) k)) = _
  have h : (((cfg1.win 3).blk t).view.emb (ix2 (0 : Fin 1) k) : S1x2048.Idx) = ix2 (0 : Fin 1) k := by
    funext a; apply Fin.ext
    match a with
    | ⟨0, _⟩ => show win1_3.index t (0 : Fin 2) * 1 + 1 * (0 : Fin 1).val = (0 : Fin 1).val; rw [e0]; simp
    | ⟨1, _⟩ => show win1_3.index t (1 : Fin 2) * 2048 + 1 * k.val = k.val; rw [e1]; omega
  rw [h]
theorem beta_at (c : Dev nD) (t : Fin cfg1.N) (k : Fin 2048) :
    iblk1 V c 4 t (ix2 (0 : Fin 1) k) = V c main_v9 (ix2 (0 : Fin 1) k) := by
  obtain ⟨-, -, -, -, -, -, -, -, e0, e1, -⟩ := index_facts t
  show V c main_v9 (((cfg1.win 4).blk t).view.emb (ix2 (0 : Fin 1) k)) = _
  have h : (((cfg1.win 4).blk t).view.emb (ix2 (0 : Fin 1) k) : S1x2048.Idx) = ix2 (0 : Fin 1) k := by
    funext a; apply Fin.ext
    match a with
    | ⟨0, _⟩ => show win1_4.index t (0 : Fin 2) * 1 + 1 * (0 : Fin 1).val = (0 : Fin 1).val; rw [e0]; simp
    | ⟨1, _⟩ => show win1_4.index t (1 : Fin 2) * 2048 + 1 * k.val = k.val; rw [e1]; omega
  rw [h]

/-- The weights block at a point: rows 1024 cb + q of the weights, all 2048 columns. -/
theorem wblk_at (c : Dev nD) (t : Fin cfg1.N) (q : Fin 1024) (k : Fin 2048) :
    iblk1 V c 5 t (ix2 q k) = V c main_arg5 (ix2 (colOf t q) k) := by
  obtain ⟨-, -, -, -, -, -, -, -, -, -, e0, e1, -⟩ := index_facts t
  show V c main_arg5 (((cfg1.win 5).blk t).view.emb (ix2 q k)) = _
  have h : (((cfg1.win 5).blk t).view.emb (ix2 q k) : S2048x2048.Idx) = ix2 (colOf t q) k := by
    funext a; apply Fin.ext
    match a with
    | ⟨0, _⟩ => show win1_5.index t (0 : Fin 2) * 1024 + 1 * q.val = 1024 * (t.val / 32) + q.val; rw [e0]; omega
    | ⟨1, _⟩ => show win1_5.index t (1 : Fin 2) * 2048 + 1 * k.val = k.val; rw [e1]; omega
  rw [h]

/-- The bias row at a point: columns 1024 cb + q of the bias. -/
theorem bblk_at (c : Dev nD) (t : Fin cfg1.N) (q : Fin 1024) :
    iblk1 V c 6 t (ix2 (0 : Fin 1) q) = V c main_v10 (ix2 (0 : Fin 1) (colOf t q)) := by
  obtain ⟨-, -, -, -, -, -, -, -, -, -, -, -, e0, e1, -⟩ := index_facts t
  show V c main_v10 (((cfg1.win 6).blk t).view.emb (ix2 (0 : Fin 1) q)) = _
  have h : (((cfg1.win 6).blk t).view.emb (ix2 (0 : Fin 1) q) : S1x2048.Idx) = ix2 (0 : Fin 1) (colOf t q) := by
    funext a; apply Fin.ext
    match a with
    | ⟨0, _⟩ => show win1_6.index t (0 : Fin 2) * 1 + 1 * (0 : Fin 1).val = (0 : Fin 1).val; rw [e0]; simp
    | ⟨1, _⟩ => show win1_6.index t (1 : Fin 2) * 1024 + 1 * q.val = 1024 * (t.val / 32) + q.val; rw [e1]; omega
  rw [h]

/-- The second layer's raw output as one function of the whole arrays: entry (i, j) is the product of the normalised
    row i of the previous raw output — each entry less its feature's mean, times the reciprocal square root of the
    feature's shifted variance, times its scale, plus its shift — with row j of the weights, plus the bias at j. -/
def Y1 (z : S16384x2048.Idx → EReal) (mean var g bt : S1x2048.Idx → EReal) (W : S2048x2048.Idx → EReal) (b : S1x2048.Idx → EReal)
    (i : Fin 16384) (j : Fin 2048) : EReal :=
  (∑ k : Fin 2048,
      ((z (ix2 i k) - mean (ix2 (0 : Fin 1) k)) * Ideal.rsqrt (var (ix2 (0 : Fin 1) k) + Ideal.ofBits .f32 0x3727C5AC#32)
          * g (ix2 (0 : Fin 1) k) + bt (ix2 (0 : Fin 1) k))
        * W (ix2 j k))
    + b (ix2 (0 : Fin 1) j)

/-- The output block at a point is that function at the point's rows and columns. -/
theorem yBlk_at (c : Dev nD) (t : Fin cfg1.N) (p : Fin 512) (q : Fin 1024) :
    yBlk1 (iblk1 V c 0 t) (iblk1 V c 1 t) (iblk1 V c 2 t) (iblk1 V c 3 t) (iblk1 V c 4 t) (iblk1 V c 5 t) (iblk1 V c 6 t) (ix2 p q)
      = Y1 (V c main_v1_0) (V c main_v3) (V c main_v7) (V c main_v8) (V c main_v9) (V c main_arg5) (V c main_v10)
          (rowOf t p) (colOf t q) := by
  rw [yBlk1_eq, k1_pay5_at]
  unfold Y1
  simp only [zblk_at, mean_at, var_at, gamma_at, beta_at, wblk_at, bblk_at]

/-! ## The running rows: the column sums over the row blocks seen so far -/

/-- Total index functions (a point's rows and columns are below the extents, so the remainders change nothing). -/
def rowIx (n : ℕ) : Fin 16384 := ⟨n % 16384, Nat.mod_lt _ (by norm_num)⟩
def colIx (n : ℕ) : Fin 2048 := ⟨n % 2048, Nat.mod_lt _ (by norm_num)⟩

theorem rowOf_eq (t : Fin cfg1.N) (p : Fin 512) : rowOf t p = rowIx (512 * (t.val % 32) + p.val) := by
  apply Fin.ext
  show 512 * (t.val % 32) + p.val = (512 * (t.val % 32) + p.val) % 16384
  have := p.isLt; have := Nat.mod_lt t.val (show 0 < 32 by norm_num)
  exact (Nat.mod_eq_of_lt (by omega)).symm
theorem colOf_eq (t : Fin cfg1.N) (q : Fin 1024) : colOf t q = colIx (1024 * (t.val / 32) + q.val) := by
  apply Fin.ext
  show 1024 * (t.val / 32) + q.val = (1024 * (t.val / 32) + q.val) % 2048
  have := q.isLt; have hN : t.val < 64 := lt_of_lt_of_eq t.isLt (show cfg1.N = 64 from N_1)
  exact (Nat.mod_eq_of_lt (by omega)).symm

/-- The column sums of one row block r of an array, at column block cb, column q. -/
def blockSum (g : Fin 16384 → Fin 2048 → EReal) (r cb : ℕ) (q : Fin 1024) : EReal :=
  ∑ p : Fin 512, g (rowIx (512 * r + p.val)) (colIx (1024 * cb + q.val))

variable (c : Dev nD)

/-- The whole-array function at this core's entry contents. -/
abbrev Yc : Fin 16384 → Fin 2048 → EReal :=
  Y1 (V c main_v1_0) (V c main_v3) (V c main_v7) (V c main_v8) (V c main_v9) (V c main_arg5) (V c main_v10)

/-- The output block's payload at a point, named once. -/
abbrev payY (t : Fin cfg1.N) : FVec Ideal S512x1024 .f32 :=
  k1_pay5 (F := Ideal) (iblk1 V c 2 t) (iblk1 V c 0 t) (iblk1 V c 1 t) (iblk1 V c 3 t) (iblk1 V c 4 t) (iblk1 V c 5 t) (iblk1 V c 6 t)

/-- The column sums of a point's output block are the block sums of the whole array. -/
theorem point_sum (t : Fin cfg1.N) (q : Fin 1024) :
    (∑ p : Fin 512, payY V c t (ix2 p q)) = blockSum (Yc V c) (t.val % 32) (t.val / 32) q := by
  unfold blockSum
  refine Finset.sum_congr rfl fun p _ => ?_
  show k1_pay5 (F := Ideal) (iblk1 V c 2 t) (iblk1 V c 0 t) (iblk1 V c 1 t) (iblk1 V c 3 t) (iblk1 V c 4 t) (iblk1 V c 5 t) (iblk1 V c 6 t) (ix2 p q) = _
  rw [← yBlk1_eq, yBlk_at, rowOf_eq, colOf_eq]
theorem point_sum_sq (t : Fin cfg1.N) (q : Fin 1024) :
    (∑ p : Fin 512, payY V c t (ix2 p q) * payY V c t (ix2 p q))
      = blockSum (fun i j => Yc V c i j * Yc V c i j) (t.val % 32) (t.val / 32) q := by
  unfold blockSum
  refine Finset.sum_congr rfl fun p _ => ?_
  show k1_pay5 (F := Ideal) (iblk1 V c 2 t) (iblk1 V c 0 t) (iblk1 V c 1 t) (iblk1 V c 3 t) (iblk1 V c 4 t) (iblk1 V c 5 t) (iblk1 V c 6 t) (ix2 p q)
      * k1_pay5 (F := Ideal) (iblk1 V c 2 t) (iblk1 V c 0 t) (iblk1 V c 1 t) (iblk1 V c 3 t) (iblk1 V c 4 t) (iblk1 V c 5 t) (iblk1 V c 6 t) (ix2 p q) = _
  rw [← yBlk1_eq, yBlk_at, rowOf_eq, colOf_eq]

/-- The running rows are the fourth and fifth components of what a point leaves. -/
theorem outsOf1_sum {F : FTy → Type} [FloatOps F] (x0 : Vec F S512x2048 .f32) (x1 x2 x3 x4 : Vec F S1x2048 .f32) (x5 : Vec F S1024x2048 .f32)
    (x6 s0 s1 : Vec F S1x1024 .f32) : (outsOf1 x0 x1 x2 x3 x4 x5 x6 s0 s1).2.2.2.1 = sumNext1 x0 x1 x2 x3 x4 x5 x6 s0 := by dsimp only [outsOf1]
theorem outsOf1_sq {F : FTy → Type} [FloatOps F] (x0 : Vec F S512x2048 .f32) (x1 x2 x3 x4 : Vec F S1x2048 .f32) (x5 : Vec F S1024x2048 .f32)
    (x6 s0 s1 : Vec F S1x1024 .f32) : (outsOf1 x0 x1 x2 x3 x4 x5 x6 s0 s1).2.2.2.2 = sqNext1 x0 x1 x2 x3 x4 x5 x6 s1 := by dsimp only [outsOf1]

/-- One step of a running row, read at a column: the row found plus the block sums of the point. -/
theorem sum_step (t : Fin cfg1.N) (s : Vec Ideal S1x1024 .f32) (q : Fin 1024) :
    sumNext1 (iblk1 V c 0 t) (iblk1 V c 1 t) (iblk1 V c 2 t) (iblk1 V c 3 t) (iblk1 V c 4 t) (iblk1 V c 5 t) (iblk1 V c 6 t) s (ix2 (0 : Fin 1) q)
      = s (ix2 (0 : Fin 1) q) + blockSum (Yc V c) (t.val % 32) (t.val / 32) q := by
  rw [sumNext1_eq, k1_pay1_at]
  exact congrArg (s (ix2 (0 : Fin 1) q) + ·) (point_sum V c t q)
theorem sq_step (t : Fin cfg1.N) (s : Vec Ideal S1x1024 .f32) (q : Fin 1024) :
    sqNext1 (iblk1 V c 0 t) (iblk1 V c 1 t) (iblk1 V c 2 t) (iblk1 V c 3 t) (iblk1 V c 4 t) (iblk1 V c 5 t) (iblk1 V c 6 t) s (ix2 (0 : Fin 1) q)
      = s (ix2 (0 : Fin 1) q) + blockSum (fun i j => Yc V c i j * Yc V c i j) (t.val % 32) (t.val / 32) q := by
  rw [sqNext1_eq, k1_pay2_at]
  exact congrArg (s (ix2 (0 : Fin 1) q) + ·) (point_sum_sq V c t q)
theorem zeroSum_at (q : Fin 1024) : (zeroSum1 : Vec Ideal S1x1024 .f32) (ix2 (0 : Fin 1) q) = 0 := by
  rw [zeroSum1_eq, k1_pay3_at]
theorem zeroSq_at (q : Fin 1024) : (zeroSq1 : Vec Ideal S1x1024 .f32) (ix2 (0 : Fin 1) q) = 0 := by
  rw [zeroSq1_eq, k1_pay4_at]

set_option maxHeartbeats 2000000 in
/-- After point n the running rows hold the sums over the row blocks 0 … n % 32 of the point's column block. -/
theorem running (n : ℕ) (hn : n < cfg1.N) (q : Fin 1024) :
    (outsAt1 V c n hn).2.2.2.1 (ix2 (0 : Fin 1) q) = ∑ r ∈ Finset.range (n % 32 + 1), blockSum (Yc V c) r (n / 32) q
    ∧ (outsAt1 V c n hn).2.2.2.2 (ix2 (0 : Fin 1) q)
        = ∑ r ∈ Finset.range (n % 32 + 1), blockSum (fun i j => Yc V c i j * Yc V c i j) r (n / 32) q := by
  induction n with
  | zero =>
    have e : outsAt1 V c 0 hn = outsOf1 (iblk1 V c 0 ⟨0, hn⟩) (iblk1 V c 1 ⟨0, hn⟩) (iblk1 V c 2 ⟨0, hn⟩) (iblk1 V c 3 ⟨0, hn⟩)
        (iblk1 V c 4 ⟨0, hn⟩) (iblk1 V c 5 ⟨0, hn⟩) (iblk1 V c 6 ⟨0, hn⟩) zeroSum1 zeroSq1 :=
      outsAt1_first V c ⟨0, hn⟩ (Nat.zero_mod _)
    rw [e, outsOf1_sum, outsOf1_sq, sum_step, sq_step, zeroSum_at, zeroSq_at, zero_add, zero_add]
    simp
  | succ n ih =>
    have hn' : n < cfg1.N := Nat.lt_of_succ_lt hn
    obtain ⟨ih1, ih2⟩ := ih hn'
    by_cases h0 : (n + 1) % 32 = 0
    · have e : outsAt1 V c (n + 1) hn = outsOf1 (iblk1 V c 0 ⟨n + 1, hn⟩) (iblk1 V c 1 ⟨n + 1, hn⟩) (iblk1 V c 2 ⟨n + 1, hn⟩)
          (iblk1 V c 3 ⟨n + 1, hn⟩) (iblk1 V c 4 ⟨n + 1, hn⟩) (iblk1 V c 5 ⟨n + 1, hn⟩) (iblk1 V c 6 ⟨n + 1, hn⟩) zeroSum1 zeroSq1 :=
        outsAt1_first V c ⟨n + 1, hn⟩ h0
      rw [e, outsOf1_sum, outsOf1_sq, sum_step, sq_step, zeroSum_at, zeroSq_at, zero_add, zero_add]
      show blockSum (Yc V c) ((n + 1) % 32) ((n + 1) / 32) q = _ ∧ blockSum (fun i j => Yc V c i j * Yc V c i j) ((n + 1) % 32) ((n + 1) / 32) q = _
      rw [h0]; simp
    · have e : outsAt1 V c (n + 1) hn = outsOf1 (iblk1 V c 0 ⟨n + 1, hn⟩) (iblk1 V c 1 ⟨n + 1, hn⟩) (iblk1 V c 2 ⟨n + 1, hn⟩)
          (iblk1 V c 3 ⟨n + 1, hn⟩) (iblk1 V c 4 ⟨n + 1, hn⟩) (iblk1 V c 5 ⟨n + 1, hn⟩) (iblk1 V c 6 ⟨n + 1, hn⟩)
          (outsAt1 V c n hn').2.2.2.1 (outsAt1 V c n hn').2.2.2.2 :=
        outsAt1_later V c ⟨n + 1, hn⟩ h0
      have hdiv : (n + 1) / 32 = n / 32 := by omega
      have hmod : (n + 1) % 32 = n % 32 + 1 := by omega
      rw [e, outsOf1_sum, outsOf1_sq, sum_step, sq_step, ih1, ih2]
      show _ + blockSum (Yc V c) ((n + 1) % 32) ((n + 1) / 32) q = _ ∧ _ + blockSum (fun i j => Yc V c i j * Yc V c i j) ((n + 1) % 32) ((n + 1) / 32) q = _
      rw [hdiv, hmod, Finset.sum_range_succ (fun r => blockSum (Yc V c) r (n / 32) q) (n % 32 + 1),
        Finset.sum_range_succ (fun r => blockSum (fun i j => Yc V c i j * Yc V c i j) r (n / 32) q) (n % 32 + 1)]
      exact ⟨rfl, rfl⟩

/-! ## The row blocks of a column make the whole column -/

theorem sum_rows (g : Fin 16384 → EReal) :
    (∑ r ∈ Finset.range 32, ∑ p : Fin 512, g (rowIx (512 * r + p.val))) = ∑ i : Fin 16384, g i := by
  rw [Finset.sum_range (fun r => ∑ p : Fin 512, g (rowIx (512 * r + p.val)))]
  rw [← Fintype.sum_prod_type' (f := fun (r : Fin 32) (p : Fin 512) => g (rowIx (512 * r.val + p.val)))]
  let e : Fin 32 × Fin 512 ≃ Fin 16384 := finProdFinEquiv.trans (finCongr (by norm_num))
  rw [← Equiv.sum_comp e g]
  refine Finset.sum_congr rfl fun x _ => ?_
  congr 1
  apply Fin.ext
  show (512 * x.1.val + x.2.val) % 16384 = x.2.val + 512 * x.1.val
  have := x.1.isLt; have := x.2.isLt
  rw [Nat.mod_eq_of_lt (by omega)]; omega

/-! ## What the points leave in the three output windows -/

theorem outsOf1_y {F : FTy → Type} [FloatOps F] (x0 : Vec F S512x2048 .f32) (x1 x2 x3 x4 : Vec F S1x2048 .f32) (x5 : Vec F S1024x2048 .f32)
    (x6 s0 s1 : Vec F S1x1024 .f32) : (outsOf1 x0 x1 x2 x3 x4 x5 x6 s0 s1).1 = yBlk1 x0 x1 x2 x3 x4 x5 x6 := by dsimp only [outsOf1]
theorem outsOf1_sumOut {F : FTy → Type} [FloatOps F] (x0 : Vec F S512x2048 .f32) (x1 x2 x3 x4 : Vec F S1x2048 .f32) (x5 : Vec F S1024x2048 .f32)
    (x6 s0 s1 : Vec F S1x1024 .f32) : (outsOf1 x0 x1 x2 x3 x4 x5 x6 s0 s1).2.1 = copyRow1 (sumNext1 x0 x1 x2 x3 x4 x5 x6 s0) := by dsimp only [outsOf1]
theorem outsOf1_sqOut {F : FTy → Type} [FloatOps F] (x0 : Vec F S512x2048 .f32) (x1 x2 x3 x4 : Vec F S1x2048 .f32) (x5 : Vec F S1024x2048 .f32)
    (x6 s0 s1 : Vec F S1x1024 .f32) : (outsOf1 x0 x1 x2 x3 x4 x5 x6 s0 s1).2.2.1 = copyRow1 (sqNext1 x0 x1 x2 x3 x4 x5 x6 s1) := by dsimp only [outsOf1]

/-- The output buffer after any point is the point's output block; the statistics buffers hold the running rows. -/
theorem outsAt1_y (t : Fin cfg1.N) :
    (outsAt1 V c t.val t.isLt).1
      = yBlk1 (iblk1 V c 0 t) (iblk1 V c 1 t) (iblk1 V c 2 t) (iblk1 V c 3 t) (iblk1 V c 4 t) (iblk1 V c 5 t) (iblk1 V c 6 t) := by
  by_cases h0 : t.val % 32 = 0
  · rw [outsAt1_first V c t h0, outsOf1_y]
  · rw [outsAt1_later V c t h0, outsOf1_y]
theorem outsAt1_sumOut (t : Fin cfg1.N) : (outsAt1 V c t.val t.isLt).2.1 = (outsAt1 V c t.val t.isLt).2.2.2.1 := by
  by_cases h0 : t.val % 32 = 0
  · rw [outsAt1_first V c t h0, outsOf1_sumOut, outsOf1_sum, copyRow1_eq]
  · rw [outsAt1_later V c t h0, outsOf1_sumOut, outsOf1_sum, copyRow1_eq]
theorem outsAt1_sqOut (t : Fin cfg1.N) : (outsAt1 V c t.val t.isLt).2.2.1 = (outsAt1 V c t.val t.isLt).2.2.2.2 := by
  by_cases h0 : t.val % 32 = 0
  · rw [outsAt1_first V c t h0, outsOf1_sqOut, outsOf1_sq, copyRow1_eq]
  · rw [outsAt1_later V c t h0, outsOf1_sqOut, outsOf1_sq, copyRow1_eq]

/-! ## The three output arrays after the region -/

/-- The raw output array, and a row of column sums, as functions of a function of (row, column). -/
def Yarr (g : Fin 16384 → Fin 2048 → EReal) : S16384x2048.Idx → EReal := fun I => g (I 0 : Fin 16384) (I 1 : Fin 2048)
def ColSum (g : Fin 16384 → Fin 2048 → EReal) : S1x2048.Idx → EReal := fun I => ∑ i : Fin 16384, g i (I 1 : Fin 2048)

/-- The two read at coordinates. -/
theorem Yarr_ix2 (g : Fin 16384 → Fin 2048 → EReal) (i : Fin 16384) (j : Fin 2048) : Yarr g (ix2 i j) = g i j := rfl
theorem ColSum_ix2 (g : Fin 16384 → Fin 2048 → EReal) (j : Fin 2048) : ColSum g (ix2 (0 : Fin 1) j) = ∑ i : Fin 16384, g i j := rfl

/-- What a point writes back into the output array is its block of the whole-array function. -/
theorem flushed_y (t : Fin cfg1.N) :
    (dat1 V c).flushed 7 t = ((cfg1.win 7).blk t).view.read (Elt Ideal) (Yarr (Yc V c)) := by
  show (cfg1.win 7).cut (grid1.coords t) ((dat1 V c).after 7 t) = _
  rw [after1_7, outsAt1_y]
  funext j
  obtain ⟨p, q, rfl⟩ : ∃ (p : Fin 512) (q : Fin 1024), j = ix2 p q := ⟨j 0, j 1, eq_ix2 j⟩
  refine (yBlk_at V c t p q).trans ?_
  obtain ⟨-, -, -, -, -, -, -, -, -, -, -, -, -, -, e0, e1, -⟩ := index_facts t
  show Yc V c (rowOf t p) (colOf t q)
    = Yc V c ((((cfg1.win 7).blk t).view.emb (ix2 p q)) 0 : Fin 16384) ((((cfg1.win 7).blk t).view.emb (ix2 p q)) 1 : Fin 2048)
  congr 1
  · apply Fin.ext
    show 512 * (t.val % 32) + p.val = win1_7.index t (0 : Fin 2) * 512 + 1 * p.val
    rw [e0]; omega
  · apply Fin.ext
    show 1024 * (t.val / 32) + q.val = win1_7.index t (1 : Fin 2) * 1024 + 1 * q.val
    rw [e1]; omega

/-- At the last row block of a column block the running rows are the whole columns' sums. -/
theorem last_sum (t : Fin cfg1.N) (h31 : t.val % 32 = 31) (q : Fin 1024) :
    (outsAt1 V c t.val t.isLt).2.2.2.1 (ix2 (0 : Fin 1) q) = ∑ i : Fin 16384, Yc V c i (colOf t q)
    ∧ (outsAt1 V c t.val t.isLt).2.2.2.2 (ix2 (0 : Fin 1) q) = ∑ i : Fin 16384, Yc V c i (colOf t q) * Yc V c i (colOf t q) := by
  obtain ⟨h1, h2⟩ := running V c t.val t.isLt q
  rw [h1, h2, h31]
  unfold blockSum
  rw [sum_rows (fun i => Yc V c i (colIx (1024 * (t.val / 32) + q.val))),
    sum_rows (fun i => Yc V c i (colIx (1024 * (t.val / 32) + q.val)) * Yc V c i (colIx (1024 * (t.val / 32) + q.val))), colOf_eq]
  exact ⟨rfl, rfl⟩

theorem flushed_sum (t : Fin cfg1.N) (hf : (cfg1.win 8).flush t = true) :
    (dat1 V c).flushed 8 t = ((cfg1.win 8).blk t).view.read (Elt Ideal) (ColSum (Yc V c)) := by
  have h31 : t.val % 32 = 31 := (flush1_8 t).mp hf
  show (cfg1.win 8).cut (grid1.coords t) ((dat1 V c).after 8 t) = _
  rw [after1_8, outsAt1_sumOut]
  funext j
  obtain ⟨z, q, rfl⟩ : ∃ (z : Fin 1) (q : Fin 1024), j = ix2 z q := ⟨j 0, j 1, eq_ix2 j⟩
  obtain rfl : z = 0 := Subsingleton.elim _ _
  refine (last_sum V c t h31 q).1.trans ?_
  obtain ⟨-, -, -, -, -, -, -, -, -, -, -, -, -, -, -, -, e0, e1, -⟩ := index_facts t
  have hcol : colOf t q = ((((cfg1.win 8).blk t).view.emb (ix2 (0 : Fin 1) q)) 1 : Fin 2048) := by
    apply Fin.ext
    show 1024 * (t.val / 32) + q.val = win1_8.index t (1 : Fin 2) * 1024 + 1 * q.val
    rw [e1]; omega
  have hread : ∀ G : S1x2048.Idx → EReal, (((cfg1.win 8).blk t).view.read (Elt Ideal) G) (ix2 (0 : Fin 1) q)
      = G (((cfg1.win 8).blk t).view.emb (ix2 (0 : Fin 1) q)) := fun G => rfl
  rw [hread]
  unfold ColSum
  refine Finset.sum_congr rfl fun i _ => ?_
  exact congrArg (Yc V c i) hcol

theorem flushed_sq (t : Fin cfg1.N) (hf : (cfg1.win 9).flush t = true) :
    (dat1 V c).flushed 9 t = ((cfg1.win 9).blk t).view.read (Elt Ideal) (ColSum (fun i j => Yc V c i j * Yc V c i j)) := by
  have h31 : t.val % 32 = 31 := (flush1_9 t).mp hf
  show (cfg1.win 9).cut (grid1.coords t) ((dat1 V c).after 9 t) = _
  rw [after1_9, outsAt1_sqOut]
  funext j
  obtain ⟨z, q, rfl⟩ : ∃ (z : Fin 1) (q : Fin 1024), j = ix2 z q := ⟨j 0, j 1, eq_ix2 j⟩
  obtain rfl : z = 0 := Subsingleton.elim _ _
  refine (last_sum V c t h31 q).2.trans ?_
  obtain ⟨-, -, -, -, -, -, -, -, -, -, -, -, -, -, -, -, -, -, e0, e1⟩ := index_facts t
  have hcol : colOf t q = ((((cfg1.win 9).blk t).view.emb (ix2 (0 : Fin 1) q)) 1 : Fin 2048) := by
    apply Fin.ext
    show 1024 * (t.val / 32) + q.val = win1_9.index t (1 : Fin 2) * 1024 + 1 * q.val
    rw [e1]; omega
  have hread : ∀ G : S1x2048.Idx → EReal, (((cfg1.win 9).blk t).view.read (Elt Ideal) G) (ix2 (0 : Fin 1) q)
      = G (((cfg1.win 9).blk t).view.emb (ix2 (0 : Fin 1) q)) := fun G => rfl
  rw [hread]
  unfold ColSum
  refine Finset.sum_congr rfl fun i _ => ?_
  exact congrArg (fun col : Fin 2048 => Yc V c i col * Yc V c i col) hcol

/-! ## Which point writes which entry, and the arrays after the region -/

/-- The point of column block cb and row block r. -/
def pointOf (cb r : ℕ) (hcb : cb < 2) (hr : r < 32) : Fin cfg1.N :=
  ⟨32 * cb + r, by rw [show cfg1.N = 64 from N_1]; omega⟩

theorem mem_blk_y (t : Fin cfg1.N) (I : S16384x2048.Idx) :
    I ∈ ((cfg1.win 7).blk t).view.set
      ↔ ∀ a : Fin 2, win1_7.index t a * S512x1024.size a ≤ (I a).val ∧ (I a).val < win1_7.index t a * S512x1024.size a + S512x1024.size a := by
  show I ∈ ((View.whole main_v11_0).slice (win1_7.rect t)).set ↔ _
  rw [View.set_slice_whole, Rect.mem_set_unit]
  exact Iff.rfl

/-- Every entry of the output array is in the block of the point of its column block and row block. -/
theorem covered_y (I : S16384x2048.Idx) :
    ∃ t : Fin cfg1.N, (cfg1.win 7).flush t = true ∧ I ∈ ((cfg1.win 7).blk t).view.set := by
  have hI0 : (I 0).val < 16384 := (I 0).isLt
  have hI1 : (I 1).val < 2048 := (I 1).isLt
  refine ⟨pointOf ((I 1).val / 1024) ((I 0).val / 512) (by omega) (by omega), flush1_7 _, ?_⟩
  obtain ⟨-, -, -, -, -, -, -, -, -, -, -, -, -, -, e0, e1, -⟩ :=
    index_facts (pointOf ((I 1).val / 1024) ((I 0).val / 512) (by omega) (by omega))
  have hv : (pointOf ((I 1).val / 1024) ((I 0).val / 512) (by omega) (by omega)).val = 32 * ((I 1).val / 1024) + (I 0).val / 512 := rfl
  rw [mem_blk_y]
  intro a
  match a with
  | ⟨0, _⟩ =>
    show win1_7.index _ (0 : Fin 2) * 512 ≤ (I 0).val ∧ (I 0).val < win1_7.index _ (0 : Fin 2) * 512 + 512
    rw [e0, hv]; omega
  | ⟨1, _⟩ =>
    show win1_7.index _ (1 : Fin 2) * 1024 ≤ (I 1).val ∧ (I 1).val < win1_7.index _ (1 : Fin 2) * 1024 + 1024
    rw [e1, hv]; omega

/-- The output array after the region is the whole-array function. -/
theorem final_y : (dat1 V c).arrAt 7 cfg1.N = Yarr (Yc V c) :=
  (dat1 V c).arrAt_eq_of_cover 7 (Yarr (Yc V c)) (fun t _ => flushed_y V c t) covered_y

theorem mem_blk_sum (t : Fin cfg1.N) (I : S1x2048.Idx) :
    I ∈ ((cfg1.win 8).blk t).view.set
      ↔ ∀ a : Fin 2, win1_8.index t a * S1x1024.size a ≤ (I a).val ∧ (I a).val < win1_8.index t a * S1x1024.size a + S1x1024.size a := by
  show I ∈ ((View.whole main_v11_1).slice (win1_8.rect t)).set ↔ _
  rw [View.set_slice_whole, Rect.mem_set_unit]
  exact Iff.rfl
theorem mem_blk_sq (t : Fin cfg1.N) (I : S1x2048.Idx) :
    I ∈ ((cfg1.win 9).blk t).view.set
      ↔ ∀ a : Fin 2, win1_9.index t a * S1x1024.size a ≤ (I a).val ∧ (I a).val < win1_9.index t a * S1x1024.size a + S1x1024.size a := by
  show I ∈ ((View.whole main_v11_2).slice (win1_9.rect t)).set ↔ _
  rw [View.set_slice_whole, Rect.mem_set_unit]
  exact Iff.rfl

/-- Every entry of a statistics row is in the block written back at the last row block of its column block. -/
theorem covered_sum (I : S1x2048.Idx) :
    ∃ t : Fin cfg1.N, (cfg1.win 8).flush t = true ∧ I ∈ ((cfg1.win 8).blk t).view.set := by
  have hI0 : (I 0).val < 1 := (I 0).isLt
  have hI1 : (I 1).val < 2048 := (I 1).isLt
  have hv : (pointOf ((I 1).val / 1024) 31 (by omega) (by omega)).val = 32 * ((I 1).val / 1024) + 31 := rfl
  refine ⟨pointOf ((I 1).val / 1024) 31 (by omega) (by omega), (flush1_8 _).mpr (by rw [hv]; omega), ?_⟩
  obtain ⟨-, -, -, -, -, -, -, -, -, -, -, -, -, -, -, -, e0, e1, -⟩ := index_facts (pointOf ((I 1).val / 1024) 31 (by omega) (by omega))
  rw [mem_blk_sum]
  intro a
  match a with
  | ⟨0, _⟩ =>
    show win1_8.index _ (0 : Fin 2) * 1 ≤ (I 0).val ∧ (I 0).val < win1_8.index _ (0 : Fin 2) * 1 + 1
    rw [e0]; omega
  | ⟨1, _⟩ =>
    show win1_8.index _ (1 : Fin 2) * 1024 ≤ (I 1).val ∧ (I 1).val < win1_8.index _ (1 : Fin 2) * 1024 + 1024
    rw [e1, hv]; omega
theorem covered_sq (I : S1x2048.Idx) :
    ∃ t : Fin cfg1.N, (cfg1.win 9).flush t = true ∧ I ∈ ((cfg1.win 9).blk t).view.set := by
  have hI0 : (I 0).val < 1 := (I 0).isLt
  have hI1 : (I 1).val < 2048 := (I 1).isLt
  have hv : (pointOf ((I 1).val / 1024) 31 (by omega) (by omega)).val = 32 * ((I 1).val / 1024) + 31 := rfl
  refine ⟨pointOf ((I 1).val / 1024) 31 (by omega) (by omega), (flush1_9 _).mpr (by rw [hv]; omega), ?_⟩
  obtain ⟨-, -, -, -, -, -, -, -, -, -, -, -, -, -, -, -, -, -, e0, e1⟩ := index_facts (pointOf ((I 1).val / 1024) 31 (by omega) (by omega))
  rw [mem_blk_sq]
  intro a
  match a with
  | ⟨0, _⟩ =>
    show win1_9.index _ (0 : Fin 2) * 1 ≤ (I 0).val ∧ (I 0).val < win1_9.index _ (0 : Fin 2) * 1 + 1
    rw [e0]; omega
  | ⟨1, _⟩ =>
    show win1_9.index _ (1 : Fin 2) * 1024 ≤ (I 1).val ∧ (I 1).val < win1_9.index _ (1 : Fin 2) * 1024 + 1024
    rw [e1, hv]; omega

/-- The two statistics rows after the region: the column sums of the whole-array function, and of its square. -/
theorem final_sum : (dat1 V c).arrAt 8 cfg1.N = ColSum (Yc V c) :=
  (dat1 V c).arrAt_eq_of_cover 8 (ColSum (Yc V c)) (fun t hf => flushed_sum V c t hf) covered_sum
theorem final_sq : (dat1 V c).arrAt 9 cfg1.N = ColSum (fun i j => Yc V c i j * Yc V c i j) :=
  (dat1 V c).arrAt_eq_of_cover 9 (ColSum (fun i j => Yc V c i j * Yc V c i j)) (fun t hf => flushed_sq V c t hf) covered_sq

end Cert.KernelIdeal.Value1
end
-- ==== Proof.IdealBridgeB.lean ====
import proofs.«166235_j274877907496_2_alg».proof.Proof.IdealBridgeA
import proofs.«166235_j274877907496_2_alg».proof.Proof.IdealValue1

set_option maxRecDepth 16384

noncomputable section

namespace Cert.KernelIdeal.Bridge

open Cert.KernelIdeal Cert.KernelIdeal.Gen Cert.KernelIdeal.Hand
open Idealize.ShloMosaic Idealize.ShloMosaic.TcCoe Idealize.ShloMosaic.ValueIdx Idealize.SL.Sem
open BatchNormMlp
open scoped BigOperators

variable (m : (ℓ : Loc nD τ sig) → Buf (Elt Ideal) ℓ) (c : Dev nD)

local notation "D0" => (fun V c => dat0 (F := Ideal) V c)
local notation "D1" => (fun V c => dat1 (F := Ideal) V c)
local notation "D2" => (fun V c => dat2 (F := Ideal) V c)

/-! ## The program's values, boundary by boundary (part two): the second layer's region and the host stretch after it -/

/-- Region 1's whole-array function at input arrays known entry by entry: the linear part of the normalised rows. -/
theorem Y1_congr (z : S16384x2048.Idx → EReal) (mean var g bt : S1x2048.Idx → EReal) (W : S2048x2048.Idx → EReal) (b : S1x2048.Idx → EReal)
    (zf : Fin 16384 → Fin 2048 → EReal) (mf vf gf btf : Fin 2048 → EReal) (Wf : Fin 2048 → Fin 2048 → EReal) (bf : Fin 2048 → EReal)
    (hz : ∀ i l, z (ix2 i l) = zf i l) (hm : ∀ l, mean (ix2 (0 : Fin 1) l) = mf l) (hv : ∀ l, var (ix2 (0 : Fin 1) l) = vf l)
    (hg : ∀ l, g (ix2 (0 : Fin 1) l) = gf l) (hbt : ∀ l, bt (ix2 (0 : Fin 1) l) = btf l)
    (hW : ∀ j l, W (ix2 j l) = Wf j l) (hb : ∀ j, b (ix2 (0 : Fin 1) j) = bf j) :
    Value1.Y1 z mean var g bt W b = Fused.lin (Fused.normFused εf zf mf vf gf btf) Wf bf := by
  funext i j
  unfold Value1.Y1 Fused.lin Fused.normFused
  simp only [hz, hm, hv, hg, hbt, hW, hb]

/-! ### Boundary 4: after fused region 1 -/

theorem V4_v11_0 : V4 m (O m) c main_v11_0 = (dat1 (E3 m (O m)) c).arrAt 7 cfg1.N := by
  simp only [V4, Function.update_of_ne (StableHlo.devRef_ne_of_ne (by decide : main_v11_0 ≠ main_v11_2) : (Proc.devRef .tc main_v11_0 : DevRef τ sig) ≠ Proc.devRef .tc main_v11_2),
    Function.update_of_ne (StableHlo.devRef_ne_of_ne (by decide : main_v11_0 ≠ main_v11_1) : (Proc.devRef .tc main_v11_0 : DevRef τ sig) ≠ Proc.devRef .tc main_v11_1),
    Function.update_self]
  exact exit1 D0 D1 D2 m 7 c

theorem V4_v11_1 : V4 m (O m) c main_v11_1 = (dat1 (E3 m (O m)) c).arrAt 8 cfg1.N := by
  simp only [V4, Function.update_of_ne (StableHlo.devRef_ne_of_ne (by decide : main_v11_1 ≠ main_v11_2) : (Proc.devRef .tc main_v11_1 : DevRef τ sig) ≠ Proc.devRef .tc main_v11_2),
    Function.update_self]
  exact exit1 D0 D1 D2 m 8 c

theorem V4_v11_2 : V4 m (O m) c main_v11_2 = (dat1 (E3 m (O m)) c).arrAt 9 cfg1.N := by
  simp only [V4, Function.update_self]
  exact exit1 D0 D1 D2 m 9 c

/-- The previous region's raw output, still in place. -/
theorem V3_y (i : Fin 16384) (l : Fin 2048) :
    (V3 m (O m) c main_v1_0 : S16384x2048.Idx → EReal) (ix2 i l) = Fused.y0 (ax m c) (aW0 m c) (ab0 m c) i l := by
  rw [V3_v1_0]
  exact V2_y m c i l

/-- The weights the region reads are as launched. -/
theorem V3_W (j : Fin 2048) (l : Fin 2048) :
    (V3 m (O m) c main_arg5 : S2048x2048.Idx → EReal) (ix2 j l) = aW1 m c j l := by
  rw [V3_arg5]
  rfl

/-- The region's whole-array function of its entry contents is the chain's linear part number 1. -/
theorem Y1c_eq : Value1.Yc (E3 m (O m)) c = Fused.y1 Nf εf (ax m c) (aW0 m c) (ab0 m c) (ag0 m c) (abt0 m c) (aW1 m c) (ab1 m c) :=
  (Y1_congr _ _ _ _ _ _ _ (Fused.y0 (ax m c) (aW0 m c) (ab0 m c)) (Fused.meanK Nf (Fused.y0 (ax m c) (aW0 m c) (ab0 m c))) (Fused.varK Nf (Fused.y0 (ax m c) (aW0 m c) (ab0 m c))) (ag0 m c) (abt0 m c) (aW1 m c) (ab1 m c)
    (V3_y m c) (V3_mean m c) (V3_var m c) (V3_v8 m c) (V3_v9 m c)
    (V3_W m c) (V3_v10 m c)).trans rfl

/-- The region leaves that linear part in its output array … -/
theorem V4_y (i : Fin 16384) (j : Fin 2048) :
    (V4 m (O m) c main_v11_0 : S16384x2048.Idx → EReal) (ix2 i j) = Fused.y1 Nf εf (ax m c) (aW0 m c) (ab0 m c) (ag0 m c) (abt0 m c) (aW1 m c) (ab1 m c) i j := by
  rw [V4_v11_0, Value1.final_y (E3 m (O m)) c, Value1.Yarr_ix2, Y1c_eq]

/-- … its column sums in the second … -/
theorem V4_sum (j : Fin 2048) :
    (V4 m (O m) c main_v11_1 : S1x2048.Idx → EReal) (ix2 (0 : Fin 1) j) = ∑ i : Fin 16384, Fused.y1 Nf εf (ax m c) (aW0 m c) (ab0 m c) (ag0 m c) (abt0 m c) (aW1 m c) (ab1 m c) i j := by
  rw [V4_v11_1, Value1.final_sum (E3 m (O m)) c, Value1.ColSum_ix2, Y1c_eq]

/-- … and the column sums of its squares in the third. -/
theorem V4_sq (j : Fin 2048) :
    (V4 m (O m) c main_v11_2 : S1x2048.Idx → EReal) (ix2 (0 : Fin 1) j) = ∑ i : Fin 16384, Fused.y1 Nf εf (ax m c) (aW0 m c) (ab0 m c) (ag0 m c) (abt0 m c) (aW1 m c) (ab1 m c) i j * Fused.y1 Nf εf (ax m c) (aW0 m c) (ab0 m c) (ag0 m c) (abt0 m c) (aW1 m c) (ab1 m c) i j := by
  rw [V4_v11_2, Value1.final_sq (E3 m (O m)) c, Value1.ColSum_ix2, Y1c_eq]

/-! ### Boundary 5: after host stretch 2 -/

/-- The mean row the next region reads. -/
theorem V5_mean (q : Fin 2048) :
    (V5 m (O m) c main_v13 : S1x2048.Idx → EReal) (ix2 (0 : Fin 1) q) = Fused.meanK Nf (Fused.y1 Nf εf (ax m c) (aW0 m c) (ab0 m c) (ag0 m c) (abt0 m c) (aW1 m c) (ab1 m c)) q := by
  refine (HostAt.host2_v13_at (V4 m (O m) c) q).trans ?_
  rw [V4_sum]
  rfl

/-- The variance row the next region reads: one pass, the mean of the squares less the square of the mean. -/
theorem V5_var (q : Fin 2048) :
    (V5 m (O m) c main_v17 : S1x2048.Idx → EReal) (ix2 (0 : Fin 1) q) = Fused.varK Nf (Fused.y1 Nf εf (ax m c) (aW0 m c) (ab0 m c) (ag0 m c) (abt0 m c) (aW1 m c) (ab1 m c)) q := by
  refine (HostAt.host2_v17_at (V4 m (O m) c) q).trans ?_
  rw [V4_sq, V4_sum]
  rfl

/-- The row `main_v18` is the flat argument `main_arg7`. -/
theorem V5_v18 (q : Fin 2048) :
    (V5 m (O m) c main_v18 : S1x2048.Idx → EReal) (ix2 (0 : Fin 1) q) = ag1 m c q := by
  refine (HostAt.host2_v18_at (V4 m (O m) c) q).trans ?_
  rw [V4_of m (O m) c main_arg7 (by decide), V3_of m (O m) c main_arg7 (by decide), V2_of m (O m) c main_arg7 (by decide), V1_of m c main_arg7 (by decide)]
  rfl

/-- The row `main_v19` is the flat argument `main_arg8`. -/
theorem V5_v19 (q : Fin 2048) :
    (V5 m (O m) c main_v19 : S1x2048.Idx → EReal) (ix2 (0 : Fin 1) q) = abt1 m c q := by
  refine (HostAt.host2_v19_at (V4 m (O m) c) q).trans ?_
  rw [V4_of m (O m) c main_arg8 (by decide), V3_of m (O m) c main_arg8 (by decide), V2_of m (O m) c main_arg8 (by decide), V1_of m c main_arg8 (by decide)]
  rfl

/-- The row `main_v20` is the flat argument `main_arg10`. -/
theorem V5_v20 (q : Fin 1024) :
    (V5 m (O m) c main_v20 : S1x1024.Idx → EReal) (ix2 (0 : Fin 1) q) = ab2 m c q := by
  refine (HostAt.host2_v20_at (V4 m (O m) c) q).trans ?_
  rw [V4_of m (O m) c main_arg10 (by decide), V3_of m (O m) c main_arg10 (by decide), V2_of m (O m) c main_arg10 (by decide), V1_of m c main_arg10 (by decide)]
  rfl

/-- The region's output array is not written by the host stretch. -/
theorem V5_v11_0 : V5 m (O m) c main_v11_0 = V4 m (O m) c main_v11_0 :=
  V5_of m (O m) c main_v11_0 (by decide)

/-- The next weights are as launched. -/
theorem V5_arg9 : V5 m (O m) c main_arg9 = V0 m c main_arg9 := by
  rw [V5_of m (O m) c main_arg9 (by decide), V4_of m (O m) c main_arg9 (by decide), V3_of m (O m) c main_arg9 (by decide), V2_of m (O m) c main_arg9 (by decide), V1_of m c main_arg9 (by decide)]

end Cert.KernelIdeal.Bridge

end
-- ==== Proof.IdealPayload2.lean ====
/-
  A fused layer's stored values read at one entry, at the ideal values (output block width 512).

  Per grid step the program holds a [512,2048] block z of the previous layer's raw output, the previous layer's
  [1,2048] rows of variance v, mean μ, scale γ and shift β, a [512,2048] block W of the weights, a [1,512] row b of
  the bias, and two [1,512] running rows.
  • The normalised input is formed entry by entry, each row repeated down the 512 rows:
        xn p k = ((z p k − μ k) · rsqrt (v k + ε)) · γ k + β k ,
    with the products associated in that order; ε is the extended real the constant's word denotes, left as it is.
  • The output block is y = xn · Wᵀ + b: entry (p, q) is  (∑ k, xn p k · W q k) + b q  (the narrowing of the operands'
    format before the product is the identity on extended reals).
  • The running rows become  s q + ∑ p, y p q  and  t q + ∑ p, y p q · y p q ; at the first step they are set to 0.
-/
import proofs.«166235_j274877907496_2_alg».proof.Proof.Gen.KernelIdeal.Skeleton
import proofs.«166235_j274877907496_2_alg».proof.Proof.LibLinearStatsAt

noncomputable section

namespace Cert.KernelIdeal.PayloadAt

open Idealize.ShloMosaic Idealize.ShloMosaic.ValueIdx Cert.KernelIdeal
open scoped BigOperators

/-- The running sum row after the step, at entry q: its old entry plus the sum over the 512 rows of the output block. -/
theorem k2_pay1_at (v31 : FVec Ideal S512x512 .f32) (v33 : Vec Ideal S1x512 .f32) (q : Fin 512) :
    Gen.k2_pay1 (F := Ideal) v31 v33 (ix2 (0 : Fin 1) q)
      = v33 (ix2 (0 : Fin 1) q) + ∑ p : Fin 512, v31 (ix2 p q) := by
  unfold Gen.k2_pay1
  simp only [shapeCast_self]
  rw [addf_apply, shapeCast_a_1a_apply]
  refine congrArg (v33 (ix2 (0 : Fin 1) q) + ·) ?_
  exact LinearStatsAt.sum_axis0_apply v31 0x00000000#32 _ _ _ q

/-- The running sum of squares after the step, at entry q: its old entry plus the sum over the rows of the squared
    output entries. -/
theorem k2_pay2_at (v31 : FVec Ideal S512x512 .f32) (v40 : Vec Ideal S1x512 .f32) (q : Fin 512) :
    Gen.k2_pay2 (F := Ideal) v31 v40 (ix2 (0 : Fin 1) q)
      = v40 (ix2 (0 : Fin 1) q) + ∑ p : Fin 512, v31 (ix2 p q) * v31 (ix2 p q) := by
  unfold Gen.k2_pay2
  simp only [shapeCast_self]
  rw [addf_apply, shapeCast_a_1a_apply]
  refine congrArg (v40 (ix2 (0 : Fin 1) q) + ·) ?_
  exact LinearStatsAt.sum_axis0_apply (mulf v31 v31) 0x00000000#32 _ _ _ q

/-- The zero row stored into the running sum at the first step: every entry is 0. -/
theorem k2_pay3_at (q : Fin 512) : Gen.k2_pay3 (F := Ideal) (ix2 (0 : Fin 1) q) = 0 := by
  unfold Gen.k2_pay3
  simp only [shapeCast_self]
  exact Ideal.ofBits_zero_f32

/-- The zero row stored into the running sum of squares at the first step: every entry is 0. -/
theorem k2_pay4_at (q : Fin 512) : Gen.k2_pay4 (F := Ideal) (ix2 (0 : Fin 1) q) = 0 := by
  unfold Gen.k2_pay4
  simp only [shapeCast_self]
  exact Ideal.ofBits_zero_f32

/-- The output block at entry (p, q): the row p of the normalised input against the row q of W, plus the bias entry q. -/
theorem k2_pay5_at (v3 : Vec Ideal S1x2048 .f32) (v8 : Vec Ideal S512x2048 .f32) (v10 v16 v20 : Vec Ideal S1x2048 .f32)
    (v25 : Vec Ideal S512x2048 .f32) (v28 : Vec Ideal S1x512 .f32) (p : Fin 512) (q : Fin 512) :
    Gen.k2_pay5 (F := Ideal) v3 v8 v10 v16 v20 v25 v28 (ix2 p q)
      = (∑ k : Fin 2048,
            ((v8 (ix2 p k) - v10 (ix2 (0 : Fin 1) k))
                * Ideal.rsqrt (v3 (ix2 (0 : Fin 1) k) + Ideal.ofBits .f32 0x3727C5AC#32) * v16 (ix2 (0 : Fin 1) k)
              + v20 (ix2 (0 : Fin 1) k))
            * v25 (ix2 q k))
        + v28 (ix2 (0 : Fin 1) q) := by
  unfold Gen.k2_pay5
  simp only [shapeCast_self]
  rw [addf_apply, broadcastTo_1b_ab_apply]
  refine congrArg (· + v28 (ix2 (0 : Fin 1) q)) ?_
  refine (LinearStatsAt.matmul_nt_zero_apply _ none _ _ p q).trans ?_
  refine Finset.sum_congr rfl fun k _ => ?_
  have hb : ∀ v : FVec Ideal S1x2048 .f32,
      broadcastTo S512x2048 v Gen.broadcasts_S1x2048_S512x2048 (ix2 p k) = v (ix2 (0 : Fin 1) k) :=
    fun v => broadcastTo_1b_ab_apply v _ p k
  rw [truncf_apply, truncf_apply, addf_apply, mulf_apply, mulf_apply, subf_apply, hb, hb, hb, hb]
  rfl

end Cert.KernelIdeal.PayloadAt

end
-- ==== Proof.IdealValue2.lean ====
/-
  What a fused matmul-and-statistics region computes, point by point and then as whole arrays, read as extended reals.

  The grid point t = 32 · cb + r (cb the column block, r the row block) reads rows 512 r … 512 r + 511 of the previous
  layer's raw output z, the whole of the previous layer's four feature rows (mean μ, variance v, scale γ, shift β), rows
  512 cb … 512 cb + 511 of the weights W and the bias entries b of those columns. Its output block is, entry by entry, the
  whole array
      Y i j = (∑ k, (((z i k − μ k) · rsqrt (v k + ε)) · γ k + β k) · W j k) + b j
  at rows 512 r + p and columns 512 cb + q. Two running rows carry the column sums of the output and of its square
  over the row blocks seen so far of the current column block: zero before r = 0, increased by the block's column sums
  at every point. After r = 31 they are the sums over all 16384 rows, since the 32 row blocks of 512 rows make up the
  rows exactly once, and they are written back then. The output blocks tile the output array and the written-back rows
  tile the statistics rows, so after the region the three arrays are Y, its column sums, and its squares' column sums.
-/
import proofs.«166235_j274877907496_2_alg».proof.Proof.IdealRegion2
import proofs.«166235_j274877907496_2_alg».proof.Proof.IdealPayload2
import Idealize.ShloMosaic.Lib.ValueIdx
import Idealize.ShloMosaic.Lib.Pipeline.Value

set_option maxRecDepth 16384

noncomputable section

namespace Cert.KernelIdeal.Value2

open Cert.KernelIdeal Cert.KernelIdeal.Gen Cert.KernelIdeal.Hand Cert.KernelIdeal.PayloadAt
open Idealize.ShloMosaic Idealize.ShloMosaic.TcCoe Idealize.ShloMosaic.ValueIdx
open Idealize.SL.Sem
open scoped BigOperators

/-! ## Each term the body leaves is its payload -/

section AnyFloats
variable {F : FTy → Type} [FloatOps F]

/-- The zero offsets of a whole-block access, spelt as a function. -/
theorem origin2 : (![0, 0] : Fin 2 → Nat) = fun _ => 0 := funext fun a => by fin_cases a <;> rfl

/-- The stored output block is the product payload of the seven loaded blocks (variance, previous block, mean, scale,
    shift, weights, bias in the payload's order). -/
theorem yBlk2_eq (x0 : Vec F S512x2048 .f32) (x1 x2 x3 x4 : Vec F S1x2048 .f32) (x5 : Vec F S512x2048 .f32) (x6 : Vec F S1x512 .f32) :
    yBlk2 x0 x1 x2 x3 x4 x5 x6 = k2_pay5 x2 x0 x1 x3 x4 x5 x6 := by
  unfold yBlk2
  rw [View.canon_unit_zero origin2]
  simp only [View.ld_unit_zero (S := S512x2048) origin2, View.ld_unit_zero (S := S1x2048) origin2,
    View.ld_unit_zero (S := S512x2048) origin2, View.ld_unit_zero (S := S1x512) origin2]

/-- The running sum row after a point is the sum payload of the output block and the row found. -/
theorem sumNext2_eq (x0 : Vec F S512x2048 .f32) (x1 x2 x3 x4 : Vec F S1x2048 .f32) (x5 : Vec F S512x2048 .f32) (x6 s : Vec F S1x512 .f32) :
    sumNext2 x0 x1 x2 x3 x4 x5 x6 s = k2_pay1 (k2_pay5 x2 x0 x1 x3 x4 x5 x6) s := by
  unfold sumNext2
  rw [View.canon_unit_zero origin2]
  simp only [View.ld_unit_zero (S := S512x2048) origin2, View.ld_unit_zero (S := S1x2048) origin2,
    View.ld_unit_zero (S := S512x2048) origin2, View.ld_unit_zero (S := S1x512) origin2]

/-- The running sum-of-squares row after a point is the squares payload of the output block and the row found. -/
theorem sqNext2_eq (x0 : Vec F S512x2048 .f32) (x1 x2 x3 x4 : Vec F S1x2048 .f32) (x5 : Vec F S512x2048 .f32) (x6 s : Vec F S1x512 .f32) :
    sqNext2 x0 x1 x2 x3 x4 x5 x6 s = k2_pay2 (k2_pay5 x2 x0 x1 x3 x4 x5 x6) s := by
  unfold sqNext2
  rw [View.canon_unit_zero origin2]
  simp only [View.ld_unit_zero (S := S512x2048) origin2, View.ld_unit_zero (S := S1x2048) origin2,
    View.ld_unit_zero (S := S512x2048) origin2, View.ld_unit_zero (S := S1x512) origin2]

/-- The two zero rows are the zero payloads. -/
theorem zeroSum2_eq : (zeroSum2 : Vec F S1x512 .f32) = k2_pay3 := by
  unfold zeroSum2; rw [View.canon_unit_zero origin2]
theorem zeroSq2_eq : (zeroSq2 : Vec F S1x512 .f32) = k2_pay4 := by
  unfold zeroSq2; rw [View.canon_unit_zero origin2]

end AnyFloats

/-! ## Where a grid point's blocks sit -/

/-- The windows' block indices at point t = 32 · cb + r, decided once over the 64 points: the previous block moves with
    the row block r, the weights and the bias with the column block cb, the output block with both, the four feature rows
    not at all, the two statistics rows with the column block. -/
theorem index_facts : ∀ t : Fin cfg2.N,
    win2_0.index t (0 : Fin 2) = t.val % 32 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val / 32 ∧ win2_5.index t (1 : Fin 2) = 0
    ∧ win2_6.index t (0 : Fin 2) = 0 ∧ win2_6.index t (1 : Fin 2) = t.val / 32
    ∧ win2_7.index t (0 : Fin 2) = t.val % 32 ∧ win2_7.index t (1 : Fin 2) = t.val / 32
    ∧ win2_8.index t (0 : Fin 2) = 0 ∧ win2_8.index t (1 : Fin 2) = t.val / 32
    ∧ win2_9.index t (0 : Fin 2) = 0 ∧ win2_9.index t (1 : Fin 2) = t.val / 32 :=
  (by decide +kernel : ∀ t : Fin grid2.N, _)

/-! ## The blocks of a point, entry by entry -/

/-- The row of the arrays that row p of the point's previous / output block is, and the column that column q of its
    weights / bias / output block is. -/
def rowOf (t : Fin cfg2.N) (p : Fin 512) : Fin 16384 :=
  ⟨512 * (t.val % 32) + p.val, by have := p.isLt; have := Nat.mod_lt t.val (show 0 < 32 by norm_num); omega⟩
def colOf (t : Fin cfg2.N) (q : Fin 512) : Fin 1024 :=
  ⟨512 * (t.val / 32) + q.val, by
    have := q.isLt; have hN : t.val < 64 := lt_of_lt_of_eq t.isLt (show cfg2.N = 64 from N_2); omega⟩

variable (V : (c : Dev nD) → (b : Ref sig .tc) → Buf (Elt Ideal) ((c : Thread nD τ).loc b))

/-- The previous layer's raw block at a point: rows 512 r + p of the array, all 2048 columns. -/
theorem zblk_at (c : Dev nD) (t : Fin cfg2.N) (p : Fin 512) (k : Fin 2048) :
    iblk2 V c 0 t (ix2 p k) = V c main_v11_0 (ix2 (rowOf t p) k) := by
  obtain ⟨e0, e1, -⟩ := index_facts t
  show V c main_v11_0 (((cfg2.win 0).blk t).view.emb (ix2 p k)) = _
  have h : (((cfg2.win 0).blk t).view.emb (ix2 p k) : S16384x2048.Idx) = ix2 (rowOf t p) k := by
    funext a; apply Fin.ext
    match a with
    | ⟨0, _⟩ => show win2_0.index t (0 : Fin 2) * 512 + 1 * p.val = 512 * (t.val % 32) + p.val; rw [e0]; omega
    | ⟨1, _⟩ => show win2_0.index t (1 : Fin 2) * 2048 + 1 * k.val = k.val; rw [e1]; omega
  rw [h]

/-- The four feature rows at a point are the whole rows. -/
theorem mean_at (c : Dev nD) (t : Fin cfg2.N) (k : Fin 2048) :
    iblk2 V c 1 t (ix2 (0 : Fin 1) k) = V c main_v13 (ix2 (0 : Fin 1) k) := by
  obtain ⟨-, -, e0, e1, -⟩ := index_facts t
  show V c main_v13 (((cfg2.win 1).blk t).view.emb (ix2 (0 : Fin 1) k)) = _
  have h : (((cfg2.win 1).blk t).view.emb (ix2 (0 : Fin 1) k) : S1x2048.Idx) = ix2 (0 : Fin 1) k := by
    funext a; apply Fin.ext
    match a with
    | ⟨0, _⟩ => show win2_1.index t (0 : Fin 2) * 1 + 1 * (0 : Fin 1).val = (0 : Fin 1).val; rw [e0]; simp
    | ⟨1, _⟩ => show win2_1.index t (1 : Fin 2) * 2048 + 1 * k.val = k.val; rw [e1]; omega
  rw [h]
theorem var_at (c : Dev nD) (t : Fin cfg2.N) (k : Fin 2048) :
    iblk2 V c 2 t (ix2 (0 : Fin 1) k) = V c main_v17 (ix2 (0 : Fin 1) k) := by
  obtain ⟨-, -, -, -, e0, e1, -⟩ := index_facts t
  show V c main_v17 (((cfg2.win 2).blk t).view.emb (ix2 (0 : Fin 1) k)) = _
  have h : (((cfg2.win 2).blk t).view.emb (ix2 (0 : Fin 1) k) : S1x2048.Idx) = ix2 (0 : Fin 1) k := by
    funext a; apply Fin.ext
    match a with
    | ⟨0, _⟩ => show win2_2.index t (0 : Fin 2) * 1 + 1 * (0 : Fin 1).val = (0 : Fin 1).val; rw [e0]; simp
    | ⟨1, _⟩ => show win2_2.index t (1 : Fin 2) * 2048 + 1 * k.val = k.val; rw [e1]; omega
  rw [h]
theorem gamma_at (c : Dev nD) (t : Fin cfg2.N) (k : Fin 2048) :
    iblk2 V c 3 t (ix2 (0 : Fin 1) k) = V c main_v18 (ix2 (0 : Fin 1) k) := by
  obtain ⟨-, -, -, -, -, -, e0, e1, -⟩ := index_facts t
  show V c main_v18 (((cfg2.win 3).blk t).view.emb (ix2 (0 : Fin 1) k)) = _
  have h : (((cfg2.win 3).blk t).view.emb (ix2 (0 : Fin 1) k) : S1x2048.Idx) = ix2 (0 : Fin 1) k := by
    funext a; apply Fin.ext
    match a with
    | ⟨0, _⟩ => show win2_3.index t (0 : Fin 2) * 1 + 1 * (0 : Fin 1).val = (0 : Fin 1).val; rw [e0]; simp
    | ⟨1, _⟩ => show win2_3.index t (1 : Fin 2) * 2048 + 1 * k.val = k.val; rw [e1]; omega
  rw [h]
theorem beta_at (c : Dev nD) (t : Fin cfg2.N) (k : Fin 2048) :
    iblk2 V c 4 t (ix2 (0 : Fin 1) k) = V c main_v19 (ix2 (0 : Fin 1) k) := by
  obtain ⟨-, -, -, -, -, -, -, -, e0, e1, -⟩ := index_facts t
  show V c main_v19 (((cfg2.win 4).blk t).view.emb (ix2 (0 : Fin 1) k)) = _
  have h : (((cfg2.win 4).blk t).view.emb (ix2 (0 : Fin 1) k) : S1x2048.Idx) = ix2 (0 : Fin 1) k := by
    funext a; apply Fin.ext
    match a with
    | ⟨0, _⟩ => show win2_4.index t (0 : Fin 2) * 1 + 1 * (0 : Fin 1).val = (0 : Fin 1).val; rw [e0]; simp
    | ⟨1, _⟩ => show win2_4.index t (1 : Fin 2) * 2048 + 1 * k.val = k.val; rw [e1]; omega
  rw [h]

/-- The weights block at a point: rows 512 cb + q of the weights, all 2048 columns. -/
theorem wblk_at (c : Dev nD) (t : Fin cfg2.N) (q : Fin 512) (k : Fin 2048) :
    iblk2 V c 5 t (ix2 q k) = V c main_arg9 (ix2 (colOf t q) k) := by
  obtain ⟨-, -, -, -, -, -, -, -, -, -, e0, e1, -⟩ := index_facts t
  show V c main_arg9 (((cfg2.win 5).blk t).view.emb (ix2 q k)) = _
  have h : (((cfg2.win 5).blk t).view.emb (ix2 q k) : S1024x2048.Idx) = ix2 (colOf t q) k := by
    funext a; apply Fin.ext
    match a with
    | ⟨0, _⟩ => show win2_5.index t (0 : Fin 2) * 512 + 1 * q.val = 512 * (t.val / 32) + q.val; rw [e0]; omega
    | ⟨1, _⟩ => show win2_5.index t (1 : Fin 2) * 2048 + 1 * k.val = k.val; rw [e1]; omega
  rw [h]

/-- The bias row at a point: columns 512 cb + q of the bias. -/
theorem bblk_at (c : Dev nD) (t : Fin cfg2.N) (q : Fin 512) :
    iblk2 V c 6 t (ix2 (0 : Fin 1) q) = V c main_v20 (ix2 (0 : Fin 1) (colOf t q)) := by
  obtain ⟨-, -, -, -, -, -, -, -, -, -, -, -, e0, e1, -⟩ := index_facts t
  show V c main_v20 (((cfg2.win 6).blk t).view.emb (ix2 (0 : Fin 1) q)) = _
  have h : (((cfg2.win 6).blk t).view.emb (ix2 (0 : Fin 1) q) : S1x1024.Idx) = ix2 (0 : Fin 1) (colOf t q) := by
    funext a; apply Fin.ext
    match a with
    | ⟨0, _⟩ => show win2_6.index t (0 : Fin 2) * 1 + 1 * (0 : Fin 1).val = (0 : Fin 1).val; rw [e0]; simp
    | ⟨1, _⟩ => show win2_6.index t (1 : Fin 2) * 512 + 1 * q.val = 512 * (t.val / 32) + q.val; rw [e1]; omega
  rw [h]

/-- The second layer's raw output as one function of the whole arrays: entry (i, j) is the product of the normalised
    row i of the previous raw output — each entry less its feature's mean, times the reciprocal square root of the
    feature's shifted variance, times its scale, plus its shift — with row j of the weights, plus the bias at j. -/
def Y2 (z : S16384x2048.Idx → EReal) (mean var g bt : S1x2048.Idx → EReal) (W : S1024x2048.Idx → EReal) (b : S1x1024.Idx → EReal)
    (i : Fin 16384) (j : Fin 1024) : EReal :=
  (∑ k : Fin 2048,
      ((z (ix2 i k) - mean (ix2 (0 : Fin 1) k)) * Ideal.rsqrt (var (ix2 (0 : Fin 1) k) + Ideal.ofBits .f32 0x3727C5AC#32)
          * g (ix2 (0 : Fin 1) k) + bt (ix2 (0 : Fin 1) k))
        * W (ix2 j k))
    + b (ix2 (0 : Fin 1) j)

/-- The output block at a point is that function at the point's rows and columns. -/
theorem yBlk_at (c : Dev nD) (t : Fin cfg2.N) (p : Fin 512) (q : Fin 512) :
    yBlk2 (iblk2 V c 0 t) (iblk2 V c 1 t) (iblk2 V c 2 t) (iblk2 V c 3 t) (iblk2 V c 4 t) (iblk2 V c 5 t) (iblk2 V c 6 t) (ix2 p q)
      = Y2 (V c main_v11_0) (V c main_v13) (V c main_v17) (V c main_v18) (V c main_v19) (V c main_arg9) (V c main_v20)
          (rowOf t p) (colOf t q) := by
  rw [yBlk2_eq, k2_pay5_at]
  unfold Y2
  simp only [zblk_at, mean_at, var_at, gamma_at, beta_at, wblk_at, bblk_at]

/-! ## The running rows: the column sums over the row blocks seen so far -/

/-- Total index functions (a point's rows and columns are below the extents, so the remainders change nothing). -/
def rowIx (n : ℕ) : Fin 16384 := ⟨n % 16384, Nat.mod_lt _ (by norm_num)⟩
def colIx (n : ℕ) : Fin 1024 := ⟨n % 1024, Nat.mod_lt _ (by norm_num)⟩

theorem rowOf_eq (t : Fin cfg2.N) (p : Fin 512) : rowOf t p = rowIx (512 * (t.val % 32) + p.val) := by
  apply Fin.ext
  show 512 * (t.val % 32) + p.val = (512 * (t.val % 32) + p.val) % 16384
  have := p.isLt; have := Nat.mod_lt t.val (show 0 < 32 by norm_num)
  exact (Nat.mod_eq_of_lt (by omega)).symm
theorem colOf_eq (t : Fin cfg2.N) (q : Fin 512) : colOf t q = colIx (512 * (t.val / 32) + q.val) := by
  apply Fin.ext
  show 512 * (t.val / 32) + q.val = (512 * (t.val / 32) + q.val) % 1024
  have := q.isLt; have hN : t.val < 64 := lt_of_lt_of_eq t.isLt (show cfg2.N = 64 from N_2)
  exact (Nat.mod_eq_of_lt (by omega)).symm

/-- The column sums of one row block r of an array, at column block cb, column q. -/
def blockSum (g : Fin 16384 → Fin 1024 → EReal) (r cb : ℕ) (q : Fin 512) : EReal :=
  ∑ p : Fin 512, g (rowIx (512 * r + p.val)) (colIx (512 * cb + q.val))

variable (c : Dev nD)

/-- The whole-array function at this core's entry contents. -/
abbrev Yc : Fin 16384 → Fin 1024 → EReal :=
  Y2 (V c main_v11_0) (V c main_v13) (V c main_v17) (V c main_v18) (V c main_v19) (V c main_arg9) (V c main_v20)

/-- The output block's payload at a point, named once. -/
abbrev payY (t : Fin cfg2.N) : FVec Ideal S512x512 .f32 :=
  k2_pay5 (F := Ideal) (iblk2 V c 2 t) (iblk2 V c 0 t) (iblk2 V c 1 t) (iblk2 V c 3 t) (iblk2 V c 4 t) (iblk2 V c 5 t) (iblk2 V c 6 t)

/-- The column sums of a point's output block are the block sums of the whole array. -/
theorem point_sum (t : Fin cfg2.N) (q : Fin 512) :
    (∑ p : Fin 512, payY V c t (ix2 p q)) = blockSum (Yc V c) (t.val % 32) (t.val / 32) q := by
  unfold blockSum
  refine Finset.sum_congr rfl fun p _ => ?_
  show k2_pay5 (F := Ideal) (iblk2 V c 2 t) (iblk2 V c 0 t) (iblk2 V c 1 t) (iblk2 V c 3 t) (iblk2 V c 4 t) (iblk2 V c 5 t) (iblk2 V c 6 t) (ix2 p q) = _
  rw [← yBlk2_eq, yBlk_at, rowOf_eq, colOf_eq]
theorem point_sum_sq (t : Fin cfg2.N) (q : Fin 512) :
    (∑ p : Fin 512, payY V c t (ix2 p q) * payY V c t (ix2 p q))
      = blockSum (fun i j => Yc V c i j * Yc V c i j) (t.val % 32) (t.val / 32) q := by
  unfold blockSum
  refine Finset.sum_congr rfl fun p _ => ?_
  show k2_pay5 (F := Ideal) (iblk2 V c 2 t) (iblk2 V c 0 t) (iblk2 V c 1 t) (iblk2 V c 3 t) (iblk2 V c 4 t) (iblk2 V c 5 t) (iblk2 V c 6 t) (ix2 p q)
      * k2_pay5 (F := Ideal) (iblk2 V c 2 t) (iblk2 V c 0 t) (iblk2 V c 1 t) (iblk2 V c 3 t) (iblk2 V c 4 t) (iblk2 V c 5 t) (iblk2 V c 6 t) (ix2 p q) = _
  rw [← yBlk2_eq, yBlk_at, rowOf_eq, colOf_eq]

/-- The running rows are the fourth and fifth components of what a point leaves. -/
theorem outsOf2_sum {F : FTy → Type} [FloatOps F] (x0 : Vec F S512x2048 .f32) (x1 x2 x3 x4 : Vec F S1x2048 .f32) (x5 : Vec F S512x2048 .f32)
    (x6 s0 s1 : Vec F S1x512 .f32) : (outsOf2 x0 x1 x2 x3 x4 x5 x6 s0 s1).2.2.2.1 = sumNext2 x0 x1 x2 x3 x4 x5 x6 s0 := by dsimp only [outsOf2]
theorem outsOf2_sq {F : FTy → Type} [FloatOps F] (x0 : Vec F S512x2048 .f32) (x1 x2 x3 x4 : Vec F S1x2048 .f32) (x5 : Vec F S512x2048 .f32)
    (x6 s0 s1 : Vec F S1x512 .f32) : (outsOf2 x0 x1 x2 x3 x4 x5 x6 s0 s1).2.2.2.2 = sqNext2 x0 x1 x2 x3 x4 x5 x6 s1 := by dsimp only [outsOf2]

/-- One step of a running row, read at a column: the row found plus the block sums of the point. -/
theorem sum_step (t : Fin cfg2.N) (s : Vec Ideal S1x512 .f32) (q : Fin 512) :
    sumNext2 (iblk2 V c 0 t) (iblk2 V c 1 t) (iblk2 V c 2 t) (iblk2 V c 3 t) (iblk2 V c 4 t) (iblk2 V c 5 t) (iblk2 V c 6 t) s (ix2 (0 : Fin 1) q)
      = s (ix2 (0 : Fin 1) q) + blockSum (Yc V c) (t.val % 32) (t.val / 32) q := by
  rw [sumNext2_eq, k2_pay1_at]
  exact congrArg (s (ix2 (0 : Fin 1) q) + ·) (point_sum V c t q)
theorem sq_step (t : Fin cfg2.N) (s : Vec Ideal S1x512 .f32) (q : Fin 512) :
    sqNext2 (iblk2 V c 0 t) (iblk2 V c 1 t) (iblk2 V c 2 t) (iblk2 V c 3 t) (iblk2 V c 4 t) (iblk2 V c 5 t) (iblk2 V c 6 t) s (ix2 (0 : Fin 1) q)
      = s (ix2 (0 : Fin 1) q) + blockSum (fun i j => Yc V c i j * Yc V c i j) (t.val % 32) (t.val / 32) q := by
  rw [sqNext2_eq, k2_pay2_at]
  exact congrArg (s (ix2 (0 : Fin 1) q) + ·) (point_sum_sq V c t q)
theorem zeroSum_at (q : Fin 512) : (zeroSum2 : Vec Ideal S1x512 .f32) (ix2 (0 : Fin 1) q) = 0 := by
  rw [zeroSum2_eq, k2_pay3_at]
theorem zeroSq_at (q : Fin 512) : (zeroSq2 : Vec Ideal S1x512 .f32) (ix2 (0 : Fin 1) q) = 0 := by
  rw [zeroSq2_eq, k2_pay4_at]

set_option maxHeartbeats 2000000 in
/-- After point n the running rows hold the sums over the row blocks 0 … n % 32 of the point's column block. -/
theorem running (n : ℕ) (hn : n < cfg2.N) (q : Fin 512) :
    (outsAt2 V c n hn).2.2.2.1 (ix2 (0 : Fin 1) q) = ∑ r ∈ Finset.range (n % 32 + 1), blockSum (Yc V c) r (n / 32) q
    ∧ (outsAt2 V c n hn).2.2.2.2 (ix2 (0 : Fin 1) q)
        = ∑ r ∈ Finset.range (n % 32 + 1), blockSum (fun i j => Yc V c i j * Yc V c i j) r (n / 32) q := by
  induction n with
  | zero =>
    have e : outsAt2 V c 0 hn = outsOf2 (iblk2 V c 0 ⟨0, hn⟩) (iblk2 V c 1 ⟨0, hn⟩) (iblk2 V c 2 ⟨0, hn⟩) (iblk2 V c 3 ⟨0, hn⟩)
        (iblk2 V c 4 ⟨0, hn⟩) (iblk2 V c 5 ⟨0, hn⟩) (iblk2 V c 6 ⟨0, hn⟩) zeroSum2 zeroSq2 :=
      outsAt2_first V c ⟨0, hn⟩ (Nat.zero_mod _)
    rw [e, outsOf2_sum, outsOf2_sq, sum_step, sq_step, zeroSum_at, zeroSq_at, zero_add, zero_add]
    simp
  | succ n ih =>
    have hn' : n < cfg2.N := Nat.lt_of_succ_lt hn
    obtain ⟨ih1, ih2⟩ := ih hn'
    by_cases h0 : (n + 1) % 32 = 0
    · have e : outsAt2 V c (n + 1) hn = outsOf2 (iblk2 V c 0 ⟨n + 1, hn⟩) (iblk2 V c 1 ⟨n + 1, hn⟩) (iblk2 V c 2 ⟨n + 1, hn⟩)
          (iblk2 V c 3 ⟨n + 1, hn⟩) (iblk2 V c 4 ⟨n + 1, hn⟩) (iblk2 V c 5 ⟨n + 1, hn⟩) (iblk2 V c 6 ⟨n + 1, hn⟩) zeroSum2 zeroSq2 :=
        outsAt2_first V c ⟨n + 1, hn⟩ h0
      rw [e, outsOf2_sum, outsOf2_sq, sum_step, sq_step, zeroSum_at, zeroSq_at, zero_add, zero_add]
      show blockSum (Yc V c) ((n + 1) % 32) ((n + 1) / 32) q = _ ∧ blockSum (fun i j => Yc V c i j * Yc V c i j) ((n + 1) % 32) ((n + 1) / 32) q = _
      rw [h0]; simp
    · have e : outsAt2 V c (n + 1) hn = outsOf2 (iblk2 V c 0 ⟨n + 1, hn⟩) (iblk2 V c 1 ⟨n + 1, hn⟩) (iblk2 V c 2 ⟨n + 1, hn⟩)
          (iblk2 V c 3 ⟨n + 1, hn⟩) (iblk2 V c 4 ⟨n + 1, hn⟩) (iblk2 V c 5 ⟨n + 1, hn⟩) (iblk2 V c 6 ⟨n + 1, hn⟩)
          (outsAt2 V c n hn').2.2.2.1 (outsAt2 V c n hn').2.2.2.2 :=
        outsAt2_later V c ⟨n + 1, hn⟩ h0
      have hdiv : (n + 1) / 32 = n / 32 := by omega
      have hmod : (n + 1) % 32 = n % 32 + 1 := by omega
      rw [e, outsOf2_sum, outsOf2_sq, sum_step, sq_step, ih1, ih2]
      show _ + blockSum (Yc V c) ((n + 1) % 32) ((n + 1) / 32) q = _ ∧ _ + blockSum (fun i j => Yc V c i j * Yc V c i j) ((n + 1) % 32) ((n + 1) / 32) q = _
      rw [hdiv, hmod, Finset.sum_range_succ (fun r => blockSum (Yc V c) r (n / 32) q) (n % 32 + 1),
        Finset.sum_range_succ (fun r => blockSum (fun i j => Yc V c i j * Yc V c i j) r (n / 32) q) (n % 32 + 1)]
      exact ⟨rfl, rfl⟩

/-! ## The row blocks of a column make the whole column -/

theorem sum_rows (g : Fin 16384 → EReal) :
    (∑ r ∈ Finset.range 32, ∑ p : Fin 512, g (rowIx (512 * r + p.val))) = ∑ i : Fin 16384, g i := by
  rw [Finset.sum_range (fun r => ∑ p : Fin 512, g (rowIx (512 * r + p.val)))]
  rw [← Fintype.sum_prod_type' (f := fun (r : Fin 32) (p : Fin 512) => g (rowIx (512 * r.val + p.val)))]
  let e : Fin 32 × Fin 512 ≃ Fin 16384 := finProdFinEquiv.trans (finCongr (by norm_num))
  rw [← Equiv.sum_comp e g]
  refine Finset.sum_congr rfl fun x _ => ?_
  congr 1
  apply Fin.ext
  show (512 * x.1.val + x.2.val) % 16384 = x.2.val + 512 * x.1.val
  have := x.1.isLt; have := x.2.isLt
  rw [Nat.mod_eq_of_lt (by omega)]; omega

/-! ## What the points leave in the three output windows -/

theorem outsOf2_y {F : FTy → Type} [FloatOps F] (x0 : Vec F S512x2048 .f32) (x1 x2 x3 x4 : Vec F S1x2048 .f32) (x5 : Vec F S512x2048 .f32)
    (x6 s0 s1 : Vec F S1x512 .f32) : (outsOf2 x0 x1 x2 x3 x4 x5 x6 s0 s1).1 = yBlk2 x0 x1 x2 x3 x4 x5 x6 := by dsimp only [outsOf2]
theorem outsOf2_sumOut {F : FTy → Type} [FloatOps F] (x0 : Vec F S512x2048 .f32) (x1 x2 x3 x4 : Vec F S1x2048 .f32) (x5 : Vec F S512x2048 .f32)
    (x6 s0 s1 : Vec F S1x512 .f32) : (outsOf2 x0 x1 x2 x3 x4 x5 x6 s0 s1).2.1 = copyRow2 (sumNext2 x0 x1 x2 x3 x4 x5 x6 s0) := by dsimp only [outsOf2]
theorem outsOf2_sqOut {F : FTy → Type} [FloatOps F] (x0 : Vec F S512x2048 .f32) (x1 x2 x3 x4 : Vec F S1x2048 .f32) (x5 : Vec F S512x2048 .f32)
    (x6 s0 s1 : Vec F S1x512 .f32) : (outsOf2 x0 x1 x2 x3 x4 x5 x6 s0 s1).2.2.1 = copyRow2 (sqNext2 x0 x1 x2 x3 x4 x5 x6 s1) := by dsimp only [outsOf2]

/-- The output buffer after any point is the point's output block; the statistics buffers hold the running rows. -/
theorem outsAt2_y (t : Fin cfg2.N) :
    (outsAt2 V c t.val t.isLt).1
      = yBlk2 (iblk2 V c 0 t) (iblk2 V c 1 t) (iblk2 V c 2 t) (iblk2 V c 3 t) (iblk2 V c 4 t) (iblk2 V c 5 t) (iblk2 V c 6 t) := by
  by_cases h0 : t.val % 32 = 0
  · rw [outsAt2_first V c t h0, outsOf2_y]
  · rw [outsAt2_later V c t h0, outsOf2_y]
theorem outsAt2_sumOut (t : Fin cfg2.N) : (outsAt2 V c t.val t.isLt).2.1 = (outsAt2 V c t.val t.isLt).2.2.2.1 := by
  by_cases h0 : t.val % 32 = 0
  · rw [outsAt2_first V c t h0, outsOf2_sumOut, outsOf2_sum, copyRow2_eq]
  · rw [outsAt2_later V c t h0, outsOf2_sumOut, outsOf2_sum, copyRow2_eq]
theorem outsAt2_sqOut (t : Fin cfg2.N) : (outsAt2 V c t.val t.isLt).2.2.1 = (outsAt2 V c t.val t.isLt).2.2.2.2 := by
  by_cases h0 : t.val % 32 = 0
  · rw [outsAt2_first V c t h0, outsOf2_sqOut, outsOf2_sq, copyRow2_eq]
  · rw [outsAt2_later V c t h0, outsOf2_sqOut, outsOf2_sq, copyRow2_eq]

/-! ## The three output arrays after the region -/

/-- The raw output array, and a row of column sums, as functions of a function of (row, column). -/
def Yarr (g : Fin 16384 → Fin 1024 → EReal) : S16384x1024.Idx → EReal := fun I => g (I 0 : Fin 16384) (I 1 : Fin 1024)
def ColSum (g : Fin 16384 → Fin 1024 → EReal) : S1x1024.Idx → EReal := fun I => ∑ i : Fin 16384, g i (I 1 : Fin 1024)

/-- The two read at coordinates. -/
theorem Yarr_ix2 (g : Fin 16384 → Fin 1024 → EReal) (i : Fin 16384) (j : Fin 1024) : Yarr g (ix2 i j) = g i j := rfl
theorem ColSum_ix2 (g : Fin 16384 → Fin 1024 → EReal) (j : Fin 1024) : ColSum g (ix2 (0 : Fin 1) j) = ∑ i : Fin 16384, g i j := rfl

/-- What a point writes back into the output array is its block of the whole-array function. -/
theorem flushed_y (t : Fin cfg2.N) :
    (dat2 V c).flushed 7 t = ((cfg2.win 7).blk t).view.read (Elt Ideal) (Yarr (Yc V c)) := by
  show (cfg2.win 7).cut (grid2.coords t) ((dat2 V c).after 7 t) = _
  rw [after2_7, outsAt2_y]
  funext j
  obtain ⟨p, q, rfl⟩ : ∃ (p : Fin 512) (q : Fin 512), j = ix2 p q := ⟨j 0, j 1, eq_ix2 j⟩
  refine (yBlk_at V c t p q).trans ?_
  obtain ⟨-, -, -, -, -, -, -, -, -, -, -, -, -, -, e0, e1, -⟩ := index_facts t
  show Yc V c (rowOf t p) (colOf t q)
    = Yc V c ((((cfg2.win 7).blk t).view.emb (ix2 p q)) 0 : Fin 16384) ((((cfg2.win 7).blk t).view.emb (ix2 p q)) 1 : Fin 1024)
  congr 1
  · apply Fin.ext
    show 512 * (t.val % 32) + p.val = win2_7.index t (0 : Fin 2) * 512 + 1 * p.val
    rw [e0]; omega
  · apply Fin.ext
    show 512 * (t.val / 32) + q.val = win2_7.index t (1 : Fin 2) * 512 + 1 * q.val
    rw [e1]; omega

/-- At the last row block of a column block the running rows are the whole columns' sums. -/
theorem last_sum (t : Fin cfg2.N) (h31 : t.val % 32 = 31) (q : Fin 512) :
    (outsAt2 V c t.val t.isLt).2.2.2.1 (ix2 (0 : Fin 1) q) = ∑ i : Fin 16384, Yc V c i (colOf t q)
    ∧ (outsAt2 V c t.val t.isLt).2.2.2.2 (ix2 (0 : Fin 1) q) = ∑ i : Fin 16384, Yc V c i (colOf t q) * Yc V c i (colOf t q) := by
  obtain ⟨h1, h2⟩ := running V c t.val t.isLt q
  rw [h1, h2, h31]
  unfold blockSum
  rw [sum_rows (fun i => Yc V c i (colIx (512 * (t.val / 32) + q.val))),
    sum_rows (fun i => Yc V c i (colIx (512 * (t.val / 32) + q.val)) * Yc V c i (colIx (512 * (t.val / 32) + q.val))), colOf_eq]
  exact ⟨rfl, rfl⟩

theorem flushed_sum (t : Fin cfg2.N) (hf : (cfg2.win 8).flush t = true) :
    (dat2 V c).flushed 8 t = ((cfg2.win 8).blk t).view.read (Elt Ideal) (ColSum (Yc V c)) := by
  have h31 : t.val % 32 = 31 := (flush2_8 t).mp hf
  show (cfg2.win 8).cut (grid2.coords t) ((dat2 V c).after 8 t) = _
  rw [after2_8, outsAt2_sumOut]
  funext j
  obtain ⟨z, q, rfl⟩ : ∃ (z : Fin 1) (q : Fin 512), j = ix2 z q := ⟨j 0, j 1, eq_ix2 j⟩
  obtain rfl : z = 0 := Subsingleton.elim _ _
  refine (last_sum V c t h31 q).1.trans ?_
  obtain ⟨-, -, -, -, -, -, -, -, -, -, -, -, -, -, -, -, e0, e1, -⟩ := index_facts t
  have hcol : colOf t q = ((((cfg2.win 8).blk t).view.emb (ix2 (0 : Fin 1) q)) 1 : Fin 1024) := by
    apply Fin.ext
    show 512 * (t.val / 32) + q.val = win2_8.index t (1 : Fin 2) * 512 + 1 * q.val
    rw [e1]; omega
  have hread : ∀ G : S1x1024.Idx → EReal, (((cfg2.win 8).blk t).view.read (Elt Ideal) G) (ix2 (0 : Fin 1) q)
      = G (((cfg2.win 8).blk t).view.emb (ix2 (0 : Fin 1) q)) := fun G => rfl
  rw [hread]
  unfold ColSum
  refine Finset.sum_congr rfl fun i _ => ?_
  exact congrArg (Yc V c i) hcol

theorem flushed_sq (t : Fin cfg2.N) (hf : (cfg2.win 9).flush t = true) :
    (dat2 V c).flushed 9 t = ((cfg2.win 9).blk t).view.read (Elt Ideal) (ColSum (fun i j => Yc V c i j * Yc V c i j)) := by
  have h31 : t.val % 32 = 31 := (flush2_9 t).mp hf
  show (cfg2.win 9).cut (grid2.coords t) ((dat2 V c).after 9 t) = _
  rw [after2_9, outsAt2_sqOut]
  funext j
  obtain ⟨z, q, rfl⟩ : ∃ (z : Fin 1) (q : Fin 512), j = ix2 z q := ⟨j 0, j 1, eq_ix2 j⟩
  obtain rfl : z = 0 := Subsingleton.elim _ _
  refine (last_sum V c t h31 q).2.trans ?_
  obtain ⟨-, -, -, -, -, -, -, -, -, -, -, -, -, -, -, -, -, -, e0, e1⟩ := index_facts t
  have hcol : colOf t q = ((((cfg2.win 9).blk t).view.emb (ix2 (0 : Fin 1) q)) 1 : Fin 1024) := by
    apply Fin.ext
    show 512 * (t.val / 32) + q.val = win2_9.index t (1 : Fin 2) * 512 + 1 * q.val
    rw [e1]; omega
  have hread : ∀ G : S1x1024.Idx → EReal, (((cfg2.win 9).blk t).view.read (Elt Ideal) G) (ix2 (0 : Fin 1) q)
      = G (((cfg2.win 9).blk t).view.emb (ix2 (0 : Fin 1) q)) := fun G => rfl
  rw [hread]
  unfold ColSum
  refine Finset.sum_congr rfl fun i _ => ?_
  exact congrArg (fun col : Fin 1024 => Yc V c i col * Yc V c i col) hcol

/-! ## Which point writes which entry, and the arrays after the region -/

/-- The point of column block cb and row block r. -/
def pointOf (cb r : ℕ) (hcb : cb < 2) (hr : r < 32) : Fin cfg2.N :=
  ⟨32 * cb + r, by rw [show cfg2.N = 64 from N_2]; omega⟩

theorem mem_blk_y (t : Fin cfg2.N) (I : S16384x1024.Idx) :
    I ∈ ((cfg2.win 7).blk t).view.set
      ↔ ∀ a : Fin 2, win2_7.index t a * S512x512.size a ≤ (I a).val ∧ (I a).val < win2_7.index t a * S512x512.size a + S512x512.size a := by
  show I ∈ ((View.whole main_v21_0).slice (win2_7.rect t)).set ↔ _
  rw [View.set_slice_whole, Rect.mem_set_unit]
  exact Iff.rfl

/-- Every entry of the output array is in the block of the point of its column block and row block. -/
theorem covered_y (I : S16384x1024.Idx) :
    ∃ t : Fin cfg2.N, (cfg2.win 7).flush t = true ∧ I ∈ ((cfg2.win 7).blk t).view.set := by
  have hI0 : (I 0).val < 16384 := (I 0).isLt
  have hI1 : (I 1).val < 1024 := (I 1).isLt
  refine ⟨pointOf ((I 1).val / 512) ((I 0).val / 512) (by omega) (by omega), flush2_7 _, ?_⟩
  obtain ⟨-, -, -, -, -, -, -, -, -, -, -, -, -, -, e0, e1, -⟩ :=
    index_facts (pointOf ((I 1).val / 512) ((I 0).val / 512) (by omega) (by omega))
  have hv : (pointOf ((I 1).val / 512) ((I 0).val / 512) (by omega) (by omega)).val = 32 * ((I 1).val / 512) + (I 0).val / 512 := rfl
  rw [mem_blk_y]
  intro a
  match a with
  | ⟨0, _⟩ =>
    show win2_7.index _ (0 : Fin 2) * 512 ≤ (I 0).val ∧ (I 0).val < win2_7.index _ (0 : Fin 2) * 512 + 512
    rw [e0, hv]; omega
  | ⟨1, _⟩ =>
    show win2_7.index _ (1 : Fin 2) * 512 ≤ (I 1).val ∧ (I 1).val < win2_7.index _ (1 : Fin 2) * 512 + 512
    rw [e1, hv]; omega

/-- The output array after the region is the whole-array function. -/
theorem final_y : (dat2 V c).arrAt 7 cfg2.N = Yarr (Yc V c) :=
  (dat2 V c).arrAt_eq_of_cover 7 (Yarr (Yc V c)) (fun t _ => flushed_y V c t) covered_y

theorem mem_blk_sum (t : Fin cfg2.N) (I : S1x1024.Idx) :
    I ∈ ((cfg2.win 8).blk t).view.set
      ↔ ∀ a : Fin 2, win2_8.index t a * S1x512.size a ≤ (I a).val ∧ (I a).val < win2_8.index t a * S1x512.size a + S1x512.size a := by
  show I ∈ ((View.whole main_v21_1).slice (win2_8.rect t)).set ↔ _
  rw [View.set_slice_whole, Rect.mem_set_unit]
  exact Iff.rfl
theorem mem_blk_sq (t : Fin cfg2.N) (I : S1x1024.Idx) :
    I ∈ ((cfg2.win 9).blk t).view.set
      ↔ ∀ a : Fin 2, win2_9.index t a * S1x512.size a ≤ (I a).val ∧ (I a).val < win2_9.index t a * S1x512.size a + S1x512.size a := by
  show I ∈ ((View.whole main_v21_2).slice (win2_9.rect t)).set ↔ _
  rw [View.set_slice_whole, Rect.mem_set_unit]
  exact Iff.rfl

/-- Every entry of a statistics row is in the block written back at the last row block of its column block. -/
theorem covered_sum (I : S1x1024.Idx) :
    ∃ t : Fin cfg2.N, (cfg2.win 8).flush t = true ∧ I ∈ ((cfg2.win 8).blk t).view.set := by
  have hI0 : (I 0).val < 1 := (I 0).isLt
  have hI1 : (I 1).val < 1024 := (I 1).isLt
  have hv : (pointOf ((I 1).val / 512) 31 (by omega) (by omega)).val = 32 * ((I 1).val / 512) + 31 := rfl
  refine ⟨pointOf ((I 1).val / 512) 31 (by omega) (by omega), (flush2_8 _).mpr (by rw [hv]; omega), ?_⟩
  obtain ⟨-, -, -, -, -, -, -, -, -, -, -, -, -, -, -, -, e0, e1, -⟩ := index_facts (pointOf ((I 1).val / 512) 31 (by omega) (by omega))
  rw [mem_blk_sum]
  intro a
  match a with
  | ⟨0, _⟩ =>
    show win2_8.index _ (0 : Fin 2) * 1 ≤ (I 0).val ∧ (I 0).val < win2_8.index _ (0 : Fin 2) * 1 + 1
    rw [e0]; omega
  | ⟨1, _⟩ =>
    show win2_8.index _ (1 : Fin 2) * 512 ≤ (I 1).val ∧ (I 1).val < win2_8.index _ (1 : Fin 2) * 512 + 512
    rw [e1, hv]; omega
theorem covered_sq (I : S1x1024.Idx) :
    ∃ t : Fin cfg2.N, (cfg2.win 9).flush t = true ∧ I ∈ ((cfg2.win 9).blk t).view.set := by
  have hI0 : (I 0).val < 1 := (I 0).isLt
  have hI1 : (I 1).val < 1024 := (I 1).isLt
  have hv : (pointOf ((I 1).val / 512) 31 (by omega) (by omega)).val = 32 * ((I 1).val / 512) + 31 := rfl
  refine ⟨pointOf ((I 1).val / 512) 31 (by omega) (by omega), (flush2_9 _).mpr (by rw [hv]; omega), ?_⟩
  obtain ⟨-, -, -, -, -, -, -, -, -, -, -, -, -, -, -, -, -, -, e0, e1⟩ := index_facts (pointOf ((I 1).val / 512) 31 (by omega) (by omega))
  rw [mem_blk_sq]
  intro a
  match a with
  | ⟨0, _⟩ =>
    show win2_9.index _ (0 : Fin 2) * 1 ≤ (I 0).val ∧ (I 0).val < win2_9.index _ (0 : Fin 2) * 1 + 1
    rw [e0]; omega
  | ⟨1, _⟩ =>
    show win2_9.index _ (1 : Fin 2) * 512 ≤ (I 1).val ∧ (I 1).val < win2_9.index _ (1 : Fin 2) * 512 + 512
    rw [e1, hv]; omega

/-- The two statistics rows after the region: the column sums of the whole-array function, and of its square. -/
theorem final_sum : (dat2 V c).arrAt 8 cfg2.N = ColSum (Yc V c) :=
  (dat2 V c).arrAt_eq_of_cover 8 (ColSum (Yc V c)) (fun t hf => flushed_sum V c t hf) covered_sum
theorem final_sq : (dat2 V c).arrAt 9 cfg2.N = ColSum (fun i j => Yc V c i j * Yc V c i j) :=
  (dat2 V c).arrAt_eq_of_cover 9 (ColSum (fun i j => Yc V c i j * Yc V c i j)) (fun t hf => flushed_sq V c t hf) covered_sq

end Cert.KernelIdeal.Value2
end
-- ==== Proof.IdealPayload3.lean ====
/-
  The normalising program's stored value read at one entry, at the ideal values.

  The value is built from a [1024,1024] block y and four [1,1024] rows (variance v, scale γ, mean μ, shift β) by
  operations that act entry by entry once each row is repeated down the 1024 rows of the block: at entry (p, q) a
  repeated row reads the row's entry q. So the stored value at (p, q) is
      (γ q · (y p q − μ q)) · rsqrt (v q + ε) + β q
  with the products associated in that order; ε is the extended real the constant's word denotes, left as it is.
-/
import proofs.«166235_j274877907496_2_alg».proof.Proof.Gen.KernelIdeal.Skeleton
import Idealize.ShloMosaic.Lib.ValueIdx
import Idealize.ShloMosaic.Lib.Pipeline.Value
import Idealize.ShloMosaic.Lib.ValueLayout

noncomputable section

namespace Cert.KernelIdeal.PayloadAt

open Idealize.ShloMosaic Idealize.ShloMosaic.ValueIdx Cert.KernelIdeal

/-- The normalised block at entry (p, q): scale times deviation, times the reciprocal square root of the shifted
    variance, plus the shift, each row read at its entry q. -/
theorem k3_pay1_at (v0 v5 : Vec Ideal S1x1024 .f32) (v7 : Vec Ideal S1024x1024 .f32) (v9 v17 : Vec Ideal S1x1024 .f32)
    (p q : Fin 1024) :
    Gen.k3_pay1 (F := Ideal) v0 v5 v7 v9 v17 (ix2 p q)
      = v5 (ix2 (0 : Fin 1) q) * (v7 (ix2 p q) - v9 (ix2 (0 : Fin 1) q))
          * Ideal.rsqrt (v0 (ix2 (0 : Fin 1) q) + Ideal.ofBits .f32 0x3727C5AC#32) + v17 (ix2 (0 : Fin 1) q) := by
  unfold Gen.k3_pay1
  simp only [shapeCast_self]
  have hb : ∀ v : FVec Ideal S1x1024 .f32,
      broadcastTo S1024x1024 v Gen.broadcasts_S1x1024_S1024x1024 (ix2 p q) = v (ix2 (0 : Fin 1) q) :=
    fun v => broadcastTo_1b_ab_apply v _ p q
  rw [addf_apply, mulf_apply, mulf_apply, subf_apply, hb, hb, hb, hb]
  rfl

end Cert.KernelIdeal.PayloadAt

end
-- ==== Proof.IdealValue3.lean ====
/-
  The normalised array, from the sixteen row blocks to the whole, at the ideal values.

  The output array is 16384 x 1024 and is written in sixteen 1024 x 1024 row blocks: grid point r writes rows
  1024 r … 1024 r + 1023, all 1024 columns. At a point the program reads the same rows of the raw array y and the
  whole of the four feature rows (mean, variance, scale, shift: one block each, the same at every point), and the
  stored block's entry (p, q) is  γ q · (y (1024 r + p) q − μ q) · rsqrt (v q + ε) + β q.  An entry of a block sits
  in its array at  block index × block extent + its own coordinate  on each axis; the block indices are read off the
  index maps once, over the sixteen points. Hence what a point writes back is the restriction to its block of ONE
  function of the arrays,
      G3 y μ v γ β (i, j) = γ j · (y i j − μ j) · rsqrt (v j + ε) + β j ,
  and since row i lies in the block of point i / 1024, the blocks cover the array: the array ends holding G3.
-/
import proofs.«166235_j274877907496_2_alg».proof.Proof.IdealRegion3
import proofs.«166235_j274877907496_2_alg».proof.Proof.IdealPayload3
import Idealize.ShloMosaic.Lib.Pipeline.Value

set_option maxRecDepth 16384

noncomputable section

namespace Cert.KernelIdeal.Value3

open Cert.KernelIdeal Cert.KernelIdeal.Gen Cert.KernelIdeal.Hand Cert.KernelIdeal.PayloadAt
open Idealize.ShloMosaic Idealize.ShloMosaic.TcCoe Idealize.ShloMosaic.ValueIdx Idealize.SL.Sem
open Idealize.ShloMosaic.Pipeline (Dat)

/-- The zero offsets of a whole-block access, spelt as a function. -/
theorem zeroOffsets : (![0, 0] : Fin 2 → Nat) = fun _ => 0 := funext fun a => by fin_cases a <;> rfl

/-- The normalised array as one function of the raw array and the four feature rows, index by index: at row i and
    column j, scale j times the deviation of y (i, j) from mean j, times the reciprocal square root of variance j plus ε,
    plus shift j. The rows' entries are at (0, j). -/
def G3 (y : S16384x1024.Idx → EReal) (mean var gamma beta : S1x1024.Idx → EReal) : S16384x1024.Idx → EReal :=
  fun i => gamma (ix2 (0 : Fin 1) (i 1 : Fin 1024)) * (y i - mean (ix2 (0 : Fin 1) (i 1 : Fin 1024)))
      * Ideal.rsqrt (var (ix2 (0 : Fin 1) (i 1 : Fin 1024)) + Ideal.ofBits .f32 0x3727C5AC#32)
    + beta (ix2 (0 : Fin 1) (i 1 : Fin 1024))

/-- The same at an index given by its two coordinates. -/
theorem G3_ix2 (y : S16384x1024.Idx → EReal) (mean var gamma beta : S1x1024.Idx → EReal) (r : Fin 16384) (q : Fin 1024) :
    G3 y mean var gamma beta (ix2 r q)
      = gamma (ix2 (0 : Fin 1) q) * (y (ix2 r q) - mean (ix2 (0 : Fin 1) q))
          * Ideal.rsqrt (var (ix2 (0 : Fin 1) q) + Ideal.ofBits .f32 0x3727C5AC#32) + beta (ix2 (0 : Fin 1) q) := rfl

/-- The formula assembled from separate reads — y at an index equal to i, each row at an index equal to (0, column of i)
    — is G3 at i. -/
theorem G3_of_reads (y : S16384x1024.Idx → EReal) (mean var gamma beta : S1x1024.Idx → EReal)
    (i i0 : S16384x1024.Idx) (k1 k2 k3 k4 : S1x1024.Idx) (h0 : i0 = i)
    (h1 : k1 = ix2 (0 : Fin 1) (i 1 : Fin 1024)) (h2 : k2 = ix2 (0 : Fin 1) (i 1 : Fin 1024))
    (h3 : k3 = ix2 (0 : Fin 1) (i 1 : Fin 1024)) (h4 : k4 = ix2 (0 : Fin 1) (i 1 : Fin 1024)) :
    gamma k3 * (y i0 - mean k1) * Ideal.rsqrt (var k2 + Ideal.ofBits .f32 0x3727C5AC#32) + beta k4
      = G3 y mean var gamma beta i := by
  subst h0 h1 h2 h3 h4; rfl

/-- What the program leaves in the output block, at one entry, as the formula of its five input blocks
    (y, mean, variance, scale, shift in that order). -/
theorem out3_5_at (x0 : Vec Ideal S1024x1024 .f32) (x1 x2 x3 x4 : Vec Ideal S1x1024 .f32) (j : S1024x1024.Idx) :
    out3_5 (F := Ideal) x0 x1 x2 x3 x4 j
      = x3 (ix2 (0 : Fin 1) (j 1 : Fin 1024)) * (x0 j - x1 (ix2 (0 : Fin 1) (j 1 : Fin 1024)))
          * Ideal.rsqrt (x2 (ix2 (0 : Fin 1) (j 1 : Fin 1024)) + Ideal.ofBits .f32 0x3727C5AC#32)
        + x4 (ix2 (0 : Fin 1) (j 1 : Fin 1024)) := by
  obtain ⟨p, q, rfl⟩ : ∃ (p q : Fin 1024), j = ix2 p q := ⟨j 0, j 1, eq_ix2 j⟩
  unfold out3_5
  rw [View.canon_unit_zero zeroOffsets]
  simp only [View.ld_unit_zero (S := S1024x1024) zeroOffsets, View.ld_unit_zero (S := S1x1024) zeroOffsets]
  exact k3_pay1_at x2 x3 x0 x1 x4 p q

/-- The block indices, decided over the sixteen points: the y block moves with the output block; the output block's
    column index is 0 and its row index at most 15; the four feature rows are block (0, 0) at every point. -/
theorem blockIndex_facts : ∀ t : Fin cfg3.N,
    win3_0.index t (0 : Fin 2) = win3_5.index t (0 : Fin 2) ∧ win3_0.index t (1 : Fin 2) = 0
    ∧ win3_5.index t (1 : Fin 2) = 0 ∧ win3_5.index t (0 : Fin 2) ≤ 15
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- Every one of the sixteen row blocks is some point's output block. -/
theorem blockIndex_onto : ∀ q0 : Fin 16, ∃ t : Fin cfg3.N, win3_5.index t = ![q0.val, 0] :=
  (by decide +kernel : ∀ q0 : Fin 16, ∃ t : Fin grid3.N, win3_5.index t = ![q0.val, 0])

variable (V : (c : Dev nD) → (b : Ref sig .tc) → Buf (Elt Ideal) ((c : Thread nD τ).loc b))

/-- What point t writes back is block t of G3 of the arrays as the region finds them. -/
theorem flushed3_eq (c : Dev nD) (t : Fin cfg3.N) :
    (dat3 V c).flushed 5 t
      = ((cfg3.win 5).blk t).view.read (Elt Ideal) (G3 (V c main_v21_0) (V c main_v23) (V c main_v27) (V c main_v28) (V c main_v29)) := by
  show (cfg3.win 5).cut (grid3.coords t) ((dat3 V c).after 5 t) = _
  rw [after3_5]
  funext j
  refine (out3_5_at (iblk3 V c 0 t) (iblk3 V c 1 t) (iblk3 V c 2 t) (iblk3 V c 3 t) (iblk3 V c 4 t) j).trans ?_
  obtain ⟨e0, e01, e51, e5le, e10, e11, e20, e21, e30, e31, e40, e41⟩ := blockIndex_facts t
  have hj0 : (j 0).val < 1024 := (j 0).isLt
  have hj1 : (j 1).val < 1024 := (j 1).isLt
  have h0 : ((cfg3.win 0).blk t).view.emb j = ((cfg3.win 5).blk t).view.emb j := by
    funext a; apply Fin.ext
    match a with
    | ⟨0, _⟩ => show win3_0.index t (0 : Fin 2) * 1024 + 1 * (j 0).val = win3_5.index t (0 : Fin 2) * 1024 + 1 * (j 0).val; omega
    | ⟨1, _⟩ => show win3_0.index t (1 : Fin 2) * 1024 + 1 * (j 1).val = win3_5.index t (1 : Fin 2) * 1024 + 1 * (j 1).val; omega
  have h1 : ((cfg3.win 1).blk t).view.emb (ix2 (0 : Fin 1) (j 1 : Fin 1024))
      = ix2 (0 : Fin 1) ((((cfg3.win 5).blk t).view.emb j) 1 : Fin 1024) := by
    funext a; apply Fin.ext
    match a with
    | ⟨0, _⟩ => show win3_1.index t (0 : Fin 2) * 1 + 1 * 0 = 0; omega
    | ⟨1, _⟩ => show win3_1.index t (1 : Fin 2) * 1024 + 1 * (j 1).val = win3_5.index t (1 : Fin 2) * 1024 + 1 * (j 1).val; omega
  have h2 : ((cfg3.win 2).blk t).view.emb (ix2 (0 : Fin 1) (j 1 : Fin 1024))
      = ix2 (0 : Fin 1) ((((cfg3.win 5).blk t).view.emb j) 1 : Fin 1024) := by
    funext a; apply Fin.ext
    match a with
    | ⟨0, _⟩ => show win3_2.index t (0 : Fin 2) * 1 + 1 * 0 = 0; omega
    | ⟨1, _⟩ => show win3_2.index t (1 : Fin 2) * 1024 + 1 * (j 1).val = win3_5.index t (1 : Fin 2) * 1024 + 1 * (j 1).val; omega
  have h3 : ((cfg3.win 3).blk t).view.emb (ix2 (0 : Fin 1) (j 1 : Fin 1024))
      = ix2 (0 : Fin 1) ((((cfg3.win 5).blk t).view.emb j) 1 : Fin 1024) := by
    funext a; apply Fin.ext
    match a with
    | ⟨0, _⟩ => show win3_3.index t (0 : Fin 2) * 1 + 1 * 0 = 0; omega
    | ⟨1, _⟩ => show win3_3.index t (1 : Fin 2) * 1024 + 1 * (j 1).val = win3_5.index t (1 : Fin 2) * 1024 + 1 * (j 1).val; omega
  have h4 : ((cfg3.win 4).blk t).view.emb (ix2 (0 : Fin 1) (j 1 : Fin 1024))
      = ix2 (0 : Fin 1) ((((cfg3.win 5).blk t).view.emb j) 1 : Fin 1024) := by
    funext a; apply Fin.ext
    match a with
    | ⟨0, _⟩ => show win3_4.index t (0 : Fin 2) * 1 + 1 * 0 = 0; omega
    | ⟨1, _⟩ => show win3_4.index t (1 : Fin 2) * 1024 + 1 * (j 1).val = win3_5.index t (1 : Fin 2) * 1024 + 1 * (j 1).val; omega
  exact G3_of_reads (V c main_v21_0) (V c main_v23) (V c main_v27) (V c main_v28) (V c main_v29)
    (((cfg3.win 5).blk t).view.emb j) (((cfg3.win 0).blk t).view.emb j)
    (((cfg3.win 1).blk t).view.emb (ix2 (0 : Fin 1) (j 1 : Fin 1024)))
    (((cfg3.win 2).blk t).view.emb (ix2 (0 : Fin 1) (j 1 : Fin 1024)))
    (((cfg3.win 3).blk t).view.emb (ix2 (0 : Fin 1) (j 1 : Fin 1024)))
    (((cfg3.win 4).blk t).view.emb (ix2 (0 : Fin 1) (j 1 : Fin 1024))) h0 h1 h2 h3 h4

/-- An index of the array is in point t's output block iff each coordinate is in the block's range on its axis. -/
theorem mem_block (t : Fin cfg3.N) (i : S16384x1024.Idx) :
    i ∈ ((cfg3.win 5).blk t).view.set
      ↔ ∀ a : Fin 2, win3_5.index t a * S1024x1024.size a ≤ (i a).val
          ∧ (i a).val < win3_5.index t a * S1024x1024.size a + S1024x1024.size a := by
  show i ∈ ((View.whole main_v30).slice (win3_5.rect t)).set ↔ _
  rw [View.set_slice_whole, Rect.mem_set_unit]
  exact Iff.rfl

/-- Every index of the array is in some point's output block: row i is in the block of the point whose row-block index
    is i / 1024. -/
theorem covered (i : S16384x1024.Idx) :
    ∃ t : Fin cfg3.N, (cfg3.win 5).flush t = true ∧ i ∈ ((cfg3.win 5).blk t).view.set := by
  have hi0 : (i 0).val < 16384 := (i 0).isLt
  have hi1 : (i 1).val < 1024 := (i 1).isLt
  obtain ⟨t, ht⟩ := blockIndex_onto ⟨(i 0).val / 1024, by omega⟩
  have q0 : win3_5.index t (0 : Fin 2) = (i 0).val / 1024 := congrFun ht 0
  have q1 : win3_5.index t (1 : Fin 2) = 0 := congrFun ht 1
  refine ⟨t, flush3_5 t, ?_⟩
  rw [mem_block]
  intro a
  match a with
  | ⟨0, _⟩ =>
    show win3_5.index t (0 : Fin 2) * 1024 ≤ (i 0).val ∧ (i 0).val < win3_5.index t (0 : Fin 2) * 1024 + 1024
    omega
  | ⟨1, _⟩ =>
    show win3_5.index t (1 : Fin 2) * 1024 ≤ (i 1).val ∧ (i 1).val < win3_5.index t (1 : Fin 2) * 1024 + 1024
    omega

/-- The output array after the last point is G3 of the arrays as the region finds them. -/
theorem final3 (c : Dev nD) :
    (dat3 V c).arrAt 5 cfg3.N
      = G3 (V c main_v21_0) (V c main_v23) (V c main_v27) (V c main_v28) (V c main_v29) :=
  (dat3 V c).arrAt_eq_of_cover 5 (G3 (V c main_v21_0) (V c main_v23) (V c main_v27) (V c main_v28) (V c main_v29))
    (fun t _ => flushed3_eq V c t) covered

end Cert.KernelIdeal.Value3
end
-- ==== Proof.IdealBridge.lean ====
import proofs.«166235_j274877907496_2_alg».proof.Proof.IdealBridgeB
import proofs.«166235_j274877907496_2_alg».proof.Proof.IdealValue2
import proofs.«166235_j274877907496_2_alg».proof.Proof.IdealValue3
import proofs.«166235_j274877907496_2_alg».proof.Proof.IdealKernelFrame

set_option maxRecDepth 16384

noncomputable section

namespace Cert.KernelIdeal.Bridge

open Cert.KernelIdeal Cert.KernelIdeal.Gen Cert.KernelIdeal.Hand
open Idealize.ShloMosaic Idealize.ShloMosaic.TcCoe Idealize.ShloMosaic.ValueIdx Idealize.SL.Sem
open BatchNormMlp
open scoped BigOperators

variable (m : (ℓ : Loc nD τ sig) → Buf (Elt Ideal) ℓ) (c : Dev nD)

local notation "D0" => (fun V c => dat0 (F := Ideal) V c)
local notation "D1" => (fun V c => dat1 (F := Ideal) V c)
local notation "D2" => (fun V c => dat2 (F := Ideal) V c)

/-! ## The program's values, boundary by boundary (part three): the third layer's region, the last host stretch, the
normalising region, and the result -/

/-- Region 2's whole-array function at input arrays known entry by entry: the linear part of the normalised rows. -/
theorem Y2_congr (z : S16384x2048.Idx → EReal) (mean var g bt : S1x2048.Idx → EReal) (W : S1024x2048.Idx → EReal) (b : S1x1024.Idx → EReal)
    (zf : Fin 16384 → Fin 2048 → EReal) (mf vf gf btf : Fin 2048 → EReal) (Wf : Fin 1024 → Fin 2048 → EReal) (bf : Fin 1024 → EReal)
    (hz : ∀ i l, z (ix2 i l) = zf i l) (hm : ∀ l, mean (ix2 (0 : Fin 1) l) = mf l) (hv : ∀ l, var (ix2 (0 : Fin 1) l) = vf l)
    (hg : ∀ l, g (ix2 (0 : Fin 1) l) = gf l) (hbt : ∀ l, bt (ix2 (0 : Fin 1) l) = btf l)
    (hW : ∀ j l, W (ix2 j l) = Wf j l) (hb : ∀ j, b (ix2 (0 : Fin 1) j) = bf j) :
    Value2.Y2 z mean var g bt W b = Fused.lin (Fused.normFused εf zf mf vf gf btf) Wf bf := by
  funext i j
  unfold Value2.Y2 Fused.lin Fused.normFused
  simp only [hz, hm, hv, hg, hbt, hW, hb]

/-! ### Boundary 6: after fused region 2 -/

theorem V6_v21_0 : V6 m (O m) c main_v21_0 = (dat2 (E5 m (O m)) c).arrAt 7 cfg2.N := by
  simp only [V6, Function.update_of_ne (StableHlo.devRef_ne_of_ne (by decide : main_v21_0 ≠ main_v21_2) : (Proc.devRef .tc main_v21_0 : DevRef τ sig) ≠ Proc.devRef .tc main_v21_2),
    Function.update_of_ne (StableHlo.devRef_ne_of_ne (by decide : main_v21_0 ≠ main_v21_1) : (Proc.devRef .tc main_v21_0 : DevRef τ sig) ≠ Proc.devRef .tc main_v21_1),
    Function.update_self]
  exact exit2 D0 D1 D2 m 7 c

theorem V6_v21_1 : V6 m (O m) c main_v21_1 = (dat2 (E5 m (O m)) c).arrAt 8 cfg2.N := by
  simp only [V6, Function.update_of_ne (StableHlo.devRef_ne_of_ne (by decide : main_v21_1 ≠ main_v21_2) : (Proc.devRef .tc main_v21_1 : DevRef τ sig) ≠ Proc.devRef .tc main_v21_2),
    Function.update_self]
  exact exit2 D0 D1 D2 m 8 c

theorem V6_v21_2 : V6 m (O m) c main_v21_2 = (dat2 (E5 m (O m)) c).arrAt 9 cfg2.N := by
  simp only [V6, Function.update_self]
  exact exit2 D0 D1 D2 m 9 c

/-- The previous region's raw output, still in place. -/
theorem V5_y (i : Fin 16384) (l : Fin 2048) :
    (V5 m (O m) c main_v11_0 : S16384x2048.Idx → EReal) (ix2 i l) = Fused.y1 Nf εf (ax m c) (aW0 m c) (ab0 m c) (ag0 m c) (abt0 m c) (aW1 m c) (ab1 m c) i l := by
  rw [V5_v11_0]
  exact V4_y m c i l

/-- The weights the region reads are as launched. -/
theorem V5_W (j : Fin 1024) (l : Fin 2048) :
    (V5 m (O m) c main_arg9 : S1024x2048.Idx → EReal) (ix2 j l) = aW2 m c j l := by
  rw [V5_arg9]
  rfl

/-- The region's whole-array function of its entry contents is the chain's linear part number 2. -/
theorem Y2c_eq : Value2.Yc (E5 m (O m)) c = Fused.y2 Nf εf (ax m c) (aW0 m c) (ab0 m c) (ag0 m c) (abt0 m c) (aW1 m c) (ab1 m c) (ag1 m c) (abt1 m c) (aW2 m c) (ab2 m c) :=
  (Y2_congr _ _ _ _ _ _ _ (Fused.y1 Nf εf (ax m c) (aW0 m c) (ab0 m c) (ag0 m c) (abt0 m c) (aW1 m c) (ab1 m c)) (Fused.meanK Nf (Fused.y1 Nf εf (ax m c) (aW0 m c) (ab0 m c) (ag0 m c) (abt0 m c) (aW1 m c) (ab1 m c))) (Fused.varK Nf (Fused.y1 Nf εf (ax m c) (aW0 m c) (ab0 m c) (ag0 m c) (abt0 m c) (aW1 m c) (ab1 m c))) (ag1 m c) (abt1 m c) (aW2 m c) (ab2 m c)
    (V5_y m c) (V5_mean m c) (V5_var m c) (V5_v18 m c) (V5_v19 m c)
    (V5_W m c) (V5_v20 m c)).trans rfl

/-- The region leaves that linear part in its output array … -/
theorem V6_y (i : Fin 16384) (j : Fin 1024) :
    (V6 m (O m) c main_v21_0 : S16384x1024.Idx → EReal) (ix2 i j) = Fused.y2 Nf εf (ax m c) (aW0 m c) (ab0 m c) (ag0 m c) (abt0 m c) (aW1 m c) (ab1 m c) (ag1 m c) (abt1 m c) (aW2 m c) (ab2 m c) i j := by
  rw [V6_v21_0, Value2.final_y (E5 m (O m)) c, Value2.Yarr_ix2, Y2c_eq]

/-- … its column sums in the second … -/
theorem V6_sum (j : Fin 1024) :
    (V6 m (O m) c main_v21_1 : S1x1024.Idx → EReal) (ix2 (0 : Fin 1) j) = ∑ i : Fin 16384, Fused.y2 Nf εf (ax m c) (aW0 m c) (ab0 m c) (ag0 m c) (abt0 m c) (aW1 m c) (ab1 m c) (ag1 m c) (abt1 m c) (aW2 m c) (ab2 m c) i j := by
  rw [V6_v21_1, Value2.final_sum (E5 m (O m)) c, Value2.ColSum_ix2, Y2c_eq]

/-- … and the column sums of its squares in the third. -/
theorem V6_sq (j : Fin 1024) :
    (V6 m (O m) c main_v21_2 : S1x1024.Idx → EReal) (ix2 (0 : Fin 1) j) = ∑ i : Fin 16384, Fused.y2 Nf εf (ax m c) (aW0 m c) (ab0 m c) (ag0 m c) (abt0 m c) (aW1 m c) (ab1 m c) (ag1 m c) (abt1 m c) (aW2 m c) (ab2 m c) i j * Fused.y2 Nf εf (ax m c) (aW0 m c) (ab0 m c) (ag0 m c) (abt0 m c) (aW1 m c) (ab1 m c) (ag1 m c) (abt1 m c) (aW2 m c) (ab2 m c) i j := by
  rw [V6_v21_2, Value2.final_sq (E5 m (O m)) c, Value2.ColSum_ix2, Y2c_eq]

/-! ### Boundary 7: after host stretch 3 -/

/-- The mean row the next region reads. -/
theorem V7_mean (q : Fin 1024) :
    (V7 m (O m) c main_v23 : S1x1024.Idx → EReal) (ix2 (0 : Fin 1) q) = Fused.meanK Nf (Fused.y2 Nf εf (ax m c) (aW0 m c) (ab0 m c) (ag0 m c) (abt0 m c) (aW1 m c) (ab1 m c) (ag1 m c) (abt1 m c) (aW2 m c) (ab2 m c)) q := by
  refine (HostAt.host3_v23_at (V6 m (O m) c) q).trans ?_
  rw [V6_sum]
  rfl

/-- The variance row the next region reads: one pass, the mean of the squares less the square of the mean. -/
theorem V7_var (q : Fin 1024) :
    (V7 m (O m) c main_v27 : S1x1024.Idx → EReal) (ix2 (0 : Fin 1) q) = Fused.varK Nf (Fused.y2 Nf εf (ax m c) (aW0 m c) (ab0 m c) (ag0 m c) (abt0 m c) (aW1 m c) (ab1 m c) (ag1 m c) (abt1 m c) (aW2 m c) (ab2 m c)) q := by
  refine (HostAt.host3_v27_at (V6 m (O m) c) q).trans ?_
  rw [V6_sq, V6_sum]
  rfl

/-- The row `main_v28` is the flat argument `main_arg11`. -/
theorem V7_v28 (q : Fin 1024) :
    (V7 m (O m) c main_v28 : S1x1024.Idx → EReal) (ix2 (0 : Fin 1) q) = ag2 m c q := by
  refine (HostAt.host3_v28_at (V6 m (O m) c) q).trans ?_
  rw [V6_of m (O m) c main_arg11 (by decide), V5_of m (O m) c main_arg11 (by decide), V4_of m (O m) c main_arg11 (by decide), V3_of m (O m) c main_arg11 (by decide), V2_of m (O m) c main_arg11 (by decide), V1_of m c main_arg11 (by decide)]
  rfl

/-- The row `main_v29` is the flat argument `main_arg12`. -/
theorem V7_v29 (q : Fin 1024) :
    (V7 m (O m) c main_v29 : S1x1024.Idx → EReal) (ix2 (0 : Fin 1) q) = abt2 m c q := by
  refine (HostAt.host3_v29_at (V6 m (O m) c) q).trans ?_
  rw [V6_of m (O m) c main_arg12 (by decide), V5_of m (O m) c main_arg12 (by decide), V4_of m (O m) c main_arg12 (by decide), V3_of m (O m) c main_arg12 (by decide), V2_of m (O m) c main_arg12 (by decide), V1_of m c main_arg12 (by decide)]
  rfl

/-- The region's output array is not written by the host stretch. -/
theorem V7_v21_0 : V7 m (O m) c main_v21_0 = V6 m (O m) c main_v21_0 :=
  V7_of m (O m) c main_v21_0 (by decide)

/-! ### Boundary 8: after the normalising region -/

/-- The third layer's raw output, still in place. -/
theorem V7_y (i : Fin 16384) (l : Fin 1024) :
    (V7 m (O m) c main_v21_0 : S16384x1024.Idx → EReal) (ix2 i l) = Fused.y2 Nf εf (ax m c) (aW0 m c) (ab0 m c) (ag0 m c) (abt0 m c) (aW1 m c) (ab1 m c) (ag1 m c) (abt1 m c) (aW2 m c) (ab2 m c) i l := by
  rw [V7_v21_0]
  exact V6_y m c i l

/-- The normalising region's function at arrays known entry by entry: the normalisation in the order `γ · (y − μ) · rsqrt (σ² + ε) + β`. -/
theorem G3_at (y : S16384x1024.Idx → EReal) (mean var gamma beta : S1x1024.Idx → EReal)
    (yf : Fin 16384 → Fin 1024 → EReal) (mf vf gf btf : Fin 1024 → EReal)
    (hy : ∀ i l, y (ix2 i l) = yf i l) (hm : ∀ l, mean (ix2 (0 : Fin 1) l) = mf l) (hv : ∀ l, var (ix2 (0 : Fin 1) l) = vf l)
    (hg : ∀ l, gamma (ix2 (0 : Fin 1) l) = gf l) (hbt : ∀ l, beta (ix2 (0 : Fin 1) l) = btf l) (i : Fin 16384) (j : Fin 1024) :
    Value3.G3 y mean var gamma beta (ix2 i j) = Fused.normLast εf yf mf vf gf btf i j := by
  rw [Value3.G3_ix2, hy, hm, hv, hg, hbt]
  rfl

/-- The result array, as the last region's pipeline leaves it, is the chain of the three layers at the launch arguments. -/
theorem result_O (i : Fin 16384) (j : Fin 1024) :
    (O m 8 main_v30 c : S16384x1024.Idx → EReal) (ix2 i j) = Fused.chain Nf εf (ax m c) (aW0 m c) (ab0 m c) (ag0 m c) (abt0 m c) (aW1 m c) (ab1 m c) (ag1 m c) (abt1 m c) (aW2 m c) (ab2 m c) (ag2 m c) (abt2 m c) i j := by
  rw [show O m 8 main_v30 c = (dat3 (E7 m (O m)) c).arrAt 5 cfg3.N from exit3 D0 D1 D2 m 5 c, Value3.final3 (E7 m (O m)) c]
  exact (G3_at _ _ _ _ _ (Fused.y2 Nf εf (ax m c) (aW0 m c) (ab0 m c) (ag0 m c) (abt0 m c) (aW1 m c) (ab1 m c) (ag1 m c) (abt1 m c) (aW2 m c) (ab2 m c)) (Fused.meanK Nf (Fused.y2 Nf εf (ax m c) (aW0 m c) (ab0 m c) (ag0 m c) (abt0 m c) (aW1 m c) (ab1 m c) (ag1 m c) (abt1 m c) (aW2 m c) (ab2 m c))) (Fused.varK Nf (Fused.y2 Nf εf (ax m c) (aW0 m c) (ab0 m c) (ag0 m c) (abt0 m c) (aW1 m c) (ab1 m c) (ag1 m c) (abt1 m c) (aW2 m c) (ab2 m c))) (ag2 m c) (abt2 m c)
    (V7_y m c) (V7_mean m c) (V7_var m c) (V7_v28 m c) (V7_v29 m c) i j).trans rfl

/-- The result the idealized kernel's run leaves, read at `(i, j)`: the chain of the three layers — the first two normalised as
    `((y − μ) · rsqrt (σ² + ε)) · γ + β`, the last as `γ · (y − μ) · rsqrt (σ² + ε) + β`, each variance the mean of the squares less
    the square of the mean — at the thirteen launch arguments read by coordinates, the divisor and `ε` the program's constants. -/
theorem result_chain (m : (ℓ : Loc Cert.KernelIdeal.nD Cert.KernelIdeal.τ Cert.KernelIdeal.sig) → Buf (Elt Ideal) ℓ)
    (c : Dev Cert.KernelIdeal.nD) (i : Fin 16384) (j : Fin 1024) :
    Cert.KernelIdeal.Hand.resultOf (F := Ideal) m c (ix2 i j)
      = BatchNormMlp.Fused.chain (Ideal.ofBits .f32 0x46800000#32) (Ideal.ofBits .f32 0x3727C5AC#32)
          (fun a b => m ((c.tc : Thread nD τ).loc main_arg0) (ix2 a b)) (fun a b => m ((c.tc : Thread nD τ).loc main_arg1) (ix2 a b))
          (fun a => m ((c.tc : Thread nD τ).loc main_arg2) (ix1 a)) (fun a => m ((c.tc : Thread nD τ).loc main_arg3) (ix1 a)) (fun a => m ((c.tc : Thread nD τ).loc main_arg4) (ix1 a))
          (fun a b => m ((c.tc : Thread nD τ).loc main_arg5) (ix2 a b))
          (fun a => m ((c.tc : Thread nD τ).loc main_arg6) (ix1 a)) (fun a => m ((c.tc : Thread nD τ).loc main_arg7) (ix1 a)) (fun a => m ((c.tc : Thread nD τ).loc main_arg8) (ix1 a))
          (fun a b => m ((c.tc : Thread nD τ).loc main_arg9) (ix2 a b))
          (fun a => m ((c.tc : Thread nD τ).loc main_arg10) (ix1 a)) (fun a => m ((c.tc : Thread nD τ).loc main_arg11) (ix1 a)) (fun a => m ((c.tc : Thread nD τ).loc main_arg12) (ix1 a)) i j :=
  result_O m c i j

end Cert.KernelIdeal.Bridge

end
-- ==== Proof.lean ====
/-
  The certificate's five claims, assembled. The three frames and the idealization claim are in Proof/Frames.lean: the
  word-level kernel program and its idealization through their four kernel regions, the reference through its run.
  The value claim is Proof/Algebraic.lean over the bridge of Proof/IdealBridge.lean: the kernel's result array is its
  fused arrangement of three [linear map, batch normalisation] layers at the launch contents, the reference's is the plain
  arrangement, and under the precondition both are one real-valued function entry by entry.
-/
import proofs.«166235_j274877907496_2_alg».proof.Defs
import proofs.«166235_j274877907496_2_alg».proof.Proof.Gen.Kernel
import proofs.«166235_j274877907496_2_alg».proof.Proof.Gen.KernelIdeal
import proofs.«166235_j274877907496_2_alg».proof.Proof.Gen.ReferenceIdeal
import proofs.«166235_j274877907496_2_alg».proof.Proof.Gen.Pre_finite_inputs
import proofs.«166235_j274877907496_2_alg».proof.Proof.Frames
import proofs.«166235_j274877907496_2_alg».proof.Proof.Algebraic
import proofs.«166235_j274877907496_2_alg».proof.Proof.IdealBridge

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Frames.frame_kernel, Frames.frame_kernelIdeal, Frames.frame_referenceIdeal, Frames.preserves,
    Algebraic.algebraic_of Cert.KernelIdeal.Bridge.result_chain⟩

end Cert.Proof

end
